-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50x3 : Shape := ⟨3, ![4096, 50, 3]⟩
abbrev S1001x128 : Shape := ⟨2, ![1001, 128]⟩
abbrev S_ : Shape := ⟨0, ![]⟩

class Facts : Prop where
  bcast_S_S1001x128 : S_.BroadcastsInDim S1001x128 (![] : Fin 0 → Fin S1001x128.rank)
  reducesTo_S1001x128_S_d0_1 : S1001x128.ReducesTo [0, 1] S_
  h_S_ : 0 < S_.numel
  bcast_S_S4096x50x3 : S_.BroadcastsInDim S4096x50x3 (![] : Fin 0 → Fin S4096x50x3.rank)
  reducesTo_S4096x50x3_S_d0_1_2 : S4096x50x3.ReducesTo [0, 1, 2] S_

variable [Facts]

def fn_part1 {F : FTy → Type} [FloatOps F] (main_arg0 : IVec S4096x50x3 32) (main_v13 : IVec S_ 1) (main_v15 : IVec S4096x50x3 1) (main_c_5 : IVec S_ 32) : IVec S_ 1 :=
  let main_v16 : IVec S4096x50x3 32 := broadcastInDim S4096x50x3 ![] bcast_S_S4096x50x3 main_c_5
  let main_v17 : IVec S4096x50x3 1 := cmpi .sle main_arg0 main_v16
  let main_v18 : IVec S4096x50x3 1 := andi main_v15 main_v17
  let main_c_6 : IVec S_ 1 := constantI S_ 1 1#1
  let main_v19 : IVec S_ 1 := (fun x v => Host.reduce IntOp.andi x v reducesTo_S4096x50x3_S_d0_1_2 h_S_) main_v18 main_c_6
  let main_v20 : IVec S_ 1 := andi main_v13 main_v19
  main_v20

def fn {F : FTy → Type} [FloatOps F] (main_arg0 : IVec S4096x50x3 32) (main_arg1 : FVec F S1001x128 .f32) (main_arg2 : FVec F S1001x128 .f32) (main_arg3 : FVec F S1001x128 .f32) : IVec S_ 1 :=
  let main_v0 : FVec F S1001x128 .f32 := Host.absf main_arg1
  let main_cst : FVec F S_ .f32 := constant S_ .f32 0x7F800000#32
  let main_v1 : FVec F S1001x128 .f32 := broadcastInDim S1001x128 ![] bcast_S_S1001x128 main_cst
  let main_v2 : IVec S1001x128 1 := cmpf .olt main_v0 main_v1
  let main_c : IVec S_ 1 := constantI S_ 1 1#1
  let main_v3 : IVec S_ 1 := (fun x v => Host.reduce IntOp.andi x v reducesTo_S1001x128_S_d0_1 h_S_) main_v2 main_c
  let main_v4 : FVec F S1001x128 .f32 := Host.absf main_arg2
  let main_cst_0 : FVec F S_ .f32 := constant S_ .f32 0x7F800000#32
  let main_v5 : FVec F S1001x128 .f32 := broadcastInDim S1001x128 ![] bcast_S_S1001x128 main_cst_0
  let main_v6 : IVec S1001x128 1 := cmpf .olt main_v4 main_v5
  let main_c_1 : IVec S_ 1 := constantI S_ 1 1#1
  let main_v7 : IVec S_ 1 := (fun x v => Host.reduce IntOp.andi x v reducesTo_S1001x128_S_d0_1 h_S_) main_v6 main_c_1
  let main_v8 : IVec S_ 1 := andi main_v3 main_v7
  let main_v9 : FVec F S1001x128 .f32 := Host.absf main_arg3
  let main_cst_2 : FVec F S_ .f32 := constant S_ .f32 0x7F800000#32
  let main_v10 : FVec F S1001x128 .f32 := broadcastInDim S1001x128 ![] bcast_S_S1001x128 main_cst_2
  let main_v11 : IVec S1001x128 1 := cmpf .olt main_v9 main_v10
  let main_c_3 : IVec S_ 1 := constantI S_ 1 1#1
  let main_v12 : IVec S_ 1 := (fun x v => Host.reduce IntOp.andi x v reducesTo_S1001x128_S_d0_1 h_S_) main_v11 main_c_3
  let main_v13 : IVec S_ 1 := andi main_v8 main_v12
  let main_c_4 : IVec S_ 32 := constantI S_ 32 0#32
  let main_v14 : IVec S4096x50x3 32 := broadcastInDim S4096x50x3 ![] bcast_S_S4096x50x3 main_c_4
  let main_v15 : IVec S4096x50x3 1 := cmpi .sge main_arg0 main_v14
  let main_c_5 : IVec S_ 32 := constantI S_ 32 999#32
  fn_part1 (F := F) main_arg0 main_v13 main_v15 main_c_5
-- ==== Kernel.lean ====
abbrev S4096x50x3 : Shape := ⟨3, ![4096, 50, 3]⟩
abbrev S1001x128 : Shape := ⟨2, ![1001, 128]⟩
abbrev S3x50x4096 : Shape := ⟨3, ![3, 50, 4096]⟩
abbrev S50x3x4096x128 : Shape := ⟨4, ![50, 3, 4096, 128]⟩
abbrev S_ : Shape := ⟨0, ![]⟩
abbrev S2x1x1x128 : Shape := ⟨4, ![2, 1, 1, 128]⟩
abbrev S2 : Shape := ⟨1, ![2]⟩
abbrev S2x1x1x128x128 : Shape := ⟨5, ![2, 1, 1, 128, 128]⟩
abbrev S1x1x1x128 : Shape := ⟨4, ![1, 1, 1, 128]⟩
abbrev S1x1x128 : Shape := ⟨3, ![1, 1, 128]⟩
abbrev S1 : Shape := ⟨1, ![1]⟩
abbrev S1x1x1x128x128 : Shape := ⟨5, ![1, 1, 1, 128, 128]⟩
abbrev S1x1x128x128 : Shape := ⟨4, ![1, 1, 128, 128]⟩
abbrev S128x128 : Shape := ⟨2, ![128, 128]⟩
abbrev S128 : Shape := ⟨1, ![128]⟩
abbrev S4096x50x3x128 : Shape := ⟨4, ![4096, 50, 3, 128]⟩

abbrev nBuf : Table → Nat
  | .hbm => 7
  | .shared => 3
  | .local .scVector .vmem => 6
  | _ => 0

abbrev bufTy : (tb : Table) → Fin (nBuf tb) → BufTy
  | .hbm, ⟨0, _⟩ => ⟨S4096x50x3, .i32⟩
  | .hbm, ⟨1, _⟩ => ⟨S1001x128, .f32⟩
  | .hbm, ⟨2, _⟩ => ⟨S1001x128, .f32⟩
  | .hbm, ⟨3, _⟩ => ⟨S1001x128, .f32⟩
  | .hbm, ⟨4, _⟩ => ⟨S3x50x4096, .i32⟩
  | .hbm, ⟨5, _⟩ => ⟨S50x3x4096x128, .f32⟩
  | .hbm, ⟨6, _⟩ => ⟨S4096x50x3x128, .f32⟩
  | .shared, ⟨0, _⟩ => ⟨S1001x128, .f32⟩
  | .shared, ⟨1, _⟩ => ⟨S1001x128, .f32⟩
  | .shared, ⟨2, _⟩ => ⟨S1001x128, .f32⟩
  | .local .scVector .vmem, ⟨0, _⟩ => ⟨S2x1x1x128, .i32⟩
  | .local .scVector .vmem, ⟨1, _⟩ => ⟨S2x1x1x128x128, .f32⟩
  | .local .scVector .vmem, ⟨2, _⟩ => ⟨S2x1x1x128, .i32⟩
  | .local .scVector .vmem, ⟨3, _⟩ => ⟨S2x1x1x128x128, .f32⟩
  | .local .scVector .vmem, ⟨4, _⟩ => ⟨S2x1x1x128, .i32⟩
  | .local .scVector .vmem, ⟨5, _⟩ => ⟨S2x1x1x128x128, .f32⟩
  | _, _ => ⟨S4096x50x3, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 5 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev main_v1_scv : Ref sig .scVector := ⟨.hbm, 5, rfl⟩
abbrev cc0_scratch0 : Ref sig .scVector := ⟨.shared, 0, rfl⟩
abbrev cc0_scratch1 : Ref sig .scVector := ⟨.shared, 1, rfl⟩
abbrev cc0_scratch2 : Ref sig .scVector := ⟨.shared, 2, rfl⟩
abbrev cc0_scoped3 : Ref sig .scVector := ⟨.vmem, 0, rfl⟩
abbrev cc0_scoped5 : Ref sig .scVector := ⟨.vmem, 1, rfl⟩
abbrev cc0_scoped8 : Ref sig .scVector := ⟨.vmem, 2, rfl⟩
abbrev cc0_scoped10 : Ref sig .scVector := ⟨.vmem, 3, rfl⟩
abbrev cc0_scoped13 : Ref sig .scVector := ⟨.vmem, 4, rfl⟩
abbrev cc0_scoped15 : Ref sig .scVector := ⟨.vmem, 5, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 : Fin 4 → Nat :=
  let c0_i32_23_r3 : BitVec 32 := 0#32
  let c2_i32_r3 : BitVec 32 := 2#32
  let v34_r3 : BitVec 32 := Scalar.remui c0_i32_23_r3 c2_i32_r3
  let c0_i32_37_r3 : BitVec 32 := 0#32
  let c0_i32_38_r3 : BitVec 32 := 0#32
  let c0_i32_39_r3 : BitVec 32 := 0#32
  ![v34_r3.toNat, 0, 0, 0]
def k0_off2 (i : grid0.Coords) : Fin 3 → Nat :=
  let c0_i32_40_r3 : BitVec 32 := 0#32
  let c1_i32_36_r3 : BitVec 32 := 1#32
  let c0_i32_11_r3 : BitVec 32 := 0#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c50_i32 : BitVec 32 := 50#32
  let v7 : BitVec 32 := Scalar.muli v6 c50_i32
  let v20_r3 : BitVec 32 := Scalar.addi c0_i32_11_r3 v7
  let c0_i32_24_r3 : BitVec 32 := 0#32
  let v36_r3 : BitVec 1 := Scalar.cmpi .sgt v20_r3 c0_i32_24_r3
  let v37_r3 : BitVec 32 := Scalar.extui v36_r3
  let c0_i32_25_r3 : BitVec 32 := 0#32
  let v38_r3 : BitVec 1 := Scalar.cmpi .slt v20_r3 c0_i32_25_r3
  let v39_r3 : BitVec 32 := Scalar.extui v38_r3
  let v40_r3 : BitVec 32 := Scalar.subi v37_r3 v39_r3
  let c32_i32_r3 : BitVec 32 := 32#32
  let c0_i32_26_r3 : BitVec 32 := 0#32
  let v41_r3 : BitVec 1 := Scalar.cmpi .sgt c32_i32_r3 c0_i32_26_r3
  let v42_r3 : BitVec 32 := Scalar.extui v41_r3
  let c0_i32_27_r3 : BitVec 32 := 0#32
  let v43_r3 : BitVec 1 := Scalar.cmpi .slt c32_i32_r3 c0_i32_27_r3
  let v44_r3 : BitVec 32 := Scalar.extui v43_r3
  let v45_r3 : BitVec 32 := Scalar.subi v42_r3 v44_r3
  let v46_r3 : BitVec 1 := Scalar.cmpi .ne v40_r3 v45_r3
  let v47_r3 : BitVec 32 := Scalar.remsi v20_r3 c32_i32_r3
  let c0_i32_28_r3 : BitVec 32 := 0#32
  let v48_r3 : BitVec 1 := Scalar.cmpi .ne v47_r3 c0_i32_28_r3
  let v49_r3 : BitVec 1 := Scalar.andi v46_r3 v48_r3
  let v35_r3 : BitVec 32 := Scalar.divsi v20_r3 c32_i32_r3
  let c1_i32_29_r3 : BitVec 32 := 1#32
  let v50_r3 : BitVec 32 := Scalar.subi v35_r3 c1_i32_29_r3
  let v51_r3 : BitVec 32 := Scalar.select v49_r3 v50_r3 v35_r3
  let v62_r3 : BitVec 32 := Scalar.muli c1_i32_36_r3 v51_r3
  let c128_i32_r3 : BitVec 32 := 128#32
  let c32_i32_30_r3 : BitVec 32 := 32#32
  let c0_i32_31_r3 : BitVec 32 := 0#32
  let v52_r3 : BitVec 1 := Scalar.cmpi .eq c32_i32_30_r3 c0_i32_31_r3
  let c1_i32_32_r3 : BitVec 32 := 1#32
  let v53_r3 : BitVec 32 := Scalar.select v52_r3 c1_i32_32_r3 c32_i32_30_r3
  let v54_r3 : BitVec 32 := Scalar.remsi v20_r3 v53_r3
  let c0_i32_34_r3 : BitVec 32 := 0#32
  let v56_r3 : BitVec 1 := Scalar.cmpi .slt v54_r3 c0_i32_34_r3
  let c0_i32_35_r3 : BitVec 32 := 0#32
  let v57_r3 : BitVec 1 := Scalar.cmpi .slt v53_r3 c0_i32_35_r3
  let v58_r3 : BitVec 1 := Scalar.xori v56_r3 v57_r3
  let c0_i32_33_r3 : BitVec 32 := 0#32
  let v55_r3 : BitVec 1 := Scalar.cmpi .ne v54_r3 c0_i32_33_r3
  let v59_r3 : BitVec 1 := Scalar.andi v58_r3 v55_r3
  let v60_r3 : BitVec 32 := Scalar.addi v54_r3 v53_r3
  let v61_r3 : BitVec 32 := Scalar.select v59_r3 v60_r3 v54_r3
  let v63_r3 : BitVec 32 := Scalar.muli c128_i32_r3 v61_r3
  ![0, v62_r3.toNat, v63_r3.toNat]
def k0_off3 : Fin 1 → Nat :=
  let c0_i32_23_r3 : BitVec 32 := 0#32
  let c2_i32_r3 : BitVec 32 := 2#32
  let v34_r3 : BitVec 32 := Scalar.remui c0_i32_23_r3 c2_i32_r3
  ![v34_r3.toNat]
@[reducible] def k0_t1_loop : Scf.Loop 32 :=
  let c0_i32_51_r3 : BitVec 32 := 0#32
  let c50_i32_52_r3 : BitVec 32 := 50#32
  let v73_r3 : BitVec 32 := Scalar.addi c0_i32_51_r3 c50_i32_52_r3
  let c1_i32_53_r3 : BitVec 32 := 1#32
  ⟨c0_i32_51_r3, v73_r3, c1_i32_53_r3⟩
def k0_off4 (arg11_r3 : BitVec 32) : Fin 4 → Nat :=
  let c2_i32_226_r3 : BitVec 32 := 2#32
  let v394_r3 : BitVec 32 := Scalar.remui arg11_r3 c2_i32_226_r3
  let c0_i32_242_r3 : BitVec 32 := 0#32
  let c0_i32_243_r3 : BitVec 32 := 0#32
  let c0_i32_244_r3 : BitVec 32 := 0#32
  ![v394_r3.toNat, 0, 0, 0]
def k0_cond2 (i : grid0.Coords) (k0_t1 : Fin k0_t1_loop.trips) (arg15_r3 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c50_i32 : BitVec 32 := 50#32
  let v7 : BitVec 32 := Scalar.muli v6 c50_i32
  let v135_r3 : BitVec 32 := Scalar.addi arg15_r3 v7
  let c0_i32_114_r3 : BitVec 32 := 0#32
  let v152_r3 : BitVec 1 := Scalar.cmpi .sgt v135_r3 c0_i32_114_r3
  let v153_r3 : BitVec 32 := Scalar.extui v152_r3
  let c0_i32_115_r3 : BitVec 32 := 0#32
  let v154_r3 : BitVec 1 := Scalar.cmpi .slt v135_r3 c0_i32_115_r3
  let v155_r3 : BitVec 32 := Scalar.extui v154_r3
  let v156_r3 : BitVec 32 := Scalar.subi v153_r3 v155_r3
  let c32_i32_113_r3 : BitVec 32 := 32#32
  let c0_i32_116_r3 : BitVec 32 := 0#32
  let v157_r3 : BitVec 1 := Scalar.cmpi .sgt c32_i32_113_r3 c0_i32_116_r3
  let v158_r3 : BitVec 32 := Scalar.extui v157_r3
  let c0_i32_117_r3 : BitVec 32 := 0#32
  let v159_r3 : BitVec 1 := Scalar.cmpi .slt c32_i32_113_r3 c0_i32_117_r3
  let v160_r3 : BitVec 32 := Scalar.extui v159_r3
  let v161_r3 : BitVec 32 := Scalar.subi v158_r3 v160_r3
  let v162_r3 : BitVec 1 := Scalar.cmpi .ne v156_r3 v161_r3
  let v163_r3 : BitVec 32 := Scalar.remsi v135_r3 c32_i32_113_r3
  let c0_i32_118_r3 : BitVec 32 := 0#32
  let v164_r3 : BitVec 1 := Scalar.cmpi .ne v163_r3 c0_i32_118_r3
  let v165_r3 : BitVec 1 := Scalar.andi v162_r3 v164_r3
  let v151_r3 : BitVec 32 := Scalar.divsi v135_r3 c32_i32_113_r3
  let c1_i32_119_r3 : BitVec 32 := 1#32
  let v166_r3 : BitVec 32 := Scalar.subi v151_r3 c1_i32_119_r3
  let v167_r3 : BitVec 32 := Scalar.select v165_r3 v166_r3 v151_r3
  let true_106_r3 : BitVec 1 := 1#1
  let c1_i32_105_r3 : BitVec 32 := 1#32
  let v141_r3 : BitVec 32 := Scalar.addi arg15_r3 c1_i32_105_r3
  let v142_r3 : BitVec 32 := Scalar.select true_106_r3 v141_r3 arg15_r3
  let c50_i32_107_r3 : BitVec 32 := 50#32
  let v143_r3 : BitVec 1 := Scalar.cmpi .eq v142_r3 c50_i32_107_r3
  let c0_i32_108_r3 : BitVec 32 := 0#32
  let v144_r3 : BitVec 32 := Scalar.select v143_r3 c0_i32_108_r3 v142_r3
  let v145_r3 : BitVec 32 := Scalar.addi v144_r3 v7
  let c0_i32_127_r3 : BitVec 32 := 0#32
  let v179_r3 : BitVec 1 := Scalar.cmpi .sgt v145_r3 c0_i32_127_r3
  let v180_r3 : BitVec 32 := Scalar.extui v179_r3
  let c0_i32_128_r3 : BitVec 32 := 0#32
  let v181_r3 : BitVec 1 := Scalar.cmpi .slt v145_r3 c0_i32_128_r3
  let v182_r3 : BitVec 32 := Scalar.extui v181_r3
  let v183_r3 : BitVec 32 := Scalar.subi v180_r3 v182_r3
  let c32_i32_126_r3 : BitVec 32 := 32#32
  let c0_i32_129_r3 : BitVec 32 := 0#32
  let v184_r3 : BitVec 1 := Scalar.cmpi .sgt c32_i32_126_r3 c0_i32_129_r3
  let v185_r3 : BitVec 32 := Scalar.extui v184_r3
  let c0_i32_130_r3 : BitVec 32 := 0#32
  let v186_r3 : BitVec 1 := Scalar.cmpi .slt c32_i32_126_r3 c0_i32_130_r3
  let v187_r3 : BitVec 32 := Scalar.extui v186_r3
  let v188_r3 : BitVec 32 := Scalar.subi v185_r3 v187_r3
  let v189_r3 : BitVec 1 := Scalar.cmpi .ne v183_r3 v188_r3
  let v190_r3 : BitVec 32 := Scalar.remsi v145_r3 c32_i32_126_r3
  let c0_i32_131_r3 : BitVec 32 := 0#32
  let v191_r3 : BitVec 1 := Scalar.cmpi .ne v190_r3 c0_i32_131_r3
  let v192_r3 : BitVec 1 := Scalar.andi v189_r3 v191_r3
  let v178_r3 : BitVec 32 := Scalar.divsi v145_r3 c32_i32_126_r3
  let c1_i32_132_r3 : BitVec 32 := 1#32
  let v193_r3 : BitVec 32 := Scalar.subi v178_r3 c1_i32_132_r3
  let v194_r3 : BitVec 32 := Scalar.select v192_r3 v193_r3 v178_r3
  let v205_r3 : BitVec 1 := Scalar.cmpi .ne v167_r3 v194_r3
  let c32_i32_120_r3 : BitVec 32 := 32#32
  let c0_i32_121_r3 : BitVec 32 := 0#32
  let v168_r3 : BitVec 1 := Scalar.cmpi .eq c32_i32_120_r3 c0_i32_121_r3
  let c1_i32_122_r3 : BitVec 32 := 1#32
  let v169_r3 : BitVec 32 := Scalar.select v168_r3 c1_i32_122_r3 c32_i32_120_r3
  let v170_r3 : BitVec 32 := Scalar.remsi v135_r3 v169_r3
  let c0_i32_124_r3 : BitVec 32 := 0#32
  let v172_r3 : BitVec 1 := Scalar.cmpi .slt v170_r3 c0_i32_124_r3
  let c0_i32_125_r3 : BitVec 32 := 0#32
  let v173_r3 : BitVec 1 := Scalar.cmpi .slt v169_r3 c0_i32_125_r3
  let v174_r3 : BitVec 1 := Scalar.xori v172_r3 v173_r3
  let c0_i32_123_r3 : BitVec 32 := 0#32
  let v171_r3 : BitVec 1 := Scalar.cmpi .ne v170_r3 c0_i32_123_r3
  let v175_r3 : BitVec 1 := Scalar.andi v174_r3 v171_r3
  let v176_r3 : BitVec 32 := Scalar.addi v170_r3 v169_r3
  let v177_r3 : BitVec 32 := Scalar.select v175_r3 v176_r3 v170_r3
  let c32_i32_133_r3 : BitVec 32 := 32#32
  let c0_i32_134_r3 : BitVec 32 := 0#32
  let v195_r3 : BitVec 1 := Scalar.cmpi .eq c32_i32_133_r3 c0_i32_134_r3
  let c1_i32_135_r3 : BitVec 32 := 1#32
  let v196_r3 : BitVec 32 := Scalar.select v195_r3 c1_i32_135_r3 c32_i32_133_r3
  let v197_r3 : BitVec 32 := Scalar.remsi v145_r3 v196_r3
  let c0_i32_137_r3 : BitVec 32 := 0#32
  let v199_r3 : BitVec 1 := Scalar.cmpi .slt v197_r3 c0_i32_137_r3
  let c0_i32_138_r3 : BitVec 32 := 0#32
  let v200_r3 : BitVec 1 := Scalar.cmpi .slt v196_r3 c0_i32_138_r3
  let v201_r3 : BitVec 1 := Scalar.xori v199_r3 v200_r3
  let c0_i32_136_r3 : BitVec 32 := 0#32
  let v198_r3 : BitVec 1 := Scalar.cmpi .ne v197_r3 c0_i32_136_r3
  let v202_r3 : BitVec 1 := Scalar.andi v201_r3 v198_r3
  let v203_r3 : BitVec 32 := Scalar.addi v197_r3 v196_r3
  let v204_r3 : BitVec 32 := Scalar.select v202_r3 v203_r3 v197_r3
  let v206_r3 : BitVec 1 := Scalar.cmpi .ne v177_r3 v204_r3
  let v207_r3 : BitVec 1 := Scalar.ori v205_r3 v206_r3
  let c0_i32_51_r3 : BitVec 32 := 0#32
  let c1_i32_53_r3 : BitVec 32 := 1#32
  let arg10_r3 : BitVec 32 := Scf.iv c0_i32_51_r3 c1_i32_53_r3 k0_t1
  let c49_i32_139_r3 : BitVec 32 := 49#32
  let v208_r3 : BitVec 1 := Scalar.cmpi .sge arg10_r3 c49_i32_139_r3
  let true_140_r3 : BitVec 1 := 1#1
  let v209_r3 : BitVec 1 := Scalar.xori v208_r3 true_140_r3
  let v210_r3 : BitVec 1 := Scalar.andi v207_r3 v209_r3
  let v211_r3 : BitVec 32 := Scalar.extui v210_r3
  let c0_i32_141_r3 : BitVec 32 := 0#32
  let v212_r3 : BitVec 1 := Scalar.cmpi .ne v211_r3 c0_i32_141_r3
  v212_r3

def k0_off5 (i : grid0.Coords) (arg15_r3 : BitVec 32) : Fin 3 → Nat :=
  let c0_i32_245_r3 : BitVec 32 := 0#32
  let c1_i32_240_r3 : BitVec 32 := 1#32
  let true_106_r3 : BitVec 1 := 1#1
  let c1_i32_105_r3 : BitVec 32 := 1#32
  let v141_r3 : BitVec 32 := Scalar.addi arg15_r3 c1_i32_105_r3
  let v142_r3 : BitVec 32 := Scalar.select true_106_r3 v141_r3 arg15_r3
  let c50_i32_107_r3 : BitVec 32 := 50#32
  let v143_r3 : BitVec 1 := Scalar.cmpi .eq v142_r3 c50_i32_107_r3
  let c0_i32_108_r3 : BitVec 32 := 0#32
  let v144_r3 : BitVec 32 := Scalar.select v143_r3 c0_i32_108_r3 v142_r3
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c50_i32 : BitVec 32 := 50#32
  let v7 : BitVec 32 := Scalar.muli v6 c50_i32
  let v145_r3 : BitVec 32 := Scalar.addi v144_r3 v7
  let c0_i32_228_r3 : BitVec 32 := 0#32
  let v396_r3 : BitVec 1 := Scalar.cmpi .sgt v145_r3 c0_i32_228_r3
  let v397_r3 : BitVec 32 := Scalar.extui v396_r3
  let c0_i32_229_r3 : BitVec 32 := 0#32
  let v398_r3 : BitVec 1 := Scalar.cmpi .slt v145_r3 c0_i32_229_r3
  let v399_r3 : BitVec 32 := Scalar.extui v398_r3
  let v400_r3 : BitVec 32 := Scalar.subi v397_r3 v399_r3
  let c32_i32_227_r3 : BitVec 32 := 32#32
  let c0_i32_230_r3 : BitVec 32 := 0#32
  let v401_r3 : BitVec 1 := Scalar.cmpi .sgt c32_i32_227_r3 c0_i32_230_r3
  let v402_r3 : BitVec 32 := Scalar.extui v401_r3
  let c0_i32_231_r3 : BitVec 32 := 0#32
  let v403_r3 : BitVec 1 := Scalar.cmpi .slt c32_i32_227_r3 c0_i32_231_r3
  let v404_r3 : BitVec 32 := Scalar.extui v403_r3
  let v405_r3 : BitVec 32 := Scalar.subi v402_r3 v404_r3
  let v406_r3 : BitVec 1 := Scalar.cmpi .ne v400_r3 v405_r3
  let v407_r3 : BitVec 32 := Scalar.remsi v145_r3 c32_i32_227_r3
  let c0_i32_232_r3 : BitVec 32 := 0#32
  let v408_r3 : BitVec 1 := Scalar.cmpi .ne v407_r3 c0_i32_232_r3
  let v409_r3 : BitVec 1 := Scalar.andi v406_r3 v408_r3
  let v395_r3 : BitVec 32 := Scalar.divsi v145_r3 c32_i32_227_r3
  let c1_i32_233_r3 : BitVec 32 := 1#32
  let v410_r3 : BitVec 32 := Scalar.subi v395_r3 c1_i32_233_r3
  let v411_r3 : BitVec 32 := Scalar.select v409_r3 v410_r3 v395_r3
  let v422_r3 : BitVec 32 := Scalar.muli c1_i32_240_r3 v411_r3
  let c128_i32_241_r3 : BitVec 32 := 128#32
  let c32_i32_234_r3 : BitVec 32 := 32#32
  let c0_i32_235_r3 : BitVec 32 := 0#32
  let v412_r3 : BitVec 1 := Scalar.cmpi .eq c32_i32_234_r3 c0_i32_235_r3
  let c1_i32_236_r3 : BitVec 32 := 1#32
  let v413_r3 : BitVec 32 := Scalar.select v412_r3 c1_i32_236_r3 c32_i32_234_r3
  let v414_r3 : BitVec 32 := Scalar.remsi v145_r3 v413_r3
  let c0_i32_238_r3 : BitVec 32 := 0#32
  let v416_r3 : BitVec 1 := Scalar.cmpi .slt v414_r3 c0_i32_238_r3
  let c0_i32_239_r3 : BitVec 32 := 0#32
  let v417_r3 : BitVec 1 := Scalar.cmpi .slt v413_r3 c0_i32_239_r3
  let v418_r3 : BitVec 1 := Scalar.xori v416_r3 v417_r3
  let c0_i32_237_r3 : BitVec 32 := 0#32
  let v415_r3 : BitVec 1 := Scalar.cmpi .ne v414_r3 c0_i32_237_r3
  let v419_r3 : BitVec 1 := Scalar.andi v418_r3 v415_r3
  let v420_r3 : BitVec 32 := Scalar.addi v414_r3 v413_r3
  let v421_r3 : BitVec 32 := Scalar.select v419_r3 v420_r3 v414_r3
  let v423_r3 : BitVec 32 := Scalar.muli c128_i32_241_r3 v421_r3
  ![0, v422_r3.toNat, v423_r3.toNat]
def k0_off6 (arg11_r3 : BitVec 32) : Fin 1 → Nat :=
  let c2_i32_226_r3 : BitVec 32 := 2#32
  let v394_r3 : BitVec 32 := Scalar.remui arg11_r3 c2_i32_226_r3
  ![v394_r3.toNat]
def k0_off7 (arg12_r3 : BitVec 32) : Fin 4 → Nat :=
  let c2_i32_241_r3 : BitVec 32 := 2#32
  let v423_r3 : BitVec 32 := Scalar.remui arg12_r3 c2_i32_241_r3
  let c0_i32_242_r3 : BitVec 32 := 0#32
  let c0_i32_243_r3 : BitVec 32 := 0#32
  let c0_i32_244_r3 : BitVec 32 := 0#32
  ![v423_r3.toNat, 0, 0, 0]
def k0_cond3 (i : grid0.Coords) (k0_t1 : Fin k0_t1_loop.trips) (arg15_r3 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c50_i32 : BitVec 32 := 50#32
  let v7 : BitVec 32 := Scalar.muli v6 c50_i32
  let v135_r3 : BitVec 32 := Scalar.addi arg15_r3 v7
  let c0_i32_114_r3 : BitVec 32 := 0#32
  let v152_r3 : BitVec 1 := Scalar.cmpi .sgt v135_r3 c0_i32_114_r3
  let v153_r3 : BitVec 32 := Scalar.extui v152_r3
  let c0_i32_115_r3 : BitVec 32 := 0#32
  let v154_r3 : BitVec 1 := Scalar.cmpi .slt v135_r3 c0_i32_115_r3
  let v155_r3 : BitVec 32 := Scalar.extui v154_r3
  let v156_r3 : BitVec 32 := Scalar.subi v153_r3 v155_r3
  let c32_i32_113_r3 : BitVec 32 := 32#32
  let c0_i32_116_r3 : BitVec 32 := 0#32
  let v157_r3 : BitVec 1 := Scalar.cmpi .sgt c32_i32_113_r3 c0_i32_116_r3
  let v158_r3 : BitVec 32 := Scalar.extui v157_r3
  let c0_i32_117_r3 : BitVec 32 := 0#32
  let v159_r3 : BitVec 1 := Scalar.cmpi .slt c32_i32_113_r3 c0_i32_117_r3
  let v160_r3 : BitVec 32 := Scalar.extui v159_r3
  let v161_r3 : BitVec 32 := Scalar.subi v158_r3 v160_r3
  let v162_r3 : BitVec 1 := Scalar.cmpi .ne v156_r3 v161_r3
  let v163_r3 : BitVec 32 := Scalar.remsi v135_r3 c32_i32_113_r3
  let c0_i32_118_r3 : BitVec 32 := 0#32
  let v164_r3 : BitVec 1 := Scalar.cmpi .ne v163_r3 c0_i32_118_r3
  let v165_r3 : BitVec 1 := Scalar.andi v162_r3 v164_r3
  let v151_r3 : BitVec 32 := Scalar.divsi v135_r3 c32_i32_113_r3
  let c1_i32_119_r3 : BitVec 32 := 1#32
  let v166_r3 : BitVec 32 := Scalar.subi v151_r3 c1_i32_119_r3
  let v167_r3 : BitVec 32 := Scalar.select v165_r3 v166_r3 v151_r3
  let true_102_r3 : BitVec 1 := 1#1
  let c1_i32_101_r3 : BitVec 32 := 1#32
  let v136_r3 : BitVec 32 := Scalar.subi arg15_r3 c1_i32_101_r3
  let v137_r3 : BitVec 32 := Scalar.select true_102_r3 v136_r3 arg15_r3
  let c_m1_i32_103_r3 : BitVec 32 := 4294967295#32
  let v138_r3 : BitVec 1 := Scalar.cmpi .eq v137_r3 c_m1_i32_103_r3
  let c49_i32_104_r3 : BitVec 32 := 49#32
  let v139_r3 : BitVec 32 := Scalar.select v138_r3 c49_i32_104_r3 v137_r3
  let v140_r3 : BitVec 32 := Scalar.addi v139_r3 v7
  let c0_i32_173_r3 : BitVec 32 := 0#32
  let v277_r3 : BitVec 1 := Scalar.cmpi .sgt v140_r3 c0_i32_173_r3
  let v278_r3 : BitVec 32 := Scalar.extui v277_r3
  let c0_i32_174_r3 : BitVec 32 := 0#32
  let v279_r3 : BitVec 1 := Scalar.cmpi .slt v140_r3 c0_i32_174_r3
  let v280_r3 : BitVec 32 := Scalar.extui v279_r3
  let v281_r3 : BitVec 32 := Scalar.subi v278_r3 v280_r3
  let c32_i32_172_r3 : BitVec 32 := 32#32
  let c0_i32_175_r3 : BitVec 32 := 0#32
  let v282_r3 : BitVec 1 := Scalar.cmpi .sgt c32_i32_172_r3 c0_i32_175_r3
  let v283_r3 : BitVec 32 := Scalar.extui v282_r3
  let c0_i32_176_r3 : BitVec 32 := 0#32
  let v284_r3 : BitVec 1 := Scalar.cmpi .slt c32_i32_172_r3 c0_i32_176_r3
  let v285_r3 : BitVec 32 := Scalar.extui v284_r3
  let v286_r3 : BitVec 32 := Scalar.subi v283_r3 v285_r3
  let v287_r3 : BitVec 1 := Scalar.cmpi .ne v281_r3 v286_r3
  let v288_r3 : BitVec 32 := Scalar.remsi v140_r3 c32_i32_172_r3
  let c0_i32_177_r3 : BitVec 32 := 0#32
  let v289_r3 : BitVec 1 := Scalar.cmpi .ne v288_r3 c0_i32_177_r3
  let v290_r3 : BitVec 1 := Scalar.andi v287_r3 v289_r3
  let v276_r3 : BitVec 32 := Scalar.divsi v140_r3 c32_i32_172_r3
  let c1_i32_178_r3 : BitVec 32 := 1#32
  let v291_r3 : BitVec 32 := Scalar.subi v276_r3 c1_i32_178_r3
  let v292_r3 : BitVec 32 := Scalar.select v290_r3 v291_r3 v276_r3
  let v303_r3 : BitVec 1 := Scalar.cmpi .ne v167_r3 v292_r3
  let c32_i32_120_r3 : BitVec 32 := 32#32
  let c0_i32_121_r3 : BitVec 32 := 0#32
  let v168_r3 : BitVec 1 := Scalar.cmpi .eq c32_i32_120_r3 c0_i32_121_r3
  let c1_i32_122_r3 : BitVec 32 := 1#32
  let v169_r3 : BitVec 32 := Scalar.select v168_r3 c1_i32_122_r3 c32_i32_120_r3
  let v170_r3 : BitVec 32 := Scalar.remsi v135_r3 v169_r3
  let c0_i32_124_r3 : BitVec 32 := 0#32
  let v172_r3 : BitVec 1 := Scalar.cmpi .slt v170_r3 c0_i32_124_r3
  let c0_i32_125_r3 : BitVec 32 := 0#32
  let v173_r3 : BitVec 1 := Scalar.cmpi .slt v169_r3 c0_i32_125_r3
  let v174_r3 : BitVec 1 := Scalar.xori v172_r3 v173_r3
  let c0_i32_123_r3 : BitVec 32 := 0#32
  let v171_r3 : BitVec 1 := Scalar.cmpi .ne v170_r3 c0_i32_123_r3
  let v175_r3 : BitVec 1 := Scalar.andi v174_r3 v171_r3
  let v176_r3 : BitVec 32 := Scalar.addi v170_r3 v169_r3
  let v177_r3 : BitVec 32 := Scalar.select v175_r3 v176_r3 v170_r3
  let c32_i32_179_r3 : BitVec 32 := 32#32
  let c0_i32_180_r3 : BitVec 32 := 0#32
  let v293_r3 : BitVec 1 := Scalar.cmpi .eq c32_i32_179_r3 c0_i32_180_r3
  let c1_i32_181_r3 : BitVec 32 := 1#32
  let v294_r3 : BitVec 32 := Scalar.select v293_r3 c1_i32_181_r3 c32_i32_179_r3
  let v295_r3 : BitVec 32 := Scalar.remsi v140_r3 v294_r3
  let c0_i32_183_r3 : BitVec 32 := 0#32
  let v297_r3 : BitVec 1 := Scalar.cmpi .slt v295_r3 c0_i32_183_r3
  let c0_i32_184_r3 : BitVec 32 := 0#32
  let v298_r3 : BitVec 1 := Scalar.cmpi .slt v294_r3 c0_i32_184_r3
  let v299_r3 : BitVec 1 := Scalar.xori v297_r3 v298_r3
  let c0_i32_182_r3 : BitVec 32 := 0#32
  let v296_r3 : BitVec 1 := Scalar.cmpi .ne v295_r3 c0_i32_182_r3
  let v300_r3 : BitVec 1 := Scalar.andi v299_r3 v296_r3
  let v301_r3 : BitVec 32 := Scalar.addi v295_r3 v294_r3
  let v302_r3 : BitVec 32 := Scalar.select v300_r3 v301_r3 v295_r3
  let v304_r3 : BitVec 1 := Scalar.cmpi .ne v177_r3 v302_r3
  let v305_r3 : BitVec 1 := Scalar.ori v303_r3 v304_r3
  let c0_i32_51_r3 : BitVec 32 := 0#32
  let c1_i32_53_r3 : BitVec 32 := 1#32
  let arg10_r3 : BitVec 32 := Scf.iv c0_i32_51_r3 c1_i32_53_r3 k0_t1
  let c0_i32_99_r3 : BitVec 32 := 0#32
  let v133_r3 : BitVec 1 := Scalar.cmpi .eq arg10_r3 c0_i32_99_r3
  let v306_r3 : BitVec 1 := Scalar.ori v305_r3 v133_r3
  let c0_i32_185_r3 : BitVec 32 := 0#32
  let v307_r3 : BitVec 1 := Scalar.cmpi .slt arg10_r3 c0_i32_185_r3
  let true_186_r3 : BitVec 1 := 1#1
  let v308_r3 : BitVec 1 := Scalar.xori v307_r3 true_186_r3
  let v309_r3 : BitVec 1 := Scalar.andi v306_r3 v308_r3
  let v310_r3 : BitVec 32 := Scalar.extui v309_r3
  let c0_i32_187_r3 : BitVec 32 := 0#32
  let v311_r3 : BitVec 1 := Scalar.cmpi .ne v310_r3 c0_i32_187_r3
  v311_r3

def k0_off8 (i : grid0.Coords) (arg15_r3 : BitVec 32) : Fin 3 → Nat :=
  let c0_i32_245_r3 : BitVec 32 := 0#32
  let c1_i32_239_r3 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c50_i32 : BitVec 32 := 50#32
  let v7 : BitVec 32 := Scalar.muli v6 c50_i32
  let v135_r3 : BitVec 32 := Scalar.addi arg15_r3 v7
  let c0_i32_227_r3 : BitVec 32 := 0#32
  let v395_r3 : BitVec 1 := Scalar.cmpi .sgt v135_r3 c0_i32_227_r3
  let v396_r3 : BitVec 32 := Scalar.extui v395_r3
  let c0_i32_228_r3 : BitVec 32 := 0#32
  let v397_r3 : BitVec 1 := Scalar.cmpi .slt v135_r3 c0_i32_228_r3
  let v398_r3 : BitVec 32 := Scalar.extui v397_r3
  let v399_r3 : BitVec 32 := Scalar.subi v396_r3 v398_r3
  let c32_i32_226_r3 : BitVec 32 := 32#32
  let c0_i32_229_r3 : BitVec 32 := 0#32
  let v400_r3 : BitVec 1 := Scalar.cmpi .sgt c32_i32_226_r3 c0_i32_229_r3
  let v401_r3 : BitVec 32 := Scalar.extui v400_r3
  let c0_i32_230_r3 : BitVec 32 := 0#32
  let v402_r3 : BitVec 1 := Scalar.cmpi .slt c32_i32_226_r3 c0_i32_230_r3
  let v403_r3 : BitVec 32 := Scalar.extui v402_r3
  let v404_r3 : BitVec 32 := Scalar.subi v401_r3 v403_r3
  let v405_r3 : BitVec 1 := Scalar.cmpi .ne v399_r3 v404_r3
  let v406_r3 : BitVec 32 := Scalar.remsi v135_r3 c32_i32_226_r3
  let c0_i32_231_r3 : BitVec 32 := 0#32
  let v407_r3 : BitVec 1 := Scalar.cmpi .ne v406_r3 c0_i32_231_r3
  let v408_r3 : BitVec 1 := Scalar.andi v405_r3 v407_r3
  let v394_r3 : BitVec 32 := Scalar.divsi v135_r3 c32_i32_226_r3
  let c1_i32_232_r3 : BitVec 32 := 1#32
  let v409_r3 : BitVec 32 := Scalar.subi v394_r3 c1_i32_232_r3
  let v410_r3 : BitVec 32 := Scalar.select v408_r3 v409_r3 v394_r3
  let v421_r3 : BitVec 32 := Scalar.muli c1_i32_239_r3 v410_r3
  let c128_i32_240_r3 : BitVec 32 := 128#32
  let c32_i32_233_r3 : BitVec 32 := 32#32
  let c0_i32_234_r3 : BitVec 32 := 0#32
  let v411_r3 : BitVec 1 := Scalar.cmpi .eq c32_i32_233_r3 c0_i32_234_r3
  let c1_i32_235_r3 : BitVec 32 := 1#32
  let v412_r3 : BitVec 32 := Scalar.select v411_r3 c1_i32_235_r3 c32_i32_233_r3
  let v413_r3 : BitVec 32 := Scalar.remsi v135_r3 v412_r3
  let c0_i32_237_r3 : BitVec 32 := 0#32
  let v415_r3 : BitVec 1 := Scalar.cmpi .slt v413_r3 c0_i32_237_r3
  let c0_i32_238_r3 : BitVec 32 := 0#32
  let v416_r3 : BitVec 1 := Scalar.cmpi .slt v412_r3 c0_i32_238_r3
  let v417_r3 : BitVec 1 := Scalar.xori v415_r3 v416_r3
  let c0_i32_236_r3 : BitVec 32 := 0#32
  let v414_r3 : BitVec 1 := Scalar.cmpi .ne v413_r3 c0_i32_236_r3
  let v418_r3 : BitVec 1 := Scalar.andi v417_r3 v414_r3
  let v419_r3 : BitVec 32 := Scalar.addi v413_r3 v412_r3
  let v420_r3 : BitVec 32 := Scalar.select v418_r3 v419_r3 v413_r3
  let v422_r3 : BitVec 32 := Scalar.muli c128_i32_240_r3 v420_r3
  ![0, v421_r3.toNat, v422_r3.toNat]
def k0_off9 (arg12_r3 : BitVec 32) : Fin 1 → Nat :=
  let c2_i32_241_r3 : BitVec 32 := 2#32
  let v423_r3 : BitVec 32 := Scalar.remui arg12_r3 c2_i32_241_r3
  ![v423_r3.toNat]
def k0_off10 (arg13_r3 : BitVec 32) : Fin 5 → Nat :=
  let c2_i32_205_r3 : BitVec 32 := 2#32
  let v349_r3 : BitVec 32 := Scalar.remui arg13_r3 c2_i32_205_r3
  let c0_i32_226_r4 : BitVec 32 := 0#32
  let c0_i32_227_r4 : BitVec 32 := 0#32
  let c0_i32_228_r4 : BitVec 32 := 0#32
  let c0_i32_229_r4 : BitVec 32 := 0#32
  ![v349_r3.toNat, 0, 0, 0, 0]

def k0_chk2 (arg13_r3 : BitVec 32) : Prop :=
  (∀ a, (k0_off10 arg13_r3) a + S1x1x1x128x128.size a ≤ S2x1x1x128x128.size a)
instance k0_chk2.dec : ∀ (arg13_r3 : BitVec 32), Decidable (k0_chk2 arg13_r3) := fun arg13_r3 => decidable_of_iff' _ (Iff.of_eq (k0_chk2.eq_1 arg13_r3))
theorem k0_off10_inb : ∀ (arg13_r3 : BitVec 32) (k0_hw2 : k0_chk2 arg13_r3), ∀ a, (k0_off10 arg13_r3) a + S1x1x1x128x128.size a ≤ S2x1x1x128x128.size a := fun arg13_r3 k0_hw2 => k0_hw2

def k0_off11 (arg12_r3 : BitVec 32) : Fin 4 → Nat :=
  let c2_i32_204_r3 : BitVec 32 := 2#32
  let v348_r3 : BitVec 32 := Scalar.remui arg12_r3 c2_i32_204_r3
  let c0_i32_232_r4 : BitVec 32 := 0#32
  let c0_i32_233_r4 : BitVec 32 := 0#32
  let c0_i32_234_r4 : BitVec 32 := 0#32
  ![v348_r3.toNat, 0, 0, 0]

def k0_chk3 (arg12_r3 : BitVec 32) : Prop :=
  (∀ a, (k0_off11 arg12_r3) a + S1x1x1x128.size a ≤ S2x1x1x128.size a)
instance k0_chk3.dec : ∀ (arg12_r3 : BitVec 32), Decidable (k0_chk3 arg12_r3) := fun arg12_r3 => decidable_of_iff' _ (Iff.of_eq (k0_chk3.eq_1 arg12_r3))
theorem k0_off11_inb : ∀ (arg12_r3 : BitVec 32) (k0_hw3 : k0_chk3 arg12_r3), ∀ a, (k0_off11 arg12_r3) a + S1x1x1x128.size a ≤ S2x1x1x128.size a := fun arg12_r3 k0_hw3 => k0_hw3

def k0_off12 (arg13_r3 : BitVec 32) : Fin 5 → Nat :=
  let c2_i32_226_r3 : BitVec 32 := 2#32
  let v394_r3 : BitVec 32 := Scalar.remui arg13_r3 c2_i32_226_r3
  let c0_i32_242_r3 : BitVec 32 := 0#32
  let c0_i32_243_r3 : BitVec 32 := 0#32
  let c0_i32_244_r3 : BitVec 32 := 0#32
  let c0_i32_245_r3 : BitVec 32 := 0#32
  ![v394_r3.toNat, 0, 0, 0, 0]
def k0_cond6 (i : grid0.Coords) (k0_t1 : Fin k0_t1_loop.trips) (arg15_r3 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c50_i32 : BitVec 32 := 50#32
  let v7 : BitVec 32 := Scalar.muli v6 c50_i32
  let v135_r3 : BitVec 32 := Scalar.addi arg15_r3 v7
  let c0_i32_145_r3 : BitVec 32 := 0#32
  let v217_r3 : BitVec 1 := Scalar.cmpi .sgt v135_r3 c0_i32_145_r3
  let v218_r3 : BitVec 32 := Scalar.extui v217_r3
  let c0_i32_146_r3 : BitVec 32 := 0#32
  let v219_r3 : BitVec 1 := Scalar.cmpi .slt v135_r3 c0_i32_146_r3
  let v220_r3 : BitVec 32 := Scalar.extui v219_r3
  let v221_r3 : BitVec 32 := Scalar.subi v218_r3 v220_r3
  let c32_i32_144_r3 : BitVec 32 := 32#32
  let c0_i32_147_r3 : BitVec 32 := 0#32
  let v222_r3 : BitVec 1 := Scalar.cmpi .sgt c32_i32_144_r3 c0_i32_147_r3
  let v223_r3 : BitVec 32 := Scalar.extui v222_r3
  let c0_i32_148_r3 : BitVec 32 := 0#32
  let v224_r3 : BitVec 1 := Scalar.cmpi .slt c32_i32_144_r3 c0_i32_148_r3
  let v225_r3 : BitVec 32 := Scalar.extui v224_r3
  let v226_r3 : BitVec 32 := Scalar.subi v223_r3 v225_r3
  let v227_r3 : BitVec 1 := Scalar.cmpi .ne v221_r3 v226_r3
  let v228_r3 : BitVec 32 := Scalar.remsi v135_r3 c32_i32_144_r3
  let c0_i32_149_r3 : BitVec 32 := 0#32
  let v229_r3 : BitVec 1 := Scalar.cmpi .ne v228_r3 c0_i32_149_r3
  let v230_r3 : BitVec 1 := Scalar.andi v227_r3 v229_r3
  let v216_r3 : BitVec 32 := Scalar.divsi v135_r3 c32_i32_144_r3
  let c1_i32_150_r3 : BitVec 32 := 1#32
  let v231_r3 : BitVec 32 := Scalar.subi v216_r3 c1_i32_150_r3
  let v232_r3 : BitVec 32 := Scalar.select v230_r3 v231_r3 v216_r3
  let true_106_r3 : BitVec 1 := 1#1
  let c1_i32_105_r3 : BitVec 32 := 1#32
  let v141_r3 : BitVec 32 := Scalar.addi arg15_r3 c1_i32_105_r3
  let v142_r3 : BitVec 32 := Scalar.select true_106_r3 v141_r3 arg15_r3
  let c50_i32_107_r3 : BitVec 32 := 50#32
  let v143_r3 : BitVec 1 := Scalar.cmpi .eq v142_r3 c50_i32_107_r3
  let c0_i32_108_r3 : BitVec 32 := 0#32
  let v144_r3 : BitVec 32 := Scalar.select v143_r3 c0_i32_108_r3 v142_r3
  let v145_r3 : BitVec 32 := Scalar.addi v144_r3 v7
  let c0_i32_158_r3 : BitVec 32 := 0#32
  let v244_r3 : BitVec 1 := Scalar.cmpi .sgt v145_r3 c0_i32_158_r3
  let v245_r3 : BitVec 32 := Scalar.extui v244_r3
  let c0_i32_159_r3 : BitVec 32 := 0#32
  let v246_r3 : BitVec 1 := Scalar.cmpi .slt v145_r3 c0_i32_159_r3
  let v247_r3 : BitVec 32 := Scalar.extui v246_r3
  let v248_r3 : BitVec 32 := Scalar.subi v245_r3 v247_r3
  let c32_i32_157_r3 : BitVec 32 := 32#32
  let c0_i32_160_r3 : BitVec 32 := 0#32
  let v249_r3 : BitVec 1 := Scalar.cmpi .sgt c32_i32_157_r3 c0_i32_160_r3
  let v250_r3 : BitVec 32 := Scalar.extui v249_r3
  let c0_i32_161_r3 : BitVec 32 := 0#32
  let v251_r3 : BitVec 1 := Scalar.cmpi .slt c32_i32_157_r3 c0_i32_161_r3
  let v252_r3 : BitVec 32 := Scalar.extui v251_r3
  let v253_r3 : BitVec 32 := Scalar.subi v250_r3 v252_r3
  let v254_r3 : BitVec 1 := Scalar.cmpi .ne v248_r3 v253_r3
  let v255_r3 : BitVec 32 := Scalar.remsi v145_r3 c32_i32_157_r3
  let c0_i32_162_r3 : BitVec 32 := 0#32
  let v256_r3 : BitVec 1 := Scalar.cmpi .ne v255_r3 c0_i32_162_r3
  let v257_r3 : BitVec 1 := Scalar.andi v254_r3 v256_r3
  let v243_r3 : BitVec 32 := Scalar.divsi v145_r3 c32_i32_157_r3
  let c1_i32_163_r3 : BitVec 32 := 1#32
  let v258_r3 : BitVec 32 := Scalar.subi v243_r3 c1_i32_163_r3
  let v259_r3 : BitVec 32 := Scalar.select v257_r3 v258_r3 v243_r3
  let v357_r3 : BitVec 1 := Scalar.cmpi .ne v232_r3 v259_r3
  let c32_i32_151_r3 : BitVec 32 := 32#32
  let c0_i32_152_r3 : BitVec 32 := 0#32
  let v233_r3 : BitVec 1 := Scalar.cmpi .eq c32_i32_151_r3 c0_i32_152_r3
  let c1_i32_153_r3 : BitVec 32 := 1#32
  let v234_r3 : BitVec 32 := Scalar.select v233_r3 c1_i32_153_r3 c32_i32_151_r3
  let v235_r3 : BitVec 32 := Scalar.remsi v135_r3 v234_r3
  let c0_i32_155_r3 : BitVec 32 := 0#32
  let v237_r3 : BitVec 1 := Scalar.cmpi .slt v235_r3 c0_i32_155_r3
  let c0_i32_156_r3 : BitVec 32 := 0#32
  let v238_r3 : BitVec 1 := Scalar.cmpi .slt v234_r3 c0_i32_156_r3
  let v239_r3 : BitVec 1 := Scalar.xori v237_r3 v238_r3
  let c0_i32_154_r3 : BitVec 32 := 0#32
  let v236_r3 : BitVec 1 := Scalar.cmpi .ne v235_r3 c0_i32_154_r3
  let v240_r3 : BitVec 1 := Scalar.andi v239_r3 v236_r3
  let v241_r3 : BitVec 32 := Scalar.addi v235_r3 v234_r3
  let v242_r3 : BitVec 32 := Scalar.select v240_r3 v241_r3 v235_r3
  let c32_i32_164_r3 : BitVec 32 := 32#32
  let c0_i32_165_r3 : BitVec 32 := 0#32
  let v260_r3 : BitVec 1 := Scalar.cmpi .eq c32_i32_164_r3 c0_i32_165_r3
  let c1_i32_166_r3 : BitVec 32 := 1#32
  let v261_r3 : BitVec 32 := Scalar.select v260_r3 c1_i32_166_r3 c32_i32_164_r3
  let v262_r3 : BitVec 32 := Scalar.remsi v145_r3 v261_r3
  let c0_i32_168_r3 : BitVec 32 := 0#32
  let v264_r3 : BitVec 1 := Scalar.cmpi .slt v262_r3 c0_i32_168_r3
  let c0_i32_169_r3 : BitVec 32 := 0#32
  let v265_r3 : BitVec 1 := Scalar.cmpi .slt v261_r3 c0_i32_169_r3
  let v266_r3 : BitVec 1 := Scalar.xori v264_r3 v265_r3
  let c0_i32_167_r3 : BitVec 32 := 0#32
  let v263_r3 : BitVec 1 := Scalar.cmpi .ne v262_r3 c0_i32_167_r3
  let v267_r3 : BitVec 1 := Scalar.andi v266_r3 v263_r3
  let v268_r3 : BitVec 32 := Scalar.addi v262_r3 v261_r3
  let v269_r3 : BitVec 32 := Scalar.select v267_r3 v268_r3 v262_r3
  let v358_r3 : BitVec 1 := Scalar.cmpi .ne v242_r3 v269_r3
  let v359_r3 : BitVec 1 := Scalar.ori v357_r3 v358_r3
  let c0_i32_51_r3 : BitVec 32 := 0#32
  let c1_i32_53_r3 : BitVec 32 := 1#32
  let arg10_r3 : BitVec 32 := Scf.iv c0_i32_51_r3 c1_i32_53_r3 k0_t1
  let c49_i32_100_r3 : BitVec 32 := 49#32
  let v134_r3 : BitVec 1 := Scalar.cmpi .eq arg10_r3 c49_i32_100_r3
  let v360_r3 : BitVec 1 := Scalar.ori v359_r3 v134_r3
  let v361_r3 : BitVec 32 := Scalar.extui v360_r3
  let c0_i32_211_r3 : BitVec 32 := 0#32
  let v362_r3 : BitVec 1 := Scalar.cmpi .ne v361_r3 c0_i32_211_r3
  v362_r3

def k0_off13 (i : grid0.Coords) (arg15_r3 : BitVec 32) : Fin 4 → Nat :=
  let c1_i32_240_r3 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c50_i32 : BitVec 32 := 50#32
  let v7 : BitVec 32 := Scalar.muli v6 c50_i32
  let v135_r3 : BitVec 32 := Scalar.addi arg15_r3 v7
  let c0_i32_228_r3 : BitVec 32 := 0#32
  let v396_r3 : BitVec 1 := Scalar.cmpi .sgt v135_r3 c0_i32_228_r3
  let v397_r3 : BitVec 32 := Scalar.extui v396_r3
  let c0_i32_229_r3 : BitVec 32 := 0#32
  let v398_r3 : BitVec 1 := Scalar.cmpi .slt v135_r3 c0_i32_229_r3
  let v399_r3 : BitVec 32 := Scalar.extui v398_r3
  let v400_r3 : BitVec 32 := Scalar.subi v397_r3 v399_r3
  let c32_i32_227_r3 : BitVec 32 := 32#32
  let c0_i32_230_r3 : BitVec 32 := 0#32
  let v401_r3 : BitVec 1 := Scalar.cmpi .sgt c32_i32_227_r3 c0_i32_230_r3
  let v402_r3 : BitVec 32 := Scalar.extui v401_r3
  let c0_i32_231_r3 : BitVec 32 := 0#32
  let v403_r3 : BitVec 1 := Scalar.cmpi .slt c32_i32_227_r3 c0_i32_231_r3
  let v404_r3 : BitVec 32 := Scalar.extui v403_r3
  let v405_r3 : BitVec 32 := Scalar.subi v402_r3 v404_r3
  let v406_r3 : BitVec 1 := Scalar.cmpi .ne v400_r3 v405_r3
  let v407_r3 : BitVec 32 := Scalar.remsi v135_r3 c32_i32_227_r3
  let c0_i32_232_r3 : BitVec 32 := 0#32
  let v408_r3 : BitVec 1 := Scalar.cmpi .ne v407_r3 c0_i32_232_r3
  let v409_r3 : BitVec 1 := Scalar.andi v406_r3 v408_r3
  let v395_r3 : BitVec 32 := Scalar.divsi v135_r3 c32_i32_227_r3
  let c1_i32_233_r3 : BitVec 32 := 1#32
  let v410_r3 : BitVec 32 := Scalar.subi v395_r3 c1_i32_233_r3
  let v411_r3 : BitVec 32 := Scalar.select v409_r3 v410_r3 v395_r3
  let v422_r3 : BitVec 32 := Scalar.muli c1_i32_240_r3 v411_r3
  let c0_i32_246_r3 : BitVec 32 := 0#32
  let c128_i32_241_r3 : BitVec 32 := 128#32
  let c32_i32_234_r3 : BitVec 32 := 32#32
  let c0_i32_235_r3 : BitVec 32 := 0#32
  let v412_r3 : BitVec 1 := Scalar.cmpi .eq c32_i32_234_r3 c0_i32_235_r3
  let c1_i32_236_r3 : BitVec 32 := 1#32
  let v413_r3 : BitVec 32 := Scalar.select v412_r3 c1_i32_236_r3 c32_i32_234_r3
  let v414_r3 : BitVec 32 := Scalar.remsi v135_r3 v413_r3
  let c0_i32_238_r3 : BitVec 32 := 0#32
  let v416_r3 : BitVec 1 := Scalar.cmpi .slt v414_r3 c0_i32_238_r3
  let c0_i32_239_r3 : BitVec 32 := 0#32
  let v417_r3 : BitVec 1 := Scalar.cmpi .slt v413_r3 c0_i32_239_r3
  let v418_r3 : BitVec 1 := Scalar.xori v416_r3 v417_r3
  let c0_i32_237_r3 : BitVec 32 := 0#32
  let v415_r3 : BitVec 1 := Scalar.cmpi .ne v414_r3 c0_i32_237_r3
  let v419_r3 : BitVec 1 := Scalar.andi v418_r3 v415_r3
  let v420_r3 : BitVec 32 := Scalar.addi v414_r3 v413_r3
  let v421_r3 : BitVec 32 := Scalar.select v419_r3 v420_r3 v414_r3
  let v423_r3 : BitVec 32 := Scalar.muli c128_i32_241_r3 v421_r3
  let c0_i32_247_r3 : BitVec 32 := 0#32
  ![v422_r3.toNat, 0, v423_r3.toNat, 0]
def k0_off14 (arg13_r3 : BitVec 32) : Fin 1 → Nat :=
  let c2_i32_226_r3 : BitVec 32 := 2#32
  let v394_r3 : BitVec 32 := Scalar.remui arg13_r3 c2_i32_226_r3
  ![v394_r3.toNat]
def k0_off15 (arg14_r3 : BitVec 32) : Fin 5 → Nat :=
  let c2_i32_226_r3 : BitVec 32 := 2#32
  let v394_r3 : BitVec 32 := Scalar.remui arg14_r3 c2_i32_226_r3
  let c0_i32_242_r3 : BitVec 32 := 0#32
  let c0_i32_243_r3 : BitVec 32 := 0#32
  let c0_i32_244_r3 : BitVec 32 := 0#32
  let c0_i32_245_r3 : BitVec 32 := 0#32
  ![v394_r3.toNat, 0, 0, 0, 0]
def k0_cond8 (i : grid0.Coords) (k0_t1 : Fin k0_t1_loop.trips) (arg15_r3 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c50_i32 : BitVec 32 := 50#32
  let v7 : BitVec 32 := Scalar.muli v6 c50_i32
  let v135_r3 : BitVec 32 := Scalar.addi arg15_r3 v7
  let c0_i32_145_r3 : BitVec 32 := 0#32
  let v217_r3 : BitVec 1 := Scalar.cmpi .sgt v135_r3 c0_i32_145_r3
  let v218_r3 : BitVec 32 := Scalar.extui v217_r3
  let c0_i32_146_r3 : BitVec 32 := 0#32
  let v219_r3 : BitVec 1 := Scalar.cmpi .slt v135_r3 c0_i32_146_r3
  let v220_r3 : BitVec 32 := Scalar.extui v219_r3
  let v221_r3 : BitVec 32 := Scalar.subi v218_r3 v220_r3
  let c32_i32_144_r3 : BitVec 32 := 32#32
  let c0_i32_147_r3 : BitVec 32 := 0#32
  let v222_r3 : BitVec 1 := Scalar.cmpi .sgt c32_i32_144_r3 c0_i32_147_r3
  let v223_r3 : BitVec 32 := Scalar.extui v222_r3
  let c0_i32_148_r3 : BitVec 32 := 0#32
  let v224_r3 : BitVec 1 := Scalar.cmpi .slt c32_i32_144_r3 c0_i32_148_r3
  let v225_r3 : BitVec 32 := Scalar.extui v224_r3
  let v226_r3 : BitVec 32 := Scalar.subi v223_r3 v225_r3
  let v227_r3 : BitVec 1 := Scalar.cmpi .ne v221_r3 v226_r3
  let v228_r3 : BitVec 32 := Scalar.remsi v135_r3 c32_i32_144_r3
  let c0_i32_149_r3 : BitVec 32 := 0#32
  let v229_r3 : BitVec 1 := Scalar.cmpi .ne v228_r3 c0_i32_149_r3
  let v230_r3 : BitVec 1 := Scalar.andi v227_r3 v229_r3
  let v216_r3 : BitVec 32 := Scalar.divsi v135_r3 c32_i32_144_r3
  let c1_i32_150_r3 : BitVec 32 := 1#32
  let v231_r3 : BitVec 32 := Scalar.subi v216_r3 c1_i32_150_r3
  let v232_r3 : BitVec 32 := Scalar.select v230_r3 v231_r3 v216_r3
  let true_102_r3 : BitVec 1 := 1#1
  let c1_i32_101_r3 : BitVec 32 := 1#32
  let v136_r3 : BitVec 32 := Scalar.subi arg15_r3 c1_i32_101_r3
  let v137_r3 : BitVec 32 := Scalar.select true_102_r3 v136_r3 arg15_r3
  let c_m1_i32_103_r3 : BitVec 32 := 4294967295#32
  let v138_r3 : BitVec 1 := Scalar.cmpi .eq v137_r3 c_m1_i32_103_r3
  let c49_i32_104_r3 : BitVec 32 := 49#32
  let v139_r3 : BitVec 32 := Scalar.select v138_r3 c49_i32_104_r3 v137_r3
  let v140_r3 : BitVec 32 := Scalar.addi v139_r3 v7
  let c0_i32_189_r3 : BitVec 32 := 0#32
  let v313_r3 : BitVec 1 := Scalar.cmpi .sgt v140_r3 c0_i32_189_r3
  let v314_r3 : BitVec 32 := Scalar.extui v313_r3
  let c0_i32_190_r3 : BitVec 32 := 0#32
  let v315_r3 : BitVec 1 := Scalar.cmpi .slt v140_r3 c0_i32_190_r3
  let v316_r3 : BitVec 32 := Scalar.extui v315_r3
  let v317_r3 : BitVec 32 := Scalar.subi v314_r3 v316_r3
  let c32_i32_188_r3 : BitVec 32 := 32#32
  let c0_i32_191_r3 : BitVec 32 := 0#32
  let v318_r3 : BitVec 1 := Scalar.cmpi .sgt c32_i32_188_r3 c0_i32_191_r3
  let v319_r3 : BitVec 32 := Scalar.extui v318_r3
  let c0_i32_192_r3 : BitVec 32 := 0#32
  let v320_r3 : BitVec 1 := Scalar.cmpi .slt c32_i32_188_r3 c0_i32_192_r3
  let v321_r3 : BitVec 32 := Scalar.extui v320_r3
  let v322_r3 : BitVec 32 := Scalar.subi v319_r3 v321_r3
  let v323_r3 : BitVec 1 := Scalar.cmpi .ne v317_r3 v322_r3
  let v324_r3 : BitVec 32 := Scalar.remsi v140_r3 c32_i32_188_r3
  let c0_i32_193_r3 : BitVec 32 := 0#32
  let v325_r3 : BitVec 1 := Scalar.cmpi .ne v324_r3 c0_i32_193_r3
  let v326_r3 : BitVec 1 := Scalar.andi v323_r3 v325_r3
  let v312_r3 : BitVec 32 := Scalar.divsi v140_r3 c32_i32_188_r3
  let c1_i32_194_r3 : BitVec 32 := 1#32
  let v327_r3 : BitVec 32 := Scalar.subi v312_r3 c1_i32_194_r3
  let v328_r3 : BitVec 32 := Scalar.select v326_r3 v327_r3 v312_r3
  let v374_r3 : BitVec 1 := Scalar.cmpi .ne v232_r3 v328_r3
  let c32_i32_151_r3 : BitVec 32 := 32#32
  let c0_i32_152_r3 : BitVec 32 := 0#32
  let v233_r3 : BitVec 1 := Scalar.cmpi .eq c32_i32_151_r3 c0_i32_152_r3
  let c1_i32_153_r3 : BitVec 32 := 1#32
  let v234_r3 : BitVec 32 := Scalar.select v233_r3 c1_i32_153_r3 c32_i32_151_r3
  let v235_r3 : BitVec 32 := Scalar.remsi v135_r3 v234_r3
  let c0_i32_155_r3 : BitVec 32 := 0#32
  let v237_r3 : BitVec 1 := Scalar.cmpi .slt v235_r3 c0_i32_155_r3
  let c0_i32_156_r3 : BitVec 32 := 0#32
  let v238_r3 : BitVec 1 := Scalar.cmpi .slt v234_r3 c0_i32_156_r3
  let v239_r3 : BitVec 1 := Scalar.xori v237_r3 v238_r3
  let c0_i32_154_r3 : BitVec 32 := 0#32
  let v236_r3 : BitVec 1 := Scalar.cmpi .ne v235_r3 c0_i32_154_r3
  let v240_r3 : BitVec 1 := Scalar.andi v239_r3 v236_r3
  let v241_r3 : BitVec 32 := Scalar.addi v235_r3 v234_r3
  let v242_r3 : BitVec 32 := Scalar.select v240_r3 v241_r3 v235_r3
  let c32_i32_195_r3 : BitVec 32 := 32#32
  let c0_i32_196_r3 : BitVec 32 := 0#32
  let v329_r3 : BitVec 1 := Scalar.cmpi .eq c32_i32_195_r3 c0_i32_196_r3
  let c1_i32_197_r3 : BitVec 32 := 1#32
  let v330_r3 : BitVec 32 := Scalar.select v329_r3 c1_i32_197_r3 c32_i32_195_r3
  let v331_r3 : BitVec 32 := Scalar.remsi v140_r3 v330_r3
  let c0_i32_199_r3 : BitVec 32 := 0#32
  let v333_r3 : BitVec 1 := Scalar.cmpi .slt v331_r3 c0_i32_199_r3
  let c0_i32_200_r3 : BitVec 32 := 0#32
  let v334_r3 : BitVec 1 := Scalar.cmpi .slt v330_r3 c0_i32_200_r3
  let v335_r3 : BitVec 1 := Scalar.xori v333_r3 v334_r3
  let c0_i32_198_r3 : BitVec 32 := 0#32
  let v332_r3 : BitVec 1 := Scalar.cmpi .ne v331_r3 c0_i32_198_r3
  let v336_r3 : BitVec 1 := Scalar.andi v335_r3 v332_r3
  let v337_r3 : BitVec 32 := Scalar.addi v331_r3 v330_r3
  let v338_r3 : BitVec 32 := Scalar.select v336_r3 v337_r3 v331_r3
  let v375_r3 : BitVec 1 := Scalar.cmpi .ne v242_r3 v338_r3
  let v376_r3 : BitVec 1 := Scalar.ori v374_r3 v375_r3
  let c0_i32_51_r3 : BitVec 32 := 0#32
  let c1_i32_53_r3 : BitVec 32 := 1#32
  let arg10_r3 : BitVec 32 := Scf.iv c0_i32_51_r3 c1_i32_53_r3 k0_t1
  let c0_i32_99_r3 : BitVec 32 := 0#32
  let v133_r3 : BitVec 1 := Scalar.cmpi .eq arg10_r3 c0_i32_99_r3
  let true_217_r3 : BitVec 1 := 1#1
  let v377_r3 : BitVec 1 := Scalar.xori v133_r3 true_217_r3
  let v378_r3 : BitVec 1 := Scalar.andi v376_r3 v377_r3
  let v379_r3 : BitVec 32 := Scalar.extui v378_r3
  let c0_i32_218_r3 : BitVec 32 := 0#32
  let v380_r3 : BitVec 1 := Scalar.cmpi .ne v379_r3 c0_i32_218_r3
  v380_r3

def k0_off16 (i : grid0.Coords) (arg15_r3 : BitVec 32) : Fin 4 → Nat :=
  let c1_i32_240_r3 : BitVec 32 := 1#32
  let true_102_r3 : BitVec 1 := 1#1
  let c1_i32_101_r3 : BitVec 32 := 1#32
  let v136_r3 : BitVec 32 := Scalar.subi arg15_r3 c1_i32_101_r3
  let v137_r3 : BitVec 32 := Scalar.select true_102_r3 v136_r3 arg15_r3
  let c_m1_i32_103_r3 : BitVec 32 := 4294967295#32
  let v138_r3 : BitVec 1 := Scalar.cmpi .eq v137_r3 c_m1_i32_103_r3
  let c49_i32_104_r3 : BitVec 32 := 49#32
  let v139_r3 : BitVec 32 := Scalar.select v138_r3 c49_i32_104_r3 v137_r3
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c50_i32 : BitVec 32 := 50#32
  let v7 : BitVec 32 := Scalar.muli v6 c50_i32
  let v140_r3 : BitVec 32 := Scalar.addi v139_r3 v7
  let c0_i32_228_r3 : BitVec 32 := 0#32
  let v396_r3 : BitVec 1 := Scalar.cmpi .sgt v140_r3 c0_i32_228_r3
  let v397_r3 : BitVec 32 := Scalar.extui v396_r3
  let c0_i32_229_r3 : BitVec 32 := 0#32
  let v398_r3 : BitVec 1 := Scalar.cmpi .slt v140_r3 c0_i32_229_r3
  let v399_r3 : BitVec 32 := Scalar.extui v398_r3
  let v400_r3 : BitVec 32 := Scalar.subi v397_r3 v399_r3
  let c32_i32_227_r3 : BitVec 32 := 32#32
  let c0_i32_230_r3 : BitVec 32 := 0#32
  let v401_r3 : BitVec 1 := Scalar.cmpi .sgt c32_i32_227_r3 c0_i32_230_r3
  let v402_r3 : BitVec 32 := Scalar.extui v401_r3
  let c0_i32_231_r3 : BitVec 32 := 0#32
  let v403_r3 : BitVec 1 := Scalar.cmpi .slt c32_i32_227_r3 c0_i32_231_r3
  let v404_r3 : BitVec 32 := Scalar.extui v403_r3
  let v405_r3 : BitVec 32 := Scalar.subi v402_r3 v404_r3
  let v406_r3 : BitVec 1 := Scalar.cmpi .ne v400_r3 v405_r3
  let v407_r3 : BitVec 32 := Scalar.remsi v140_r3 c32_i32_227_r3
  let c0_i32_232_r3 : BitVec 32 := 0#32
  let v408_r3 : BitVec 1 := Scalar.cmpi .ne v407_r3 c0_i32_232_r3
  let v409_r3 : BitVec 1 := Scalar.andi v406_r3 v408_r3
  let v395_r3 : BitVec 32 := Scalar.divsi v140_r3 c32_i32_227_r3
  let c1_i32_233_r3 : BitVec 32 := 1#32
  let v410_r3 : BitVec 32 := Scalar.subi v395_r3 c1_i32_233_r3
  let v411_r3 : BitVec 32 := Scalar.select v409_r3 v410_r3 v395_r3
  let v422_r3 : BitVec 32 := Scalar.muli c1_i32_240_r3 v411_r3
  let c0_i32_246_r3 : BitVec 32 := 0#32
  let c128_i32_241_r3 : BitVec 32 := 128#32
  let c32_i32_234_r3 : BitVec 32 := 32#32
  let c0_i32_235_r3 : BitVec 32 := 0#32
  let v412_r3 : BitVec 1 := Scalar.cmpi .eq c32_i32_234_r3 c0_i32_235_r3
  let c1_i32_236_r3 : BitVec 32 := 1#32
  let v413_r3 : BitVec 32 := Scalar.select v412_r3 c1_i32_236_r3 c32_i32_234_r3
  let v414_r3 : BitVec 32 := Scalar.remsi v140_r3 v413_r3
  let c0_i32_238_r3 : BitVec 32 := 0#32
  let v416_r3 : BitVec 1 := Scalar.cmpi .slt v414_r3 c0_i32_238_r3
  let c0_i32_239_r3 : BitVec 32 := 0#32
  let v417_r3 : BitVec 1 := Scalar.cmpi .slt v413_r3 c0_i32_239_r3
  let v418_r3 : BitVec 1 := Scalar.xori v416_r3 v417_r3
  let c0_i32_237_r3 : BitVec 32 := 0#32
  let v415_r3 : BitVec 1 := Scalar.cmpi .ne v414_r3 c0_i32_237_r3
  let v419_r3 : BitVec 1 := Scalar.andi v418_r3 v415_r3
  let v420_r3 : BitVec 32 := Scalar.addi v414_r3 v413_r3
  let v421_r3 : BitVec 32 := Scalar.select v419_r3 v420_r3 v414_r3
  let v423_r3 : BitVec 32 := Scalar.muli c128_i32_241_r3 v421_r3
  let c0_i32_247_r3 : BitVec 32 := 0#32
  ![v422_r3.toNat, 0, v423_r3.toNat, 0]
def k0_off17 (arg14_r3 : BitVec 32) : Fin 1 → Nat :=
  let c2_i32_226_r3 : BitVec 32 := 2#32
  let v394_r3 : BitVec 32 := Scalar.remui arg14_r3 c2_i32_226_r3
  ![v394_r3.toNat]

def k0_chk1 (i : grid0.Coords) (k0_t1 : Fin k0_t1_loop.trips) (arg11_r3 : BitVec 32) (arg12_r3 : BitVec 32) (arg13_r3 : BitVec 32) (arg14_r3 : BitVec 32) (arg15_r3 : BitVec 32) : Prop :=
  (∀ (k0_h2 : k0_cond2 i k0_t1 arg15_r3 = 1#1), ∀ a, (k0_off4 arg11_r3) a + S1x1x1x128.size a ≤ S2x1x1x128.size a) ∧
  (∀ (k0_h2 : k0_cond2 i k0_t1 arg15_r3 = 1#1), ∀ a, (k0_off5 i arg15_r3) a + S1x1x128.size a ≤ S3x50x4096.size a) ∧
  (∀ (k0_h2 : k0_cond2 i k0_t1 arg15_r3 = 1#1), ∀ a, (k0_off6 arg11_r3) a + S1.size a ≤ S2.size a) ∧
  (∀ (k0_h3 : k0_cond3 i k0_t1 arg15_r3 = 1#1), ∀ a, (k0_off7 arg12_r3) a + S1x1x1x128.size a ≤ S2x1x1x128.size a) ∧
  (∀ (k0_h3 : k0_cond3 i k0_t1 arg15_r3 = 1#1), ∀ a, (k0_off8 i arg15_r3) a + S1x1x128.size a ≤ S3x50x4096.size a) ∧
  (∀ (k0_h3 : k0_cond3 i k0_t1 arg15_r3 = 1#1), ∀ a, (k0_off9 arg12_r3) a + S1.size a ≤ S2.size a) ∧
  (∀ (k0_h6 : k0_cond6 i k0_t1 arg15_r3 = 1#1), ∀ a, (k0_off12 arg13_r3) a + S1x1x1x128x128.size a ≤ S2x1x1x128x128.size a) ∧
  (∀ (k0_h6 : k0_cond6 i k0_t1 arg15_r3 = 1#1), ∀ a, (k0_off13 i arg15_r3) a + S1x1x128x128.size a ≤ S50x3x4096x128.size a) ∧
  (∀ (k0_h6 : k0_cond6 i k0_t1 arg15_r3 = 1#1), ∀ a, (k0_off14 arg13_r3) a + S1.size a ≤ S2.size a) ∧
  (∀ (k0_h8 : k0_cond8 i k0_t1 arg15_r3 = 1#1), ∀ a, (k0_off15 arg14_r3) a + S1x1x1x128x128.size a ≤ S2x1x1x128x128.size a) ∧
  (∀ (k0_h8 : k0_cond8 i k0_t1 arg15_r3 = 1#1), ∀ a, (k0_off16 i arg15_r3) a + S1x1x128x128.size a ≤ S50x3x4096x128.size a) ∧
  (∀ (k0_h8 : k0_cond8 i k0_t1 arg15_r3 = 1#1), ∀ a, (k0_off17 arg14_r3) a + S1.size a ≤ S2.size a)
instance k0_chk1.dec : ∀ (i : grid0.Coords) (k0_t1 : Fin k0_t1_loop.trips) (arg11_r3 : BitVec 32) (arg12_r3 : BitVec 32) (arg13_r3 : BitVec 32) (arg14_r3 : BitVec 32) (arg15_r3 : BitVec 32), Decidable (k0_chk1 i k0_t1 arg11_r3 arg12_r3 arg13_r3 arg14_r3 arg15_r3) := fun i k0_t1 arg11_r3 arg12_r3 arg13_r3 arg14_r3 arg15_r3 => decidable_of_iff' _ (Iff.of_eq (k0_chk1.eq_1 i k0_t1 arg11_r3 arg12_r3 arg13_r3 arg14_r3 arg15_r3))
theorem k0_off4_inb : ∀ (i : grid0.Coords) (k0_t1 : Fin k0_t1_loop.trips) (arg11_r3 : BitVec 32) (arg12_r3 : BitVec 32) (arg13_r3 : BitVec 32) (arg14_r3 : BitVec 32) (arg15_r3 : BitVec 32) (k0_hw1 : k0_chk1 i k0_t1 arg11_r3 arg12_r3 arg13_r3 arg14_r3 arg15_r3), ∀ (k0_h2 : k0_cond2 i k0_t1 arg15_r3 = 1#1), ∀ a, (k0_off4 arg11_r3) a + S1x1x1x128.size a ≤ S2x1x1x128.size a := fun i k0_t1 arg11_r3 arg12_r3 arg13_r3 arg14_r3 arg15_r3 k0_hw1 k0_h2 => k0_hw1.1 k0_h2
theorem k0_off5_inb : ∀ (i : grid0.Coords) (k0_t1 : Fin k0_t1_loop.trips) (arg11_r3 : BitVec 32) (arg12_r3 : BitVec 32) (arg13_r3 : BitVec 32) (arg14_r3 : BitVec 32) (arg15_r3 : BitVec 32) (k0_hw1 : k0_chk1 i k0_t1 arg11_r3 arg12_r3 arg13_r3 arg14_r3 arg15_r3), ∀ (k0_h2 : k0_cond2 i k0_t1 arg15_r3 = 1#1), ∀ a, (k0_off5 i arg15_r3) a + S1x1x128.size a ≤ S3x50x4096.size a := fun i k0_t1 arg11_r3 arg12_r3 arg13_r3 arg14_r3 arg15_r3 k0_hw1 k0_h2 => k0_hw1.2.1 k0_h2
theorem k0_off6_inb : ∀ (i : grid0.Coords) (k0_t1 : Fin k0_t1_loop.trips) (arg11_r3 : BitVec 32) (arg12_r3 : BitVec 32) (arg13_r3 : BitVec 32) (arg14_r3 : BitVec 32) (arg15_r3 : BitVec 32) (k0_hw1 : k0_chk1 i k0_t1 arg11_r3 arg12_r3 arg13_r3 arg14_r3 arg15_r3), ∀ (k0_h2 : k0_cond2 i k0_t1 arg15_r3 = 1#1), ∀ a, (k0_off6 arg11_r3) a + S1.size a ≤ S2.size a := fun i k0_t1 arg11_r3 arg12_r3 arg13_r3 arg14_r3 arg15_r3 k0_hw1 k0_h2 => k0_hw1.2.2.1 k0_h2
theorem k0_off7_inb : ∀ (i : grid0.Coords) (k0_t1 : Fin k0_t1_loop.trips) (arg11_r3 : BitVec 32) (arg12_r3 : BitVec 32) (arg13_r3 : BitVec 32) (arg14_r3 : BitVec 32) (arg15_r3 : BitVec 32) (k0_hw1 : k0_chk1 i k0_t1 arg11_r3 arg12_r3 arg13_r3 arg14_r3 arg15_r3), ∀ (k0_h3 : k0_cond3 i k0_t1 arg15_r3 = 1#1), ∀ a, (k0_off7 arg12_r3) a + S1x1x1x128.size a ≤ S2x1x1x128.size a := fun i k0_t1 arg11_r3 arg12_r3 arg13_r3 arg14_r3 arg15_r3 k0_hw1 k0_h3 => k0_hw1.2.2.2.1 k0_h3
theorem k0_off8_inb : ∀ (i : grid0.Coords) (k0_t1 : Fin k0_t1_loop.trips) (arg11_r3 : BitVec 32) (arg12_r3 : BitVec 32) (arg13_r3 : BitVec 32) (arg14_r3 : BitVec 32) (arg15_r3 : BitVec 32) (k0_hw1 : k0_chk1 i k0_t1 arg11_r3 arg12_r3 arg13_r3 arg14_r3 arg15_r3), ∀ (k0_h3 : k0_cond3 i k0_t1 arg15_r3 = 1#1), ∀ a, (k0_off8 i arg15_r3) a + S1x1x128.size a ≤ S3x50x4096.size a := fun i k0_t1 arg11_r3 arg12_r3 arg13_r3 arg14_r3 arg15_r3 k0_hw1 k0_h3 => k0_hw1.2.2.2.2.1 k0_h3
theorem k0_off9_inb : ∀ (i : grid0.Coords) (k0_t1 : Fin k0_t1_loop.trips) (arg11_r3 : BitVec 32) (arg12_r3 : BitVec 32) (arg13_r3 : BitVec 32) (arg14_r3 : BitVec 32) (arg15_r3 : BitVec 32) (k0_hw1 : k0_chk1 i k0_t1 arg11_r3 arg12_r3 arg13_r3 arg14_r3 arg15_r3), ∀ (k0_h3 : k0_cond3 i k0_t1 arg15_r3 = 1#1), ∀ a, (k0_off9 arg12_r3) a + S1.size a ≤ S2.size a := fun i k0_t1 arg11_r3 arg12_r3 arg13_r3 arg14_r3 arg15_r3 k0_hw1 k0_h3 => k0_hw1.2.2.2.2.2.1 k0_h3
theorem k0_off12_inb : ∀ (i : grid0.Coords) (k0_t1 : Fin k0_t1_loop.trips) (arg11_r3 : BitVec 32) (arg12_r3 : BitVec 32) (arg13_r3 : BitVec 32) (arg14_r3 : BitVec 32) (arg15_r3 : BitVec 32) (k0_hw1 : k0_chk1 i k0_t1 arg11_r3 arg12_r3 arg13_r3 arg14_r3 arg15_r3), ∀ (k0_h6 : k0_cond6 i k0_t1 arg15_r3 = 1#1), ∀ a, (k0_off12 arg13_r3) a + S1x1x1x128x128.size a ≤ S2x1x1x128x128.size a := fun i k0_t1 arg11_r3 arg12_r3 arg13_r3 arg14_r3 arg15_r3 k0_hw1 k0_h6 => k0_hw1.2.2.2.2.2.2.1 k0_h6
theorem k0_off13_inb : ∀ (i : grid0.Coords) (k0_t1 : Fin k0_t1_loop.trips) (arg11_r3 : BitVec 32) (arg12_r3 : BitVec 32) (arg13_r3 : BitVec 32) (arg14_r3 : BitVec 32) (arg15_r3 : BitVec 32) (k0_hw1 : k0_chk1 i k0_t1 arg11_r3 arg12_r3 arg13_r3 arg14_r3 arg15_r3), ∀ (k0_h6 : k0_cond6 i k0_t1 arg15_r3 = 1#1), ∀ a, (k0_off13 i arg15_r3) a + S1x1x128x128.size a ≤ S50x3x4096x128.size a := fun i k0_t1 arg11_r3 arg12_r3 arg13_r3 arg14_r3 arg15_r3 k0_hw1 k0_h6 => k0_hw1.2.2.2.2.2.2.2.1 k0_h6
theorem k0_off14_inb : ∀ (i : grid0.Coords) (k0_t1 : Fin k0_t1_loop.trips) (arg11_r3 : BitVec 32) (arg12_r3 : BitVec 32) (arg13_r3 : BitVec 32) (arg14_r3 : BitVec 32) (arg15_r3 : BitVec 32) (k0_hw1 : k0_chk1 i k0_t1 arg11_r3 arg12_r3 arg13_r3 arg14_r3 arg15_r3), ∀ (k0_h6 : k0_cond6 i k0_t1 arg15_r3 = 1#1), ∀ a, (k0_off14 arg13_r3) a + S1.size a ≤ S2.size a := fun i k0_t1 arg11_r3 arg12_r3 arg13_r3 arg14_r3 arg15_r3 k0_hw1 k0_h6 => k0_hw1.2.2.2.2.2.2.2.2.1 k0_h6
theorem k0_off15_inb : ∀ (i : grid0.Coords) (k0_t1 : Fin k0_t1_loop.trips) (arg11_r3 : BitVec 32) (arg12_r3 : BitVec 32) (arg13_r3 : BitVec 32) (arg14_r3 : BitVec 32) (arg15_r3 : BitVec 32) (k0_hw1 : k0_chk1 i k0_t1 arg11_r3 arg12_r3 arg13_r3 arg14_r3 arg15_r3), ∀ (k0_h8 : k0_cond8 i k0_t1 arg15_r3 = 1#1), ∀ a, (k0_off15 arg14_r3) a + S1x1x1x128x128.size a ≤ S2x1x1x128x128.size a := fun i k0_t1 arg11_r3 arg12_r3 arg13_r3 arg14_r3 arg15_r3 k0_hw1 k0_h8 => k0_hw1.2.2.2.2.2.2.2.2.2.1 k0_h8
theorem k0_off16_inb : ∀ (i : grid0.Coords) (k0_t1 : Fin k0_t1_loop.trips) (arg11_r3 : BitVec 32) (arg12_r3 : BitVec 32) (arg13_r3 : BitVec 32) (arg14_r3 : BitVec 32) (arg15_r3 : BitVec 32) (k0_hw1 : k0_chk1 i k0_t1 arg11_r3 arg12_r3 arg13_r3 arg14_r3 arg15_r3), ∀ (k0_h8 : k0_cond8 i k0_t1 arg15_r3 = 1#1), ∀ a, (k0_off16 i arg15_r3) a + S1x1x128x128.size a ≤ S50x3x4096x128.size a := fun i k0_t1 arg11_r3 arg12_r3 arg13_r3 arg14_r3 arg15_r3 k0_hw1 k0_h8 => k0_hw1.2.2.2.2.2.2.2.2.2.2.1 k0_h8
theorem k0_off17_inb : ∀ (i : grid0.Coords) (k0_t1 : Fin k0_t1_loop.trips) (arg11_r3 : BitVec 32) (arg12_r3 : BitVec 32) (arg13_r3 : BitVec 32) (arg14_r3 : BitVec 32) (arg15_r3 : BitVec 32) (k0_hw1 : k0_chk1 i k0_t1 arg11_r3 arg12_r3 arg13_r3 arg14_r3 arg15_r3), ∀ (k0_h8 : k0_cond8 i k0_t1 arg15_r3 = 1#1), ∀ a, (k0_off17 arg14_r3) a + S1.size a ≤ S2.size a := fun i k0_t1 arg11_r3 arg12_r3 arg13_r3 arg14_r3 arg15_r3 k0_hw1 k0_h8 => k0_hw1.2.2.2.2.2.2.2.2.2.2.2 k0_h8

def k0_off18 (v74_3_r3 : BitVec 32) : Fin 5 → Nat :=
  let c2_i32_71_r3 : BitVec 32 := 2#32
  let v95_r3 : BitVec 32 := Scalar.remui v74_3_r3 c2_i32_71_r3
  let c0_i32_87_r3 : BitVec 32 := 0#32
  let c0_i32_88_r3 : BitVec 32 := 0#32
  let c0_i32_89_r3 : BitVec 32 := 0#32
  let c0_i32_90_r3 : BitVec 32 := 0#32
  ![v95_r3.toNat, 0, 0, 0, 0]

def k0_off19 (i : grid0.Coords) (v74_4_r3 : BitVec 32) : Fin 4 → Nat :=
  let c1_i32_85_r3 : BitVec 32 := 1#32
  let true_56_r3 : BitVec 1 := 1#1
  let c1_i32_55_r3 : BitVec 32 := 1#32
  let v75_r3 : BitVec 32 := Scalar.subi v74_4_r3 c1_i32_55_r3
  let v76_r3 : BitVec 32 := Scalar.select true_56_r3 v75_r3 v74_4_r3
  let c_m1_i32_57_r3 : BitVec 32 := 4294967295#32
  let v77_r3 : BitVec 1 := Scalar.cmpi .eq v76_r3 c_m1_i32_57_r3
  let c49_i32_58_r3 : BitVec 32 := 49#32
  let v78_r3 : BitVec 32 := Scalar.select v77_r3 c49_i32_58_r3 v76_r3
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c50_i32 : BitVec 32 := 50#32
  let v7 : BitVec 32 := Scalar.muli v6 c50_i32
  let v79_r3 : BitVec 32 := Scalar.addi v78_r3 v7
  let c0_i32_73_r3 : BitVec 32 := 0#32
  let v97_r3 : BitVec 1 := Scalar.cmpi .sgt v79_r3 c0_i32_73_r3
  let v98_r3 : BitVec 32 := Scalar.extui v97_r3
  let c0_i32_74_r3 : BitVec 32 := 0#32
  let v99_r3 : BitVec 1 := Scalar.cmpi .slt v79_r3 c0_i32_74_r3
  let v100_r3 : BitVec 32 := Scalar.extui v99_r3
  let v101_r3 : BitVec 32 := Scalar.subi v98_r3 v100_r3
  let c32_i32_72_r3 : BitVec 32 := 32#32
  let c0_i32_75_r3 : BitVec 32 := 0#32
  let v102_r3 : BitVec 1 := Scalar.cmpi .sgt c32_i32_72_r3 c0_i32_75_r3
  let v103_r3 : BitVec 32 := Scalar.extui v102_r3
  let c0_i32_76_r3 : BitVec 32 := 0#32
  let v104_r3 : BitVec 1 := Scalar.cmpi .slt c32_i32_72_r3 c0_i32_76_r3
  let v105_r3 : BitVec 32 := Scalar.extui v104_r3
  let v106_r3 : BitVec 32 := Scalar.subi v103_r3 v105_r3
  let v107_r3 : BitVec 1 := Scalar.cmpi .ne v101_r3 v106_r3
  let v108_r3 : BitVec 32 := Scalar.remsi v79_r3 c32_i32_72_r3
  let c0_i32_77_r3 : BitVec 32 := 0#32
  let v109_r3 : BitVec 1 := Scalar.cmpi .ne v108_r3 c0_i32_77_r3
  let v110_r3 : BitVec 1 := Scalar.andi v107_r3 v109_r3
  let v96_r3 : BitVec 32 := Scalar.divsi v79_r3 c32_i32_72_r3
  let c1_i32_78_r3 : BitVec 32 := 1#32
  let v111_r3 : BitVec 32 := Scalar.subi v96_r3 c1_i32_78_r3
  let v112_r3 : BitVec 32 := Scalar.select v110_r3 v111_r3 v96_r3
  let v123_r3 : BitVec 32 := Scalar.muli c1_i32_85_r3 v112_r3
  let c0_i32_91_r3 : BitVec 32 := 0#32
  let c128_i32_86_r3 : BitVec 32 := 128#32
  let c32_i32_79_r3 : BitVec 32 := 32#32
  let c0_i32_80_r3 : BitVec 32 := 0#32
  let v113_r3 : BitVec 1 := Scalar.cmpi .eq c32_i32_79_r3 c0_i32_80_r3
  let c1_i32_81_r3 : BitVec 32 := 1#32
  let v114_r3 : BitVec 32 := Scalar.select v113_r3 c1_i32_81_r3 c32_i32_79_r3
  let v115_r3 : BitVec 32 := Scalar.remsi v79_r3 v114_r3
  let c0_i32_83_r3 : BitVec 32 := 0#32
  let v117_r3 : BitVec 1 := Scalar.cmpi .slt v115_r3 c0_i32_83_r3
  let c0_i32_84_r3 : BitVec 32 := 0#32
  let v118_r3 : BitVec 1 := Scalar.cmpi .slt v114_r3 c0_i32_84_r3
  let v119_r3 : BitVec 1 := Scalar.xori v117_r3 v118_r3
  let c0_i32_82_r3 : BitVec 32 := 0#32
  let v116_r3 : BitVec 1 := Scalar.cmpi .ne v115_r3 c0_i32_82_r3
  let v120_r3 : BitVec 1 := Scalar.andi v119_r3 v116_r3
  let v121_r3 : BitVec 32 := Scalar.addi v115_r3 v114_r3
  let v122_r3 : BitVec 32 := Scalar.select v120_r3 v121_r3 v115_r3
  let v124_r3 : BitVec 32 := Scalar.muli c128_i32_86_r3 v122_r3
  let c0_i32_92_r3 : BitVec 32 := 0#32
  ![v123_r3.toNat, 0, v124_r3.toNat, 0]

def k0_chk5 (i : grid0.Coords) (v74_4_r3 : BitVec 32) : Prop :=
  (∀ a, (k0_off19 i v74_4_r3) a + S1x1x128x128.size a ≤ S50x3x4096x128.size a)
instance k0_chk5.dec : ∀ (i : grid0.Coords) (v74_4_r3 : BitVec 32), Decidable (k0_chk5 i v74_4_r3) := fun i v74_4_r3 => decidable_of_iff' _ (Iff.of_eq (k0_chk5.eq_1 i v74_4_r3))
theorem k0_off19_inb : ∀ (i : grid0.Coords) (v74_4_r3 : BitVec 32) (k0_hw5 : k0_chk5 i v74_4_r3), ∀ a, (k0_off19 i v74_4_r3) a + S1x1x128x128.size a ≤ S50x3x4096x128.size a := fun i v74_4_r3 k0_hw5 => k0_hw5

def k0_off20 (v74_3_r3 : BitVec 32) : Fin 1 → Nat :=
  let c2_i32_71_r3 : BitVec 32 := 2#32
  let v95_r3 : BitVec 32 := Scalar.remui v74_3_r3 c2_i32_71_r3
  ![v95_r3.toNat]
def k0_off21 (v74_3_r3 : BitVec 32) : Fin 5 → Nat :=
  let c2_i32_71_r3 : BitVec 32 := 2#32
  let v95_r3 : BitVec 32 := Scalar.remui v74_3_r3 c2_i32_71_r3
  let c0_i32_95_r3 : BitVec 32 := 0#32
  let c0_i32_96_r3 : BitVec 32 := 0#32
  let c0_i32_97_r3 : BitVec 32 := 0#32
  let c0_i32_98_r3 : BitVec 32 := 0#32
  ![v95_r3.toNat, 0, 0, 0, 0]

def k0_chk4 (v74_3_r3 : BitVec 32) : Prop :=
  (∀ a, (k0_off18 v74_3_r3) a + S1x1x1x128x128.size a ≤ S2x1x1x128x128.size a) ∧
  (∀ a, (k0_off20 v74_3_r3) a + S1.size a ≤ S2.size a) ∧
  (∀ a, (k0_off21 v74_3_r3) a + S1x1x1x128x128.size a ≤ S2x1x1x128x128.size a)
instance k0_chk4.dec : ∀ (v74_3_r3 : BitVec 32), Decidable (k0_chk4 v74_3_r3) := fun v74_3_r3 => decidable_of_iff' _ (Iff.of_eq (k0_chk4.eq_1 v74_3_r3))
theorem k0_off18_inb : ∀ (v74_3_r3 : BitVec 32) (k0_hw4 : k0_chk4 v74_3_r3), ∀ a, (k0_off18 v74_3_r3) a + S1x1x1x128x128.size a ≤ S2x1x1x128x128.size a := fun v74_3_r3 k0_hw4 => k0_hw4.1
theorem k0_off20_inb : ∀ (v74_3_r3 : BitVec 32) (k0_hw4 : k0_chk4 v74_3_r3), ∀ a, (k0_off20 v74_3_r3) a + S1.size a ≤ S2.size a := fun v74_3_r3 k0_hw4 => k0_hw4.2.1
theorem k0_off21_inb : ∀ (v74_3_r3 : BitVec 32) (k0_hw4 : k0_chk4 v74_3_r3), ∀ a, (k0_off21 v74_3_r3) a + S1x1x1x128x128.size a ≤ S2x1x1x128x128.size a := fun v74_3_r3 k0_hw4 => k0_hw4.2.2

def k0_off22 : Fin 4 → Nat :=
  let c0_i32_23_r5 : BitVec 32 := 0#32
  let c2_i32_r5 : BitVec 32 := 2#32
  let v34_r5 : BitVec 32 := Scalar.remui c0_i32_23_r5 c2_i32_r5
  let c0_i32_37_r5 : BitVec 32 := 0#32
  let c0_i32_38_r5 : BitVec 32 := 0#32
  let c0_i32_39_r5 : BitVec 32 := 0#32
  ![v34_r5.toNat, 0, 0, 0]
def k0_off23 (i : grid0.Coords) : Fin 3 → Nat :=
  let c1_i32_40_r5 : BitVec 32 := 1#32
  let c1_i32_36_r5 : BitVec 32 := 1#32
  let c0_i32_11_r5 : BitVec 32 := 0#32
  let c0_i32_3 : BitVec 32 := 0#32
  let arg1 : BitVec 32 := BitVec.ofNat 32 (i 1).val
  let c1_i32_2 : BitVec 32 := 1#32
  let v8 : BitVec 32 := Scalar.muli arg1 c1_i32_2
  let v9 : BitVec 32 := Scalar.addi c0_i32_3 v8
  let arg0 : BitVec 32 := BitVec.ofNat 32 (i 0).val
  let c16_i32_4 : BitVec 32 := 16#32
  let v10 : BitVec 32 := Scalar.muli arg0 c16_i32_4
  let v11 : BitVec 32 := Scalar.addi v9 v10
  let c50_i32_5 : BitVec 32 := 50#32
  let v12 : BitVec 32 := Scalar.muli v11 c50_i32_5
  let v20_r5 : BitVec 32 := Scalar.addi c0_i32_11_r5 v12
  let c0_i32_24_r5 : BitVec 32 := 0#32
  let v36_r5 : BitVec 1 := Scalar.cmpi .sgt v20_r5 c0_i32_24_r5
  let v37_r5 : BitVec 32 := Scalar.extui v36_r5
  let c0_i32_25_r5 : BitVec 32 := 0#32
  let v38_r5 : BitVec 1 := Scalar.cmpi .slt v20_r5 c0_i32_25_r5
  let v39_r5 : BitVec 32 := Scalar.extui v38_r5
  let v40_r5 : BitVec 32 := Scalar.subi v37_r5 v39_r5
  let c32_i32_r5 : BitVec 32 := 32#32
  let c0_i32_26_r5 : BitVec 32 := 0#32
  let v41_r5 : BitVec 1 := Scalar.cmpi .sgt c32_i32_r5 c0_i32_26_r5
  let v42_r5 : BitVec 32 := Scalar.extui v41_r5
  let c0_i32_27_r5 : BitVec 32 := 0#32
  let v43_r5 : BitVec 1 := Scalar.cmpi .slt c32_i32_r5 c0_i32_27_r5
  let v44_r5 : BitVec 32 := Scalar.extui v43_r5
  let v45_r5 : BitVec 32 := Scalar.subi v42_r5 v44_r5
  let v46_r5 : BitVec 1 := Scalar.cmpi .ne v40_r5 v45_r5
  let v47_r5 : BitVec 32 := Scalar.remsi v20_r5 c32_i32_r5
  let c0_i32_28_r5 : BitVec 32 := 0#32
  let v48_r5 : BitVec 1 := Scalar.cmpi .ne v47_r5 c0_i32_28_r5
  let v49_r5 : BitVec 1 := Scalar.andi v46_r5 v48_r5
  let v35_r5 : BitVec 32 := Scalar.divsi v20_r5 c32_i32_r5
  let c1_i32_29_r5 : BitVec 32 := 1#32
  let v50_r5 : BitVec 32 := Scalar.subi v35_r5 c1_i32_29_r5
  let v51_r5 : BitVec 32 := Scalar.select v49_r5 v50_r5 v35_r5
  let v62_r5 : BitVec 32 := Scalar.muli c1_i32_36_r5 v51_r5
  let c128_i32_r5 : BitVec 32 := 128#32
  let c32_i32_30_r5 : BitVec 32 := 32#32
  let c0_i32_31_r5 : BitVec 32 := 0#32
  let v52_r5 : BitVec 1 := Scalar.cmpi .eq c32_i32_30_r5 c0_i32_31_r5
  let c1_i32_32_r5 : BitVec 32 := 1#32
  let v53_r5 : BitVec 32 := Scalar.select v52_r5 c1_i32_32_r5 c32_i32_30_r5
  let v54_r5 : BitVec 32 := Scalar.remsi v20_r5 v53_r5
  let c0_i32_34_r5 : BitVec 32 := 0#32
  let v56_r5 : BitVec 1 := Scalar.cmpi .slt v54_r5 c0_i32_34_r5
  let c0_i32_35_r5 : BitVec 32 := 0#32
  let v57_r5 : BitVec 1 := Scalar.cmpi .slt v53_r5 c0_i32_35_r5
  let v58_r5 : BitVec 1 := Scalar.xori v56_r5 v57_r5
  let c0_i32_33_r5 : BitVec 32 := 0#32
  let v55_r5 : BitVec 1 := Scalar.cmpi .ne v54_r5 c0_i32_33_r5
  let v59_r5 : BitVec 1 := Scalar.andi v58_r5 v55_r5
  let v60_r5 : BitVec 32 := Scalar.addi v54_r5 v53_r5
  let v61_r5 : BitVec 32 := Scalar.select v59_r5 v60_r5 v54_r5
  let v63_r5 : BitVec 32 := Scalar.muli c128_i32_r5 v61_r5
  ![1, v62_r5.toNat, v63_r5.toNat]
def k0_off24 : Fin 1 → Nat :=
  let c0_i32_23_r5 : BitVec 32 := 0#32
  let c2_i32_r5 : BitVec 32 := 2#32
  let v34_r5 : BitVec 32 := Scalar.remui c0_i32_23_r5 c2_i32_r5
  ![v34_r5.toNat]
@[reducible] def k0_t2_loop : Scf.Loop 32 :=
  let c0_i32_51_r5 : BitVec 32 := 0#32
  let c50_i32_52_r5 : BitVec 32 := 50#32
  let v73_r5 : BitVec 32 := Scalar.addi c0_i32_51_r5 c50_i32_52_r5
  let c1_i32_53_r5 : BitVec 32 := 1#32
  ⟨c0_i32_51_r5, v73_r5, c1_i32_53_r5⟩
def k0_off25 (arg11_r5 : BitVec 32) : Fin 4 → Nat :=
  let c2_i32_226_r5 : BitVec 32 := 2#32
  let v394_r5 : BitVec 32 := Scalar.remui arg11_r5 c2_i32_226_r5
  let c0_i32_242_r5 : BitVec 32 := 0#32
  let c0_i32_243_r5 : BitVec 32 := 0#32
  let c0_i32_244_r5 : BitVec 32 := 0#32
  ![v394_r5.toNat, 0, 0, 0]
def k0_cond9 (i : grid0.Coords) (k0_t2 : Fin k0_t2_loop.trips) (arg15_r5 : BitVec 32) : BitVec 1 :=
  let c0_i32_3 : BitVec 32 := 0#32
  let arg1 : BitVec 32 := BitVec.ofNat 32 (i 1).val
  let c1_i32_2 : BitVec 32 := 1#32
  let v8 : BitVec 32 := Scalar.muli arg1 c1_i32_2
  let v9 : BitVec 32 := Scalar.addi c0_i32_3 v8
  let arg0 : BitVec 32 := BitVec.ofNat 32 (i 0).val
  let c16_i32_4 : BitVec 32 := 16#32
  let v10 : BitVec 32 := Scalar.muli arg0 c16_i32_4
  let v11 : BitVec 32 := Scalar.addi v9 v10
  let c50_i32_5 : BitVec 32 := 50#32
  let v12 : BitVec 32 := Scalar.muli v11 c50_i32_5
  let v135_r5 : BitVec 32 := Scalar.addi arg15_r5 v12
  let c0_i32_114_r5 : BitVec 32 := 0#32
  let v152_r5 : BitVec 1 := Scalar.cmpi .sgt v135_r5 c0_i32_114_r5
  let v153_r5 : BitVec 32 := Scalar.extui v152_r5
  let c0_i32_115_r5 : BitVec 32 := 0#32
  let v154_r5 : BitVec 1 := Scalar.cmpi .slt v135_r5 c0_i32_115_r5
  let v155_r5 : BitVec 32 := Scalar.extui v154_r5
  let v156_r5 : BitVec 32 := Scalar.subi v153_r5 v155_r5
  let c32_i32_113_r5 : BitVec 32 := 32#32
  let c0_i32_116_r5 : BitVec 32 := 0#32
  let v157_r5 : BitVec 1 := Scalar.cmpi .sgt c32_i32_113_r5 c0_i32_116_r5
  let v158_r5 : BitVec 32 := Scalar.extui v157_r5
  let c0_i32_117_r5 : BitVec 32 := 0#32
  let v159_r5 : BitVec 1 := Scalar.cmpi .slt c32_i32_113_r5 c0_i32_117_r5
  let v160_r5 : BitVec 32 := Scalar.extui v159_r5
  let v161_r5 : BitVec 32 := Scalar.subi v158_r5 v160_r5
  let v162_r5 : BitVec 1 := Scalar.cmpi .ne v156_r5 v161_r5
  let v163_r5 : BitVec 32 := Scalar.remsi v135_r5 c32_i32_113_r5
  let c0_i32_118_r5 : BitVec 32 := 0#32
  let v164_r5 : BitVec 1 := Scalar.cmpi .ne v163_r5 c0_i32_118_r5
  let v165_r5 : BitVec 1 := Scalar.andi v162_r5 v164_r5
  let v151_r5 : BitVec 32 := Scalar.divsi v135_r5 c32_i32_113_r5
  let c1_i32_119_r5 : BitVec 32 := 1#32
  let v166_r5 : BitVec 32 := Scalar.subi v151_r5 c1_i32_119_r5
  let v167_r5 : BitVec 32 := Scalar.select v165_r5 v166_r5 v151_r5
  let true_106_r5 : BitVec 1 := 1#1
  let c1_i32_105_r5 : BitVec 32 := 1#32
  let v141_r5 : BitVec 32 := Scalar.addi arg15_r5 c1_i32_105_r5
  let v142_r5 : BitVec 32 := Scalar.select true_106_r5 v141_r5 arg15_r5
  let c50_i32_107_r5 : BitVec 32 := 50#32
  let v143_r5 : BitVec 1 := Scalar.cmpi .eq v142_r5 c50_i32_107_r5
  let c0_i32_108_r5 : BitVec 32 := 0#32
  let v144_r5 : BitVec 32 := Scalar.select v143_r5 c0_i32_108_r5 v142_r5
  let v145_r5 : BitVec 32 := Scalar.addi v144_r5 v12
  let c0_i32_127_r5 : BitVec 32 := 0#32
  let v179_r5 : BitVec 1 := Scalar.cmpi .sgt v145_r5 c0_i32_127_r5
  let v180_r5 : BitVec 32 := Scalar.extui v179_r5
  let c0_i32_128_r5 : BitVec 32 := 0#32
  let v181_r5 : BitVec 1 := Scalar.cmpi .slt v145_r5 c0_i32_128_r5
  let v182_r5 : BitVec 32 := Scalar.extui v181_r5
  let v183_r5 : BitVec 32 := Scalar.subi v180_r5 v182_r5
  let c32_i32_126_r5 : BitVec 32 := 32#32
  let c0_i32_129_r5 : BitVec 32 := 0#32
  let v184_r5 : BitVec 1 := Scalar.cmpi .sgt c32_i32_126_r5 c0_i32_129_r5
  let v185_r5 : BitVec 32 := Scalar.extui v184_r5
  let c0_i32_130_r5 : BitVec 32 := 0#32
  let v186_r5 : BitVec 1 := Scalar.cmpi .slt c32_i32_126_r5 c0_i32_130_r5
  let v187_r5 : BitVec 32 := Scalar.extui v186_r5
  let v188_r5 : BitVec 32 := Scalar.subi v185_r5 v187_r5
  let v189_r5 : BitVec 1 := Scalar.cmpi .ne v183_r5 v188_r5
  let v190_r5 : BitVec 32 := Scalar.remsi v145_r5 c32_i32_126_r5
  let c0_i32_131_r5 : BitVec 32 := 0#32
  let v191_r5 : BitVec 1 := Scalar.cmpi .ne v190_r5 c0_i32_131_r5
  let v192_r5 : BitVec 1 := Scalar.andi v189_r5 v191_r5
  let v178_r5 : BitVec 32 := Scalar.divsi v145_r5 c32_i32_126_r5
  let c1_i32_132_r5 : BitVec 32 := 1#32
  let v193_r5 : BitVec 32 := Scalar.subi v178_r5 c1_i32_132_r5
  let v194_r5 : BitVec 32 := Scalar.select v192_r5 v193_r5 v178_r5
  let v205_r5 : BitVec 1 := Scalar.cmpi .ne v167_r5 v194_r5
  let c32_i32_120_r5 : BitVec 32 := 32#32
  let c0_i32_121_r5 : BitVec 32 := 0#32
  let v168_r5 : BitVec 1 := Scalar.cmpi .eq c32_i32_120_r5 c0_i32_121_r5
  let c1_i32_122_r5 : BitVec 32 := 1#32
  let v169_r5 : BitVec 32 := Scalar.select v168_r5 c1_i32_122_r5 c32_i32_120_r5
  let v170_r5 : BitVec 32 := Scalar.remsi v135_r5 v169_r5
  let c0_i32_124_r5 : BitVec 32 := 0#32
  let v172_r5 : BitVec 1 := Scalar.cmpi .slt v170_r5 c0_i32_124_r5
  let c0_i32_125_r5 : BitVec 32 := 0#32
  let v173_r5 : BitVec 1 := Scalar.cmpi .slt v169_r5 c0_i32_125_r5
  let v174_r5 : BitVec 1 := Scalar.xori v172_r5 v173_r5
  let c0_i32_123_r5 : BitVec 32 := 0#32
  let v171_r5 : BitVec 1 := Scalar.cmpi .ne v170_r5 c0_i32_123_r5
  let v175_r5 : BitVec 1 := Scalar.andi v174_r5 v171_r5
  let v176_r5 : BitVec 32 := Scalar.addi v170_r5 v169_r5
  let v177_r5 : BitVec 32 := Scalar.select v175_r5 v176_r5 v170_r5
  let c32_i32_133_r5 : BitVec 32 := 32#32
  let c0_i32_134_r5 : BitVec 32 := 0#32
  let v195_r5 : BitVec 1 := Scalar.cmpi .eq c32_i32_133_r5 c0_i32_134_r5
  let c1_i32_135_r5 : BitVec 32 := 1#32
  let v196_r5 : BitVec 32 := Scalar.select v195_r5 c1_i32_135_r5 c32_i32_133_r5
  let v197_r5 : BitVec 32 := Scalar.remsi v145_r5 v196_r5
  let c0_i32_137_r5 : BitVec 32 := 0#32
  let v199_r5 : BitVec 1 := Scalar.cmpi .slt v197_r5 c0_i32_137_r5
  let c0_i32_138_r5 : BitVec 32 := 0#32
  let v200_r5 : BitVec 1 := Scalar.cmpi .slt v196_r5 c0_i32_138_r5
  let v201_r5 : BitVec 1 := Scalar.xori v199_r5 v200_r5
  let c0_i32_136_r5 : BitVec 32 := 0#32
  let v198_r5 : BitVec 1 := Scalar.cmpi .ne v197_r5 c0_i32_136_r5
  let v202_r5 : BitVec 1 := Scalar.andi v201_r5 v198_r5
  let v203_r5 : BitVec 32 := Scalar.addi v197_r5 v196_r5
  let v204_r5 : BitVec 32 := Scalar.select v202_r5 v203_r5 v197_r5
  let v206_r5 : BitVec 1 := Scalar.cmpi .ne v177_r5 v204_r5
  let v207_r5 : BitVec 1 := Scalar.ori v205_r5 v206_r5
  let c0_i32_51_r5 : BitVec 32 := 0#32
  let c1_i32_53_r5 : BitVec 32 := 1#32
  let arg10_r5 : BitVec 32 := Scf.iv c0_i32_51_r5 c1_i32_53_r5 k0_t2
  let c49_i32_139_r5 : BitVec 32 := 49#32
  let v208_r5 : BitVec 1 := Scalar.cmpi .sge arg10_r5 c49_i32_139_r5
  let true_140_r5 : BitVec 1 := 1#1
  let v209_r5 : BitVec 1 := Scalar.xori v208_r5 true_140_r5
  let v210_r5 : BitVec 1 := Scalar.andi v207_r5 v209_r5
  let v211_r5 : BitVec 32 := Scalar.extui v210_r5
  let c0_i32_141_r5 : BitVec 32 := 0#32
  let v212_r5 : BitVec 1 := Scalar.cmpi .ne v211_r5 c0_i32_141_r5
  v212_r5

def k0_off26 (i : grid0.Coords) (arg15_r5 : BitVec 32) : Fin 3 → Nat :=
  let c1_i32_245_r5 : BitVec 32 := 1#32
  let c1_i32_240_r5 : BitVec 32 := 1#32
  let true_106_r5 : BitVec 1 := 1#1
  let c1_i32_105_r5 : BitVec 32 := 1#32
  let v141_r5 : BitVec 32 := Scalar.addi arg15_r5 c1_i32_105_r5
  let v142_r5 : BitVec 32 := Scalar.select true_106_r5 v141_r5 arg15_r5
  let c50_i32_107_r5 : BitVec 32 := 50#32
  let v143_r5 : BitVec 1 := Scalar.cmpi .eq v142_r5 c50_i32_107_r5
  let c0_i32_108_r5 : BitVec 32 := 0#32
  let v144_r5 : BitVec 32 := Scalar.select v143_r5 c0_i32_108_r5 v142_r5
  let c0_i32_3 : BitVec 32 := 0#32
  let arg1 : BitVec 32 := BitVec.ofNat 32 (i 1).val
  let c1_i32_2 : BitVec 32 := 1#32
  let v8 : BitVec 32 := Scalar.muli arg1 c1_i32_2
  let v9 : BitVec 32 := Scalar.addi c0_i32_3 v8
  let arg0 : BitVec 32 := BitVec.ofNat 32 (i 0).val
  let c16_i32_4 : BitVec 32 := 16#32
  let v10 : BitVec 32 := Scalar.muli arg0 c16_i32_4
  let v11 : BitVec 32 := Scalar.addi v9 v10
  let c50_i32_5 : BitVec 32 := 50#32
  let v12 : BitVec 32 := Scalar.muli v11 c50_i32_5
  let v145_r5 : BitVec 32 := Scalar.addi v144_r5 v12
  let c0_i32_228_r5 : BitVec 32 := 0#32
  let v396_r5 : BitVec 1 := Scalar.cmpi .sgt v145_r5 c0_i32_228_r5
  let v397_r5 : BitVec 32 := Scalar.extui v396_r5
  let c0_i32_229_r5 : BitVec 32 := 0#32
  let v398_r5 : BitVec 1 := Scalar.cmpi .slt v145_r5 c0_i32_229_r5
  let v399_r5 : BitVec 32 := Scalar.extui v398_r5
  let v400_r5 : BitVec 32 := Scalar.subi v397_r5 v399_r5
  let c32_i32_227_r5 : BitVec 32 := 32#32
  let c0_i32_230_r5 : BitVec 32 := 0#32
  let v401_r5 : BitVec 1 := Scalar.cmpi .sgt c32_i32_227_r5 c0_i32_230_r5
  let v402_r5 : BitVec 32 := Scalar.extui v401_r5
  let c0_i32_231_r5 : BitVec 32 := 0#32
  let v403_r5 : BitVec 1 := Scalar.cmpi .slt c32_i32_227_r5 c0_i32_231_r5
  let v404_r5 : BitVec 32 := Scalar.extui v403_r5
  let v405_r5 : BitVec 32 := Scalar.subi v402_r5 v404_r5
  let v406_r5 : BitVec 1 := Scalar.cmpi .ne v400_r5 v405_r5
  let v407_r5 : BitVec 32 := Scalar.remsi v145_r5 c32_i32_227_r5
  let c0_i32_232_r5 : BitVec 32 := 0#32
  let v408_r5 : BitVec 1 := Scalar.cmpi .ne v407_r5 c0_i32_232_r5
  let v409_r5 : BitVec 1 := Scalar.andi v406_r5 v408_r5
  let v395_r5 : BitVec 32 := Scalar.divsi v145_r5 c32_i32_227_r5
  let c1_i32_233_r5 : BitVec 32 := 1#32
  let v410_r5 : BitVec 32 := Scalar.subi v395_r5 c1_i32_233_r5
  let v411_r5 : BitVec 32 := Scalar.select v409_r5 v410_r5 v395_r5
  let v422_r5 : BitVec 32 := Scalar.muli c1_i32_240_r5 v411_r5
  let c128_i32_241_r5 : BitVec 32 := 128#32
  let c32_i32_234_r5 : BitVec 32 := 32#32
  let c0_i32_235_r5 : BitVec 32 := 0#32
  let v412_r5 : BitVec 1 := Scalar.cmpi .eq c32_i32_234_r5 c0_i32_235_r5
  let c1_i32_236_r5 : BitVec 32 := 1#32
  let v413_r5 : BitVec 32 := Scalar.select v412_r5 c1_i32_236_r5 c32_i32_234_r5
  let v414_r5 : BitVec 32 := Scalar.remsi v145_r5 v413_r5
  let c0_i32_238_r5 : BitVec 32 := 0#32
  let v416_r5 : BitVec 1 := Scalar.cmpi .slt v414_r5 c0_i32_238_r5
  let c0_i32_239_r5 : BitVec 32 := 0#32
  let v417_r5 : BitVec 1 := Scalar.cmpi .slt v413_r5 c0_i32_239_r5
  let v418_r5 : BitVec 1 := Scalar.xori v416_r5 v417_r5
  let c0_i32_237_r5 : BitVec 32 := 0#32
  let v415_r5 : BitVec 1 := Scalar.cmpi .ne v414_r5 c0_i32_237_r5
  let v419_r5 : BitVec 1 := Scalar.andi v418_r5 v415_r5
  let v420_r5 : BitVec 32 := Scalar.addi v414_r5 v413_r5
  let v421_r5 : BitVec 32 := Scalar.select v419_r5 v420_r5 v414_r5
  let v423_r5 : BitVec 32 := Scalar.muli c128_i32_241_r5 v421_r5
  ![1, v422_r5.toNat, v423_r5.toNat]
def k0_off27 (arg11_r5 : BitVec 32) : Fin 1 → Nat :=
  let c2_i32_226_r5 : BitVec 32 := 2#32
  let v394_r5 : BitVec 32 := Scalar.remui arg11_r5 c2_i32_226_r5
  ![v394_r5.toNat]
def k0_off28 (arg12_r5 : BitVec 32) : Fin 4 → Nat :=
  let c2_i32_241_r5 : BitVec 32 := 2#32
  let v423_r5 : BitVec 32 := Scalar.remui arg12_r5 c2_i32_241_r5
  let c0_i32_242_r5 : BitVec 32 := 0#32
  let c0_i32_243_r5 : BitVec 32 := 0#32
  let c0_i32_244_r5 : BitVec 32 := 0#32
  ![v423_r5.toNat, 0, 0, 0]
def k0_cond10 (i : grid0.Coords) (k0_t2 : Fin k0_t2_loop.trips) (arg15_r5 : BitVec 32) : BitVec 1 :=
  let c0_i32_3 : BitVec 32 := 0#32
  let arg1 : BitVec 32 := BitVec.ofNat 32 (i 1).val
  let c1_i32_2 : BitVec 32 := 1#32
  let v8 : BitVec 32 := Scalar.muli arg1 c1_i32_2
  let v9 : BitVec 32 := Scalar.addi c0_i32_3 v8
  let arg0 : BitVec 32 := BitVec.ofNat 32 (i 0).val
  let c16_i32_4 : BitVec 32 := 16#32
  let v10 : BitVec 32 := Scalar.muli arg0 c16_i32_4
  let v11 : BitVec 32 := Scalar.addi v9 v10
  let c50_i32_5 : BitVec 32 := 50#32
  let v12 : BitVec 32 := Scalar.muli v11 c50_i32_5
  let v135_r5 : BitVec 32 := Scalar.addi arg15_r5 v12
  let c0_i32_114_r5 : BitVec 32 := 0#32
  let v152_r5 : BitVec 1 := Scalar.cmpi .sgt v135_r5 c0_i32_114_r5
  let v153_r5 : BitVec 32 := Scalar.extui v152_r5
  let c0_i32_115_r5 : BitVec 32 := 0#32
  let v154_r5 : BitVec 1 := Scalar.cmpi .slt v135_r5 c0_i32_115_r5
  let v155_r5 : BitVec 32 := Scalar.extui v154_r5
  let v156_r5 : BitVec 32 := Scalar.subi v153_r5 v155_r5
  let c32_i32_113_r5 : BitVec 32 := 32#32
  let c0_i32_116_r5 : BitVec 32 := 0#32
  let v157_r5 : BitVec 1 := Scalar.cmpi .sgt c32_i32_113_r5 c0_i32_116_r5
  let v158_r5 : BitVec 32 := Scalar.extui v157_r5
  let c0_i32_117_r5 : BitVec 32 := 0#32
  let v159_r5 : BitVec 1 := Scalar.cmpi .slt c32_i32_113_r5 c0_i32_117_r5
  let v160_r5 : BitVec 32 := Scalar.extui v159_r5
  let v161_r5 : BitVec 32 := Scalar.subi v158_r5 v160_r5
  let v162_r5 : BitVec 1 := Scalar.cmpi .ne v156_r5 v161_r5
  let v163_r5 : BitVec 32 := Scalar.remsi v135_r5 c32_i32_113_r5
  let c0_i32_118_r5 : BitVec 32 := 0#32
  let v164_r5 : BitVec 1 := Scalar.cmpi .ne v163_r5 c0_i32_118_r5
  let v165_r5 : BitVec 1 := Scalar.andi v162_r5 v164_r5
  let v151_r5 : BitVec 32 := Scalar.divsi v135_r5 c32_i32_113_r5
  let c1_i32_119_r5 : BitVec 32 := 1#32
  let v166_r5 : BitVec 32 := Scalar.subi v151_r5 c1_i32_119_r5
  let v167_r5 : BitVec 32 := Scalar.select v165_r5 v166_r5 v151_r5
  let true_102_r5 : BitVec 1 := 1#1
  let c1_i32_101_r5 : BitVec 32 := 1#32
  let v136_r5 : BitVec 32 := Scalar.subi arg15_r5 c1_i32_101_r5
  let v137_r5 : BitVec 32 := Scalar.select true_102_r5 v136_r5 arg15_r5
  let c_m1_i32_103_r5 : BitVec 32 := 4294967295#32
  let v138_r5 : BitVec 1 := Scalar.cmpi .eq v137_r5 c_m1_i32_103_r5
  let c49_i32_104_r5 : BitVec 32 := 49#32
  let v139_r5 : BitVec 32 := Scalar.select v138_r5 c49_i32_104_r5 v137_r5
  let v140_r5 : BitVec 32 := Scalar.addi v139_r5 v12
  let c0_i32_173_r5 : BitVec 32 := 0#32
  let v277_r5 : BitVec 1 := Scalar.cmpi .sgt v140_r5 c0_i32_173_r5
  let v278_r5 : BitVec 32 := Scalar.extui v277_r5
  let c0_i32_174_r5 : BitVec 32 := 0#32
  let v279_r5 : BitVec 1 := Scalar.cmpi .slt v140_r5 c0_i32_174_r5
  let v280_r5 : BitVec 32 := Scalar.extui v279_r5
  let v281_r5 : BitVec 32 := Scalar.subi v278_r5 v280_r5
  let c32_i32_172_r5 : BitVec 32 := 32#32
  let c0_i32_175_r5 : BitVec 32 := 0#32
  let v282_r5 : BitVec 1 := Scalar.cmpi .sgt c32_i32_172_r5 c0_i32_175_r5
  let v283_r5 : BitVec 32 := Scalar.extui v282_r5
  let c0_i32_176_r5 : BitVec 32 := 0#32
  let v284_r5 : BitVec 1 := Scalar.cmpi .slt c32_i32_172_r5 c0_i32_176_r5
  let v285_r5 : BitVec 32 := Scalar.extui v284_r5
  let v286_r5 : BitVec 32 := Scalar.subi v283_r5 v285_r5
  let v287_r5 : BitVec 1 := Scalar.cmpi .ne v281_r5 v286_r5
  let v288_r5 : BitVec 32 := Scalar.remsi v140_r5 c32_i32_172_r5
  let c0_i32_177_r5 : BitVec 32 := 0#32
  let v289_r5 : BitVec 1 := Scalar.cmpi .ne v288_r5 c0_i32_177_r5
  let v290_r5 : BitVec 1 := Scalar.andi v287_r5 v289_r5
  let v276_r5 : BitVec 32 := Scalar.divsi v140_r5 c32_i32_172_r5
  let c1_i32_178_r5 : BitVec 32 := 1#32
  let v291_r5 : BitVec 32 := Scalar.subi v276_r5 c1_i32_178_r5
  let v292_r5 : BitVec 32 := Scalar.select v290_r5 v291_r5 v276_r5
  let v303_r5 : BitVec 1 := Scalar.cmpi .ne v167_r5 v292_r5
  let c32_i32_120_r5 : BitVec 32 := 32#32
  let c0_i32_121_r5 : BitVec 32 := 0#32
  let v168_r5 : BitVec 1 := Scalar.cmpi .eq c32_i32_120_r5 c0_i32_121_r5
  let c1_i32_122_r5 : BitVec 32 := 1#32
  let v169_r5 : BitVec 32 := Scalar.select v168_r5 c1_i32_122_r5 c32_i32_120_r5
  let v170_r5 : BitVec 32 := Scalar.remsi v135_r5 v169_r5
  let c0_i32_124_r5 : BitVec 32 := 0#32
  let v172_r5 : BitVec 1 := Scalar.cmpi .slt v170_r5 c0_i32_124_r5
  let c0_i32_125_r5 : BitVec 32 := 0#32
  let v173_r5 : BitVec 1 := Scalar.cmpi .slt v169_r5 c0_i32_125_r5
  let v174_r5 : BitVec 1 := Scalar.xori v172_r5 v173_r5
  let c0_i32_123_r5 : BitVec 32 := 0#32
  let v171_r5 : BitVec 1 := Scalar.cmpi .ne v170_r5 c0_i32_123_r5
  let v175_r5 : BitVec 1 := Scalar.andi v174_r5 v171_r5
  let v176_r5 : BitVec 32 := Scalar.addi v170_r5 v169_r5
  let v177_r5 : BitVec 32 := Scalar.select v175_r5 v176_r5 v170_r5
  let c32_i32_179_r5 : BitVec 32 := 32#32
  let c0_i32_180_r5 : BitVec 32 := 0#32
  let v293_r5 : BitVec 1 := Scalar.cmpi .eq c32_i32_179_r5 c0_i32_180_r5
  let c1_i32_181_r5 : BitVec 32 := 1#32
  let v294_r5 : BitVec 32 := Scalar.select v293_r5 c1_i32_181_r5 c32_i32_179_r5
  let v295_r5 : BitVec 32 := Scalar.remsi v140_r5 v294_r5
  let c0_i32_183_r5 : BitVec 32 := 0#32
  let v297_r5 : BitVec 1 := Scalar.cmpi .slt v295_r5 c0_i32_183_r5
  let c0_i32_184_r5 : BitVec 32 := 0#32
  let v298_r5 : BitVec 1 := Scalar.cmpi .slt v294_r5 c0_i32_184_r5
  let v299_r5 : BitVec 1 := Scalar.xori v297_r5 v298_r5
  let c0_i32_182_r5 : BitVec 32 := 0#32
  let v296_r5 : BitVec 1 := Scalar.cmpi .ne v295_r5 c0_i32_182_r5
  let v300_r5 : BitVec 1 := Scalar.andi v299_r5 v296_r5
  let v301_r5 : BitVec 32 := Scalar.addi v295_r5 v294_r5
  let v302_r5 : BitVec 32 := Scalar.select v300_r5 v301_r5 v295_r5
  let v304_r5 : BitVec 1 := Scalar.cmpi .ne v177_r5 v302_r5
  let v305_r5 : BitVec 1 := Scalar.ori v303_r5 v304_r5
  let c0_i32_51_r5 : BitVec 32 := 0#32
  let c1_i32_53_r5 : BitVec 32 := 1#32
  let arg10_r5 : BitVec 32 := Scf.iv c0_i32_51_r5 c1_i32_53_r5 k0_t2
  let c0_i32_99_r5 : BitVec 32 := 0#32
  let v133_r5 : BitVec 1 := Scalar.cmpi .eq arg10_r5 c0_i32_99_r5
  let v306_r5 : BitVec 1 := Scalar.ori v305_r5 v133_r5
  let c0_i32_185_r5 : BitVec 32 := 0#32
  let v307_r5 : BitVec 1 := Scalar.cmpi .slt arg10_r5 c0_i32_185_r5
  let true_186_r5 : BitVec 1 := 1#1
  let v308_r5 : BitVec 1 := Scalar.xori v307_r5 true_186_r5
  let v309_r5 : BitVec 1 := Scalar.andi v306_r5 v308_r5
  let v310_r5 : BitVec 32 := Scalar.extui v309_r5
  let c0_i32_187_r5 : BitVec 32 := 0#32
  let v311_r5 : BitVec 1 := Scalar.cmpi .ne v310_r5 c0_i32_187_r5
  v311_r5

def k0_off29 (i : grid0.Coords) (arg15_r5 : BitVec 32) : Fin 3 → Nat :=
  let c1_i32_245_r5 : BitVec 32 := 1#32
  let c1_i32_239_r5 : BitVec 32 := 1#32
  let c0_i32_3 : BitVec 32 := 0#32
  let arg1 : BitVec 32 := BitVec.ofNat 32 (i 1).val
  let c1_i32_2 : BitVec 32 := 1#32
  let v8 : BitVec 32 := Scalar.muli arg1 c1_i32_2
  let v9 : BitVec 32 := Scalar.addi c0_i32_3 v8
  let arg0 : BitVec 32 := BitVec.ofNat 32 (i 0).val
  let c16_i32_4 : BitVec 32 := 16#32
  let v10 : BitVec 32 := Scalar.muli arg0 c16_i32_4
  let v11 : BitVec 32 := Scalar.addi v9 v10
  let c50_i32_5 : BitVec 32 := 50#32
  let v12 : BitVec 32 := Scalar.muli v11 c50_i32_5
  let v135_r5 : BitVec 32 := Scalar.addi arg15_r5 v12
  let c0_i32_227_r5 : BitVec 32 := 0#32
  let v395_r5 : BitVec 1 := Scalar.cmpi .sgt v135_r5 c0_i32_227_r5
  let v396_r5 : BitVec 32 := Scalar.extui v395_r5
  let c0_i32_228_r5 : BitVec 32 := 0#32
  let v397_r5 : BitVec 1 := Scalar.cmpi .slt v135_r5 c0_i32_228_r5
  let v398_r5 : BitVec 32 := Scalar.extui v397_r5
  let v399_r5 : BitVec 32 := Scalar.subi v396_r5 v398_r5
  let c32_i32_226_r5 : BitVec 32 := 32#32
  let c0_i32_229_r5 : BitVec 32 := 0#32
  let v400_r5 : BitVec 1 := Scalar.cmpi .sgt c32_i32_226_r5 c0_i32_229_r5
  let v401_r5 : BitVec 32 := Scalar.extui v400_r5
  let c0_i32_230_r5 : BitVec 32 := 0#32
  let v402_r5 : BitVec 1 := Scalar.cmpi .slt c32_i32_226_r5 c0_i32_230_r5
  let v403_r5 : BitVec 32 := Scalar.extui v402_r5
  let v404_r5 : BitVec 32 := Scalar.subi v401_r5 v403_r5
  let v405_r5 : BitVec 1 := Scalar.cmpi .ne v399_r5 v404_r5
  let v406_r5 : BitVec 32 := Scalar.remsi v135_r5 c32_i32_226_r5
  let c0_i32_231_r5 : BitVec 32 := 0#32
  let v407_r5 : BitVec 1 := Scalar.cmpi .ne v406_r5 c0_i32_231_r5
  let v408_r5 : BitVec 1 := Scalar.andi v405_r5 v407_r5
  let v394_r5 : BitVec 32 := Scalar.divsi v135_r5 c32_i32_226_r5
  let c1_i32_232_r5 : BitVec 32 := 1#32
  let v409_r5 : BitVec 32 := Scalar.subi v394_r5 c1_i32_232_r5
  let v410_r5 : BitVec 32 := Scalar.select v408_r5 v409_r5 v394_r5
  let v421_r5 : BitVec 32 := Scalar.muli c1_i32_239_r5 v410_r5
  let c128_i32_240_r5 : BitVec 32 := 128#32
  let c32_i32_233_r5 : BitVec 32 := 32#32
  let c0_i32_234_r5 : BitVec 32 := 0#32
  let v411_r5 : BitVec 1 := Scalar.cmpi .eq c32_i32_233_r5 c0_i32_234_r5
  let c1_i32_235_r5 : BitVec 32 := 1#32
  let v412_r5 : BitVec 32 := Scalar.select v411_r5 c1_i32_235_r5 c32_i32_233_r5
  let v413_r5 : BitVec 32 := Scalar.remsi v135_r5 v412_r5
  let c0_i32_237_r5 : BitVec 32 := 0#32
  let v415_r5 : BitVec 1 := Scalar.cmpi .slt v413_r5 c0_i32_237_r5
  let c0_i32_238_r5 : BitVec 32 := 0#32
  let v416_r5 : BitVec 1 := Scalar.cmpi .slt v412_r5 c0_i32_238_r5
  let v417_r5 : BitVec 1 := Scalar.xori v415_r5 v416_r5
  let c0_i32_236_r5 : BitVec 32 := 0#32
  let v414_r5 : BitVec 1 := Scalar.cmpi .ne v413_r5 c0_i32_236_r5
  let v418_r5 : BitVec 1 := Scalar.andi v417_r5 v414_r5
  let v419_r5 : BitVec 32 := Scalar.addi v413_r5 v412_r5
  let v420_r5 : BitVec 32 := Scalar.select v418_r5 v419_r5 v413_r5
  let v422_r5 : BitVec 32 := Scalar.muli c128_i32_240_r5 v420_r5
  ![1, v421_r5.toNat, v422_r5.toNat]
def k0_off30 (arg12_r5 : BitVec 32) : Fin 1 → Nat :=
  let c2_i32_241_r5 : BitVec 32 := 2#32
  let v423_r5 : BitVec 32 := Scalar.remui arg12_r5 c2_i32_241_r5
  ![v423_r5.toNat]
def k0_off31 (arg13_r5 : BitVec 32) : Fin 5 → Nat :=
  let c2_i32_205_r5 : BitVec 32 := 2#32
  let v349_r5 : BitVec 32 := Scalar.remui arg13_r5 c2_i32_205_r5
  let c0_i32_226_r6 : BitVec 32 := 0#32
  let c0_i32_227_r6 : BitVec 32 := 0#32
  let c0_i32_228_r6 : BitVec 32 := 0#32
  let c0_i32_229_r6 : BitVec 32 := 0#32
  ![v349_r5.toNat, 0, 0, 0, 0]

def k0_chk7 (arg13_r5 : BitVec 32) : Prop :=
  (∀ a, (k0_off31 arg13_r5) a + S1x1x1x128x128.size a ≤ S2x1x1x128x128.size a)
instance k0_chk7.dec : ∀ (arg13_r5 : BitVec 32), Decidable (k0_chk7 arg13_r5) := fun arg13_r5 => decidable_of_iff' _ (Iff.of_eq (k0_chk7.eq_1 arg13_r5))
theorem k0_off31_inb : ∀ (arg13_r5 : BitVec 32) (k0_hw7 : k0_chk7 arg13_r5), ∀ a, (k0_off31 arg13_r5) a + S1x1x1x128x128.size a ≤ S2x1x1x128x128.size a := fun arg13_r5 k0_hw7 => k0_hw7

def k0_off32 (arg12_r5 : BitVec 32) : Fin 4 → Nat :=
  let c2_i32_204_r5 : BitVec 32 := 2#32
  let v348_r5 : BitVec 32 := Scalar.remui arg12_r5 c2_i32_204_r5
  let c0_i32_232_r6 : BitVec 32 := 0#32
  let c0_i32_233_r6 : BitVec 32 := 0#32
  let c0_i32_234_r6 : BitVec 32 := 0#32
  ![v348_r5.toNat, 0, 0, 0]

def k0_chk8 (arg12_r5 : BitVec 32) : Prop :=
  (∀ a, (k0_off32 arg12_r5) a + S1x1x1x128.size a ≤ S2x1x1x128.size a)
instance k0_chk8.dec : ∀ (arg12_r5 : BitVec 32), Decidable (k0_chk8 arg12_r5) := fun arg12_r5 => decidable_of_iff' _ (Iff.of_eq (k0_chk8.eq_1 arg12_r5))
theorem k0_off32_inb : ∀ (arg12_r5 : BitVec 32) (k0_hw8 : k0_chk8 arg12_r5), ∀ a, (k0_off32 arg12_r5) a + S1x1x1x128.size a ≤ S2x1x1x128.size a := fun arg12_r5 k0_hw8 => k0_hw8

def k0_off33 (arg13_r5 : BitVec 32) : Fin 5 → Nat :=
  let c2_i32_226_r5 : BitVec 32 := 2#32
  let v394_r5 : BitVec 32 := Scalar.remui arg13_r5 c2_i32_226_r5
  let c0_i32_242_r5 : BitVec 32 := 0#32
  let c0_i32_243_r5 : BitVec 32 := 0#32
  let c0_i32_244_r5 : BitVec 32 := 0#32
  let c0_i32_245_r5 : BitVec 32 := 0#32
  ![v394_r5.toNat, 0, 0, 0, 0]
def k0_cond13 (i : grid0.Coords) (k0_t2 : Fin k0_t2_loop.trips) (arg15_r5 : BitVec 32) : BitVec 1 :=
  let c0_i32_3 : BitVec 32 := 0#32
  let arg1 : BitVec 32 := BitVec.ofNat 32 (i 1).val
  let c1_i32_2 : BitVec 32 := 1#32
  let v8 : BitVec 32 := Scalar.muli arg1 c1_i32_2
  let v9 : BitVec 32 := Scalar.addi c0_i32_3 v8
  let arg0 : BitVec 32 := BitVec.ofNat 32 (i 0).val
  let c16_i32_4 : BitVec 32 := 16#32
  let v10 : BitVec 32 := Scalar.muli arg0 c16_i32_4
  let v11 : BitVec 32 := Scalar.addi v9 v10
  let c50_i32_5 : BitVec 32 := 50#32
  let v12 : BitVec 32 := Scalar.muli v11 c50_i32_5
  let v135_r5 : BitVec 32 := Scalar.addi arg15_r5 v12
  let c0_i32_145_r5 : BitVec 32 := 0#32
  let v217_r5 : BitVec 1 := Scalar.cmpi .sgt v135_r5 c0_i32_145_r5
  let v218_r5 : BitVec 32 := Scalar.extui v217_r5
  let c0_i32_146_r5 : BitVec 32 := 0#32
  let v219_r5 : BitVec 1 := Scalar.cmpi .slt v135_r5 c0_i32_146_r5
  let v220_r5 : BitVec 32 := Scalar.extui v219_r5
  let v221_r5 : BitVec 32 := Scalar.subi v218_r5 v220_r5
  let c32_i32_144_r5 : BitVec 32 := 32#32
  let c0_i32_147_r5 : BitVec 32 := 0#32
  let v222_r5 : BitVec 1 := Scalar.cmpi .sgt c32_i32_144_r5 c0_i32_147_r5
  let v223_r5 : BitVec 32 := Scalar.extui v222_r5
  let c0_i32_148_r5 : BitVec 32 := 0#32
  let v224_r5 : BitVec 1 := Scalar.cmpi .slt c32_i32_144_r5 c0_i32_148_r5
  let v225_r5 : BitVec 32 := Scalar.extui v224_r5
  let v226_r5 : BitVec 32 := Scalar.subi v223_r5 v225_r5
  let v227_r5 : BitVec 1 := Scalar.cmpi .ne v221_r5 v226_r5
  let v228_r5 : BitVec 32 := Scalar.remsi v135_r5 c32_i32_144_r5
  let c0_i32_149_r5 : BitVec 32 := 0#32
  let v229_r5 : BitVec 1 := Scalar.cmpi .ne v228_r5 c0_i32_149_r5
  let v230_r5 : BitVec 1 := Scalar.andi v227_r5 v229_r5
  let v216_r5 : BitVec 32 := Scalar.divsi v135_r5 c32_i32_144_r5
  let c1_i32_150_r5 : BitVec 32 := 1#32
  let v231_r5 : BitVec 32 := Scalar.subi v216_r5 c1_i32_150_r5
  let v232_r5 : BitVec 32 := Scalar.select v230_r5 v231_r5 v216_r5
  let true_106_r5 : BitVec 1 := 1#1
  let c1_i32_105_r5 : BitVec 32 := 1#32
  let v141_r5 : BitVec 32 := Scalar.addi arg15_r5 c1_i32_105_r5
  let v142_r5 : BitVec 32 := Scalar.select true_106_r5 v141_r5 arg15_r5
  let c50_i32_107_r5 : BitVec 32 := 50#32
  let v143_r5 : BitVec 1 := Scalar.cmpi .eq v142_r5 c50_i32_107_r5
  let c0_i32_108_r5 : BitVec 32 := 0#32
  let v144_r5 : BitVec 32 := Scalar.select v143_r5 c0_i32_108_r5 v142_r5
  let v145_r5 : BitVec 32 := Scalar.addi v144_r5 v12
  let c0_i32_158_r5 : BitVec 32 := 0#32
  let v244_r5 : BitVec 1 := Scalar.cmpi .sgt v145_r5 c0_i32_158_r5
  let v245_r5 : BitVec 32 := Scalar.extui v244_r5
  let c0_i32_159_r5 : BitVec 32 := 0#32
  let v246_r5 : BitVec 1 := Scalar.cmpi .slt v145_r5 c0_i32_159_r5
  let v247_r5 : BitVec 32 := Scalar.extui v246_r5
  let v248_r5 : BitVec 32 := Scalar.subi v245_r5 v247_r5
  let c32_i32_157_r5 : BitVec 32 := 32#32
  let c0_i32_160_r5 : BitVec 32 := 0#32
  let v249_r5 : BitVec 1 := Scalar.cmpi .sgt c32_i32_157_r5 c0_i32_160_r5
  let v250_r5 : BitVec 32 := Scalar.extui v249_r5
  let c0_i32_161_r5 : BitVec 32 := 0#32
  let v251_r5 : BitVec 1 := Scalar.cmpi .slt c32_i32_157_r5 c0_i32_161_r5
  let v252_r5 : BitVec 32 := Scalar.extui v251_r5
  let v253_r5 : BitVec 32 := Scalar.subi v250_r5 v252_r5
  let v254_r5 : BitVec 1 := Scalar.cmpi .ne v248_r5 v253_r5
  let v255_r5 : BitVec 32 := Scalar.remsi v145_r5 c32_i32_157_r5
  let c0_i32_162_r5 : BitVec 32 := 0#32
  let v256_r5 : BitVec 1 := Scalar.cmpi .ne v255_r5 c0_i32_162_r5
  let v257_r5 : BitVec 1 := Scalar.andi v254_r5 v256_r5
  let v243_r5 : BitVec 32 := Scalar.divsi v145_r5 c32_i32_157_r5
  let c1_i32_163_r5 : BitVec 32 := 1#32
  let v258_r5 : BitVec 32 := Scalar.subi v243_r5 c1_i32_163_r5
  let v259_r5 : BitVec 32 := Scalar.select v257_r5 v258_r5 v243_r5
  let v357_r5 : BitVec 1 := Scalar.cmpi .ne v232_r5 v259_r5
  let c32_i32_151_r5 : BitVec 32 := 32#32
  let c0_i32_152_r5 : BitVec 32 := 0#32
  let v233_r5 : BitVec 1 := Scalar.cmpi .eq c32_i32_151_r5 c0_i32_152_r5
  let c1_i32_153_r5 : BitVec 32 := 1#32
  let v234_r5 : BitVec 32 := Scalar.select v233_r5 c1_i32_153_r5 c32_i32_151_r5
  let v235_r5 : BitVec 32 := Scalar.remsi v135_r5 v234_r5
  let c0_i32_155_r5 : BitVec 32 := 0#32
  let v237_r5 : BitVec 1 := Scalar.cmpi .slt v235_r5 c0_i32_155_r5
  let c0_i32_156_r5 : BitVec 32 := 0#32
  let v238_r5 : BitVec 1 := Scalar.cmpi .slt v234_r5 c0_i32_156_r5
  let v239_r5 : BitVec 1 := Scalar.xori v237_r5 v238_r5
  let c0_i32_154_r5 : BitVec 32 := 0#32
  let v236_r5 : BitVec 1 := Scalar.cmpi .ne v235_r5 c0_i32_154_r5
  let v240_r5 : BitVec 1 := Scalar.andi v239_r5 v236_r5
  let v241_r5 : BitVec 32 := Scalar.addi v235_r5 v234_r5
  let v242_r5 : BitVec 32 := Scalar.select v240_r5 v241_r5 v235_r5
  let c32_i32_164_r5 : BitVec 32 := 32#32
  let c0_i32_165_r5 : BitVec 32 := 0#32
  let v260_r5 : BitVec 1 := Scalar.cmpi .eq c32_i32_164_r5 c0_i32_165_r5
  let c1_i32_166_r5 : BitVec 32 := 1#32
  let v261_r5 : BitVec 32 := Scalar.select v260_r5 c1_i32_166_r5 c32_i32_164_r5
  let v262_r5 : BitVec 32 := Scalar.remsi v145_r5 v261_r5
  let c0_i32_168_r5 : BitVec 32 := 0#32
  let v264_r5 : BitVec 1 := Scalar.cmpi .slt v262_r5 c0_i32_168_r5
  let c0_i32_169_r5 : BitVec 32 := 0#32
  let v265_r5 : BitVec 1 := Scalar.cmpi .slt v261_r5 c0_i32_169_r5
  let v266_r5 : BitVec 1 := Scalar.xori v264_r5 v265_r5
  let c0_i32_167_r5 : BitVec 32 := 0#32
  let v263_r5 : BitVec 1 := Scalar.cmpi .ne v262_r5 c0_i32_167_r5
  let v267_r5 : BitVec 1 := Scalar.andi v266_r5 v263_r5
  let v268_r5 : BitVec 32 := Scalar.addi v262_r5 v261_r5
  let v269_r5 : BitVec 32 := Scalar.select v267_r5 v268_r5 v262_r5
  let v358_r5 : BitVec 1 := Scalar.cmpi .ne v242_r5 v269_r5
  let v359_r5 : BitVec 1 := Scalar.ori v357_r5 v358_r5
  let c0_i32_51_r5 : BitVec 32 := 0#32
  let c1_i32_53_r5 : BitVec 32 := 1#32
  let arg10_r5 : BitVec 32 := Scf.iv c0_i32_51_r5 c1_i32_53_r5 k0_t2
  let c49_i32_100_r5 : BitVec 32 := 49#32
  let v134_r5 : BitVec 1 := Scalar.cmpi .eq arg10_r5 c49_i32_100_r5
  let v360_r5 : BitVec 1 := Scalar.ori v359_r5 v134_r5
  let v361_r5 : BitVec 32 := Scalar.extui v360_r5
  let c0_i32_211_r5 : BitVec 32 := 0#32
  let v362_r5 : BitVec 1 := Scalar.cmpi .ne v361_r5 c0_i32_211_r5
  v362_r5

def k0_off34 (i : grid0.Coords) (arg15_r5 : BitVec 32) : Fin 4 → Nat :=
  let c1_i32_240_r5 : BitVec 32 := 1#32
  let c0_i32_3 : BitVec 32 := 0#32
  let arg1 : BitVec 32 := BitVec.ofNat 32 (i 1).val
  let c1_i32_2 : BitVec 32 := 1#32
  let v8 : BitVec 32 := Scalar.muli arg1 c1_i32_2
  let v9 : BitVec 32 := Scalar.addi c0_i32_3 v8
  let arg0 : BitVec 32 := BitVec.ofNat 32 (i 0).val
  let c16_i32_4 : BitVec 32 := 16#32
  let v10 : BitVec 32 := Scalar.muli arg0 c16_i32_4
  let v11 : BitVec 32 := Scalar.addi v9 v10
  let c50_i32_5 : BitVec 32 := 50#32
  let v12 : BitVec 32 := Scalar.muli v11 c50_i32_5
  let v135_r5 : BitVec 32 := Scalar.addi arg15_r5 v12
  let c0_i32_228_r5 : BitVec 32 := 0#32
  let v396_r5 : BitVec 1 := Scalar.cmpi .sgt v135_r5 c0_i32_228_r5
  let v397_r5 : BitVec 32 := Scalar.extui v396_r5
  let c0_i32_229_r5 : BitVec 32 := 0#32
  let v398_r5 : BitVec 1 := Scalar.cmpi .slt v135_r5 c0_i32_229_r5
  let v399_r5 : BitVec 32 := Scalar.extui v398_r5
  let v400_r5 : BitVec 32 := Scalar.subi v397_r5 v399_r5
  let c32_i32_227_r5 : BitVec 32 := 32#32
  let c0_i32_230_r5 : BitVec 32 := 0#32
  let v401_r5 : BitVec 1 := Scalar.cmpi .sgt c32_i32_227_r5 c0_i32_230_r5
  let v402_r5 : BitVec 32 := Scalar.extui v401_r5
  let c0_i32_231_r5 : BitVec 32 := 0#32
  let v403_r5 : BitVec 1 := Scalar.cmpi .slt c32_i32_227_r5 c0_i32_231_r5
  let v404_r5 : BitVec 32 := Scalar.extui v403_r5
  let v405_r5 : BitVec 32 := Scalar.subi v402_r5 v404_r5
  let v406_r5 : BitVec 1 := Scalar.cmpi .ne v400_r5 v405_r5
  let v407_r5 : BitVec 32 := Scalar.remsi v135_r5 c32_i32_227_r5
  let c0_i32_232_r5 : BitVec 32 := 0#32
  let v408_r5 : BitVec 1 := Scalar.cmpi .ne v407_r5 c0_i32_232_r5
  let v409_r5 : BitVec 1 := Scalar.andi v406_r5 v408_r5
  let v395_r5 : BitVec 32 := Scalar.divsi v135_r5 c32_i32_227_r5
  let c1_i32_233_r5 : BitVec 32 := 1#32
  let v410_r5 : BitVec 32 := Scalar.subi v395_r5 c1_i32_233_r5
  let v411_r5 : BitVec 32 := Scalar.select v409_r5 v410_r5 v395_r5
  let v422_r5 : BitVec 32 := Scalar.muli c1_i32_240_r5 v411_r5
  let c1_i32_246_r5 : BitVec 32 := 1#32
  let c128_i32_241_r5 : BitVec 32 := 128#32
  let c32_i32_234_r5 : BitVec 32 := 32#32
  let c0_i32_235_r5 : BitVec 32 := 0#32
  let v412_r5 : BitVec 1 := Scalar.cmpi .eq c32_i32_234_r5 c0_i32_235_r5
  let c1_i32_236_r5 : BitVec 32 := 1#32
  let v413_r5 : BitVec 32 := Scalar.select v412_r5 c1_i32_236_r5 c32_i32_234_r5
  let v414_r5 : BitVec 32 := Scalar.remsi v135_r5 v413_r5
  let c0_i32_238_r5 : BitVec 32 := 0#32
  let v416_r5 : BitVec 1 := Scalar.cmpi .slt v414_r5 c0_i32_238_r5
  let c0_i32_239_r5 : BitVec 32 := 0#32
  let v417_r5 : BitVec 1 := Scalar.cmpi .slt v413_r5 c0_i32_239_r5
  let v418_r5 : BitVec 1 := Scalar.xori v416_r5 v417_r5
  let c0_i32_237_r5 : BitVec 32 := 0#32
  let v415_r5 : BitVec 1 := Scalar.cmpi .ne v414_r5 c0_i32_237_r5
  let v419_r5 : BitVec 1 := Scalar.andi v418_r5 v415_r5
  let v420_r5 : BitVec 32 := Scalar.addi v414_r5 v413_r5
  let v421_r5 : BitVec 32 := Scalar.select v419_r5 v420_r5 v414_r5
  let v423_r5 : BitVec 32 := Scalar.muli c128_i32_241_r5 v421_r5
  let c0_i32_247_r5 : BitVec 32 := 0#32
  ![v422_r5.toNat, 1, v423_r5.toNat, 0]
def k0_off35 (arg13_r5 : BitVec 32) : Fin 1 → Nat :=
  let c2_i32_226_r5 : BitVec 32 := 2#32
  let v394_r5 : BitVec 32 := Scalar.remui arg13_r5 c2_i32_226_r5
  ![v394_r5.toNat]
def k0_off36 (arg14_r5 : BitVec 32) : Fin 5 → Nat :=
  let c2_i32_226_r5 : BitVec 32 := 2#32
  let v394_r5 : BitVec 32 := Scalar.remui arg14_r5 c2_i32_226_r5
  let c0_i32_242_r5 : BitVec 32 := 0#32
  let c0_i32_243_r5 : BitVec 32 := 0#32
  let c0_i32_244_r5 : BitVec 32 := 0#32
  let c0_i32_245_r5 : BitVec 32 := 0#32
  ![v394_r5.toNat, 0, 0, 0, 0]
def k0_cond15 (i : grid0.Coords) (k0_t2 : Fin k0_t2_loop.trips) (arg15_r5 : BitVec 32) : BitVec 1 :=
  let c0_i32_3 : BitVec 32 := 0#32
  let arg1 : BitVec 32 := BitVec.ofNat 32 (i 1).val
  let c1_i32_2 : BitVec 32 := 1#32
  let v8 : BitVec 32 := Scalar.muli arg1 c1_i32_2
  let v9 : BitVec 32 := Scalar.addi c0_i32_3 v8
  let arg0 : BitVec 32 := BitVec.ofNat 32 (i 0).val
  let c16_i32_4 : BitVec 32 := 16#32
  let v10 : BitVec 32 := Scalar.muli arg0 c16_i32_4
  let v11 : BitVec 32 := Scalar.addi v9 v10
  let c50_i32_5 : BitVec 32 := 50#32
  let v12 : BitVec 32 := Scalar.muli v11 c50_i32_5
  let v135_r5 : BitVec 32 := Scalar.addi arg15_r5 v12
  let c0_i32_145_r5 : BitVec 32 := 0#32
  let v217_r5 : BitVec 1 := Scalar.cmpi .sgt v135_r5 c0_i32_145_r5
  let v218_r5 : BitVec 32 := Scalar.extui v217_r5
  let c0_i32_146_r5 : BitVec 32 := 0#32
  let v219_r5 : BitVec 1 := Scalar.cmpi .slt v135_r5 c0_i32_146_r5
  let v220_r5 : BitVec 32 := Scalar.extui v219_r5
  let v221_r5 : BitVec 32 := Scalar.subi v218_r5 v220_r5
  let c32_i32_144_r5 : BitVec 32 := 32#32
  let c0_i32_147_r5 : BitVec 32 := 0#32
  let v222_r5 : BitVec 1 := Scalar.cmpi .sgt c32_i32_144_r5 c0_i32_147_r5
  let v223_r5 : BitVec 32 := Scalar.extui v222_r5
  let c0_i32_148_r5 : BitVec 32 := 0#32
  let v224_r5 : BitVec 1 := Scalar.cmpi .slt c32_i32_144_r5 c0_i32_148_r5
  let v225_r5 : BitVec 32 := Scalar.extui v224_r5
  let v226_r5 : BitVec 32 := Scalar.subi v223_r5 v225_r5
  let v227_r5 : BitVec 1 := Scalar.cmpi .ne v221_r5 v226_r5
  let v228_r5 : BitVec 32 := Scalar.remsi v135_r5 c32_i32_144_r5
  let c0_i32_149_r5 : BitVec 32 := 0#32
  let v229_r5 : BitVec 1 := Scalar.cmpi .ne v228_r5 c0_i32_149_r5
  let v230_r5 : BitVec 1 := Scalar.andi v227_r5 v229_r5
  let v216_r5 : BitVec 32 := Scalar.divsi v135_r5 c32_i32_144_r5
  let c1_i32_150_r5 : BitVec 32 := 1#32
  let v231_r5 : BitVec 32 := Scalar.subi v216_r5 c1_i32_150_r5
  let v232_r5 : BitVec 32 := Scalar.select v230_r5 v231_r5 v216_r5
  let true_102_r5 : BitVec 1 := 1#1
  let c1_i32_101_r5 : BitVec 32 := 1#32
  let v136_r5 : BitVec 32 := Scalar.subi arg15_r5 c1_i32_101_r5
  let v137_r5 : BitVec 32 := Scalar.select true_102_r5 v136_r5 arg15_r5
  let c_m1_i32_103_r5 : BitVec 32 := 4294967295#32
  let v138_r5 : BitVec 1 := Scalar.cmpi .eq v137_r5 c_m1_i32_103_r5
  let c49_i32_104_r5 : BitVec 32 := 49#32
  let v139_r5 : BitVec 32 := Scalar.select v138_r5 c49_i32_104_r5 v137_r5
  let v140_r5 : BitVec 32 := Scalar.addi v139_r5 v12
  let c0_i32_189_r5 : BitVec 32 := 0#32
  let v313_r5 : BitVec 1 := Scalar.cmpi .sgt v140_r5 c0_i32_189_r5
  let v314_r5 : BitVec 32 := Scalar.extui v313_r5
  let c0_i32_190_r5 : BitVec 32 := 0#32
  let v315_r5 : BitVec 1 := Scalar.cmpi .slt v140_r5 c0_i32_190_r5
  let v316_r5 : BitVec 32 := Scalar.extui v315_r5
  let v317_r5 : BitVec 32 := Scalar.subi v314_r5 v316_r5
  let c32_i32_188_r5 : BitVec 32 := 32#32
  let c0_i32_191_r5 : BitVec 32 := 0#32
  let v318_r5 : BitVec 1 := Scalar.cmpi .sgt c32_i32_188_r5 c0_i32_191_r5
  let v319_r5 : BitVec 32 := Scalar.extui v318_r5
  let c0_i32_192_r5 : BitVec 32 := 0#32
  let v320_r5 : BitVec 1 := Scalar.cmpi .slt c32_i32_188_r5 c0_i32_192_r5
  let v321_r5 : BitVec 32 := Scalar.extui v320_r5
  let v322_r5 : BitVec 32 := Scalar.subi v319_r5 v321_r5
  let v323_r5 : BitVec 1 := Scalar.cmpi .ne v317_r5 v322_r5
  let v324_r5 : BitVec 32 := Scalar.remsi v140_r5 c32_i32_188_r5
  let c0_i32_193_r5 : BitVec 32 := 0#32
  let v325_r5 : BitVec 1 := Scalar.cmpi .ne v324_r5 c0_i32_193_r5
  let v326_r5 : BitVec 1 := Scalar.andi v323_r5 v325_r5
  let v312_r5 : BitVec 32 := Scalar.divsi v140_r5 c32_i32_188_r5
  let c1_i32_194_r5 : BitVec 32 := 1#32
  let v327_r5 : BitVec 32 := Scalar.subi v312_r5 c1_i32_194_r5
  let v328_r5 : BitVec 32 := Scalar.select v326_r5 v327_r5 v312_r5
  let v374_r5 : BitVec 1 := Scalar.cmpi .ne v232_r5 v328_r5
  let c32_i32_151_r5 : BitVec 32 := 32#32
  let c0_i32_152_r5 : BitVec 32 := 0#32
  let v233_r5 : BitVec 1 := Scalar.cmpi .eq c32_i32_151_r5 c0_i32_152_r5
  let c1_i32_153_r5 : BitVec 32 := 1#32
  let v234_r5 : BitVec 32 := Scalar.select v233_r5 c1_i32_153_r5 c32_i32_151_r5
  let v235_r5 : BitVec 32 := Scalar.remsi v135_r5 v234_r5
  let c0_i32_155_r5 : BitVec 32 := 0#32
  let v237_r5 : BitVec 1 := Scalar.cmpi .slt v235_r5 c0_i32_155_r5
  let c0_i32_156_r5 : BitVec 32 := 0#32
  let v238_r5 : BitVec 1 := Scalar.cmpi .slt v234_r5 c0_i32_156_r5
  let v239_r5 : BitVec 1 := Scalar.xori v237_r5 v238_r5
  let c0_i32_154_r5 : BitVec 32 := 0#32
  let v236_r5 : BitVec 1 := Scalar.cmpi .ne v235_r5 c0_i32_154_r5
  let v240_r5 : BitVec 1 := Scalar.andi v239_r5 v236_r5
  let v241_r5 : BitVec 32 := Scalar.addi v235_r5 v234_r5
  let v242_r5 : BitVec 32 := Scalar.select v240_r5 v241_r5 v235_r5
  let c32_i32_195_r5 : BitVec 32 := 32#32
  let c0_i32_196_r5 : BitVec 32 := 0#32
  let v329_r5 : BitVec 1 := Scalar.cmpi .eq c32_i32_195_r5 c0_i32_196_r5
  let c1_i32_197_r5 : BitVec 32 := 1#32
  let v330_r5 : BitVec 32 := Scalar.select v329_r5 c1_i32_197_r5 c32_i32_195_r5
  let v331_r5 : BitVec 32 := Scalar.remsi v140_r5 v330_r5
  let c0_i32_199_r5 : BitVec 32 := 0#32
  let v333_r5 : BitVec 1 := Scalar.cmpi .slt v331_r5 c0_i32_199_r5
  let c0_i32_200_r5 : BitVec 32 := 0#32
  let v334_r5 : BitVec 1 := Scalar.cmpi .slt v330_r5 c0_i32_200_r5
  let v335_r5 : BitVec 1 := Scalar.xori v333_r5 v334_r5
  let c0_i32_198_r5 : BitVec 32 := 0#32
  let v332_r5 : BitVec 1 := Scalar.cmpi .ne v331_r5 c0_i32_198_r5
  let v336_r5 : BitVec 1 := Scalar.andi v335_r5 v332_r5
  let v337_r5 : BitVec 32 := Scalar.addi v331_r5 v330_r5
  let v338_r5 : BitVec 32 := Scalar.select v336_r5 v337_r5 v331_r5
  let v375_r5 : BitVec 1 := Scalar.cmpi .ne v242_r5 v338_r5
  let v376_r5 : BitVec 1 := Scalar.ori v374_r5 v375_r5
  let c0_i32_51_r5 : BitVec 32 := 0#32
  let c1_i32_53_r5 : BitVec 32 := 1#32
  let arg10_r5 : BitVec 32 := Scf.iv c0_i32_51_r5 c1_i32_53_r5 k0_t2
  let c0_i32_99_r5 : BitVec 32 := 0#32
  let v133_r5 : BitVec 1 := Scalar.cmpi .eq arg10_r5 c0_i32_99_r5
  let true_217_r5 : BitVec 1 := 1#1
  let v377_r5 : BitVec 1 := Scalar.xori v133_r5 true_217_r5
  let v378_r5 : BitVec 1 := Scalar.andi v376_r5 v377_r5
  let v379_r5 : BitVec 32 := Scalar.extui v378_r5
  let c0_i32_218_r5 : BitVec 32 := 0#32
  let v380_r5 : BitVec 1 := Scalar.cmpi .ne v379_r5 c0_i32_218_r5
  v380_r5

def k0_off37 (i : grid0.Coords) (arg15_r5 : BitVec 32) : Fin 4 → Nat :=
  let c1_i32_240_r5 : BitVec 32 := 1#32
  let true_102_r5 : BitVec 1 := 1#1
  let c1_i32_101_r5 : BitVec 32 := 1#32
  let v136_r5 : BitVec 32 := Scalar.subi arg15_r5 c1_i32_101_r5
  let v137_r5 : BitVec 32 := Scalar.select true_102_r5 v136_r5 arg15_r5
  let c_m1_i32_103_r5 : BitVec 32 := 4294967295#32
  let v138_r5 : BitVec 1 := Scalar.cmpi .eq v137_r5 c_m1_i32_103_r5
  let c49_i32_104_r5 : BitVec 32 := 49#32
  let v139_r5 : BitVec 32 := Scalar.select v138_r5 c49_i32_104_r5 v137_r5
  let c0_i32_3 : BitVec 32 := 0#32
  let arg1 : BitVec 32 := BitVec.ofNat 32 (i 1).val
  let c1_i32_2 : BitVec 32 := 1#32
  let v8 : BitVec 32 := Scalar.muli arg1 c1_i32_2
  let v9 : BitVec 32 := Scalar.addi c0_i32_3 v8
  let arg0 : BitVec 32 := BitVec.ofNat 32 (i 0).val
  let c16_i32_4 : BitVec 32 := 16#32
  let v10 : BitVec 32 := Scalar.muli arg0 c16_i32_4
  let v11 : BitVec 32 := Scalar.addi v9 v10
  let c50_i32_5 : BitVec 32 := 50#32
  let v12 : BitVec 32 := Scalar.muli v11 c50_i32_5
  let v140_r5 : BitVec 32 := Scalar.addi v139_r5 v12
  let c0_i32_228_r5 : BitVec 32 := 0#32
  let v396_r5 : BitVec 1 := Scalar.cmpi .sgt v140_r5 c0_i32_228_r5
  let v397_r5 : BitVec 32 := Scalar.extui v396_r5
  let c0_i32_229_r5 : BitVec 32 := 0#32
  let v398_r5 : BitVec 1 := Scalar.cmpi .slt v140_r5 c0_i32_229_r5
  let v399_r5 : BitVec 32 := Scalar.extui v398_r5
  let v400_r5 : BitVec 32 := Scalar.subi v397_r5 v399_r5
  let c32_i32_227_r5 : BitVec 32 := 32#32
  let c0_i32_230_r5 : BitVec 32 := 0#32
  let v401_r5 : BitVec 1 := Scalar.cmpi .sgt c32_i32_227_r5 c0_i32_230_r5
  let v402_r5 : BitVec 32 := Scalar.extui v401_r5
  let c0_i32_231_r5 : BitVec 32 := 0#32
  let v403_r5 : BitVec 1 := Scalar.cmpi .slt c32_i32_227_r5 c0_i32_231_r5
  let v404_r5 : BitVec 32 := Scalar.extui v403_r5
  let v405_r5 : BitVec 32 := Scalar.subi v402_r5 v404_r5
  let v406_r5 : BitVec 1 := Scalar.cmpi .ne v400_r5 v405_r5
  let v407_r5 : BitVec 32 := Scalar.remsi v140_r5 c32_i32_227_r5
  let c0_i32_232_r5 : BitVec 32 := 0#32
  let v408_r5 : BitVec 1 := Scalar.cmpi .ne v407_r5 c0_i32_232_r5
  let v409_r5 : BitVec 1 := Scalar.andi v406_r5 v408_r5
  let v395_r5 : BitVec 32 := Scalar.divsi v140_r5 c32_i32_227_r5
  let c1_i32_233_r5 : BitVec 32 := 1#32
  let v410_r5 : BitVec 32 := Scalar.subi v395_r5 c1_i32_233_r5
  let v411_r5 : BitVec 32 := Scalar.select v409_r5 v410_r5 v395_r5
  let v422_r5 : BitVec 32 := Scalar.muli c1_i32_240_r5 v411_r5
  let c1_i32_246_r5 : BitVec 32 := 1#32
  let c128_i32_241_r5 : BitVec 32 := 128#32
  let c32_i32_234_r5 : BitVec 32 := 32#32
  let c0_i32_235_r5 : BitVec 32 := 0#32
  let v412_r5 : BitVec 1 := Scalar.cmpi .eq c32_i32_234_r5 c0_i32_235_r5
  let c1_i32_236_r5 : BitVec 32 := 1#32
  let v413_r5 : BitVec 32 := Scalar.select v412_r5 c1_i32_236_r5 c32_i32_234_r5
  let v414_r5 : BitVec 32 := Scalar.remsi v140_r5 v413_r5
  let c0_i32_238_r5 : BitVec 32 := 0#32
  let v416_r5 : BitVec 1 := Scalar.cmpi .slt v414_r5 c0_i32_238_r5
  let c0_i32_239_r5 : BitVec 32 := 0#32
  let v417_r5 : BitVec 1 := Scalar.cmpi .slt v413_r5 c0_i32_239_r5
  let v418_r5 : BitVec 1 := Scalar.xori v416_r5 v417_r5
  let c0_i32_237_r5 : BitVec 32 := 0#32
  let v415_r5 : BitVec 1 := Scalar.cmpi .ne v414_r5 c0_i32_237_r5
  let v419_r5 : BitVec 1 := Scalar.andi v418_r5 v415_r5
  let v420_r5 : BitVec 32 := Scalar.addi v414_r5 v413_r5
  let v421_r5 : BitVec 32 := Scalar.select v419_r5 v420_r5 v414_r5
  let v423_r5 : BitVec 32 := Scalar.muli c128_i32_241_r5 v421_r5
  let c0_i32_247_r5 : BitVec 32 := 0#32
  ![v422_r5.toNat, 1, v423_r5.toNat, 0]
def k0_off38 (arg14_r5 : BitVec 32) : Fin 1 → Nat :=
  let c2_i32_226_r5 : BitVec 32 := 2#32
  let v394_r5 : BitVec 32 := Scalar.remui arg14_r5 c2_i32_226_r5
  ![v394_r5.toNat]

def k0_chk6 (i : grid0.Coords) (k0_t2 : Fin k0_t2_loop.trips) (arg11_r5 : BitVec 32) (arg12_r5 : BitVec 32) (arg13_r5 : BitVec 32) (arg14_r5 : BitVec 32) (arg15_r5 : BitVec 32) : Prop :=
  (∀ (k0_h9 : k0_cond9 i k0_t2 arg15_r5 = 1#1), ∀ a, (k0_off25 arg11_r5) a + S1x1x1x128.size a ≤ S2x1x1x128.size a) ∧
  (∀ (k0_h9 : k0_cond9 i k0_t2 arg15_r5 = 1#1), ∀ a, (k0_off26 i arg15_r5) a + S1x1x128.size a ≤ S3x50x4096.size a) ∧
  (∀ (k0_h9 : k0_cond9 i k0_t2 arg15_r5 = 1#1), ∀ a, (k0_off27 arg11_r5) a + S1.size a ≤ S2.size a) ∧
  (∀ (k0_h10 : k0_cond10 i k0_t2 arg15_r5 = 1#1), ∀ a, (k0_off28 arg12_r5) a + S1x1x1x128.size a ≤ S2x1x1x128.size a) ∧
  (∀ (k0_h10 : k0_cond10 i k0_t2 arg15_r5 = 1#1), ∀ a, (k0_off29 i arg15_r5) a + S1x1x128.size a ≤ S3x50x4096.size a) ∧
  (∀ (k0_h10 : k0_cond10 i k0_t2 arg15_r5 = 1#1), ∀ a, (k0_off30 arg12_r5) a + S1.size a ≤ S2.size a) ∧
  (∀ (k0_h13 : k0_cond13 i k0_t2 arg15_r5 = 1#1), ∀ a, (k0_off33 arg13_r5) a + S1x1x1x128x128.size a ≤ S2x1x1x128x128.size a) ∧
  (∀ (k0_h13 : k0_cond13 i k0_t2 arg15_r5 = 1#1), ∀ a, (k0_off34 i arg15_r5) a + S1x1x128x128.size a ≤ S50x3x4096x128.size a) ∧
  (∀ (k0_h13 : k0_cond13 i k0_t2 arg15_r5 = 1#1), ∀ a, (k0_off35 arg13_r5) a + S1.size a ≤ S2.size a) ∧
  (∀ (k0_h15 : k0_cond15 i k0_t2 arg15_r5 = 1#1), ∀ a, (k0_off36 arg14_r5) a + S1x1x1x128x128.size a ≤ S2x1x1x128x128.size a) ∧
  (∀ (k0_h15 : k0_cond15 i k0_t2 arg15_r5 = 1#1), ∀ a, (k0_off37 i arg15_r5) a + S1x1x128x128.size a ≤ S50x3x4096x128.size a) ∧
  (∀ (k0_h15 : k0_cond15 i k0_t2 arg15_r5 = 1#1), ∀ a, (k0_off38 arg14_r5) a + S1.size a ≤ S2.size a)
instance k0_chk6.dec : ∀ (i : grid0.Coords) (k0_t2 : Fin k0_t2_loop.trips) (arg11_r5 : BitVec 32) (arg12_r5 : BitVec 32) (arg13_r5 : BitVec 32) (arg14_r5 : BitVec 32) (arg15_r5 : BitVec 32), Decidable (k0_chk6 i k0_t2 arg11_r5 arg12_r5 arg13_r5 arg14_r5 arg15_r5) := fun i k0_t2 arg11_r5 arg12_r5 arg13_r5 arg14_r5 arg15_r5 => decidable_of_iff' _ (Iff.of_eq (k0_chk6.eq_1 i k0_t2 arg11_r5 arg12_r5 arg13_r5 arg14_r5 arg15_r5))
theorem k0_off25_inb : ∀ (i : grid0.Coords) (k0_t2 : Fin k0_t2_loop.trips) (arg11_r5 : BitVec 32) (arg12_r5 : BitVec 32) (arg13_r5 : BitVec 32) (arg14_r5 : BitVec 32) (arg15_r5 : BitVec 32) (k0_hw6 : k0_chk6 i k0_t2 arg11_r5 arg12_r5 arg13_r5 arg14_r5 arg15_r5), ∀ (k0_h9 : k0_cond9 i k0_t2 arg15_r5 = 1#1), ∀ a, (k0_off25 arg11_r5) a + S1x1x1x128.size a ≤ S2x1x1x128.size a := fun i k0_t2 arg11_r5 arg12_r5 arg13_r5 arg14_r5 arg15_r5 k0_hw6 k0_h9 => k0_hw6.1 k0_h9
theorem k0_off26_inb : ∀ (i : grid0.Coords) (k0_t2 : Fin k0_t2_loop.trips) (arg11_r5 : BitVec 32) (arg12_r5 : BitVec 32) (arg13_r5 : BitVec 32) (arg14_r5 : BitVec 32) (arg15_r5 : BitVec 32) (k0_hw6 : k0_chk6 i k0_t2 arg11_r5 arg12_r5 arg13_r5 arg14_r5 arg15_r5), ∀ (k0_h9 : k0_cond9 i k0_t2 arg15_r5 = 1#1), ∀ a, (k0_off26 i arg15_r5) a + S1x1x128.size a ≤ S3x50x4096.size a := fun i k0_t2 arg11_r5 arg12_r5 arg13_r5 arg14_r5 arg15_r5 k0_hw6 k0_h9 => k0_hw6.2.1 k0_h9
theorem k0_off27_inb : ∀ (i : grid0.Coords) (k0_t2 : Fin k0_t2_loop.trips) (arg11_r5 : BitVec 32) (arg12_r5 : BitVec 32) (arg13_r5 : BitVec 32) (arg14_r5 : BitVec 32) (arg15_r5 : BitVec 32) (k0_hw6 : k0_chk6 i k0_t2 arg11_r5 arg12_r5 arg13_r5 arg14_r5 arg15_r5), ∀ (k0_h9 : k0_cond9 i k0_t2 arg15_r5 = 1#1), ∀ a, (k0_off27 arg11_r5) a + S1.size a ≤ S2.size a := fun i k0_t2 arg11_r5 arg12_r5 arg13_r5 arg14_r5 arg15_r5 k0_hw6 k0_h9 => k0_hw6.2.2.1 k0_h9
theorem k0_off28_inb : ∀ (i : grid0.Coords) (k0_t2 : Fin k0_t2_loop.trips) (arg11_r5 : BitVec 32) (arg12_r5 : BitVec 32) (arg13_r5 : BitVec 32) (arg14_r5 : BitVec 32) (arg15_r5 : BitVec 32) (k0_hw6 : k0_chk6 i k0_t2 arg11_r5 arg12_r5 arg13_r5 arg14_r5 arg15_r5), ∀ (k0_h10 : k0_cond10 i k0_t2 arg15_r5 = 1#1), ∀ a, (k0_off28 arg12_r5) a + S1x1x1x128.size a ≤ S2x1x1x128.size a := fun i k0_t2 arg11_r5 arg12_r5 arg13_r5 arg14_r5 arg15_r5 k0_hw6 k0_h10 => k0_hw6.2.2.2.1 k0_h10
theorem k0_off29_inb : ∀ (i : grid0.Coords) (k0_t2 : Fin k0_t2_loop.trips) (arg11_r5 : BitVec 32) (arg12_r5 : BitVec 32) (arg13_r5 : BitVec 32) (arg14_r5 : BitVec 32) (arg15_r5 : BitVec 32) (k0_hw6 : k0_chk6 i k0_t2 arg11_r5 arg12_r5 arg13_r5 arg14_r5 arg15_r5), ∀ (k0_h10 : k0_cond10 i k0_t2 arg15_r5 = 1#1), ∀ a, (k0_off29 i arg15_r5) a + S1x1x128.size a ≤ S3x50x4096.size a := fun i k0_t2 arg11_r5 arg12_r5 arg13_r5 arg14_r5 arg15_r5 k0_hw6 k0_h10 => k0_hw6.2.2.2.2.1 k0_h10
theorem k0_off30_inb : ∀ (i : grid0.Coords) (k0_t2 : Fin k0_t2_loop.trips) (arg11_r5 : BitVec 32) (arg12_r5 : BitVec 32) (arg13_r5 : BitVec 32) (arg14_r5 : BitVec 32) (arg15_r5 : BitVec 32) (k0_hw6 : k0_chk6 i k0_t2 arg11_r5 arg12_r5 arg13_r5 arg14_r5 arg15_r5), ∀ (k0_h10 : k0_cond10 i k0_t2 arg15_r5 = 1#1), ∀ a, (k0_off30 arg12_r5) a + S1.size a ≤ S2.size a := fun i k0_t2 arg11_r5 arg12_r5 arg13_r5 arg14_r5 arg15_r5 k0_hw6 k0_h10 => k0_hw6.2.2.2.2.2.1 k0_h10
theorem k0_off33_inb : ∀ (i : grid0.Coords) (k0_t2 : Fin k0_t2_loop.trips) (arg11_r5 : BitVec 32) (arg12_r5 : BitVec 32) (arg13_r5 : BitVec 32) (arg14_r5 : BitVec 32) (arg15_r5 : BitVec 32) (k0_hw6 : k0_chk6 i k0_t2 arg11_r5 arg12_r5 arg13_r5 arg14_r5 arg15_r5), ∀ (k0_h13 : k0_cond13 i k0_t2 arg15_r5 = 1#1), ∀ a, (k0_off33 arg13_r5) a + S1x1x1x128x128.size a ≤ S2x1x1x128x128.size a := fun i k0_t2 arg11_r5 arg12_r5 arg13_r5 arg14_r5 arg15_r5 k0_hw6 k0_h13 => k0_hw6.2.2.2.2.2.2.1 k0_h13
theorem k0_off34_inb : ∀ (i : grid0.Coords) (k0_t2 : Fin k0_t2_loop.trips) (arg11_r5 : BitVec 32) (arg12_r5 : BitVec 32) (arg13_r5 : BitVec 32) (arg14_r5 : BitVec 32) (arg15_r5 : BitVec 32) (k0_hw6 : k0_chk6 i k0_t2 arg11_r5 arg12_r5 arg13_r5 arg14_r5 arg15_r5), ∀ (k0_h13 : k0_cond13 i k0_t2 arg15_r5 = 1#1), ∀ a, (k0_off34 i arg15_r5) a + S1x1x128x128.size a ≤ S50x3x4096x128.size a := fun i k0_t2 arg11_r5 arg12_r5 arg13_r5 arg14_r5 arg15_r5 k0_hw6 k0_h13 => k0_hw6.2.2.2.2.2.2.2.1 k0_h13
theorem k0_off35_inb : ∀ (i : grid0.Coords) (k0_t2 : Fin k0_t2_loop.trips) (arg11_r5 : BitVec 32) (arg12_r5 : BitVec 32) (arg13_r5 : BitVec 32) (arg14_r5 : BitVec 32) (arg15_r5 : BitVec 32) (k0_hw6 : k0_chk6 i k0_t2 arg11_r5 arg12_r5 arg13_r5 arg14_r5 arg15_r5), ∀ (k0_h13 : k0_cond13 i k0_t2 arg15_r5 = 1#1), ∀ a, (k0_off35 arg13_r5) a + S1.size a ≤ S2.size a := fun i k0_t2 arg11_r5 arg12_r5 arg13_r5 arg14_r5 arg15_r5 k0_hw6 k0_h13 => k0_hw6.2.2.2.2.2.2.2.2.1 k0_h13
theorem k0_off36_inb : ∀ (i : grid0.Coords) (k0_t2 : Fin k0_t2_loop.trips) (arg11_r5 : BitVec 32) (arg12_r5 : BitVec 32) (arg13_r5 : BitVec 32) (arg14_r5 : BitVec 32) (arg15_r5 : BitVec 32) (k0_hw6 : k0_chk6 i k0_t2 arg11_r5 arg12_r5 arg13_r5 arg14_r5 arg15_r5), ∀ (k0_h15 : k0_cond15 i k0_t2 arg15_r5 = 1#1), ∀ a, (k0_off36 arg14_r5) a + S1x1x1x128x128.size a ≤ S2x1x1x128x128.size a := fun i k0_t2 arg11_r5 arg12_r5 arg13_r5 arg14_r5 arg15_r5 k0_hw6 k0_h15 => k0_hw6.2.2.2.2.2.2.2.2.2.1 k0_h15
theorem k0_off37_inb : ∀ (i : grid0.Coords) (k0_t2 : Fin k0_t2_loop.trips) (arg11_r5 : BitVec 32) (arg12_r5 : BitVec 32) (arg13_r5 : BitVec 32) (arg14_r5 : BitVec 32) (arg15_r5 : BitVec 32) (k0_hw6 : k0_chk6 i k0_t2 arg11_r5 arg12_r5 arg13_r5 arg14_r5 arg15_r5), ∀ (k0_h15 : k0_cond15 i k0_t2 arg15_r5 = 1#1), ∀ a, (k0_off37 i arg15_r5) a + S1x1x128x128.size a ≤ S50x3x4096x128.size a := fun i k0_t2 arg11_r5 arg12_r5 arg13_r5 arg14_r5 arg15_r5 k0_hw6 k0_h15 => k0_hw6.2.2.2.2.2.2.2.2.2.2.1 k0_h15
theorem k0_off38_inb : ∀ (i : grid0.Coords) (k0_t2 : Fin k0_t2_loop.trips) (arg11_r5 : BitVec 32) (arg12_r5 : BitVec 32) (arg13_r5 : BitVec 32) (arg14_r5 : BitVec 32) (arg15_r5 : BitVec 32) (k0_hw6 : k0_chk6 i k0_t2 arg11_r5 arg12_r5 arg13_r5 arg14_r5 arg15_r5), ∀ (k0_h15 : k0_cond15 i k0_t2 arg15_r5 = 1#1), ∀ a, (k0_off38 arg14_r5) a + S1.size a ≤ S2.size a := fun i k0_t2 arg11_r5 arg12_r5 arg13_r5 arg14_r5 arg15_r5 k0_hw6 k0_h15 => k0_hw6.2.2.2.2.2.2.2.2.2.2.2 k0_h15

def k0_off39 (v74_3_r5 : BitVec 32) : Fin 5 → Nat :=
  let c2_i32_71_r5 : BitVec 32 := 2#32
  let v95_r5 : BitVec 32 := Scalar.remui v74_3_r5 c2_i32_71_r5
  let c0_i32_87_r5 : BitVec 32 := 0#32
  let c0_i32_88_r5 : BitVec 32 := 0#32
  let c0_i32_89_r5 : BitVec 32 := 0#32
  let c0_i32_90_r5 : BitVec 32 := 0#32
  ![v95_r5.toNat, 0, 0, 0, 0]

def k0_off40 (i : grid0.Coords) (v74_4_r5 : BitVec 32) : Fin 4 → Nat :=
  let c1_i32_85_r5 : BitVec 32 := 1#32
  let true_56_r5 : BitVec 1 := 1#1
  let c1_i32_55_r5 : BitVec 32 := 1#32
  let v75_r5 : BitVec 32 := Scalar.subi v74_4_r5 c1_i32_55_r5
  let v76_r5 : BitVec 32 := Scalar.select true_56_r5 v75_r5 v74_4_r5
  let c_m1_i32_57_r5 : BitVec 32 := 4294967295#32
  let v77_r5 : BitVec 1 := Scalar.cmpi .eq v76_r5 c_m1_i32_57_r5
  let c49_i32_58_r5 : BitVec 32 := 49#32
  let v78_r5 : BitVec 32 := Scalar.select v77_r5 c49_i32_58_r5 v76_r5
  let c0_i32_3 : BitVec 32 := 0#32
  let arg1 : BitVec 32 := BitVec.ofNat 32 (i 1).val
  let c1_i32_2 : BitVec 32 := 1#32
  let v8 : BitVec 32 := Scalar.muli arg1 c1_i32_2
  let v9 : BitVec 32 := Scalar.addi c0_i32_3 v8
  let arg0 : BitVec 32 := BitVec.ofNat 32 (i 0).val
  let c16_i32_4 : BitVec 32 := 16#32
  let v10 : BitVec 32 := Scalar.muli arg0 c16_i32_4
  let v11 : BitVec 32 := Scalar.addi v9 v10
  let c50_i32_5 : BitVec 32 := 50#32
  let v12 : BitVec 32 := Scalar.muli v11 c50_i32_5
  let v79_r5 : BitVec 32 := Scalar.addi v78_r5 v12
  let c0_i32_73_r5 : BitVec 32 := 0#32
  let v97_r5 : BitVec 1 := Scalar.cmpi .sgt v79_r5 c0_i32_73_r5
  let v98_r5 : BitVec 32 := Scalar.extui v97_r5
  let c0_i32_74_r5 : BitVec 32 := 0#32
  let v99_r5 : BitVec 1 := Scalar.cmpi .slt v79_r5 c0_i32_74_r5
  let v100_r5 : BitVec 32 := Scalar.extui v99_r5
  let v101_r5 : BitVec 32 := Scalar.subi v98_r5 v100_r5
  let c32_i32_72_r5 : BitVec 32 := 32#32
  let c0_i32_75_r5 : BitVec 32 := 0#32
  let v102_r5 : BitVec 1 := Scalar.cmpi .sgt c32_i32_72_r5 c0_i32_75_r5
  let v103_r5 : BitVec 32 := Scalar.extui v102_r5
  let c0_i32_76_r5 : BitVec 32 := 0#32
  let v104_r5 : BitVec 1 := Scalar.cmpi .slt c32_i32_72_r5 c0_i32_76_r5
  let v105_r5 : BitVec 32 := Scalar.extui v104_r5
  let v106_r5 : BitVec 32 := Scalar.subi v103_r5 v105_r5
  let v107_r5 : BitVec 1 := Scalar.cmpi .ne v101_r5 v106_r5
  let v108_r5 : BitVec 32 := Scalar.remsi v79_r5 c32_i32_72_r5
  let c0_i32_77_r5 : BitVec 32 := 0#32
  let v109_r5 : BitVec 1 := Scalar.cmpi .ne v108_r5 c0_i32_77_r5
  let v110_r5 : BitVec 1 := Scalar.andi v107_r5 v109_r5
  let v96_r5 : BitVec 32 := Scalar.divsi v79_r5 c32_i32_72_r5
  let c1_i32_78_r5 : BitVec 32 := 1#32
  let v111_r5 : BitVec 32 := Scalar.subi v96_r5 c1_i32_78_r5
  let v112_r5 : BitVec 32 := Scalar.select v110_r5 v111_r5 v96_r5
  let v123_r5 : BitVec 32 := Scalar.muli c1_i32_85_r5 v112_r5
  let c1_i32_91_r5 : BitVec 32 := 1#32
  let c128_i32_86_r5 : BitVec 32 := 128#32
  let c32_i32_79_r5 : BitVec 32 := 32#32
  let c0_i32_80_r5 : BitVec 32 := 0#32
  let v113_r5 : BitVec 1 := Scalar.cmpi .eq c32_i32_79_r5 c0_i32_80_r5
  let c1_i32_81_r5 : BitVec 32 := 1#32
  let v114_r5 : BitVec 32 := Scalar.select v113_r5 c1_i32_81_r5 c32_i32_79_r5
  let v115_r5 : BitVec 32 := Scalar.remsi v79_r5 v114_r5
  let c0_i32_83_r5 : BitVec 32 := 0#32
  let v117_r5 : BitVec 1 := Scalar.cmpi .slt v115_r5 c0_i32_83_r5
  let c0_i32_84_r5 : BitVec 32 := 0#32
  let v118_r5 : BitVec 1 := Scalar.cmpi .slt v114_r5 c0_i32_84_r5
  let v119_r5 : BitVec 1 := Scalar.xori v117_r5 v118_r5
  let c0_i32_82_r5 : BitVec 32 := 0#32
  let v116_r5 : BitVec 1 := Scalar.cmpi .ne v115_r5 c0_i32_82_r5
  let v120_r5 : BitVec 1 := Scalar.andi v119_r5 v116_r5
  let v121_r5 : BitVec 32 := Scalar.addi v115_r5 v114_r5
  let v122_r5 : BitVec 32 := Scalar.select v120_r5 v121_r5 v115_r5
  let v124_r5 : BitVec 32 := Scalar.muli c128_i32_86_r5 v122_r5
  let c0_i32_92_r5 : BitVec 32 := 0#32
  ![v123_r5.toNat, 1, v124_r5.toNat, 0]

def k0_chk10 (i : grid0.Coords) (v74_4_r5 : BitVec 32) : Prop :=
  (∀ a, (k0_off40 i v74_4_r5) a + S1x1x128x128.size a ≤ S50x3x4096x128.size a)
instance k0_chk10.dec : ∀ (i : grid0.Coords) (v74_4_r5 : BitVec 32), Decidable (k0_chk10 i v74_4_r5) := fun i v74_4_r5 => decidable_of_iff' _ (Iff.of_eq (k0_chk10.eq_1 i v74_4_r5))
theorem k0_off40_inb : ∀ (i : grid0.Coords) (v74_4_r5 : BitVec 32) (k0_hw10 : k0_chk10 i v74_4_r5), ∀ a, (k0_off40 i v74_4_r5) a + S1x1x128x128.size a ≤ S50x3x4096x128.size a := fun i v74_4_r5 k0_hw10 => k0_hw10

def k0_off41 (v74_3_r5 : BitVec 32) : Fin 1 → Nat :=
  let c2_i32_71_r5 : BitVec 32 := 2#32
  let v95_r5 : BitVec 32 := Scalar.remui v74_3_r5 c2_i32_71_r5
  ![v95_r5.toNat]
def k0_off42 (v74_3_r5 : BitVec 32) : Fin 5 → Nat :=
  let c2_i32_71_r5 : BitVec 32 := 2#32
  let v95_r5 : BitVec 32 := Scalar.remui v74_3_r5 c2_i32_71_r5
  let c0_i32_95_r5 : BitVec 32 := 0#32
  let c0_i32_96_r5 : BitVec 32 := 0#32
  let c0_i32_97_r5 : BitVec 32 := 0#32
  let c0_i32_98_r5 : BitVec 32 := 0#32
  ![v95_r5.toNat, 0, 0, 0, 0]

def k0_chk9 (v74_3_r5 : BitVec 32) : Prop :=
  (∀ a, (k0_off39 v74_3_r5) a + S1x1x1x128x128.size a ≤ S2x1x1x128x128.size a) ∧
  (∀ a, (k0_off41 v74_3_r5) a + S1.size a ≤ S2.size a) ∧
  (∀ a, (k0_off42 v74_3_r5) a + S1x1x1x128x128.size a ≤ S2x1x1x128x128.size a)
instance k0_chk9.dec : ∀ (v74_3_r5 : BitVec 32), Decidable (k0_chk9 v74_3_r5) := fun v74_3_r5 => decidable_of_iff' _ (Iff.of_eq (k0_chk9.eq_1 v74_3_r5))
theorem k0_off39_inb : ∀ (v74_3_r5 : BitVec 32) (k0_hw9 : k0_chk9 v74_3_r5), ∀ a, (k0_off39 v74_3_r5) a + S1x1x1x128x128.size a ≤ S2x1x1x128x128.size a := fun v74_3_r5 k0_hw9 => k0_hw9.1
theorem k0_off41_inb : ∀ (v74_3_r5 : BitVec 32) (k0_hw9 : k0_chk9 v74_3_r5), ∀ a, (k0_off41 v74_3_r5) a + S1.size a ≤ S2.size a := fun v74_3_r5 k0_hw9 => k0_hw9.2.1
theorem k0_off42_inb : ∀ (v74_3_r5 : BitVec 32) (k0_hw9 : k0_chk9 v74_3_r5), ∀ a, (k0_off42 v74_3_r5) a + S1x1x1x128x128.size a ≤ S2x1x1x128x128.size a := fun v74_3_r5 k0_hw9 => k0_hw9.2.2

def k0_off43 : Fin 4 → Nat :=
  let c0_i32_23_r7 : BitVec 32 := 0#32
  let c2_i32_r7 : BitVec 32 := 2#32
  let v34_r7 : BitVec 32 := Scalar.remui c0_i32_23_r7 c2_i32_r7
  let c0_i32_37_r7 : BitVec 32 := 0#32
  let c0_i32_38_r7 : BitVec 32 := 0#32
  let c0_i32_39_r7 : BitVec 32 := 0#32
  ![v34_r7.toNat, 0, 0, 0]
def k0_off44 (i : grid0.Coords) : Fin 3 → Nat :=
  let c2_i32_40_r7 : BitVec 32 := 2#32
  let c1_i32_36_r7 : BitVec 32 := 1#32
  let c0_i32_11_r7 : BitVec 32 := 0#32
  let c0_i32_7 : BitVec 32 := 0#32
  let arg1 : BitVec 32 := BitVec.ofNat 32 (i 1).val
  let c1_i32_6 : BitVec 32 := 1#32
  let v13 : BitVec 32 := Scalar.muli arg1 c1_i32_6
  let v14 : BitVec 32 := Scalar.addi c0_i32_7 v13
  let arg0 : BitVec 32 := BitVec.ofNat 32 (i 0).val
  let c16_i32_8 : BitVec 32 := 16#32
  let v15 : BitVec 32 := Scalar.muli arg0 c16_i32_8
  let v16 : BitVec 32 := Scalar.addi v14 v15
  let c50_i32_9 : BitVec 32 := 50#32
  let v17 : BitVec 32 := Scalar.muli v16 c50_i32_9
  let v20_r7 : BitVec 32 := Scalar.addi c0_i32_11_r7 v17
  let c0_i32_24_r7 : BitVec 32 := 0#32
  let v36_r7 : BitVec 1 := Scalar.cmpi .sgt v20_r7 c0_i32_24_r7
  let v37_r7 : BitVec 32 := Scalar.extui v36_r7
  let c0_i32_25_r7 : BitVec 32 := 0#32
  let v38_r7 : BitVec 1 := Scalar.cmpi .slt v20_r7 c0_i32_25_r7
  let v39_r7 : BitVec 32 := Scalar.extui v38_r7
  let v40_r7 : BitVec 32 := Scalar.subi v37_r7 v39_r7
  let c32_i32_r7 : BitVec 32 := 32#32
  let c0_i32_26_r7 : BitVec 32 := 0#32
  let v41_r7 : BitVec 1 := Scalar.cmpi .sgt c32_i32_r7 c0_i32_26_r7
  let v42_r7 : BitVec 32 := Scalar.extui v41_r7
  let c0_i32_27_r7 : BitVec 32 := 0#32
  let v43_r7 : BitVec 1 := Scalar.cmpi .slt c32_i32_r7 c0_i32_27_r7
  let v44_r7 : BitVec 32 := Scalar.extui v43_r7
  let v45_r7 : BitVec 32 := Scalar.subi v42_r7 v44_r7
  let v46_r7 : BitVec 1 := Scalar.cmpi .ne v40_r7 v45_r7
  let v47_r7 : BitVec 32 := Scalar.remsi v20_r7 c32_i32_r7
  let c0_i32_28_r7 : BitVec 32 := 0#32
  let v48_r7 : BitVec 1 := Scalar.cmpi .ne v47_r7 c0_i32_28_r7
  let v49_r7 : BitVec 1 := Scalar.andi v46_r7 v48_r7
  let v35_r7 : BitVec 32 := Scalar.divsi v20_r7 c32_i32_r7
  let c1_i32_29_r7 : BitVec 32 := 1#32
  let v50_r7 : BitVec 32 := Scalar.subi v35_r7 c1_i32_29_r7
  let v51_r7 : BitVec 32 := Scalar.select v49_r7 v50_r7 v35_r7
  let v62_r7 : BitVec 32 := Scalar.muli c1_i32_36_r7 v51_r7
  let c128_i32_r7 : BitVec 32 := 128#32
  let c32_i32_30_r7 : BitVec 32 := 32#32
  let c0_i32_31_r7 : BitVec 32 := 0#32
  let v52_r7 : BitVec 1 := Scalar.cmpi .eq c32_i32_30_r7 c0_i32_31_r7
  let c1_i32_32_r7 : BitVec 32 := 1#32
  let v53_r7 : BitVec 32 := Scalar.select v52_r7 c1_i32_32_r7 c32_i32_30_r7
  let v54_r7 : BitVec 32 := Scalar.remsi v20_r7 v53_r7
  let c0_i32_34_r7 : BitVec 32 := 0#32
  let v56_r7 : BitVec 1 := Scalar.cmpi .slt v54_r7 c0_i32_34_r7
  let c0_i32_35_r7 : BitVec 32 := 0#32
  let v57_r7 : BitVec 1 := Scalar.cmpi .slt v53_r7 c0_i32_35_r7
  let v58_r7 : BitVec 1 := Scalar.xori v56_r7 v57_r7
  let c0_i32_33_r7 : BitVec 32 := 0#32
  let v55_r7 : BitVec 1 := Scalar.cmpi .ne v54_r7 c0_i32_33_r7
  let v59_r7 : BitVec 1 := Scalar.andi v58_r7 v55_r7
  let v60_r7 : BitVec 32 := Scalar.addi v54_r7 v53_r7
  let v61_r7 : BitVec 32 := Scalar.select v59_r7 v60_r7 v54_r7
  let v63_r7 : BitVec 32 := Scalar.muli c128_i32_r7 v61_r7
  ![2, v62_r7.toNat, v63_r7.toNat]
def k0_off45 : Fin 1 → Nat :=
  let c0_i32_23_r7 : BitVec 32 := 0#32
  let c2_i32_r7 : BitVec 32 := 2#32
  let v34_r7 : BitVec 32 := Scalar.remui c0_i32_23_r7 c2_i32_r7
  ![v34_r7.toNat]
@[reducible] def k0_t3_loop : Scf.Loop 32 :=
  let c0_i32_51_r7 : BitVec 32 := 0#32
  let c50_i32_52_r7 : BitVec 32 := 50#32
  let v73_r7 : BitVec 32 := Scalar.addi c0_i32_51_r7 c50_i32_52_r7
  let c1_i32_53_r7 : BitVec 32 := 1#32
  ⟨c0_i32_51_r7, v73_r7, c1_i32_53_r7⟩
def k0_off46 (arg11_r7 : BitVec 32) : Fin 4 → Nat :=
  let c2_i32_226_r7 : BitVec 32 := 2#32
  let v394_r7 : BitVec 32 := Scalar.remui arg11_r7 c2_i32_226_r7
  let c0_i32_242_r7 : BitVec 32 := 0#32
  let c0_i32_243_r7 : BitVec 32 := 0#32
  let c0_i32_244_r7 : BitVec 32 := 0#32
  ![v394_r7.toNat, 0, 0, 0]
def k0_cond16 (i : grid0.Coords) (k0_t3 : Fin k0_t3_loop.trips) (arg15_r7 : BitVec 32) : BitVec 1 :=
  let c0_i32_7 : BitVec 32 := 0#32
  let arg1 : BitVec 32 := BitVec.ofNat 32 (i 1).val
  let c1_i32_6 : BitVec 32 := 1#32
  let v13 : BitVec 32 := Scalar.muli arg1 c1_i32_6
  let v14 : BitVec 32 := Scalar.addi c0_i32_7 v13
  let arg0 : BitVec 32 := BitVec.ofNat 32 (i 0).val
  let c16_i32_8 : BitVec 32 := 16#32
  let v15 : BitVec 32 := Scalar.muli arg0 c16_i32_8
  let v16 : BitVec 32 := Scalar.addi v14 v15
  let c50_i32_9 : BitVec 32 := 50#32
  let v17 : BitVec 32 := Scalar.muli v16 c50_i32_9
  let v135_r7 : BitVec 32 := Scalar.addi arg15_r7 v17
  let c0_i32_114_r7 : BitVec 32 := 0#32
  let v152_r7 : BitVec 1 := Scalar.cmpi .sgt v135_r7 c0_i32_114_r7
  let v153_r7 : BitVec 32 := Scalar.extui v152_r7
  let c0_i32_115_r7 : BitVec 32 := 0#32
  let v154_r7 : BitVec 1 := Scalar.cmpi .slt v135_r7 c0_i32_115_r7
  let v155_r7 : BitVec 32 := Scalar.extui v154_r7
  let v156_r7 : BitVec 32 := Scalar.subi v153_r7 v155_r7
  let c32_i32_113_r7 : BitVec 32 := 32#32
  let c0_i32_116_r7 : BitVec 32 := 0#32
  let v157_r7 : BitVec 1 := Scalar.cmpi .sgt c32_i32_113_r7 c0_i32_116_r7
  let v158_r7 : BitVec 32 := Scalar.extui v157_r7
  let c0_i32_117_r7 : BitVec 32 := 0#32
  let v159_r7 : BitVec 1 := Scalar.cmpi .slt c32_i32_113_r7 c0_i32_117_r7
  let v160_r7 : BitVec 32 := Scalar.extui v159_r7
  let v161_r7 : BitVec 32 := Scalar.subi v158_r7 v160_r7
  let v162_r7 : BitVec 1 := Scalar.cmpi .ne v156_r7 v161_r7
  let v163_r7 : BitVec 32 := Scalar.remsi v135_r7 c32_i32_113_r7
  let c0_i32_118_r7 : BitVec 32 := 0#32
  let v164_r7 : BitVec 1 := Scalar.cmpi .ne v163_r7 c0_i32_118_r7
  let v165_r7 : BitVec 1 := Scalar.andi v162_r7 v164_r7
  let v151_r7 : BitVec 32 := Scalar.divsi v135_r7 c32_i32_113_r7
  let c1_i32_119_r7 : BitVec 32 := 1#32
  let v166_r7 : BitVec 32 := Scalar.subi v151_r7 c1_i32_119_r7
  let v167_r7 : BitVec 32 := Scalar.select v165_r7 v166_r7 v151_r7
  let true_106_r7 : BitVec 1 := 1#1
  let c1_i32_105_r7 : BitVec 32 := 1#32
  let v141_r7 : BitVec 32 := Scalar.addi arg15_r7 c1_i32_105_r7
  let v142_r7 : BitVec 32 := Scalar.select true_106_r7 v141_r7 arg15_r7
  let c50_i32_107_r7 : BitVec 32 := 50#32
  let v143_r7 : BitVec 1 := Scalar.cmpi .eq v142_r7 c50_i32_107_r7
  let c0_i32_108_r7 : BitVec 32 := 0#32
  let v144_r7 : BitVec 32 := Scalar.select v143_r7 c0_i32_108_r7 v142_r7
  let v145_r7 : BitVec 32 := Scalar.addi v144_r7 v17
  let c0_i32_127_r7 : BitVec 32 := 0#32
  let v179_r7 : BitVec 1 := Scalar.cmpi .sgt v145_r7 c0_i32_127_r7
  let v180_r7 : BitVec 32 := Scalar.extui v179_r7
  let c0_i32_128_r7 : BitVec 32 := 0#32
  let v181_r7 : BitVec 1 := Scalar.cmpi .slt v145_r7 c0_i32_128_r7
  let v182_r7 : BitVec 32 := Scalar.extui v181_r7
  let v183_r7 : BitVec 32 := Scalar.subi v180_r7 v182_r7
  let c32_i32_126_r7 : BitVec 32 := 32#32
  let c0_i32_129_r7 : BitVec 32 := 0#32
  let v184_r7 : BitVec 1 := Scalar.cmpi .sgt c32_i32_126_r7 c0_i32_129_r7
  let v185_r7 : BitVec 32 := Scalar.extui v184_r7
  let c0_i32_130_r7 : BitVec 32 := 0#32
  let v186_r7 : BitVec 1 := Scalar.cmpi .slt c32_i32_126_r7 c0_i32_130_r7
  let v187_r7 : BitVec 32 := Scalar.extui v186_r7
  let v188_r7 : BitVec 32 := Scalar.subi v185_r7 v187_r7
  let v189_r7 : BitVec 1 := Scalar.cmpi .ne v183_r7 v188_r7
  let v190_r7 : BitVec 32 := Scalar.remsi v145_r7 c32_i32_126_r7
  let c0_i32_131_r7 : BitVec 32 := 0#32
  let v191_r7 : BitVec 1 := Scalar.cmpi .ne v190_r7 c0_i32_131_r7
  let v192_r7 : BitVec 1 := Scalar.andi v189_r7 v191_r7
  let v178_r7 : BitVec 32 := Scalar.divsi v145_r7 c32_i32_126_r7
  let c1_i32_132_r7 : BitVec 32 := 1#32
  let v193_r7 : BitVec 32 := Scalar.subi v178_r7 c1_i32_132_r7
  let v194_r7 : BitVec 32 := Scalar.select v192_r7 v193_r7 v178_r7
  let v205_r7 : BitVec 1 := Scalar.cmpi .ne v167_r7 v194_r7
  let c32_i32_120_r7 : BitVec 32 := 32#32
  let c0_i32_121_r7 : BitVec 32 := 0#32
  let v168_r7 : BitVec 1 := Scalar.cmpi .eq c32_i32_120_r7 c0_i32_121_r7
  let c1_i32_122_r7 : BitVec 32 := 1#32
  let v169_r7 : BitVec 32 := Scalar.select v168_r7 c1_i32_122_r7 c32_i32_120_r7
  let v170_r7 : BitVec 32 := Scalar.remsi v135_r7 v169_r7
  let c0_i32_124_r7 : BitVec 32 := 0#32
  let v172_r7 : BitVec 1 := Scalar.cmpi .slt v170_r7 c0_i32_124_r7
  let c0_i32_125_r7 : BitVec 32 := 0#32
  let v173_r7 : BitVec 1 := Scalar.cmpi .slt v169_r7 c0_i32_125_r7
  let v174_r7 : BitVec 1 := Scalar.xori v172_r7 v173_r7
  let c0_i32_123_r7 : BitVec 32 := 0#32
  let v171_r7 : BitVec 1 := Scalar.cmpi .ne v170_r7 c0_i32_123_r7
  let v175_r7 : BitVec 1 := Scalar.andi v174_r7 v171_r7
  let v176_r7 : BitVec 32 := Scalar.addi v170_r7 v169_r7
  let v177_r7 : BitVec 32 := Scalar.select v175_r7 v176_r7 v170_r7
  let c32_i32_133_r7 : BitVec 32 := 32#32
  let c0_i32_134_r7 : BitVec 32 := 0#32
  let v195_r7 : BitVec 1 := Scalar.cmpi .eq c32_i32_133_r7 c0_i32_134_r7
  let c1_i32_135_r7 : BitVec 32 := 1#32
  let v196_r7 : BitVec 32 := Scalar.select v195_r7 c1_i32_135_r7 c32_i32_133_r7
  let v197_r7 : BitVec 32 := Scalar.remsi v145_r7 v196_r7
  let c0_i32_137_r7 : BitVec 32 := 0#32
  let v199_r7 : BitVec 1 := Scalar.cmpi .slt v197_r7 c0_i32_137_r7
  let c0_i32_138_r7 : BitVec 32 := 0#32
  let v200_r7 : BitVec 1 := Scalar.cmpi .slt v196_r7 c0_i32_138_r7
  let v201_r7 : BitVec 1 := Scalar.xori v199_r7 v200_r7
  let c0_i32_136_r7 : BitVec 32 := 0#32
  let v198_r7 : BitVec 1 := Scalar.cmpi .ne v197_r7 c0_i32_136_r7
  let v202_r7 : BitVec 1 := Scalar.andi v201_r7 v198_r7
  let v203_r7 : BitVec 32 := Scalar.addi v197_r7 v196_r7
  let v204_r7 : BitVec 32 := Scalar.select v202_r7 v203_r7 v197_r7
  let v206_r7 : BitVec 1 := Scalar.cmpi .ne v177_r7 v204_r7
  let v207_r7 : BitVec 1 := Scalar.ori v205_r7 v206_r7
  let c0_i32_51_r7 : BitVec 32 := 0#32
  let c1_i32_53_r7 : BitVec 32 := 1#32
  let arg10_r7 : BitVec 32 := Scf.iv c0_i32_51_r7 c1_i32_53_r7 k0_t3
  let c49_i32_139_r7 : BitVec 32 := 49#32
  let v208_r7 : BitVec 1 := Scalar.cmpi .sge arg10_r7 c49_i32_139_r7
  let true_140_r7 : BitVec 1 := 1#1
  let v209_r7 : BitVec 1 := Scalar.xori v208_r7 true_140_r7
  let v210_r7 : BitVec 1 := Scalar.andi v207_r7 v209_r7
  let v211_r7 : BitVec 32 := Scalar.extui v210_r7
  let c0_i32_141_r7 : BitVec 32 := 0#32
  let v212_r7 : BitVec 1 := Scalar.cmpi .ne v211_r7 c0_i32_141_r7
  v212_r7

def k0_off47 (i : grid0.Coords) (arg15_r7 : BitVec 32) : Fin 3 → Nat :=
  let c2_i32_245_r7 : BitVec 32 := 2#32
  let c1_i32_240_r7 : BitVec 32 := 1#32
  let true_106_r7 : BitVec 1 := 1#1
  let c1_i32_105_r7 : BitVec 32 := 1#32
  let v141_r7 : BitVec 32 := Scalar.addi arg15_r7 c1_i32_105_r7
  let v142_r7 : BitVec 32 := Scalar.select true_106_r7 v141_r7 arg15_r7
  let c50_i32_107_r7 : BitVec 32 := 50#32
  let v143_r7 : BitVec 1 := Scalar.cmpi .eq v142_r7 c50_i32_107_r7
  let c0_i32_108_r7 : BitVec 32 := 0#32
  let v144_r7 : BitVec 32 := Scalar.select v143_r7 c0_i32_108_r7 v142_r7
  let c0_i32_7 : BitVec 32 := 0#32
  let arg1 : BitVec 32 := BitVec.ofNat 32 (i 1).val
  let c1_i32_6 : BitVec 32 := 1#32
  let v13 : BitVec 32 := Scalar.muli arg1 c1_i32_6
  let v14 : BitVec 32 := Scalar.addi c0_i32_7 v13
  let arg0 : BitVec 32 := BitVec.ofNat 32 (i 0).val
  let c16_i32_8 : BitVec 32 := 16#32
  let v15 : BitVec 32 := Scalar.muli arg0 c16_i32_8
  let v16 : BitVec 32 := Scalar.addi v14 v15
  let c50_i32_9 : BitVec 32 := 50#32
  let v17 : BitVec 32 := Scalar.muli v16 c50_i32_9
  let v145_r7 : BitVec 32 := Scalar.addi v144_r7 v17
  let c0_i32_228_r7 : BitVec 32 := 0#32
  let v396_r7 : BitVec 1 := Scalar.cmpi .sgt v145_r7 c0_i32_228_r7
  let v397_r7 : BitVec 32 := Scalar.extui v396_r7
  let c0_i32_229_r7 : BitVec 32 := 0#32
  let v398_r7 : BitVec 1 := Scalar.cmpi .slt v145_r7 c0_i32_229_r7
  let v399_r7 : BitVec 32 := Scalar.extui v398_r7
  let v400_r7 : BitVec 32 := Scalar.subi v397_r7 v399_r7
  let c32_i32_227_r7 : BitVec 32 := 32#32
  let c0_i32_230_r7 : BitVec 32 := 0#32
  let v401_r7 : BitVec 1 := Scalar.cmpi .sgt c32_i32_227_r7 c0_i32_230_r7
  let v402_r7 : BitVec 32 := Scalar.extui v401_r7
  let c0_i32_231_r7 : BitVec 32 := 0#32
  let v403_r7 : BitVec 1 := Scalar.cmpi .slt c32_i32_227_r7 c0_i32_231_r7
  let v404_r7 : BitVec 32 := Scalar.extui v403_r7
  let v405_r7 : BitVec 32 := Scalar.subi v402_r7 v404_r7
  let v406_r7 : BitVec 1 := Scalar.cmpi .ne v400_r7 v405_r7
  let v407_r7 : BitVec 32 := Scalar.remsi v145_r7 c32_i32_227_r7
  let c0_i32_232_r7 : BitVec 32 := 0#32
  let v408_r7 : BitVec 1 := Scalar.cmpi .ne v407_r7 c0_i32_232_r7
  let v409_r7 : BitVec 1 := Scalar.andi v406_r7 v408_r7
  let v395_r7 : BitVec 32 := Scalar.divsi v145_r7 c32_i32_227_r7
  let c1_i32_233_r7 : BitVec 32 := 1#32
  let v410_r7 : BitVec 32 := Scalar.subi v395_r7 c1_i32_233_r7
  let v411_r7 : BitVec 32 := Scalar.select v409_r7 v410_r7 v395_r7
  let v422_r7 : BitVec 32 := Scalar.muli c1_i32_240_r7 v411_r7
  let c128_i32_241_r7 : BitVec 32 := 128#32
  let c32_i32_234_r7 : BitVec 32 := 32#32
  let c0_i32_235_r7 : BitVec 32 := 0#32
  let v412_r7 : BitVec 1 := Scalar.cmpi .eq c32_i32_234_r7 c0_i32_235_r7
  let c1_i32_236_r7 : BitVec 32 := 1#32
  let v413_r7 : BitVec 32 := Scalar.select v412_r7 c1_i32_236_r7 c32_i32_234_r7
  let v414_r7 : BitVec 32 := Scalar.remsi v145_r7 v413_r7
  let c0_i32_238_r7 : BitVec 32 := 0#32
  let v416_r7 : BitVec 1 := Scalar.cmpi .slt v414_r7 c0_i32_238_r7
  let c0_i32_239_r7 : BitVec 32 := 0#32
  let v417_r7 : BitVec 1 := Scalar.cmpi .slt v413_r7 c0_i32_239_r7
  let v418_r7 : BitVec 1 := Scalar.xori v416_r7 v417_r7
  let c0_i32_237_r7 : BitVec 32 := 0#32
  let v415_r7 : BitVec 1 := Scalar.cmpi .ne v414_r7 c0_i32_237_r7
  let v419_r7 : BitVec 1 := Scalar.andi v418_r7 v415_r7
  let v420_r7 : BitVec 32 := Scalar.addi v414_r7 v413_r7
  let v421_r7 : BitVec 32 := Scalar.select v419_r7 v420_r7 v414_r7
  let v423_r7 : BitVec 32 := Scalar.muli c128_i32_241_r7 v421_r7
  ![2, v422_r7.toNat, v423_r7.toNat]
def k0_off48 (arg11_r7 : BitVec 32) : Fin 1 → Nat :=
  let c2_i32_226_r7 : BitVec 32 := 2#32
  let v394_r7 : BitVec 32 := Scalar.remui arg11_r7 c2_i32_226_r7
  ![v394_r7.toNat]
def k0_off49 (arg12_r7 : BitVec 32) : Fin 4 → Nat :=
  let c2_i32_241_r7 : BitVec 32 := 2#32
  let v423_r7 : BitVec 32 := Scalar.remui arg12_r7 c2_i32_241_r7
  let c0_i32_242_r7 : BitVec 32 := 0#32
  let c0_i32_243_r7 : BitVec 32 := 0#32
  let c0_i32_244_r7 : BitVec 32 := 0#32
  ![v423_r7.toNat, 0, 0, 0]
def k0_cond17 (i : grid0.Coords) (k0_t3 : Fin k0_t3_loop.trips) (arg15_r7 : BitVec 32) : BitVec 1 :=
  let c0_i32_7 : BitVec 32 := 0#32
  let arg1 : BitVec 32 := BitVec.ofNat 32 (i 1).val
  let c1_i32_6 : BitVec 32 := 1#32
  let v13 : BitVec 32 := Scalar.muli arg1 c1_i32_6
  let v14 : BitVec 32 := Scalar.addi c0_i32_7 v13
  let arg0 : BitVec 32 := BitVec.ofNat 32 (i 0).val
  let c16_i32_8 : BitVec 32 := 16#32
  let v15 : BitVec 32 := Scalar.muli arg0 c16_i32_8
  let v16 : BitVec 32 := Scalar.addi v14 v15
  let c50_i32_9 : BitVec 32 := 50#32
  let v17 : BitVec 32 := Scalar.muli v16 c50_i32_9
  let v135_r7 : BitVec 32 := Scalar.addi arg15_r7 v17
  let c0_i32_114_r7 : BitVec 32 := 0#32
  let v152_r7 : BitVec 1 := Scalar.cmpi .sgt v135_r7 c0_i32_114_r7
  let v153_r7 : BitVec 32 := Scalar.extui v152_r7
  let c0_i32_115_r7 : BitVec 32 := 0#32
  let v154_r7 : BitVec 1 := Scalar.cmpi .slt v135_r7 c0_i32_115_r7
  let v155_r7 : BitVec 32 := Scalar.extui v154_r7
  let v156_r7 : BitVec 32 := Scalar.subi v153_r7 v155_r7
  let c32_i32_113_r7 : BitVec 32 := 32#32
  let c0_i32_116_r7 : BitVec 32 := 0#32
  let v157_r7 : BitVec 1 := Scalar.cmpi .sgt c32_i32_113_r7 c0_i32_116_r7
  let v158_r7 : BitVec 32 := Scalar.extui v157_r7
  let c0_i32_117_r7 : BitVec 32 := 0#32
  let v159_r7 : BitVec 1 := Scalar.cmpi .slt c32_i32_113_r7 c0_i32_117_r7
  let v160_r7 : BitVec 32 := Scalar.extui v159_r7
  let v161_r7 : BitVec 32 := Scalar.subi v158_r7 v160_r7
  let v162_r7 : BitVec 1 := Scalar.cmpi .ne v156_r7 v161_r7
  let v163_r7 : BitVec 32 := Scalar.remsi v135_r7 c32_i32_113_r7
  let c0_i32_118_r7 : BitVec 32 := 0#32
  let v164_r7 : BitVec 1 := Scalar.cmpi .ne v163_r7 c0_i32_118_r7
  let v165_r7 : BitVec 1 := Scalar.andi v162_r7 v164_r7
  let v151_r7 : BitVec 32 := Scalar.divsi v135_r7 c32_i32_113_r7
  let c1_i32_119_r7 : BitVec 32 := 1#32
  let v166_r7 : BitVec 32 := Scalar.subi v151_r7 c1_i32_119_r7
  let v167_r7 : BitVec 32 := Scalar.select v165_r7 v166_r7 v151_r7
  let true_102_r7 : BitVec 1 := 1#1
  let c1_i32_101_r7 : BitVec 32 := 1#32
  let v136_r7 : BitVec 32 := Scalar.subi arg15_r7 c1_i32_101_r7
  let v137_r7 : BitVec 32 := Scalar.select true_102_r7 v136_r7 arg15_r7
  let c_m1_i32_103_r7 : BitVec 32 := 4294967295#32
  let v138_r7 : BitVec 1 := Scalar.cmpi .eq v137_r7 c_m1_i32_103_r7
  let c49_i32_104_r7 : BitVec 32 := 49#32
  let v139_r7 : BitVec 32 := Scalar.select v138_r7 c49_i32_104_r7 v137_r7
  let v140_r7 : BitVec 32 := Scalar.addi v139_r7 v17
  let c0_i32_173_r7 : BitVec 32 := 0#32
  let v277_r7 : BitVec 1 := Scalar.cmpi .sgt v140_r7 c0_i32_173_r7
  let v278_r7 : BitVec 32 := Scalar.extui v277_r7
  let c0_i32_174_r7 : BitVec 32 := 0#32
  let v279_r7 : BitVec 1 := Scalar.cmpi .slt v140_r7 c0_i32_174_r7
  let v280_r7 : BitVec 32 := Scalar.extui v279_r7
  let v281_r7 : BitVec 32 := Scalar.subi v278_r7 v280_r7
  let c32_i32_172_r7 : BitVec 32 := 32#32
  let c0_i32_175_r7 : BitVec 32 := 0#32
  let v282_r7 : BitVec 1 := Scalar.cmpi .sgt c32_i32_172_r7 c0_i32_175_r7
  let v283_r7 : BitVec 32 := Scalar.extui v282_r7
  let c0_i32_176_r7 : BitVec 32 := 0#32
  let v284_r7 : BitVec 1 := Scalar.cmpi .slt c32_i32_172_r7 c0_i32_176_r7
  let v285_r7 : BitVec 32 := Scalar.extui v284_r7
  let v286_r7 : BitVec 32 := Scalar.subi v283_r7 v285_r7
  let v287_r7 : BitVec 1 := Scalar.cmpi .ne v281_r7 v286_r7
  let v288_r7 : BitVec 32 := Scalar.remsi v140_r7 c32_i32_172_r7
  let c0_i32_177_r7 : BitVec 32 := 0#32
  let v289_r7 : BitVec 1 := Scalar.cmpi .ne v288_r7 c0_i32_177_r7
  let v290_r7 : BitVec 1 := Scalar.andi v287_r7 v289_r7
  let v276_r7 : BitVec 32 := Scalar.divsi v140_r7 c32_i32_172_r7
  let c1_i32_178_r7 : BitVec 32 := 1#32
  let v291_r7 : BitVec 32 := Scalar.subi v276_r7 c1_i32_178_r7
  let v292_r7 : BitVec 32 := Scalar.select v290_r7 v291_r7 v276_r7
  let v303_r7 : BitVec 1 := Scalar.cmpi .ne v167_r7 v292_r7
  let c32_i32_120_r7 : BitVec 32 := 32#32
  let c0_i32_121_r7 : BitVec 32 := 0#32
  let v168_r7 : BitVec 1 := Scalar.cmpi .eq c32_i32_120_r7 c0_i32_121_r7
  let c1_i32_122_r7 : BitVec 32 := 1#32
  let v169_r7 : BitVec 32 := Scalar.select v168_r7 c1_i32_122_r7 c32_i32_120_r7
  let v170_r7 : BitVec 32 := Scalar.remsi v135_r7 v169_r7
  let c0_i32_124_r7 : BitVec 32 := 0#32
  let v172_r7 : BitVec 1 := Scalar.cmpi .slt v170_r7 c0_i32_124_r7
  let c0_i32_125_r7 : BitVec 32 := 0#32
  let v173_r7 : BitVec 1 := Scalar.cmpi .slt v169_r7 c0_i32_125_r7
  let v174_r7 : BitVec 1 := Scalar.xori v172_r7 v173_r7
  let c0_i32_123_r7 : BitVec 32 := 0#32
  let v171_r7 : BitVec 1 := Scalar.cmpi .ne v170_r7 c0_i32_123_r7
  let v175_r7 : BitVec 1 := Scalar.andi v174_r7 v171_r7
  let v176_r7 : BitVec 32 := Scalar.addi v170_r7 v169_r7
  let v177_r7 : BitVec 32 := Scalar.select v175_r7 v176_r7 v170_r7
  let c32_i32_179_r7 : BitVec 32 := 32#32
  let c0_i32_180_r7 : BitVec 32 := 0#32
  let v293_r7 : BitVec 1 := Scalar.cmpi .eq c32_i32_179_r7 c0_i32_180_r7
  let c1_i32_181_r7 : BitVec 32 := 1#32
  let v294_r7 : BitVec 32 := Scalar.select v293_r7 c1_i32_181_r7 c32_i32_179_r7
  let v295_r7 : BitVec 32 := Scalar.remsi v140_r7 v294_r7
  let c0_i32_183_r7 : BitVec 32 := 0#32
  let v297_r7 : BitVec 1 := Scalar.cmpi .slt v295_r7 c0_i32_183_r7
  let c0_i32_184_r7 : BitVec 32 := 0#32
  let v298_r7 : BitVec 1 := Scalar.cmpi .slt v294_r7 c0_i32_184_r7
  let v299_r7 : BitVec 1 := Scalar.xori v297_r7 v298_r7
  let c0_i32_182_r7 : BitVec 32 := 0#32
  let v296_r7 : BitVec 1 := Scalar.cmpi .ne v295_r7 c0_i32_182_r7
  let v300_r7 : BitVec 1 := Scalar.andi v299_r7 v296_r7
  let v301_r7 : BitVec 32 := Scalar.addi v295_r7 v294_r7
  let v302_r7 : BitVec 32 := Scalar.select v300_r7 v301_r7 v295_r7
  let v304_r7 : BitVec 1 := Scalar.cmpi .ne v177_r7 v302_r7
  let v305_r7 : BitVec 1 := Scalar.ori v303_r7 v304_r7
  let c0_i32_51_r7 : BitVec 32 := 0#32
  let c1_i32_53_r7 : BitVec 32 := 1#32
  let arg10_r7 : BitVec 32 := Scf.iv c0_i32_51_r7 c1_i32_53_r7 k0_t3
  let c0_i32_99_r7 : BitVec 32 := 0#32
  let v133_r7 : BitVec 1 := Scalar.cmpi .eq arg10_r7 c0_i32_99_r7
  let v306_r7 : BitVec 1 := Scalar.ori v305_r7 v133_r7
  let c0_i32_185_r7 : BitVec 32 := 0#32
  let v307_r7 : BitVec 1 := Scalar.cmpi .slt arg10_r7 c0_i32_185_r7
  let true_186_r7 : BitVec 1 := 1#1
  let v308_r7 : BitVec 1 := Scalar.xori v307_r7 true_186_r7
  let v309_r7 : BitVec 1 := Scalar.andi v306_r7 v308_r7
  let v310_r7 : BitVec 32 := Scalar.extui v309_r7
  let c0_i32_187_r7 : BitVec 32 := 0#32
  let v311_r7 : BitVec 1 := Scalar.cmpi .ne v310_r7 c0_i32_187_r7
  v311_r7

def k0_off50 (i : grid0.Coords) (arg15_r7 : BitVec 32) : Fin 3 → Nat :=
  let c2_i32_245_r7 : BitVec 32 := 2#32
  let c1_i32_239_r7 : BitVec 32 := 1#32
  let c0_i32_7 : BitVec 32 := 0#32
  let arg1 : BitVec 32 := BitVec.ofNat 32 (i 1).val
  let c1_i32_6 : BitVec 32 := 1#32
  let v13 : BitVec 32 := Scalar.muli arg1 c1_i32_6
  let v14 : BitVec 32 := Scalar.addi c0_i32_7 v13
  let arg0 : BitVec 32 := BitVec.ofNat 32 (i 0).val
  let c16_i32_8 : BitVec 32 := 16#32
  let v15 : BitVec 32 := Scalar.muli arg0 c16_i32_8
  let v16 : BitVec 32 := Scalar.addi v14 v15
  let c50_i32_9 : BitVec 32 := 50#32
  let v17 : BitVec 32 := Scalar.muli v16 c50_i32_9
  let v135_r7 : BitVec 32 := Scalar.addi arg15_r7 v17
  let c0_i32_227_r7 : BitVec 32 := 0#32
  let v395_r7 : BitVec 1 := Scalar.cmpi .sgt v135_r7 c0_i32_227_r7
  let v396_r7 : BitVec 32 := Scalar.extui v395_r7
  let c0_i32_228_r7 : BitVec 32 := 0#32
  let v397_r7 : BitVec 1 := Scalar.cmpi .slt v135_r7 c0_i32_228_r7
  let v398_r7 : BitVec 32 := Scalar.extui v397_r7
  let v399_r7 : BitVec 32 := Scalar.subi v396_r7 v398_r7
  let c32_i32_226_r7 : BitVec 32 := 32#32
  let c0_i32_229_r7 : BitVec 32 := 0#32
  let v400_r7 : BitVec 1 := Scalar.cmpi .sgt c32_i32_226_r7 c0_i32_229_r7
  let v401_r7 : BitVec 32 := Scalar.extui v400_r7
  let c0_i32_230_r7 : BitVec 32 := 0#32
  let v402_r7 : BitVec 1 := Scalar.cmpi .slt c32_i32_226_r7 c0_i32_230_r7
  let v403_r7 : BitVec 32 := Scalar.extui v402_r7
  let v404_r7 : BitVec 32 := Scalar.subi v401_r7 v403_r7
  let v405_r7 : BitVec 1 := Scalar.cmpi .ne v399_r7 v404_r7
  let v406_r7 : BitVec 32 := Scalar.remsi v135_r7 c32_i32_226_r7
  let c0_i32_231_r7 : BitVec 32 := 0#32
  let v407_r7 : BitVec 1 := Scalar.cmpi .ne v406_r7 c0_i32_231_r7
  let v408_r7 : BitVec 1 := Scalar.andi v405_r7 v407_r7
  let v394_r7 : BitVec 32 := Scalar.divsi v135_r7 c32_i32_226_r7
  let c1_i32_232_r7 : BitVec 32 := 1#32
  let v409_r7 : BitVec 32 := Scalar.subi v394_r7 c1_i32_232_r7
  let v410_r7 : BitVec 32 := Scalar.select v408_r7 v409_r7 v394_r7
  let v421_r7 : BitVec 32 := Scalar.muli c1_i32_239_r7 v410_r7
  let c128_i32_240_r7 : BitVec 32 := 128#32
  let c32_i32_233_r7 : BitVec 32 := 32#32
  let c0_i32_234_r7 : BitVec 32 := 0#32
  let v411_r7 : BitVec 1 := Scalar.cmpi .eq c32_i32_233_r7 c0_i32_234_r7
  let c1_i32_235_r7 : BitVec 32 := 1#32
  let v412_r7 : BitVec 32 := Scalar.select v411_r7 c1_i32_235_r7 c32_i32_233_r7
  let v413_r7 : BitVec 32 := Scalar.remsi v135_r7 v412_r7
  let c0_i32_237_r7 : BitVec 32 := 0#32
  let v415_r7 : BitVec 1 := Scalar.cmpi .slt v413_r7 c0_i32_237_r7
  let c0_i32_238_r7 : BitVec 32 := 0#32
  let v416_r7 : BitVec 1 := Scalar.cmpi .slt v412_r7 c0_i32_238_r7
  let v417_r7 : BitVec 1 := Scalar.xori v415_r7 v416_r7
  let c0_i32_236_r7 : BitVec 32 := 0#32
  let v414_r7 : BitVec 1 := Scalar.cmpi .ne v413_r7 c0_i32_236_r7
  let v418_r7 : BitVec 1 := Scalar.andi v417_r7 v414_r7
  let v419_r7 : BitVec 32 := Scalar.addi v413_r7 v412_r7
  let v420_r7 : BitVec 32 := Scalar.select v418_r7 v419_r7 v413_r7
  let v422_r7 : BitVec 32 := Scalar.muli c128_i32_240_r7 v420_r7
  ![2, v421_r7.toNat, v422_r7.toNat]
def k0_off51 (arg12_r7 : BitVec 32) : Fin 1 → Nat :=
  let c2_i32_241_r7 : BitVec 32 := 2#32
  let v423_r7 : BitVec 32 := Scalar.remui arg12_r7 c2_i32_241_r7
  ![v423_r7.toNat]
def k0_off52 (arg13_r7 : BitVec 32) : Fin 5 → Nat :=
  let c2_i32_205_r7 : BitVec 32 := 2#32
  let v349_r7 : BitVec 32 := Scalar.remui arg13_r7 c2_i32_205_r7
  let c0_i32_226_r8 : BitVec 32 := 0#32
  let c0_i32_227_r8 : BitVec 32 := 0#32
  let c0_i32_228_r8 : BitVec 32 := 0#32
  let c0_i32_229_r8 : BitVec 32 := 0#32
  ![v349_r7.toNat, 0, 0, 0, 0]

def k0_chk12 (arg13_r7 : BitVec 32) : Prop :=
  (∀ a, (k0_off52 arg13_r7) a + S1x1x1x128x128.size a ≤ S2x1x1x128x128.size a)
instance k0_chk12.dec : ∀ (arg13_r7 : BitVec 32), Decidable (k0_chk12 arg13_r7) := fun arg13_r7 => decidable_of_iff' _ (Iff.of_eq (k0_chk12.eq_1 arg13_r7))
theorem k0_off52_inb : ∀ (arg13_r7 : BitVec 32) (k0_hw12 : k0_chk12 arg13_r7), ∀ a, (k0_off52 arg13_r7) a + S1x1x1x128x128.size a ≤ S2x1x1x128x128.size a := fun arg13_r7 k0_hw12 => k0_hw12

def k0_off53 (arg12_r7 : BitVec 32) : Fin 4 → Nat :=
  let c2_i32_204_r7 : BitVec 32 := 2#32
  let v348_r7 : BitVec 32 := Scalar.remui arg12_r7 c2_i32_204_r7
  let c0_i32_232_r8 : BitVec 32 := 0#32
  let c0_i32_233_r8 : BitVec 32 := 0#32
  let c0_i32_234_r8 : BitVec 32 := 0#32
  ![v348_r7.toNat, 0, 0, 0]

def k0_chk13 (arg12_r7 : BitVec 32) : Prop :=
  (∀ a, (k0_off53 arg12_r7) a + S1x1x1x128.size a ≤ S2x1x1x128.size a)
instance k0_chk13.dec : ∀ (arg12_r7 : BitVec 32), Decidable (k0_chk13 arg12_r7) := fun arg12_r7 => decidable_of_iff' _ (Iff.of_eq (k0_chk13.eq_1 arg12_r7))
theorem k0_off53_inb : ∀ (arg12_r7 : BitVec 32) (k0_hw13 : k0_chk13 arg12_r7), ∀ a, (k0_off53 arg12_r7) a + S1x1x1x128.size a ≤ S2x1x1x128.size a := fun arg12_r7 k0_hw13 => k0_hw13

def k0_off54 (arg13_r7 : BitVec 32) : Fin 5 → Nat :=
  let c2_i32_226_r7 : BitVec 32 := 2#32
  let v394_r7 : BitVec 32 := Scalar.remui arg13_r7 c2_i32_226_r7
  let c0_i32_242_r7 : BitVec 32 := 0#32
  let c0_i32_243_r7 : BitVec 32 := 0#32
  let c0_i32_244_r7 : BitVec 32 := 0#32
  let c0_i32_245_r7 : BitVec 32 := 0#32
  ![v394_r7.toNat, 0, 0, 0, 0]
def k0_cond20 (i : grid0.Coords) (k0_t3 : Fin k0_t3_loop.trips) (arg15_r7 : BitVec 32) : BitVec 1 :=
  let c0_i32_7 : BitVec 32 := 0#32
  let arg1 : BitVec 32 := BitVec.ofNat 32 (i 1).val
  let c1_i32_6 : BitVec 32 := 1#32
  let v13 : BitVec 32 := Scalar.muli arg1 c1_i32_6
  let v14 : BitVec 32 := Scalar.addi c0_i32_7 v13
  let arg0 : BitVec 32 := BitVec.ofNat 32 (i 0).val
  let c16_i32_8 : BitVec 32 := 16#32
  let v15 : BitVec 32 := Scalar.muli arg0 c16_i32_8
  let v16 : BitVec 32 := Scalar.addi v14 v15
  let c50_i32_9 : BitVec 32 := 50#32
  let v17 : BitVec 32 := Scalar.muli v16 c50_i32_9
  let v135_r7 : BitVec 32 := Scalar.addi arg15_r7 v17
  let c0_i32_145_r7 : BitVec 32 := 0#32
  let v217_r7 : BitVec 1 := Scalar.cmpi .sgt v135_r7 c0_i32_145_r7
  let v218_r7 : BitVec 32 := Scalar.extui v217_r7
  let c0_i32_146_r7 : BitVec 32 := 0#32
  let v219_r7 : BitVec 1 := Scalar.cmpi .slt v135_r7 c0_i32_146_r7
  let v220_r7 : BitVec 32 := Scalar.extui v219_r7
  let v221_r7 : BitVec 32 := Scalar.subi v218_r7 v220_r7
  let c32_i32_144_r7 : BitVec 32 := 32#32
  let c0_i32_147_r7 : BitVec 32 := 0#32
  let v222_r7 : BitVec 1 := Scalar.cmpi .sgt c32_i32_144_r7 c0_i32_147_r7
  let v223_r7 : BitVec 32 := Scalar.extui v222_r7
  let c0_i32_148_r7 : BitVec 32 := 0#32
  let v224_r7 : BitVec 1 := Scalar.cmpi .slt c32_i32_144_r7 c0_i32_148_r7
  let v225_r7 : BitVec 32 := Scalar.extui v224_r7
  let v226_r7 : BitVec 32 := Scalar.subi v223_r7 v225_r7
  let v227_r7 : BitVec 1 := Scalar.cmpi .ne v221_r7 v226_r7
  let v228_r7 : BitVec 32 := Scalar.remsi v135_r7 c32_i32_144_r7
  let c0_i32_149_r7 : BitVec 32 := 0#32
  let v229_r7 : BitVec 1 := Scalar.cmpi .ne v228_r7 c0_i32_149_r7
  let v230_r7 : BitVec 1 := Scalar.andi v227_r7 v229_r7
  let v216_r7 : BitVec 32 := Scalar.divsi v135_r7 c32_i32_144_r7
  let c1_i32_150_r7 : BitVec 32 := 1#32
  let v231_r7 : BitVec 32 := Scalar.subi v216_r7 c1_i32_150_r7
  let v232_r7 : BitVec 32 := Scalar.select v230_r7 v231_r7 v216_r7
  let true_106_r7 : BitVec 1 := 1#1
  let c1_i32_105_r7 : BitVec 32 := 1#32
  let v141_r7 : BitVec 32 := Scalar.addi arg15_r7 c1_i32_105_r7
  let v142_r7 : BitVec 32 := Scalar.select true_106_r7 v141_r7 arg15_r7
  let c50_i32_107_r7 : BitVec 32 := 50#32
  let v143_r7 : BitVec 1 := Scalar.cmpi .eq v142_r7 c50_i32_107_r7
  let c0_i32_108_r7 : BitVec 32 := 0#32
  let v144_r7 : BitVec 32 := Scalar.select v143_r7 c0_i32_108_r7 v142_r7
  let v145_r7 : BitVec 32 := Scalar.addi v144_r7 v17
  let c0_i32_158_r7 : BitVec 32 := 0#32
  let v244_r7 : BitVec 1 := Scalar.cmpi .sgt v145_r7 c0_i32_158_r7
  let v245_r7 : BitVec 32 := Scalar.extui v244_r7
  let c0_i32_159_r7 : BitVec 32 := 0#32
  let v246_r7 : BitVec 1 := Scalar.cmpi .slt v145_r7 c0_i32_159_r7
  let v247_r7 : BitVec 32 := Scalar.extui v246_r7
  let v248_r7 : BitVec 32 := Scalar.subi v245_r7 v247_r7
  let c32_i32_157_r7 : BitVec 32 := 32#32
  let c0_i32_160_r7 : BitVec 32 := 0#32
  let v249_r7 : BitVec 1 := Scalar.cmpi .sgt c32_i32_157_r7 c0_i32_160_r7
  let v250_r7 : BitVec 32 := Scalar.extui v249_r7
  let c0_i32_161_r7 : BitVec 32 := 0#32
  let v251_r7 : BitVec 1 := Scalar.cmpi .slt c32_i32_157_r7 c0_i32_161_r7
  let v252_r7 : BitVec 32 := Scalar.extui v251_r7
  let v253_r7 : BitVec 32 := Scalar.subi v250_r7 v252_r7
  let v254_r7 : BitVec 1 := Scalar.cmpi .ne v248_r7 v253_r7
  let v255_r7 : BitVec 32 := Scalar.remsi v145_r7 c32_i32_157_r7
  let c0_i32_162_r7 : BitVec 32 := 0#32
  let v256_r7 : BitVec 1 := Scalar.cmpi .ne v255_r7 c0_i32_162_r7
  let v257_r7 : BitVec 1 := Scalar.andi v254_r7 v256_r7
  let v243_r7 : BitVec 32 := Scalar.divsi v145_r7 c32_i32_157_r7
  let c1_i32_163_r7 : BitVec 32 := 1#32
  let v258_r7 : BitVec 32 := Scalar.subi v243_r7 c1_i32_163_r7
  let v259_r7 : BitVec 32 := Scalar.select v257_r7 v258_r7 v243_r7
  let v357_r7 : BitVec 1 := Scalar.cmpi .ne v232_r7 v259_r7
  let c32_i32_151_r7 : BitVec 32 := 32#32
  let c0_i32_152_r7 : BitVec 32 := 0#32
  let v233_r7 : BitVec 1 := Scalar.cmpi .eq c32_i32_151_r7 c0_i32_152_r7
  let c1_i32_153_r7 : BitVec 32 := 1#32
  let v234_r7 : BitVec 32 := Scalar.select v233_r7 c1_i32_153_r7 c32_i32_151_r7
  let v235_r7 : BitVec 32 := Scalar.remsi v135_r7 v234_r7
  let c0_i32_155_r7 : BitVec 32 := 0#32
  let v237_r7 : BitVec 1 := Scalar.cmpi .slt v235_r7 c0_i32_155_r7
  let c0_i32_156_r7 : BitVec 32 := 0#32
  let v238_r7 : BitVec 1 := Scalar.cmpi .slt v234_r7 c0_i32_156_r7
  let v239_r7 : BitVec 1 := Scalar.xori v237_r7 v238_r7
  let c0_i32_154_r7 : BitVec 32 := 0#32
  let v236_r7 : BitVec 1 := Scalar.cmpi .ne v235_r7 c0_i32_154_r7
  let v240_r7 : BitVec 1 := Scalar.andi v239_r7 v236_r7
  let v241_r7 : BitVec 32 := Scalar.addi v235_r7 v234_r7
  let v242_r7 : BitVec 32 := Scalar.select v240_r7 v241_r7 v235_r7
  let c32_i32_164_r7 : BitVec 32 := 32#32
  let c0_i32_165_r7 : BitVec 32 := 0#32
  let v260_r7 : BitVec 1 := Scalar.cmpi .eq c32_i32_164_r7 c0_i32_165_r7
  let c1_i32_166_r7 : BitVec 32 := 1#32
  let v261_r7 : BitVec 32 := Scalar.select v260_r7 c1_i32_166_r7 c32_i32_164_r7
  let v262_r7 : BitVec 32 := Scalar.remsi v145_r7 v261_r7
  let c0_i32_168_r7 : BitVec 32 := 0#32
  let v264_r7 : BitVec 1 := Scalar.cmpi .slt v262_r7 c0_i32_168_r7
  let c0_i32_169_r7 : BitVec 32 := 0#32
  let v265_r7 : BitVec 1 := Scalar.cmpi .slt v261_r7 c0_i32_169_r7
  let v266_r7 : BitVec 1 := Scalar.xori v264_r7 v265_r7
  let c0_i32_167_r7 : BitVec 32 := 0#32
  let v263_r7 : BitVec 1 := Scalar.cmpi .ne v262_r7 c0_i32_167_r7
  let v267_r7 : BitVec 1 := Scalar.andi v266_r7 v263_r7
  let v268_r7 : BitVec 32 := Scalar.addi v262_r7 v261_r7
  let v269_r7 : BitVec 32 := Scalar.select v267_r7 v268_r7 v262_r7
  let v358_r7 : BitVec 1 := Scalar.cmpi .ne v242_r7 v269_r7
  let v359_r7 : BitVec 1 := Scalar.ori v357_r7 v358_r7
  let c0_i32_51_r7 : BitVec 32 := 0#32
  let c1_i32_53_r7 : BitVec 32 := 1#32
  let arg10_r7 : BitVec 32 := Scf.iv c0_i32_51_r7 c1_i32_53_r7 k0_t3
  let c49_i32_100_r7 : BitVec 32 := 49#32
  let v134_r7 : BitVec 1 := Scalar.cmpi .eq arg10_r7 c49_i32_100_r7
  let v360_r7 : BitVec 1 := Scalar.ori v359_r7 v134_r7
  let v361_r7 : BitVec 32 := Scalar.extui v360_r7
  let c0_i32_211_r7 : BitVec 32 := 0#32
  let v362_r7 : BitVec 1 := Scalar.cmpi .ne v361_r7 c0_i32_211_r7
  v362_r7

def k0_off55 (i : grid0.Coords) (arg15_r7 : BitVec 32) : Fin 4 → Nat :=
  let c1_i32_240_r7 : BitVec 32 := 1#32
  let c0_i32_7 : BitVec 32 := 0#32
  let arg1 : BitVec 32 := BitVec.ofNat 32 (i 1).val
  let c1_i32_6 : BitVec 32 := 1#32
  let v13 : BitVec 32 := Scalar.muli arg1 c1_i32_6
  let v14 : BitVec 32 := Scalar.addi c0_i32_7 v13
  let arg0 : BitVec 32 := BitVec.ofNat 32 (i 0).val
  let c16_i32_8 : BitVec 32 := 16#32
  let v15 : BitVec 32 := Scalar.muli arg0 c16_i32_8
  let v16 : BitVec 32 := Scalar.addi v14 v15
  let c50_i32_9 : BitVec 32 := 50#32
  let v17 : BitVec 32 := Scalar.muli v16 c50_i32_9
  let v135_r7 : BitVec 32 := Scalar.addi arg15_r7 v17
  let c0_i32_228_r7 : BitVec 32 := 0#32
  let v396_r7 : BitVec 1 := Scalar.cmpi .sgt v135_r7 c0_i32_228_r7
  let v397_r7 : BitVec 32 := Scalar.extui v396_r7
  let c0_i32_229_r7 : BitVec 32 := 0#32
  let v398_r7 : BitVec 1 := Scalar.cmpi .slt v135_r7 c0_i32_229_r7
  let v399_r7 : BitVec 32 := Scalar.extui v398_r7
  let v400_r7 : BitVec 32 := Scalar.subi v397_r7 v399_r7
  let c32_i32_227_r7 : BitVec 32 := 32#32
  let c0_i32_230_r7 : BitVec 32 := 0#32
  let v401_r7 : BitVec 1 := Scalar.cmpi .sgt c32_i32_227_r7 c0_i32_230_r7
  let v402_r7 : BitVec 32 := Scalar.extui v401_r7
  let c0_i32_231_r7 : BitVec 32 := 0#32
  let v403_r7 : BitVec 1 := Scalar.cmpi .slt c32_i32_227_r7 c0_i32_231_r7
  let v404_r7 : BitVec 32 := Scalar.extui v403_r7
  let v405_r7 : BitVec 32 := Scalar.subi v402_r7 v404_r7
  let v406_r7 : BitVec 1 := Scalar.cmpi .ne v400_r7 v405_r7
  let v407_r7 : BitVec 32 := Scalar.remsi v135_r7 c32_i32_227_r7
  let c0_i32_232_r7 : BitVec 32 := 0#32
  let v408_r7 : BitVec 1 := Scalar.cmpi .ne v407_r7 c0_i32_232_r7
  let v409_r7 : BitVec 1 := Scalar.andi v406_r7 v408_r7
  let v395_r7 : BitVec 32 := Scalar.divsi v135_r7 c32_i32_227_r7
  let c1_i32_233_r7 : BitVec 32 := 1#32
  let v410_r7 : BitVec 32 := Scalar.subi v395_r7 c1_i32_233_r7
  let v411_r7 : BitVec 32 := Scalar.select v409_r7 v410_r7 v395_r7
  let v422_r7 : BitVec 32 := Scalar.muli c1_i32_240_r7 v411_r7
  let c2_i32_246_r7 : BitVec 32 := 2#32
  let c128_i32_241_r7 : BitVec 32 := 128#32
  let c32_i32_234_r7 : BitVec 32 := 32#32
  let c0_i32_235_r7 : BitVec 32 := 0#32
  let v412_r7 : BitVec 1 := Scalar.cmpi .eq c32_i32_234_r7 c0_i32_235_r7
  let c1_i32_236_r7 : BitVec 32 := 1#32
  let v413_r7 : BitVec 32 := Scalar.select v412_r7 c1_i32_236_r7 c32_i32_234_r7
  let v414_r7 : BitVec 32 := Scalar.remsi v135_r7 v413_r7
  let c0_i32_238_r7 : BitVec 32 := 0#32
  let v416_r7 : BitVec 1 := Scalar.cmpi .slt v414_r7 c0_i32_238_r7
  let c0_i32_239_r7 : BitVec 32 := 0#32
  let v417_r7 : BitVec 1 := Scalar.cmpi .slt v413_r7 c0_i32_239_r7
  let v418_r7 : BitVec 1 := Scalar.xori v416_r7 v417_r7
  let c0_i32_237_r7 : BitVec 32 := 0#32
  let v415_r7 : BitVec 1 := Scalar.cmpi .ne v414_r7 c0_i32_237_r7
  let v419_r7 : BitVec 1 := Scalar.andi v418_r7 v415_r7
  let v420_r7 : BitVec 32 := Scalar.addi v414_r7 v413_r7
  let v421_r7 : BitVec 32 := Scalar.select v419_r7 v420_r7 v414_r7
  let v423_r7 : BitVec 32 := Scalar.muli c128_i32_241_r7 v421_r7
  let c0_i32_247_r7 : BitVec 32 := 0#32
  ![v422_r7.toNat, 2, v423_r7.toNat, 0]
def k0_off56 (arg13_r7 : BitVec 32) : Fin 1 → Nat :=
  let c2_i32_226_r7 : BitVec 32 := 2#32
  let v394_r7 : BitVec 32 := Scalar.remui arg13_r7 c2_i32_226_r7
  ![v394_r7.toNat]
def k0_off57 (arg14_r7 : BitVec 32) : Fin 5 → Nat :=
  let c2_i32_226_r7 : BitVec 32 := 2#32
  let v394_r7 : BitVec 32 := Scalar.remui arg14_r7 c2_i32_226_r7
  let c0_i32_242_r7 : BitVec 32 := 0#32
  let c0_i32_243_r7 : BitVec 32 := 0#32
  let c0_i32_244_r7 : BitVec 32 := 0#32
  let c0_i32_245_r7 : BitVec 32 := 0#32
  ![v394_r7.toNat, 0, 0, 0, 0]
def k0_cond22 (i : grid0.Coords) (k0_t3 : Fin k0_t3_loop.trips) (arg15_r7 : BitVec 32) : BitVec 1 :=
  let c0_i32_7 : BitVec 32 := 0#32
  let arg1 : BitVec 32 := BitVec.ofNat 32 (i 1).val
  let c1_i32_6 : BitVec 32 := 1#32
  let v13 : BitVec 32 := Scalar.muli arg1 c1_i32_6
  let v14 : BitVec 32 := Scalar.addi c0_i32_7 v13
  let arg0 : BitVec 32 := BitVec.ofNat 32 (i 0).val
  let c16_i32_8 : BitVec 32 := 16#32
  let v15 : BitVec 32 := Scalar.muli arg0 c16_i32_8
  let v16 : BitVec 32 := Scalar.addi v14 v15
  let c50_i32_9 : BitVec 32 := 50#32
  let v17 : BitVec 32 := Scalar.muli v16 c50_i32_9
  let v135_r7 : BitVec 32 := Scalar.addi arg15_r7 v17
  let c0_i32_145_r7 : BitVec 32 := 0#32
  let v217_r7 : BitVec 1 := Scalar.cmpi .sgt v135_r7 c0_i32_145_r7
  let v218_r7 : BitVec 32 := Scalar.extui v217_r7
  let c0_i32_146_r7 : BitVec 32 := 0#32
  let v219_r7 : BitVec 1 := Scalar.cmpi .slt v135_r7 c0_i32_146_r7
  let v220_r7 : BitVec 32 := Scalar.extui v219_r7
  let v221_r7 : BitVec 32 := Scalar.subi v218_r7 v220_r7
  let c32_i32_144_r7 : BitVec 32 := 32#32
  let c0_i32_147_r7 : BitVec 32 := 0#32
  let v222_r7 : BitVec 1 := Scalar.cmpi .sgt c32_i32_144_r7 c0_i32_147_r7
  let v223_r7 : BitVec 32 := Scalar.extui v222_r7
  let c0_i32_148_r7 : BitVec 32 := 0#32
  let v224_r7 : BitVec 1 := Scalar.cmpi .slt c32_i32_144_r7 c0_i32_148_r7
  let v225_r7 : BitVec 32 := Scalar.extui v224_r7
  let v226_r7 : BitVec 32 := Scalar.subi v223_r7 v225_r7
  let v227_r7 : BitVec 1 := Scalar.cmpi .ne v221_r7 v226_r7
  let v228_r7 : BitVec 32 := Scalar.remsi v135_r7 c32_i32_144_r7
  let c0_i32_149_r7 : BitVec 32 := 0#32
  let v229_r7 : BitVec 1 := Scalar.cmpi .ne v228_r7 c0_i32_149_r7
  let v230_r7 : BitVec 1 := Scalar.andi v227_r7 v229_r7
  let v216_r7 : BitVec 32 := Scalar.divsi v135_r7 c32_i32_144_r7
  let c1_i32_150_r7 : BitVec 32 := 1#32
  let v231_r7 : BitVec 32 := Scalar.subi v216_r7 c1_i32_150_r7
  let v232_r7 : BitVec 32 := Scalar.select v230_r7 v231_r7 v216_r7
  let true_102_r7 : BitVec 1 := 1#1
  let c1_i32_101_r7 : BitVec 32 := 1#32
  let v136_r7 : BitVec 32 := Scalar.subi arg15_r7 c1_i32_101_r7
  let v137_r7 : BitVec 32 := Scalar.select true_102_r7 v136_r7 arg15_r7
  let c_m1_i32_103_r7 : BitVec 32 := 4294967295#32
  let v138_r7 : BitVec 1 := Scalar.cmpi .eq v137_r7 c_m1_i32_103_r7
  let c49_i32_104_r7 : BitVec 32 := 49#32
  let v139_r7 : BitVec 32 := Scalar.select v138_r7 c49_i32_104_r7 v137_r7
  let v140_r7 : BitVec 32 := Scalar.addi v139_r7 v17
  let c0_i32_189_r7 : BitVec 32 := 0#32
  let v313_r7 : BitVec 1 := Scalar.cmpi .sgt v140_r7 c0_i32_189_r7
  let v314_r7 : BitVec 32 := Scalar.extui v313_r7
  let c0_i32_190_r7 : BitVec 32 := 0#32
  let v315_r7 : BitVec 1 := Scalar.cmpi .slt v140_r7 c0_i32_190_r7
  let v316_r7 : BitVec 32 := Scalar.extui v315_r7
  let v317_r7 : BitVec 32 := Scalar.subi v314_r7 v316_r7
  let c32_i32_188_r7 : BitVec 32 := 32#32
  let c0_i32_191_r7 : BitVec 32 := 0#32
  let v318_r7 : BitVec 1 := Scalar.cmpi .sgt c32_i32_188_r7 c0_i32_191_r7
  let v319_r7 : BitVec 32 := Scalar.extui v318_r7
  let c0_i32_192_r7 : BitVec 32 := 0#32
  let v320_r7 : BitVec 1 := Scalar.cmpi .slt c32_i32_188_r7 c0_i32_192_r7
  let v321_r7 : BitVec 32 := Scalar.extui v320_r7
  let v322_r7 : BitVec 32 := Scalar.subi v319_r7 v321_r7
  let v323_r7 : BitVec 1 := Scalar.cmpi .ne v317_r7 v322_r7
  let v324_r7 : BitVec 32 := Scalar.remsi v140_r7 c32_i32_188_r7
  let c0_i32_193_r7 : BitVec 32 := 0#32
  let v325_r7 : BitVec 1 := Scalar.cmpi .ne v324_r7 c0_i32_193_r7
  let v326_r7 : BitVec 1 := Scalar.andi v323_r7 v325_r7
  let v312_r7 : BitVec 32 := Scalar.divsi v140_r7 c32_i32_188_r7
  let c1_i32_194_r7 : BitVec 32 := 1#32
  let v327_r7 : BitVec 32 := Scalar.subi v312_r7 c1_i32_194_r7
  let v328_r7 : BitVec 32 := Scalar.select v326_r7 v327_r7 v312_r7
  let v374_r7 : BitVec 1 := Scalar.cmpi .ne v232_r7 v328_r7
  let c32_i32_151_r7 : BitVec 32 := 32#32
  let c0_i32_152_r7 : BitVec 32 := 0#32
  let v233_r7 : BitVec 1 := Scalar.cmpi .eq c32_i32_151_r7 c0_i32_152_r7
  let c1_i32_153_r7 : BitVec 32 := 1#32
  let v234_r7 : BitVec 32 := Scalar.select v233_r7 c1_i32_153_r7 c32_i32_151_r7
  let v235_r7 : BitVec 32 := Scalar.remsi v135_r7 v234_r7
  let c0_i32_155_r7 : BitVec 32 := 0#32
  let v237_r7 : BitVec 1 := Scalar.cmpi .slt v235_r7 c0_i32_155_r7
  let c0_i32_156_r7 : BitVec 32 := 0#32
  let v238_r7 : BitVec 1 := Scalar.cmpi .slt v234_r7 c0_i32_156_r7
  let v239_r7 : BitVec 1 := Scalar.xori v237_r7 v238_r7
  let c0_i32_154_r7 : BitVec 32 := 0#32
  let v236_r7 : BitVec 1 := Scalar.cmpi .ne v235_r7 c0_i32_154_r7
  let v240_r7 : BitVec 1 := Scalar.andi v239_r7 v236_r7
  let v241_r7 : BitVec 32 := Scalar.addi v235_r7 v234_r7
  let v242_r7 : BitVec 32 := Scalar.select v240_r7 v241_r7 v235_r7
  let c32_i32_195_r7 : BitVec 32 := 32#32
  let c0_i32_196_r7 : BitVec 32 := 0#32
  let v329_r7 : BitVec 1 := Scalar.cmpi .eq c32_i32_195_r7 c0_i32_196_r7
  let c1_i32_197_r7 : BitVec 32 := 1#32
  let v330_r7 : BitVec 32 := Scalar.select v329_r7 c1_i32_197_r7 c32_i32_195_r7
  let v331_r7 : BitVec 32 := Scalar.remsi v140_r7 v330_r7
  let c0_i32_199_r7 : BitVec 32 := 0#32
  let v333_r7 : BitVec 1 := Scalar.cmpi .slt v331_r7 c0_i32_199_r7
  let c0_i32_200_r7 : BitVec 32 := 0#32
  let v334_r7 : BitVec 1 := Scalar.cmpi .slt v330_r7 c0_i32_200_r7
  let v335_r7 : BitVec 1 := Scalar.xori v333_r7 v334_r7
  let c0_i32_198_r7 : BitVec 32 := 0#32
  let v332_r7 : BitVec 1 := Scalar.cmpi .ne v331_r7 c0_i32_198_r7
  let v336_r7 : BitVec 1 := Scalar.andi v335_r7 v332_r7
  let v337_r7 : BitVec 32 := Scalar.addi v331_r7 v330_r7
  let v338_r7 : BitVec 32 := Scalar.select v336_r7 v337_r7 v331_r7
  let v375_r7 : BitVec 1 := Scalar.cmpi .ne v242_r7 v338_r7
  let v376_r7 : BitVec 1 := Scalar.ori v374_r7 v375_r7
  let c0_i32_51_r7 : BitVec 32 := 0#32
  let c1_i32_53_r7 : BitVec 32 := 1#32
  let arg10_r7 : BitVec 32 := Scf.iv c0_i32_51_r7 c1_i32_53_r7 k0_t3
  let c0_i32_99_r7 : BitVec 32 := 0#32
  let v133_r7 : BitVec 1 := Scalar.cmpi .eq arg10_r7 c0_i32_99_r7
  let true_217_r7 : BitVec 1 := 1#1
  let v377_r7 : BitVec 1 := Scalar.xori v133_r7 true_217_r7
  let v378_r7 : BitVec 1 := Scalar.andi v376_r7 v377_r7
  let v379_r7 : BitVec 32 := Scalar.extui v378_r7
  let c0_i32_218_r7 : BitVec 32 := 0#32
  let v380_r7 : BitVec 1 := Scalar.cmpi .ne v379_r7 c0_i32_218_r7
  v380_r7

def k0_off58 (i : grid0.Coords) (arg15_r7 : BitVec 32) : Fin 4 → Nat :=
  let c1_i32_240_r7 : BitVec 32 := 1#32
  let true_102_r7 : BitVec 1 := 1#1
  let c1_i32_101_r7 : BitVec 32 := 1#32
  let v136_r7 : BitVec 32 := Scalar.subi arg15_r7 c1_i32_101_r7
  let v137_r7 : BitVec 32 := Scalar.select true_102_r7 v136_r7 arg15_r7
  let c_m1_i32_103_r7 : BitVec 32 := 4294967295#32
  let v138_r7 : BitVec 1 := Scalar.cmpi .eq v137_r7 c_m1_i32_103_r7
  let c49_i32_104_r7 : BitVec 32 := 49#32
  let v139_r7 : BitVec 32 := Scalar.select v138_r7 c49_i32_104_r7 v137_r7
  let c0_i32_7 : BitVec 32 := 0#32
  let arg1 : BitVec 32 := BitVec.ofNat 32 (i 1).val
  let c1_i32_6 : BitVec 32 := 1#32
  let v13 : BitVec 32 := Scalar.muli arg1 c1_i32_6
  let v14 : BitVec 32 := Scalar.addi c0_i32_7 v13
  let arg0 : BitVec 32 := BitVec.ofNat 32 (i 0).val
  let c16_i32_8 : BitVec 32 := 16#32
  let v15 : BitVec 32 := Scalar.muli arg0 c16_i32_8
  let v16 : BitVec 32 := Scalar.addi v14 v15
  let c50_i32_9 : BitVec 32 := 50#32
  let v17 : BitVec 32 := Scalar.muli v16 c50_i32_9
  let v140_r7 : BitVec 32 := Scalar.addi v139_r7 v17
  let c0_i32_228_r7 : BitVec 32 := 0#32
  let v396_r7 : BitVec 1 := Scalar.cmpi .sgt v140_r7 c0_i32_228_r7
  let v397_r7 : BitVec 32 := Scalar.extui v396_r7
  let c0_i32_229_r7 : BitVec 32 := 0#32
  let v398_r7 : BitVec 1 := Scalar.cmpi .slt v140_r7 c0_i32_229_r7
  let v399_r7 : BitVec 32 := Scalar.extui v398_r7
  let v400_r7 : BitVec 32 := Scalar.subi v397_r7 v399_r7
  let c32_i32_227_r7 : BitVec 32 := 32#32
  let c0_i32_230_r7 : BitVec 32 := 0#32
  let v401_r7 : BitVec 1 := Scalar.cmpi .sgt c32_i32_227_r7 c0_i32_230_r7
  let v402_r7 : BitVec 32 := Scalar.extui v401_r7
  let c0_i32_231_r7 : BitVec 32 := 0#32
  let v403_r7 : BitVec 1 := Scalar.cmpi .slt c32_i32_227_r7 c0_i32_231_r7
  let v404_r7 : BitVec 32 := Scalar.extui v403_r7
  let v405_r7 : BitVec 32 := Scalar.subi v402_r7 v404_r7
  let v406_r7 : BitVec 1 := Scalar.cmpi .ne v400_r7 v405_r7
  let v407_r7 : BitVec 32 := Scalar.remsi v140_r7 c32_i32_227_r7
  let c0_i32_232_r7 : BitVec 32 := 0#32
  let v408_r7 : BitVec 1 := Scalar.cmpi .ne v407_r7 c0_i32_232_r7
  let v409_r7 : BitVec 1 := Scalar.andi v406_r7 v408_r7
  let v395_r7 : BitVec 32 := Scalar.divsi v140_r7 c32_i32_227_r7
  let c1_i32_233_r7 : BitVec 32 := 1#32
  let v410_r7 : BitVec 32 := Scalar.subi v395_r7 c1_i32_233_r7
  let v411_r7 : BitVec 32 := Scalar.select v409_r7 v410_r7 v395_r7
  let v422_r7 : BitVec 32 := Scalar.muli c1_i32_240_r7 v411_r7
  let c2_i32_246_r7 : BitVec 32 := 2#32
  let c128_i32_241_r7 : BitVec 32 := 128#32
  let c32_i32_234_r7 : BitVec 32 := 32#32
  let c0_i32_235_r7 : BitVec 32 := 0#32
  let v412_r7 : BitVec 1 := Scalar.cmpi .eq c32_i32_234_r7 c0_i32_235_r7
  let c1_i32_236_r7 : BitVec 32 := 1#32
  let v413_r7 : BitVec 32 := Scalar.select v412_r7 c1_i32_236_r7 c32_i32_234_r7
  let v414_r7 : BitVec 32 := Scalar.remsi v140_r7 v413_r7
  let c0_i32_238_r7 : BitVec 32 := 0#32
  let v416_r7 : BitVec 1 := Scalar.cmpi .slt v414_r7 c0_i32_238_r7
  let c0_i32_239_r7 : BitVec 32 := 0#32
  let v417_r7 : BitVec 1 := Scalar.cmpi .slt v413_r7 c0_i32_239_r7
  let v418_r7 : BitVec 1 := Scalar.xori v416_r7 v417_r7
  let c0_i32_237_r7 : BitVec 32 := 0#32
  let v415_r7 : BitVec 1 := Scalar.cmpi .ne v414_r7 c0_i32_237_r7
  let v419_r7 : BitVec 1 := Scalar.andi v418_r7 v415_r7
  let v420_r7 : BitVec 32 := Scalar.addi v414_r7 v413_r7
  let v421_r7 : BitVec 32 := Scalar.select v419_r7 v420_r7 v414_r7
  let v423_r7 : BitVec 32 := Scalar.muli c128_i32_241_r7 v421_r7
  let c0_i32_247_r7 : BitVec 32 := 0#32
  ![v422_r7.toNat, 2, v423_r7.toNat, 0]
def k0_off59 (arg14_r7 : BitVec 32) : Fin 1 → Nat :=
  let c2_i32_226_r7 : BitVec 32 := 2#32
  let v394_r7 : BitVec 32 := Scalar.remui arg14_r7 c2_i32_226_r7
  ![v394_r7.toNat]

def k0_chk11 (i : grid0.Coords) (k0_t3 : Fin k0_t3_loop.trips) (arg11_r7 : BitVec 32) (arg12_r7 : BitVec 32) (arg13_r7 : BitVec 32) (arg14_r7 : BitVec 32) (arg15_r7 : BitVec 32) : Prop :=
  (∀ (k0_h16 : k0_cond16 i k0_t3 arg15_r7 = 1#1), ∀ a, (k0_off46 arg11_r7) a + S1x1x1x128.size a ≤ S2x1x1x128.size a) ∧
  (∀ (k0_h16 : k0_cond16 i k0_t3 arg15_r7 = 1#1), ∀ a, (k0_off47 i arg15_r7) a + S1x1x128.size a ≤ S3x50x4096.size a) ∧
  (∀ (k0_h16 : k0_cond16 i k0_t3 arg15_r7 = 1#1), ∀ a, (k0_off48 arg11_r7) a + S1.size a ≤ S2.size a) ∧
  (∀ (k0_h17 : k0_cond17 i k0_t3 arg15_r7 = 1#1), ∀ a, (k0_off49 arg12_r7) a + S1x1x1x128.size a ≤ S2x1x1x128.size a) ∧
  (∀ (k0_h17 : k0_cond17 i k0_t3 arg15_r7 = 1#1), ∀ a, (k0_off50 i arg15_r7) a + S1x1x128.size a ≤ S3x50x4096.size a) ∧
  (∀ (k0_h17 : k0_cond17 i k0_t3 arg15_r7 = 1#1), ∀ a, (k0_off51 arg12_r7) a + S1.size a ≤ S2.size a) ∧
  (∀ (k0_h20 : k0_cond20 i k0_t3 arg15_r7 = 1#1), ∀ a, (k0_off54 arg13_r7) a + S1x1x1x128x128.size a ≤ S2x1x1x128x128.size a) ∧
  (∀ (k0_h20 : k0_cond20 i k0_t3 arg15_r7 = 1#1), ∀ a, (k0_off55 i arg15_r7) a + S1x1x128x128.size a ≤ S50x3x4096x128.size a) ∧
  (∀ (k0_h20 : k0_cond20 i k0_t3 arg15_r7 = 1#1), ∀ a, (k0_off56 arg13_r7) a + S1.size a ≤ S2.size a) ∧
  (∀ (k0_h22 : k0_cond22 i k0_t3 arg15_r7 = 1#1), ∀ a, (k0_off57 arg14_r7) a + S1x1x1x128x128.size a ≤ S2x1x1x128x128.size a) ∧
  (∀ (k0_h22 : k0_cond22 i k0_t3 arg15_r7 = 1#1), ∀ a, (k0_off58 i arg15_r7) a + S1x1x128x128.size a ≤ S50x3x4096x128.size a) ∧
  (∀ (k0_h22 : k0_cond22 i k0_t3 arg15_r7 = 1#1), ∀ a, (k0_off59 arg14_r7) a + S1.size a ≤ S2.size a)
instance k0_chk11.dec : ∀ (i : grid0.Coords) (k0_t3 : Fin k0_t3_loop.trips) (arg11_r7 : BitVec 32) (arg12_r7 : BitVec 32) (arg13_r7 : BitVec 32) (arg14_r7 : BitVec 32) (arg15_r7 : BitVec 32), Decidable (k0_chk11 i k0_t3 arg11_r7 arg12_r7 arg13_r7 arg14_r7 arg15_r7) := fun i k0_t3 arg11_r7 arg12_r7 arg13_r7 arg14_r7 arg15_r7 => decidable_of_iff' _ (Iff.of_eq (k0_chk11.eq_1 i k0_t3 arg11_r7 arg12_r7 arg13_r7 arg14_r7 arg15_r7))
theorem k0_off46_inb : ∀ (i : grid0.Coords) (k0_t3 : Fin k0_t3_loop.trips) (arg11_r7 : BitVec 32) (arg12_r7 : BitVec 32) (arg13_r7 : BitVec 32) (arg14_r7 : BitVec 32) (arg15_r7 : BitVec 32) (k0_hw11 : k0_chk11 i k0_t3 arg11_r7 arg12_r7 arg13_r7 arg14_r7 arg15_r7), ∀ (k0_h16 : k0_cond16 i k0_t3 arg15_r7 = 1#1), ∀ a, (k0_off46 arg11_r7) a + S1x1x1x128.size a ≤ S2x1x1x128.size a := fun i k0_t3 arg11_r7 arg12_r7 arg13_r7 arg14_r7 arg15_r7 k0_hw11 k0_h16 => k0_hw11.1 k0_h16
theorem k0_off47_inb : ∀ (i : grid0.Coords) (k0_t3 : Fin k0_t3_loop.trips) (arg11_r7 : BitVec 32) (arg12_r7 : BitVec 32) (arg13_r7 : BitVec 32) (arg14_r7 : BitVec 32) (arg15_r7 : BitVec 32) (k0_hw11 : k0_chk11 i k0_t3 arg11_r7 arg12_r7 arg13_r7 arg14_r7 arg15_r7), ∀ (k0_h16 : k0_cond16 i k0_t3 arg15_r7 = 1#1), ∀ a, (k0_off47 i arg15_r7) a + S1x1x128.size a ≤ S3x50x4096.size a := fun i k0_t3 arg11_r7 arg12_r7 arg13_r7 arg14_r7 arg15_r7 k0_hw11 k0_h16 => k0_hw11.2.1 k0_h16
theorem k0_off48_inb : ∀ (i : grid0.Coords) (k0_t3 : Fin k0_t3_loop.trips) (arg11_r7 : BitVec 32) (arg12_r7 : BitVec 32) (arg13_r7 : BitVec 32) (arg14_r7 : BitVec 32) (arg15_r7 : BitVec 32) (k0_hw11 : k0_chk11 i k0_t3 arg11_r7 arg12_r7 arg13_r7 arg14_r7 arg15_r7), ∀ (k0_h16 : k0_cond16 i k0_t3 arg15_r7 = 1#1), ∀ a, (k0_off48 arg11_r7) a + S1.size a ≤ S2.size a := fun i k0_t3 arg11_r7 arg12_r7 arg13_r7 arg14_r7 arg15_r7 k0_hw11 k0_h16 => k0_hw11.2.2.1 k0_h16
theorem k0_off49_inb : ∀ (i : grid0.Coords) (k0_t3 : Fin k0_t3_loop.trips) (arg11_r7 : BitVec 32) (arg12_r7 : BitVec 32) (arg13_r7 : BitVec 32) (arg14_r7 : BitVec 32) (arg15_r7 : BitVec 32) (k0_hw11 : k0_chk11 i k0_t3 arg11_r7 arg12_r7 arg13_r7 arg14_r7 arg15_r7), ∀ (k0_h17 : k0_cond17 i k0_t3 arg15_r7 = 1#1), ∀ a, (k0_off49 arg12_r7) a + S1x1x1x128.size a ≤ S2x1x1x128.size a := fun i k0_t3 arg11_r7 arg12_r7 arg13_r7 arg14_r7 arg15_r7 k0_hw11 k0_h17 => k0_hw11.2.2.2.1 k0_h17
theorem k0_off50_inb : ∀ (i : grid0.Coords) (k0_t3 : Fin k0_t3_loop.trips) (arg11_r7 : BitVec 32) (arg12_r7 : BitVec 32) (arg13_r7 : BitVec 32) (arg14_r7 : BitVec 32) (arg15_r7 : BitVec 32) (k0_hw11 : k0_chk11 i k0_t3 arg11_r7 arg12_r7 arg13_r7 arg14_r7 arg15_r7), ∀ (k0_h17 : k0_cond17 i k0_t3 arg15_r7 = 1#1), ∀ a, (k0_off50 i arg15_r7) a + S1x1x128.size a ≤ S3x50x4096.size a := fun i k0_t3 arg11_r7 arg12_r7 arg13_r7 arg14_r7 arg15_r7 k0_hw11 k0_h17 => k0_hw11.2.2.2.2.1 k0_h17
theorem k0_off51_inb : ∀ (i : grid0.Coords) (k0_t3 : Fin k0_t3_loop.trips) (arg11_r7 : BitVec 32) (arg12_r7 : BitVec 32) (arg13_r7 : BitVec 32) (arg14_r7 : BitVec 32) (arg15_r7 : BitVec 32) (k0_hw11 : k0_chk11 i k0_t3 arg11_r7 arg12_r7 arg13_r7 arg14_r7 arg15_r7), ∀ (k0_h17 : k0_cond17 i k0_t3 arg15_r7 = 1#1), ∀ a, (k0_off51 arg12_r7) a + S1.size a ≤ S2.size a := fun i k0_t3 arg11_r7 arg12_r7 arg13_r7 arg14_r7 arg15_r7 k0_hw11 k0_h17 => k0_hw11.2.2.2.2.2.1 k0_h17
theorem k0_off54_inb : ∀ (i : grid0.Coords) (k0_t3 : Fin k0_t3_loop.trips) (arg11_r7 : BitVec 32) (arg12_r7 : BitVec 32) (arg13_r7 : BitVec 32) (arg14_r7 : BitVec 32) (arg15_r7 : BitVec 32) (k0_hw11 : k0_chk11 i k0_t3 arg11_r7 arg12_r7 arg13_r7 arg14_r7 arg15_r7), ∀ (k0_h20 : k0_cond20 i k0_t3 arg15_r7 = 1#1), ∀ a, (k0_off54 arg13_r7) a + S1x1x1x128x128.size a ≤ S2x1x1x128x128.size a := fun i k0_t3 arg11_r7 arg12_r7 arg13_r7 arg14_r7 arg15_r7 k0_hw11 k0_h20 => k0_hw11.2.2.2.2.2.2.1 k0_h20
theorem k0_off55_inb : ∀ (i : grid0.Coords) (k0_t3 : Fin k0_t3_loop.trips) (arg11_r7 : BitVec 32) (arg12_r7 : BitVec 32) (arg13_r7 : BitVec 32) (arg14_r7 : BitVec 32) (arg15_r7 : BitVec 32) (k0_hw11 : k0_chk11 i k0_t3 arg11_r7 arg12_r7 arg13_r7 arg14_r7 arg15_r7), ∀ (k0_h20 : k0_cond20 i k0_t3 arg15_r7 = 1#1), ∀ a, (k0_off55 i arg15_r7) a + S1x1x128x128.size a ≤ S50x3x4096x128.size a := fun i k0_t3 arg11_r7 arg12_r7 arg13_r7 arg14_r7 arg15_r7 k0_hw11 k0_h20 => k0_hw11.2.2.2.2.2.2.2.1 k0_h20
theorem k0_off56_inb : ∀ (i : grid0.Coords) (k0_t3 : Fin k0_t3_loop.trips) (arg11_r7 : BitVec 32) (arg12_r7 : BitVec 32) (arg13_r7 : BitVec 32) (arg14_r7 : BitVec 32) (arg15_r7 : BitVec 32) (k0_hw11 : k0_chk11 i k0_t3 arg11_r7 arg12_r7 arg13_r7 arg14_r7 arg15_r7), ∀ (k0_h20 : k0_cond20 i k0_t3 arg15_r7 = 1#1), ∀ a, (k0_off56 arg13_r7) a + S1.size a ≤ S2.size a := fun i k0_t3 arg11_r7 arg12_r7 arg13_r7 arg14_r7 arg15_r7 k0_hw11 k0_h20 => k0_hw11.2.2.2.2.2.2.2.2.1 k0_h20
theorem k0_off57_inb : ∀ (i : grid0.Coords) (k0_t3 : Fin k0_t3_loop.trips) (arg11_r7 : BitVec 32) (arg12_r7 : BitVec 32) (arg13_r7 : BitVec 32) (arg14_r7 : BitVec 32) (arg15_r7 : BitVec 32) (k0_hw11 : k0_chk11 i k0_t3 arg11_r7 arg12_r7 arg13_r7 arg14_r7 arg15_r7), ∀ (k0_h22 : k0_cond22 i k0_t3 arg15_r7 = 1#1), ∀ a, (k0_off57 arg14_r7) a + S1x1x1x128x128.size a ≤ S2x1x1x128x128.size a := fun i k0_t3 arg11_r7 arg12_r7 arg13_r7 arg14_r7 arg15_r7 k0_hw11 k0_h22 => k0_hw11.2.2.2.2.2.2.2.2.2.1 k0_h22
theorem k0_off58_inb : ∀ (i : grid0.Coords) (k0_t3 : Fin k0_t3_loop.trips) (arg11_r7 : BitVec 32) (arg12_r7 : BitVec 32) (arg13_r7 : BitVec 32) (arg14_r7 : BitVec 32) (arg15_r7 : BitVec 32) (k0_hw11 : k0_chk11 i k0_t3 arg11_r7 arg12_r7 arg13_r7 arg14_r7 arg15_r7), ∀ (k0_h22 : k0_cond22 i k0_t3 arg15_r7 = 1#1), ∀ a, (k0_off58 i arg15_r7) a + S1x1x128x128.size a ≤ S50x3x4096x128.size a := fun i k0_t3 arg11_r7 arg12_r7 arg13_r7 arg14_r7 arg15_r7 k0_hw11 k0_h22 => k0_hw11.2.2.2.2.2.2.2.2.2.2.1 k0_h22
theorem k0_off59_inb : ∀ (i : grid0.Coords) (k0_t3 : Fin k0_t3_loop.trips) (arg11_r7 : BitVec 32) (arg12_r7 : BitVec 32) (arg13_r7 : BitVec 32) (arg14_r7 : BitVec 32) (arg15_r7 : BitVec 32) (k0_hw11 : k0_chk11 i k0_t3 arg11_r7 arg12_r7 arg13_r7 arg14_r7 arg15_r7), ∀ (k0_h22 : k0_cond22 i k0_t3 arg15_r7 = 1#1), ∀ a, (k0_off59 arg14_r7) a + S1.size a ≤ S2.size a := fun i k0_t3 arg11_r7 arg12_r7 arg13_r7 arg14_r7 arg15_r7 k0_hw11 k0_h22 => k0_hw11.2.2.2.2.2.2.2.2.2.2.2 k0_h22

def k0_off60 (v74_3_r7 : BitVec 32) : Fin 5 → Nat :=
  let c2_i32_71_r7 : BitVec 32 := 2#32
  let v95_r7 : BitVec 32 := Scalar.remui v74_3_r7 c2_i32_71_r7
  let c0_i32_87_r7 : BitVec 32 := 0#32
  let c0_i32_88_r7 : BitVec 32 := 0#32
  let c0_i32_89_r7 : BitVec 32 := 0#32
  let c0_i32_90_r7 : BitVec 32 := 0#32
  ![v95_r7.toNat, 0, 0, 0, 0]

def k0_off61 (i : grid0.Coords) (v74_4_r7 : BitVec 32) : Fin 4 → Nat :=
  let c1_i32_85_r7 : BitVec 32 := 1#32
  let true_56_r7 : BitVec 1 := 1#1
  let c1_i32_55_r7 : BitVec 32 := 1#32
  let v75_r7 : BitVec 32 := Scalar.subi v74_4_r7 c1_i32_55_r7
  let v76_r7 : BitVec 32 := Scalar.select true_56_r7 v75_r7 v74_4_r7
  let c_m1_i32_57_r7 : BitVec 32 := 4294967295#32
  let v77_r7 : BitVec 1 := Scalar.cmpi .eq v76_r7 c_m1_i32_57_r7
  let c49_i32_58_r7 : BitVec 32 := 49#32
  let v78_r7 : BitVec 32 := Scalar.select v77_r7 c49_i32_58_r7 v76_r7
  let c0_i32_7 : BitVec 32 := 0#32
  let arg1 : BitVec 32 := BitVec.ofNat 32 (i 1).val
  let c1_i32_6 : BitVec 32 := 1#32
  let v13 : BitVec 32 := Scalar.muli arg1 c1_i32_6
  let v14 : BitVec 32 := Scalar.addi c0_i32_7 v13
  let arg0 : BitVec 32 := BitVec.ofNat 32 (i 0).val
  let c16_i32_8 : BitVec 32 := 16#32
  let v15 : BitVec 32 := Scalar.muli arg0 c16_i32_8
  let v16 : BitVec 32 := Scalar.addi v14 v15
  let c50_i32_9 : BitVec 32 := 50#32
  let v17 : BitVec 32 := Scalar.muli v16 c50_i32_9
  let v79_r7 : BitVec 32 := Scalar.addi v78_r7 v17
  let c0_i32_73_r7 : BitVec 32 := 0#32
  let v97_r7 : BitVec 1 := Scalar.cmpi .sgt v79_r7 c0_i32_73_r7
  let v98_r7 : BitVec 32 := Scalar.extui v97_r7
  let c0_i32_74_r7 : BitVec 32 := 0#32
  let v99_r7 : BitVec 1 := Scalar.cmpi .slt v79_r7 c0_i32_74_r7
  let v100_r7 : BitVec 32 := Scalar.extui v99_r7
  let v101_r7 : BitVec 32 := Scalar.subi v98_r7 v100_r7
  let c32_i32_72_r7 : BitVec 32 := 32#32
  let c0_i32_75_r7 : BitVec 32 := 0#32
  let v102_r7 : BitVec 1 := Scalar.cmpi .sgt c32_i32_72_r7 c0_i32_75_r7
  let v103_r7 : BitVec 32 := Scalar.extui v102_r7
  let c0_i32_76_r7 : BitVec 32 := 0#32
  let v104_r7 : BitVec 1 := Scalar.cmpi .slt c32_i32_72_r7 c0_i32_76_r7
  let v105_r7 : BitVec 32 := Scalar.extui v104_r7
  let v106_r7 : BitVec 32 := Scalar.subi v103_r7 v105_r7
  let v107_r7 : BitVec 1 := Scalar.cmpi .ne v101_r7 v106_r7
  let v108_r7 : BitVec 32 := Scalar.remsi v79_r7 c32_i32_72_r7
  let c0_i32_77_r7 : BitVec 32 := 0#32
  let v109_r7 : BitVec 1 := Scalar.cmpi .ne v108_r7 c0_i32_77_r7
  let v110_r7 : BitVec 1 := Scalar.andi v107_r7 v109_r7
  let v96_r7 : BitVec 32 := Scalar.divsi v79_r7 c32_i32_72_r7
  let c1_i32_78_r7 : BitVec 32 := 1#32
  let v111_r7 : BitVec 32 := Scalar.subi v96_r7 c1_i32_78_r7
  let v112_r7 : BitVec 32 := Scalar.select v110_r7 v111_r7 v96_r7
  let v123_r7 : BitVec 32 := Scalar.muli c1_i32_85_r7 v112_r7
  let c2_i32_91_r7 : BitVec 32 := 2#32
  let c128_i32_86_r7 : BitVec 32 := 128#32
  let c32_i32_79_r7 : BitVec 32 := 32#32
  let c0_i32_80_r7 : BitVec 32 := 0#32
  let v113_r7 : BitVec 1 := Scalar.cmpi .eq c32_i32_79_r7 c0_i32_80_r7
  let c1_i32_81_r7 : BitVec 32 := 1#32
  let v114_r7 : BitVec 32 := Scalar.select v113_r7 c1_i32_81_r7 c32_i32_79_r7
  let v115_r7 : BitVec 32 := Scalar.remsi v79_r7 v114_r7
  let c0_i32_83_r7 : BitVec 32 := 0#32
  let v117_r7 : BitVec 1 := Scalar.cmpi .slt v115_r7 c0_i32_83_r7
  let c0_i32_84_r7 : BitVec 32 := 0#32
  let v118_r7 : BitVec 1 := Scalar.cmpi .slt v114_r7 c0_i32_84_r7
  let v119_r7 : BitVec 1 := Scalar.xori v117_r7 v118_r7
  let c0_i32_82_r7 : BitVec 32 := 0#32
  let v116_r7 : BitVec 1 := Scalar.cmpi .ne v115_r7 c0_i32_82_r7
  let v120_r7 : BitVec 1 := Scalar.andi v119_r7 v116_r7
  let v121_r7 : BitVec 32 := Scalar.addi v115_r7 v114_r7
  let v122_r7 : BitVec 32 := Scalar.select v120_r7 v121_r7 v115_r7
  let v124_r7 : BitVec 32 := Scalar.muli c128_i32_86_r7 v122_r7
  let c0_i32_92_r7 : BitVec 32 := 0#32
  ![v123_r7.toNat, 2, v124_r7.toNat, 0]

def k0_chk15 (i : grid0.Coords) (v74_4_r7 : BitVec 32) : Prop :=
  (∀ a, (k0_off61 i v74_4_r7) a + S1x1x128x128.size a ≤ S50x3x4096x128.size a)
instance k0_chk15.dec : ∀ (i : grid0.Coords) (v74_4_r7 : BitVec 32), Decidable (k0_chk15 i v74_4_r7) := fun i v74_4_r7 => decidable_of_iff' _ (Iff.of_eq (k0_chk15.eq_1 i v74_4_r7))
theorem k0_off61_inb : ∀ (i : grid0.Coords) (v74_4_r7 : BitVec 32) (k0_hw15 : k0_chk15 i v74_4_r7), ∀ a, (k0_off61 i v74_4_r7) a + S1x1x128x128.size a ≤ S50x3x4096x128.size a := fun i v74_4_r7 k0_hw15 => k0_hw15

def k0_off62 (v74_3_r7 : BitVec 32) : Fin 1 → Nat :=
  let c2_i32_71_r7 : BitVec 32 := 2#32
  let v95_r7 : BitVec 32 := Scalar.remui v74_3_r7 c2_i32_71_r7
  ![v95_r7.toNat]
def k0_off63 (v74_3_r7 : BitVec 32) : Fin 5 → Nat :=
  let c2_i32_71_r7 : BitVec 32 := 2#32
  let v95_r7 : BitVec 32 := Scalar.remui v74_3_r7 c2_i32_71_r7
  let c0_i32_95_r7 : BitVec 32 := 0#32
  let c0_i32_96_r7 : BitVec 32 := 0#32
  let c0_i32_97_r7 : BitVec 32 := 0#32
  let c0_i32_98_r7 : BitVec 32 := 0#32
  ![v95_r7.toNat, 0, 0, 0, 0]

def k0_chk14 (v74_3_r7 : BitVec 32) : Prop :=
  (∀ a, (k0_off60 v74_3_r7) a + S1x1x1x128x128.size a ≤ S2x1x1x128x128.size a) ∧
  (∀ a, (k0_off62 v74_3_r7) a + S1.size a ≤ S2.size a) ∧
  (∀ a, (k0_off63 v74_3_r7) a + S1x1x1x128x128.size a ≤ S2x1x1x128x128.size a)
instance k0_chk14.dec : ∀ (v74_3_r7 : BitVec 32), Decidable (k0_chk14 v74_3_r7) := fun v74_3_r7 => decidable_of_iff' _ (Iff.of_eq (k0_chk14.eq_1 v74_3_r7))
theorem k0_off60_inb : ∀ (v74_3_r7 : BitVec 32) (k0_hw14 : k0_chk14 v74_3_r7), ∀ a, (k0_off60 v74_3_r7) a + S1x1x1x128x128.size a ≤ S2x1x1x128x128.size a := fun v74_3_r7 k0_hw14 => k0_hw14.1
theorem k0_off62_inb : ∀ (v74_3_r7 : BitVec 32) (k0_hw14 : k0_chk14 v74_3_r7), ∀ a, (k0_off62 v74_3_r7) a + S1.size a ≤ S2.size a := fun v74_3_r7 k0_hw14 => k0_hw14.2.1
theorem k0_off63_inb : ∀ (v74_3_r7 : BitVec 32) (k0_hw14 : k0_chk14 v74_3_r7), ∀ a, (k0_off63 v74_3_r7) a + S1x1x1x128x128.size a ≤ S2x1x1x128x128.size a := fun v74_3_r7 k0_hw14 => k0_hw14.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x50x3_S3x50x4096_2_1_0 : S4096x50x3.Transposes [2, 1, 0] S3x50x4096
  squeezes_S1x1x1x128_S1x1x128 : S1x1x1x128.Squeezes S1x1x128
  squeezes_S1_S_ : S1.Squeezes S_
  squeezes_S1x1x1x128x128_S1x1x128x128 : S1x1x1x128x128.Squeezes S1x1x128x128
  inb_S1x1x128x128_S1x1x128x128_0_0_0_0 : ∀ a, (![0, 0, 0, 0] : Fin 4 → Nat) a + S1x1x128x128.size a ≤ S1x1x128x128.size a
  squeezes_S1x1x128x128_S128x128 : S1x1x128x128.Squeezes S128x128
  inb_S1x1x128_S1x1x128_0_0_0 : ∀ a, (![0, 0, 0] : Fin 3 → Nat) a + S1x1x128.size a ≤ S1x1x128.size a
  squeezes_S1x1x128_S128 : S1x1x128.Squeezes S128
  inb_S1001x128_S1001x128_0_0 : ∀ a, (![0, 0] : Fin 2 → Nat) a + S1001x128.size a ≤ S1001x128.size a
  gathers_S1001x128_S128x128 : S1001x128.Gathers 0 S128x128
  transposes_S50x3x4096x128_S4096x50x3x128_2_0_1_3 : S50x3x4096x128.Transposes [2, 0, 1, 3] S4096x50x3x128
  hcc0_scoped0 : 0 + S_.numel ≤ 18
  hcc0_scoped1 : 1 + S_.numel ≤ 18
  hcc0_scoped2 : 2 + S_.numel ≤ 18
  hcc0_scoped4 : 3 + S2.numel ≤ 18
  hcc0_scoped6 : 5 + S2.numel ≤ 18
  hcc0_scoped7 : 7 + S_.numel ≤ 18
  hcc0_scoped9 : 8 + S2.numel ≤ 18
  hcc0_scoped11 : 10 + S2.numel ≤ 18
  hcc0_scoped12 : 12 + S_.numel ≤ 18
  hcc0_scoped14 : 13 + S2.numel ≤ 18
  hcc0_scoped16 : 15 + S2.numel ≤ 18
  hcc0_scoped17 : 17 + S_.numel ≤ 18
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ a, k0_off1 a + S1x1x1x128.size a ≤ S2x1x1x128.size a
  k0_off2_inb : ∀ i : grid0.Coords, ∀ a, (k0_off2 i) a + S1x1x128.size a ≤ S3x50x4096.size a
  k0_off3_inb : ∀ a, k0_off3 a + S1.size a ≤ S2.size a
  k0_t1_ok : k0_t1_loop.OK
  k0_off22_inb : ∀ a, k0_off22 a + S1x1x1x128.size a ≤ S2x1x1x128.size a
  k0_off23_inb : ∀ i : grid0.Coords, ∀ a, (k0_off23 i) a + S1x1x128.size a ≤ S3x50x4096.size a
  k0_off24_inb : ∀ a, k0_off24 a + S1.size a ≤ S2.size a
  k0_t2_ok : k0_t2_loop.OK
  k0_off43_inb : ∀ a, k0_off43 a + S1x1x1x128.size a ≤ S2x1x1x128.size a
  k0_off44_inb : ∀ i : grid0.Coords, ∀ a, (k0_off44 i) a + S1x1x128.size a ≤ S3x50x4096.size a
  k0_off45_inb : ∀ a, k0_off45 a + S1.size a ≤ S2.size a
  k0_t3_ok : k0_t3_loop.OK

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped4 : DmaSems sig S2 := SemArray.consecutive 3 S2 hcc0_scoped4
abbrev cc0_scoped6 : DmaSems sig S2 := SemArray.consecutive 5 S2 hcc0_scoped6
abbrev cc0_scoped7 : DmaSems sig S_ := SemArray.consecutive 7 S_ hcc0_scoped7
abbrev cc0_scoped9 : DmaSems sig S2 := SemArray.consecutive 8 S2 hcc0_scoped9
abbrev cc0_scoped11 : DmaSems sig S2 := SemArray.consecutive 10 S2 hcc0_scoped11
abbrev cc0_scoped12 : DmaSems sig S_ := SemArray.consecutive 12 S_ hcc0_scoped12
abbrev cc0_scoped14 : DmaSems sig S2 := SemArray.consecutive 13 S2 hcc0_scoped14
abbrev cc0_scoped16 : DmaSems sig S2 := SemArray.consecutive 15 S2 hcc0_scoped16
abbrev cc0_scoped17 : DmaSems sig S_ := SemArray.consecutive 17 S_ hcc0_scoped17

class Facts : Prop extends Facts₀ where

variable [Facts]
-- ==== ReferenceIdeal.lean ====
abbrev S4096x50x3 : Shape := ⟨3, ![4096, 50, 3]⟩
abbrev S1001x128 : Shape := ⟨2, ![1001, 128]⟩
abbrev S4096x50x1 : Shape := ⟨3, ![4096, 50, 1]⟩
abbrev S4096x50 : Shape := ⟨2, ![4096, 50]⟩
abbrev S_ : Shape := ⟨0, ![]⟩
abbrev S1 : Shape := ⟨1, ![1]⟩
abbrev S1x1x1 : Shape := ⟨3, ![1, 1, 1]⟩
abbrev S4096x50x128 : Shape := ⟨3, ![4096, 50, 128]⟩
abbrev S4096x50x1x128 : Shape := ⟨4, ![4096, 50, 1, 128]⟩
abbrev S4096x50x3x128 : Shape := ⟨4, ![4096, 50, 3, 128]⟩

abbrev nBuf : Space → Nat
  | .hbm => 92
  | .vmem => 0
  | .smem => 0
  | _ => 0

abbrev bufTy : (tb : Table) → Fin (tcTables nBuf tb) → BufTy
  | .hbm, ⟨0, _⟩ => ⟨S4096x50x3, .i32⟩
  | .hbm, ⟨1, _⟩ => ⟨S1001x128, .f32⟩
  | .hbm, ⟨2, _⟩ => ⟨S1001x128, .f32⟩
  | .hbm, ⟨3, _⟩ => ⟨S1001x128, .f32⟩
  | .hbm, ⟨4, _⟩ => ⟨S4096x50x1, .i32⟩
  | .hbm, ⟨5, _⟩ => ⟨S4096x50, .i32⟩
  | .hbm, ⟨6, _⟩ => ⟨S_, .i32⟩
  | .hbm, ⟨7, _⟩ => ⟨S4096x50, .i32⟩
  | .hbm, ⟨8, _⟩ => ⟨S4096x50, .i32⟩
  | .hbm, ⟨9, _⟩ => ⟨S_, .i32⟩
  | .hbm, ⟨10, _⟩ => ⟨S4096x50, .i32⟩
  | .hbm, ⟨11, _⟩ => ⟨S4096x50, .i1⟩
  | .hbm, ⟨12, _⟩ => ⟨S_, .i32⟩
  | .hbm, ⟨13, _⟩ => ⟨S4096x50, .i32⟩
  | .hbm, ⟨14, _⟩ => ⟨S4096x50, .i32⟩
  | .hbm, ⟨15, _⟩ => ⟨S4096x50, .i32⟩
  | .hbm, ⟨16, _⟩ => ⟨S4096x50x1, .i32⟩
  | .hbm, ⟨17, _⟩ => ⟨S1, .i32⟩
  | .hbm, ⟨18, _⟩ => ⟨S_, .i32⟩
  | .hbm, ⟨19, _⟩ => ⟨S4096x50x1, .i32⟩
  | .hbm, ⟨20, _⟩ => ⟨S4096x50x1, .i1⟩
  | .hbm, ⟨21, _⟩ => ⟨S1x1x1, .i32⟩
  | .hbm, ⟨22, _⟩ => ⟨S4096x50x1, .i32⟩
  | .hbm, ⟨23, _⟩ => ⟨S4096x50x1, .i1⟩
  | .hbm, ⟨24, _⟩ => ⟨S4096x50x1, .i1⟩
  | .hbm, ⟨25, _⟩ => ⟨S_, .i1⟩
  | .hbm, ⟨26, _⟩ => ⟨S4096x50, .i1⟩
  | .hbm, ⟨27, _⟩ => ⟨S4096x50x128, .f32⟩
  | .hbm, ⟨28, _⟩ => ⟨S4096x50x128, .i1⟩
  | .hbm, ⟨29, _⟩ => ⟨S_, .f32⟩
  | .hbm, ⟨30, _⟩ => ⟨S4096x50x128, .f32⟩
  | .hbm, ⟨31, _⟩ => ⟨S4096x50x128, .f32⟩
  | .hbm, ⟨32, _⟩ => ⟨S4096x50x1, .i32⟩
  | .hbm, ⟨33, _⟩ => ⟨S4096x50, .i32⟩
  | .hbm, ⟨34, _⟩ => ⟨S_, .i32⟩
  | .hbm, ⟨35, _⟩ => ⟨S4096x50, .i32⟩
  | .hbm, ⟨36, _⟩ => ⟨S4096x50, .i32⟩
  | .hbm, ⟨37, _⟩ => ⟨S_, .i32⟩
  | .hbm, ⟨38, _⟩ => ⟨S4096x50, .i32⟩
  | .hbm, ⟨39, _⟩ => ⟨S4096x50, .i1⟩
  | .hbm, ⟨40, _⟩ => ⟨S_, .i32⟩
  | .hbm, ⟨41, _⟩ => ⟨S4096x50, .i32⟩
  | .hbm, ⟨42, _⟩ => ⟨S4096x50, .i32⟩
  | .hbm, ⟨43, _⟩ => ⟨S4096x50, .i32⟩
  | .hbm, ⟨44, _⟩ => ⟨S4096x50x1, .i32⟩
  | .hbm, ⟨45, _⟩ => ⟨S1, .i32⟩
  | .hbm, ⟨46, _⟩ => ⟨S_, .i32⟩
  | .hbm, ⟨47, _⟩ => ⟨S4096x50x1, .i32⟩
  | .hbm, ⟨48, _⟩ => ⟨S4096x50x1, .i1⟩
  | .hbm, ⟨49, _⟩ => ⟨S1x1x1, .i32⟩
  | .hbm, ⟨50, _⟩ => ⟨S4096x50x1, .i32⟩
  | .hbm, ⟨51, _⟩ => ⟨S4096x50x1, .i1⟩
  | .hbm, ⟨52, _⟩ => ⟨S4096x50x1, .i1⟩
  | .hbm, ⟨53, _⟩ => ⟨S_, .i1⟩
  | .hbm, ⟨54, _⟩ => ⟨S4096x50, .i1⟩
  | .hbm, ⟨55, _⟩ => ⟨S4096x50x128, .f32⟩
  | .hbm, ⟨56, _⟩ => ⟨S4096x50x128, .i1⟩
  | .hbm, ⟨57, _⟩ => ⟨S_, .f32⟩
  | .hbm, ⟨58, _⟩ => ⟨S4096x50x128, .f32⟩
  | .hbm, ⟨59, _⟩ => ⟨S4096x50x128, .f32⟩
  | .hbm, ⟨60, _⟩ => ⟨S4096x50x1, .i32⟩
  | .hbm, ⟨61, _⟩ => ⟨S4096x50, .i32⟩
  | .hbm, ⟨62, _⟩ => ⟨S_, .i32⟩
  | .hbm, ⟨63, _⟩ => ⟨S4096x50, .i32⟩
  | .hbm, ⟨64, _⟩ => ⟨S4096x50, .i32⟩
  | .hbm, ⟨65, _⟩ => ⟨S_, .i32⟩
  | .hbm, ⟨66, _⟩ => ⟨S4096x50, .i32⟩
  | .hbm, ⟨67, _⟩ => ⟨S4096x50, .i1⟩
  | .hbm, ⟨68, _⟩ => ⟨S_, .i32⟩
  | .hbm, ⟨69, _⟩ => ⟨S4096x50, .i32⟩
  | .hbm, ⟨70, _⟩ => ⟨S4096x50, .i32⟩
  | .hbm, ⟨71, _⟩ => ⟨S4096x50, .i32⟩
  | .hbm, ⟨72, _⟩ => ⟨S4096x50x1, .i32⟩
  | .hbm, ⟨73, _⟩ => ⟨S1, .i32⟩
  | .hbm, ⟨74, _⟩ => ⟨S_, .i32⟩
  | .hbm, ⟨75, _⟩ => ⟨S4096x50x1, .i32⟩
  | .hbm, ⟨76, _⟩ => ⟨S4096x50x1, .i1⟩
  | .hbm, ⟨77, _⟩ => ⟨S1x1x1, .i32⟩
  | .hbm, ⟨78, _⟩ => ⟨S4096x50x1, .i32⟩
  | .hbm, ⟨79, _⟩ => ⟨S4096x50x1, .i1⟩
  | .hbm, ⟨80, _⟩ => ⟨S4096x50x1, .i1⟩
  | .hbm, ⟨81, _⟩ => ⟨S_, .i1⟩
  | .hbm, ⟨82, _⟩ => ⟨S4096x50, .i1⟩
  | .hbm, ⟨83, _⟩ => ⟨S4096x50x128, .f32⟩
  | .hbm, ⟨84, _⟩ => ⟨S4096x50x128, .i1⟩
  | .hbm, ⟨85, _⟩ => ⟨S_, .f32⟩
  | .hbm, ⟨86, _⟩ => ⟨S4096x50x128, .f32⟩
  | .hbm, ⟨87, _⟩ => ⟨S4096x50x128, .f32⟩
  | .hbm, ⟨88, _⟩ => ⟨S4096x50x1x128, .f32⟩
  | .hbm, ⟨89, _⟩ => ⟨S4096x50x1x128, .f32⟩
  | .hbm, ⟨90, _⟩ => ⟨S4096x50x1x128, .f32⟩
  | .hbm, ⟨91, _⟩ => ⟨S4096x50x3x128, .f32⟩
  | _, _ => ⟨S4096x50x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_c_0 : Ref sig .tc := ⟨.hbm, 34, rfl⟩
abbrev main_v7 : Ref sig .tc := ⟨.hbm, 35, rfl⟩
abbrev main_v8 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_c_1 : Ref sig .tc := ⟨.hbm, 62, rfl⟩
abbrev main_v12 : Ref sig .tc := ⟨.hbm, 63, rfl⟩
abbrev main_v13 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v14 : Ref sig .tc := ⟨.hbm, 87, rfl⟩
abbrev main_v15 : Ref sig .tc := ⟨.hbm, 88, rfl⟩
abbrev main_v16 : Ref sig .tc := ⟨.hbm, 89, rfl⟩
abbrev main_v17 : Ref sig .tc := ⟨.hbm, 90, rfl⟩
abbrev main_v18 : Ref sig .tc := ⟨.hbm, 91, rfl⟩

abbrev nD : Nat := 1
abbrev τ : Topo := Topo.v7x

variable {F : FTy → Type} [FloatOps F]

class Facts₀ : Prop where
  slices_S4096x50x3_S4096x50x1_0_0_0 : S4096x50x3.Slices ![0, 0, 0] S4096x50x1
  shapeCasts_S4096x50x1_S4096x50 : S4096x50x1.ShapeCasts S4096x50
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  slices_S4096x50x3_S4096x50x1_0_0_1 : S4096x50x3.Slices ![0, 0, 1] S4096x50x1
  slices_S4096x50x3_S4096x50x1_0_0_2 : S4096x50x3.Slices ![0, 0, 2] S4096x50x1
  bcast_S4096x50x128_S4096x50x1x128_0_1_3 : S4096x50x128.BroadcastsInDim S4096x50x1x128 (![0, 1, 3] : Fin 3 → Fin S4096x50x1x128.rank)
  concatenates_S4096x50x1x128_S4096x50x1x128_S4096x50x1x128_S4096x50x3x128_d2 : Shape.Concatenates [S4096x50x1x128, S4096x50x1x128, S4096x50x1x128] S4096x50x3x128 2
  gather_S1001x128_S4096x50x1_S4096x50x128_2_0_n_n_0_2_1128_wf : GatherDims.WF S1001x128 S4096x50x1 S4096x50x128 [2] [0] [] [0] [] 2 ![1, 128]

variable [Facts₀]

def gather_S1001x128_S4096x50x1_S4096x50x128_2_0_n_n_0_2_1128 : GatherDims S1001x128 S4096x50x1 S4096x50x128 where
  offsetDims := [2]
  collapsedSliceDims := [0]
  operandBatchingDims := []
  startIndicesBatchingDims := []
  startIndexMap := [0]
  indexVectorDim := 2
  sliceSizes := ![1, 128]
  wf := gather_S1001x128_S4096x50x1_S4096x50x128_2_0_n_n_0_2_1128_wf

class Facts : Prop extends Facts₀ where

variable [Facts]
-- ==== Proof.Spec.lean ====
/-
  The function both programs compute: a three-table embedding lookup.  Entry (b, t, l, e) of the result is entry e of the
  row of table l that the index word x(b, t, l) names.  The row is the word's unsigned value folded into the table's
  1001 rows, so the definition is total; on index words between 0 and 999 it is the word's value itself
  (`rowOf_of_le`), which is where both programs are compared.
-/
import Idealize.ShloMosaic.PureOps.Ideal
import Idealize.ShloMosaic.Lib.ValueIdx

noncomputable section

namespace Cert.Lookup

open Idealize.ShloMosaic Idealize.ShloMosaic.ValueIdx

/-- The index words: batch 4096, positions 50, tables 3. -/
abbrev SX : Shape := ⟨3, ![4096, 50, 3]⟩
/-- One embedding table: 1001 rows of 128 lanes. -/
abbrev SW : Shape := ⟨2, ![1001, 128]⟩
/-- The result: one 128-lane row per index word. -/
abbrev SO : Shape := ⟨4, ![4096, 50, 3, 128]⟩

/-- The table row an index word names. -/
def rowOf (v : BitVec 32) : Fin 1001 := ⟨v.toNat % 1001, Nat.mod_lt _ (by decide)⟩

/-- On a word at most 999 the row is the word's value. -/
theorem rowOf_of_le {v : BitVec 32} (h : v.toNat ≤ 999) : (rowOf v).val = v.toNat := by
  unfold rowOf; exact Nat.mod_eq_of_lt (by omega)

/-- Table `l` of the three. -/
def table {F : FTy → Type} (W0 W1 W2 : FVec F SW .f32) (l : Fin 3) : FVec F SW .f32 :=
  match l with
  | ⟨0, _⟩ => W0
  | ⟨1, _⟩ => W1
  | ⟨2, _⟩ => W2

/-- The lookup: entry (b, t, l, e) is entry e of row x(b, t, l) of table l. -/
def lookup {F : FTy → Type} (x : IVec SX 32) (W0 W1 W2 : FVec F SW .f32) : FVec F SO .f32 :=
  fun j => table W0 W1 W2 (j 2) (ix2 (rowOf (x (ix3 (j 0) (j 1) (j 2)))) (j 3))

theorem lookup_apply {F : FTy → Type} (x : IVec SX 32) (W0 W1 W2 : FVec F SW .f32)
    (b : Fin 4096) (t : Fin 50) (l : Fin 3) (e : Fin 128) :
    lookup x W0 W1 W2 (ix4 b t l e) = table W0 W1 W2 l (ix2 (rowOf (x (ix3 b t l))) e) := rfl

/-- Every index word lies between 0 and 999 (read unsigned: a word that is negative when read signed is larger). -/
def InRange (x : IVec SX 32) : Prop := ∀ j, (x j).toNat ≤ 999

end Cert.Lookup

end
-- ==== Proof.KSetup.lean ====
/-
  The lookup kernel on the SparseCores, as the launch theorem sees it, and the protocol its thirty-two tiles follow.

  Tile 0 of each SparseCore copies the three tables from HBM into the SparseCore's shared vector memory; all sixteen
  tiles then meet at the subcore barrier; after it every tile reads the shared tables (indexed row gathers).  So the
  tables' ownership flows from tile 0 to the others THROUGH the barrier: each tile's barrier semaphore is a cell with one
  round of sixteen unit duties (one per arriving tile), and tile 0's duty in tile j's round hands over tile j's read
  share of the three shared tables, at the contents of the HBM tables; the other tiles' duties hand over nothing.

  What the handshakes carry: to SparseCore c a read share of the three HBM tables and of the transposed index array and
  the output blocks its tiles write; to tile (c, i) its read share of the index array and its 150 output blocks, and to
  tile 0 also the HBM tables' share and the sequencer's three shared tables whole.  Back come the same, the output
  blocks at the lookup's values and the shared tables as the tiles' read shares (tile 0: the remainder too).
-/
import proofs.«206595_g34437047779621_cont_8to1_b_428_16_alg».proof.Defs
import proofs.«206595_g34437047779621_cont_8to1_b_428_16_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206595_g34437047779621_cont_8to1_b_428_16_alg».proof.Proof.Gen.Kernel
import proofs.«206595_g34437047779621_cont_8to1_b_428_16_alg».proof.Proof.Gen.Kernel.Skeleton

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory and the arrays -/

variable (m : (ℓ : Loc nD τ sig) → Buf (Elt F) ℓ) (ρ : Dev nD → PrngReg)

/-- The index words as given, `[4096, 50, 3]`. -/
abbrev xLoc (d : Dev nD) : Loc nD τ sig := (SparseCore.T d).loc main_arg0
/-- The three tables in HBM. -/
abbrev w0Loc (d : Dev nD) : Loc nD τ sig := (SparseCore.T d).loc main_arg1
abbrev w1Loc (d : Dev nD) : Loc nD τ sig := (SparseCore.T d).loc main_arg2
abbrev w2Loc (d : Dev nD) : Loc nD τ sig := (SparseCore.T d).loc main_arg3
/-- The index words transposed, `[3, 50, 4096]`, as the kernel reads them. -/
abbrev iLoc (d : Dev nD) : Loc nD τ sig := (SparseCore.T d).loc main_v0
/-- The kernel's output, `[50, 3, 4096, 128]`. -/
abbrev oLoc (d : Dev nD) : Loc nD τ sig := (SparseCore.T d).loc main_v1
/-- The result, `[4096, 50, 3, 128]`. -/
abbrev rLoc (d : Dev nD) : Loc nD τ sig := (SparseCore.T d).loc main_v2

/-- SparseCore `c`'s three shared tables, as every tile of it addresses them. -/
abbrev sh0Ref (c : Fin τ.nSC) : DevRef τ sig := ⟨.shared, ⟨0, by decide⟩, c⟩
abbrev sh1Ref (c : Fin τ.nSC) : DevRef τ sig := ⟨.shared, ⟨1, by decide⟩, c⟩
abbrev sh2Ref (c : Fin τ.nSC) : DevRef τ sig := ⟨.shared, ⟨2, by decide⟩, c⟩
abbrev sh0Loc (d : Dev nD) (c : Fin τ.nSC) : Loc nD τ sig := (d, sh0Ref c)
abbrev sh1Loc (d : Dev nD) (c : Fin τ.nSC) : Loc nD τ sig := (d, sh1Ref c)
abbrev sh2Loc (d : Dev nD) (c : Fin τ.nSC) : Loc nD τ sig := (d, sh2Ref c)

variable [FloatOps F]

/-- The three shared tables of SparseCore `c` at share `q`, holding the HBM tables' contents. -/
def tabs (d : Dev nD) (c : Fin τ.nSC) (q : PosShare TreeShare) : sProp 𝕄 :=
  iprop((sh0Loc d c ↦{q} (m (w0Loc d) : Buf (Elt F) (sh0Loc d c))) ∗ (sh1Loc d c ↦{q} (m (w1Loc d) : Buf (Elt F) (sh1Loc d c)))
    ∗ (sh2Loc d c ↦{q} (m (w2Loc d) : Buf (Elt F) (sh2Loc d c))))

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What the duty of tile number `n` in tile `j`'s round hands over: tile 0's, tile `j`'s read share of the three
    shared tables at the HBM tables' contents; the others', nothing. -/
def bPay (g : GSem nD τ sig) (n : ℕ) : sProp 𝕄 :=
  match g with
  | ((d, .scVector c j), _) => if n = 0 then tabs m d c (Transfers.shareTokN fullShare j.val) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay tabs
  rcases g with ⟨⟨d, _ | c | ⟨c, i⟩⟩, sm⟩ <;> dsimp only <;> (repeat' split) <;> infer_instance

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## The steps and their blocks -/

/-- The worker number of tile `i` of SparseCore `c`, and its `t`-th step of the 1600. -/
def wk (c i : ℕ) : ℕ := i + 16 * c
def stp (c i t : ℕ) : ℕ := 50 * wk c i + t

omit [FloatOps F] in
theorem stp_lt {c i t : ℕ} (hc : c < 2) (hi : i < 16) (ht : t < 50) : stp c i t < 1600 := by unfold stp wk; omega

/-- The offsets of step `s`'s block of table `l`: of the index array `[3, 50, 4096]` and of the output `[50, 3, 4096, 128]`. -/
def inOff (l s : ℕ) : Fin 3 → ℕ := ![l, s / 32, 128 * (s % 32)]
def outOff (l s : ℕ) : Fin 4 → ℕ := ![s / 32, l, 128 * (s % 32), 0]

omit [FloatOps F] in
theorem inOff_inb {l s : ℕ} (hl : l < 3) (hs : s < 1600) : ∀ a, inOff l s a + S1x1x128.size a ≤ S3x50x4096.size a := by
  intro a; fin_cases a <;> simp [inOff, Shape.size] <;> omega
omit [FloatOps F] in
theorem outOff_inb {l s : ℕ} (hl : l < 3) (hs : s < 1600) : ∀ a, outOff l s a + S1x1x128x128.size a ≤ S50x3x4096x128.size a := by
  intro a; fin_cases a <;> simp [outOff, Shape.size] <;> omega

/-- Step `s`'s output block of table `l`, as a tile addresses it. -/
abbrev oBlk (l : Fin 3) (s : Fin 1600) : Memref sig .scVector .hbm S1x1x128x128 .f32 :=
  (Memref.whole main_v1_scv).slice (Rect.unit (s := S50x3x4096x128) (outOff l.val s.val) S1x1x128x128.size (outOff_inb l.isLt s.isLt)) (fun _ => rfl)
/-- Its elements. -/
abbrev oSet (l : Fin 3) (s : Fin 1600) : Finset S50x3x4096x128.Idx := (oBlk l s).view.set

end Cert.Proof.K

end
-- ==== Proof.KPay.lean ====
/-
  What the handshakes of the one SparseCore call carry (the shares and blocks described in the set-up module's header),
  as the launch theorem's record.  Every array is held at ONE whole-array function throughout: the HBM tables and the
  index array at their launch contents, the output blocks at the launch contents on the way in and at the lookup's
  values on the way out, so pieces join without a choice of contents.
-/
import proofs.«206595_g34437047779621_cont_8to1_b_428_16_alg».proof.Proof.KSetup

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

/-! ## Contents -/

/-- The index words transposed to `[3, 50, 4096]`: what @main's first operation leaves for the kernel. -/
def idxT (d : Dev nD) : Buf (Elt F) (iLoc d) :=
  (transpose S3x50x4096 [2, 1, 0] (m (xLoc d)) transposes_S4096x50x3_S3x50x4096_2_1_0 : IVec S3x50x4096 32)

/-- The lookup in the kernel's layout `[50, 3, 4096, 128]`: entry (t, l, b, e) is entry e of row x(b, t, l) of table l. -/
def outK (d : Dev nD) : Buf (Elt F) (oLoc d) :=
  (fun j : S50x3x4096x128.Idx => Cert.Lookup.lookup (F := F) (m (xLoc d) : IVec Cert.Lookup.SX 32) (m (w0Loc d)) (m (w1Loc d)) (m (w2Loc d))
      (Idealize.ShloMosaic.ValueIdx.ix4 (j 2) (j 0) (j 1) (j 3)) : FVec F S50x3x4096x128 .f32)

/-! ## Shares -/

/-- SparseCore `c`'s read share of an HBM array, and tile `(c, i)`'s share of that. -/
abbrev qC (c : ℕ) : PosShare TreeShare := shareTokN fullShare c
abbrev qT (c i : ℕ) : PosShare TreeShare := shareTokN (qC c) i

/-- The three HBM tables at share `q`, at their launch contents. -/
abbrev hbmTabs (d : Dev nD) (q : PosShare TreeShare) : sProp 𝕄 :=
  iprop((w0Loc d ↦{q} m (w0Loc d)) ∗ (w1Loc d ↦{q} m (w1Loc d)) ∗ (w2Loc d ↦{q} m (w2Loc d)))

/-- The three shared tables of a SparseCore whole, at some contents: as the sequencer holds them between calls. -/
abbrev shAny (d : Dev nD) (c : Fin τ.nSC) : sProp 𝕄 :=
  iprop((∃ f, sh0Loc d c ↦{fullShare} f) ∗ (∃ f, sh1Loc d c ↦{fullShare} f) ∗ (∃ f, sh2Loc d c ↦{fullShare} f))

/-- Step `t` of tile `i` of SparseCore `c`, of the 1600. -/
def stpF (c : Fin 2) (i : Fin 16) (t : Fin 50) : Fin 1600 := ⟨stp c.val i.val t.val, stp_lt c.isLt i.isLt t.isLt⟩

/-- Tile `(c, i)`'s 150 output blocks (three tables, fifty steps) at the contents `f`. -/
abbrev tileOut (d : Dev nD) (c : Fin 2) (i : Fin 16) (f : Buf (Elt F) (oLoc d)) : sProp 𝕄 :=
  bigSep Finset.univ fun lt : Fin 3 × Fin 50 => oLoc d ↦[oSet lt.1 (stpF c i lt.2)]{fullShare} f

theorem nSC_two : τ.nSC = 2 := rfl
theorem nSub_sixteen : τ.nSub = 16 := rfl

/-- The one call: see the file's header. -/
def P : (K (F := F)).Pay (nD := nD) (Val := Elt F) (Name := ℕ) (U := UU) where
  st := fun q d c => match q with
    | 0 => iprop(hbmTabs m d (qC c.val) ∗ (iLoc d ↦{qC c.val} idxT m d)
        ∗ bigSep Finset.univ fun i : Fin 16 => tileOut d (Fin.cast nCore_zero c) i (m (oLoc d)))
  dn := fun q d c => match q with
    | 0 => iprop(hbmTabs m d (qC c.val) ∗ (iLoc d ↦{qC c.val} idxT m d)
        ∗ bigSep Finset.univ fun i : Fin 16 => tileOut d (Fin.cast nCore_zero c) i (outK m d))
  go := fun q d c i => match q with
    | 0 => iprop((iLoc d ↦{qT c.val i.val} idxT m d) ∗ tileOut d (Fin.cast nCore_zero c) (Fin.cast nSub_zero i) (m (oLoc d))
        ∗ if i.val = 0 then iprop(hbmTabs m d (qC c.val) ∗ shAny d (coreOf c)) else iprop(emp))
  td := fun q d c i => match q with
    | 0 => iprop((iLoc d ↦{qT c.val i.val} idxT m d) ∗ tileOut d (Fin.cast nCore_zero c) (Fin.cast nSub_zero i) (outK m d)
        ∗ tabs m d (coreOf c) (shareTokN fullShare i.val)
        ∗ if i.val = 0 then iprop(hbmTabs m d (qC c.val) ∗ tabs m d (coreOf c) (shareDrop fullShare 16)) else iprop(emp))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => by unfold P; dsimp only; infer_instance
  dn q d c := match q with
    | 0 => by unfold P; dsimp only; infer_instance
  go q d c i := match q with
    | 0 => by unfold P; dsimp only; split <;> infer_instance
  td q d c i := match q with
    | 0 => by unfold P; dsimp only; unfold tabs; split <;> infer_instance

end Cert.Proof.K

end
-- ==== Proof.KLaunch.lean ====
/-
  The launch side of the lookup kernel's run.  How one SparseCore's operands split among its sixteen tiles and gather
  back (the index array's read share into sixteen, the three shared tables out of the sequencer's own buffers to tile 0
  and back as sixteen read shares and the remainder); the launch element of the ghost state (the barrier cells of both
  SparseCores, every tile's kit); @main on the TensorCore (the index transpose, the call, the result transpose, the
  output array cut into its 2 x 16 x 150 blocks and joined again); and how the final memory reads the claim.
-/
import proofs.«206595_g34437047779621_cont_8to1_b_428_16_alg».proof.Proof.KPay
import Idealize.ShloMosaic.Lib.Pipeline.Value

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN pointsTo_toks_split pointsTo_toks_join)
open Idealize.ShloMosaic.StableHlo (held held_split held_sdiff_result wp_hlo_within)
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-! ## One SparseCore's operands, split among its tiles and gathered back -/

omit [FloatOps F] in
/-- A family over the sixteen tiles that is empty but at tile 0 is tile 0's member. -/
theorem splitOnlyZero (X : sProp 𝕄) : (bigSep Finset.univ fun j : Fin 16 => if j.val = 0 then X else iprop(emp)) = X := by
  show (bigSep Finset.univ fun j : Fin 16 => if j.val = 0 then X else (BI.emp : sProp 𝕄)) = X
  rw [← bigSep_filter Finset.univ (fun j : Fin 16 => j.val = 0) (fun _ => X),
    show (Finset.univ.filter fun j : Fin 16 => j.val = 0) = {0} by decide, bigSep_singleton]

omit [FloatOps F] in
theorem splitTasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What the sixteen tiles of SparseCore `c` are handed: each its read share of the index array and its output blocks,
    tile 0 the HBM tables' share and the three shared tables whole. -/
theorem splitGo (d : Dev nD) (c : Fin ((K (F := F)).nCore 0)) :
    (bigSep Finset.univ fun i : Fin ((K (F := F)).nSub 0) => (P m).go 0 d c i)
      = iprop((bigSep Finset.univ fun j : Fin 16 => iLoc d ↦{qT c.val j.val} idxT m d)
          ∗ (bigSep Finset.univ fun j : Fin 16 => tileOut d (Fin.cast nCore_zero c) j (m (oLoc d)))
          ∗ (hbmTabs m d (qC c.val) ∗ shAny d (coreOf c))) := by
  rw [show (bigSep Finset.univ fun i : Fin ((K (F := F)).nSub 0) => (P m).go 0 d c i)
      = bigSep Finset.univ fun j : Fin 16 => iprop((iLoc d ↦{qT c.val j.val} idxT m d) ∗ tileOut d (Fin.cast nCore_zero c) j (m (oLoc d))
          ∗ if j.val = 0 then iprop(hbmTabs m d (qC c.val) ∗ shAny d (coreOf c)) else iprop(emp)) from
      splitTasks (F := F) (fun j : Fin 16 => iprop((iLoc d ↦{qT c.val j.val} idxT m d) ∗ tileOut d (Fin.cast nCore_zero c) j (m (oLoc d))
          ∗ if j.val = 0 then iprop(hbmTabs m d (qC c.val) ∗ shAny d (coreOf c)) else iprop(emp))),
    bigSep_sep', bigSep_sep', splitOnlyZero]

/-- What they hand back: the same, the output blocks at the lookup's values, each its read share of the shared tables,
    tile 0 the remainder of them too. -/
theorem splitTd (d : Dev nD) (c : Fin ((K (F := F)).nCore 0)) :
    (bigSep Finset.univ fun i : Fin ((K (F := F)).nSub 0) => (P m).td 0 d c i)
      = iprop((bigSep Finset.univ fun j : Fin 16 => iLoc d ↦{qT c.val j.val} idxT m d)
          ∗ (bigSep Finset.univ fun j : Fin 16 => tileOut d (Fin.cast nCore_zero c) j (outK m d))
          ∗ (bigSep Finset.univ fun j : Fin 16 => tabs m d (coreOf c) (shareTokN fullShare j.val))
          ∗ (hbmTabs m d (qC c.val) ∗ tabs m d (coreOf c) (shareDrop fullShare 16))) := by
  rw [show (bigSep Finset.univ fun i : Fin ((K (F := F)).nSub 0) => (P m).td 0 d c i)
      = bigSep Finset.univ fun j : Fin 16 => iprop((iLoc d ↦{qT c.val j.val} idxT m d) ∗ tileOut d (Fin.cast nCore_zero c) j (outK m d)
          ∗ tabs m d (coreOf c) (shareTokN fullShare j.val)
          ∗ if j.val = 0 then iprop(hbmTabs m d (qC c.val) ∗ tabs m d (coreOf c) (shareDrop fullShare 16)) else iprop(emp)) from
      splitTasks (F := F) (fun j : Fin 16 => iprop((iLoc d ↦{qT c.val j.val} idxT m d) ∗ tileOut d (Fin.cast nCore_zero c) j (outK m d)
          ∗ tabs m d (coreOf c) (shareTokN fullShare j.val)
          ∗ if j.val = 0 then iprop(hbmTabs m d (qC c.val) ∗ tabs m d (coreOf c) (shareDrop fullShare 16)) else iprop(emp))),
    bigSep_sep', bigSep_sep', bigSep_sep', splitOnlyZero]

theorem splitSt (d : Dev nD) (c : Fin ((K (F := F)).nCore 0)) :
    (P m).st 0 d c = iprop(hbmTabs m d (qC c.val) ∗ (iLoc d ↦{qC c.val} idxT m d)
      ∗ bigSep Finset.univ fun i : Fin 16 => tileOut d (Fin.cast nCore_zero c) i (m (oLoc d))) := rfl
theorem splitDn (d : Dev nD) (c : Fin ((K (F := F)).nCore 0)) :
    (P m).dn 0 d c = iprop(hbmTabs m d (qC c.val) ∗ (iLoc d ↦{qC c.val} idxT m d)
      ∗ bigSep Finset.univ fun i : Fin 16 => tileOut d (Fin.cast nCore_zero c) i (outK m d)) := rfl

omit [FloatOps F] in
/-- An array held at a share is the remainder after `n` read shares and those `n` read shares. -/
theorem splitShares {ℓ : Loc nD τ sig} (f : Buf (Elt F) ℓ) (q : PosShare TreeShare) (n : ℕ) :
    (ℓ ↦{q} f : sProp 𝕄) = iprop((ℓ ↦{shareDrop q n} f) ∗ bigSep Finset.univ fun j : Fin n => ℓ ↦{shareTokN q j.val} f) :=
  BI.equiv_iff.mp ⟨(Transfers.pointsTo_toks q n).1, (Transfers.pointsTo_toks q n).2⟩

/-- The three shared tables' sixteen read shares and the remainder are the tables whole. -/
theorem splitTabsJoin (d : Dev nD) (c : Fin τ.nSC) :
    iprop(tabs m d c (shareDrop fullShare 16) ∗ bigSep Finset.univ fun j : Fin 16 => tabs m d c (shareTokN fullShare j.val))
      ⊢ tabs m d c fullShare := by
  unfold tabs
  rw [bigSep_sep', bigSep_sep', splitShares (ℓ := sh0Loc d c) (m (w0Loc d)) fullShare 16,
    splitShares (ℓ := sh1Loc d c) (m (w1Loc d)) fullShare 16, splitShares (ℓ := sh2Loc d c) (m (w2Loc d)) fullShare 16]
  iintro ⟨⟨H0, H1, H2⟩, T0, T1, T2⟩
  isplitl [H0 T0]
  · isplitl [H0]; · iexact H0
    iexact T0
  isplitl [H1 T1]
  · isplitl [H1]; · iexact H1
    iexact T1
  isplitl [H2]; · iexact H2
  iexact T2

omit [FloatOps F] in
/-- The three shared tables are among the sequencer's own buffers: they, at some contents, and the rest. -/
theorem splitOwnBufsS (d : Dev nD) (c : Fin τ.nSC) :
    (ownBufs (S d c) : sProp 𝕄)
      = iprop((∃ f, sh0Loc d c ↦{fullShare} f) ∗ (∃ f, sh1Loc d c ↦{fullShare} f) ∗ (∃ f, sh2Loc d c ↦{fullShare} f)
          ∗ bigSep ((((ownRefs (τ := τ) (.scScalar c)).erase (sh0Ref c)).erase (sh1Ref c)).erase (sh2Ref c))
              fun b => iprop(∃ f, ((d, b) : Loc nD τ sig) ↦{fullShare} f)) := by
  unfold SparseCore.Cfg.ownBufs
  have h0 : sh0Ref c ∈ ownRefs (τ := τ) (sig := sig) (.scScalar c) := (mem_ownRefs (p := Proc.scScalar c) (b := sh0Ref c)).mpr rfl
  have h1 : sh1Ref c ∈ (ownRefs (τ := τ) (sig := sig) (.scScalar c)).erase (sh0Ref c) :=
    Finset.mem_erase.mpr ⟨fun e => (by decide : (1 : ℕ) ≠ 0) (congrArg (fun b : DevRef τ sig => b.idx.val) e), (mem_ownRefs (p := Proc.scScalar c) (b := sh1Ref c)).mpr rfl⟩
  have h2 : sh2Ref c ∈ ((ownRefs (τ := τ) (sig := sig) (.scScalar c)).erase (sh0Ref c)).erase (sh1Ref c) :=
    Finset.mem_erase.mpr ⟨fun e => (by decide : (2 : ℕ) ≠ 1) (congrArg (fun b : DevRef τ sig => b.idx.val) e),
      Finset.mem_erase.mpr ⟨fun e => (by decide : (2 : ℕ) ≠ 0) (congrArg (fun b : DevRef τ sig => b.idx.val) e), (mem_ownRefs (p := Proc.scScalar c) (b := sh2Ref c)).mpr rfl⟩⟩
  rw [SparseCore.bigSep_erase' h0, SparseCore.bigSep_erase' h1, SparseCore.bigSep_erase' h2]

/-- The split: see the section's heading.  The index array's remainder share stays with the sequencer while the tasks run. -/
theorem vecSplit : (K (F := F)).VecSplit (P m) 0 := by
  intro d c
  rw [splitGo, splitTd, splitSt, splitDn, splitOwnBufsS, splitShares (idxT m d) (qC c.val) 16]
  iintro ⟨⟨Hw, ⟨Hir, Hit⟩, Ho⟩, Hs0, Hs1, Hs2, Hrest⟩
  imodintro
  isplitl [Hw Hit Ho Hs0 Hs1 Hs2]
  · isplitl [Hit]; · iexact Hit
    isplitl [Ho]; · iexact Ho
    isplitl [Hw]; · iexact Hw
    isplitl [Hs0]; · iexact Hs0
    isplitl [Hs1]; · iexact Hs1
    iexact Hs2
  iintro ⟨Hit, Ho, Htab, Hw, Htr⟩
  isplitl [Hw Hir Hit Ho]
  · isplitl [Hw]; · iexact Hw
    isplitl [Hir Hit]
    · isplitl [Hir]; · iexact Hir
      iexact Hit
    iexact Ho
  ihave Hfull := (splitTabsJoin m d (coreOf c)) $$ [Htr Htab]
  · isplitl [Htr]; · iexact Htr
    iexact Htab
  unfold tabs
  icases Hfull with ⟨H0, H1, H2⟩
  isplitl [H0]; · iexists _; iexact H0
  isplitl [H1]; · iexists _; iexact H1
  isplitl [H2]; · iexists _; iexact H2
  iexact Hrest

/-! ## The output array, cut into the tiles' blocks

Block (l, s) of the output `[50, 3, 4096, 128]` holds the elements (t, l, b, e) with 32 t + b / 128 = s; the 1600 steps are
dealt fifty to a tile, tile `i` of SparseCore `c` taking steps 50 (i + 16 c) … 50 (i + 16 c) + 49.  So the 2 x 16 x 3 x 50 blocks
are pairwise disjoint and every element lies in one. -/

omit [FloatOps F] in
theorem mainOSetEq (l : Fin 3) (s : Fin 1600) :
    oSet l s = (Rect.unit (s := S50x3x4096x128) (outOff l.val s.val) S1x1x128x128.size (outOff_inb l.isLt s.isLt)).set := by
  show ((View.whole (main_v1_scv : Ref sig .scVector)).slice _).set = _
  rw [View.set_slice]; exact Finset.map_refl

omit [FloatOps F] in
/-- Element (t, l', b, e) lies in block (l, s) exactly when l' = l and s = 32 t + b / 128. -/
theorem mainMemOSet (l : Fin 3) (s : Fin 1600) (j : S50x3x4096x128.Idx) :
    j ∈ oSet l s ↔ (j 1).val = l.val ∧ s.val = 32 * (j 0).val + (j 2).val / 128 := by
  rw [mainOSetEq, Rect.mem_set_unit]
  have h0 : (j 0).val < 50 := (j 0).isLt
  have h2 : (j 2).val < 4096 := (j 2).isLt
  have h3 : (j 3).val < 128 := (j 3).isLt
  have hs := s.isLt
  constructor
  · intro h
    have a0 := h 0
    have a1 := h 1
    have a2 := h 2
    simp [outOff, Shape.size] at a0 a1 a2
    omega
  · rintro ⟨h1, hs'⟩ a
    fin_cases a <;> simp [outOff, Shape.size] <;> omega

/-- A block's name: SparseCore, tile, table, the tile's step. -/
abbrev MainBlk : Type := Fin 2 × Fin 16 × Fin 3 × Fin 50
abbrev mainBlkSet (x : MainBlk) : Finset S50x3x4096x128.Idx := oSet x.2.2.1 (stpF x.1 x.2.1 x.2.2.2)

omit [FloatOps F] in
theorem mainBlocksDisjoint : ∀ x ∈ (Finset.univ : Finset MainBlk), ∀ y ∈ (Finset.univ : Finset MainBlk), x ≠ y → Disjoint (mainBlkSet x) (mainBlkSet y) := by
  rintro ⟨c, i, l, t⟩ - ⟨c', i', l', t'⟩ - hne
  rw [Finset.disjoint_left]
  intro j hj hj'
  have hj1 := (mainMemOSet l (stpF c i t) j).mp hj
  have hj2 := (mainMemOSet l' (stpF c' i' t') j).mp hj'
  have hs : stp c.val i.val t.val = stp c'.val i'.val t'.val := by
    have a : (stpF c i t).val = 32 * (j 0).val + (j 2).val / 128 := hj1.2
    have b : (stpF c' i' t').val = 32 * (j 0).val + (j 2).val / 128 := hj2.2
    show (stpF c i t).val = (stpF c' i' t').val
    omega
  unfold stp wk at hs
  have hc := c.isLt; have hc' := c'.isLt; have hi := i.isLt; have hi' := i'.isLt; have ht := t.isLt; have ht' := t'.isLt
  have e1 : c = c' := Fin.ext (by omega)
  have e2 : i = i' := Fin.ext (by omega)
  have e3 : l = l' := Fin.ext (by have := hj1.1; have := hj2.1; omega)
  have e4 : t = t' := Fin.ext (by omega)
  exact hne (by rw [e1, e2, e3, e4])

omit [FloatOps F] in
theorem mainBlocksCover : (Finset.univ : Finset MainBlk).biUnion mainBlkSet = Finset.univ := by
  ext j
  simp only [Finset.mem_biUnion, Finset.mem_univ, true_and, iff_true]
  have h0 : (j 0).val < 50 := (j 0).isLt
  have h1 : (j 1).val < 3 := (j 1).isLt
  have h2 : (j 2).val < 4096 := (j 2).isLt
  refine ⟨(⟨(32 * (j 0).val + (j 2).val / 128) / 50 / 16, by omega⟩, ⟨(32 * (j 0).val + (j 2).val / 128) / 50 % 16, by omega⟩,
    ⟨(j 1).val, h1⟩, ⟨(32 * (j 0).val + (j 2).val / 128) % 50, by omega⟩), ?_⟩
  refine (mainMemOSet _ _ j).mpr ⟨rfl, ?_⟩
  show stp _ _ _ = _
  unfold stp wk
  dsimp only
  omega

omit [FloatOps F] in
/-- The output array whole is the thirty-two tiles' blocks. -/
theorem mainOutBlocks (d : Dev nD) (f : Buf (Elt F) (oLoc d)) :
    (oLoc d ↦{fullShare} f : sProp 𝕄) = bigSep Finset.univ fun c : Fin 2 => bigSep Finset.univ fun i : Fin 16 => tileOut d c i f := by
  have e : (bigSep Finset.univ fun c : Fin 2 => bigSep Finset.univ fun i : Fin 16 => tileOut d c i f : sProp 𝕄)
      = bigSep (Finset.univ : Finset MainBlk) fun x => oLoc d ↦[mainBlkSet x]{fullShare} f := by
    rw [bigSep_univ_prod]
    exact bigSep_congr fun c _ => (bigSep_univ_prod (fun b : Fin 16 × Fin 3 × Fin 50 => (oLoc d ↦[mainBlkSet (c, b)]{fullShare} f : sProp 𝕄))).symm
  rw [e, ← pointsTo_biUnion Finset.univ (ℓ := oLoc d) mainBlkSet mainBlocksDisjoint, mainBlocksCover]

/-! ## The launch element of the ghost state, and what the launch hands over

The barrier cells of BOTH SparseCores' sixteen tiles are rounds cells of the barrier's own rounds algebra: funded at the
launch, their invariants allocated at once from the tiles' free semaphores at zero, and every tile dealt its kit. -/

abbrev LaunchDCI : Type := Dev nD × Fin τ.nSC × Fin τ.nSub
abbrev launchCell (x : LaunchDCI) : GSem nD τ sig := bcell x.1 x.2.1 x.2.2

def launchCells : Finset (GSem nD τ sig) := Finset.univ.image launchCell
/-- Tile `i`'s token in tile `j`'s cell, for every pair of tiles of a SparseCore. -/
def launchToks : Finset (GSem nD τ sig × ℕ × ℕ) :=
  Finset.univ.image fun x : LaunchDCI × Fin (grid0.bound 1) => (bcell x.1.1 x.1.2.1 (x.2.castLE hsub0), 0, x.1.2.2.val)
def launchU₀ : UU := (initOf (K (F := F)).hsCells (K (F := F)).hsToks, (initOf launchCells launchToks, 1))

omit [FloatOps F] in
theorem launchCell_injective : Function.Injective (launchCell : LaunchDCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem launchOwnUSplit (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
/-- Every barrier semaphore at zero, out of the free semaphores the launch hands over. -/
theorem launchSems : ((K (F := F)).freeSems0 : sProp 𝕄) ⊢ bigSep launchCells fun g => semVal g 0 := by
  unfold SparseCore.Cfg.freeSems0 launchCells
  rw [SparseCore.bigSep_image_of_injOn (fun a _ b _ e => launchCell_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem launchInvs : iprop((bigSep launchCells fun g => (semVal g 0 : sProp 𝕄)) ∗ bigSep launchCells fun g => roundState EB (bRd (F := F) m) g 0)
    ⊢ |={Set.univ}=> iprop(∃ κ : GSem nD τ sig → ℕ, bigSep launchCells fun g => cellInv EB (bRd (F := F) m) (κ g) g) := by
  refine (Rounds.bodies_intro EB (bRd (F := F) m) launchCells).trans ((inv_alloc_family launchCells (Rounds.body EB (bRd (F := F) m)) ∅ (E := Set.univ)).trans ?_)
  iintro H
  imod H with ⟨%κ, -, Hinv⟩
  imodintro; iexists κ; iexact Hinv

omit [FloatOps F] in
theorem launchSumTally (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, launchSumTally g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem launchCreds : ((P (F := F) m).oxCred : sProp 𝕄)
    ⊢ bigSep Finset.univ fun dci : LaunchDCI => cred (tallyAt (launchCell dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : LaunchDCI => (cred (tallyAt (launchCell dci) (some 0) (grid0.bound 1)) : sProp 𝕄))]
  refine bigSep_mono fun d _ => ?_
  rw [bigSep_univ_prod, bigSep_univ_prod (fun ci : Fin τ.nSC × Fin τ.nSub => (cred (tallyAt (launchCell (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, launchSumTally]; rfl

omit [FloatOps F] in
/-- A persistent resource beside a big separating conjunction goes to each conjunct. -/
theorem launchMonoFrame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem launchToksEq : (bigSep launchToks fun x => (dutyTok EB x.1 x.2.1 x.2.2 : sProp 𝕄))
    = bigSep Finset.univ fun dci : LaunchDCI => bigSep Finset.univ fun j : Fin (grid0.bound 1) => dutyTok EB (bcell dci.1 dci.2.1 (j.castLE hsub0)) 0 dci.2.2.val := by
  unfold launchToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem launchPxT (d : Dev nD) : (bigSep Finset.univ fun q : Fin 1 => (P (F := F) m).x q (SparseCore.T d)) = iprop(emp) :=
  bigSep_univ_of_subsingleton (0 : Fin 1)
theorem launchPxS (d : Dev nD) (c : Fin τ.nSC) : (bigSep Finset.univ fun q : Fin 1 => (P (F := F) m).x q (S d c)) = iprop(emp) :=
  bigSep_univ_of_subsingleton (0 : Fin 1)
theorem launchPxV (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem launchEmp {I : Type} (s : Finset I) : (bigSep s fun _ => iprop(emp)) = (iprop(emp) : sProp 𝕄) := bigSep_emp_const s

omit [FloatOps F] in
theorem launchCellsEq (Φ : GSem nD τ sig → sProp 𝕄) : bigSep launchCells Φ = bigSep Finset.univ fun x : LaunchDCI => Φ (launchCell x) := by
  unfold launchCells; exact SparseCore.bigSep_image_of_injOn (fun a _ b _ e => launchCell_injective e) Φ

/-- What every tile is handed alike: every barrier cell's invariant, and that each has reached round 0. -/
abbrev launchShared : sProp 𝕄 :=
  iprop((∃ κ : GSem nD τ sig → ℕ, bigSep Finset.univ fun x : LaunchDCI => cellInv EB (bRd (F := F) m) (κ (launchCell x)) (launchCell x))
    ∗ bigSep Finset.univ fun x : LaunchDCI => reached EB (launchCell x) 0)
/-- What each tile is handed of its own: its position, its tokens, its credit. -/
abbrev launchMine (dci : LaunchDCI) : sProp 𝕄 :=
  iprop(atPos EB (launchCell dci) 0 ∅ 0
    ∗ (bigSep Finset.univ fun j : Fin (grid0.bound 1) => dutyTok EB (bcell dci.1 dci.2.1 (j.castLE hsub0)) 0 dci.2.2.val)
    ∗ cred (tallyAt (launchCell dci) (some 0) (grid0.bound 1)))

/-- One tile's kit out of those. -/
theorem launchKitIntro (dci : LaunchDCI) : iprop(launchShared (F := F) m ∗ launchMine dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (launchMonoFrame (s := (Finset.univ : Finset (Fin (grid0.bound 1)))) (Φ := fun _ => iprop(emp))
      (R := bigSep Finset.univ fun x : LaunchDCI => cellInv EB (bRd (F := F) m) (κ (launchCell x)) (launchCell x)) fun j _ =>
        sep_elim_left.trans (bigSep_elim (Φ := fun x : LaunchDCI => (cellInv EB (bRd (F := F) m) (κ (launchCell x)) (launchCell x) : sProp 𝕄))
          (i := (d, c, Fin.castLE hsub0 j)) (Finset.mem_univ _))))
    isplitl; · iexact Hinv
    rw [launchEmp]; iempintro
  isplitl [Htok]; · iexact Htok
  isplitr
  · iapply (SparseCore.ent (launchMonoFrame (s := (Finset.univ : Finset (Fin (grid0.bound 1)))) (Φ := fun _ => iprop(emp))
      (R := bigSep Finset.univ fun x : LaunchDCI => reached EB (launchCell x) 0) fun j _ =>
        sep_elim_left.trans (bigSep_elim (Φ := fun x : LaunchDCI => (reached EB (launchCell x) 0 : sProp 𝕄))
          (i := (d, c, Fin.castLE hsub0 j)) (Finset.mem_univ _))))
    isplitl; · iexact Hr
    rw [launchEmp]; iempintro
  isplitl [Hat]; · iexact Hat
  iexact Hcred

/-- Each tile its kit. -/
theorem launchKitsDeal :
    iprop(launchShared (F := F) m ∗ (bigSep Finset.univ fun x : LaunchDCI => atPos EB (launchCell x) 0 ∅ 0)
        ∗ (bigSep Finset.univ fun dci : LaunchDCI => bigSep Finset.univ fun j : Fin (grid0.bound 1) => dutyTok EB (bcell dci.1 dci.2.1 (j.castLE hsub0)) 0 dci.2.2.val)
        ∗ (bigSep Finset.univ fun dci : LaunchDCI => cred (tallyAt (launchCell dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [launchPxT, launchPxS, launchPxV, launchEmp]
  iintro ⟨#Hsh, Hat, Htok, Hcred⟩
  isplitr; · iempintro
  isplitr; · iempintro
  iapply (launchMonoFrame (R := launchShared (F := F) m) (Φ := launchMine (F := F)) fun dci _ => launchKitIntro (F := F) m dci)
  isplitr; · iexact Hsh
  unfold launchMine
  rw [bigSep_sep', bigSep_sep']
  isplitl [Hat]; · iexact Hat
  isplitl [Htok]; · iexact Htok
  iexact Hcred

theorem hu₀ : iprop(ownU (launchU₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold launchU₀
  iintro ⟨Hu, Hcred, Hfree⟩
  ihave H := (launchOwnUSplit _ _) $$ Hu
  icases H with ⟨HH, HB⟩
  imod (Rounds.fund EB (bRd (F := F) m) launchCells launchToks) $$ HB with ⟨Hst, #Hr, Hat, Htok⟩
  ihave Hsems := (launchSems (F := F)) $$ Hfree
  imod (launchInvs (F := F) m) $$ [Hsems Hst] with ⟨%κ, #Hinv⟩
  · isplitl [Hsems] <;> iassumption
  ihave Hcred' := (launchCreds m) $$ Hcred
  ihave Hinv' := (Entails.of_eq (launchCellsEq (F := F) fun g => cellInv EB (bRd (F := F) m) (κ g) g)) $$ Hinv
  ihave Hr' := (Entails.of_eq (launchCellsEq (F := F) fun g => reached EB g 0)) $$ Hr
  ihave Hat' := (Entails.of_eq (launchCellsEq (F := F) fun g => atPos EB g 0 ∅ 0)) $$ Hat
  ihave Htok' := (Entails.of_eq (launchToksEq (F := F))) $$ Htok
  imodintro
  isplitl [HH]; · iexact HH
  isplitr; · rw [launchEmp]; iempintro
  iapply (launchKitsDeal m)
  isplitr
  · isplitl; · iexists κ; iexact Hinv'
    iexact Hr'
  isplitl [Hat']; · iexact Hat'
  isplitl [Htok']; · iexact Htok'
  iexact Hcred'

/-! ## @main on the TensorCore

The index words are transposed to `[3, 50, 4096]`; each HBM array the kernel reads goes out as one read share per
SparseCore, the TensorCore keeping the remainder, and the output array as the thirty-two tiles' blocks; the call; the
shares and the blocks, now at the lookup's values, join again; the kernel's `[50, 3, 4096, 128]` output is transposed to
the result `[4096, 50, 3, 128]`. -/

/-- The result: the lookup of the launch index words in the launch tables. -/
def resultR (d : Dev nD) : Buf (Elt F) (rLoc d) :=
  (Cert.Lookup.lookup (F := F) (m (xLoc d) : IVec Cert.Lookup.SX 32) (m (w0Loc d)) (m (w1Loc d)) (m (w2Loc d)) : FVec F S4096x50x3x128 .f32)

abbrev mainX : DevRef τ sig := Proc.devRef .tc (main_arg0 : Ref sig .tc)
abbrev mainI : DevRef τ sig := Proc.devRef .tc (main_v0 : Ref sig .tc)
abbrev mainO : DevRef τ sig := Proc.devRef .tc (main_v1 : Ref sig .tc)
abbrev mainR : DevRef τ sig := Proc.devRef .tc (main_v2 : Ref sig .tc)

/-- The two host operations: the index transpose and the result transpose. -/
abbrev mainOpIn : HloOp τ sig (Elt F) :=
  StableHlo.unary main_arg0 main_v0 ((transpose S3x50x4096 [2, 1, 0] · transposes_S4096x50x3_S3x50x4096_2_1_0) : (⟨S4096x50x3, .i32⟩ : BufTy).Contents (Elt F) → (⟨S3x50x4096, .i32⟩ : BufTy).Contents (Elt F))
abbrev mainOpOut : HloOp τ sig (Elt F) :=
  StableHlo.unary main_v1 main_v2 ((transpose S4096x50x3x128 [2, 0, 1, 3] · transposes_S50x3x4096x128_S4096x50x3x128_2_0_1_3) : (⟨S50x3x4096x128, .f32⟩ : BufTy).Contents (Elt F) → (⟨S4096x50x3x128, .f32⟩ : BufTy).Contents (Elt F))

abbrev mainSIn : Finset (DevRef τ sig) := {mainX, mainI}
abbrev mainSOut : Finset (DevRef τ sig) := {mainO, mainR}

omit [FloatOps F] in
theorem mainHIn : (mainOpIn (F := F)).bufs ⊆ mainSIn := show ({mainX, mainI} : Finset (DevRef τ sig)) ⊆ mainSIn by decide
omit [FloatOps F] in
theorem mainHOut : (mainOpOut (F := F)).bufs ⊆ mainSOut := show ({mainO, mainR} : Finset (DevRef τ sig)) ⊆ mainSOut by decide

omit [FloatOps F] in
theorem mainHeldIn (d : Dev nD) (W : Valuation τ sig (Elt F)) :
    (held (T d) mainSIn W : sProp 𝕄) = iprop((xLoc d ↦{fullShare} W mainX) ∗ (iLoc d ↦{fullShare} W mainI)) := by
  unfold held mainSIn
  rw [SparseCore.bigSep_insert' (by decide), bigSep_singleton]
omit [FloatOps F] in
theorem mainHeldOut (d : Dev nD) (W : Valuation τ sig (Elt F)) :
    (held (T d) mainSOut W : sProp 𝕄) = iprop((oLoc d ↦{fullShare} W mainO) ∗ (rLoc d ↦{fullShare} W mainR)) := by
  unfold held mainSOut
  rw [SparseCore.bigSep_insert' (by decide), bigSep_singleton]

omit [FloatOps F] in
/-- The TensorCore's seven arrays, all unscoped. -/
theorem mainUnscopedEq (d : Dev nD) (W : (b : Ref sig .tc) → Buf (Elt F) ((d.tc : Thread nD τ).loc b)) :
    (unscopedBufs d W : sProp 𝕄)
      = iprop((xLoc d ↦{fullShare} W main_arg0) ∗ (w0Loc d ↦{fullShare} W main_arg1) ∗ (w1Loc d ↦{fullShare} W main_arg2) ∗ (w2Loc d ↦{fullShare} W main_arg3)
          ∗ (iLoc d ↦{fullShare} W main_v0) ∗ (oLoc d ↦{fullShare} W main_v1) ∗ (rLoc d ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation; and, after the call, the kernel's output at the lookup's values. -/
def mainV0 (d : Dev nD) : Valuation τ sig (Elt F) := fun b => m (d, b)
def mainV1 (d : Dev nD) : Valuation τ sig (Elt F) := Function.update (mainV0 m d) mainO (outK m d)

theorem mainV1O (d : Dev nD) : mainV1 m d mainO = outK m d := Function.update_self _ _ _
theorem mainV1R (d : Dev nD) : mainV1 m d mainR = m (rLoc d) := Function.update_of_ne (show mainR ≠ mainO by decide) _ _

/-- The index transpose leaves the index words as they are and their transpose in the kernel's index array. -/
theorem mainInX (d : Dev nD) : (mainOpIn (F := F)).result (mainV0 m d) mainX = m (xLoc d) :=
  (mainOpIn (F := F)).result_of_not_mem (mainV0 m d) (b := mainX) (show mainX ∉ ({mainI} : Finset (DevRef τ sig)) by decide)
theorem mainInI (d : Dev nD) : (mainOpIn (F := F)).result (mainV0 m d) mainI = idxT m d :=
  (StableHlo.unary_result main_arg0 main_v0 _ _ _ (mainV0 m d)).trans rfl

theorem mainHeldInAfter (d : Dev nD) :
    (held (T d) mainSIn ((mainOpIn (F := F)).result (mainV0 m d)) : sProp 𝕄) = iprop((xLoc d ↦{fullShare} m (xLoc d)) ∗ (iLoc d ↦{fullShare} idxT m d)) := by
  rw [mainHeldIn, mainInX, mainInI]

/-- The result transpose leaves the kernel's output as it is; -/
theorem mainOutO (d : Dev nD) : (mainOpOut (F := F)).result (mainV1 m d) mainO = outK m d :=
  ((mainOpOut (F := F)).result_of_not_mem (mainV1 m d) (b := mainO) (show mainO ∉ ({mainR} : Finset (DevRef τ sig)) by decide)).trans (mainV1O m d)

/-- and the result is the lookup: entry (b, t, l, e) of the transpose is entry (t, l, b, e) of the kernel's output, which
    is entry e of row x(b, t, l) of table l. -/
theorem mainOutR (d : Dev nD) : (mainOpOut (F := F)).result (mainV1 m d) mainR = resultR m d := by
  refine (StableHlo.unary_result main_v1 main_v2 _ _ _ (mainV1 m d)).trans ?_
  show transpose (s := S50x3x4096x128) S4096x50x3x128 [2, 0, 1, 3] (mainV1 m d mainO) transposes_S50x3x4096x128_S4096x50x3x128_2_0_1_3 = resultR m d
  rw [mainV1O]
  funext j
  refine (transpose_apply (s := S50x3x4096x128) _ _ _ j (ix4 (j 1) (j 2) (j 0) (j 3))
    (fun b => match b with | ⟨0, _⟩ => rfl | ⟨1, _⟩ => rfl | ⟨2, _⟩ => rfl | ⟨3, _⟩ => rfl)).trans ?_
  show Cert.Lookup.lookup (F := F) _ _ _ _ (ix4 (j 0) (j 1) (j 2) (j 3)) = Cert.Lookup.lookup (F := F) _ _ _ _ j
  exact congrArg (Cert.Lookup.lookup (F := F) (m (xLoc d) : IVec Cert.Lookup.SX 32) (m (w0Loc d)) (m (w1Loc d)) (m (w2Loc d))) (eq_ix4 j).symm

theorem mainHeldOutAfter (d : Dev nD) :
    (held (T d) mainSOut ((mainOpOut (F := F)).result (mainV1 m d)) : sProp 𝕄) = iprop((oLoc d ↦{fullShare} outK m d) ∗ (rLoc d ↦{fullShare} resultR m d)) := by
  rw [mainHeldOut, mainOutO, mainOutR]

omit [FloatOps F] in
theorem mainCores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes for the two SparseCores, and what it hands back. -/
theorem mainSt0 (d : Dev nD) :
    (bigSep Finset.univ fun c : Fin ((K (F := F)).nCore 0) => (P m).st 0 d c)
      = iprop(((bigSep Finset.univ fun c : Fin 2 => w0Loc d ↦{qC c.val} m (w0Loc d)) ∗ (bigSep Finset.univ fun c : Fin 2 => w1Loc d ↦{qC c.val} m (w1Loc d))
            ∗ (bigSep Finset.univ fun c : Fin 2 => w2Loc d ↦{qC c.val} m (w2Loc d)))
          ∗ (bigSep Finset.univ fun c : Fin 2 => iLoc d ↦{qC c.val} idxT m d)
          ∗ bigSep Finset.univ fun c : Fin 2 => bigSep Finset.univ fun i : Fin 16 => tileOut d c i (m (oLoc d))) := by
  rw [show (bigSep Finset.univ fun c : Fin ((K (F := F)).nCore 0) => (P m).st 0 d c)
      = bigSep Finset.univ fun c : Fin 2 => iprop(((w0Loc d ↦{qC c.val} m (w0Loc d)) ∗ (w1Loc d ↦{qC c.val} m (w1Loc d)) ∗ (w2Loc d ↦{qC c.val} m (w2Loc d)))
          ∗ (iLoc d ↦{qC c.val} idxT m d) ∗ bigSep Finset.univ fun i : Fin 16 => tileOut d c i (m (oLoc d))) from
      mainCores (F := F) (fun c : Fin 2 => iprop(((w0Loc d ↦{qC c.val} m (w0Loc d)) ∗ (w1Loc d ↦{qC c.val} m (w1Loc d)) ∗ (w2Loc d ↦{qC c.val} m (w2Loc d)))
          ∗ (iLoc d ↦{qC c.val} idxT m d) ∗ bigSep Finset.univ fun i : Fin 16 => tileOut d c i (m (oLoc d)))),
    bigSep_sep', bigSep_sep', bigSep_sep', bigSep_sep']
theorem mainDn0 (d : Dev nD) :
    (bigSep Finset.univ fun c : Fin ((K (F := F)).nCore 0) => (P m).dn 0 d c)
      = iprop(((bigSep Finset.univ fun c : Fin 2 => w0Loc d ↦{qC c.val} m (w0Loc d)) ∗ (bigSep Finset.univ fun c : Fin 2 => w1Loc d ↦{qC c.val} m (w1Loc d))
            ∗ (bigSep Finset.univ fun c : Fin 2 => w2Loc d ↦{qC c.val} m (w2Loc d)))
          ∗ (bigSep Finset.univ fun c : Fin 2 => iLoc d ↦{qC c.val} idxT m d)
          ∗ bigSep Finset.univ fun c : Fin 2 => bigSep Finset.univ fun i : Fin 16 => tileOut d c i (outK m d)) := by
  rw [show (bigSep Finset.univ fun c : Fin ((K (F := F)).nCore 0) => (P m).dn 0 d c)
      = bigSep Finset.univ fun c : Fin 2 => iprop(((w0Loc d ↦{qC c.val} m (w0Loc d)) ∗ (w1Loc d ↦{qC c.val} m (w1Loc d)) ∗ (w2Loc d ↦{qC c.val} m (w2Loc d)))
          ∗ (iLoc d ↦{qC c.val} idxT m d) ∗ bigSep Finset.univ fun i : Fin 16 => tileOut d c i (outK m d)) from
      mainCores (F := F) (fun c : Fin 2 => iprop(((w0Loc d ↦{qC c.val} m (w0Loc d)) ∗ (w1Loc d ↦{qC c.val} m (w1Loc d)) ∗ (w2Loc d ↦{qC c.val} m (w2Loc d)))
          ∗ (iLoc d ↦{qC c.val} idxT m d) ∗ bigSep Finset.univ fun i : Fin 16 => tileOut d c i (outK m d))),
    bigSep_sep', bigSep_sep', bigSep_sep', bigSep_sep']

/-- What @main leaves the claim: the result at the lookup, the four arguments at their launch contents. -/
abbrev mainFIN (d : Dev nD) : sProp 𝕄 :=
  iprop((rLoc d ↦{fullShare} resultR m d) ∗ (xLoc d ↦{fullShare} m (xLoc d)) ∗ (w0Loc d ↦{fullShare} m (w0Loc d))
    ∗ (w1Loc d ↦{fullShare} m (w1Loc d)) ∗ (w2Loc d ↦{fullShare} m (w2Loc d)))

/-- @main on device `d`'s TensorCore: see the section's heading. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ mainFIN m d) := by
  unfold SparseCore.Cfg.tcRes
  rw [mainUnscopedEq]
  simp only [main, wp_bind, wp_pure]
  iintro ⟨#Hctx, Hst, ⟨Hb, ⟨Hx, Hw0, Hw1, Hw2, Hi, Ho, Hr⟩, -, -⟩, -⟩
  -- the index transpose
  iapply (wp_hlo_within 𝒱 (SparseCore.T d) none Set.univ (op := mainOpIn) (S := mainSIn) mainHIn (V := mainV0 m d)) $$ [Hb Hx Hi]
  · isplitl [Hb]; · iexact Hb
    rw [mainHeldIn]
    isplitl [Hx]; · iexact Hx
    iexact Hi
  iintro ⟨Hb, Hheld⟩
  rw [wp_ret]; imodintro
  ihave Hh := (Entails.of_eq (mainHeldInAfter (F := F) m d)) $$ Hheld
  icases Hh with ⟨Hx, Hi⟩
  -- a read share of each HBM array per SparseCore; the output array in blocks
  ihave H0 := (Entails.of_eq (splitShares (ℓ := w0Loc d) (m (w0Loc d)) fullShare 2)) $$ Hw0
  icases H0 with ⟨Hw0r, Hw0t⟩
  ihave H1 := (Entails.of_eq (splitShares (ℓ := w1Loc d) (m (w1Loc d)) fullShare 2)) $$ Hw1
  icases H1 with ⟨Hw1r, Hw1t⟩
  ihave H2 := (Entails.of_eq (splitShares (ℓ := w2Loc d) (m (w2Loc d)) fullShare 2)) $$ Hw2
  icases H2 with ⟨Hw2r, Hw2t⟩
  ihave H3 := (Entails.of_eq (splitShares (ℓ := iLoc d) (idxT m d) fullShare 2)) $$ Hi
  icases H3 with ⟨Hir, Hit⟩
  ihave Ho' := (Entails.of_eq (mainOutBlocks (F := F) d (m (oLoc d)))) $$ Ho
  -- the call
  iapply ((K (F := F)).wp_run (D (F := F)) 𝒱 (EH := EH) (P := P m) κ d 0) $$ [Hst Hw0t Hw1t Hw2t Hit Ho' Hb Hx Hr Hw0r Hw1r Hw2r Hir]
  isplitr; · iexact Hctx
  isplitl [Hst]; · iexact Hst
  isplitl [Hw0t Hw1t Hw2t Hit Ho']
  · rw [mainSt0]
    isplitl [Hw0t Hw1t Hw2t]
    · isplitl [Hw0t]; · iexact Hw0t
      isplitl [Hw1t]; · iexact Hw1t
      iexact Hw2t
    isplitl [Hit]; · iexact Hit
    iexact Ho'
  iintro ⟨Hst, Hdn⟩
  ihave Hdn' := (Entails.of_eq (mainDn0 m d)) $$ Hdn
  icases Hdn' with ⟨⟨Hw0t, Hw1t, Hw2t⟩, Hit, Ho'⟩
  -- the shares and the blocks join again
  ihave Hw0 := (Entails.of_eq (splitShares (ℓ := w0Loc d) (m (w0Loc d)) fullShare 2).symm) $$ [Hw0r Hw0t]
  · isplitl [Hw0r]; · iexact Hw0r
    iexact Hw0t
  ihave Hw1 := (Entails.of_eq (splitShares (ℓ := w1Loc d) (m (w1Loc d)) fullShare 2).symm) $$ [Hw1r Hw1t]
  · isplitl [Hw1r]; · iexact Hw1r
    iexact Hw1t
  ihave Hw2 := (Entails.of_eq (splitShares (ℓ := w2Loc d) (m (w2Loc d)) fullShare 2).symm) $$ [Hw2r Hw2t]
  · isplitl [Hw2r]; · iexact Hw2r
    iexact Hw2t
  ihave Ho := (Entails.of_eq (mainOutBlocks (F := F) d (outK m d)).symm) $$ Ho'
  -- the result transpose
  iapply (wp_hlo_within 𝒱 (SparseCore.T d) none Set.univ (op := mainOpOut) (S := mainSOut) mainHOut (V := mainV1 m d)) $$ [Hb Ho Hr]
  · isplitl [Hb]; · iexact Hb
    rw [mainHeldOut, mainV1O, mainV1R]
    isplitl [Ho]; · iexact Ho
    iexact Hr
  iintro ⟨Hb, Hheld⟩
  ihave Hh := (Entails.of_eq (mainHeldOutAfter (F := F) m d)) $$ Hheld
  icases Hh with ⟨Ho, Hr⟩
  rw [wp_ret]; imodintro; imodintro
  isplitl [Hst]; · iexact Hst
  isplitl [Hr]; · iexact Hr
  isplitl [Hx]; · iexact Hx
  isplitl [Hw0]; · iexact Hw0
  isplitl [Hw1]; · iexact Hw1
  iexact Hw2

/-! ## How the final memory reads the claim -/

def mainFq (d : Dev nD) (s' : Phys nD τ sig (Elt F)) : Prop :=
  s'.mem.mem (rLoc d) = resultR m d ∧ s'.mem.mem (xLoc d) = m (xLoc d) ∧ s'.mem.mem (w0Loc d) = m (w0Loc d)
    ∧ s'.mem.mem (w1Loc d) = m (w1Loc d) ∧ s'.mem.mem (w2Loc d) = m (w2Loc d)

theorem hfin (d : Dev nD) (s' : Phys nD τ sig (Elt F)) : iprop(mainFIN m d ∗ SI s') ⊢ (⌜mainFq m d s'⌝ : sProp 𝕄) := by
  iintro ⟨⟨Hr, Hx, Hw0, Hw1, Hw2⟩, HSI⟩
  ihave H := (persistent_entails_right (SI_pointsTo_agree (st := s') (ℓ := rLoc d) (I := Finset.univ) (q := fullShare) (f := resultR m d))) $$ [HSI Hr]
  · isplitl [HSI] <;> iassumption
  icases H with ⟨%h0, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := w0Loc d) (I := Finset.univ) (q := fullShare) (f := m (w0Loc d)))) $$ [HSI Hw0]
  · isplitl [HSI] <;> iassumption
  icases H with ⟨%h2, HSI, -⟩
  ihave H := (persistent_entails_right (SI_pointsTo_agree (st := s') (ℓ := w1Loc d) (I := Finset.univ) (q := fullShare) (f := m (w1Loc d)))) $$ [HSI Hw1]
  · isplitl [HSI] <;> iassumption
  icases H with ⟨%h3, HSI, -⟩
  ihave H := (SI_pointsTo_agree (st := s') (ℓ := w2Loc d) (I := Finset.univ) (q := fullShare) (f := m (w2Loc d))) $$ [HSI Hw2]
  · isplitl [HSI] <;> iassumption
  icases H with %h4
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i)⟩

/-! ## The program's run and the claim -/

/-- On every device the result holds the lookup and the four arguments are unchanged. -/
def QC : PUnit × MemSt nD τ sig (Elt F) → Prop := fun r => ∀ c : Dev nD,
  r.2.mem (rLoc c) = resultR m c ∧ r.2.mem (xLoc c) = m (xLoc c) ∧ r.2.mem (w0Loc c) = m (w0Loc c) ∧ r.2.mem (w1Loc c) = m (w1Loc c) ∧ r.2.mem (w2Loc c) = m (w2Loc c)

/-- The program's run, given one tile's task. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (fun _ => iprop(emp)) (mainFIN m) (launchU₀ (F := F)) (hu₀ m) (hmain m ρ) (mainFq m) (hfin m) (QC m) (fun _ h => h)

end Cert.Proof.K

end
-- ==== Proof.KISetup.lean ====
/-
  The lookup kernel on the SparseCores, as the launch theorem sees it, and the protocol its thirty-two tiles follow.

  Tile 0 of each SparseCore copies the three tables from HBM into the SparseCore's shared vector memory; all sixteen
  tiles then meet at the subcore barrier; after it every tile reads the shared tables (indexed row gathers).  So the
  tables' ownership flows from tile 0 to the others THROUGH the barrier: each tile's barrier semaphore is a cell with one
  round of sixteen unit duties (one per arriving tile), and tile 0's duty in tile j's round hands over tile j's read
  share of the three shared tables, at the contents of the HBM tables; the other tiles' duties hand over nothing.

  What the handshakes carry: to SparseCore c a read share of the three HBM tables and of the transposed index array and
  the output blocks its tiles write; to tile (c, i) its read share of the index array and its 150 output blocks, and to
  tile 0 also the HBM tables' share and the sequencer's three shared tables whole.  Back come the same, the output
  blocks at the lookup's values and the shared tables as the tiles' read shares (tile 0: the remainder too).
-/
import proofs.«206595_g34437047779621_cont_8to1_b_428_16_alg».proof.Defs
import proofs.«206595_g34437047779621_cont_8to1_b_428_16_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206595_g34437047779621_cont_8to1_b_428_16_alg».proof.Proof.Gen.KernelIdeal
import proofs.«206595_g34437047779621_cont_8to1_b_428_16_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory and the arrays -/

variable (m : (ℓ : Loc nD τ sig) → Buf (Elt F) ℓ) (ρ : Dev nD → PrngReg)

/-- The index words as given, `[4096, 50, 3]`. -/
abbrev xLoc (d : Dev nD) : Loc nD τ sig := (SparseCore.T d).loc main_arg0
/-- The three tables in HBM. -/
abbrev w0Loc (d : Dev nD) : Loc nD τ sig := (SparseCore.T d).loc main_arg1
abbrev w1Loc (d : Dev nD) : Loc nD τ sig := (SparseCore.T d).loc main_arg2
abbrev w2Loc (d : Dev nD) : Loc nD τ sig := (SparseCore.T d).loc main_arg3
/-- The index words transposed, `[3, 50, 4096]`, as the kernel reads them. -/
abbrev iLoc (d : Dev nD) : Loc nD τ sig := (SparseCore.T d).loc main_v0
/-- The kernel's output, `[50, 3, 4096, 128]`. -/
abbrev oLoc (d : Dev nD) : Loc nD τ sig := (SparseCore.T d).loc main_v1
/-- The result, `[4096, 50, 3, 128]`. -/
abbrev rLoc (d : Dev nD) : Loc nD τ sig := (SparseCore.T d).loc main_v2

/-- SparseCore `c`'s three shared tables, as every tile of it addresses them. -/
abbrev sh0Ref (c : Fin τ.nSC) : DevRef τ sig := ⟨.shared, ⟨0, by decide⟩, c⟩
abbrev sh1Ref (c : Fin τ.nSC) : DevRef τ sig := ⟨.shared, ⟨1, by decide⟩, c⟩
abbrev sh2Ref (c : Fin τ.nSC) : DevRef τ sig := ⟨.shared, ⟨2, by decide⟩, c⟩
abbrev sh0Loc (d : Dev nD) (c : Fin τ.nSC) : Loc nD τ sig := (d, sh0Ref c)
abbrev sh1Loc (d : Dev nD) (c : Fin τ.nSC) : Loc nD τ sig := (d, sh1Ref c)
abbrev sh2Loc (d : Dev nD) (c : Fin τ.nSC) : Loc nD τ sig := (d, sh2Ref c)

variable [FloatOps F]

/-- The three shared tables of SparseCore `c` at share `q`, holding the HBM tables' contents. -/
def tabs (d : Dev nD) (c : Fin τ.nSC) (q : PosShare TreeShare) : sProp 𝕄 :=
  iprop((sh0Loc d c ↦{q} (m (w0Loc d) : Buf (Elt F) (sh0Loc d c))) ∗ (sh1Loc d c ↦{q} (m (w1Loc d) : Buf (Elt F) (sh1Loc d c)))
    ∗ (sh2Loc d c ↦{q} (m (w2Loc d) : Buf (Elt F) (sh2Loc d c))))

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What the duty of tile number `n` in tile `j`'s round hands over: tile 0's, tile `j`'s read share of the three
    shared tables at the HBM tables' contents; the others', nothing. -/
def bPay (g : GSem nD τ sig) (n : ℕ) : sProp 𝕄 :=
  match g with
  | ((d, .scVector c j), _) => if n = 0 then tabs m d c (Transfers.shareTokN fullShare j.val) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay tabs
  rcases g with ⟨⟨d, _ | c | ⟨c, i⟩⟩, sm⟩ <;> dsimp only <;> (repeat' split) <;> infer_instance

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## The steps and their blocks -/

/-- The worker number of tile `i` of SparseCore `c`, and its `t`-th step of the 1600. -/
def wk (c i : ℕ) : ℕ := i + 16 * c
def stp (c i t : ℕ) : ℕ := 50 * wk c i + t

omit [FloatOps F] in
theorem stp_lt {c i t : ℕ} (hc : c < 2) (hi : i < 16) (ht : t < 50) : stp c i t < 1600 := by unfold stp wk; omega

/-- The offsets of step `s`'s block of table `l`: of the index array `[3, 50, 4096]` and of the output `[50, 3, 4096, 128]`. -/
def inOff (l s : ℕ) : Fin 3 → ℕ := ![l, s / 32, 128 * (s % 32)]
def outOff (l s : ℕ) : Fin 4 → ℕ := ![s / 32, l, 128 * (s % 32), 0]

omit [FloatOps F] in
theorem inOff_inb {l s : ℕ} (hl : l < 3) (hs : s < 1600) : ∀ a, inOff l s a + S1x1x128.size a ≤ S3x50x4096.size a := by
  intro a; fin_cases a <;> simp [inOff, Shape.size] <;> omega
omit [FloatOps F] in
theorem outOff_inb {l s : ℕ} (hl : l < 3) (hs : s < 1600) : ∀ a, outOff l s a + S1x1x128x128.size a ≤ S50x3x4096x128.size a := by
  intro a; fin_cases a <;> simp [outOff, Shape.size] <;> omega

/-- Step `s`'s output block of table `l`, as a tile addresses it. -/
abbrev oBlk (l : Fin 3) (s : Fin 1600) : Memref sig .scVector .hbm S1x1x128x128 .f32 :=
  (Memref.whole main_v1_scv).slice (Rect.unit (s := S50x3x4096x128) (outOff l.val s.val) S1x1x128x128.size (outOff_inb l.isLt s.isLt)) (fun _ => rfl)
/-- Its elements. -/
abbrev oSet (l : Fin 3) (s : Fin 1600) : Finset S50x3x4096x128.Idx := (oBlk l s).view.set

end Cert.Proof.KI

end
-- ==== Proof.KIPay.lean ====
/-
  What the handshakes of the one SparseCore call carry (the shares and blocks described in the set-up module's header),
  as the launch theorem's record.  Every array is held at ONE whole-array function throughout: the HBM tables and the
  index array at their launch contents, the output blocks at the launch contents on the way in and at the lookup's
  values on the way out, so pieces join without a choice of contents.
-/
import proofs.«206595_g34437047779621_cont_8to1_b_428_16_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

/-! ## Contents -/

/-- The index words transposed to `[3, 50, 4096]`: what @main's first operation leaves for the kernel. -/
def idxT (d : Dev nD) : Buf (Elt F) (iLoc d) :=
  (transpose S3x50x4096 [2, 1, 0] (m (xLoc d)) transposes_S4096x50x3_S3x50x4096_2_1_0 : IVec S3x50x4096 32)

/-- The lookup in the kernel's layout `[50, 3, 4096, 128]`: entry (t, l, b, e) is entry e of row x(b, t, l) of table l. -/
def outK (d : Dev nD) : Buf (Elt F) (oLoc d) :=
  (fun j : S50x3x4096x128.Idx => Cert.Lookup.lookup (F := F) (m (xLoc d) : IVec Cert.Lookup.SX 32) (m (w0Loc d)) (m (w1Loc d)) (m (w2Loc d))
      (Idealize.ShloMosaic.ValueIdx.ix4 (j 2) (j 0) (j 1) (j 3)) : FVec F S50x3x4096x128 .f32)

/-! ## Shares -/

/-- SparseCore `c`'s read share of an HBM array, and tile `(c, i)`'s share of that. -/
abbrev qC (c : ℕ) : PosShare TreeShare := shareTokN fullShare c
abbrev qT (c i : ℕ) : PosShare TreeShare := shareTokN (qC c) i

/-- The three HBM tables at share `q`, at their launch contents. -/
abbrev hbmTabs (d : Dev nD) (q : PosShare TreeShare) : sProp 𝕄 :=
  iprop((w0Loc d ↦{q} m (w0Loc d)) ∗ (w1Loc d ↦{q} m (w1Loc d)) ∗ (w2Loc d ↦{q} m (w2Loc d)))

/-- The three shared tables of a SparseCore whole, at some contents: as the sequencer holds them between calls. -/
abbrev shAny (d : Dev nD) (c : Fin τ.nSC) : sProp 𝕄 :=
  iprop((∃ f, sh0Loc d c ↦{fullShare} f) ∗ (∃ f, sh1Loc d c ↦{fullShare} f) ∗ (∃ f, sh2Loc d c ↦{fullShare} f))

/-- Step `t` of tile `i` of SparseCore `c`, of the 1600. -/
def stpF (c : Fin 2) (i : Fin 16) (t : Fin 50) : Fin 1600 := ⟨stp c.val i.val t.val, stp_lt c.isLt i.isLt t.isLt⟩

/-- Tile `(c, i)`'s 150 output blocks (three tables, fifty steps) at the contents `f`. -/
abbrev tileOut (d : Dev nD) (c : Fin 2) (i : Fin 16) (f : Buf (Elt F) (oLoc d)) : sProp 𝕄 :=
  bigSep Finset.univ fun lt : Fin 3 × Fin 50 => oLoc d ↦[oSet lt.1 (stpF c i lt.2)]{fullShare} f

theorem nSC_two : τ.nSC = 2 := rfl
theorem nSub_sixteen : τ.nSub = 16 := rfl

/-- The one call: see the file's header. -/
def P : (K (F := F)).Pay (nD := nD) (Val := Elt F) (Name := ℕ) (U := UU) where
  st := fun q d c => match q with
    | 0 => iprop(hbmTabs m d (qC c.val) ∗ (iLoc d ↦{qC c.val} idxT m d)
        ∗ bigSep Finset.univ fun i : Fin 16 => tileOut d (Fin.cast nCore_zero c) i (m (oLoc d)))
  dn := fun q d c => match q with
    | 0 => iprop(hbmTabs m d (qC c.val) ∗ (iLoc d ↦{qC c.val} idxT m d)
        ∗ bigSep Finset.univ fun i : Fin 16 => tileOut d (Fin.cast nCore_zero c) i (outK m d))
  go := fun q d c i => match q with
    | 0 => iprop((iLoc d ↦{qT c.val i.val} idxT m d) ∗ tileOut d (Fin.cast nCore_zero c) (Fin.cast nSub_zero i) (m (oLoc d))
        ∗ if i.val = 0 then iprop(hbmTabs m d (qC c.val) ∗ shAny d (coreOf c)) else iprop(emp))
  td := fun q d c i => match q with
    | 0 => iprop((iLoc d ↦{qT c.val i.val} idxT m d) ∗ tileOut d (Fin.cast nCore_zero c) (Fin.cast nSub_zero i) (outK m d)
        ∗ tabs m d (coreOf c) (shareTokN fullShare i.val)
        ∗ if i.val = 0 then iprop(hbmTabs m d (qC c.val) ∗ tabs m d (coreOf c) (shareDrop fullShare 16)) else iprop(emp))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => by unfold P; dsimp only; infer_instance
  dn q d c := match q with
    | 0 => by unfold P; dsimp only; infer_instance
  go q d c i := match q with
    | 0 => by unfold P; dsimp only; split <;> infer_instance
  td q d c i := match q with
    | 0 => by unfold P; dsimp only; unfold tabs; split <;> infer_instance

end Cert.Proof.KI

end
-- ==== Proof.KILaunch.lean ====
/-
  The launch side of the lookup kernel's run.  How one SparseCore's operands split among its sixteen tiles and gather
  back (the index array's read share into sixteen, the three shared tables out of the sequencer's own buffers to tile 0
  and back as sixteen read shares and the remainder); the launch element of the ghost state (the barrier cells of both
  SparseCores, every tile's kit); @main on the TensorCore (the index transpose, the call, the result transpose, the
  output array cut into its 2 x 16 x 150 blocks and joined again); and how the final memory reads the claim.
-/
import proofs.«206595_g34437047779621_cont_8to1_b_428_16_alg».proof.Proof.KIPay
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN pointsTo_toks_split pointsTo_toks_join)
open Idealize.ShloMosaic.StableHlo (held held_split held_sdiff_result wp_hlo_within)
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-! ## One SparseCore's operands, split among its tiles and gathered back -/

omit [FloatOps F] in
/-- A family over the sixteen tiles that is empty but at tile 0 is tile 0's member. -/
theorem splitOnlyZero (X : sProp 𝕄) : (bigSep Finset.univ fun j : Fin 16 => if j.val = 0 then X else iprop(emp)) = X := by
  show (bigSep Finset.univ fun j : Fin 16 => if j.val = 0 then X else (BI.emp : sProp 𝕄)) = X
  rw [← bigSep_filter Finset.univ (fun j : Fin 16 => j.val = 0) (fun _ => X),
    show (Finset.univ.filter fun j : Fin 16 => j.val = 0) = {0} by decide, bigSep_singleton]

omit [FloatOps F] in
theorem splitTasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What the sixteen tiles of SparseCore `c` are handed: each its read share of the index array and its output blocks,
    tile 0 the HBM tables' share and the three shared tables whole. -/
theorem splitGo (d : Dev nD) (c : Fin ((K (F := F)).nCore 0)) :
    (bigSep Finset.univ fun i : Fin ((K (F := F)).nSub 0) => (P m).go 0 d c i)
      = iprop((bigSep Finset.univ fun j : Fin 16 => iLoc d ↦{qT c.val j.val} idxT m d)
          ∗ (bigSep Finset.univ fun j : Fin 16 => tileOut d (Fin.cast nCore_zero c) j (m (oLoc d)))
          ∗ (hbmTabs m d (qC c.val) ∗ shAny d (coreOf c))) := by
  rw [show (bigSep Finset.univ fun i : Fin ((K (F := F)).nSub 0) => (P m).go 0 d c i)
      = bigSep Finset.univ fun j : Fin 16 => iprop((iLoc d ↦{qT c.val j.val} idxT m d) ∗ tileOut d (Fin.cast nCore_zero c) j (m (oLoc d))
          ∗ if j.val = 0 then iprop(hbmTabs m d (qC c.val) ∗ shAny d (coreOf c)) else iprop(emp)) from
      splitTasks (F := F) (fun j : Fin 16 => iprop((iLoc d ↦{qT c.val j.val} idxT m d) ∗ tileOut d (Fin.cast nCore_zero c) j (m (oLoc d))
          ∗ if j.val = 0 then iprop(hbmTabs m d (qC c.val) ∗ shAny d (coreOf c)) else iprop(emp))),
    bigSep_sep', bigSep_sep', splitOnlyZero]

/-- What they hand back: the same, the output blocks at the lookup's values, each its read share of the shared tables,
    tile 0 the remainder of them too. -/
theorem splitTd (d : Dev nD) (c : Fin ((K (F := F)).nCore 0)) :
    (bigSep Finset.univ fun i : Fin ((K (F := F)).nSub 0) => (P m).td 0 d c i)
      = iprop((bigSep Finset.univ fun j : Fin 16 => iLoc d ↦{qT c.val j.val} idxT m d)
          ∗ (bigSep Finset.univ fun j : Fin 16 => tileOut d (Fin.cast nCore_zero c) j (outK m d))
          ∗ (bigSep Finset.univ fun j : Fin 16 => tabs m d (coreOf c) (shareTokN fullShare j.val))
          ∗ (hbmTabs m d (qC c.val) ∗ tabs m d (coreOf c) (shareDrop fullShare 16))) := by
  rw [show (bigSep Finset.univ fun i : Fin ((K (F := F)).nSub 0) => (P m).td 0 d c i)
      = bigSep Finset.univ fun j : Fin 16 => iprop((iLoc d ↦{qT c.val j.val} idxT m d) ∗ tileOut d (Fin.cast nCore_zero c) j (outK m d)
          ∗ tabs m d (coreOf c) (shareTokN fullShare j.val)
          ∗ if j.val = 0 then iprop(hbmTabs m d (qC c.val) ∗ tabs m d (coreOf c) (shareDrop fullShare 16)) else iprop(emp)) from
      splitTasks (F := F) (fun j : Fin 16 => iprop((iLoc d ↦{qT c.val j.val} idxT m d) ∗ tileOut d (Fin.cast nCore_zero c) j (outK m d)
          ∗ tabs m d (coreOf c) (shareTokN fullShare j.val)
          ∗ if j.val = 0 then iprop(hbmTabs m d (qC c.val) ∗ tabs m d (coreOf c) (shareDrop fullShare 16)) else iprop(emp))),
    bigSep_sep', bigSep_sep', bigSep_sep', splitOnlyZero]

theorem splitSt (d : Dev nD) (c : Fin ((K (F := F)).nCore 0)) :
    (P m).st 0 d c = iprop(hbmTabs m d (qC c.val) ∗ (iLoc d ↦{qC c.val} idxT m d)
      ∗ bigSep Finset.univ fun i : Fin 16 => tileOut d (Fin.cast nCore_zero c) i (m (oLoc d))) := rfl
theorem splitDn (d : Dev nD) (c : Fin ((K (F := F)).nCore 0)) :
    (P m).dn 0 d c = iprop(hbmTabs m d (qC c.val) ∗ (iLoc d ↦{qC c.val} idxT m d)
      ∗ bigSep Finset.univ fun i : Fin 16 => tileOut d (Fin.cast nCore_zero c) i (outK m d)) := rfl

omit [FloatOps F] in
/-- An array held at a share is the remainder after `n` read shares and those `n` read shares. -/
theorem splitShares {ℓ : Loc nD τ sig} (f : Buf (Elt F) ℓ) (q : PosShare TreeShare) (n : ℕ) :
    (ℓ ↦{q} f : sProp 𝕄) = iprop((ℓ ↦{shareDrop q n} f) ∗ bigSep Finset.univ fun j : Fin n => ℓ ↦{shareTokN q j.val} f) :=
  BI.equiv_iff.mp ⟨(Transfers.pointsTo_toks q n).1, (Transfers.pointsTo_toks q n).2⟩

/-- The three shared tables' sixteen read shares and the remainder are the tables whole. -/
theorem splitTabsJoin (d : Dev nD) (c : Fin τ.nSC) :
    iprop(tabs m d c (shareDrop fullShare 16) ∗ bigSep Finset.univ fun j : Fin 16 => tabs m d c (shareTokN fullShare j.val))
      ⊢ tabs m d c fullShare := by
  unfold tabs
  rw [bigSep_sep', bigSep_sep', splitShares (ℓ := sh0Loc d c) (m (w0Loc d)) fullShare 16,
    splitShares (ℓ := sh1Loc d c) (m (w1Loc d)) fullShare 16, splitShares (ℓ := sh2Loc d c) (m (w2Loc d)) fullShare 16]
  iintro ⟨⟨H0, H1, H2⟩, T0, T1, T2⟩
  isplitl [H0 T0]
  · isplitl [H0]; · iexact H0
    iexact T0
  isplitl [H1 T1]
  · isplitl [H1]; · iexact H1
    iexact T1
  isplitl [H2]; · iexact H2
  iexact T2

omit [FloatOps F] in
/-- The three shared tables are among the sequencer's own buffers: they, at some contents, and the rest. -/
theorem splitOwnBufsS (d : Dev nD) (c : Fin τ.nSC) :
    (ownBufs (S d c) : sProp 𝕄)
      = iprop((∃ f, sh0Loc d c ↦{fullShare} f) ∗ (∃ f, sh1Loc d c ↦{fullShare} f) ∗ (∃ f, sh2Loc d c ↦{fullShare} f)
          ∗ bigSep ((((ownRefs (τ := τ) (.scScalar c)).erase (sh0Ref c)).erase (sh1Ref c)).erase (sh2Ref c))
              fun b => iprop(∃ f, ((d, b) : Loc nD τ sig) ↦{fullShare} f)) := by
  unfold SparseCore.Cfg.ownBufs
  have h0 : sh0Ref c ∈ ownRefs (τ := τ) (sig := sig) (.scScalar c) := (mem_ownRefs (p := Proc.scScalar c) (b := sh0Ref c)).mpr rfl
  have h1 : sh1Ref c ∈ (ownRefs (τ := τ) (sig := sig) (.scScalar c)).erase (sh0Ref c) :=
    Finset.mem_erase.mpr ⟨fun e => (by decide : (1 : ℕ) ≠ 0) (congrArg (fun b : DevRef τ sig => b.idx.val) e), (mem_ownRefs (p := Proc.scScalar c) (b := sh1Ref c)).mpr rfl⟩
  have h2 : sh2Ref c ∈ ((ownRefs (τ := τ) (sig := sig) (.scScalar c)).erase (sh0Ref c)).erase (sh1Ref c) :=
    Finset.mem_erase.mpr ⟨fun e => (by decide : (2 : ℕ) ≠ 1) (congrArg (fun b : DevRef τ sig => b.idx.val) e),
      Finset.mem_erase.mpr ⟨fun e => (by decide : (2 : ℕ) ≠ 0) (congrArg (fun b : DevRef τ sig => b.idx.val) e), (mem_ownRefs (p := Proc.scScalar c) (b := sh2Ref c)).mpr rfl⟩⟩
  rw [SparseCore.bigSep_erase' h0, SparseCore.bigSep_erase' h1, SparseCore.bigSep_erase' h2]

/-- The split: see the section's heading.  The index array's remainder share stays with the sequencer while the tasks run. -/
theorem vecSplit : (K (F := F)).VecSplit (P m) 0 := by
  intro d c
  rw [splitGo, splitTd, splitSt, splitDn, splitOwnBufsS, splitShares (idxT m d) (qC c.val) 16]
  iintro ⟨⟨Hw, ⟨Hir, Hit⟩, Ho⟩, Hs0, Hs1, Hs2, Hrest⟩
  imodintro
  isplitl [Hw Hit Ho Hs0 Hs1 Hs2]
  · isplitl [Hit]; · iexact Hit
    isplitl [Ho]; · iexact Ho
    isplitl [Hw]; · iexact Hw
    isplitl [Hs0]; · iexact Hs0
    isplitl [Hs1]; · iexact Hs1
    iexact Hs2
  iintro ⟨Hit, Ho, Htab, Hw, Htr⟩
  isplitl [Hw Hir Hit Ho]
  · isplitl [Hw]; · iexact Hw
    isplitl [Hir Hit]
    · isplitl [Hir]; · iexact Hir
      iexact Hit
    iexact Ho
  ihave Hfull := (splitTabsJoin m d (coreOf c)) $$ [Htr Htab]
  · isplitl [Htr]; · iexact Htr
    iexact Htab
  unfold tabs
  icases Hfull with ⟨H0, H1, H2⟩
  isplitl [H0]; · iexists _; iexact H0
  isplitl [H1]; · iexists _; iexact H1
  isplitl [H2]; · iexists _; iexact H2
  iexact Hrest

/-! ## The output array, cut into the tiles' blocks

Block (l, s) of the output `[50, 3, 4096, 128]` holds the elements (t, l, b, e) with 32 t + b / 128 = s; the 1600 steps are
dealt fifty to a tile, tile `i` of SparseCore `c` taking steps 50 (i + 16 c) … 50 (i + 16 c) + 49.  So the 2 x 16 x 3 x 50 blocks
are pairwise disjoint and every element lies in one. -/

omit [FloatOps F] in
theorem mainOSetEq (l : Fin 3) (s : Fin 1600) :
    oSet l s = (Rect.unit (s := S50x3x4096x128) (outOff l.val s.val) S1x1x128x128.size (outOff_inb l.isLt s.isLt)).set := by
  show ((View.whole (main_v1_scv : Ref sig .scVector)).slice _).set = _
  rw [View.set_slice]; exact Finset.map_refl

omit [FloatOps F] in
/-- Element (t, l', b, e) lies in block (l, s) exactly when l' = l and s = 32 t + b / 128. -/
theorem mainMemOSet (l : Fin 3) (s : Fin 1600) (j : S50x3x4096x128.Idx) :
    j ∈ oSet l s ↔ (j 1).val = l.val ∧ s.val = 32 * (j 0).val + (j 2).val / 128 := by
  rw [mainOSetEq, Rect.mem_set_unit]
  have h0 : (j 0).val < 50 := (j 0).isLt
  have h2 : (j 2).val < 4096 := (j 2).isLt
  have h3 : (j 3).val < 128 := (j 3).isLt
  have hs := s.isLt
  constructor
  · intro h
    have a0 := h 0
    have a1 := h 1
    have a2 := h 2
    simp [outOff, Shape.size] at a0 a1 a2
    omega
  · rintro ⟨h1, hs'⟩ a
    fin_cases a <;> simp [outOff, Shape.size] <;> omega

/-- A block's name: SparseCore, tile, table, the tile's step. -/
abbrev MainBlk : Type := Fin 2 × Fin 16 × Fin 3 × Fin 50
abbrev mainBlkSet (x : MainBlk) : Finset S50x3x4096x128.Idx := oSet x.2.2.1 (stpF x.1 x.2.1 x.2.2.2)

omit [FloatOps F] in
theorem mainBlocksDisjoint : ∀ x ∈ (Finset.univ : Finset MainBlk), ∀ y ∈ (Finset.univ : Finset MainBlk), x ≠ y → Disjoint (mainBlkSet x) (mainBlkSet y) := by
  rintro ⟨c, i, l, t⟩ - ⟨c', i', l', t'⟩ - hne
  rw [Finset.disjoint_left]
  intro j hj hj'
  have hj1 := (mainMemOSet l (stpF c i t) j).mp hj
  have hj2 := (mainMemOSet l' (stpF c' i' t') j).mp hj'
  have hs : stp c.val i.val t.val = stp c'.val i'.val t'.val := by
    have a : (stpF c i t).val = 32 * (j 0).val + (j 2).val / 128 := hj1.2
    have b : (stpF c' i' t').val = 32 * (j 0).val + (j 2).val / 128 := hj2.2
    show (stpF c i t).val = (stpF c' i' t').val
    omega
  unfold stp wk at hs
  have hc := c.isLt; have hc' := c'.isLt; have hi := i.isLt; have hi' := i'.isLt; have ht := t.isLt; have ht' := t'.isLt
  have e1 : c = c' := Fin.ext (by omega)
  have e2 : i = i' := Fin.ext (by omega)
  have e3 : l = l' := Fin.ext (by have := hj1.1; have := hj2.1; omega)
  have e4 : t = t' := Fin.ext (by omega)
  exact hne (by rw [e1, e2, e3, e4])

omit [FloatOps F] in
theorem mainBlocksCover : (Finset.univ : Finset MainBlk).biUnion mainBlkSet = Finset.univ := by
  ext j
  simp only [Finset.mem_biUnion, Finset.mem_univ, true_and, iff_true]
  have h0 : (j 0).val < 50 := (j 0).isLt
  have h1 : (j 1).val < 3 := (j 1).isLt
  have h2 : (j 2).val < 4096 := (j 2).isLt
  refine ⟨(⟨(32 * (j 0).val + (j 2).val / 128) / 50 / 16, by omega⟩, ⟨(32 * (j 0).val + (j 2).val / 128) / 50 % 16, by omega⟩,
    ⟨(j 1).val, h1⟩, ⟨(32 * (j 0).val + (j 2).val / 128) % 50, by omega⟩), ?_⟩
  refine (mainMemOSet _ _ j).mpr ⟨rfl, ?_⟩
  show stp _ _ _ = _
  unfold stp wk
  dsimp only
  omega

omit [FloatOps F] in
/-- The output array whole is the thirty-two tiles' blocks. -/
theorem mainOutBlocks (d : Dev nD) (f : Buf (Elt F) (oLoc d)) :
    (oLoc d ↦{fullShare} f : sProp 𝕄) = bigSep Finset.univ fun c : Fin 2 => bigSep Finset.univ fun i : Fin 16 => tileOut d c i f := by
  have e : (bigSep Finset.univ fun c : Fin 2 => bigSep Finset.univ fun i : Fin 16 => tileOut d c i f : sProp 𝕄)
      = bigSep (Finset.univ : Finset MainBlk) fun x => oLoc d ↦[mainBlkSet x]{fullShare} f := by
    rw [bigSep_univ_prod]
    exact bigSep_congr fun c _ => (bigSep_univ_prod (fun b : Fin 16 × Fin 3 × Fin 50 => (oLoc d ↦[mainBlkSet (c, b)]{fullShare} f : sProp 𝕄))).symm
  rw [e, ← pointsTo_biUnion Finset.univ (ℓ := oLoc d) mainBlkSet mainBlocksDisjoint, mainBlocksCover]

/-! ## The launch element of the ghost state, and what the launch hands over

The barrier cells of BOTH SparseCores' sixteen tiles are rounds cells of the barrier's own rounds algebra: funded at the
launch, their invariants allocated at once from the tiles' free semaphores at zero, and every tile dealt its kit. -/

abbrev LaunchDCI : Type := Dev nD × Fin τ.nSC × Fin τ.nSub
abbrev launchCell (x : LaunchDCI) : GSem nD τ sig := bcell x.1 x.2.1 x.2.2

def launchCells : Finset (GSem nD τ sig) := Finset.univ.image launchCell
/-- Tile `i`'s token in tile `j`'s cell, for every pair of tiles of a SparseCore. -/
def launchToks : Finset (GSem nD τ sig × ℕ × ℕ) :=
  Finset.univ.image fun x : LaunchDCI × Fin (grid0.bound 1) => (bcell x.1.1 x.1.2.1 (x.2.castLE hsub0), 0, x.1.2.2.val)
def launchU₀ : UU := (initOf (K (F := F)).hsCells (K (F := F)).hsToks, (initOf launchCells launchToks, 1))

omit [FloatOps F] in
theorem launchCell_injective : Function.Injective (launchCell : LaunchDCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem launchOwnUSplit (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
/-- Every barrier semaphore at zero, out of the free semaphores the launch hands over. -/
theorem launchSems : ((K (F := F)).freeSems0 : sProp 𝕄) ⊢ bigSep launchCells fun g => semVal g 0 := by
  unfold SparseCore.Cfg.freeSems0 launchCells
  rw [SparseCore.bigSep_image_of_injOn (fun a _ b _ e => launchCell_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem launchInvs : iprop((bigSep launchCells fun g => (semVal g 0 : sProp 𝕄)) ∗ bigSep launchCells fun g => roundState EB (bRd (F := F) m) g 0)
    ⊢ |={Set.univ}=> iprop(∃ κ : GSem nD τ sig → ℕ, bigSep launchCells fun g => cellInv EB (bRd (F := F) m) (κ g) g) := by
  refine (Rounds.bodies_intro EB (bRd (F := F) m) launchCells).trans ((inv_alloc_family launchCells (Rounds.body EB (bRd (F := F) m)) ∅ (E := Set.univ)).trans ?_)
  iintro H
  imod H with ⟨%κ, -, Hinv⟩
  imodintro; iexists κ; iexact Hinv

omit [FloatOps F] in
theorem launchSumTally (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, launchSumTally g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem launchCreds : ((P (F := F) m).oxCred : sProp 𝕄)
    ⊢ bigSep Finset.univ fun dci : LaunchDCI => cred (tallyAt (launchCell dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : LaunchDCI => (cred (tallyAt (launchCell dci) (some 0) (grid0.bound 1)) : sProp 𝕄))]
  refine bigSep_mono fun d _ => ?_
  rw [bigSep_univ_prod, bigSep_univ_prod (fun ci : Fin τ.nSC × Fin τ.nSub => (cred (tallyAt (launchCell (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, launchSumTally]; rfl

omit [FloatOps F] in
/-- A persistent resource beside a big separating conjunction goes to each conjunct. -/
theorem launchMonoFrame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem launchToksEq : (bigSep launchToks fun x => (dutyTok EB x.1 x.2.1 x.2.2 : sProp 𝕄))
    = bigSep Finset.univ fun dci : LaunchDCI => bigSep Finset.univ fun j : Fin (grid0.bound 1) => dutyTok EB (bcell dci.1 dci.2.1 (j.castLE hsub0)) 0 dci.2.2.val := by
  unfold launchToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem launchPxT (d : Dev nD) : (bigSep Finset.univ fun q : Fin 1 => (P (F := F) m).x q (SparseCore.T d)) = iprop(emp) :=
  bigSep_univ_of_subsingleton (0 : Fin 1)
theorem launchPxS (d : Dev nD) (c : Fin τ.nSC) : (bigSep Finset.univ fun q : Fin 1 => (P (F := F) m).x q (S d c)) = iprop(emp) :=
  bigSep_univ_of_subsingleton (0 : Fin 1)
theorem launchPxV (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem launchEmp {I : Type} (s : Finset I) : (bigSep s fun _ => iprop(emp)) = (iprop(emp) : sProp 𝕄) := bigSep_emp_const s

omit [FloatOps F] in
theorem launchCellsEq (Φ : GSem nD τ sig → sProp 𝕄) : bigSep launchCells Φ = bigSep Finset.univ fun x : LaunchDCI => Φ (launchCell x) := by
  unfold launchCells; exact SparseCore.bigSep_image_of_injOn (fun a _ b _ e => launchCell_injective e) Φ

/-- What every tile is handed alike: every barrier cell's invariant, and that each has reached round 0. -/
abbrev launchShared : sProp 𝕄 :=
  iprop((∃ κ : GSem nD τ sig → ℕ, bigSep Finset.univ fun x : LaunchDCI => cellInv EB (bRd (F := F) m) (κ (launchCell x)) (launchCell x))
    ∗ bigSep Finset.univ fun x : LaunchDCI => reached EB (launchCell x) 0)
/-- What each tile is handed of its own: its position, its tokens, its credit. -/
abbrev launchMine (dci : LaunchDCI) : sProp 𝕄 :=
  iprop(atPos EB (launchCell dci) 0 ∅ 0
    ∗ (bigSep Finset.univ fun j : Fin (grid0.bound 1) => dutyTok EB (bcell dci.1 dci.2.1 (j.castLE hsub0)) 0 dci.2.2.val)
    ∗ cred (tallyAt (launchCell dci) (some 0) (grid0.bound 1)))

/-- One tile's kit out of those. -/
theorem launchKitIntro (dci : LaunchDCI) : iprop(launchShared (F := F) m ∗ launchMine dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (launchMonoFrame (s := (Finset.univ : Finset (Fin (grid0.bound 1)))) (Φ := fun _ => iprop(emp))
      (R := bigSep Finset.univ fun x : LaunchDCI => cellInv EB (bRd (F := F) m) (κ (launchCell x)) (launchCell x)) fun j _ =>
        sep_elim_left.trans (bigSep_elim (Φ := fun x : LaunchDCI => (cellInv EB (bRd (F := F) m) (κ (launchCell x)) (launchCell x) : sProp 𝕄))
          (i := (d, c, Fin.castLE hsub0 j)) (Finset.mem_univ _))))
    isplitl; · iexact Hinv
    rw [launchEmp]; iempintro
  isplitl [Htok]; · iexact Htok
  isplitr
  · iapply (SparseCore.ent (launchMonoFrame (s := (Finset.univ : Finset (Fin (grid0.bound 1)))) (Φ := fun _ => iprop(emp))
      (R := bigSep Finset.univ fun x : LaunchDCI => reached EB (launchCell x) 0) fun j _ =>
        sep_elim_left.trans (bigSep_elim (Φ := fun x : LaunchDCI => (reached EB (launchCell x) 0 : sProp 𝕄))
          (i := (d, c, Fin.castLE hsub0 j)) (Finset.mem_univ _))))
    isplitl; · iexact Hr
    rw [launchEmp]; iempintro
  isplitl [Hat]; · iexact Hat
  iexact Hcred

/-- Each tile its kit. -/
theorem launchKitsDeal :
    iprop(launchShared (F := F) m ∗ (bigSep Finset.univ fun x : LaunchDCI => atPos EB (launchCell x) 0 ∅ 0)
        ∗ (bigSep Finset.univ fun dci : LaunchDCI => bigSep Finset.univ fun j : Fin (grid0.bound 1) => dutyTok EB (bcell dci.1 dci.2.1 (j.castLE hsub0)) 0 dci.2.2.val)
        ∗ (bigSep Finset.univ fun dci : LaunchDCI => cred (tallyAt (launchCell dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [launchPxT, launchPxS, launchPxV, launchEmp]
  iintro ⟨#Hsh, Hat, Htok, Hcred⟩
  isplitr; · iempintro
  isplitr; · iempintro
  iapply (launchMonoFrame (R := launchShared (F := F) m) (Φ := launchMine (F := F)) fun dci _ => launchKitIntro (F := F) m dci)
  isplitr; · iexact Hsh
  unfold launchMine
  rw [bigSep_sep', bigSep_sep']
  isplitl [Hat]; · iexact Hat
  isplitl [Htok]; · iexact Htok
  iexact Hcred

theorem hu₀ : iprop(ownU (launchU₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold launchU₀
  iintro ⟨Hu, Hcred, Hfree⟩
  ihave H := (launchOwnUSplit _ _) $$ Hu
  icases H with ⟨HH, HB⟩
  imod (Rounds.fund EB (bRd (F := F) m) launchCells launchToks) $$ HB with ⟨Hst, #Hr, Hat, Htok⟩
  ihave Hsems := (launchSems (F := F)) $$ Hfree
  imod (launchInvs (F := F) m) $$ [Hsems Hst] with ⟨%κ, #Hinv⟩
  · isplitl [Hsems] <;> iassumption
  ihave Hcred' := (launchCreds m) $$ Hcred
  ihave Hinv' := (Entails.of_eq (launchCellsEq (F := F) fun g => cellInv EB (bRd (F := F) m) (κ g) g)) $$ Hinv
  ihave Hr' := (Entails.of_eq (launchCellsEq (F := F) fun g => reached EB g 0)) $$ Hr
  ihave Hat' := (Entails.of_eq (launchCellsEq (F := F) fun g => atPos EB g 0 ∅ 0)) $$ Hat
  ihave Htok' := (Entails.of_eq (launchToksEq (F := F))) $$ Htok
  imodintro
  isplitl [HH]; · iexact HH
  isplitr; · rw [launchEmp]; iempintro
  iapply (launchKitsDeal m)
  isplitr
  · isplitl; · iexists κ; iexact Hinv'
    iexact Hr'
  isplitl [Hat']; · iexact Hat'
  isplitl [Htok']; · iexact Htok'
  iexact Hcred'

/-! ## @main on the TensorCore

The index words are transposed to `[3, 50, 4096]`; each HBM array the kernel reads goes out as one read share per
SparseCore, the TensorCore keeping the remainder, and the output array as the thirty-two tiles' blocks; the call; the
shares and the blocks, now at the lookup's values, join again; the kernel's `[50, 3, 4096, 128]` output is transposed to
the result `[4096, 50, 3, 128]`. -/

/-- The result: the lookup of the launch index words in the launch tables. -/
def resultR (d : Dev nD) : Buf (Elt F) (rLoc d) :=
  (Cert.Lookup.lookup (F := F) (m (xLoc d) : IVec Cert.Lookup.SX 32) (m (w0Loc d)) (m (w1Loc d)) (m (w2Loc d)) : FVec F S4096x50x3x128 .f32)

abbrev mainX : DevRef τ sig := Proc.devRef .tc (main_arg0 : Ref sig .tc)
abbrev mainI : DevRef τ sig := Proc.devRef .tc (main_v0 : Ref sig .tc)
abbrev mainO : DevRef τ sig := Proc.devRef .tc (main_v1 : Ref sig .tc)
abbrev mainR : DevRef τ sig := Proc.devRef .tc (main_v2 : Ref sig .tc)

/-- The two host operations: the index transpose and the result transpose. -/
abbrev mainOpIn : HloOp τ sig (Elt F) :=
  StableHlo.unary main_arg0 main_v0 ((transpose S3x50x4096 [2, 1, 0] · transposes_S4096x50x3_S3x50x4096_2_1_0) : (⟨S4096x50x3, .i32⟩ : BufTy).Contents (Elt F) → (⟨S3x50x4096, .i32⟩ : BufTy).Contents (Elt F))
abbrev mainOpOut : HloOp τ sig (Elt F) :=
  StableHlo.unary main_v1 main_v2 ((transpose S4096x50x3x128 [2, 0, 1, 3] · transposes_S50x3x4096x128_S4096x50x3x128_2_0_1_3) : (⟨S50x3x4096x128, .f32⟩ : BufTy).Contents (Elt F) → (⟨S4096x50x3x128, .f32⟩ : BufTy).Contents (Elt F))

abbrev mainSIn : Finset (DevRef τ sig) := {mainX, mainI}
abbrev mainSOut : Finset (DevRef τ sig) := {mainO, mainR}

omit [FloatOps F] in
theorem mainHIn : (mainOpIn (F := F)).bufs ⊆ mainSIn := show ({mainX, mainI} : Finset (DevRef τ sig)) ⊆ mainSIn by decide
omit [FloatOps F] in
theorem mainHOut : (mainOpOut (F := F)).bufs ⊆ mainSOut := show ({mainO, mainR} : Finset (DevRef τ sig)) ⊆ mainSOut by decide

omit [FloatOps F] in
theorem mainHeldIn (d : Dev nD) (W : Valuation τ sig (Elt F)) :
    (held (T d) mainSIn W : sProp 𝕄) = iprop((xLoc d ↦{fullShare} W mainX) ∗ (iLoc d ↦{fullShare} W mainI)) := by
  unfold held mainSIn
  rw [SparseCore.bigSep_insert' (by decide), bigSep_singleton]
omit [FloatOps F] in
theorem mainHeldOut (d : Dev nD) (W : Valuation τ sig (Elt F)) :
    (held (T d) mainSOut W : sProp 𝕄) = iprop((oLoc d ↦{fullShare} W mainO) ∗ (rLoc d ↦{fullShare} W mainR)) := by
  unfold held mainSOut
  rw [SparseCore.bigSep_insert' (by decide), bigSep_singleton]

omit [FloatOps F] in
/-- The TensorCore's seven arrays, all unscoped. -/
theorem mainUnscopedEq (d : Dev nD) (W : (b : Ref sig .tc) → Buf (Elt F) ((d.tc : Thread nD τ).loc b)) :
    (unscopedBufs d W : sProp 𝕄)
      = iprop((xLoc d ↦{fullShare} W main_arg0) ∗ (w0Loc d ↦{fullShare} W main_arg1) ∗ (w1Loc d ↦{fullShare} W main_arg2) ∗ (w2Loc d ↦{fullShare} W main_arg3)
          ∗ (iLoc d ↦{fullShare} W main_v0) ∗ (oLoc d ↦{fullShare} W main_v1) ∗ (rLoc d ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation; and, after the call, the kernel's output at the lookup's values. -/
def mainV0 (d : Dev nD) : Valuation τ sig (Elt F) := fun b => m (d, b)
def mainV1 (d : Dev nD) : Valuation τ sig (Elt F) := Function.update (mainV0 m d) mainO (outK m d)

theorem mainV1O (d : Dev nD) : mainV1 m d mainO = outK m d := Function.update_self _ _ _
theorem mainV1R (d : Dev nD) : mainV1 m d mainR = m (rLoc d) := Function.update_of_ne (show mainR ≠ mainO by decide) _ _

/-- The index transpose leaves the index words as they are and their transpose in the kernel's index array. -/
theorem mainInX (d : Dev nD) : (mainOpIn (F := F)).result (mainV0 m d) mainX = m (xLoc d) :=
  (mainOpIn (F := F)).result_of_not_mem (mainV0 m d) (b := mainX) (show mainX ∉ ({mainI} : Finset (DevRef τ sig)) by decide)
theorem mainInI (d : Dev nD) : (mainOpIn (F := F)).result (mainV0 m d) mainI = idxT m d :=
  (StableHlo.unary_result main_arg0 main_v0 _ _ _ (mainV0 m d)).trans rfl

theorem mainHeldInAfter (d : Dev nD) :
    (held (T d) mainSIn ((mainOpIn (F := F)).result (mainV0 m d)) : sProp 𝕄) = iprop((xLoc d ↦{fullShare} m (xLoc d)) ∗ (iLoc d ↦{fullShare} idxT m d)) := by
  rw [mainHeldIn, mainInX, mainInI]

/-- The result transpose leaves the kernel's output as it is; -/
theorem mainOutO (d : Dev nD) : (mainOpOut (F := F)).result (mainV1 m d) mainO = outK m d :=
  ((mainOpOut (F := F)).result_of_not_mem (mainV1 m d) (b := mainO) (show mainO ∉ ({mainR} : Finset (DevRef τ sig)) by decide)).trans (mainV1O m d)

/-- and the result is the lookup: entry (b, t, l, e) of the transpose is entry (t, l, b, e) of the kernel's output, which
    is entry e of row x(b, t, l) of table l. -/
theorem mainOutR (d : Dev nD) : (mainOpOut (F := F)).result (mainV1 m d) mainR = resultR m d := by
  refine (StableHlo.unary_result main_v1 main_v2 _ _ _ (mainV1 m d)).trans ?_
  show transpose (s := S50x3x4096x128) S4096x50x3x128 [2, 0, 1, 3] (mainV1 m d mainO) transposes_S50x3x4096x128_S4096x50x3x128_2_0_1_3 = resultR m d
  rw [mainV1O]
  funext j
  refine (transpose_apply (s := S50x3x4096x128) _ _ _ j (ix4 (j 1) (j 2) (j 0) (j 3))
    (fun b => match b with | ⟨0, _⟩ => rfl | ⟨1, _⟩ => rfl | ⟨2, _⟩ => rfl | ⟨3, _⟩ => rfl)).trans ?_
  show Cert.Lookup.lookup (F := F) _ _ _ _ (ix4 (j 0) (j 1) (j 2) (j 3)) = Cert.Lookup.lookup (F := F) _ _ _ _ j
  exact congrArg (Cert.Lookup.lookup (F := F) (m (xLoc d) : IVec Cert.Lookup.SX 32) (m (w0Loc d)) (m (w1Loc d)) (m (w2Loc d))) (eq_ix4 j).symm

theorem mainHeldOutAfter (d : Dev nD) :
    (held (T d) mainSOut ((mainOpOut (F := F)).result (mainV1 m d)) : sProp 𝕄) = iprop((oLoc d ↦{fullShare} outK m d) ∗ (rLoc d ↦{fullShare} resultR m d)) := by
  rw [mainHeldOut, mainOutO, mainOutR]

omit [FloatOps F] in
theorem mainCores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes for the two SparseCores, and what it hands back. -/
theorem mainSt0 (d : Dev nD) :
    (bigSep Finset.univ fun c : Fin ((K (F := F)).nCore 0) => (P m).st 0 d c)
      = iprop(((bigSep Finset.univ fun c : Fin 2 => w0Loc d ↦{qC c.val} m (w0Loc d)) ∗ (bigSep Finset.univ fun c : Fin 2 => w1Loc d ↦{qC c.val} m (w1Loc d))
            ∗ (bigSep Finset.univ fun c : Fin 2 => w2Loc d ↦{qC c.val} m (w2Loc d)))
          ∗ (bigSep Finset.univ fun c : Fin 2 => iLoc d ↦{qC c.val} idxT m d)
          ∗ bigSep Finset.univ fun c : Fin 2 => bigSep Finset.univ fun i : Fin 16 => tileOut d c i (m (oLoc d))) := by
  rw [show (bigSep Finset.univ fun c : Fin ((K (F := F)).nCore 0) => (P m).st 0 d c)
      = bigSep Finset.univ fun c : Fin 2 => iprop(((w0Loc d ↦{qC c.val} m (w0Loc d)) ∗ (w1Loc d ↦{qC c.val} m (w1Loc d)) ∗ (w2Loc d ↦{qC c.val} m (w2Loc d)))
          ∗ (iLoc d ↦{qC c.val} idxT m d) ∗ bigSep Finset.univ fun i : Fin 16 => tileOut d c i (m (oLoc d))) from
      mainCores (F := F) (fun c : Fin 2 => iprop(((w0Loc d ↦{qC c.val} m (w0Loc d)) ∗ (w1Loc d ↦{qC c.val} m (w1Loc d)) ∗ (w2Loc d ↦{qC c.val} m (w2Loc d)))
          ∗ (iLoc d ↦{qC c.val} idxT m d) ∗ bigSep Finset.univ fun i : Fin 16 => tileOut d c i (m (oLoc d)))),
    bigSep_sep', bigSep_sep', bigSep_sep', bigSep_sep']
theorem mainDn0 (d : Dev nD) :
    (bigSep Finset.univ fun c : Fin ((K (F := F)).nCore 0) => (P m).dn 0 d c)
      = iprop(((bigSep Finset.univ fun c : Fin 2 => w0Loc d ↦{qC c.val} m (w0Loc d)) ∗ (bigSep Finset.univ fun c : Fin 2 => w1Loc d ↦{qC c.val} m (w1Loc d))
            ∗ (bigSep Finset.univ fun c : Fin 2 => w2Loc d ↦{qC c.val} m (w2Loc d)))
          ∗ (bigSep Finset.univ fun c : Fin 2 => iLoc d ↦{qC c.val} idxT m d)
          ∗ bigSep Finset.univ fun c : Fin 2 => bigSep Finset.univ fun i : Fin 16 => tileOut d c i (outK m d)) := by
  rw [show (bigSep Finset.univ fun c : Fin ((K (F := F)).nCore 0) => (P m).dn 0 d c)
      = bigSep Finset.univ fun c : Fin 2 => iprop(((w0Loc d ↦{qC c.val} m (w0Loc d)) ∗ (w1Loc d ↦{qC c.val} m (w1Loc d)) ∗ (w2Loc d ↦{qC c.val} m (w2Loc d)))
          ∗ (iLoc d ↦{qC c.val} idxT m d) ∗ bigSep Finset.univ fun i : Fin 16 => tileOut d c i (outK m d)) from
      mainCores (F := F) (fun c : Fin 2 => iprop(((w0Loc d ↦{qC c.val} m (w0Loc d)) ∗ (w1Loc d ↦{qC c.val} m (w1Loc d)) ∗ (w2Loc d ↦{qC c.val} m (w2Loc d)))
          ∗ (iLoc d ↦{qC c.val} idxT m d) ∗ bigSep Finset.univ fun i : Fin 16 => tileOut d c i (outK m d))),
    bigSep_sep', bigSep_sep', bigSep_sep', bigSep_sep']

/-- What @main leaves the claim: the result at the lookup, the four arguments at their launch contents. -/
abbrev mainFIN (d : Dev nD) : sProp 𝕄 :=
  iprop((rLoc d ↦{fullShare} resultR m d) ∗ (xLoc d ↦{fullShare} m (xLoc d)) ∗ (w0Loc d ↦{fullShare} m (w0Loc d))
    ∗ (w1Loc d ↦{fullShare} m (w1Loc d)) ∗ (w2Loc d ↦{fullShare} m (w2Loc d)))

/-- @main on device `d`'s TensorCore: see the section's heading. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ mainFIN m d) := by
  unfold SparseCore.Cfg.tcRes
  rw [mainUnscopedEq]
  simp only [main, wp_bind, wp_pure]
  iintro ⟨#Hctx, Hst, ⟨Hb, ⟨Hx, Hw0, Hw1, Hw2, Hi, Ho, Hr⟩, -, -⟩, -⟩
  -- the index transpose
  iapply (wp_hlo_within 𝒱 (SparseCore.T d) none Set.univ (op := mainOpIn) (S := mainSIn) mainHIn (V := mainV0 m d)) $$ [Hb Hx Hi]
  · isplitl [Hb]; · iexact Hb
    rw [mainHeldIn]
    isplitl [Hx]; · iexact Hx
    iexact Hi
  iintro ⟨Hb, Hheld⟩
  rw [wp_ret]; imodintro
  ihave Hh := (Entails.of_eq (mainHeldInAfter (F := F) m d)) $$ Hheld
  icases Hh with ⟨Hx, Hi⟩
  -- a read share of each HBM array per SparseCore; the output array in blocks
  ihave H0 := (Entails.of_eq (splitShares (ℓ := w0Loc d) (m (w0Loc d)) fullShare 2)) $$ Hw0
  icases H0 with ⟨Hw0r, Hw0t⟩
  ihave H1 := (Entails.of_eq (splitShares (ℓ := w1Loc d) (m (w1Loc d)) fullShare 2)) $$ Hw1
  icases H1 with ⟨Hw1r, Hw1t⟩
  ihave H2 := (Entails.of_eq (splitShares (ℓ := w2Loc d) (m (w2Loc d)) fullShare 2)) $$ Hw2
  icases H2 with ⟨Hw2r, Hw2t⟩
  ihave H3 := (Entails.of_eq (splitShares (ℓ := iLoc d) (idxT m d) fullShare 2)) $$ Hi
  icases H3 with ⟨Hir, Hit⟩
  ihave Ho' := (Entails.of_eq (mainOutBlocks (F := F) d (m (oLoc d)))) $$ Ho
  -- the call
  iapply ((K (F := F)).wp_run (D (F := F)) 𝒱 (EH := EH) (P := P m) κ d 0) $$ [Hst Hw0t Hw1t Hw2t Hit Ho' Hb Hx Hr Hw0r Hw1r Hw2r Hir]
  isplitr; · iexact Hctx
  isplitl [Hst]; · iexact Hst
  isplitl [Hw0t Hw1t Hw2t Hit Ho']
  · rw [mainSt0]
    isplitl [Hw0t Hw1t Hw2t]
    · isplitl [Hw0t]; · iexact Hw0t
      isplitl [Hw1t]; · iexact Hw1t
      iexact Hw2t
    isplitl [Hit]; · iexact Hit
    iexact Ho'
  iintro ⟨Hst, Hdn⟩
  ihave Hdn' := (Entails.of_eq (mainDn0 m d)) $$ Hdn
  icases Hdn' with ⟨⟨Hw0t, Hw1t, Hw2t⟩, Hit, Ho'⟩
  -- the shares and the blocks join again
  ihave Hw0 := (Entails.of_eq (splitShares (ℓ := w0Loc d) (m (w0Loc d)) fullShare 2).symm) $$ [Hw0r Hw0t]
  · isplitl [Hw0r]; · iexact Hw0r
    iexact Hw0t
  ihave Hw1 := (Entails.of_eq (splitShares (ℓ := w1Loc d) (m (w1Loc d)) fullShare 2).symm) $$ [Hw1r Hw1t]
  · isplitl [Hw1r]; · iexact Hw1r
    iexact Hw1t
  ihave Hw2 := (Entails.of_eq (splitShares (ℓ := w2Loc d) (m (w2Loc d)) fullShare 2).symm) $$ [Hw2r Hw2t]
  · isplitl [Hw2r]; · iexact Hw2r
    iexact Hw2t
  ihave Ho := (Entails.of_eq (mainOutBlocks (F := F) d (outK m d)).symm) $$ Ho'
  -- the result transpose
  iapply (wp_hlo_within 𝒱 (SparseCore.T d) none Set.univ (op := mainOpOut) (S := mainSOut) mainHOut (V := mainV1 m d)) $$ [Hb Ho Hr]
  · isplitl [Hb]; · iexact Hb
    rw [mainHeldOut, mainV1O, mainV1R]
    isplitl [Ho]; · iexact Ho
    iexact Hr
  iintro ⟨Hb, Hheld⟩
  ihave Hh := (Entails.of_eq (mainHeldOutAfter (F := F) m d)) $$ Hheld
  icases Hh with ⟨Ho, Hr⟩
  rw [wp_ret]; imodintro; imodintro
  isplitl [Hst]; · iexact Hst
  isplitl [Hr]; · iexact Hr
  isplitl [Hx]; · iexact Hx
  isplitl [Hw0]; · iexact Hw0
  isplitl [Hw1]; · iexact Hw1
  iexact Hw2

/-! ## How the final memory reads the claim -/

def mainFq (d : Dev nD) (s' : Phys nD τ sig (Elt F)) : Prop :=
  s'.mem.mem (rLoc d) = resultR m d ∧ s'.mem.mem (xLoc d) = m (xLoc d) ∧ s'.mem.mem (w0Loc d) = m (w0Loc d)
    ∧ s'.mem.mem (w1Loc d) = m (w1Loc d) ∧ s'.mem.mem (w2Loc d) = m (w2Loc d)

theorem hfin (d : Dev nD) (s' : Phys nD τ sig (Elt F)) : iprop(mainFIN m d ∗ SI s') ⊢ (⌜mainFq m d s'⌝ : sProp 𝕄) := by
  iintro ⟨⟨Hr, Hx, Hw0, Hw1, Hw2⟩, HSI⟩
  ihave H := (persistent_entails_right (SI_pointsTo_agree (st := s') (ℓ := rLoc d) (I := Finset.univ) (q := fullShare) (f := resultR m d))) $$ [HSI Hr]
  · isplitl [HSI] <;> iassumption
  icases H with ⟨%h0, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := w0Loc d) (I := Finset.univ) (q := fullShare) (f := m (w0Loc d)))) $$ [HSI Hw0]
  · isplitl [HSI] <;> iassumption
  icases H with ⟨%h2, HSI, -⟩
  ihave H := (persistent_entails_right (SI_pointsTo_agree (st := s') (ℓ := w1Loc d) (I := Finset.univ) (q := fullShare) (f := m (w1Loc d)))) $$ [HSI Hw1]
  · isplitl [HSI] <;> iassumption
  icases H with ⟨%h3, HSI, -⟩
  ihave H := (SI_pointsTo_agree (st := s') (ℓ := w2Loc d) (I := Finset.univ) (q := fullShare) (f := m (w2Loc d))) $$ [HSI Hw2]
  · isplitl [HSI] <;> iassumption
  icases H with %h4
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i)⟩

/-! ## The program's run and the claim -/

/-- On every device the result holds the lookup and the four arguments are unchanged. -/
def QC : PUnit × MemSt nD τ sig (Elt F) → Prop := fun r => ∀ c : Dev nD,
  r.2.mem (rLoc c) = resultR m c ∧ r.2.mem (xLoc c) = m (xLoc c) ∧ r.2.mem (w0Loc c) = m (w0Loc c) ∧ r.2.mem (w1Loc c) = m (w1Loc c) ∧ r.2.mem (w2Loc c) = m (w2Loc c)

/-- The program's run, given one tile's task. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (fun _ => iprop(emp)) (mainFIN m) (launchU₀ (F := F)) (hu₀ m) (hmain m ρ) (mainFq m) (hfin m) (QC m) (fun _ h => h)

end Cert.Proof.KI

end
-- ==== Proof.KR34.lean ====
/-
  The words the kernel's opening computes for the three pipelined loops: the tile's grid coordinates, its first step
  50·(i + 16·c) of the 1600, and the quotient and sign words the first loop's block arithmetic starts from.
-/
import proofs.«206595_g34437047779621_cont_8to1_b_428_16_alg».proof.Proof.KPay

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

/-- The tuple the opening part of the body returns. -/
def r34 (L : grid0.Coords) : Σ' (_ : BitVec 32) (_ : BitVec 32) (_ : BitVec 32) (_ : BitVec 32) (_ : BitVec 32) (_ : BitVec 32), BitVec 32 :=
  let v7 : BitVec 32 := Scalar.muli (Scalar.addi (Scalar.addi (0#32) (Scalar.muli (BitVec.ofNat 32 (L 1).val) 1#32)) (Scalar.muli (BitVec.ofNat 32 (L 0).val) 16#32)) 50#32
  let v20 : BitVec 32 := Scalar.addi (0#32) v7
  ⟨BitVec.ofNat 32 (L 0).val, BitVec.ofNat 32 (L 1).val, v7, v20, 32#32, Scalar.divsi v20 32#32,
    Scalar.subi (Scalar.extui (Scalar.cmpi .sgt v20 0#32)) (Scalar.extui (Scalar.cmpi .slt v20 0#32))⟩

abbrev cV (L : grid0.Coords) : Fin τ.nSC := (L 0).castLE hcore0
abbrev jV (L : grid0.Coords) : Fin τ.nSub := (L 1).castLE hsub0

end Cert.Proof.K

end
-- ==== Proof.KHead.lean ====
/-
  The opening of a tile's task.  Tile 0 of a SparseCore copies the three HBM tables into the SparseCore's shared tables,
  each copy on its own semaphore and waited for before the next; then all sixteen tiles meet at the subcore barrier.
  Tile 0 arrives holding the three shared tables whole at the HBM tables' contents and hands each tile its read share
  through that tile's barrier round; every tile leaves the barrier with its own read share of the three tables (tile 0
  also keeps what remains beside the sixteen shares).  The arithmetic after the barrier only computes the tile's first
  step of the 1600.
-/
import proofs.«206595_g34437047779621_cont_8to1_b_428_16_alg».proof.Proof.KR34

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

/-! ## What the barrier's duties hand over -/

/-- The three tables whole are the sixteen tiles' read shares and a remainder. -/
theorem tabs_split (c : Fin τ.nSC) :
    tabs m d c fullShare ⊢ (iprop(tabs m d c (shareDrop fullShare 16) ∗ bigSep Finset.univ fun j : Fin 16 => tabs m d c (shareTokN fullShare j.val)) : sProp 𝕄) := by
  unfold tabs
  iintro ⟨H0, H1, H2⟩
  ihave H0' := (Transfers.pointsTo_toks_split fullShare 16) $$ H0
  ihave H1' := (Transfers.pointsTo_toks_split fullShare 16) $$ H1
  ihave H2' := (Transfers.pointsTo_toks_split fullShare 16) $$ H2
  icases H0' with ⟨R0, T0⟩
  icases H1' with ⟨R1, T1⟩
  icases H2' with ⟨R2, T2⟩
  isplitl [R0 R1 R2]
  · isplitl [R0]; · iexact R0
    isplitl [R1]; · iexact R1
    iexact R2
  rw [bigSep_sep', bigSep_sep']
  isplitl [T0]; · iexact T0
  isplitl [T1]; · iexact T1
  iexact T2

/-- Tile 0's duties: tile `j`'s round gets tile `j`'s read share. -/
theorem pays_zero (c : Fin τ.nSC) (n : ℕ) (hn : n = 0) :
    (bigSep Finset.univ fun j : Fin 16 => tabs m d c (shareTokN fullShare j.val))
      ⊢ (bigSep Finset.univ fun j : Fin (grid0.bound 1) => (bRd (F := F) m).payload (bcell d c (j.castLE hsub0)) 0 n : sProp 𝕄) := by
  subst hn; exact BI.Entails.refl _

theorem bigSep_emp' {I : Type} (s : Finset I) : (bigSep s fun _ => iprop(emp)) = (iprop(emp) : sProp 𝕄) := bigSep_emp_const s

/-- Another tile's duties hand over nothing. -/
theorem pays_other (c : Fin τ.nSC) (n : ℕ) (hn : n ≠ 0) :
    (iprop(emp) : sProp 𝕄) ⊢ bigSep Finset.univ fun j : Fin (grid0.bound 1) => (bRd (F := F) m).payload (bcell d c (j.castLE hsub0)) 0 n := by
  rw [show (bigSep Finset.univ fun j : Fin (grid0.bound 1) => (bRd (F := F) m).payload (bcell d c (j.castLE hsub0)) 0 n)
      = bigSep Finset.univ fun _ : Fin (grid0.bound 1) => (iprop(emp) : sProp 𝕄) from bigSep_congr fun j _ => if_neg hn, bigSep_emp']

/-- What a tile's own round collected holds its read share of the three tables: tile 0's duty brought it. -/
theorem pays_elim (c : Fin τ.nSC) (j : Fin τ.nSub) :
    (bigSep ((bRd (F := F) m).duties (bcell d c j) 0 \ ∅) fun n => (bRd (F := F) m).payload (bcell d c j) 0 n)
      ⊢ (tabs m d c (shareTokN fullShare j.val) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d c j) 0 ⊢ _
  unfold bPay; dsimp only
  rw [if_pos rfl]

/-! ## The arrays as a tile's memrefs address them -/

omit [FloatOps F] in
theorem pts_w0 (c : Fin τ.nSC) (i : Fin τ.nSub) (q : PosShare TreeShare) (f : Buf (Elt F) (w0Loc d)) :
    ((Memref.whole main_arg1_scv).view.loc (V d c i) ↦{q} f : sProp 𝕄) = w0Loc d ↦{q} f := by
  simp only [Memref.view_whole, View.set_whole]
omit [FloatOps F] in
theorem pts_w1 (c : Fin τ.nSC) (i : Fin τ.nSub) (q : PosShare TreeShare) (f : Buf (Elt F) (w1Loc d)) :
    ((Memref.whole main_arg2_scv).view.loc (V d c i) ↦{q} f : sProp 𝕄) = w1Loc d ↦{q} f := by
  simp only [Memref.view_whole, View.set_whole]
omit [FloatOps F] in
theorem pts_w2 (c : Fin τ.nSC) (i : Fin τ.nSub) (q : PosShare TreeShare) (f : Buf (Elt F) (w2Loc d)) :
    ((Memref.whole main_arg3_scv).view.loc (V d c i) ↦{q} f : sProp 𝕄) = w2Loc d ↦{q} f := by
  simp only [Memref.view_whole, View.set_whole]
omit [FloatOps F] in
theorem pts_sh0 (c : Fin τ.nSC) (i : Fin τ.nSub) (q : PosShare TreeShare) (f : Buf (Elt F) (sh0Loc d c)) :
    ((Memref.whole cc0_scratch0).view.loc (V d c i) ↦{q} f : sProp 𝕄) = sh0Loc d c ↦{q} f := rfl
omit [FloatOps F] in
theorem pts_sh1 (c : Fin τ.nSC) (i : Fin τ.nSub) (q : PosShare TreeShare) (f : Buf (Elt F) (sh1Loc d c)) :
    ((Memref.whole cc0_scratch1).view.loc (V d c i) ↦{q} f : sProp 𝕄) = sh1Loc d c ↦{q} f := rfl
omit [FloatOps F] in
theorem pts_sh2 (c : Fin τ.nSC) (i : Fin τ.nSub) (q : PosShare TreeShare) (f : Buf (Elt F) (sh2Loc d c)) :
    ((Memref.whole cc0_scratch2).view.loc (V d c i) ↦{q} f : sProp 𝕄) = sh2Loc d c ↦{q} f := rfl

/-! ## The opening -/

set_option maxHeartbeats 8000000 in
/-- The opening part of the task on tile `(L 0, L 1)`: tile 0's three copies, each waited for before the next; the barrier,
    at which tile 0 hands every tile its share and every tile receives its own; the step arithmetic. -/
theorem head_run (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (qh : PosShare TreeShare) :
    iprop(levAts (K (F := F)).L (K (F := F)).lev ∗ bkit m d (cV L) (jV L)
        ∗ (if (L 1).val = 0 then iprop(hbmTabs m d qh ∗ shAny d (cV L)) else iprop(emp))
        ∗ semVal (V d (cV L) (jV L), SemLoc.dma cc0_scoped0.sem) 0
        ∗ semVal (V d (cV L) (jV L), SemLoc.dma cc0_scoped1.sem) 0
        ∗ semVal (V d (cV L) (jV L), SemLoc.dma cc0_scoped2.sem) 0
        ∗ owes (V d (cV L) (jV L)) (O + oxV d (cV L)) W)
      ⊢ wp frame (wpE (defs₀ (F := F)) 𝒱₀ (V d (cV L) (jV L)) none) Set.univ
          (k0_part34 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17)
          fun r => iprop(⌜r = r34 L⌝ ∗ tabs m d (cV L) (shareTokN fullShare (jV L).val)
            ∗ (if (L 1).val = 0 then iprop(hbmTabs m d qh ∗ tabs m d (cV L) (shareDrop fullShare 16)) else iprop(emp))
            ∗ semVal (V d (cV L) (jV L), SemLoc.dma cc0_scoped0.sem) 0
            ∗ semVal (V d (cV L) (jV L), SemLoc.dma cc0_scoped1.sem) 0
            ∗ semVal (V d (cV L) (jV L), SemLoc.dma cc0_scoped2.sem) 0
            ∗ ∃ W', ⌜∀ p ∈ W', p ∈ W ∨ p.2 = none ∨ p.2 = some (0 : Fin 1)⌝ ∗ owes (V d (cV L) (jV L)) O W') := by
  unfold bkit
  have hO' : ∀ g, (O + oxV d (cV L)) g none = 0 := fun g => by rw [Pi.add_apply, Finsupp.add_apply, hO g, oxV_none]
  by_cases h0 : (L 1).val = 0
  · have hv2 : Scalar.cmpi .ne (Scalar.extui (Scalar.cmpi .eq (BitVec.ofNat 32 (L 1).val) 0#32)) 0#32 = 1#1 := by rw [h0]; decide
    rw [if_pos h0, if_pos h0]
    iintro ⟨#Hlv, ⟨⟨%κ, #Hinv⟩, Htoks, #Hrch, Hat, Hcred⟩, ⟨⟨Hw0, Hw1, Hw2⟩, ⟨%f0, Hs0⟩, ⟨%f1, Hs1⟩, ⟨%f2, Hs2⟩⟩, Hm0, Hm1, Hm2, HO⟩
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    ihave Hw0 := (Entails.of_eq (pts_w0 (F := F) d (cV L) (jV L) qh _).symm) $$ Hw0
    ihave Hw1 := (Entails.of_eq (pts_w1 (F := F) d (cV L) (jV L) qh _).symm) $$ Hw1
    ihave Hw2 := (Entails.of_eq (pts_w2 (F := F) d (cV L) (jV L) qh _).symm) $$ Hw2
    ihave Hs0 := (Entails.of_eq (pts_sh0 (F := F) d (cV L) (jV L) fullShare _).symm) $$ Hs0
    ihave Hs1 := (Entails.of_eq (pts_sh1 (F := F) d (cV L) (jV L) fullShare _).symm) $$ Hs1
    ihave Hs2 := (Entails.of_eq (pts_sh2 (F := F) d (cV L) (jV L) fullShare _).symm) $$ Hs2
    sl_unfold [k0_part34]
    sl_exec
    have e0 : View.write (Elt F) (Memref.whole cc0_scratch0).view f0 (head_run.sl.dma0 m d) Finset.univ = (m (w0Loc d) : Buf (Elt F) (sh0Loc d (cV L))) := by
      unfold head_run.sl.dma0; rw [ReadAs.apply_same]; exact View.write_whole_univ cc0_scratch0 f0 _
    have e1 : View.write (Elt F) (Memref.whole cc0_scratch1).view f1 (head_run.sl.dma0_1 m d) Finset.univ = (m (w1Loc d) : Buf (Elt F) (sh1Loc d (cV L))) := by
      unfold head_run.sl.dma0_1; rw [ReadAs.apply_same]; exact View.write_whole_univ cc0_scratch1 f1 _
    have e2 : View.write (Elt F) (Memref.whole cc0_scratch2).view f2 (head_run.sl.dma0_2 m d) Finset.univ = (m (w2Loc d) : Buf (Elt F) (sh2Loc d (cV L))) := by
      unfold head_run.sl.dma0_2; rw [ReadAs.apply_same]; exact View.write_whole_univ cc0_scratch2 f2 _
    rw [e0, e1, e2]
    ihave Hs0 := (Entails.of_eq (pts_sh0 (F := F) d (cV L) (jV L) fullShare _)) $$ Hs0
    ihave Hs1 := (Entails.of_eq (pts_sh1 (F := F) d (cV L) (jV L) fullShare _)) $$ Hs1
    ihave Hs2 := (Entails.of_eq (pts_sh2 (F := F) d (cV L) (jV L) fullShare _)) $$ Hs2
    ihave Hsp := (tabs_split (F := F) m d (cV L)) $$ [Hs0 Hs1 Hs2]
    · unfold tabs
      isplitl [Hs0]; · iexact Hs0
      isplitl [Hs1]; · iexact Hs1
      iexact Hs2
    icases Hsp with ⟨Hrem, Hshares⟩
    ihave Hpays := (pays_zero (F := F) m d (cV L) (jV L).val h0) $$ Hshares
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hmine := (pays_elim (F := F) m d (cV L) (jV L)) $$ Hgot
    sl_exec
    sl_step
    isplitr; · ipureintro; rfl
    isplitl [Hmine]; · iexact Hmine
    isplitl [Hw0 Hw1 Hw2 Hrem]
    · isplitl [Hw0 Hw1 Hw2]
      · isplitl [Hw0]; · iapply (Entails.of_eq (pts_w0 (F := F) d (cV L) (jV L) qh _)); iexact Hw0
        isplitl [Hw1]; · iapply (Entails.of_eq (pts_w1 (F := F) d (cV L) (jV L) qh _)); iexact Hw1
        iapply (Entails.of_eq (pts_w2 (F := F) d (cV L) (jV L) qh _)); iexact Hw2
      iexact Hrem
    isplitl [Hm0]; · iexact Hm0
    isplitl [Hm1]; · iexact Hm1
    isplitl [Hm2]; · iexact Hm2
    iexists _; isplitr
    swap; · iexact HO
    ipureintro; intro p hp
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact .inl hp
  · have hv2 : ¬ (Scalar.cmpi .ne (Scalar.extui (Scalar.cmpi .eq (BitVec.ofNat 32 (L 1).val) 0#32)) 0#32 = 1#1) :=
      (show ∀ j : Fin (grid0.bound 1), j.val ≠ 0 → ¬ (Scalar.cmpi .ne (Scalar.extui (Scalar.cmpi .eq (BitVec.ofNat 32 j.val) 0#32)) 0#32 = 1#1) from by decide) (L 1) h0
    rw [if_neg h0, if_neg h0]
    iintro ⟨#Hlv, ⟨⟨%κ, #Hinv⟩, Htoks, #Hrch, Hat, Hcred⟩, -, Hm0, Hm1, Hm2, HO⟩
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    sl_unfold [k0_part34]
    sl_exec
    ihave Hpays := (pays_other (F := F) m d (cV L) (jV L).val h0) $$ []
    · iempintro
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hmine := (pays_elim (F := F) m d (cV L) (jV L)) $$ Hgot
    sl_exec
    sl_step
    isplitr; · ipureintro; rfl
    isplitl [Hmine]; · iexact Hmine
    isplitl []; · iempintro
    isplitl [Hm0]; · iexact Hm0
    isplitl [Hm1]; · iexact Hm1
    isplitl [Hm2]; · iexact Hm2
    iexists _; isplitr
    swap; · iexact HO
    ipureintro; intro p hp
    rcases Finset.mem_insert.mp hp with hp | hp; · exact .inr (.inr (hp ▸ rfl))
    exact .inl hp

end Cert.Proof.K

end
-- ==== Proof.KBody.lean ====
/-
  The task of one tile, whole: the opening (the table copies by tile 0, the barrier) and then the three pipelined loops,
  composed at the tuple the opening returns; and the obligation the launch theorem asks of every tile of the grid.
-/
import proofs.«206595_g34437047779621_cont_8to1_b_428_16_alg».proof.Proof.KHead

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

/-! ## What the rest of the task owes

The body is the opening part followed by the three pipelined loops, a function `tl` of the tuple the opening returns.  The
loops' specification: from the tile's read shares of the index array and of the three shared tables, its scoped storage,
and its 150 output blocks at their launch contents, they end with the blocks at the lookup's values and everything else
back.  This module takes it as a hypothesis; the loops' module proves it. -/

def TailSpec (tl : (L : grid0.Coords) → (Σ' (_ : BitVec 32) (_ : BitVec 32) (_ : BitVec 32) (_ : BitVec 32) (_ : BitVec 32) (_ : BitVec 32), BitVec 32) →
      Prog (TpuEff nD τ sig (Elt F) Λ₀ (.scVector ((L 0).castLE hcore0) ((L 1).castLE hsub0))) PUnit) : Prop :=
  (∀ L : grid0.Coords, cc0_k (F := F) L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 = k0_part34 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 >>= tl L)
  ∧ ∀ (d : Dev nD) (L : grid0.Coords) (O : CellTallies nD τ sig (HIx 1)) (W : Waits sig (HIx 1)), (∀ g, O g none = 0) →
      Cert.Lookup.InRange (m (xLoc d) : IVec Cert.Lookup.SX 32) → ∀ (qi qs : PosShare TreeShare),
    iprop(levAts (K (F := F)).L (K (F := F)).lev ∗ (iLoc d ↦{qi} idxT m d) ∗ tabs m d (cV L) qs
        ∗ scopedBufs (V d (cV L) (jV L)) ∗ scopedSems0 (V d (cV L) (jV L))
        ∗ tileOut d ⟨(L 0).val, (L 0).isLt⟩ ⟨(L 1).val, (L 1).isLt⟩ (m (oLoc d)) ∗ owes (V d (cV L) (jV L)) O W)
      ⊢ wp frame (wpE (defs₀ (F := F)) 𝒱₀ (V d (cV L) (jV L)) none) Set.univ (tl L (r34 L)) fun _ =>
        iprop((iLoc d ↦{qi} idxT m d) ∗ tabs m d (cV L) qs ∗ scopedBufs (V d (cV L) (jV L)) ∗ scopedSems0 (V d (cV L) (jV L))
          ∗ tileOut d ⟨(L 0).val, (L 0).isLt⟩ ⟨(L 1).val, (L 1).isLt⟩ (outK m d) ∗ ∃ W', ⌜∀ p ∈ W', p ∈ W ∨ p.2 = none⌝ ∗ owes (V d (cV L) (jV L)) O W')

/-! ## The three table-copy semaphores among the tile's own -/

abbrev t0cell (d : Dev nD) (c : Fin τ.nSC) (i : Fin τ.nSub) : GSem nD τ sig := (V d c i, .dma cc0_scoped0.sem)
abbrev t1cell (d : Dev nD) (c : Fin τ.nSC) (i : Fin τ.nSub) : GSem nD τ sig := (V d c i, .dma cc0_scoped1.sem)
abbrev t2cell (d : Dev nD) (c : Fin τ.nSC) (i : Fin τ.nSub) : GSem nD τ sig := (V d c i, .dma cc0_scoped2.sem)

omit [FloatOps F] in
theorem ownSems0_V3 :
    (ownSems0 (V d (cV L) (jV L)) : sProp 𝕄)
      = iprop(semVal (t0cell d (cV L) (jV L)) 0 ∗ semVal (t1cell d (cV L) (jV L)) 0 ∗ semVal (t2cell d (cV L) (jV L)) 0
          ∗ bigSep ((((ownCells (V d (cV L) (jV L))).erase (t0cell d (cV L) (jV L))).erase (t1cell d (cV L) (jV L))).erase (t2cell d (cV L) (jV L))) fun g => semVal g 0) := by
  unfold SparseCore.Cfg.ownSems0
  rw [SparseCore.bigSep_erase' ((mem_ownCells (g := t0cell d (cV L) (jV L))).mpr ⟨rfl, by
      show (SemLoc.dma cc0_scoped0.sem : SemLoc sig).isScoped .scVector = true; decide⟩),
    SparseCore.bigSep_erase' (Finset.mem_erase.mpr ⟨by simp [t0cell, t1cell]; decide, (mem_ownCells (g := t1cell d (cV L) (jV L))).mpr ⟨rfl, by
      show (SemLoc.dma cc0_scoped1.sem : SemLoc sig).isScoped .scVector = true; decide⟩⟩),
    SparseCore.bigSep_erase' (Finset.mem_erase.mpr ⟨by simp [t1cell, t2cell]; decide, Finset.mem_erase.mpr ⟨by simp [t0cell, t2cell]; decide,
      (mem_ownCells (g := t2cell d (cV L) (jV L))).mpr ⟨rfl, by
        show (SemLoc.dma cc0_scoped2.sem : SemLoc sig).isScoped .scVector = true; decide⟩⟩⟩)]

omit [FloatOps F] in
theorem sems_eq :
    (scopedSems0 (V d (cV L) (jV L)) : sProp 𝕄)
      = iprop(semVal (t0cell d (cV L) (jV L)) 0 ∗ semVal (t1cell d (cV L) (jV L)) 0 ∗ semVal (t2cell d (cV L) (jV L)) 0
          ∗ bigSep ((((ownCells (V d (cV L) (jV L))).erase (t0cell d (cV L) (jV L))).erase (t1cell d (cV L) (jV L))).erase (t2cell d (cV L) (jV L))) fun g => semVal g 0) := by
  rw [SparseCore.Cfg.scopedSems0_V (Val := Elt F) d (cV L) (jV L), ownSems0_V3]

/-! ## The task -/

set_option maxHeartbeats 4000000 in
/-- The task on tile `(L 0, L 1)` of device `d`. -/
theorem tile_body {tl : (L : grid0.Coords) → (Σ' (_ : BitVec 32) (_ : BitVec 32) (_ : BitVec 32) (_ : BitVec 32) (_ : BitVec 32) (_ : BitVec 32), BitVec 32) →
      Prog (TpuEff nD τ sig (Elt F) Λ₀ (.scVector ((L 0).castLE hcore0) ((L 1).castLE hsub0))) PUnit} (htl : TailSpec m tl)
    (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hx : Cert.Lookup.InRange (m (xLoc d) : IVec Cert.Lookup.SX 32)) (qi qh : PosShare TreeShare) :
    iprop(levAts (K (F := F)).L (K (F := F)).lev ∗ bkit m d (cV L) (jV L)
        ∗ ((iLoc d ↦{qi} idxT m d) ∗ tileOut d ⟨(L 0).val, (L 0).isLt⟩ ⟨(L 1).val, (L 1).isLt⟩ (m (oLoc d))
          ∗ if (L 1).val = 0 then iprop(hbmTabs m d qh ∗ shAny d (cV L)) else iprop(emp))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_k L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17)
          fun _ => iprop(((iLoc d ↦{qi} idxT m d) ∗ tileOut d ⟨(L 0).val, (L 0).isLt⟩ ⟨(L 1).val, (L 1).isLt⟩ (outK m d)
              ∗ tabs m d (cV L) (shareTokN fullShare (jV L).val)
              ∗ if (L 1).val = 0 then iprop(hbmTabs m d qh ∗ tabs m d (cV L) (shareDrop fullShare 16)) else iprop(emp))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [htl.1 L, wp_bind]
  iintro ⟨#Hlv, Hkit, ⟨Hi, Hout, Hif⟩, Hbufs, Hss, HO⟩
  ihave Hss := (Entails.of_eq (sems_eq (F := F) d L)) $$ Hss
  icases Hss with ⟨Hm0, Hm1, Hm2, Hsems⟩
  iapply (wp_wand_r frame (wpE (defs₀ (F := F)) 𝒱₀ (V d (cV L) (jV L)) none) Set.univ) $$ [Hkit Hif Hm0 Hm1 Hm2 HO Hi Hout Hbufs Hsems]
  isplitl [Hkit Hif Hm0 Hm1 Hm2 HO]
  · iapply (head_run (F := F) m d L hF O W hO hOlev qh)
    isplitr; · iexact Hlv
    isplitl [Hkit]; · iexact Hkit
    isplitl [Hif]; · iexact Hif
    isplitl [Hm0]; · iexact Hm0
    isplitl [Hm1]; · iexact Hm1
    isplitl [Hm2]; · iexact Hm2
    iexact HO
  iintro %r ⟨%hr, Htabs, Hif, Hm0, Hm1, Hm2, %W', %hW', HO⟩
  subst hr
  iapply (wp_wand_r frame (wpE (defs₀ (F := F)) 𝒱₀ (V d (cV L) (jV L)) none) Set.univ) $$ [Htabs Hif Hm0 Hm1 Hm2 HO Hi Hout Hbufs Hsems]
  isplitl [Htabs Hm0 Hm1 Hm2 HO Hi Hout Hbufs Hsems]
  · iapply (htl.2 d L O W' hO hx qi (shareTokN fullShare (jV L).val))
    isplitr; · iexact Hlv
    isplitl [Hi]; · iexact Hi
    isplitl [Htabs]; · iexact Htabs
    isplitl [Hbufs]; · iexact Hbufs
    isplitl [Hm0 Hm1 Hm2 Hsems]
    · iapply (Entails.of_eq (sems_eq (F := F) d L).symm)
      isplitl [Hm0]; · iexact Hm0
      isplitl [Hm1]; · iexact Hm1
      isplitl [Hm2]; · iexact Hm2
      iexact Hsems
    isplitl [Hout]; · iexact Hout
    iexact HO
  iintro %_ ⟨Hi, Htabs, Hbufs, Hss, Hout, %W'', %hW'', HO⟩
  isplitl [Hi Hout Htabs Hif]
  · isplitl [Hi]; · iexact Hi
    isplitl [Hout]; · iexact Hout
    isplitl [Htabs]; · iexact Htabs
    iexact Hif
  isplitl [Hbufs]; · iexact Hbufs
  isplitl [Hss]; · iexact Hss
  iexists W''; isplitr
  swap; · iexact HO
  ipureintro; intro p hp
  rcases hW'' p hp with h | h
  · exact hW' p h
  · exact .inr (.inl h)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17) ⟨⟩ c s := rfl

set_option maxRecDepth 16384 in
/-- Every tile of the grid runs the task: under the index words' range. -/
theorem tileObl {tl : (L : grid0.Coords) → (Σ' (_ : BitVec 32) (_ : BitVec 32) (_ : BitVec 32) (_ : BitVec 32) (_ : BitVec 32) (_ : BitVec 32), BitVec 32) →
      Prog (TpuEff nD τ sig (Elt F) Λ₀ (.scVector ((L 0).castLE hcore0) ((L 1).castLE hsub0))) PUnit} (htl : TailSpec m tl)
    (hF : (K (F := F)).Facts) (hx : ∀ d : Dev nD, Cert.Lookup.InRange (m (xLoc d) : IVec Cert.Lookup.SX 32)) :
    (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) htl hF O W hO hOlev (hx d) (qT c.val i.val) (qC c.val)

end Cert.Proof.K

end
-- ==== Proof.KIR34.lean ====
/-
  The words the kernel's opening computes for the three pipelined loops: the tile's grid coordinates, its first step
  50·(i + 16·c) of the 1600, and the quotient and sign words the first loop's block arithmetic starts from.
-/
import proofs.«206595_g34437047779621_cont_8to1_b_428_16_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

/-- The tuple the opening part of the body returns. -/
def r34 (L : grid0.Coords) : Σ' (_ : BitVec 32) (_ : BitVec 32) (_ : BitVec 32) (_ : BitVec 32) (_ : BitVec 32) (_ : BitVec 32), BitVec 32 :=
  let v7 : BitVec 32 := Scalar.muli (Scalar.addi (Scalar.addi (0#32) (Scalar.muli (BitVec.ofNat 32 (L 1).val) 1#32)) (Scalar.muli (BitVec.ofNat 32 (L 0).val) 16#32)) 50#32
  let v20 : BitVec 32 := Scalar.addi (0#32) v7
  ⟨BitVec.ofNat 32 (L 0).val, BitVec.ofNat 32 (L 1).val, v7, v20, 32#32, Scalar.divsi v20 32#32,
    Scalar.subi (Scalar.extui (Scalar.cmpi .sgt v20 0#32)) (Scalar.extui (Scalar.cmpi .slt v20 0#32))⟩

abbrev cV (L : grid0.Coords) : Fin τ.nSC := (L 0).castLE hcore0
abbrev jV (L : grid0.Coords) : Fin τ.nSub := (L 1).castLE hsub0

end Cert.Proof.KI

end
-- ==== Proof.KIHead.lean ====
/-
  The opening of a tile's task.  Tile 0 of a SparseCore copies the three HBM tables into the SparseCore's shared tables,
  each copy on its own semaphore and waited for before the next; then all sixteen tiles meet at the subcore barrier.
  Tile 0 arrives holding the three shared tables whole at the HBM tables' contents and hands each tile its read share
  through that tile's barrier round; every tile leaves the barrier with its own read share of the three tables (tile 0
  also keeps what remains beside the sixteen shares).  The arithmetic after the barrier only computes the tile's first
  step of the 1600.
-/
import proofs.«206595_g34437047779621_cont_8to1_b_428_16_alg».proof.Proof.KIR34

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

/-! ## What the barrier's duties hand over -/

/-- The three tables whole are the sixteen tiles' read shares and a remainder. -/
theorem tabs_split (c : Fin τ.nSC) :
    tabs m d c fullShare ⊢ (iprop(tabs m d c (shareDrop fullShare 16) ∗ bigSep Finset.univ fun j : Fin 16 => tabs m d c (shareTokN fullShare j.val)) : sProp 𝕄) := by
  unfold tabs
  iintro ⟨H0, H1, H2⟩
  ihave H0' := (Transfers.pointsTo_toks_split fullShare 16) $$ H0
  ihave H1' := (Transfers.pointsTo_toks_split fullShare 16) $$ H1
  ihave H2' := (Transfers.pointsTo_toks_split fullShare 16) $$ H2
  icases H0' with ⟨R0, T0⟩
  icases H1' with ⟨R1, T1⟩
  icases H2' with ⟨R2, T2⟩
  isplitl [R0 R1 R2]
  · isplitl [R0]; · iexact R0
    isplitl [R1]; · iexact R1
    iexact R2
  rw [bigSep_sep', bigSep_sep']
  isplitl [T0]; · iexact T0
  isplitl [T1]; · iexact T1
  iexact T2

/-- Tile 0's duties: tile `j`'s round gets tile `j`'s read share. -/
theorem pays_zero (c : Fin τ.nSC) (n : ℕ) (hn : n = 0) :
    (bigSep Finset.univ fun j : Fin 16 => tabs m d c (shareTokN fullShare j.val))
      ⊢ (bigSep Finset.univ fun j : Fin (grid0.bound 1) => (bRd (F := F) m).payload (bcell d c (j.castLE hsub0)) 0 n : sProp 𝕄) := by
  subst hn; exact BI.Entails.refl _

theorem bigSep_emp' {I : Type} (s : Finset I) : (bigSep s fun _ => iprop(emp)) = (iprop(emp) : sProp 𝕄) := bigSep_emp_const s

/-- Another tile's duties hand over nothing. -/
theorem pays_other (c : Fin τ.nSC) (n : ℕ) (hn : n ≠ 0) :
    (iprop(emp) : sProp 𝕄) ⊢ bigSep Finset.univ fun j : Fin (grid0.bound 1) => (bRd (F := F) m).payload (bcell d c (j.castLE hsub0)) 0 n := by
  rw [show (bigSep Finset.univ fun j : Fin (grid0.bound 1) => (bRd (F := F) m).payload (bcell d c (j.castLE hsub0)) 0 n)
      = bigSep Finset.univ fun _ : Fin (grid0.bound 1) => (iprop(emp) : sProp 𝕄) from bigSep_congr fun j _ => if_neg hn, bigSep_emp']

/-- What a tile's own round collected holds its read share of the three tables: tile 0's duty brought it. -/
theorem pays_elim (c : Fin τ.nSC) (j : Fin τ.nSub) :
    (bigSep ((bRd (F := F) m).duties (bcell d c j) 0 \ ∅) fun n => (bRd (F := F) m).payload (bcell d c j) 0 n)
      ⊢ (tabs m d c (shareTokN fullShare j.val) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d c j) 0 ⊢ _
  unfold bPay; dsimp only
  rw [if_pos rfl]

/-! ## The arrays as a tile's memrefs address them -/

omit [FloatOps F] in
theorem pts_w0 (c : Fin τ.nSC) (i : Fin τ.nSub) (q : PosShare TreeShare) (f : Buf (Elt F) (w0Loc d)) :
    ((Memref.whole main_arg1_scv).view.loc (V d c i) ↦{q} f : sProp 𝕄) = w0Loc d ↦{q} f := by
  simp only [Memref.view_whole, View.set_whole]
omit [FloatOps F] in
theorem pts_w1 (c : Fin τ.nSC) (i : Fin τ.nSub) (q : PosShare TreeShare) (f : Buf (Elt F) (w1Loc d)) :
    ((Memref.whole main_arg2_scv).view.loc (V d c i) ↦{q} f : sProp 𝕄) = w1Loc d ↦{q} f := by
  simp only [Memref.view_whole, View.set_whole]
omit [FloatOps F] in
theorem pts_w2 (c : Fin τ.nSC) (i : Fin τ.nSub) (q : PosShare TreeShare) (f : Buf (Elt F) (w2Loc d)) :
    ((Memref.whole main_arg3_scv).view.loc (V d c i) ↦{q} f : sProp 𝕄) = w2Loc d ↦{q} f := by
  simp only [Memref.view_whole, View.set_whole]
omit [FloatOps F] in
theorem pts_sh0 (c : Fin τ.nSC) (i : Fin τ.nSub) (q : PosShare TreeShare) (f : Buf (Elt F) (sh0Loc d c)) :
    ((Memref.whole cc0_scratch0).view.loc (V d c i) ↦{q} f : sProp 𝕄) = sh0Loc d c ↦{q} f := rfl
omit [FloatOps F] in
theorem pts_sh1 (c : Fin τ.nSC) (i : Fin τ.nSub) (q : PosShare TreeShare) (f : Buf (Elt F) (sh1Loc d c)) :
    ((Memref.whole cc0_scratch1).view.loc (V d c i) ↦{q} f : sProp 𝕄) = sh1Loc d c ↦{q} f := rfl
omit [FloatOps F] in
theorem pts_sh2 (c : Fin τ.nSC) (i : Fin τ.nSub) (q : PosShare TreeShare) (f : Buf (Elt F) (sh2Loc d c)) :
    ((Memref.whole cc0_scratch2).view.loc (V d c i) ↦{q} f : sProp 𝕄) = sh2Loc d c ↦{q} f := rfl

/-! ## The opening -/

set_option maxHeartbeats 8000000 in
/-- The opening part of the task on tile `(L 0, L 1)`: tile 0's three copies, each waited for before the next; the barrier,
    at which tile 0 hands every tile its share and every tile receives its own; the step arithmetic. -/
theorem head_run (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (qh : PosShare TreeShare) :
    iprop(levAts (K (F := F)).L (K (F := F)).lev ∗ bkit m d (cV L) (jV L)
        ∗ (if (L 1).val = 0 then iprop(hbmTabs m d qh ∗ shAny d (cV L)) else iprop(emp))
        ∗ semVal (V d (cV L) (jV L), SemLoc.dma cc0_scoped0.sem) 0
        ∗ semVal (V d (cV L) (jV L), SemLoc.dma cc0_scoped1.sem) 0
        ∗ semVal (V d (cV L) (jV L), SemLoc.dma cc0_scoped2.sem) 0
        ∗ owes (V d (cV L) (jV L)) (O + oxV d (cV L)) W)
      ⊢ wp frame (wpE (defs₀ (F := F)) 𝒱₀ (V d (cV L) (jV L)) none) Set.univ
          (k0_part34 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17)
          fun r => iprop(⌜r = r34 L⌝ ∗ tabs m d (cV L) (shareTokN fullShare (jV L).val)
            ∗ (if (L 1).val = 0 then iprop(hbmTabs m d qh ∗ tabs m d (cV L) (shareDrop fullShare 16)) else iprop(emp))
            ∗ semVal (V d (cV L) (jV L), SemLoc.dma cc0_scoped0.sem) 0
            ∗ semVal (V d (cV L) (jV L), SemLoc.dma cc0_scoped1.sem) 0
            ∗ semVal (V d (cV L) (jV L), SemLoc.dma cc0_scoped2.sem) 0
            ∗ ∃ W', ⌜∀ p ∈ W', p ∈ W ∨ p.2 = none ∨ p.2 = some (0 : Fin 1)⌝ ∗ owes (V d (cV L) (jV L)) O W') := by
  unfold bkit
  have hO' : ∀ g, (O + oxV d (cV L)) g none = 0 := fun g => by rw [Pi.add_apply, Finsupp.add_apply, hO g, oxV_none]
  by_cases h0 : (L 1).val = 0
  · have hv2 : Scalar.cmpi .ne (Scalar.extui (Scalar.cmpi .eq (BitVec.ofNat 32 (L 1).val) 0#32)) 0#32 = 1#1 := by rw [h0]; decide
    rw [if_pos h0, if_pos h0]
    iintro ⟨#Hlv, ⟨⟨%κ, #Hinv⟩, Htoks, #Hrch, Hat, Hcred⟩, ⟨⟨Hw0, Hw1, Hw2⟩, ⟨%f0, Hs0⟩, ⟨%f1, Hs1⟩, ⟨%f2, Hs2⟩⟩, Hm0, Hm1, Hm2, HO⟩
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    ihave Hw0 := (Entails.of_eq (pts_w0 (F := F) d (cV L) (jV L) qh _).symm) $$ Hw0
    ihave Hw1 := (Entails.of_eq (pts_w1 (F := F) d (cV L) (jV L) qh _).symm) $$ Hw1
    ihave Hw2 := (Entails.of_eq (pts_w2 (F := F) d (cV L) (jV L) qh _).symm) $$ Hw2
    ihave Hs0 := (Entails.of_eq (pts_sh0 (F := F) d (cV L) (jV L) fullShare _).symm) $$ Hs0
    ihave Hs1 := (Entails.of_eq (pts_sh1 (F := F) d (cV L) (jV L) fullShare _).symm) $$ Hs1
    ihave Hs2 := (Entails.of_eq (pts_sh2 (F := F) d (cV L) (jV L) fullShare _).symm) $$ Hs2
    sl_unfold [k0_part34]
    sl_exec
    have e0 : View.write (Elt F) (Memref.whole cc0_scratch0).view f0 (head_run.sl.dma0 m d) Finset.univ = (m (w0Loc d) : Buf (Elt F) (sh0Loc d (cV L))) := by
      unfold head_run.sl.dma0; rw [ReadAs.apply_same]; exact View.write_whole_univ cc0_scratch0 f0 _
    have e1 : View.write (Elt F) (Memref.whole cc0_scratch1).view f1 (head_run.sl.dma0_1 m d) Finset.univ = (m (w1Loc d) : Buf (Elt F) (sh1Loc d (cV L))) := by
      unfold head_run.sl.dma0_1; rw [ReadAs.apply_same]; exact View.write_whole_univ cc0_scratch1 f1 _
    have e2 : View.write (Elt F) (Memref.whole cc0_scratch2).view f2 (head_run.sl.dma0_2 m d) Finset.univ = (m (w2Loc d) : Buf (Elt F) (sh2Loc d (cV L))) := by
      unfold head_run.sl.dma0_2; rw [ReadAs.apply_same]; exact View.write_whole_univ cc0_scratch2 f2 _
    rw [e0, e1, e2]
    ihave Hs0 := (Entails.of_eq (pts_sh0 (F := F) d (cV L) (jV L) fullShare _)) $$ Hs0
    ihave Hs1 := (Entails.of_eq (pts_sh1 (F := F) d (cV L) (jV L) fullShare _)) $$ Hs1
    ihave Hs2 := (Entails.of_eq (pts_sh2 (F := F) d (cV L) (jV L) fullShare _)) $$ Hs2
    ihave Hsp := (tabs_split (F := F) m d (cV L)) $$ [Hs0 Hs1 Hs2]
    · unfold tabs
      isplitl [Hs0]; · iexact Hs0
      isplitl [Hs1]; · iexact Hs1
      iexact Hs2
    icases Hsp with ⟨Hrem, Hshares⟩
    ihave Hpays := (pays_zero (F := F) m d (cV L) (jV L).val h0) $$ Hshares
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hmine := (pays_elim (F := F) m d (cV L) (jV L)) $$ Hgot
    sl_exec
    sl_step
    isplitr; · ipureintro; rfl
    isplitl [Hmine]; · iexact Hmine
    isplitl [Hw0 Hw1 Hw2 Hrem]
    · isplitl [Hw0 Hw1 Hw2]
      · isplitl [Hw0]; · iapply (Entails.of_eq (pts_w0 (F := F) d (cV L) (jV L) qh _)); iexact Hw0
        isplitl [Hw1]; · iapply (Entails.of_eq (pts_w1 (F := F) d (cV L) (jV L) qh _)); iexact Hw1
        iapply (Entails.of_eq (pts_w2 (F := F) d (cV L) (jV L) qh _)); iexact Hw2
      iexact Hrem
    isplitl [Hm0]; · iexact Hm0
    isplitl [Hm1]; · iexact Hm1
    isplitl [Hm2]; · iexact Hm2
    iexists _; isplitr
    swap; · iexact HO
    ipureintro; intro p hp
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact .inl hp
  · have hv2 : ¬ (Scalar.cmpi .ne (Scalar.extui (Scalar.cmpi .eq (BitVec.ofNat 32 (L 1).val) 0#32)) 0#32 = 1#1) :=
      (show ∀ j : Fin (grid0.bound 1), j.val ≠ 0 → ¬ (Scalar.cmpi .ne (Scalar.extui (Scalar.cmpi .eq (BitVec.ofNat 32 j.val) 0#32)) 0#32 = 1#1) from by decide) (L 1) h0
    rw [if_neg h0, if_neg h0]
    iintro ⟨#Hlv, ⟨⟨%κ, #Hinv⟩, Htoks, #Hrch, Hat, Hcred⟩, -, Hm0, Hm1, Hm2, HO⟩
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    sl_unfold [k0_part34]
    sl_exec
    ihave Hpays := (pays_other (F := F) m d (cV L) (jV L).val h0) $$ []
    · iempintro
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hmine := (pays_elim (F := F) m d (cV L) (jV L)) $$ Hgot
    sl_exec
    sl_step
    isplitr; · ipureintro; rfl
    isplitl [Hmine]; · iexact Hmine
    isplitl []; · iempintro
    isplitl [Hm0]; · iexact Hm0
    isplitl [Hm1]; · iexact Hm1
    isplitl [Hm2]; · iexact Hm2
    iexists _; isplitr
    swap; · iexact HO
    ipureintro; intro p hp
    rcases Finset.mem_insert.mp hp with hp | hp; · exact .inr (.inr (hp ▸ rfl))
    exact .inl hp

end Cert.Proof.KI

end
-- ==== Proof.KIBody.lean ====
/-
  The task of one tile, whole: the opening (the table copies by tile 0, the barrier) and then the three pipelined loops,
  composed at the tuple the opening returns; and the obligation the launch theorem asks of every tile of the grid.
-/
import proofs.«206595_g34437047779621_cont_8to1_b_428_16_alg».proof.Proof.KIHead

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

/-! ## What the rest of the task owes

The body is the opening part followed by the three pipelined loops, a function `tl` of the tuple the opening returns.  The
loops' specification: from the tile's read shares of the index array and of the three shared tables, its scoped storage,
and its 150 output blocks at their launch contents, they end with the blocks at the lookup's values and everything else
back.  This module takes it as a hypothesis; the loops' module proves it. -/

def TailSpec (tl : (L : grid0.Coords) → (Σ' (_ : BitVec 32) (_ : BitVec 32) (_ : BitVec 32) (_ : BitVec 32) (_ : BitVec 32) (_ : BitVec 32), BitVec 32) →
      Prog (TpuEff nD τ sig (Elt F) Λ₀ (.scVector ((L 0).castLE hcore0) ((L 1).castLE hsub0))) PUnit) : Prop :=
  (∀ L : grid0.Coords, cc0_k (F := F) L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 = k0_part34 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 >>= tl L)
  ∧ ∀ (d : Dev nD) (L : grid0.Coords) (O : CellTallies nD τ sig (HIx 1)) (W : Waits sig (HIx 1)), (∀ g, O g none = 0) →
      Cert.Lookup.InRange (m (xLoc d) : IVec Cert.Lookup.SX 32) → ∀ (qi qs : PosShare TreeShare),
    iprop(levAts (K (F := F)).L (K (F := F)).lev ∗ (iLoc d ↦{qi} idxT m d) ∗ tabs m d (cV L) qs
        ∗ scopedBufs (V d (cV L) (jV L)) ∗ scopedSems0 (V d (cV L) (jV L))
        ∗ tileOut d ⟨(L 0).val, (L 0).isLt⟩ ⟨(L 1).val, (L 1).isLt⟩ (m (oLoc d)) ∗ owes (V d (cV L) (jV L)) O W)
      ⊢ wp frame (wpE (defs₀ (F := F)) 𝒱₀ (V d (cV L) (jV L)) none) Set.univ (tl L (r34 L)) fun _ =>
        iprop((iLoc d ↦{qi} idxT m d) ∗ tabs m d (cV L) qs ∗ scopedBufs (V d (cV L) (jV L)) ∗ scopedSems0 (V d (cV L) (jV L))
          ∗ tileOut d ⟨(L 0).val, (L 0).isLt⟩ ⟨(L 1).val, (L 1).isLt⟩ (outK m d) ∗ ∃ W', ⌜∀ p ∈ W', p ∈ W ∨ p.2 = none⌝ ∗ owes (V d (cV L) (jV L)) O W')

/-! ## The three table-copy semaphores among the tile's own -/

abbrev t0cell (d : Dev nD) (c : Fin τ.nSC) (i : Fin τ.nSub) : GSem nD τ sig := (V d c i, .dma cc0_scoped0.sem)
abbrev t1cell (d : Dev nD) (c : Fin τ.nSC) (i : Fin τ.nSub) : GSem nD τ sig := (V d c i, .dma cc0_scoped1.sem)
abbrev t2cell (d : Dev nD) (c : Fin τ.nSC) (i : Fin τ.nSub) : GSem nD τ sig := (V d c i, .dma cc0_scoped2.sem)

omit [FloatOps F] in
theorem ownSems0_V3 :
    (ownSems0 (V d (cV L) (jV L)) : sProp 𝕄)
      = iprop(semVal (t0cell d (cV L) (jV L)) 0 ∗ semVal (t1cell d (cV L) (jV L)) 0 ∗ semVal (t2cell d (cV L) (jV L)) 0
          ∗ bigSep ((((ownCells (V d (cV L) (jV L))).erase (t0cell d (cV L) (jV L))).erase (t1cell d (cV L) (jV L))).erase (t2cell d (cV L) (jV L))) fun g => semVal g 0) := by
  unfold SparseCore.Cfg.ownSems0
  rw [SparseCore.bigSep_erase' ((mem_ownCells (g := t0cell d (cV L) (jV L))).mpr ⟨rfl, by
      show (SemLoc.dma cc0_scoped0.sem : SemLoc sig).isScoped .scVector = true; decide⟩),
    SparseCore.bigSep_erase' (Finset.mem_erase.mpr ⟨by simp [t0cell, t1cell]; decide, (mem_ownCells (g := t1cell d (cV L) (jV L))).mpr ⟨rfl, by
      show (SemLoc.dma cc0_scoped1.sem : SemLoc sig).isScoped .scVector = true; decide⟩⟩),
    SparseCore.bigSep_erase' (Finset.mem_erase.mpr ⟨by simp [t1cell, t2cell]; decide, Finset.mem_erase.mpr ⟨by simp [t0cell, t2cell]; decide,
      (mem_ownCells (g := t2cell d (cV L) (jV L))).mpr ⟨rfl, by
        show (SemLoc.dma cc0_scoped2.sem : SemLoc sig).isScoped .scVector = true; decide⟩⟩⟩)]

omit [FloatOps F] in
theorem sems_eq :
    (scopedSems0 (V d (cV L) (jV L)) : sProp 𝕄)
      = iprop(semVal (t0cell d (cV L) (jV L)) 0 ∗ semVal (t1cell d (cV L) (jV L)) 0 ∗ semVal (t2cell d (cV L) (jV L)) 0
          ∗ bigSep ((((ownCells (V d (cV L) (jV L))).erase (t0cell d (cV L) (jV L))).erase (t1cell d (cV L) (jV L))).erase (t2cell d (cV L) (jV L))) fun g => semVal g 0) := by
  rw [SparseCore.Cfg.scopedSems0_V (Val := Elt F) d (cV L) (jV L), ownSems0_V3]

/-! ## The task -/

set_option maxHeartbeats 4000000 in
/-- The task on tile `(L 0, L 1)` of device `d`. -/
theorem tile_body {tl : (L : grid0.Coords) → (Σ' (_ : BitVec 32) (_ : BitVec 32) (_ : BitVec 32) (_ : BitVec 32) (_ : BitVec 32) (_ : BitVec 32), BitVec 32) →
      Prog (TpuEff nD τ sig (Elt F) Λ₀ (.scVector ((L 0).castLE hcore0) ((L 1).castLE hsub0))) PUnit} (htl : TailSpec m tl)
    (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hx : Cert.Lookup.InRange (m (xLoc d) : IVec Cert.Lookup.SX 32)) (qi qh : PosShare TreeShare) :
    iprop(levAts (K (F := F)).L (K (F := F)).lev ∗ bkit m d (cV L) (jV L)
        ∗ ((iLoc d ↦{qi} idxT m d) ∗ tileOut d ⟨(L 0).val, (L 0).isLt⟩ ⟨(L 1).val, (L 1).isLt⟩ (m (oLoc d))
          ∗ if (L 1).val = 0 then iprop(hbmTabs m d qh ∗ shAny d (cV L)) else iprop(emp))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_k L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17)
          fun _ => iprop(((iLoc d ↦{qi} idxT m d) ∗ tileOut d ⟨(L 0).val, (L 0).isLt⟩ ⟨(L 1).val, (L 1).isLt⟩ (outK m d)
              ∗ tabs m d (cV L) (shareTokN fullShare (jV L).val)
              ∗ if (L 1).val = 0 then iprop(hbmTabs m d qh ∗ tabs m d (cV L) (shareDrop fullShare 16)) else iprop(emp))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [htl.1 L, wp_bind]
  iintro ⟨#Hlv, Hkit, ⟨Hi, Hout, Hif⟩, Hbufs, Hss, HO⟩
  ihave Hss := (Entails.of_eq (sems_eq (F := F) d L)) $$ Hss
  icases Hss with ⟨Hm0, Hm1, Hm2, Hsems⟩
  iapply (wp_wand_r frame (wpE (defs₀ (F := F)) 𝒱₀ (V d (cV L) (jV L)) none) Set.univ) $$ [Hkit Hif Hm0 Hm1 Hm2 HO Hi Hout Hbufs Hsems]
  isplitl [Hkit Hif Hm0 Hm1 Hm2 HO]
  · iapply (head_run (F := F) m d L hF O W hO hOlev qh)
    isplitr; · iexact Hlv
    isplitl [Hkit]; · iexact Hkit
    isplitl [Hif]; · iexact Hif
    isplitl [Hm0]; · iexact Hm0
    isplitl [Hm1]; · iexact Hm1
    isplitl [Hm2]; · iexact Hm2
    iexact HO
  iintro %r ⟨%hr, Htabs, Hif, Hm0, Hm1, Hm2, %W', %hW', HO⟩
  subst hr
  iapply (wp_wand_r frame (wpE (defs₀ (F := F)) 𝒱₀ (V d (cV L) (jV L)) none) Set.univ) $$ [Htabs Hif Hm0 Hm1 Hm2 HO Hi Hout Hbufs Hsems]
  isplitl [Htabs Hm0 Hm1 Hm2 HO Hi Hout Hbufs Hsems]
  · iapply (htl.2 d L O W' hO hx qi (shareTokN fullShare (jV L).val))
    isplitr; · iexact Hlv
    isplitl [Hi]; · iexact Hi
    isplitl [Htabs]; · iexact Htabs
    isplitl [Hbufs]; · iexact Hbufs
    isplitl [Hm0 Hm1 Hm2 Hsems]
    · iapply (Entails.of_eq (sems_eq (F := F) d L).symm)
      isplitl [Hm0]; · iexact Hm0
      isplitl [Hm1]; · iexact Hm1
      isplitl [Hm2]; · iexact Hm2
      iexact Hsems
    isplitl [Hout]; · iexact Hout
    iexact HO
  iintro %_ ⟨Hi, Htabs, Hbufs, Hss, Hout, %W'', %hW'', HO⟩
  isplitl [Hi Hout Htabs Hif]
  · isplitl [Hi]; · iexact Hi
    isplitl [Hout]; · iexact Hout
    isplitl [Htabs]; · iexact Htabs
    iexact Hif
  isplitl [Hbufs]; · iexact Hbufs
  isplitl [Hss]; · iexact Hss
  iexists W''; isplitr
  swap; · iexact HO
  ipureintro; intro p hp
  rcases hW'' p hp with h | h
  · exact hW' p h
  · exact .inr (.inl h)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17) ⟨⟩ c s := rfl

set_option maxRecDepth 16384 in
/-- Every tile of the grid runs the task: under the index words' range. -/
theorem tileObl {tl : (L : grid0.Coords) → (Σ' (_ : BitVec 32) (_ : BitVec 32) (_ : BitVec 32) (_ : BitVec 32) (_ : BitVec 32) (_ : BitVec 32), BitVec 32) →
      Prog (TpuEff nD τ sig (Elt F) Λ₀ (.scVector ((L 0).castLE hcore0) ((L 1).castLE hsub0))) PUnit} (htl : TailSpec m tl)
    (hF : (K (F := F)).Facts) (hx : ∀ d : Dev nD, Cert.Lookup.InRange (m (xLoc d) : IVec Cert.Lookup.SX 32)) :
    (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) htl hF O W hO hOlev (hx d) (qT c.val i.val) (qC c.val)

end Cert.Proof.KI

end
-- ==== Proof.KTailDef.lean ====
/-
  The body of a tile's task after its opening part: the three pipelined lookups, as the printed program states them,
  and the split of the task into the opening part followed by this remainder.
-/
import proofs.«206595_g34437047779621_cont_8to1_b_428_16_alg».proof.Proof.KR34

noncomputable section

namespace Cert.Proof.K

open Cert.Kernel Cert.Kernel.Gen

open Idealize.ShloMosaic Idealize.SL.Sem

variable {F : FTy → Type} [FloatOps F]

set_option cleanup.letToHave false in set_option maxHeartbeats 40000000 in
/-- The task after its opening part, over the words that part computed. -/
def tail34 (L : grid0.Coords) (r : Σ' (arg0 : BitVec 32) (arg1 : BitVec 32) (v7 : BitVec 32) (v20_r3 : BitVec 32) (c32_i32_r3 : BitVec 32) (v35_r3 : BitVec 32), BitVec 32) :
    Prog (TpuEff nD τ sig (Elt F) Λ₀ (.scVector ((L 0).castLE hcore0) ((L 1).castLE hsub0))) PUnit :=
  match r with
  | ⟨arg0, arg1, v7, v20_r3, c32_i32_r3, v35_r3, v40_r3⟩ => do
    let ⟨v72_r3, c0_i32_47_r3, c0_i32_48_r3, c0_i32_49_r3, c0_i32_50_r3, c0_i32_51_r3⟩ : Σ' (v72_r3 : BitVec 32) (c0_i32_47_r3 : BitVec 32) (c0_i32_48_r3 : BitVec 32) (c0_i32_49_r3 : BitVec 32) (c0_i32_50_r3 : BitVec 32), BitVec 32 ← k0_part35 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v20_r3 c32_i32_r3 v35_r3 v40_r3
    let ⟨v74_3_r3, v74_4_r3, k0_hw5, k0_hw4, v79_r3, c32_i32_72_r3, v96_r3, v101_r3, v103_r3, v105_r3⟩ : Σ' (v74_3_r3 : BitVec 32) (v74_4_r3 : BitVec 32) (k0_hw5 : k0_chk5 L v74_4_r3) (k0_hw4 : k0_chk4 v74_3_r3) (v79_r3 : BitVec 32) (c32_i32_72_r3 : BitVec 32) (v96_r3 : BitVec 32) (v101_r3 : BitVec 32) (v103_r3 : BitVec 32), BitVec 32 ← k0_part36 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v7 v72_r3 c0_i32_47_r3 c0_i32_48_r3 c0_i32_49_r3 c0_i32_50_r3 c0_i32_51_r3
    let ⟨v12, c0_i32_11_r5⟩ : Σ' (v12 : BitVec 32), BitVec 32 ← k0_part37 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 arg0 arg1 v74_3_r3 v74_4_r3 k0_hw5 k0_hw4 v79_r3 c32_i32_72_r3 v96_r3 v101_r3 v103_r3 v105_r3
    let ⟨v20_r5, v51_r5, v53_r5⟩ : Σ' (v20_r5 : BitVec 32) (v51_r5 : BitVec 32), BitVec 32 ← k0_part38 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v12 c0_i32_11_r5
    let ⟨v74_3_r5, v74_4_r5, k0_hw10, k0_hw9, v78_r5, v79_r5, v81_r5⟩ : Σ' (v74_3_r5 : BitVec 32) (v74_4_r5 : BitVec 32) (k0_hw10 : k0_chk10 L v74_4_r5) (k0_hw9 : k0_chk9 v74_3_r5) (v78_r5 : BitVec 32) (v79_r5 : BitVec 32), BitVec 32 ← k0_part39 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v12 v20_r5 v51_r5 v53_r5
    let ⟨v112_r5, v114_r5, v115_r5, v116_r5, v117_r5, c0_i32_84_r5⟩ : Σ' (v112_r5 : BitVec 32) (v114_r5 : BitVec 32) (v115_r5 : BitVec 32) (v116_r5 : BitVec 1) (v117_r5 : BitVec 1), BitVec 32 ← k0_part40 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v12 v74_3_r5 v78_r5 v79_r5 v81_r5
    let ⟨v17, v20_r7, v27_r7, c1_i32_19_r7⟩ : Σ' (v17 : BitVec 32) (v20_r7 : BitVec 32) (v27_r7 : BitVec 32), BitVec 32 ← k0_part41 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 arg0 arg1 v74_3_r5 v74_4_r5 k0_hw10 k0_hw9 v112_r5 v114_r5 v115_r5 v116_r5 v117_r5 c0_i32_84_r5
    k0_part42 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v17 v20_r7 v27_r7 c1_i32_19_r7
    let ⟨v74_3_r7, v74_4_r7, k0_hw15, k0_hw14, v79_r7, v91_r7, v92_r7⟩ : Σ' (v74_3_r7 : BitVec 32) (v74_4_r7 : BitVec 32) (k0_hw15 : k0_chk15 L v74_4_r7) (k0_hw14 : k0_chk14 v74_3_r7) (v79_r7 : BitVec 32) (v91_r7 : BitVec 32), BitVec 1 ← k0_part43 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v17
    k0_part44 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v17 v74_3_r7 v74_4_r7 k0_hw15 k0_hw14 v79_r7 v91_r7 v92_r7
    let v130_r7 : Memref sig .scVector .hbm S1x1x128x128 .f32 := (Memref.whole main_v1_scv).slice (Rect.unit (s := S50x3x4096x128) (k0_off61 L v74_4_r7) S1x1x128x128.size (k0_off61_inb L v74_4_r7 k0_hw15)) (fun _ => rfl)
    let v131_r7 : Memref sig .scVector .vmem S1x1x1x128x128 .f32 := (Memref.whole cc0_scoped15).slice (Rect.unit (s := S2x1x1x128x128) (k0_off63 v74_3_r7) S1x1x1x128x128.size (k0_off63_inb v74_3_r7 k0_hw14)) (fun _ => rfl)
    let v132_r7 : Memref sig .scVector .vmem S1x1x128x128 .f32 := v131_r7.squeeze S1x1x128x128 squeezes_S1x1x1x128x128_S1x1x128x128
    let v128_r7 : DmaSems sig S1 := cc0_scoped16.slice (Rect.unit (s := S2) (k0_off62 v74_3_r7) S1.size (k0_off62_inb v74_3_r7 k0_hw14))
    let v129_r7 : DmaSems sig S_ := v128_r7.squeeze S_ squeezes_S1_S_
    Prog.lift (.waitDma2 v129_r7.sem v132_r7 v130_r7 ((View.wordExact_bits rfl).reshape _ _) (View.wordExact_bits rfl))
    pure ⟨⟩

set_option maxRecDepth 65536 in
/-- The task is its opening part followed by the remainder. -/
theorem cc0_k_eq_head_tail (L : grid0.Coords) :
    cc0_k (F := F) L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17
      = k0_part34 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 >>= tail34 L := rfl

end Cert.Proof.K

end
-- ==== Proof.KArith.lean ====
/-
  The index arithmetic of the three-table lookup kernel.  Thirty-two workers (two cores of sixteen
  subcores each) share the 1600 steps of a table, worker w taking steps 50 w to 50 w + 49; step s moves
  the 128 index words at row s / 32, columns 128 (s % 32) onwards, of table l's plane of the index
  array, and the 128 by 128 block of looked-up rows to the same place of the result.  The printed
  program computes these places by floor division and remainder on 32-bit words, chooses between two
  buffer slots by the parity of a carried counter, and guards each transfer by a comparison of
  neighbouring blocks.  Here every printed offset, branch condition and assumed bound is put in closed
  form over the worker and the trip.  The closed forms over workers and trips are checked at each of
  the 32 workers and 50 trips; the bounds follow from them by linear arithmetic.
-/
import proofs.«206595_g34437047779621_cont_8to1_b_428_16_alg».proof.Proof.Gen.Kernel

set_option synthInstance.maxSize 4096
-- one evaluation at a time: each walks every worker and trip and holds its terms while it runs
set_option Elab.async false

namespace Cert.Kernel.Arith

open Idealize.ShloMosaic Idealize.SL.Sem

/-- The worker number of a grid point: subcore plus sixteen times the core. -/
def w (i : grid0.Coords) : Nat := (i 1).val + 16 * (i 0).val
/-- The step a worker takes at trip t. -/
def s (i : grid0.Coords) (t : Nat) : Nat := 50 * w i + t
/-- The block of index words a step reads for table l. -/
def blkIn (l : Nat) (i : grid0.Coords) (t : Nat) : Fin 3 → Nat := ![l, s i t / 32, 128 * (s i t % 32)]
/-- The block of the result a step writes for table l. -/
def blkOut (l : Nat) (i : grid0.Coords) (t : Nat) : Fin 4 → Nat := ![s i t / 32, l, 128 * (s i t % 32), 0]

theorem w_lt : ∀ i : grid0.Coords, w i < 32 := by decide +kernel

theorem s_lt (i : grid0.Coords) (t : Nat) (ht : t < 50) : s i t < 1600 := by
  have := w_lt i; unfold s; omega

/-- A block of index words lies inside the index array. -/
theorem blkIn_inb (l : Nat) (hl : l < 3) (i : grid0.Coords) (t : Nat) (ht : t < 50) :
    ∀ a, blkIn l i t a + S1x1x128.size a ≤ S3x50x4096.size a := by
  have hs := s_lt i t ht
  intro a
  fin_cases a <;> simp [blkIn] <;> omega

/-- A block of the result lies inside the result. -/
theorem blkOut_inb (l : Nat) (hl : l < 3) (i : grid0.Coords) (t : Nat) (ht : t < 50) :
    ∀ a, blkOut l i t a + S1x1x128x128.size a ≤ S50x3x4096x128.size a := by
  have hs := s_lt i t ht
  intro a
  fin_cases a <;> simp [blkOut] <;> omega

/-- Unsigned remainder by two of a word is the remainder of its value. -/
theorem remui_two (a : BitVec 32) : (Scalar.remui a 2#32).toNat = a.toNat % 2 := by
  rw [Scalar.remui, IntOp.remui, if_neg (by decide), BitVec.toNat_umod]; rfl

/-- Either slot of a two-slot buffer or semaphore pair lies inside it. -/
theorem slot1 (a : BitVec 32) : ∀ j, (![a.toNat % 2] : Fin 1 → Nat) j + S1.size j ≤ S2.size j := by
  have h : a.toNat % 2 < 2 := Nat.mod_lt _ (by decide)
  intro j
  fin_cases j <;> simp <;> omega
theorem slot4 (a : BitVec 32) :
    ∀ j, (![a.toNat % 2, 0, 0, 0] : Fin 4 → Nat) j + S1x1x1x128.size j ≤ S2x1x1x128.size j := by
  have h : a.toNat % 2 < 2 := Nat.mod_lt _ (by decide)
  intro j
  fin_cases j <;> simp <;> omega
theorem slot5 (a : BitVec 32) :
    ∀ j, (![a.toNat % 2, 0, 0, 0, 0] : Fin 5 → Nat) j + S1x1x1x128x128.size j ≤ S2x1x1x128x128.size j := by
  have h : a.toNat % 2 < 2 := Nat.mod_lt _ (by decide)
  intro j
  fin_cases j <;> simp <;> omega

/-! ## The first loop: table 0 -/

theorem trips1 : k0_t1_loop.trips = 50 := by decide +kernel

/-! The buffer and semaphore slots: a carried word picks the slot of its parity, whatever the word. -/

theorem off4_eq (a : BitVec 32) : k0_off4 a = ![a.toNat % 2, 0, 0, 0] := by
  show ![(Scalar.remui a 2#32).toNat, 0, 0, 0] = _
  rw [remui_two]
theorem off6_eq (a : BitVec 32) : k0_off6 a = ![a.toNat % 2] := by
  show ![(Scalar.remui a 2#32).toNat] = _
  rw [remui_two]
theorem off7_eq (a : BitVec 32) : k0_off7 a = ![a.toNat % 2, 0, 0, 0] := by
  show ![(Scalar.remui a 2#32).toNat, 0, 0, 0] = _
  rw [remui_two]
theorem off9_eq (a : BitVec 32) : k0_off9 a = ![a.toNat % 2] := by
  show ![(Scalar.remui a 2#32).toNat] = _
  rw [remui_two]
theorem off10_eq (a : BitVec 32) : k0_off10 a = ![a.toNat % 2, 0, 0, 0, 0] := by
  show ![(Scalar.remui a 2#32).toNat, 0, 0, 0, 0] = _
  rw [remui_two]
theorem off11_eq (a : BitVec 32) : k0_off11 a = ![a.toNat % 2, 0, 0, 0] := by
  show ![(Scalar.remui a 2#32).toNat, 0, 0, 0] = _
  rw [remui_two]
theorem off12_eq (a : BitVec 32) : k0_off12 a = ![a.toNat % 2, 0, 0, 0, 0] := by
  show ![(Scalar.remui a 2#32).toNat, 0, 0, 0, 0] = _
  rw [remui_two]
theorem off14_eq (a : BitVec 32) : k0_off14 a = ![a.toNat % 2] := by
  show ![(Scalar.remui a 2#32).toNat] = _
  rw [remui_two]
theorem off15_eq (a : BitVec 32) : k0_off15 a = ![a.toNat % 2, 0, 0, 0, 0] := by
  show ![(Scalar.remui a 2#32).toNat, 0, 0, 0, 0] = _
  rw [remui_two]
theorem off17_eq (a : BitVec 32) : k0_off17 a = ![a.toNat % 2] := by
  show ![(Scalar.remui a 2#32).toNat] = _
  rw [remui_two]
theorem off18_eq (a : BitVec 32) : k0_off18 a = ![a.toNat % 2, 0, 0, 0, 0] := by
  show ![(Scalar.remui a 2#32).toNat, 0, 0, 0, 0] = _
  rw [remui_two]
theorem off20_eq (a : BitVec 32) : k0_off20 a = ![a.toNat % 2] := by
  show ![(Scalar.remui a 2#32).toNat] = _
  rw [remui_two]
theorem off21_eq (a : BitVec 32) : k0_off21 a = ![a.toNat % 2, 0, 0, 0, 0] := by
  show ![(Scalar.remui a 2#32).toNat, 0, 0, 0, 0] = _
  rw [remui_two]

theorem chk2_all (a : BitVec 32) : k0_chk2 a := by
  unfold k0_chk2; rw [off10_eq]; exact slot5 a
theorem chk3_all (a : BitVec 32) : k0_chk3 a := by
  unfold k0_chk3; rw [off11_eq]; exact slot4 a
theorem chk4_all (a : BitVec 32) : k0_chk4 a := by
  unfold k0_chk4; rw [off18_eq, off20_eq, off21_eq]; exact ⟨slot5 a, slot1 a, slot5 a⟩

/-! The branch conditions at trip t, the step counter carried as t: consecutive steps never share a
    block, so a fetch of the next step is issued at every trip but the last, this step's indices are always
    waited for and its rows always copied out, and the previous copy-out is waited for at every trip but
    the first. -/

theorem cond2_eq : ∀ (i : grid0.Coords) (t : Fin k0_t1_loop.trips),
    k0_cond2 i t (BitVec.ofNat 32 t.val) = if t.val < 49 then 1#1 else 0#1 := by decide +kernel
theorem cond3_eq : ∀ (i : grid0.Coords) (t : Fin k0_t1_loop.trips),
    k0_cond3 i t (BitVec.ofNat 32 t.val) = 1#1 := by decide +kernel
theorem cond6_eq : ∀ (i : grid0.Coords) (t : Fin k0_t1_loop.trips),
    k0_cond6 i t (BitVec.ofNat 32 t.val) = 1#1 := by decide +kernel
theorem cond8_eq : ∀ (i : grid0.Coords) (t : Fin k0_t1_loop.trips),
    k0_cond8 i t (BitVec.ofNat 32 t.val) = if 1 ≤ t.val then 1#1 else 0#1 := by decide +kernel

/-! The blocks: the floor quotient and remainder of the step by 32, computed on words, are the natural
    quotient and remainder. -/

theorem off2_eq : ∀ i : grid0.Coords, k0_off2 i = blkIn 0 i 0 := by decide +kernel

theorem off5_all : ∀ (i : grid0.Coords) (t : Fin 49),
    k0_off5 i (BitVec.ofNat 32 t.val) = blkIn 0 i (t.val + 1) := by decide +kernel
theorem off5_eq (i : grid0.Coords) (t : Nat) (ht : t < 49) :
    k0_off5 i (BitVec.ofNat 32 t) = blkIn 0 i (t + 1) := off5_all i ⟨t, ht⟩

theorem off8_all : ∀ (i : grid0.Coords) (t : Fin 50),
    k0_off8 i (BitVec.ofNat 32 t.val) = blkIn 0 i t.val := by decide +kernel
theorem off8_eq (i : grid0.Coords) (t : Nat) (ht : t < 50) :
    k0_off8 i (BitVec.ofNat 32 t) = blkIn 0 i t := off8_all i ⟨t, ht⟩

theorem off13_all : ∀ (i : grid0.Coords) (t : Fin 50),
    k0_off13 i (BitVec.ofNat 32 t.val) = blkOut 0 i t.val := by decide +kernel
theorem off13_eq (i : grid0.Coords) (t : Nat) (ht : t < 50) :
    k0_off13 i (BitVec.ofNat 32 t) = blkOut 0 i t := off13_all i ⟨t, ht⟩

theorem off16_all : ∀ (i : grid0.Coords) (t : Fin 49),
    k0_off16 i (BitVec.ofNat 32 (t.val + 1)) = blkOut 0 i t.val := by decide +kernel
theorem off16_eq (i : grid0.Coords) (t : Nat) (h1 : 1 ≤ t) (ht : t < 50) :
    k0_off16 i (BitVec.ofNat 32 t) = blkOut 0 i (t - 1) := by
  obtain ⟨u, rfl⟩ : ∃ u, t = u + 1 := ⟨t - 1, by omega⟩
  have h := off16_all i ⟨u, by omega⟩
  simp only [Nat.add_sub_cancel]
  exact h

theorem off19_eq : ∀ i : grid0.Coords, k0_off19 i 0#32 = blkOut 0 i 49 := by decide +kernel

/-! What the loop body assumes of its carried words holds at every trip, and what the epilogue assumes
    holds of the counter the loop ends with. -/

theorem chk1_inv (i : grid0.Coords) (t : Fin k0_t1_loop.trips) :
    k0_chk1 i t (BitVec.ofNat 32 (t.val + 1)) (BitVec.ofNat 32 t.val) (BitVec.ofNat 32 t.val)
      (BitVec.ofNat 32 (t.val - 1)) (BitVec.ofNat 32 t.val) := by
  have ht : t.val < 50 := lt_of_lt_of_eq t.isLt trips1
  refine ⟨fun _ => ?_, fun h => ?_, fun _ => ?_, fun _ => ?_, fun _ => ?_, fun _ => ?_, fun _ => ?_,
    fun _ => ?_, fun _ => ?_, fun _ => ?_, fun h => ?_, fun _ => ?_⟩
  · rw [off4_eq]; exact slot4 _
  · have h49 : t.val < 49 := by
      rw [cond2_eq] at h
      by_contra hn
      rw [if_neg hn] at h
      exact absurd h (by decide)
    rw [off5_eq i t.val h49]; exact blkIn_inb 0 (by decide) i (t.val + 1) (by omega)
  · rw [off6_eq]; exact slot1 _
  · rw [off7_eq]; exact slot4 _
  · rw [off8_eq i t.val ht]; exact blkIn_inb 0 (by decide) i t.val ht
  · rw [off9_eq]; exact slot1 _
  · rw [off12_eq]; exact slot5 _
  · rw [off13_eq i t.val ht]; exact blkOut_inb 0 (by decide) i t.val ht
  · rw [off14_eq]; exact slot1 _
  · rw [off15_eq]; exact slot5 _
  · have h1 : 1 ≤ t.val := by
      rw [cond8_eq] at h
      by_contra hn
      rw [if_neg hn] at h
      exact absurd h (by decide)
    rw [off16_eq i t.val h1 ht]; exact blkOut_inb 0 (by decide) i (t.val - 1) (by omega)
  · rw [off17_eq]; exact slot1 _

theorem chk5_end (i : grid0.Coords) : k0_chk5 i 0#32 := by
  unfold k0_chk5; rw [off19_eq]; exact blkOut_inb 0 (by decide) i 49 (by decide)

/-! ## The second loop: table 1 -/

theorem trips2 : k0_t2_loop.trips = 50 := by decide +kernel

/-! The buffer and semaphore slots: a carried word picks the slot of its parity, whatever the word. -/

theorem off4_eq_r5 (a : BitVec 32) : k0_off25 a = ![a.toNat % 2, 0, 0, 0] := by
  show ![(Scalar.remui a 2#32).toNat, 0, 0, 0] = _
  rw [remui_two]
theorem off6_eq_r5 (a : BitVec 32) : k0_off27 a = ![a.toNat % 2] := by
  show ![(Scalar.remui a 2#32).toNat] = _
  rw [remui_two]
theorem off7_eq_r5 (a : BitVec 32) : k0_off28 a = ![a.toNat % 2, 0, 0, 0] := by
  show ![(Scalar.remui a 2#32).toNat, 0, 0, 0] = _
  rw [remui_two]
theorem off9_eq_r5 (a : BitVec 32) : k0_off30 a = ![a.toNat % 2] := by
  show ![(Scalar.remui a 2#32).toNat] = _
  rw [remui_two]
theorem off10_eq_r5 (a : BitVec 32) : k0_off31 a = ![a.toNat % 2, 0, 0, 0, 0] := by
  show ![(Scalar.remui a 2#32).toNat, 0, 0, 0, 0] = _
  rw [remui_two]
theorem off11_eq_r5 (a : BitVec 32) : k0_off32 a = ![a.toNat % 2, 0, 0, 0] := by
  show ![(Scalar.remui a 2#32).toNat, 0, 0, 0] = _
  rw [remui_two]
theorem off12_eq_r5 (a : BitVec 32) : k0_off33 a = ![a.toNat % 2, 0, 0, 0, 0] := by
  show ![(Scalar.remui a 2#32).toNat, 0, 0, 0, 0] = _
  rw [remui_two]
theorem off14_eq_r5 (a : BitVec 32) : k0_off35 a = ![a.toNat % 2] := by
  show ![(Scalar.remui a 2#32).toNat] = _
  rw [remui_two]
theorem off15_eq_r5 (a : BitVec 32) : k0_off36 a = ![a.toNat % 2, 0, 0, 0, 0] := by
  show ![(Scalar.remui a 2#32).toNat, 0, 0, 0, 0] = _
  rw [remui_two]
theorem off17_eq_r5 (a : BitVec 32) : k0_off38 a = ![a.toNat % 2] := by
  show ![(Scalar.remui a 2#32).toNat] = _
  rw [remui_two]
theorem off18_eq_r5 (a : BitVec 32) : k0_off39 a = ![a.toNat % 2, 0, 0, 0, 0] := by
  show ![(Scalar.remui a 2#32).toNat, 0, 0, 0, 0] = _
  rw [remui_two]
theorem off20_eq_r5 (a : BitVec 32) : k0_off41 a = ![a.toNat % 2] := by
  show ![(Scalar.remui a 2#32).toNat] = _
  rw [remui_two]
theorem off21_eq_r5 (a : BitVec 32) : k0_off42 a = ![a.toNat % 2, 0, 0, 0, 0] := by
  show ![(Scalar.remui a 2#32).toNat, 0, 0, 0, 0] = _
  rw [remui_two]

theorem chk2_all_r5 (a : BitVec 32) : k0_chk7 a := by
  unfold k0_chk7; rw [off10_eq_r5]; exact slot5 a
theorem chk3_all_r5 (a : BitVec 32) : k0_chk8 a := by
  unfold k0_chk8; rw [off11_eq_r5]; exact slot4 a
theorem chk4_all_r5 (a : BitVec 32) : k0_chk9 a := by
  unfold k0_chk9; rw [off18_eq_r5, off20_eq_r5, off21_eq_r5]; exact ⟨slot5 a, slot1 a, slot5 a⟩

/-! The branch conditions at trip t, the step counter carried as t: consecutive steps never share a
    block, so a fetch of the next step is issued at every trip but the last, this step's indices are always
    waited for and its rows always copied out, and the previous copy-out is waited for at every trip but
    the first. -/

theorem cond2_eq_r5 : ∀ (i : grid0.Coords) (t : Fin k0_t2_loop.trips),
    k0_cond9 i t (BitVec.ofNat 32 t.val) = if t.val < 49 then 1#1 else 0#1 := by decide +kernel
theorem cond3_eq_r5 : ∀ (i : grid0.Coords) (t : Fin k0_t2_loop.trips),
    k0_cond10 i t (BitVec.ofNat 32 t.val) = 1#1 := by decide +kernel
theorem cond6_eq_r5 : ∀ (i : grid0.Coords) (t : Fin k0_t2_loop.trips),
    k0_cond13 i t (BitVec.ofNat 32 t.val) = 1#1 := by decide +kernel
theorem cond8_eq_r5 : ∀ (i : grid0.Coords) (t : Fin k0_t2_loop.trips),
    k0_cond15 i t (BitVec.ofNat 32 t.val) = if 1 ≤ t.val then 1#1 else 0#1 := by decide +kernel

/-! The blocks: the floor quotient and remainder of the step by 32, computed on words, are the natural
    quotient and remainder. -/

theorem off2_eq_r5 : ∀ i : grid0.Coords, k0_off23 i = blkIn 1 i 0 := by decide +kernel

theorem off5_all_r5 : ∀ (i : grid0.Coords) (t : Fin 49),
    k0_off26 i (BitVec.ofNat 32 t.val) = blkIn 1 i (t.val + 1) := by decide +kernel
theorem off5_eq_r5 (i : grid0.Coords) (t : Nat) (ht : t < 49) :
    k0_off26 i (BitVec.ofNat 32 t) = blkIn 1 i (t + 1) := off5_all_r5 i ⟨t, ht⟩

theorem off8_all_r5 : ∀ (i : grid0.Coords) (t : Fin 50),
    k0_off29 i (BitVec.ofNat 32 t.val) = blkIn 1 i t.val := by decide +kernel
theorem off8_eq_r5 (i : grid0.Coords) (t : Nat) (ht : t < 50) :
    k0_off29 i (BitVec.ofNat 32 t) = blkIn 1 i t := off8_all_r5 i ⟨t, ht⟩

theorem off13_all_r5 : ∀ (i : grid0.Coords) (t : Fin 50),
    k0_off34 i (BitVec.ofNat 32 t.val) = blkOut 1 i t.val := by decide +kernel
theorem off13_eq_r5 (i : grid0.Coords) (t : Nat) (ht : t < 50) :
    k0_off34 i (BitVec.ofNat 32 t) = blkOut 1 i t := off13_all_r5 i ⟨t, ht⟩

theorem off16_all_r5 : ∀ (i : grid0.Coords) (t : Fin 49),
    k0_off37 i (BitVec.ofNat 32 (t.val + 1)) = blkOut 1 i t.val := by decide +kernel
theorem off16_eq_r5 (i : grid0.Coords) (t : Nat) (h1 : 1 ≤ t) (ht : t < 50) :
    k0_off37 i (BitVec.ofNat 32 t) = blkOut 1 i (t - 1) := by
  obtain ⟨u, rfl⟩ : ∃ u, t = u + 1 := ⟨t - 1, by omega⟩
  have h := off16_all_r5 i ⟨u, by omega⟩
  simp only [Nat.add_sub_cancel]
  exact h

theorem off19_eq_r5 : ∀ i : grid0.Coords, k0_off40 i 0#32 = blkOut 1 i 49 := by decide +kernel

/-! What the loop body assumes of its carried words holds at every trip, and what the epilogue assumes
    holds of the counter the loop ends with. -/

theorem chk1_inv_r5 (i : grid0.Coords) (t : Fin k0_t2_loop.trips) :
    k0_chk6 i t (BitVec.ofNat 32 (t.val + 1)) (BitVec.ofNat 32 t.val) (BitVec.ofNat 32 t.val)
      (BitVec.ofNat 32 (t.val - 1)) (BitVec.ofNat 32 t.val) := by
  have ht : t.val < 50 := lt_of_lt_of_eq t.isLt trips2
  refine ⟨fun _ => ?_, fun h => ?_, fun _ => ?_, fun _ => ?_, fun _ => ?_, fun _ => ?_, fun _ => ?_,
    fun _ => ?_, fun _ => ?_, fun _ => ?_, fun h => ?_, fun _ => ?_⟩
  · rw [off4_eq_r5]; exact slot4 _
  · have h49 : t.val < 49 := by
      rw [cond2_eq_r5] at h
      by_contra hn
      rw [if_neg hn] at h
      exact absurd h (by decide)
    rw [off5_eq_r5 i t.val h49]; exact blkIn_inb 1 (by decide) i (t.val + 1) (by omega)
  · rw [off6_eq_r5]; exact slot1 _
  · rw [off7_eq_r5]; exact slot4 _
  · rw [off8_eq_r5 i t.val ht]; exact blkIn_inb 1 (by decide) i t.val ht
  · rw [off9_eq_r5]; exact slot1 _
  · rw [off12_eq_r5]; exact slot5 _
  · rw [off13_eq_r5 i t.val ht]; exact blkOut_inb 1 (by decide) i t.val ht
  · rw [off14_eq_r5]; exact slot1 _
  · rw [off15_eq_r5]; exact slot5 _
  · have h1 : 1 ≤ t.val := by
      rw [cond8_eq_r5] at h
      by_contra hn
      rw [if_neg hn] at h
      exact absurd h (by decide)
    rw [off16_eq_r5 i t.val h1 ht]; exact blkOut_inb 1 (by decide) i (t.val - 1) (by omega)
  · rw [off17_eq_r5]; exact slot1 _

theorem chk5_end_r5 (i : grid0.Coords) : k0_chk10 i 0#32 := by
  unfold k0_chk10; rw [off19_eq_r5]; exact blkOut_inb 1 (by decide) i 49 (by decide)

/-! ## The third loop: table 2 -/

theorem trips3 : k0_t3_loop.trips = 50 := by decide +kernel

/-! The buffer and semaphore slots: a carried word picks the slot of its parity, whatever the word. -/

theorem off4_eq_r7 (a : BitVec 32) : k0_off46 a = ![a.toNat % 2, 0, 0, 0] := by
  show ![(Scalar.remui a 2#32).toNat, 0, 0, 0] = _
  rw [remui_two]
theorem off6_eq_r7 (a : BitVec 32) : k0_off48 a = ![a.toNat % 2] := by
  show ![(Scalar.remui a 2#32).toNat] = _
  rw [remui_two]
theorem off7_eq_r7 (a : BitVec 32) : k0_off49 a = ![a.toNat % 2, 0, 0, 0] := by
  show ![(Scalar.remui a 2#32).toNat, 0, 0, 0] = _
  rw [remui_two]
theorem off9_eq_r7 (a : BitVec 32) : k0_off51 a = ![a.toNat % 2] := by
  show ![(Scalar.remui a 2#32).toNat] = _
  rw [remui_two]
theorem off10_eq_r7 (a : BitVec 32) : k0_off52 a = ![a.toNat % 2, 0, 0, 0, 0] := by
  show ![(Scalar.remui a 2#32).toNat, 0, 0, 0, 0] = _
  rw [remui_two]
theorem off11_eq_r7 (a : BitVec 32) : k0_off53 a = ![a.toNat % 2, 0, 0, 0] := by
  show ![(Scalar.remui a 2#32).toNat, 0, 0, 0] = _
  rw [remui_two]
theorem off12_eq_r7 (a : BitVec 32) : k0_off54 a = ![a.toNat % 2, 0, 0, 0, 0] := by
  show ![(Scalar.remui a 2#32).toNat, 0, 0, 0, 0] = _
  rw [remui_two]
theorem off14_eq_r7 (a : BitVec 32) : k0_off56 a = ![a.toNat % 2] := by
  show ![(Scalar.remui a 2#32).toNat] = _
  rw [remui_two]
theorem off15_eq_r7 (a : BitVec 32) : k0_off57 a = ![a.toNat % 2, 0, 0, 0, 0] := by
  show ![(Scalar.remui a 2#32).toNat, 0, 0, 0, 0] = _
  rw [remui_two]
theorem off17_eq_r7 (a : BitVec 32) : k0_off59 a = ![a.toNat % 2] := by
  show ![(Scalar.remui a 2#32).toNat] = _
  rw [remui_two]
theorem off18_eq_r7 (a : BitVec 32) : k0_off60 a = ![a.toNat % 2, 0, 0, 0, 0] := by
  show ![(Scalar.remui a 2#32).toNat, 0, 0, 0, 0] = _
  rw [remui_two]
theorem off20_eq_r7 (a : BitVec 32) : k0_off62 a = ![a.toNat % 2] := by
  show ![(Scalar.remui a 2#32).toNat] = _
  rw [remui_two]
theorem off21_eq_r7 (a : BitVec 32) : k0_off63 a = ![a.toNat % 2, 0, 0, 0, 0] := by
  show ![(Scalar.remui a 2#32).toNat, 0, 0, 0, 0] = _
  rw [remui_two]

theorem chk2_all_r7 (a : BitVec 32) : k0_chk12 a := by
  unfold k0_chk12; rw [off10_eq_r7]; exact slot5 a
theorem chk3_all_r7 (a : BitVec 32) : k0_chk13 a := by
  unfold k0_chk13; rw [off11_eq_r7]; exact slot4 a
theorem chk4_all_r7 (a : BitVec 32) : k0_chk14 a := by
  unfold k0_chk14; rw [off18_eq_r7, off20_eq_r7, off21_eq_r7]; exact ⟨slot5 a, slot1 a, slot5 a⟩

/-! The branch conditions at trip t, the step counter carried as t: consecutive steps never share a
    block, so a fetch of the next step is issued at every trip but the last, this step's indices are always
    waited for and its rows always copied out, and the previous copy-out is waited for at every trip but
    the first. -/

theorem cond2_eq_r7 : ∀ (i : grid0.Coords) (t : Fin k0_t3_loop.trips),
    k0_cond16 i t (BitVec.ofNat 32 t.val) = if t.val < 49 then 1#1 else 0#1 := by decide +kernel
theorem cond3_eq_r7 : ∀ (i : grid0.Coords) (t : Fin k0_t3_loop.trips),
    k0_cond17 i t (BitVec.ofNat 32 t.val) = 1#1 := by decide +kernel
theorem cond6_eq_r7 : ∀ (i : grid0.Coords) (t : Fin k0_t3_loop.trips),
    k0_cond20 i t (BitVec.ofNat 32 t.val) = 1#1 := by decide +kernel
theorem cond8_eq_r7 : ∀ (i : grid0.Coords) (t : Fin k0_t3_loop.trips),
    k0_cond22 i t (BitVec.ofNat 32 t.val) = if 1 ≤ t.val then 1#1 else 0#1 := by decide +kernel

/-! The blocks: the floor quotient and remainder of the step by 32, computed on words, are the natural
    quotient and remainder. -/

theorem off2_eq_r7 : ∀ i : grid0.Coords, k0_off44 i = blkIn 2 i 0 := by decide +kernel

theorem off5_all_r7 : ∀ (i : grid0.Coords) (t : Fin 49),
    k0_off47 i (BitVec.ofNat 32 t.val) = blkIn 2 i (t.val + 1) := by decide +kernel
theorem off5_eq_r7 (i : grid0.Coords) (t : Nat) (ht : t < 49) :
    k0_off47 i (BitVec.ofNat 32 t) = blkIn 2 i (t + 1) := off5_all_r7 i ⟨t, ht⟩

theorem off8_all_r7 : ∀ (i : grid0.Coords) (t : Fin 50),
    k0_off50 i (BitVec.ofNat 32 t.val) = blkIn 2 i t.val := by decide +kernel
theorem off8_eq_r7 (i : grid0.Coords) (t : Nat) (ht : t < 50) :
    k0_off50 i (BitVec.ofNat 32 t) = blkIn 2 i t := off8_all_r7 i ⟨t, ht⟩

theorem off13_all_r7 : ∀ (i : grid0.Coords) (t : Fin 50),
    k0_off55 i (BitVec.ofNat 32 t.val) = blkOut 2 i t.val := by decide +kernel
theorem off13_eq_r7 (i : grid0.Coords) (t : Nat) (ht : t < 50) :
    k0_off55 i (BitVec.ofNat 32 t) = blkOut 2 i t := off13_all_r7 i ⟨t, ht⟩

theorem off16_all_r7 : ∀ (i : grid0.Coords) (t : Fin 49),
    k0_off58 i (BitVec.ofNat 32 (t.val + 1)) = blkOut 2 i t.val := by decide +kernel
theorem off16_eq_r7 (i : grid0.Coords) (t : Nat) (h1 : 1 ≤ t) (ht : t < 50) :
    k0_off58 i (BitVec.ofNat 32 t) = blkOut 2 i (t - 1) := by
  obtain ⟨u, rfl⟩ : ∃ u, t = u + 1 := ⟨t - 1, by omega⟩
  have h := off16_all_r7 i ⟨u, by omega⟩
  simp only [Nat.add_sub_cancel]
  exact h

theorem off19_eq_r7 : ∀ i : grid0.Coords, k0_off61 i 0#32 = blkOut 2 i 49 := by decide +kernel

/-! What the loop body assumes of its carried words holds at every trip, and what the epilogue assumes
    holds of the counter the loop ends with. -/

theorem chk1_inv_r7 (i : grid0.Coords) (t : Fin k0_t3_loop.trips) :
    k0_chk11 i t (BitVec.ofNat 32 (t.val + 1)) (BitVec.ofNat 32 t.val) (BitVec.ofNat 32 t.val)
      (BitVec.ofNat 32 (t.val - 1)) (BitVec.ofNat 32 t.val) := by
  have ht : t.val < 50 := lt_of_lt_of_eq t.isLt trips3
  refine ⟨fun _ => ?_, fun h => ?_, fun _ => ?_, fun _ => ?_, fun _ => ?_, fun _ => ?_, fun _ => ?_,
    fun _ => ?_, fun _ => ?_, fun _ => ?_, fun h => ?_, fun _ => ?_⟩
  · rw [off4_eq_r7]; exact slot4 _
  · have h49 : t.val < 49 := by
      rw [cond2_eq_r7] at h
      by_contra hn
      rw [if_neg hn] at h
      exact absurd h (by decide)
    rw [off5_eq_r7 i t.val h49]; exact blkIn_inb 2 (by decide) i (t.val + 1) (by omega)
  · rw [off6_eq_r7]; exact slot1 _
  · rw [off7_eq_r7]; exact slot4 _
  · rw [off8_eq_r7 i t.val ht]; exact blkIn_inb 2 (by decide) i t.val ht
  · rw [off9_eq_r7]; exact slot1 _
  · rw [off12_eq_r7]; exact slot5 _
  · rw [off13_eq_r7 i t.val ht]; exact blkOut_inb 2 (by decide) i t.val ht
  · rw [off14_eq_r7]; exact slot1 _
  · rw [off15_eq_r7]; exact slot5 _
  · have h1 : 1 ≤ t.val := by
      rw [cond8_eq_r7] at h
      by_contra hn
      rw [if_neg hn] at h
      exact absurd h (by decide)
    rw [off16_eq_r7 i t.val h1 ht]; exact blkOut_inb 2 (by decide) i (t.val - 1) (by omega)
  · rw [off17_eq_r7]; exact slot1 _

theorem chk5_end_r7 (i : grid0.Coords) : k0_chk15 i 0#32 := by
  unfold k0_chk15; rw [off19_eq_r7]; exact blkOut_inb 2 (by decide) i 49 (by decide)

end Cert.Kernel.Arith
-- ==== Proof.KTailLib.lean ====
/-
  What the three pipelined lookups of a tile's task share: the tile's thread, the blocks of the index array and of the
  output a step moves, a semaphore of a pair, the words a loop carries, and the bookkeeping of a family of pieces from
  which one is taken or to which one is added.
-/
import proofs.«206595_g34437047779621_cont_8to1_b_428_16_alg».proof.Proof.KTailDef
import proofs.«206595_g34437047779621_cont_8to1_b_428_16_alg».proof.Proof.KArith
import Idealize.ShloMosaic.Lib.SparseCore.Stream

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

/-- The tile's thread. -/
abbrev tailThr : Thread nD τ := V d (cV L) (jV L)

/-- A block of 128 index words in HBM. -/
abbrev tailIBlk (off : Fin 3 → ℕ) (h : ∀ a, off a + S1x1x128.size a ≤ S3x50x4096.size a) : Memref sig .scVector .hbm S1x1x128 .i32 :=
  (Memref.whole main_v0_scv).slice (Rect.unit (s := S3x50x4096) off S1x1x128.size h) (fun _ => rfl)
/-- A block of 128 rows of the output in HBM. -/
abbrev tailOBlk (off : Fin 4 → ℕ) (h : ∀ a, off a + S1x1x128x128.size a ≤ S50x3x4096x128.size a) : Memref sig .scVector .hbm S1x1x128x128 .f32 :=
  (Memref.whole main_v1_scv).slice (Rect.unit (s := S50x3x4096x128) off S1x1x128x128.size h) (fun _ => rfl)
/-- One semaphore of a pair. -/
abbrev tailSem (A : DmaSems sig S2) (off : Fin 1 → ℕ) (h : ∀ a, off a + S1.size a ≤ S2.size a) : DmaSem sig :=
  ((A.slice (Rect.unit (s := S2) off S1.size h)).squeeze S_ squeezes_S1_S_).sem

/-- A carried word. -/
abbrev tailW (n : ℕ) : BitVec 32 := BitVec.ofNat 32 n

omit [FloatOps F] in
theorem tailW_toNat {n : ℕ} (h : n < 2 ^ 32) : (tailW n).toNat = n := by
  unfold tailW; rw [BitVec.toNat_ofNat]; exact Nat.mod_eq_of_lt h

/-- A trip number as one of the fifty. -/
def tailFin (n : ℕ) : Fin 50 := ⟨n % 50, Nat.mod_lt _ (by decide)⟩
omit [FloatOps F] in
theorem tailFin_val {n : ℕ} (h : n < 50) : (tailFin n).val = n := Nat.mod_eq_of_lt h

/-- The tile's coordinates as the launch names them. -/
abbrev tailC : Fin 2 := ⟨(L 0).val, (L 0).isLt⟩
abbrev tailI : Fin 16 := ⟨(L 1).val, (L 1).isLt⟩

/-- The output block of table `l` at the tile's trip `u`, at contents `f`. -/
abbrev tailOPt (l : Fin 3) (u : Fin 50) (f : Buf (Elt F) (oLoc d)) : sProp 𝕄 :=
  oLoc d ↦[oSet l (stpF (tailC L) (tailI L) u)]{fullShare} f

/-- The read token of trip `u` on the index array. -/
abbrev tailTokPt (qi : PosShare TreeShare) (u : Fin 50) : sProp 𝕄 := iLoc d ↦{shareTok qi 50 u} idxT m d

omit [FloatOps F] in
/-- A family of pieces selected by `q` is one piece `a` and the family selected by `p`, when `q` selects `a` and what `p` selects. -/
theorem tail_bigSep_step {I : Type} [Fintype I] [DecidableEq I] (p q : I → Prop) [DecidablePred p] [DecidablePred q] (a : I)
    (hpa : ¬ p a) (h : ∀ u, q u ↔ (p u ∨ u = a)) (Φ : I → sProp 𝕄) :
    bigSep (Finset.univ.filter q) Φ = iprop(Φ a ∗ bigSep (Finset.univ.filter p) Φ) := by
  have e : Finset.univ.filter q = insert a (Finset.univ.filter p) := by
    ext u
    simp only [Finset.mem_filter, Finset.mem_univ, true_and, Finset.mem_insert]
    rw [h u]; exact Or.comm
  rw [e, SparseCore.bigSep_insert' (by simp only [Finset.mem_filter, Finset.mem_univ, true_and]; exact hpa)]

omit [FloatOps F] in
theorem tail_numel128 : S128.numel = S1x1x128.numel := by decide

/-- A word of an index block is at most 999 when the index words are in range. -/
theorem tailI_le (boff : Fin 3 → ℕ) (hb : ∀ a, boff a + S1x1x128.size a ≤ S3x50x4096.size a)
    (hx : Cert.Lookup.InRange (m (xLoc d) : IVec Cert.Lookup.SX 32)) (x : S128.Idx) :
    (((tailIBlk boff hb).view.reshape S128 tail_numel128).read (Elt F) (idxT m d) x).toNat ≤ 999 := by
  have e : ((tailIBlk boff hb).view.reshape S128 tail_numel128).read (Elt F) (idxT m d) x
      = (idxT m d) (((tailIBlk boff hb).view.reshape S128 tail_numel128).emb x) := (View.read_apply _ _).trans (cast_eq _ _)
  rw [e]
  exact hx _

omit [FloatOps F] in
theorem tailCell_congr (A : DmaSems sig S2) {off off' : Fin 1 → ℕ} (e : off = off') (h : ∀ a, off a + S1.size a ≤ S2.size a)
    (h' : ∀ a, off' a + S1.size a ≤ S2.size a) :
    (semVal (tailThr d L, SemLoc.dma (tailSem A off h)) 0 : sProp 𝕄) = semVal (tailThr d L, SemLoc.dma (tailSem A off' h')) 0 := by subst e; rfl

omit [FloatOps F] in
theorem tailW_par {a b : ℕ} (ha : a < 2 ^ 32) (hb : b < 2 ^ 32) (h : a % 2 = b % 2) : (tailW a).toNat % 2 = (tailW b).toNat % 2 := by
  rw [tailW_toNat ha, tailW_toNat hb, h]

omit [FloatOps F] in
theorem tailIRest_congr {off off' : Fin 3 → ℕ} (e : off = off') (h : ∀ a, off a + S1x1x128.size a ≤ S3x50x4096.size a)
    (h' : ∀ a, off' a + S1x1x128.size a ≤ S3x50x4096.size a) (q : PosShare TreeShare) (f : Buf (Elt F) (iLoc d)) :
    (iLoc d ↦[Finset.univ \ (tailIBlk off h).view.set]{q} f : sProp 𝕄) = iLoc d ↦[Finset.univ \ (tailIBlk off' h').view.set]{q} f := by subst e; rfl
omit [FloatOps F] in
theorem tailIBlkPt_congr {off off' : Fin 3 → ℕ} (e : off = off') (h : ∀ a, off a + S1x1x128.size a ≤ S3x50x4096.size a)
    (h' : ∀ a, off' a + S1x1x128.size a ≤ S3x50x4096.size a) (q : PosShare TreeShare) (f : Buf (Elt F) (iLoc d)) :
    ((tailIBlk off h).view.loc (tailThr d L) ↦[(tailIBlk off h).view.set]{q} f : sProp 𝕄) = (tailIBlk off' h').view.loc (tailThr d L) ↦[(tailIBlk off' h').view.set]{q} f := by subst e; rfl
omit [FloatOps F] in
theorem tailOBlkPt_congr {off off' : Fin 4 → ℕ} (e : off = off') (h : ∀ a, off a + S1x1x128x128.size a ≤ S50x3x4096x128.size a)
    (h' : ∀ a, off' a + S1x1x128x128.size a ≤ S50x3x4096x128.size a) (f : Buf (Elt F) (oLoc d)) :
    ((tailOBlk off h).view.loc (tailThr d L) ↦[(tailOBlk off h).view.set]{fullShare} f : sProp 𝕄) = (tailOBlk off' h').view.loc (tailThr d L) ↦[(tailOBlk off' h').view.set]{fullShare} f := by subst e; rfl

/-! ## The tile's own semaphores and buffers, one by one -/

abbrev tailDsem (k : ℕ) (hk : k < 18 := by decide) : DmaSem sig := ⟨k, hk⟩
abbrev tailDcell (k : Fin 18) : GSem nD τ sig := (tailThr d L, .dma (tailDsem k.val k.isLt))

omit [FloatOps F] in
theorem tailDcell_mem (k : Fin 18) : tailDcell d L k ∈ ownCells (tailThr d L) :=
  mem_ownCells.mpr ⟨rfl, (show ∀ s : DmaSem sig, (SemLoc.dma s : SemLoc sig).isScoped .scVector = true by decide) _⟩

omit [FloatOps F] in
/-- The tile's own semaphores at zero: its eighteen DMA semaphores, one by one, and the rest. -/
theorem tail_ownSems0 :
    (ownSems0 (tailThr d L) : sProp 𝕄)
      = iprop((semVal (tailDcell d L 0) 0 ∗ semVal (tailDcell d L 1) 0 ∗ semVal (tailDcell d L 2) 0 ∗ semVal (tailDcell d L 3) 0
            ∗ semVal (tailDcell d L 4) 0 ∗ semVal (tailDcell d L 5) 0 ∗ semVal (tailDcell d L 6) 0 ∗ semVal (tailDcell d L 7) 0
            ∗ semVal (tailDcell d L 8) 0 ∗ semVal (tailDcell d L 9) 0 ∗ semVal (tailDcell d L 10) 0 ∗ semVal (tailDcell d L 11) 0
            ∗ semVal (tailDcell d L 12) 0 ∗ semVal (tailDcell d L 13) 0 ∗ semVal (tailDcell d L 14) 0 ∗ semVal (tailDcell d L 15) 0
            ∗ semVal (tailDcell d L 16) 0 ∗ semVal (tailDcell d L 17) 0)
          ∗ bigSep (ownCells (tailThr d L) \ Finset.univ.image (tailDcell d L)) fun g => semVal g 0) := by
  unfold SparseCore.Cfg.ownSems0
  rw [SparseCore.bigSep_sdiff_split' (t := Finset.univ.image (tailDcell d L)) (Finset.image_subset_iff.mpr fun k _ => tailDcell_mem d L k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 18)) = {0, 1, 2, 3, 4, 5, 6, 7, 8, 9, 10, 11, 12, 13, 14, 15, 16, 17} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
/-- The tile's own buffers: the six scoped buffers of the three lookups, each whole at some contents, and the rest. -/
theorem tail_ownBufs :
    (ownBufs (tailThr d L) : sProp 𝕄)
      = iprop((∃ f, (tailThr d L).loc cc0_scoped3 ↦{fullShare} f)
          ∗ (∃ f, (tailThr d L).loc cc0_scoped5 ↦{fullShare} f)
          ∗ (∃ f, (tailThr d L).loc cc0_scoped8 ↦{fullShare} f)
          ∗ (∃ f, (tailThr d L).loc cc0_scoped10 ↦{fullShare} f)
          ∗ (∃ f, (tailThr d L).loc cc0_scoped13 ↦{fullShare} f)
          ∗ (∃ f, (tailThr d L).loc cc0_scoped15 ↦{fullShare} f)
          ∗ bigSep (((((((ownRefs (τ := τ) (.scVector (cV L) (jV L))).erase ((Proc.scVector (cV L) (jV L)).devRef cc0_scoped3)).erase ((Proc.scVector (cV L) (jV L)).devRef cc0_scoped5)).erase ((Proc.scVector (cV L) (jV L)).devRef cc0_scoped8)).erase ((Proc.scVector (cV L) (jV L)).devRef cc0_scoped10)).erase ((Proc.scVector (cV L) (jV L)).devRef cc0_scoped13)).erase ((Proc.scVector (cV L) (jV L)).devRef cc0_scoped15))
              fun b => iprop(∃ f, ((d, b) : Loc nD τ sig) ↦{fullShare} f)) := by
  unfold SparseCore.Cfg.ownBufs
  rw [SparseCore.bigSep_erase' (SparseCore.Cfg.mem_ownRefs_of_owner (p := (Proc.scVector (cV L) (jV L))) (b := ((Proc.scVector (cV L) (jV L)).devRef cc0_scoped3)) rfl),
    SparseCore.bigSep_erase' (Finset.mem_erase.mpr ⟨fun e => absurd (Proc.devRef_injective _ e) (show (cc0_scoped5 : Ref sig .scVector) ≠ cc0_scoped3 by decide), SparseCore.Cfg.mem_ownRefs_of_owner (p := (Proc.scVector (cV L) (jV L))) (b := ((Proc.scVector (cV L) (jV L)).devRef cc0_scoped5)) rfl⟩),
    SparseCore.bigSep_erase' (Finset.mem_erase.mpr ⟨fun e => absurd (Proc.devRef_injective _ e) (show (cc0_scoped8 : Ref sig .scVector) ≠ cc0_scoped5 by decide), Finset.mem_erase.mpr ⟨fun e => absurd (Proc.devRef_injective _ e) (show (cc0_scoped8 : Ref sig .scVector) ≠ cc0_scoped3 by decide), SparseCore.Cfg.mem_ownRefs_of_owner (p := (Proc.scVector (cV L) (jV L))) (b := ((Proc.scVector (cV L) (jV L)).devRef cc0_scoped8)) rfl⟩⟩),
    SparseCore.bigSep_erase' (Finset.mem_erase.mpr ⟨fun e => absurd (Proc.devRef_injective _ e) (show (cc0_scoped10 : Ref sig .scVector) ≠ cc0_scoped8 by decide), Finset.mem_erase.mpr ⟨fun e => absurd (Proc.devRef_injective _ e) (show (cc0_scoped10 : Ref sig .scVector) ≠ cc0_scoped5 by decide), Finset.mem_erase.mpr ⟨fun e => absurd (Proc.devRef_injective _ e) (show (cc0_scoped10 : Ref sig .scVector) ≠ cc0_scoped3 by decide), SparseCore.Cfg.mem_ownRefs_of_owner (p := (Proc.scVector (cV L) (jV L))) (b := ((Proc.scVector (cV L) (jV L)).devRef cc0_scoped10)) rfl⟩⟩⟩),
    SparseCore.bigSep_erase' (Finset.mem_erase.mpr ⟨fun e => absurd (Proc.devRef_injective _ e) (show (cc0_scoped13 : Ref sig .scVector) ≠ cc0_scoped10 by decide), Finset.mem_erase.mpr ⟨fun e => absurd (Proc.devRef_injective _ e) (show (cc0_scoped13 : Ref sig .scVector) ≠ cc0_scoped8 by decide), Finset.mem_erase.mpr ⟨fun e => absurd (Proc.devRef_injective _ e) (show (cc0_scoped13 : Ref sig .scVector) ≠ cc0_scoped5 by decide), Finset.mem_erase.mpr ⟨fun e => absurd (Proc.devRef_injective _ e) (show (cc0_scoped13 : Ref sig .scVector) ≠ cc0_scoped3 by decide), SparseCore.Cfg.mem_ownRefs_of_owner (p := (Proc.scVector (cV L) (jV L))) (b := ((Proc.scVector (cV L) (jV L)).devRef cc0_scoped13)) rfl⟩⟩⟩⟩),
    SparseCore.bigSep_erase' (Finset.mem_erase.mpr ⟨fun e => absurd (Proc.devRef_injective _ e) (show (cc0_scoped15 : Ref sig .scVector) ≠ cc0_scoped13 by decide), Finset.mem_erase.mpr ⟨fun e => absurd (Proc.devRef_injective _ e) (show (cc0_scoped15 : Ref sig .scVector) ≠ cc0_scoped10 by decide), Finset.mem_erase.mpr ⟨fun e => absurd (Proc.devRef_injective _ e) (show (cc0_scoped15 : Ref sig .scVector) ≠ cc0_scoped8 by decide), Finset.mem_erase.mpr ⟨fun e => absurd (Proc.devRef_injective _ e) (show (cc0_scoped15 : Ref sig .scVector) ≠ cc0_scoped5 by decide), Finset.mem_erase.mpr ⟨fun e => absurd (Proc.devRef_injective _ e) (show (cc0_scoped15 : Ref sig .scVector) ≠ cc0_scoped3 by decide), SparseCore.Cfg.mem_ownRefs_of_owner (p := (Proc.scVector (cV L) (jV L))) (b := ((Proc.scVector (cV L) (jV L)).devRef cc0_scoped15)) rfl⟩⟩⟩⟩⟩)]

end Cert.Proof.K

end
-- ==== Proof.KTailR3D.lean ====
/-
  The first of the three pipelined lookups: its two-slot buffers, what is in flight on its semaphores, the facts that
  the fetched words are the index block's and stay in range, and the loop's invariant.  At trip t the fetch of index
  block t is in flight into the index slot of t's parity and the copy-out of the gathered rows of block t - 1 is in
  flight from the row slot of the other parity; the blocks before t - 1 hold the lookup's values.
-/
import proofs.«206595_g34437047779621_cont_8to1_b_428_16_alg».proof.Proof.KTailLib

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

/-! ## The buffers of the first lookup -/

/-- One slot of the two-slot buffer of index words. -/
abbrev r3iSlot (off : Fin 4 → ℕ) (h : ∀ a, off a + S1x1x1x128.size a ≤ S2x1x1x128.size a) : Memref sig .scVector .vmem S1x1x1x128 .i32 :=
  (Memref.whole cc0_scoped3).slice (Rect.unit (s := S2x1x1x128) off S1x1x1x128.size h) (fun _ => rfl)
/-- One slot of the two-slot buffer of gathered rows. -/
abbrev r3oSlot (off : Fin 5 → ℕ) (h : ∀ a, off a + S1x1x1x128x128.size a ≤ S2x1x1x128x128.size a) : Memref sig .scVector .vmem S1x1x1x128x128 .f32 :=
  (Memref.whole cc0_scoped5).slice (Rect.unit (s := S2x1x1x128x128) off S1x1x1x128x128.size h) (fun _ => rfl)
/-- The list of 128 index words of one slot, as the gather reads it. -/
abbrev r3list (off : Fin 4 → ℕ) (h : ∀ a, off a + S1x1x1x128.size a ≤ S2x1x1x128.size a) : Memref sig .scVector .vmem S128 .i32 :=
  ((((r3iSlot off h).squeeze S1x1x128 squeezes_S1x1x1x128_S1x1x128).slice (Rect.unit (s := S1x1x128) ![0, 0, 0] S1x1x128.size inb_S1x1x128_S1x1x128_0_0_0) (fun _ => rfl)).squeeze S128 squeezes_S1x1x128_S128)

/-- An index slot at contents `f`. -/
abbrev r3ISlotPt (off : Fin 4 → ℕ) (h : ∀ a, off a + S1x1x1x128.size a ≤ S2x1x1x128.size a)
    (f : Buf (Elt F) ((Memref.whole cc0_scoped3).view.loc (tailThr d L))) : sProp 𝕄 :=
  (r3iSlot off h).view.loc (tailThr d L) ↦[(r3iSlot off h).view.set]{fullShare} f
/-- A slot of gathered rows at contents `f`. -/
abbrev r3OSlotPt (off : Fin 5 → ℕ) (h : ∀ a, off a + S1x1x1x128x128.size a ≤ S2x1x1x128x128.size a)
    (f : Buf (Elt F) ((Memref.whole cc0_scoped5).view.loc (tailThr d L))) : sProp 𝕄 :=
  (r3oSlot off h).view.loc (tailThr d L) ↦[(r3oSlot off h).view.set]{fullShare} f

/-- A fetch of an index block into an index slot, in flight. -/
abbrev r3FI (offS : Fin 1 → ℕ) (hS : ∀ a, offS a + S1.size a ≤ S2.size a) (offL : Fin 4 → ℕ) (hL : ∀ a, offL a + S1x1x1x128.size a ≤ S2x1x1x128.size a)
    (offB : Fin 3 → ℕ) (hB : ∀ a, offB a + S1x1x128.size a ≤ S3x50x4096.size a) (q : PosShare TreeShare)
    (f : Buf (Elt F) ((Memref.whole cc0_scoped3).view.loc (tailThr d L))) : sProp 𝕄 :=
  Transfers.Flight countersEmb (tailThr d L) (SemLoc.dma (tailSem cc0_scoped4 offS hS)) (default : HIx 1) 4096
    iprop(((r3iSlot offL hL).view.loc (tailThr d L) ↦[(r3iSlot offL hL).view.set]{fullShare} f)
      ∗ ((tailIBlk offB hB).view.loc (tailThr d L) ↦[(tailIBlk offB hB).view.set]{q} idxT m d))
/-- A copy of a slot of gathered rows out to an output block, in flight. -/
abbrev r3FO (offS : Fin 1 → ℕ) (hS : ∀ a, offS a + S1.size a ≤ S2.size a) (offB : Fin 4 → ℕ) (hB : ∀ a, offB a + S1x1x128x128.size a ≤ S50x3x4096x128.size a)
    (fB : Buf (Elt F) (oLoc d)) (offL : Fin 5 → ℕ) (hL : ∀ a, offL a + S1x1x1x128x128.size a ≤ S2x1x1x128x128.size a)
    (fL : Buf (Elt F) ((Memref.whole cc0_scoped5).view.loc (tailThr d L))) : sProp 𝕄 :=
  Transfers.Flight countersEmb (tailThr d L) (SemLoc.dma (tailSem cc0_scoped6 offS hS)) (default : HIx 1) 524288
    iprop(((tailOBlk offB hB).view.loc (tailThr d L) ↦[(tailOBlk offB hB).view.set]{fullShare} fB)
      ∗ ((r3oSlot offL hL).view.loc (tailThr d L) ↦[(r3oSlot offL hL).view.set]{fullShare} fL))

/-- The index slot `off` holds the 128 words of the index block `boff`. -/
def r3good (off : Fin 4 → ℕ) (h : ∀ a, off a + S1x1x1x128.size a ≤ S2x1x1x128.size a)
    (boff : Fin 3 → ℕ) (hb : ∀ a, boff a + S1x1x128.size a ≤ S3x50x4096.size a)
    (f : Buf (Elt F) ((Memref.whole cc0_scoped3).view.loc (tailThr d L))) : Prop :=
  ∀ x : S128.Idx, (r3list off h).view.read (Elt F) f x = ((tailIBlk boff hb).view.reshape S128 tail_numel128).read (Elt F) (idxT m d) x

/-- The tile's first step of the 1600, as a word. -/
def r3v7 : BitVec 32 :=
  Scalar.muli (Scalar.addi (Scalar.addi (0#32) (Scalar.muli (BitVec.ofNat 32 (L 1).val) 1#32)) (Scalar.muli (BitVec.ofNat 32 (L 0).val) 16#32)) 50#32

/-- The table of the first lookup at a share. -/
abbrev r3Tab (qs : PosShare TreeShare) : sProp 𝕄 :=
  (Memref.whole cc0_scratch0).view.loc (tailThr d L) ↦{qs} (m (w0Loc d) : Buf (Elt F) (sh0Loc d (cV L)))

theorem r3list_subset (off : Fin 4 → ℕ) (h : ∀ a, off a + S1x1x1x128.size a ≤ S2x1x1x128.size a) :
    (r3list off h).view.set ⊆ (r3iSlot off h).view.set := by
  show ((((r3iSlot off h).view.reshape S1x1x128 _).slice _).reshape S128 _).set ⊆ _
  rw [View.set_reshape]
  refine (View.set_slice_subset _ _).trans ?_
  rw [View.set_reshape]

omit [FloatOps F] in
theorem r3_unit0_emb : ∀ x : S128.Idx,
    (Rect.unit (s := S1x1x128) ![0, 0, 0] S1x1x128.size inb_S1x1x128_S1x1x128_0_0_0).emb ((Shape.reshapeEquiv squeezes_S1x1x128_S128.numel_eq) x)
      = (Shape.reshapeEquiv (s := S1x1x128) (s' := S128) (by decide)) x := by
  decide +kernel

theorem r3good_write (off : Fin 4 → ℕ) (h : ∀ a, off a + S1x1x1x128.size a ≤ S2x1x1x128.size a)
    (boff : Fin 3 → ℕ) (hb : ∀ a, boff a + S1x1x128.size a ≤ S3x50x4096.size a)
    (fa : Buf (Elt F) ((Memref.whole cc0_scoped3).view.loc (tailThr d L))) :
    r3good m d L off h boff hb
      (View.write (Elt F) ((r3iSlot off h).squeeze S1x1x128 squeezes_S1x1x1x128_S1x1x128).view fa
        (ReadAs.same.apply (View.read (Elt F) (tailIBlk boff hb).view (idxT m d))) Finset.univ) := by
  intro x
  have e : (r3list off h).view.emb x
      = ((r3iSlot off h).squeeze S1x1x128 squeezes_S1x1x1x128_S1x1x128).view.emb ((Shape.reshapeEquiv (s := S1x1x128) (s' := S128) (by decide)) x) := by
    show ((r3iSlot off h).squeeze S1x1x128 squeezes_S1x1x1x128_S1x1x128).view.emb
        ((Rect.unit (s := S1x1x128) ![0, 0, 0] S1x1x128.size inb_S1x1x128_S1x1x128_0_0_0).emb ((Shape.reshapeEquiv squeezes_S1x1x128_S128.numel_eq) x)) = _
    rw [r3_unit0_emb]
  rw [View.read_apply, e, View.write_emb_of_mem _ _ (Finset.mem_univ _)]
  simp only [cast_cast, cast_eq]
  rfl

/-- A copy-out in flight, as the run leaves it, is the copy-out in flight the invariant states: its block at the values
    the block is to hold, its slot by the slot's own elements. -/
theorem r3FO_fix (offS : Fin 1 → ℕ) (hS : ∀ a, offS a + S1.size a ≤ S2.size a) (offB : Fin 4 → ℕ) (hB : ∀ a, offB a + S1x1x128x128.size a ≤ S50x3x4096x128.size a)
    (fB fB' : Buf (Elt F) (oLoc d)) (offL offL' : Fin 5 → ℕ) (hL : ∀ a, offL a + S1x1x1x128x128.size a ≤ S2x1x1x128x128.size a)
    (hL' : ∀ a, offL' a + S1x1x1x128x128.size a ≤ S2x1x1x128x128.size a)
    (fL : Buf (Elt F) ((Memref.whole cc0_scoped5).view.loc (tailThr d L)))
    (hv : ∀ i ∈ (tailOBlk offB hB).view.set, fB i = fB' i) (hoff : offL' = offL) :
    (Transfers.Flight countersEmb (tailThr d L) (SemLoc.dma (tailSem cc0_scoped6 offS hS)) (default : HIx 1) 524288
      iprop(((tailOBlk offB hB).view.loc (tailThr d L) ↦[(tailOBlk offB hB).view.set]{fullShare} fB)
        ∗ ((r3oSlot offL hL).view.loc (tailThr d L) ↦[((r3oSlot offL' hL').squeeze S1x1x128x128 squeezes_S1x1x1x128x128_S1x1x128x128).view.set]{fullShare} fL)) : sProp 𝕄)
      ⊢ r3FO d L offS hS offB hB fB' offL hL fL := by
  subst hoff
  have hset : ((r3oSlot offL' hL').squeeze S1x1x128x128 squeezes_S1x1x1x128x128_S1x1x128x128).view.set = (r3oSlot offL' hL).view.set :=
    View.set_reshape _ _
  refine Transfers.Flight_mono countersEmb (tailThr d L) ?_
  rw [pointsTo_congr hv, hset]

variable (O : CellTallies nD τ sig (HIx 1)) (W : Waits sig (HIx 1))

/-! ## Slots and semaphores of one parity under two spellings -/

omit [FloatOps F] in
theorem r3ISlotPt_congr {off off' : Fin 4 → ℕ} (e : off = off') (h : ∀ a, off a + S1x1x1x128.size a ≤ S2x1x1x128.size a)
    (h' : ∀ a, off' a + S1x1x1x128.size a ≤ S2x1x1x128.size a) (f : Buf (Elt F) ((Memref.whole cc0_scoped3).view.loc (tailThr d L))) :
    (r3ISlotPt d L off h f : sProp 𝕄) = r3ISlotPt d L off' h' f := by subst e; rfl
omit [FloatOps F] in
theorem r3OSlotPt_congr {off off' : Fin 5 → ℕ} (e : off = off') (h : ∀ a, off a + S1x1x1x128x128.size a ≤ S2x1x1x128x128.size a)
    (h' : ∀ a, off' a + S1x1x1x128x128.size a ≤ S2x1x1x128x128.size a) (f : Buf (Elt F) ((Memref.whole cc0_scoped5).view.loc (tailThr d L))) :
    (r3OSlotPt d L off h f : sProp 𝕄) = r3OSlotPt d L off' h' f := by subst e; rfl
omit [FloatOps F] in
theorem r3par4 {a b : ℕ} (ha : a < 2 ^ 32) (hb : b < 2 ^ 32) (h : a % 2 = b % 2) : k0_off7 (tailW a) = k0_off4 (tailW b) := by
  rw [Arith.off7_eq, Arith.off4_eq, tailW_par ha hb h]
omit [FloatOps F] in
theorem r3par1I {a b : ℕ} (ha : a < 2 ^ 32) (hb : b < 2 ^ 32) (h : a % 2 = b % 2) : k0_off9 (tailW a) = k0_off6 (tailW b) := by
  rw [Arith.off9_eq, Arith.off6_eq, tailW_par ha hb h]
omit [FloatOps F] in
theorem r3par5 {a b : ℕ} (ha : a < 2 ^ 32) (hb : b < 2 ^ 32) (h : a % 2 = b % 2) : k0_off15 (tailW a) = k0_off10 (tailW b) := by
  rw [Arith.off15_eq, Arith.off10_eq, tailW_par ha hb h]
omit [FloatOps F] in
theorem r3par1O {a b : ℕ} (ha : a < 2 ^ 32) (hb : b < 2 ^ 32) (h : a % 2 = b % 2) : k0_off17 (tailW a) = k0_off14 (tailW b) := by
  rw [Arith.off17_eq, Arith.off14_eq, tailW_par ha hb h]

/-! ## The two-slot buffers as their slots -/

omit [FloatOps F] in theorem r3inbI0 : ∀ a, (![0, 0, 0, 0] : Fin 4 → ℕ) a + S1x1x1x128.size a ≤ S2x1x1x128.size a := by decide
omit [FloatOps F] in theorem r3inbI1 : ∀ a, (![1, 0, 0, 0] : Fin 4 → ℕ) a + S1x1x1x128.size a ≤ S2x1x1x128.size a := by decide
omit [FloatOps F] in theorem r3inbO0 : ∀ a, (![0, 0, 0, 0, 0] : Fin 5 → ℕ) a + S1x1x1x128x128.size a ≤ S2x1x1x128x128.size a := by decide
omit [FloatOps F] in theorem r3inbO1 : ∀ a, (![1, 0, 0, 0, 0] : Fin 5 → ℕ) a + S1x1x1x128x128.size a ≤ S2x1x1x128x128.size a := by decide

omit [FloatOps F] in
theorem r3IDisj : Disjoint (r3iSlot ![1, 0, 0, 0] r3inbI1).view.set (r3iSlot ![0, 0, 0, 0] r3inbI0).view.set := by
  have h1 : (r3iSlot ![1, 0, 0, 0] r3inbI1).view.set = (Rect.unit (s := S2x1x1x128) ![1, 0, 0, 0] S1x1x1x128.size r3inbI1).set := View.set_slice_whole _ _
  have h0 : (r3iSlot ![0, 0, 0, 0] r3inbI0).view.set = (Rect.unit (s := S2x1x1x128) ![0, 0, 0, 0] S1x1x1x128.size r3inbI0).set := View.set_slice_whole _ _
  rw [h1, h0]
  exact Rect.disjoint_of_separated _ _ 0 (.inr (.inr (by decide)))
omit [FloatOps F] in
theorem r3ISub : (r3iSlot ![1, 0, 0, 0] r3inbI1).view.set ⊆ Finset.univ \ (r3iSlot ![0, 0, 0, 0] r3inbI0).view.set :=
  Finset.subset_sdiff.mpr ⟨Finset.subset_univ _, r3IDisj⟩
omit [FloatOps F] in
theorem r3ODisj : Disjoint (r3oSlot ![1, 0, 0, 0, 0] r3inbO1).view.set (r3oSlot ![0, 0, 0, 0, 0] r3inbO0).view.set := by
  have h1 : (r3oSlot ![1, 0, 0, 0, 0] r3inbO1).view.set = (Rect.unit (s := S2x1x1x128x128) ![1, 0, 0, 0, 0] S1x1x1x128x128.size r3inbO1).set := View.set_slice_whole _ _
  have h0 : (r3oSlot ![0, 0, 0, 0, 0] r3inbO0).view.set = (Rect.unit (s := S2x1x1x128x128) ![0, 0, 0, 0, 0] S1x1x1x128x128.size r3inbO0).set := View.set_slice_whole _ _
  rw [h1, h0]
  exact Rect.disjoint_of_separated _ _ 0 (.inr (.inr (by decide)))
omit [FloatOps F] in
theorem r3OSub : (r3oSlot ![1, 0, 0, 0, 0] r3inbO1).view.set ⊆ Finset.univ \ (r3oSlot ![0, 0, 0, 0, 0] r3inbO0).view.set :=
  Finset.subset_sdiff.mpr ⟨Finset.subset_univ _, r3ODisj⟩

/-- What of the index buffer lies in neither slot (nothing; kept as a piece so that no count is needed). -/
abbrev r3IRest : Finset (Idx ((tailThr d L).loc cc0_scoped3)) :=
  (Finset.univ \ (r3iSlot ![0, 0, 0, 0] r3inbI0).view.set) \ (r3iSlot ![1, 0, 0, 0] r3inbI1).view.set
abbrev r3ORest : Finset (Idx ((tailThr d L).loc cc0_scoped5)) :=
  (Finset.univ \ (r3oSlot ![0, 0, 0, 0, 0] r3inbO0).view.set) \ (r3oSlot ![1, 0, 0, 0, 0] r3inbO1).view.set

omit [FloatOps F] in
theorem r3IBuf_split (f : Buf (Elt F) ((tailThr d L).loc cc0_scoped3)) :
    ((tailThr d L).loc cc0_scoped3 ↦{fullShare} f : sProp 𝕄)
      ⊢ iprop(r3ISlotPt d L ![0, 0, 0, 0] r3inbI0 f ∗ r3ISlotPt d L ![1, 0, 0, 0] r3inbI1 f ∗ ((tailThr d L).loc cc0_scoped3 ↦[r3IRest d L]{fullShare} f)) := by
  iintro H
  ihave H' := (pointsTo_split_subset (Finset.subset_univ (r3iSlot ![0, 0, 0, 0] r3inbI0).view.set)).1 $$ H
  icases H' with ⟨H0, Hr⟩
  ihave Hr' := (pointsTo_split_subset r3ISub).1 $$ Hr
  icases Hr' with ⟨H1, Hr⟩
  isplitl [H0]; · iexact H0
  isplitl [H1]; · iexact H1
  iexact Hr

omit [FloatOps F] in
theorem r3IBuf_join (g0 g1 g : Buf (Elt F) ((tailThr d L).loc cc0_scoped3)) :
    iprop(r3ISlotPt d L ![0, 0, 0, 0] r3inbI0 g0 ∗ r3ISlotPt d L ![1, 0, 0, 0] r3inbI1 g1 ∗ ((tailThr d L).loc cc0_scoped3 ↦[r3IRest d L]{fullShare} g))
      ⊢ (∃ f, (tailThr d L).loc cc0_scoped3 ↦{fullShare} f : sProp 𝕄) := by
  iintro ⟨H0, H1, Hr⟩
  ihave Hr' := (pointsTo_join_subset (ℓ := (tailThr d L).loc cc0_scoped3) r3ISub) $$ [H1 Hr]
  · isplitl [H1]; · iexact H1
    iexact Hr
  ihave H := (pointsTo_join_subset (ℓ := (tailThr d L).loc cc0_scoped3) (Finset.subset_univ (r3iSlot ![0, 0, 0, 0] r3inbI0).view.set)) $$ [H0 Hr']
  · isplitl [H0]; · iexact H0
    iexact Hr'
  iexists _; iexact H

omit [FloatOps F] in
theorem r3OBuf_split (f : Buf (Elt F) ((tailThr d L).loc cc0_scoped5)) :
    ((tailThr d L).loc cc0_scoped5 ↦{fullShare} f : sProp 𝕄)
      ⊢ iprop(r3OSlotPt d L ![0, 0, 0, 0, 0] r3inbO0 f ∗ r3OSlotPt d L ![1, 0, 0, 0, 0] r3inbO1 f ∗ ((tailThr d L).loc cc0_scoped5 ↦[r3ORest d L]{fullShare} f)) := by
  iintro H
  ihave H' := (pointsTo_split_subset (Finset.subset_univ (r3oSlot ![0, 0, 0, 0, 0] r3inbO0).view.set)).1 $$ H
  icases H' with ⟨H0, Hr⟩
  ihave Hr' := (pointsTo_split_subset r3OSub).1 $$ Hr
  icases Hr' with ⟨H1, Hr⟩
  isplitl [H0]; · iexact H0
  isplitl [H1]; · iexact H1
  iexact Hr

omit [FloatOps F] in
theorem r3OBuf_join (g0 g1 g : Buf (Elt F) ((tailThr d L).loc cc0_scoped5)) :
    iprop(r3OSlotPt d L ![0, 0, 0, 0, 0] r3inbO0 g0 ∗ r3OSlotPt d L ![1, 0, 0, 0, 0] r3inbO1 g1 ∗ ((tailThr d L).loc cc0_scoped5 ↦[r3ORest d L]{fullShare} g))
      ⊢ (∃ f, (tailThr d L).loc cc0_scoped5 ↦{fullShare} f : sProp 𝕄) := by
  iintro ⟨H0, H1, Hr⟩
  ihave Hr' := (pointsTo_join_subset (ℓ := (tailThr d L).loc cc0_scoped5) r3OSub) $$ [H1 Hr]
  · isplitl [H1]; · iexact H1
    iexact Hr
  ihave H := (pointsTo_join_subset (ℓ := (tailThr d L).loc cc0_scoped5) (Finset.subset_univ (r3oSlot ![0, 0, 0, 0, 0] r3inbO0).view.set)) $$ [H0 Hr']
  · isplitl [H0]; · iexact H0
    iexact Hr'
  iexists _; iexact H

/-! ## Flights under two spellings -/

theorem r3FI_congr {offS offS' : Fin 1 → ℕ} {offL offL' : Fin 4 → ℕ} {offB offB' : Fin 3 → ℕ} (eS : offS = offS') (eL : offL = offL') (eB : offB = offB')
    (hS : ∀ a, offS a + S1.size a ≤ S2.size a) (hL : ∀ a, offL a + S1x1x1x128.size a ≤ S2x1x1x128.size a) (hB : ∀ a, offB a + S1x1x128.size a ≤ S3x50x4096.size a)
    (hS' : ∀ a, offS' a + S1.size a ≤ S2.size a) (hL' : ∀ a, offL' a + S1x1x1x128.size a ≤ S2x1x1x128.size a) (hB' : ∀ a, offB' a + S1x1x128.size a ≤ S3x50x4096.size a)
    (q : PosShare TreeShare) (f : Buf (Elt F) ((Memref.whole cc0_scoped3).view.loc (tailThr d L))) :
    (r3FI m d L offS hS offL hL offB hB q f : sProp 𝕄) = r3FI m d L offS' hS' offL' hL' offB' hB' q f := by subst eS eL eB; rfl
theorem r3good_congr {offL offL' : Fin 4 → ℕ} {offB offB' : Fin 3 → ℕ} (eL : offL = offL') (eB : offB = offB')
    (hL : ∀ a, offL a + S1x1x1x128.size a ≤ S2x1x1x128.size a) (hB : ∀ a, offB a + S1x1x128.size a ≤ S3x50x4096.size a)
    (hL' : ∀ a, offL' a + S1x1x1x128.size a ≤ S2x1x1x128.size a) (hB' : ∀ a, offB' a + S1x1x128.size a ≤ S3x50x4096.size a)
    (f : Buf (Elt F) ((Memref.whole cc0_scoped3).view.loc (tailThr d L))) (h : r3good m d L offL hL offB hB f) : r3good m d L offL' hL' offB' hB' f := by
  subst eL eB; exact h
omit [FloatOps F] in
theorem r3FO_congr {offS offS' : Fin 1 → ℕ} {offB offB' : Fin 4 → ℕ} {offL offL' : Fin 5 → ℕ} (eS : offS = offS') (eB : offB = offB') (eL : offL = offL')
    (hS : ∀ a, offS a + S1.size a ≤ S2.size a) (hB : ∀ a, offB a + S1x1x128x128.size a ≤ S50x3x4096x128.size a) (hL : ∀ a, offL a + S1x1x1x128x128.size a ≤ S2x1x1x128x128.size a)
    (hS' : ∀ a, offS' a + S1.size a ≤ S2.size a) (hB' : ∀ a, offB' a + S1x1x128x128.size a ≤ S50x3x4096x128.size a) (hL' : ∀ a, offL' a + S1x1x1x128x128.size a ≤ S2x1x1x128x128.size a)
    (fB : Buf (Elt F) (oLoc d)) (fL : Buf (Elt F) ((Memref.whole cc0_scoped5).view.loc (tailThr d L))) :
    (r3FO d L offS hS offB hB fB offL hL fL : sProp 𝕄) = r3FO d L offS' hS' offB' hB' fB offL' hL' fL := by subst eS eB eL; rfl

/-! ## In-bounds facts of the program's offsets at any word, and of the canonical blocks -/

omit [FloatOps F] in theorem r3hb4 (a : BitVec 32) : ∀ j, k0_off4 a j + S1x1x1x128.size j ≤ S2x1x1x128.size j := by rw [Arith.off4_eq]; exact Arith.slot4 a
omit [FloatOps F] in theorem r3hb6 (a : BitVec 32) : ∀ j, k0_off6 a j + S1.size j ≤ S2.size j := by rw [Arith.off6_eq]; exact Arith.slot1 a
omit [FloatOps F] in theorem r3hb7 (a : BitVec 32) : ∀ j, k0_off7 a j + S1x1x1x128.size j ≤ S2x1x1x128.size j := by rw [Arith.off7_eq]; exact Arith.slot4 a
omit [FloatOps F] in theorem r3hb9 (a : BitVec 32) : ∀ j, k0_off9 a j + S1.size j ≤ S2.size j := by rw [Arith.off9_eq]; exact Arith.slot1 a
omit [FloatOps F] in theorem r3hb10 (a : BitVec 32) : ∀ j, k0_off10 a j + S1x1x1x128x128.size j ≤ S2x1x1x128x128.size j := by rw [Arith.off10_eq]; exact Arith.slot5 a
omit [FloatOps F] in theorem r3hb11 (a : BitVec 32) : ∀ j, k0_off11 a j + S1x1x1x128.size j ≤ S2x1x1x128.size j := by rw [Arith.off11_eq]; exact Arith.slot4 a
omit [FloatOps F] in theorem r3hb12 (a : BitVec 32) : ∀ j, k0_off12 a j + S1x1x1x128x128.size j ≤ S2x1x1x128x128.size j := by rw [Arith.off12_eq]; exact Arith.slot5 a
omit [FloatOps F] in theorem r3hb14 (a : BitVec 32) : ∀ j, k0_off14 a j + S1.size j ≤ S2.size j := by rw [Arith.off14_eq]; exact Arith.slot1 a
omit [FloatOps F] in theorem r3hb15 (a : BitVec 32) : ∀ j, k0_off15 a j + S1x1x1x128x128.size j ≤ S2x1x1x128x128.size j := by rw [Arith.off15_eq]; exact Arith.slot5 a
omit [FloatOps F] in theorem r3hb17 (a : BitVec 32) : ∀ j, k0_off17 a j + S1.size j ≤ S2.size j := by rw [Arith.off17_eq]; exact Arith.slot1 a

/-- The index block of the tile's trip `u` for this lookup's table. -/
abbrev r3bi (u : Fin 50) : Fin 3 → ℕ := Arith.blkIn 0 L u.val
omit [FloatOps F] in theorem r3bi_inb (u : Fin 50) : ∀ a, r3bi L u a + S1x1x128.size a ≤ S3x50x4096.size a := Arith.blkIn_inb 0 (by decide) L u.val u.isLt
/-- The output block of the tile's trip `u` for this lookup's table. -/
abbrev r3bo (u : Fin 50) : Fin 4 → ℕ := outOff 0 (stp (L 0).val (L 1).val u.val)
omit [FloatOps F] in theorem r3bo_inb (u : Fin 50) : ∀ a, r3bo L u a + S1x1x128x128.size a ≤ S50x3x4096x128.size a :=
  outOff_inb (by decide) (stp_lt (L 0).isLt (L 1).isLt u.isLt)

variable (qi qs : PosShare TreeShare)

/-- The words the loop carries into trip `t`. -/
def r3car (t : ℕ) : BitVec 32 × BitVec 32 × BitVec 32 × BitVec 32 × BitVec 32 :=
  (tailW (min (t + 1) 50), tailW t, tailW t, tailW (t - 1), tailW (t % 50))

/-- Before trip `t < 50`, the index side: the fetch of block `t` in flight into the slot of `t`'s parity, on trip `t`'s
    read token (the rest of that token beside it), the other slot and its semaphore free, every other token whole. -/
def r3idxMid (t : ℕ) : sProp 𝕄 :=
  iprop((∃ fcur, ⌜r3good m d L (k0_off7 (tailW t)) (r3hb7 _) (r3bi L (tailFin t)) (r3bi_inb L _) fcur⌝
        ∗ r3FI m d L (k0_off9 (tailW t)) (r3hb9 _) (k0_off7 (tailW t)) (r3hb7 _) (r3bi L (tailFin t)) (r3bi_inb L _) (shareTok qi 50 (tailFin t)) fcur)
    ∗ (iLoc d ↦[Finset.univ \ (tailIBlk (r3bi L (tailFin t)) (r3bi_inb L _)).view.set]{shareTok qi 50 (tailFin t)} idxT m d)
    ∗ (∃ f, r3ISlotPt d L (k0_off4 (tailW (t + 1))) (r3hb4 _) f)
    ∗ semVal (tailThr d L, SemLoc.dma (tailSem cc0_scoped4 (k0_off6 (tailW (t + 1))) (r3hb6 _))) 0
    ∗ bigSep (Finset.univ.filter fun u : Fin 50 => u.val ≠ t) (tailTokPt m d qi))

/-- After the last trip, the index side: both slots and semaphores free, every token whole. -/
def r3idxEnd (t : ℕ) : sProp 𝕄 :=
  iprop((∃ f, r3ISlotPt d L (k0_off4 (tailW t)) (r3hb4 _) f)
    ∗ semVal (tailThr d L, SemLoc.dma (tailSem cc0_scoped4 (k0_off6 (tailW t)) (r3hb6 _))) 0
    ∗ (∃ f, r3ISlotPt d L (k0_off7 (tailW (t - 1))) (r3hb7 _) f)
    ∗ semVal (tailThr d L, SemLoc.dma (tailSem cc0_scoped4 (k0_off9 (tailW (t - 1))) (r3hb9 _))) 0
    ∗ bigSep Finset.univ (tailTokPt m d qi))

/-- The output side before trip `t`: the copy-out of block `t - 1` in flight (none before trip 0: then the other slot is
    free), the slot of `t`'s parity and its semaphore free, the blocks before `t - 1` at the lookup's values, those from
    `t` on as the launch left them. -/
def r3out (t : ℕ) : sProp 𝕄 :=
  iprop((if t = 0 then iprop((∃ f, r3OSlotPt d L (k0_off10 (tailW (t + 1))) (r3hb10 _) f)
            ∗ semVal (tailThr d L, SemLoc.dma (tailSem cc0_scoped6 (k0_off14 (tailW (t + 1))) (r3hb14 _))) 0)
         else iprop(∃ fbp, r3FO d L (k0_off17 (tailW (t - 1))) (r3hb17 _) (r3bo L (tailFin (t - 1))) (r3bo_inb L _) (outK m d) (k0_off15 (tailW (t - 1))) (r3hb15 _) fbp))
    ∗ (∃ f, r3OSlotPt d L (k0_off10 (tailW t)) (r3hb10 _) f)
    ∗ semVal (tailThr d L, SemLoc.dma (tailSem cc0_scoped6 (k0_off14 (tailW t)) (r3hb14 _))) 0
    ∗ bigSep (Finset.univ.filter fun u : Fin 50 => u.val + 1 < t) (fun u => tailOPt d L 0 u (outK m d))
    ∗ bigSep (Finset.univ.filter fun u : Fin 50 => t ≤ u.val) (fun u => tailOPt d L 0 u (m (oLoc d))))

/-- The loop's invariant. -/
def r3inv (t : ℕ) (acc : BitVec 32 × BitVec 32 × BitVec 32 × BitVec 32 × BitVec 32) : sProp 𝕄 :=
  iprop(⌜acc = r3car t⌝ ∗ Transfers.MayWaits (tailThr d L) (default : HIx 1) O ∗ r3Tab m d L qs
    ∗ semVal (tailThr d L, SemLoc.dma cc0_scoped7.sem) 0
    ∗ (if t < 50 then r3idxMid m d L qi t else r3idxEnd m d L qi t)
    ∗ r3out m d L t
    ∗ ∃ W', ⌜∀ p ∈ W', p ∈ W ∨ p.2 = none⌝ ∗ owes (tailThr d L) O W')

end Cert.Proof.K

end
-- ==== Proof.KTailVal.lean ====
/-
  The value of one gathered block.  A step gathers 128 rows of table l: row y of the block is the table's row named by
  the y-th word of the step's list, and that list holds the index words at positions (l, p, b0 + y) of the transposed
  index array, which are the words at (b0 + y, p, l) of the index array as given.  Every index word is at most 999, so
  the row it names is its value, and entry (y, e) of the block is entry (p, l, b0 + y, e) of the lookup laid out as
  [50, 3, 4096, 128].
-/
import proofs.«206595_g34437047779621_cont_8to1_b_428_16_alg».proof.Proof.KPay
import Idealize.ShloMosaic.Lib.SparseCore.Stream
import Idealize.ShloMosaic.Lib.Pipeline.Value

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

variable (m : (ℓ : Loc nD τ sig) → Buf (Elt F) ℓ) (d : Dev nD)

open Idealize.ShloMosaic.ValueIdx

/-- The index word the transposed array holds at (l, p, b) is the word the given array holds at (b, p, l). -/
theorem idxT_apply (l : Fin 3) (p : Fin 50) (b : Fin 4096) :
    (idxT m d : IVec S3x50x4096 32) (ix3 l p b) = (m (xLoc d) : IVec Cert.Lookup.SX 32) (ix3 b p l) := by
  unfold idxT
  exact transpose_apply _ _ _ _ _ fun c => match c with | ⟨0, _⟩ => rfl | ⟨1, _⟩ => rfl | ⟨2, _⟩ => rfl

/-- The position of a rank-one index in row-major order is its coordinate. -/
theorem rowMajor_symm_one (k : Fin S128.numel) : ((S128.rowMajor.symm k) 0).val = k.val := by
  have h := Shape.rowMajor_val_one (S128.rowMajor.symm k)
  rw [Equiv.apply_symm_apply] at h
  exact h.symm

theorem val_gather (l p b0 : ℕ) (hx : Cert.Lookup.InRange (m (xLoc d) : IVec Cert.Lookup.SX 32))
    (tbl : S1001x128.Idx → Elt F .f32)
    (htbl : ∀ j : S1001x128.Idx, tbl j = Cert.Lookup.table (F := F) (m (w0Loc d)) (m (w1Loc d)) (m (w2Loc d)) ⟨l % 3, Nat.mod_lt _ (by decide)⟩ j)
    (lst : S128.Idx → Elt F .i32)
    (hlst : ∀ (x : S128.Idx) (j : S3x50x4096.Idx), (j 0).val = l → (j 1).val = p → (j 2).val = b0 + (x 0).val → lst x = (idxT m d : IVec S3x50x4096 32) j)
    (hn : S128.numel = S128x128.size gathers_S1001x128_S128x128.axis')
    (hin : ∀ x, (lst x).toNat < S1001x128.size gathers_S1001x128_S128x128.axis) (hl : l < 3) :
    ∀ (y : S128x128.Idx) (j : S50x3x4096x128.Idx), (j 0).val = p → (j 1).val = l → (j 2).val = b0 + (y 0).val → (j 3).val = (y 1).val →
      SparseCore.gatherPayload gathers_S1001x128_S128x128 tbl (SparseCore.rows lst hn hin) y = (outK m d : FVec F S50x3x4096x128 .f32) j := by
  intro y j h0 h1 h2 h3
  have hp : p < 50 := h0 ▸ (j 0).isLt
  have hb : b0 + (y 0).val < 4096 := h2 ▸ (j 2).isLt
  -- the list's word for row y 0 is the index word at (b0 + y 0, p, l)
  have hw : lst (S128.rowMajor.symm ((y gathers_S1001x128_S128x128.axis').cast hn.symm))
      = (m (xLoc d) : IVec Cert.Lookup.SX 32) (ix3 (j 2) (j 0) (j 1)) := by
    rw [hlst _ (ix3 ⟨l, hl⟩ ⟨p, hp⟩ ⟨b0 + (y 0).val, hb⟩) rfl rfl (by rw [rowMajor_symm_one]; rfl), idxT_apply]
    refine congrArg _ (funext fun c => Fin.ext ?_)
    match c with
    | ⟨0, _⟩ => exact h2.symm
    | ⟨1, _⟩ => exact h0.symm
    | ⟨2, _⟩ => exact h1.symm
  show tbl (gathers_S1001x128_S128x128.idx (SparseCore.rows lst hn hin) y) = _
  rw [htbl]
  show _ = Cert.Lookup.table (F := F) (m (w0Loc d)) (m (w1Loc d)) (m (w2Loc d)) (j 1)
    (ix2 (Cert.Lookup.rowOf ((m (xLoc d) : IVec Cert.Lookup.SX 32) (ix3 (j 2) (j 0) (j 1)))) (j 3))
  have e1 : (⟨l % 3, Nat.mod_lt _ (by decide)⟩ : Fin 3) = j 1 := Fin.ext (by rw [h1]; exact Nat.mod_eq_of_lt hl)
  rw [e1]
  refine congrArg _ (funext fun c => Fin.ext ?_)
  match c with
  | ⟨0, _⟩ =>
    show (gathers_S1001x128_S128x128.idx (SparseCore.rows lst hn hin) y gathers_S1001x128_S128x128.axis).val = _
    rw [Shape.Gathers.idx_axis]
    show (lst (S128.rowMajor.symm ((y gathers_S1001x128_S128x128.axis').cast hn.symm))).toNat = (Cert.Lookup.rowOf _).val
    rw [hw, Cert.Lookup.rowOf_of_le (hx _)]
  | ⟨1, _⟩ =>
    rw [Shape.Gathers.idx_of_ne _ _ _ _ Nat.one_ne_zero]
    exact h3.symm

end Cert.Proof.K
end
-- ==== Proof.KTailR3V.lean ====
/-
  The values one step of the first lookup leaves in its output block.  The step gathers 128 table rows into a slot of
  the row buffer, through the slot's view as 128 rows of 128 lanes, and copies the slot, read with two unit axes in
  front, onto the block.  An index of the block with rows y and lanes e sits under the same rows and lanes of the
  slot, the slot there holds the gathered row named by the y-th word of the index slot, and that word is the index
  word of the block's own step; so the block holds the lookup's values.
-/
import proofs.«206595_g34437047779621_cont_8to1_b_428_16_alg».proof.Proof.KTailR3D
import proofs.«206595_g34437047779621_cont_8to1_b_428_16_alg».proof.Proof.KTailVal

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

omit [FloatOps F] in
/-- A rank-two index of 128 rows of 128 lanes, placed in the shape with two unit axes in front, keeps its coordinates. -/
theorem resh_2to4 (hq : S128x128.numel = S1x1x128x128.numel) (y : S128x128.Idx) :
    ((Shape.reshapeEquiv hq y) 0).val = 0 ∧ ((Shape.reshapeEquiv hq y) 1).val = 0
      ∧ ((Shape.reshapeEquiv hq y) 2).val = (y 0).val ∧ ((Shape.reshapeEquiv hq y) 3).val = (y 1).val := by
  have h := Shape.rowMajor_reshapeEquiv hq y
  rw [Shape.rowMajor_val_four, Shape.rowMajor_val_two] at h
  have a0 : ((Shape.reshapeEquiv hq y) 0).val < 1 := ((Shape.reshapeEquiv hq y) 0).isLt
  have a1 : ((Shape.reshapeEquiv hq y) 1).val < 1 := ((Shape.reshapeEquiv hq y) 1).isLt
  have a2 : ((Shape.reshapeEquiv hq y) 2).val < 128 := ((Shape.reshapeEquiv hq y) 2).isLt
  have a3 : ((Shape.reshapeEquiv hq y) 3).val < 128 := ((Shape.reshapeEquiv hq y) 3).isLt
  have c0 : (y 0).val < 128 := (y 0).isLt
  have c1 : (y 1).val < 128 := (y 1).isLt
  change (((((Shape.reshapeEquiv hq y) 0).val * 1 + ((Shape.reshapeEquiv hq y) 1).val) * 128 + ((Shape.reshapeEquiv hq y) 2).val) * 128
    + ((Shape.reshapeEquiv hq y) 3).val = (y 0).val * 128 + (y 1).val) at h
  omega

omit [FloatOps F] in
/-- A rank-one index of 128 words, placed in the shape with two unit axes in front, keeps its coordinate. -/
theorem resh_1to3 (hq : S128.numel = S1x1x128.numel) (x : S128.Idx) :
    ((Shape.reshapeEquiv hq x) 0).val = 0 ∧ ((Shape.reshapeEquiv hq x) 1).val = 0 ∧ ((Shape.reshapeEquiv hq x) 2).val = (x 0).val := by
  have h := Shape.rowMajor_reshapeEquiv hq x
  rw [Shape.rowMajor_val_three, Shape.rowMajor_val_one] at h
  have a0 : ((Shape.reshapeEquiv hq x) 0).val < 1 := ((Shape.reshapeEquiv hq x) 0).isLt
  have a1 : ((Shape.reshapeEquiv hq x) 1).val < 1 := ((Shape.reshapeEquiv hq x) 1).isLt
  have a2 : ((Shape.reshapeEquiv hq x) 2).val < 128 := ((Shape.reshapeEquiv hq x) 2).isLt
  change ((((Shape.reshapeEquiv hq x) 0).val * 1 + ((Shape.reshapeEquiv hq x) 1).val) * 128 + ((Shape.reshapeEquiv hq x) 2).val = (x 0).val) at h
  omega

omit [FloatOps F] in
/-- The rectangle of all of a rank-four shape, written with zero offsets, places an index at itself. -/
theorem unit0_emb4 (y : S1x1x128x128.Idx) :
    (Rect.unit (s := S1x1x128x128) ![0, 0, 0, 0] S1x1x128x128.size inb_S1x1x128x128_S1x1x128x128_0_0_0_0).emb y = y := by
  funext a
  apply Fin.ext
  rw [Rect.emb_apply]
  show (![0, 0, 0, 0] : Fin 4 → ℕ) a + 1 * (y a).val = (y a).val
  fin_cases a <;> simp

omit [FloatOps F] in
/-- The rectangle of all of a table, written with zero offsets, places an index at itself. -/
theorem unit0_emb2 (y : S1001x128.Idx) :
    (Rect.unit (s := S1001x128) ![0, 0] S1001x128.size inb_S1001x128_S1001x128_0_0).emb y = y := by
  funext a
  apply Fin.ext
  rw [Rect.emb_apply]
  show (![0, 0] : Fin 2 → ℕ) a + 1 * (y a).val = (y a).val
  fin_cases a <;> simp

theorem r3out_value (o10 : Fin 5 → ℕ) (b10 : ∀ a, o10 a + S1x1x1x128x128.size a ≤ S2x1x1x128x128.size a)
    (o11 : Fin 4 → ℕ) (b11 : ∀ a, o11 a + S1x1x1x128.size a ≤ S2x1x1x128.size a)
    (o8 : Fin 3 → ℕ) (b8 : ∀ a, o8 a + S1x1x128.size a ≤ S3x50x4096.size a)
    (o13 : Fin 4 → ℕ) (b13 : ∀ a, o13 a + S1x1x128x128.size a ≤ S50x3x4096x128.size a)
    (h0 : o8 0 = 0) (h130 : o13 0 = o8 1) (h131 : o13 1 = 0) (h132 : o13 2 = o8 2) (h133 : o13 3 = 0)
    (fcur : Buf (Elt F) ((Memref.whole cc0_scoped3).view.loc (tailThr d L))) (hgood : r3good m d L o11 b11 o8 b8 fcur)
    (hx : Cert.Lookup.InRange (m (xLoc d) : IVec Cert.Lookup.SX 32))
    (fb : Buf (Elt F) ((Memref.whole cc0_scoped5).view.loc (tailThr d L))) (fo : Buf (Elt F) (oLoc d))
    (hn : S128.numel = S128x128.size gathers_S1001x128_S128x128.axis')
    (hin : ∀ x, (View.read (Elt F) (r3list o11 b11).view fcur x).toNat < S1001x128.size gathers_S1001x128_S128x128.axis) :
    ∀ i ∈ (tailOBlk o13 b13).view.set,
      (tailOBlk o13 b13).view.writes (Elt F) fo
        [⟨Rect.whole S1x1x128x128,
          ReadAs.same.apply (View.read (Elt F) ((r3oSlot o10 b10).squeeze S1x1x128x128 squeezes_S1x1x1x128x128_S1x1x128x128).view
            (View.write (Elt F)
              ((((r3oSlot o10 b10).squeeze S1x1x128x128 squeezes_S1x1x1x128x128_S1x1x128x128).slice
                  (Rect.unit (s := S1x1x128x128) ![0, 0, 0, 0] S1x1x128x128.size inb_S1x1x128x128_S1x1x128x128_0_0_0_0) (fun _ => rfl)).squeeze S128x128 squeezes_S1x1x128x128_S128x128).view
              fb
              (SparseCore.gatherPayload gathers_S1001x128_S128x128
                (View.read (Elt F) ((Memref.whole cc0_scratch0).slice (Rect.unit (s := S1001x128) ![0, 0] S1001x128.size inb_S1001x128_S1001x128_0_0) (fun _ => rfl)).view
                  (m (w0Loc d) : Buf (Elt F) (sh0Loc d (cV L))))
                (SparseCore.rows (View.read (Elt F) (r3list o11 b11).view fcur) hn hin))
              Finset.univ))⟩] i
        = outK m d i := by
  intro i hi
  obtain ⟨y, -, rfl⟩ := Finset.mem_map.mp hi
  refine (congrFun (View.write_univ_eq_writes_whole (Val := Elt F) (tailOBlk o13 b13).view fo [] _).symm _).trans ?_
  rw [View.writes_nil, View.write_emb_of_mem _ _ (Finset.mem_univ _)]
  obtain ⟨y2, rfl⟩ : ∃ y2 : S128x128.Idx, y = Shape.reshapeEquiv squeezes_S1x1x128x128_S128x128.numel_eq y2 :=
    ⟨_, (Equiv.apply_symm_apply _ _).symm⟩
  obtain ⟨q0, q1, q2, q3⟩ := resh_2to4 squeezes_S1x1x128x128_S128x128.numel_eq y2
  -- the slot's element under the block's index is the gather's destination element under the same rows and lanes
  have e : ((r3oSlot o10 b10).squeeze S1x1x128x128 squeezes_S1x1x1x128x128_S1x1x128x128).view.emb
        (Shape.reshapeEquiv squeezes_S1x1x128x128_S128x128.numel_eq y2)
      = ((((r3oSlot o10 b10).squeeze S1x1x128x128 squeezes_S1x1x1x128x128_S1x1x128x128).slice
            (Rect.unit (s := S1x1x128x128) ![0, 0, 0, 0] S1x1x128x128.size inb_S1x1x128x128_S1x1x128x128_0_0_0_0) (fun _ => rfl)).squeeze
          S128x128 squeezes_S1x1x128x128_S128x128).view.emb y2 := by
    show _ = ((r3oSlot o10 b10).squeeze S1x1x128x128 squeezes_S1x1x1x128x128_S1x1x128x128).view.emb
      ((Rect.unit (s := S1x1x128x128) ![0, 0, 0, 0] S1x1x128x128.size inb_S1x1x128x128_S1x1x128x128_0_0_0_0).emb
        (Shape.reshapeEquiv squeezes_S1x1x128x128_S128x128.numel_eq y2))
    rw [unit0_emb4]
  rw [ReadAs.apply_same, View.read_apply, e, View.write_emb_of_mem _ _ (Finset.mem_univ _)]
  simp only [cast_cast, cast_eq]
  refine val_gather m d 0 (o8 1) (o8 2) hx _ (fun j => ?_) _ (fun x j hj0 hj1 hj2 => ?_) hn hin (by decide) y2 _ ?_ ?_ ?_ ?_
  · -- the table as the gather reads it is the first table
    refine (View.read_apply _ _).trans ((cast_eq _ _).trans ?_)
    show (m (w0Loc d)) ((Rect.unit (s := S1001x128) ![0, 0] S1001x128.size inb_S1001x128_S1001x128_0_0).emb j) = (m (w0Loc d)) j
    rw [unit0_emb2]
  · -- the list's word x is the index word at (0, o8 1, o8 2 + x)
    obtain ⟨r0, r1, r2⟩ := resh_1to3 tail_numel128 x
    rw [hgood x, View.read_apply, cast_eq]
    refine congrArg _ (funext fun a => Fin.ext ?_)
    match a with
    | ⟨0, _⟩ =>
      show o8 0 + 1 * ((Shape.reshapeEquiv tail_numel128 x) 0).val = (j 0).val
      omega
    | ⟨1, _⟩ =>
      show o8 1 + 1 * ((Shape.reshapeEquiv tail_numel128 x) 1).val = (j 1).val
      omega
    | ⟨2, _⟩ =>
      show o8 2 + 1 * ((Shape.reshapeEquiv tail_numel128 x) 2).val = (j 2).val
      omega
  · show o13 0 + 1 * ((Shape.reshapeEquiv squeezes_S1x1x128x128_S128x128.numel_eq y2) 0).val = o8 1
    omega
  · show o13 1 + 1 * ((Shape.reshapeEquiv squeezes_S1x1x128x128_S128x128.numel_eq y2) 1).val = 0
    omega
  · show o13 2 + 1 * ((Shape.reshapeEquiv squeezes_S1x1x128x128_S128x128.numel_eq y2) 2).val = o8 2 + (y2 0).val
    omega
  · show o13 3 + 1 * ((Shape.reshapeEquiv squeezes_S1x1x128x128_S128x128.numel_eq y2) 3).val = (y2 1).val
    omega

end Cert.Proof.K
end
-- ==== Proof.KTailR3C.lean ====
/-
  One trip of the first lookup's loop, run from the pieces the trip touches: the middle trips, the first (no copy-out
  to wait for) and the last (no fetch to start).
-/
import proofs.«206595_g34437047779621_cont_8to1_b_428_16_alg».proof.Proof.KTailR3D
import proofs.«206595_g34437047779621_cont_8to1_b_428_16_alg».proof.Proof.KTailR3V

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

variable (O : CellTallies nD τ sig (HIx 1)) (W : Waits sig (HIx 1))

set_option maxHeartbeats 4000000 in
theorem r3coreM (t : Fin k0_t1_loop.trips) (h1t : 1 ≤ t.val) (ht : t.val < 49)
    (o4 : Fin 4 → ℕ) (e4 : k0_off4 (tailW (t.val + 1)) = o4) (b4 : ∀ a, o4 a + S1x1x1x128.size a ≤ S2x1x1x128.size a)
    (o5 : Fin 3 → ℕ) (e5 : k0_off5 L (tailW t.val) = o5) (b5 : ∀ a, o5 a + S1x1x128.size a ≤ S3x50x4096.size a)
    (o6 : Fin 1 → ℕ) (e6 : k0_off6 (tailW (t.val + 1)) = o6) (b6 : ∀ a, o6 a + S1.size a ≤ S2.size a)
    (o7 : Fin 4 → ℕ) (e7 : k0_off7 (tailW t.val) = o7) (b7 : ∀ a, o7 a + S1x1x1x128.size a ≤ S2x1x1x128.size a)
    (o8 : Fin 3 → ℕ) (e8 : k0_off8 L (tailW t.val) = o8) (b8 : ∀ a, o8 a + S1x1x128.size a ≤ S3x50x4096.size a)
    (o9 : Fin 1 → ℕ) (e9 : k0_off9 (tailW t.val) = o9) (b9 : ∀ a, o9 a + S1.size a ≤ S2.size a)
    (o10 : Fin 5 → ℕ) (e10 : k0_off10 (tailW t.val) = o10) (b10 : ∀ a, o10 a + S1x1x1x128x128.size a ≤ S2x1x1x128x128.size a)
    (o13 : Fin 4 → ℕ) (e13 : k0_off13 L (tailW t.val) = o13) (b13 : ∀ a, o13 a + S1x1x128x128.size a ≤ S50x3x4096x128.size a)
    (o14 : Fin 1 → ℕ) (e14 : k0_off14 (tailW t.val) = o14) (b14 : ∀ a, o14 a + S1.size a ≤ S2.size a)
    (o15 : Fin 5 → ℕ) (e15 : k0_off15 (tailW (t.val - 1)) = o15) (b15 : ∀ a, o15 a + S1x1x1x128x128.size a ≤ S2x1x1x128x128.size a)
    (o16 : Fin 4 → ℕ) (e16 : k0_off16 L (tailW t.val) = o16) (b16 : ∀ a, o16 a + S1x1x128x128.size a ≤ S50x3x4096x128.size a)
    (o17 : Fin 1 → ℕ) (e17 : k0_off17 (tailW (t.val - 1)) = o17) (b17 : ∀ a, o17 a + S1.size a ≤ S2.size a)
    (qn qc qs : PosShare TreeShare)
    (fcur : Buf (Elt F) ((Memref.whole cc0_scoped3).view.loc (tailThr d L)))
    (hgood : r3good m d L o7 b7 o8 b8 fcur)
    (hx : Cert.Lookup.InRange (m (xLoc d) : IVec Cert.Lookup.SX 32)) :
    (iprop(Transfers.MayWaits (tailThr d L) (default : HIx 1) O
        ∗ ((tailIBlk o5 b5).view.loc (tailThr d L) ↦[(tailIBlk o5 b5).view.set]{qn} idxT m d)
        ∗ (∃ fa, r3ISlotPt d L o4 b4 fa)
        ∗ semVal (tailThr d L, SemLoc.dma (tailSem cc0_scoped4 o6 b6)) 0
        ∗ r3FI m d L o9 b9 o7 b7 o8 b8 qc fcur
        ∗ r3Tab m d L qs
        ∗ (∃ fb, r3OSlotPt d L o10 b10 fb)
        ∗ semVal (tailThr d L, SemLoc.dma cc0_scoped7.sem) 0
        ∗ ((tailOBlk o13 b13).view.loc (tailThr d L) ↦[(tailOBlk o13 b13).view.set]{fullShare} m (oLoc d))
        ∗ semVal (tailThr d L, SemLoc.dma (tailSem cc0_scoped6 o14 b14)) 0
        ∗ (∃ fbp, r3FO d L o17 b17 o16 b16 (outK m d) o15 b15 fbp)
        ∗ owes (tailThr d L) O W) : sProp 𝕄)
      ⊢ wp frame (wpE (defs₀ (F := F)) 𝒱₀ (tailThr d L) none) Set.univ
          (k0_t1_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r3v7 L) (Scalar.addi 0#32 1#32) 0#32 0#32 0#32 0#32 0#32 t (tailW (t.val + 1), tailW t.val, tailW t.val, tailW (t.val - 1), tailW t.val))
          fun acc => iprop(⌜acc = (tailW (t.val + 2), tailW (t.val + 1), tailW (t.val + 1), tailW t.val, tailW (t.val + 1))⌝
            ∗ (∃ fnew, ⌜r3good m d L o4 b4 o5 b5 fnew⌝ ∗ r3FI m d L o6 b6 o4 b4 o5 b5 qn fnew)
            ∗ ((tailIBlk o8 b8).view.loc (tailThr d L) ↦[(tailIBlk o8 b8).view.set]{qc} idxT m d)
            ∗ semVal (tailThr d L, SemLoc.dma (tailSem cc0_scoped4 o9 b9)) 0
            ∗ r3ISlotPt d L o7 b7 fcur
            ∗ r3Tab m d L qs
            ∗ semVal (tailThr d L, SemLoc.dma cc0_scoped7.sem) 0
            ∗ (∃ fg, r3FO d L o14 b14 o13 b13 (outK m d) o10 b10 fg)
            ∗ ((tailOBlk o16 b16).view.loc (tailThr d L) ↦[(tailOBlk o16 b16).view.set]{fullShare} outK m d)
            ∗ (∃ f, r3OSlotPt d L o15 b15 f)
            ∗ semVal (tailThr d L, SemLoc.dma (tailSem cc0_scoped6 o17 b17)) 0
            ∗ ∃ W', ⌜∀ p ∈ W', p ∈ W ∨ p.2 = none⌝ ∗ owes (tailThr d L) O W') := by
  subst e4 e5 e6 e7 e8 e9 e10 e13 e14 e15 e16 e17
  have hc2 : k0_cond2 L t (tailW t.val) = 1#1 := by rw [Arith.cond2_eq, if_pos (by omega)]
  have hc3 : k0_cond3 L t (tailW t.val) = 1#1 := Arith.cond3_eq L t
  have hc6 : k0_cond6 L t (tailW t.val) = 1#1 := Arith.cond6_eq L t
  have hc8 : k0_cond8 L t (tailW t.val) = 1#1 := by rw [Arith.cond8_eq, if_pos (by omega)]
  have h3 : k0_chk3 (tailW t.val) := Arith.chk3_all _
  have h2 : k0_chk2 (tailW t.val) := Arith.chk2_all _
  have h1 : k0_chk1 L t (tailW (t.val + 1)) (tailW t.val) (tailW t.val) (tailW (t.val - 1)) (tailW t.val) := Arith.chk1_inv L t
  have hin : ∀ x, (View.read (Elt F) (r3list (k0_off11 (tailW t.val)) (r3hb11 _)).view fcur x).toNat < 1001 := by
    intro x
    have e' : View.read (Elt F) (r3list (k0_off11 (tailW t.val)) (r3hb11 _)).view fcur x
        = ((tailIBlk (k0_off8 L (tailW t.val)) b8).view.reshape S128 tail_numel128).read (Elt F) (idxT m d) x := hgood x
    rw [e']
    have := tailI_le m d (k0_off8 L (tailW t.val)) b8 hx x
    omega
  iintro ⟨#Hmw, HIn, ⟨%fa, HSn⟩, Hsn, HFI, HT, ⟨%fb, HOS⟩, Hs7, HOB, Hso, ⟨%fbp, HFO⟩, Hw⟩
  sl_unfold [k0_t1_body]
  sl_exec
  have hret : ∀ (L : grid0.Coords) (t : Fin k0_t1_loop.trips), 1 ≤ t.val → t.val < 49 →
      (r3coreM.sl.v215_r3 L t, r3coreM.sl.v389_r3 L t, r3coreM.sl.v365_r3 L t, r3coreM.sl.v383_r3 L t, r3coreM.sl.v144_r3 t)
        = (tailW (t.val + 2), tailW (t.val + 1), tailW (t.val + 1), tailW t.val, tailW (t.val + 1)) := by
    decide +kernel
  sl_step
  isplitr
  · ipureintro; exact hret L t h1t ht
  isplitl [Hsn]
  · iexists (r3coreM.sl.HSn_w0 m d L t hc2 h1 fa)
    isplitr
    · ipureintro; exact r3good_write m d L _ _ _ _ fa
    · iexact Hsn
  isplitl [HFI_src]; · iexact HFI_src
  isplitl [HFI]; · iexact HFI
  isplitl [HFI_dst HFI_dst_win]
  · iapply (pointsTo_split_subset (r3list_subset (k0_off7 (tailW t.val)) b7)).2
    isplitl [HFI_dst_win]; · iexact HFI_dst_win
    iexact HFI_dst
  isplitl [HT]; · iexact HT
  isplitl [Hs7]; · iexact Hs7
  isplitl [Hso]
  · iexists _
    iapply (r3FO_fix d L _ _ _ _ ((tailOBlk (k0_off13 L (tailW t.val)) b13).view.writes (Elt F) (m (oLoc d)) [⟨Rect.whole S1x1x128x128, r3coreM.sl.dma0_1 m d L t fcur hc6 h3 h2 h1 hin fb⟩]) (outK m d) (k0_off10 (tailW t.val)) (k0_off12 (tailW t.val)) _ (r3hb12 _) _ (r3out_value m d L (k0_off10 (tailW t.val)) b10 (k0_off11 (tailW t.val)) (r3hb11 _) (k0_off8 L (tailW t.val)) b8 (k0_off13 L (tailW t.val)) b13 (by rw [Arith.off8_eq L t.val (by omega)]; rfl) (by rw [Arith.off8_eq L t.val (by omega), Arith.off13_eq L t.val (by omega)]; rfl) (by rw [Arith.off13_eq L t.val (by omega)]; rfl) (by rw [Arith.off8_eq L t.val (by omega), Arith.off13_eq L t.val (by omega)]; rfl) (by rw [Arith.off13_eq L t.val (by omega)]; rfl) fcur hgood hx fb (m (oLoc d)) _ hin) (show k0_off12 (tailW t.val) = k0_off10 (tailW t.val) from rfl)) $$ Hso
  isplitl [HFO_dst]; · iexact HFO_dst
  isplitl [HFO_src]; · iexists _; iexact HFO_src
  isplitl [HFO]; · iexact HFO
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

set_option maxHeartbeats 4000000 in
theorem r3core0 (t : Fin k0_t1_loop.trips) (ht0 : t.val = 0)
    (o4 : Fin 4 → ℕ) (e4 : k0_off4 (tailW (t.val + 1)) = o4) (b4 : ∀ a, o4 a + S1x1x1x128.size a ≤ S2x1x1x128.size a)
    (o5 : Fin 3 → ℕ) (e5 : k0_off5 L (tailW t.val) = o5) (b5 : ∀ a, o5 a + S1x1x128.size a ≤ S3x50x4096.size a)
    (o6 : Fin 1 → ℕ) (e6 : k0_off6 (tailW (t.val + 1)) = o6) (b6 : ∀ a, o6 a + S1.size a ≤ S2.size a)
    (o7 : Fin 4 → ℕ) (e7 : k0_off7 (tailW t.val) = o7) (b7 : ∀ a, o7 a + S1x1x1x128.size a ≤ S2x1x1x128.size a)
    (o8 : Fin 3 → ℕ) (e8 : k0_off8 L (tailW t.val) = o8) (b8 : ∀ a, o8 a + S1x1x128.size a ≤ S3x50x4096.size a)
    (o9 : Fin 1 → ℕ) (e9 : k0_off9 (tailW t.val) = o9) (b9 : ∀ a, o9 a + S1.size a ≤ S2.size a)
    (o10 : Fin 5 → ℕ) (e10 : k0_off10 (tailW t.val) = o10) (b10 : ∀ a, o10 a + S1x1x1x128x128.size a ≤ S2x1x1x128x128.size a)
    (o13 : Fin 4 → ℕ) (e13 : k0_off13 L (tailW t.val) = o13) (b13 : ∀ a, o13 a + S1x1x128x128.size a ≤ S50x3x4096x128.size a)
    (o14 : Fin 1 → ℕ) (e14 : k0_off14 (tailW t.val) = o14) (b14 : ∀ a, o14 a + S1.size a ≤ S2.size a)
    (qn qc qs : PosShare TreeShare)
    (fcur : Buf (Elt F) ((Memref.whole cc0_scoped3).view.loc (tailThr d L)))
    (hgood : r3good m d L o7 b7 o8 b8 fcur)
    (hx : Cert.Lookup.InRange (m (xLoc d) : IVec Cert.Lookup.SX 32)) :
    (iprop(Transfers.MayWaits (tailThr d L) (default : HIx 1) O
        ∗ ((tailIBlk o5 b5).view.loc (tailThr d L) ↦[(tailIBlk o5 b5).view.set]{qn} idxT m d)
        ∗ (∃ fa, r3ISlotPt d L o4 b4 fa)
        ∗ semVal (tailThr d L, SemLoc.dma (tailSem cc0_scoped4 o6 b6)) 0
        ∗ r3FI m d L o9 b9 o7 b7 o8 b8 qc fcur
        ∗ r3Tab m d L qs
        ∗ (∃ fb, r3OSlotPt d L o10 b10 fb)
        ∗ semVal (tailThr d L, SemLoc.dma cc0_scoped7.sem) 0
        ∗ ((tailOBlk o13 b13).view.loc (tailThr d L) ↦[(tailOBlk o13 b13).view.set]{fullShare} m (oLoc d))
        ∗ semVal (tailThr d L, SemLoc.dma (tailSem cc0_scoped6 o14 b14)) 0
        ∗ owes (tailThr d L) O W) : sProp 𝕄)
      ⊢ wp frame (wpE (defs₀ (F := F)) 𝒱₀ (tailThr d L) none) Set.univ
          (k0_t1_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r3v7 L) (Scalar.addi 0#32 1#32) 0#32 0#32 0#32 0#32 0#32 t (tailW (t.val + 1), tailW t.val, tailW t.val, tailW (t.val - 1), tailW t.val))
          fun acc => iprop(⌜acc = (tailW (t.val + 2), tailW (t.val + 1), tailW (t.val + 1), tailW t.val, tailW (t.val + 1))⌝
            ∗ (∃ fnew, ⌜r3good m d L o4 b4 o5 b5 fnew⌝ ∗ r3FI m d L o6 b6 o4 b4 o5 b5 qn fnew)
            ∗ ((tailIBlk o8 b8).view.loc (tailThr d L) ↦[(tailIBlk o8 b8).view.set]{qc} idxT m d)
            ∗ semVal (tailThr d L, SemLoc.dma (tailSem cc0_scoped4 o9 b9)) 0
            ∗ r3ISlotPt d L o7 b7 fcur
            ∗ r3Tab m d L qs
            ∗ semVal (tailThr d L, SemLoc.dma cc0_scoped7.sem) 0
            ∗ (∃ fg, r3FO d L o14 b14 o13 b13 (outK m d) o10 b10 fg)
            ∗ ∃ W', ⌜∀ p ∈ W', p ∈ W ∨ p.2 = none⌝ ∗ owes (tailThr d L) O W') := by
  subst e4 e5 e6 e7 e8 e9 e10 e13 e14
  have hc2 : k0_cond2 L t (tailW t.val) = 1#1 := by rw [Arith.cond2_eq, if_pos (by omega)]
  have hc3 : k0_cond3 L t (tailW t.val) = 1#1 := Arith.cond3_eq L t
  have hc6 : k0_cond6 L t (tailW t.val) = 1#1 := Arith.cond6_eq L t
  have hc8 : ¬ k0_cond8 L t (tailW t.val) = 1#1 := by rw [Arith.cond8_eq, if_neg (by omega)]; decide
  have h3 : k0_chk3 (tailW t.val) := Arith.chk3_all _
  have h2 : k0_chk2 (tailW t.val) := Arith.chk2_all _
  have h1 : k0_chk1 L t (tailW (t.val + 1)) (tailW t.val) (tailW t.val) (tailW (t.val - 1)) (tailW t.val) := Arith.chk1_inv L t
  have hin : ∀ x, (View.read (Elt F) (r3list (k0_off11 (tailW t.val)) (r3hb11 _)).view fcur x).toNat < 1001 := by
    intro x
    have e' : View.read (Elt F) (r3list (k0_off11 (tailW t.val)) (r3hb11 _)).view fcur x
        = ((tailIBlk (k0_off8 L (tailW t.val)) b8).view.reshape S128 tail_numel128).read (Elt F) (idxT m d) x := hgood x
    rw [e']
    have := tailI_le m d (k0_off8 L (tailW t.val)) b8 hx x
    omega
  iintro ⟨#Hmw, HIn, ⟨%fa, HSn⟩, Hsn, HFI, HT, ⟨%fb, HOS⟩, Hs7, HOB, Hso, Hw⟩
  sl_unfold [k0_t1_body]
  sl_exec
  have hret : ∀ (L : grid0.Coords) (t : Fin k0_t1_loop.trips), t.val = 0 →
      (r3core0.sl.v215_r3 L t, r3core0.sl.v389_r3 L t, r3core0.sl.v365_r3 L t, r3core0.sl.v383_r3 L t, r3core0.sl.v144_r3 t)
        = (tailW (t.val + 2), tailW (t.val + 1), tailW (t.val + 1), tailW t.val, tailW (t.val + 1)) := by
    decide +kernel
  sl_step
  isplitr
  · ipureintro; exact hret L t ht0
  isplitl [Hsn]
  · iexists (r3core0.sl.HSn_w0 m d L t hc2 h1 fa)
    isplitr
    · ipureintro; exact r3good_write m d L _ _ _ _ fa
    · iexact Hsn
  isplitl [HFI_src]; · iexact HFI_src
  isplitl [HFI]; · iexact HFI
  isplitl [HFI_dst HFI_dst_win]
  · iapply (pointsTo_split_subset (r3list_subset (k0_off7 (tailW t.val)) b7)).2
    isplitl [HFI_dst_win]; · iexact HFI_dst_win
    iexact HFI_dst
  isplitl [HT]; · iexact HT
  isplitl [Hs7]; · iexact Hs7
  isplitl [Hso]
  · iexists _
    iapply (r3FO_fix d L _ _ _ _ ((tailOBlk (k0_off13 L (tailW t.val)) b13).view.writes (Elt F) (m (oLoc d)) [⟨Rect.whole S1x1x128x128, r3core0.sl.dma0_1 m d L t fcur hc6 h3 h2 h1 hin fb⟩]) (outK m d) (k0_off10 (tailW t.val)) (k0_off12 (tailW t.val)) _ (r3hb12 _) _ (r3out_value m d L (k0_off10 (tailW t.val)) b10 (k0_off11 (tailW t.val)) (r3hb11 _) (k0_off8 L (tailW t.val)) b8 (k0_off13 L (tailW t.val)) b13 (by rw [Arith.off8_eq L t.val (by omega)]; rfl) (by rw [Arith.off8_eq L t.val (by omega), Arith.off13_eq L t.val (by omega)]; rfl) (by rw [Arith.off13_eq L t.val (by omega)]; rfl) (by rw [Arith.off8_eq L t.val (by omega), Arith.off13_eq L t.val (by omega)]; rfl) (by rw [Arith.off13_eq L t.val (by omega)]; rfl) fcur hgood hx fb (m (oLoc d)) _ hin) (show k0_off12 (tailW t.val) = k0_off10 (tailW t.val) from rfl)) $$ Hso
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    · exact .inl hp

set_option maxHeartbeats 4000000 in
theorem r3coreE (t : Fin k0_t1_loop.trips) (ht49 : t.val = 49)
    (o7 : Fin 4 → ℕ) (e7 : k0_off7 (tailW t.val) = o7) (b7 : ∀ a, o7 a + S1x1x1x128.size a ≤ S2x1x1x128.size a)
    (o8 : Fin 3 → ℕ) (e8 : k0_off8 L (tailW t.val) = o8) (b8 : ∀ a, o8 a + S1x1x128.size a ≤ S3x50x4096.size a)
    (o9 : Fin 1 → ℕ) (e9 : k0_off9 (tailW t.val) = o9) (b9 : ∀ a, o9 a + S1.size a ≤ S2.size a)
    (o10 : Fin 5 → ℕ) (e10 : k0_off10 (tailW t.val) = o10) (b10 : ∀ a, o10 a + S1x1x1x128x128.size a ≤ S2x1x1x128x128.size a)
    (o13 : Fin 4 → ℕ) (e13 : k0_off13 L (tailW t.val) = o13) (b13 : ∀ a, o13 a + S1x1x128x128.size a ≤ S50x3x4096x128.size a)
    (o14 : Fin 1 → ℕ) (e14 : k0_off14 (tailW t.val) = o14) (b14 : ∀ a, o14 a + S1.size a ≤ S2.size a)
    (o15 : Fin 5 → ℕ) (e15 : k0_off15 (tailW (t.val - 1)) = o15) (b15 : ∀ a, o15 a + S1x1x1x128x128.size a ≤ S2x1x1x128x128.size a)
    (o16 : Fin 4 → ℕ) (e16 : k0_off16 L (tailW t.val) = o16) (b16 : ∀ a, o16 a + S1x1x128x128.size a ≤ S50x3x4096x128.size a)
    (o17 : Fin 1 → ℕ) (e17 : k0_off17 (tailW (t.val - 1)) = o17) (b17 : ∀ a, o17 a + S1.size a ≤ S2.size a)
    (qn qc qs : PosShare TreeShare)
    (fcur : Buf (Elt F) ((Memref.whole cc0_scoped3).view.loc (tailThr d L)))
    (hgood : r3good m d L o7 b7 o8 b8 fcur)
    (hx : Cert.Lookup.InRange (m (xLoc d) : IVec Cert.Lookup.SX 32)) :
    (iprop(Transfers.MayWaits (tailThr d L) (default : HIx 1) O
        ∗ r3FI m d L o9 b9 o7 b7 o8 b8 qc fcur
        ∗ r3Tab m d L qs
        ∗ (∃ fb, r3OSlotPt d L o10 b10 fb)
        ∗ semVal (tailThr d L, SemLoc.dma cc0_scoped7.sem) 0
        ∗ ((tailOBlk o13 b13).view.loc (tailThr d L) ↦[(tailOBlk o13 b13).view.set]{fullShare} m (oLoc d))
        ∗ semVal (tailThr d L, SemLoc.dma (tailSem cc0_scoped6 o14 b14)) 0
        ∗ (∃ fbp, r3FO d L o17 b17 o16 b16 (outK m d) o15 b15 fbp)
        ∗ owes (tailThr d L) O W) : sProp 𝕄)
      ⊢ wp frame (wpE (defs₀ (F := F)) 𝒱₀ (tailThr d L) none) Set.univ
          (k0_t1_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r3v7 L) (Scalar.addi 0#32 1#32) 0#32 0#32 0#32 0#32 0#32 t (tailW (t.val + 1), tailW t.val, tailW t.val, tailW (t.val - 1), tailW t.val))
          fun acc => iprop(⌜acc = (tailW (t.val + 1), tailW (t.val + 1), tailW (t.val + 1), tailW t.val, tailW 0)⌝
            ∗ ((tailIBlk o8 b8).view.loc (tailThr d L) ↦[(tailIBlk o8 b8).view.set]{qc} idxT m d)
            ∗ semVal (tailThr d L, SemLoc.dma (tailSem cc0_scoped4 o9 b9)) 0
            ∗ r3ISlotPt d L o7 b7 fcur
            ∗ r3Tab m d L qs
            ∗ semVal (tailThr d L, SemLoc.dma cc0_scoped7.sem) 0
            ∗ (∃ fg, r3FO d L o14 b14 o13 b13 (outK m d) o10 b10 fg)
            ∗ ((tailOBlk o16 b16).view.loc (tailThr d L) ↦[(tailOBlk o16 b16).view.set]{fullShare} outK m d)
            ∗ (∃ f, r3OSlotPt d L o15 b15 f)
            ∗ semVal (tailThr d L, SemLoc.dma (tailSem cc0_scoped6 o17 b17)) 0
            ∗ ∃ W', ⌜∀ p ∈ W', p ∈ W ∨ p.2 = none⌝ ∗ owes (tailThr d L) O W') := by
  subst e7 e8 e9 e10 e13 e14 e15 e16 e17
  have hc2 : ¬ k0_cond2 L t (tailW t.val) = 1#1 := by rw [Arith.cond2_eq, if_neg (by omega)]; decide
  have hc3 : k0_cond3 L t (tailW t.val) = 1#1 := Arith.cond3_eq L t
  have hc6 : k0_cond6 L t (tailW t.val) = 1#1 := Arith.cond6_eq L t
  have hc8 : k0_cond8 L t (tailW t.val) = 1#1 := by rw [Arith.cond8_eq, if_pos (by omega)]
  have h3 : k0_chk3 (tailW t.val) := Arith.chk3_all _
  have h2 : k0_chk2 (tailW t.val) := Arith.chk2_all _
  have h1 : k0_chk1 L t (tailW (t.val + 1)) (tailW t.val) (tailW t.val) (tailW (t.val - 1)) (tailW t.val) := Arith.chk1_inv L t
  have hin : ∀ x, (View.read (Elt F) (r3list (k0_off11 (tailW t.val)) (r3hb11 _)).view fcur x).toNat < 1001 := by
    intro x
    have e' : View.read (Elt F) (r3list (k0_off11 (tailW t.val)) (r3hb11 _)).view fcur x
        = ((tailIBlk (k0_off8 L (tailW t.val)) b8).view.reshape S128 tail_numel128).read (Elt F) (idxT m d) x := hgood x
    rw [e']
    have := tailI_le m d (k0_off8 L (tailW t.val)) b8 hx x
    omega
  iintro ⟨#Hmw, HFI, HT, ⟨%fb, HOS⟩, Hs7, HOB, Hso, ⟨%fbp, HFO⟩, Hw⟩
  sl_unfold [k0_t1_body]
  sl_exec
  have hret : ∀ (L : grid0.Coords) (t : Fin k0_t1_loop.trips), t.val = 49 →
      (r3coreE.sl.v215_r3 L t, r3coreE.sl.v389_r3 L t, r3coreE.sl.v365_r3 L t, r3coreE.sl.v383_r3 L t, r3coreE.sl.v144_r3 t)
        = (tailW (t.val + 1), tailW (t.val + 1), tailW (t.val + 1), tailW t.val, tailW 0) := by
    decide +kernel
  sl_step
  isplitr
  · ipureintro; exact hret L t ht49
  isplitl [HFI_src]; · iexact HFI_src
  isplitl [HFI]; · iexact HFI
  isplitl [HFI_dst HFI_dst_win]
  · iapply (pointsTo_split_subset (r3list_subset (k0_off7 (tailW t.val)) b7)).2
    isplitl [HFI_dst_win]; · iexact HFI_dst_win
    iexact HFI_dst
  isplitl [HT]; · iexact HT
  isplitl [Hs7]; · iexact Hs7
  isplitl [Hso]
  · iexists _
    iapply (r3FO_fix d L _ _ _ _ ((tailOBlk (k0_off13 L (tailW t.val)) b13).view.writes (Elt F) (m (oLoc d)) [⟨Rect.whole S1x1x128x128, r3coreE.sl.dma0 m d L t fcur hc6 h3 h2 h1 hin fb⟩]) (outK m d) (k0_off10 (tailW t.val)) (k0_off12 (tailW t.val)) _ (r3hb12 _) _ (r3out_value m d L (k0_off10 (tailW t.val)) b10 (k0_off11 (tailW t.val)) (r3hb11 _) (k0_off8 L (tailW t.val)) b8 (k0_off13 L (tailW t.val)) b13 (by rw [Arith.off8_eq L t.val (by omega)]; rfl) (by rw [Arith.off8_eq L t.val (by omega), Arith.off13_eq L t.val (by omega)]; rfl) (by rw [Arith.off13_eq L t.val (by omega)]; rfl) (by rw [Arith.off8_eq L t.val (by omega), Arith.off13_eq L t.val (by omega)]; rfl) (by rw [Arith.off13_eq L t.val (by omega)]; rfl) fcur hgood hx fb (m (oLoc d)) _ hin) (show k0_off12 (tailW t.val) = k0_off10 (tailW t.val) from rfl)) $$ Hso
  isplitl [HFO_dst]; · iexact HFO_dst
  isplitl [HFO_src]; · iexists _; iexact HFO_src
  isplitl [HFO]; · iexact HFO
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Cert.Proof.K

end
-- ==== Proof.KTailR3T.lean ====
/-
  The loop of the first lookup: each trip takes the invariant at t to the invariant at t + 1.  The trip's pieces are
  taken out of the invariant's families (the read token of trip t + 1, the output block of trip t), the trip is run, and
  what it leaves is put back (trip t's token whole again, block t - 1 among the blocks done).
-/
import proofs.«206595_g34437047779621_cont_8to1_b_428_16_alg».proof.Proof.KTailR3C

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

variable (O : CellTallies nD τ sig (HIx 1)) (W : Waits sig (HIx 1)) (qi qs : PosShare TreeShare)

omit [FloatOps F] in
/-- One piece out of a family of fifty. -/
theorem r3_take (a : Fin 50) (Φ : Fin 50 → sProp 𝕄) :
    bigSep Finset.univ Φ = iprop(Φ a ∗ bigSep (Finset.univ.filter fun u : Fin 50 => u.val ≠ a.val) Φ) := by
  have h := tail_bigSep_step (fun u : Fin 50 => u.val ≠ a.val) (fun _ : Fin 50 => True) a (fun h => h rfl)
    (fun u => ⟨fun _ => by by_cases h : u = a; exact .inr h; exact .inl (fun e => h (Fin.ext e)), fun _ => trivial⟩) Φ
  rwa [Finset.filter_true_of_mem (fun _ _ => trivial)] at h

set_option maxHeartbeats 1000000 in
theorem r3tripM (t : Fin k0_t1_loop.trips) (h1t : 1 ≤ t.val) (ht : t.val < 49)
    (hx : Cert.Lookup.InRange (m (xLoc d) : IVec Cert.Lookup.SX 32))
    (acc : BitVec 32 × BitVec 32 × BitVec 32 × BitVec 32 × BitVec 32) :
    r3inv m d L O W qi qs t.val acc
      ⊢ wp frame (wpE (defs₀ (F := F)) 𝒱₀ (tailThr d L) none) Set.univ
          (k0_t1_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r3v7 L) (Scalar.addi 0#32 1#32) 0#32 0#32 0#32 0#32 0#32 t acc)
          (r3inv m d L O W qi qs (t.val + 1)) := by
  have ht50 : t.val < 50 := by omega
  have e5 : k0_off5 L (tailW t.val) = r3bi L (tailFin (t.val + 1)) := by
    show _ = Arith.blkIn 0 L (tailFin (t.val + 1)).val
    rw [tailFin_val (by omega)]; exact Arith.off5_eq L t.val (by omega)
  have e8 : k0_off8 L (tailW t.val) = r3bi L (tailFin t.val) := by
    show _ = Arith.blkIn 0 L (tailFin t.val).val
    rw [tailFin_val (by omega)]; exact Arith.off8_eq L t.val (by omega)
  have e13 : k0_off13 L (tailW t.val) = r3bo L (tailFin t.val) := by
    show _ = outOff 0 (stp (L 0).val (L 1).val (tailFin t.val).val)
    rw [tailFin_val (by omega)]; exact Arith.off13_eq L t.val (by omega)
  have e16 : k0_off16 L (tailW t.val) = r3bo L (tailFin (t.val - 1)) := by
    show _ = outOff 0 (stp (L 0).val (L 1).val (tailFin (t.val - 1)).val)
    rw [tailFin_val (by omega)]; exact Arith.off16_eq L t.val (by omega) (by omega)
  unfold r3inv r3out
  simp only [Nat.add_sub_cancel]
  rw [if_pos (show t.val < 50 by omega), if_pos (show t.val + 1 < 50 by omega), if_neg (show ¬ t.val = 0 by omega),
    if_neg (show ¬ t.val + 1 = 0 by omega)]
  unfold r3idxMid
  iintro ⟨%hacc, #Hmw, HT, Hs7, ⟨⟨%fcur, %hgood, HFI⟩, Hrest, ⟨%fa, HSn⟩, Hsn, Htoks⟩, ⟨⟨%fbp, HFO⟩, ⟨%fb, HOS⟩, Hso, Hdone, Htodo⟩, ⟨%W', %hW', Hw⟩⟩
  subst hacc
  -- the read token of trip t + 1, its block apart from its rest
  ihave Htoks' := (Entails.of_eq (tail_bigSep_step (fun u : Fin 50 => u.val ≠ t.val ∧ u.val ≠ t.val + 1) (fun u : Fin 50 => u.val ≠ t.val) (tailFin (t.val + 1))
    (by rw [tailFin_val (by omega)]; omega) (fun u => by rw [Fin.ext_iff, tailFin_val (by omega)]; omega) (tailTokPt m d qi))) $$ Htoks
  icases Htoks' with ⟨Htok1, Htoks⟩
  ihave Hsp := (pointsTo_split_subset (Finset.subset_univ (tailIBlk (r3bi L (tailFin (t.val + 1))) (r3bi_inb L _)).view.set)).1 $$ Htok1
  icases Hsp with ⟨HIn, Hrest1⟩
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 0 u (m (oLoc d))))) $$ Htodo
  icases Htodo' with ⟨HOB, Htodo⟩
  iapply (wp_wand_r Idealize.ShloMosaic.frame (wpE (defs₀ (F := F)) 𝒱₀ (tailThr d L) none) Set.univ)
  isplitl [HIn HSn Hsn HFI HT HOS Hs7 HOB Hso HFO Hw]
  · have hcar : r3car t.val = (tailW (t.val + 1), tailW t.val, tailW t.val, tailW (t.val - 1), tailW t.val) := by
      unfold r3car; rw [Nat.min_eq_left (by omega), Nat.mod_eq_of_lt (by omega)]
    rw [hcar]
    iapply (r3coreM m d L O W' t h1t ht
      (k0_off7 (tailW (t.val + 1))) rfl (r3hb7 _) (r3bi L (tailFin (t.val + 1))) e5 (r3bi_inb L _) (k0_off9 (tailW (t.val + 1))) rfl (r3hb9 _)
      (k0_off7 (tailW t.val)) rfl (r3hb7 _) (r3bi L (tailFin t.val)) e8 (r3bi_inb L _) (k0_off9 (tailW t.val)) rfl (r3hb9 _)
      (k0_off15 (tailW t.val)) rfl (r3hb15 _) (r3bo L (tailFin t.val)) e13 (r3bo_inb L _) (k0_off17 (tailW t.val)) rfl (r3hb17 _)
      (k0_off15 (tailW (t.val - 1))) rfl (r3hb15 _) (r3bo L (tailFin (t.val - 1))) e16 (r3bo_inb L _) (k0_off17 (tailW (t.val - 1))) rfl (r3hb17 _)
      (shareTok qi 50 (tailFin (t.val + 1))) (shareTok qi 50 (tailFin t.val)) qs fcur hgood hx)
    isplitr; · iexact Hmw
    isplitl [HIn]; · iexact HIn
    isplitl [HSn]; · iexists fa; iexact HSn
    isplitl [Hsn]; · iexact Hsn
    isplitl [HFI]; · iexact HFI
    isplitl [HT]; · iexact HT
    isplitl [HOS]; · iexists fb; iexact HOS
    isplitl [Hs7]; · iexact Hs7
    isplitl [HOB]; · iexact HOB
    isplitl [Hso]; · iexact Hso
    isplitl [HFO]; · iexists fbp; iexact HFO
    iexact Hw
  iintro %acc' ⟨%hacc', ⟨%fnew, %hgood', HFI'⟩, HI8, Hs9, HS7, HT, Hs7, ⟨%fg, HFO'⟩, HO16, ⟨%fo15, HS15⟩, Hs17, ⟨%W'', %hW'', Hw⟩⟩
  have hp4 : k0_off7 (tailW t.val) = k0_off4 (tailW (t.val + 1 + 1)) := r3par4 (by omega) (by omega) (by omega)
  have hp1 : k0_off9 (tailW t.val) = k0_off6 (tailW (t.val + 1 + 1)) := r3par1I (by omega) (by omega) (by omega)
  have hp5 : k0_off15 (tailW (t.val - 1)) = k0_off10 (tailW (t.val + 1)) := r3par5 (by omega) (by omega) (by omega)
  have hp1O : k0_off17 (tailW (t.val - 1)) = k0_off14 (tailW (t.val + 1)) := r3par1O (by omega) (by omega) (by omega)
  have e1 : min (t.val + 1 + 1) 50 = t.val + 2 := by omega
  have e2 : (t.val + 1) % 50 = t.val + 1 := by omega
  isplitr
  · ipureintro; rw [hacc']; unfold r3car; rw [e1, e2, Nat.add_sub_cancel]
  isplitr; · iexact Hmw
  isplitl [HT]; · iexact HT
  isplitl [Hs7]; · iexact Hs7
  isplitl [HFI' Hrest1 HS7 Hs9 HI8 Hrest Htoks]
  · isplitl [HFI']
    · iexists fnew; isplitr
      · ipureintro; exact hgood'
      · iexact HFI'
    isplitl [Hrest1]; · iexact Hrest1
    isplitl [HS7]
    · iexists fcur; iapply (Entails.of_eq (r3ISlotPt_congr d L hp4 (r3hb7 _) (r3hb4 _) fcur)); iexact HS7
    isplitl [Hs9]
    · iapply (Entails.of_eq (tailCell_congr d L cc0_scoped4 hp1 (r3hb9 _) (r3hb6 _))); iexact Hs9
    -- trip t's token whole again, back among the others
    iapply (Entails.of_eq (tail_bigSep_step (fun u : Fin 50 => u.val ≠ t.val ∧ u.val ≠ t.val + 1) (fun u : Fin 50 => u.val ≠ t.val + 1) (tailFin t.val)
      (by rw [tailFin_val (by omega)]; omega) (fun u => by rw [Fin.ext_iff, tailFin_val (by omega)]; omega) (tailTokPt m d qi)).symm)
    isplitl [HI8 Hrest]
    · iapply (pointsTo_split_subset (Finset.subset_univ (tailIBlk (r3bi L (tailFin t.val)) (r3bi_inb L _)).view.set)).2
      isplitl [HI8]; · iexact HI8
      iexact Hrest
    iexact Htoks
  isplitl [HFO' HS15 Hs17 HO16 Hdone Htodo]
  · isplitl [HFO']; · iexists fg; iexact HFO'
    isplitl [HS15]
    · iexists fo15; iapply (Entails.of_eq (r3OSlotPt_congr d L hp5 (r3hb15 _) (r3hb10 _) fo15)); iexact HS15
    isplitl [Hs17]
    · iapply (Entails.of_eq (tailCell_congr d L cc0_scoped6 hp1O (r3hb17 _) (r3hb14 _))); iexact Hs17
    isplitl [HO16 Hdone]
    · iapply (Entails.of_eq (tail_bigSep_step (fun u : Fin 50 => u.val + 1 < t.val) (fun u : Fin 50 => u.val + 1 < t.val + 1) (tailFin (t.val - 1))
        (by rw [tailFin_val (by omega)]; omega) (fun u => by rw [Fin.ext_iff, tailFin_val (by omega)]; omega) (fun u => tailOPt d L 0 u (outK m d))).symm)
      isplitl [HO16]; · iexact HO16
      iexact Hdone
    iexact Htodo
  iexists W''; isplitr
  · ipureintro; intro p hp
    rcases hW'' p hp with h | h
    · exact hW' p h
    · exact .inr h
  · iexact Hw

set_option maxHeartbeats 1000000 in
theorem r3trip0 (t : Fin k0_t1_loop.trips) (ht0 : t.val = 0)
    (hx : Cert.Lookup.InRange (m (xLoc d) : IVec Cert.Lookup.SX 32))
    (acc : BitVec 32 × BitVec 32 × BitVec 32 × BitVec 32 × BitVec 32) :
    r3inv m d L O W qi qs t.val acc
      ⊢ wp frame (wpE (defs₀ (F := F)) 𝒱₀ (tailThr d L) none) Set.univ
          (k0_t1_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r3v7 L) (Scalar.addi 0#32 1#32) 0#32 0#32 0#32 0#32 0#32 t acc)
          (r3inv m d L O W qi qs (t.val + 1)) := by
  have ht50 : t.val < 50 := by omega
  have e5 : k0_off5 L (tailW t.val) = r3bi L (tailFin (t.val + 1)) := by
    show _ = Arith.blkIn 0 L (tailFin (t.val + 1)).val
    rw [tailFin_val (by omega)]; exact Arith.off5_eq L t.val (by omega)
  have e8 : k0_off8 L (tailW t.val) = r3bi L (tailFin t.val) := by
    show _ = Arith.blkIn 0 L (tailFin t.val).val
    rw [tailFin_val (by omega)]; exact Arith.off8_eq L t.val (by omega)
  have e13 : k0_off13 L (tailW t.val) = r3bo L (tailFin t.val) := by
    show _ = outOff 0 (stp (L 0).val (L 1).val (tailFin t.val).val)
    rw [tailFin_val (by omega)]; exact Arith.off13_eq L t.val (by omega)
  unfold r3inv r3out
  simp only [Nat.add_sub_cancel]
  rw [if_pos (show t.val < 50 by omega), if_pos (show t.val + 1 < 50 by omega), if_pos ht0,
    if_neg (show ¬ t.val + 1 = 0 by omega)]
  unfold r3idxMid
  iintro ⟨%hacc, #Hmw, HT, Hs7, ⟨⟨%fcur, %hgood, HFI⟩, Hrest, ⟨%fa, HSn⟩, Hsn, Htoks⟩, ⟨⟨⟨%fo1, HS1⟩, Hs1⟩, ⟨%fb, HOS⟩, Hso, Hdone, Htodo⟩, ⟨%W', %hW', Hw⟩⟩
  subst hacc
  -- the read token of trip t + 1, its block apart from its rest
  ihave Htoks' := (Entails.of_eq (tail_bigSep_step (fun u : Fin 50 => u.val ≠ t.val ∧ u.val ≠ t.val + 1) (fun u : Fin 50 => u.val ≠ t.val) (tailFin (t.val + 1))
    (by rw [tailFin_val (by omega)]; omega) (fun u => by rw [Fin.ext_iff, tailFin_val (by omega)]; omega) (tailTokPt m d qi))) $$ Htoks
  icases Htoks' with ⟨Htok1, Htoks⟩
  ihave Hsp := (pointsTo_split_subset (Finset.subset_univ (tailIBlk (r3bi L (tailFin (t.val + 1))) (r3bi_inb L _)).view.set)).1 $$ Htok1
  icases Hsp with ⟨HIn, Hrest1⟩
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 0 u (m (oLoc d))))) $$ Htodo
  icases Htodo' with ⟨HOB, Htodo⟩
  iapply (wp_wand_r Idealize.ShloMosaic.frame (wpE (defs₀ (F := F)) 𝒱₀ (tailThr d L) none) Set.univ)
  isplitl [HIn HSn Hsn HFI HT HOS Hs7 HOB Hso Hw]
  · have hcar : r3car t.val = (tailW (t.val + 1), tailW t.val, tailW t.val, tailW (t.val - 1), tailW t.val) := by
      unfold r3car; rw [Nat.min_eq_left (by omega), Nat.mod_eq_of_lt (by omega)]
    rw [hcar]
    iapply (r3core0 m d L O W' t ht0
      (k0_off7 (tailW (t.val + 1))) rfl (r3hb7 _) (r3bi L (tailFin (t.val + 1))) e5 (r3bi_inb L _) (k0_off9 (tailW (t.val + 1))) rfl (r3hb9 _)
      (k0_off7 (tailW t.val)) rfl (r3hb7 _) (r3bi L (tailFin t.val)) e8 (r3bi_inb L _) (k0_off9 (tailW t.val)) rfl (r3hb9 _)
      (k0_off15 (tailW t.val)) rfl (r3hb15 _) (r3bo L (tailFin t.val)) e13 (r3bo_inb L _) (k0_off17 (tailW t.val)) rfl (r3hb17 _)
      (shareTok qi 50 (tailFin (t.val + 1))) (shareTok qi 50 (tailFin t.val)) qs fcur hgood hx)
    isplitr; · iexact Hmw
    isplitl [HIn]; · iexact HIn
    isplitl [HSn]; · iexists fa; iexact HSn
    isplitl [Hsn]; · iexact Hsn
    isplitl [HFI]; · iexact HFI
    isplitl [HT]; · iexact HT
    isplitl [HOS]; · iexists fb; iexact HOS
    isplitl [Hs7]; · iexact Hs7
    isplitl [HOB]; · iexact HOB
    isplitl [Hso]; · iexact Hso
    iexact Hw
  iintro %acc' ⟨%hacc', ⟨%fnew, %hgood', HFI'⟩, HI8, Hs9, HS7, HT, Hs7, ⟨%fg, HFO'⟩, ⟨%W'', %hW'', Hw⟩⟩
  have hp4 : k0_off7 (tailW t.val) = k0_off4 (tailW (t.val + 1 + 1)) := r3par4 (by omega) (by omega) (by omega)
  have hp1 : k0_off9 (tailW t.val) = k0_off6 (tailW (t.val + 1 + 1)) := r3par1I (by omega) (by omega) (by omega)
  have e1 : min (t.val + 1 + 1) 50 = t.val + 2 := by omega
  have e2 : (t.val + 1) % 50 = t.val + 1 := by omega
  isplitr
  · ipureintro; rw [hacc']; unfold r3car; rw [e1, e2, Nat.add_sub_cancel]
  isplitr; · iexact Hmw
  isplitl [HT]; · iexact HT
  isplitl [Hs7]; · iexact Hs7
  isplitl [HFI' Hrest1 HS7 Hs9 HI8 Hrest Htoks]
  · isplitl [HFI']
    · iexists fnew; isplitr
      · ipureintro; exact hgood'
      · iexact HFI'
    isplitl [Hrest1]; · iexact Hrest1
    isplitl [HS7]
    · iexists fcur; iapply (Entails.of_eq (r3ISlotPt_congr d L hp4 (r3hb7 _) (r3hb4 _) fcur)); iexact HS7
    isplitl [Hs9]
    · iapply (Entails.of_eq (tailCell_congr d L cc0_scoped4 hp1 (r3hb9 _) (r3hb6 _))); iexact Hs9
    -- trip t's token whole again, back among the others
    iapply (Entails.of_eq (tail_bigSep_step (fun u : Fin 50 => u.val ≠ t.val ∧ u.val ≠ t.val + 1) (fun u : Fin 50 => u.val ≠ t.val + 1) (tailFin t.val)
      (by rw [tailFin_val (by omega)]; omega) (fun u => by rw [Fin.ext_iff, tailFin_val (by omega)]; omega) (tailTokPt m d qi)).symm)
    isplitl [HI8 Hrest]
    · iapply (pointsTo_split_subset (Finset.subset_univ (tailIBlk (r3bi L (tailFin t.val)) (r3bi_inb L _)).view.set)).2
      isplitl [HI8]; · iexact HI8
      iexact Hrest
    iexact Htoks
  isplitl [HFO' HS1 Hs1 Hdone Htodo]
  · isplitl [HFO']; · iexists fg; iexact HFO'
    isplitl [HS1]; · iexists fo1; iexact HS1
    isplitl [Hs1]; · iexact Hs1
    isplitl [Hdone]
    · rw [show (Finset.univ.filter fun u : Fin 50 => u.val + 1 < t.val + 1) = (Finset.univ.filter fun u : Fin 50 => u.val + 1 < t.val) from
        Finset.filter_congr (fun u _ => by omega)]
      iexact Hdone
    iexact Htodo
  iexists W''; isplitr
  · ipureintro; intro p hp
    rcases hW'' p hp with h | h
    · exact hW' p h
    · exact .inr h
  · iexact Hw

set_option maxHeartbeats 1000000 in
theorem r3tripE (t : Fin k0_t1_loop.trips) (ht49 : t.val = 49)
    (hx : Cert.Lookup.InRange (m (xLoc d) : IVec Cert.Lookup.SX 32))
    (acc : BitVec 32 × BitVec 32 × BitVec 32 × BitVec 32 × BitVec 32) :
    r3inv m d L O W qi qs t.val acc
      ⊢ wp frame (wpE (defs₀ (F := F)) 𝒱₀ (tailThr d L) none) Set.univ
          (k0_t1_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r3v7 L) (Scalar.addi 0#32 1#32) 0#32 0#32 0#32 0#32 0#32 t acc)
          (r3inv m d L O W qi qs (t.val + 1)) := by
  have ht50 : t.val < 50 := by omega
  have e8 : k0_off8 L (tailW t.val) = r3bi L (tailFin t.val) := by
    show _ = Arith.blkIn 0 L (tailFin t.val).val
    rw [tailFin_val (by omega)]; exact Arith.off8_eq L t.val (by omega)
  have e13 : k0_off13 L (tailW t.val) = r3bo L (tailFin t.val) := by
    show _ = outOff 0 (stp (L 0).val (L 1).val (tailFin t.val).val)
    rw [tailFin_val (by omega)]; exact Arith.off13_eq L t.val (by omega)
  have e16 : k0_off16 L (tailW t.val) = r3bo L (tailFin (t.val - 1)) := by
    show _ = outOff 0 (stp (L 0).val (L 1).val (tailFin (t.val - 1)).val)
    rw [tailFin_val (by omega)]; exact Arith.off16_eq L t.val (by omega) (by omega)
  unfold r3inv r3out
  simp only [Nat.add_sub_cancel]
  rw [if_pos (show t.val < 50 by omega), if_neg (show ¬ t.val + 1 < 50 by omega), if_neg (show ¬ t.val = 0 by omega),
    if_neg (show ¬ t.val + 1 = 0 by omega)]
  unfold r3idxMid r3idxEnd
  simp only [Nat.add_sub_cancel]
  iintro ⟨%hacc, #Hmw, HT, Hs7, ⟨⟨%fcur, %hgood, HFI⟩, Hrest, ⟨%fa, HSn⟩, Hsn, Htoks⟩, ⟨⟨%fbp, HFO⟩, ⟨%fb, HOS⟩, Hso, Hdone, Htodo⟩, ⟨%W', %hW', Hw⟩⟩
  subst hacc
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 0 u (m (oLoc d))))) $$ Htodo
  icases Htodo' with ⟨HOB, Htodo⟩
  iapply (wp_wand_r Idealize.ShloMosaic.frame (wpE (defs₀ (F := F)) 𝒱₀ (tailThr d L) none) Set.univ)
  isplitl [HFI HT HOS Hs7 HOB Hso HFO Hw]
  · have hcar : r3car t.val = (tailW (t.val + 1), tailW t.val, tailW t.val, tailW (t.val - 1), tailW t.val) := by
      unfold r3car; rw [Nat.min_eq_left (by omega), Nat.mod_eq_of_lt (by omega)]
    rw [hcar]
    iapply (r3coreE m d L O W' t ht49
      (k0_off7 (tailW t.val)) rfl (r3hb7 _) (r3bi L (tailFin t.val)) e8 (r3bi_inb L _) (k0_off9 (tailW t.val)) rfl (r3hb9 _)
      (k0_off15 (tailW t.val)) rfl (r3hb15 _) (r3bo L (tailFin t.val)) e13 (r3bo_inb L _) (k0_off17 (tailW t.val)) rfl (r3hb17 _)
      (k0_off15 (tailW (t.val - 1))) rfl (r3hb15 _) (r3bo L (tailFin (t.val - 1))) e16 (r3bo_inb L _) (k0_off17 (tailW (t.val - 1))) rfl (r3hb17 _)
      (shareTok qi 50 (tailFin (t.val + 1))) (shareTok qi 50 (tailFin t.val)) qs fcur hgood hx)
    isplitr; · iexact Hmw
    isplitl [HFI]; · iexact HFI
    isplitl [HT]; · iexact HT
    isplitl [HOS]; · iexists fb; iexact HOS
    isplitl [Hs7]; · iexact Hs7
    isplitl [HOB]; · iexact HOB
    isplitl [Hso]; · iexact Hso
    isplitl [HFO]; · iexists fbp; iexact HFO
    iexact Hw
  iintro %acc' ⟨%hacc', HI8, Hs9, HS7, HT, Hs7, ⟨%fg, HFO'⟩, HO16, ⟨%fo15, HS15⟩, Hs17, ⟨%W'', %hW'', Hw⟩⟩
  have hp5 : k0_off15 (tailW (t.val - 1)) = k0_off10 (tailW (t.val + 1)) := r3par5 (by omega) (by omega) (by omega)
  have hp1O : k0_off17 (tailW (t.val - 1)) = k0_off14 (tailW (t.val + 1)) := r3par1O (by omega) (by omega) (by omega)
  have e1 : min (t.val + 1 + 1) 50 = t.val + 1 := by omega
  have e2 : (t.val + 1) % 50 = 0 := by omega
  isplitr
  · ipureintro; rw [hacc']; unfold r3car; rw [e1, e2, Nat.add_sub_cancel]
  isplitr; · iexact Hmw
  isplitl [HT]; · iexact HT
  isplitl [Hs7]; · iexact Hs7
  isplitl [HSn Hsn HS7 Hs9 HI8 Hrest Htoks]
  · isplitl [HSn]; · iexists fa; iexact HSn
    isplitl [Hsn]; · iexact Hsn
    isplitl [HS7]; · iexists fcur; iexact HS7
    isplitl [Hs9]; · iexact Hs9
    -- the last trip's token whole again, back among the others: every token whole
    iapply (Entails.of_eq (r3_take (tailFin t.val) (tailTokPt m d qi)).symm)
    rw [tailFin_val (by omega)]
    isplitl [HI8 Hrest]
    · iapply (pointsTo_split_subset (Finset.subset_univ (tailIBlk (r3bi L (tailFin t.val)) (r3bi_inb L _)).view.set)).2
      isplitl [HI8]; · iexact HI8
      iexact Hrest
    iexact Htoks
  isplitl [HFO' HS15 Hs17 HO16 Hdone Htodo]
  · isplitl [HFO']; · iexists fg; iexact HFO'
    isplitl [HS15]
    · iexists fo15; iapply (Entails.of_eq (r3OSlotPt_congr d L hp5 (r3hb15 _) (r3hb10 _) fo15)); iexact HS15
    isplitl [Hs17]
    · iapply (Entails.of_eq (tailCell_congr d L cc0_scoped6 hp1O (r3hb17 _) (r3hb14 _))); iexact Hs17
    isplitl [HO16 Hdone]
    · iapply (Entails.of_eq (tail_bigSep_step (fun u : Fin 50 => u.val + 1 < t.val) (fun u : Fin 50 => u.val + 1 < t.val + 1) (tailFin (t.val - 1))
        (by rw [tailFin_val (by omega)]; omega) (fun u => by rw [Fin.ext_iff, tailFin_val (by omega)]; omega) (fun u => tailOPt d L 0 u (outK m d))).symm)
      isplitl [HO16]; · iexact HO16
      iexact Hdone
    iexact Htodo
  iexists W''; isplitr
  · ipureintro; intro p hp
    rcases hW'' p hp with h | h
    · exact hW' p h
    · exact .inr h
  · iexact Hw

/-- A trip of the loop, whichever. -/
theorem r3trip (t : Fin k0_t1_loop.trips) (hx : Cert.Lookup.InRange (m (xLoc d) : IVec Cert.Lookup.SX 32))
    (acc : BitVec 32 × BitVec 32 × BitVec 32 × BitVec 32 × BitVec 32) :
    r3inv m d L O W qi qs t.val acc
      ⊢ wp frame (wpE (defs₀ (F := F)) 𝒱₀ (tailThr d L) none) Set.univ
          (k0_t1_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r3v7 L) (Scalar.addi 0#32 1#32) 0#32 0#32 0#32 0#32 0#32 t acc)
          (r3inv m d L O W qi qs (t.val + 1)) := by
  have ht : t.val < 50 := lt_of_lt_of_eq t.isLt Arith.trips1
  rcases Nat.eq_zero_or_pos t.val with h0 | h1
  · exact r3trip0 m d L O W qi qs t h0 hx acc
  · rcases Nat.lt_or_ge t.val 49 with h | h
    · exact r3tripM m d L O W qi qs t h1 h hx acc
    · exact r3tripE m d L O W qi qs t (by omega) hx acc

/-- The invariant after the last trip, spelt out. -/
theorem r3inv_end (acc : BitVec 32 × BitVec 32 × BitVec 32 × BitVec 32 × BitVec 32) :
    r3inv m d L O W qi qs 50 acc
      ⊢ iprop(⌜acc = (tailW 50, tailW 50, tailW 50, tailW 49, tailW 0)⌝ ∗ Transfers.MayWaits (tailThr d L) (default : HIx 1) O ∗ r3Tab m d L qs
          ∗ semVal (tailThr d L, SemLoc.dma cc0_scoped7.sem) 0
          ∗ ((∃ f, r3ISlotPt d L (k0_off4 (tailW 50)) (r3hb4 _) f)
            ∗ semVal (tailThr d L, SemLoc.dma (tailSem cc0_scoped4 (k0_off6 (tailW 50)) (r3hb6 _))) 0
            ∗ (∃ f, r3ISlotPt d L (k0_off7 (tailW (50 - 1))) (r3hb7 _) f)
            ∗ semVal (tailThr d L, SemLoc.dma (tailSem cc0_scoped4 (k0_off9 (tailW (50 - 1))) (r3hb9 _))) 0
            ∗ bigSep Finset.univ (tailTokPt m d qi))
          ∗ ((∃ fbp, r3FO d L (k0_off17 (tailW (50 - 1))) (r3hb17 _) (r3bo L (tailFin (50 - 1))) (r3bo_inb L _) (outK m d) (k0_off15 (tailW (50 - 1))) (r3hb15 _) fbp)
            ∗ (∃ f, r3OSlotPt d L (k0_off10 (tailW 50)) (r3hb10 _) f)
            ∗ semVal (tailThr d L, SemLoc.dma (tailSem cc0_scoped6 (k0_off14 (tailW 50)) (r3hb14 _))) 0
            ∗ bigSep (Finset.univ.filter fun u : Fin 50 => u.val + 1 < 50) (fun u => tailOPt d L 0 u (outK m d))
            ∗ bigSep (Finset.univ.filter fun u : Fin 50 => 50 ≤ u.val) (fun u => tailOPt d L 0 u (m (oLoc d))))
          ∗ ∃ W', ⌜∀ p ∈ W', p ∈ W ∨ p.2 = none⌝ ∗ owes (tailThr d L) O W') := by
  unfold r3inv r3out r3idxEnd
  rw [if_neg (show ¬ (50 : ℕ) < 50 by decide), if_neg (show ¬ (50 : ℕ) = 0 by decide)]
  iintro ⟨%hacc, H⟩
  isplitr
  · ipureintro; rw [hacc]; rfl
  · iexact H

/-! ## After the loop: the buffers whole again, every block done -/

omit [FloatOps F] in
theorem r3I_back (fa fc g : Buf (Elt F) ((tailThr d L).loc cc0_scoped3)) :
    iprop(r3ISlotPt d L (k0_off4 (tailW 50)) (r3hb4 _) fa ∗ r3ISlotPt d L (k0_off7 (tailW (50 - 1))) (r3hb7 _) fc
        ∗ ((tailThr d L).loc cc0_scoped3 ↦[r3IRest d L]{fullShare} g))
      ⊢ (∃ f, (tailThr d L).loc cc0_scoped3 ↦{fullShare} f : sProp 𝕄) := by
  have e0 : k0_off4 (tailW 50) = (![0, 0, 0, 0] : Fin 4 → ℕ) := by rw [Arith.off4_eq]; rfl
  have e1 : k0_off7 (tailW (50 - 1)) = (![1, 0, 0, 0] : Fin 4 → ℕ) := by rw [Arith.off7_eq]; rfl
  rw [r3ISlotPt_congr d L e0 (r3hb4 _) r3inbI0 fa, r3ISlotPt_congr d L e1 (r3hb7 _) r3inbI1 fc]
  exact r3IBuf_join d L fa fc g

omit [FloatOps F] in
theorem r3O_back (fb fbp g : Buf (Elt F) ((tailThr d L).loc cc0_scoped5)) :
    iprop(r3OSlotPt d L (k0_off10 (tailW 50)) (r3hb10 _) fb ∗ r3OSlotPt d L (k0_off15 (tailW (50 - 1))) (r3hb15 _) fbp
        ∗ ((tailThr d L).loc cc0_scoped5 ↦[r3ORest d L]{fullShare} g))
      ⊢ (∃ f, (tailThr d L).loc cc0_scoped5 ↦{fullShare} f : sProp 𝕄) := by
  have e0 : k0_off10 (tailW 50) = (![0, 0, 0, 0, 0] : Fin 5 → ℕ) := by rw [Arith.off10_eq]; rfl
  have e1 : k0_off15 (tailW (50 - 1)) = (![1, 0, 0, 0, 0] : Fin 5 → ℕ) := by rw [Arith.off15_eq]; rfl
  rw [r3OSlotPt_congr d L e0 (r3hb10 _) r3inbO0 fb, r3OSlotPt_congr d L e1 (r3hb15 _) r3inbO1 fbp]
  exact r3OBuf_join d L fb fbp g

/-- The last block done, beside the forty-nine before it: all fifty. -/
theorem r3_allDone :
    iprop(((tailOBlk (r3bo L (tailFin (50 - 1))) (r3bo_inb L _)).view.loc (tailThr d L) ↦[(tailOBlk (r3bo L (tailFin (50 - 1))) (r3bo_inb L _)).view.set]{fullShare} outK m d)
        ∗ bigSep (Finset.univ.filter fun u : Fin 50 => u.val + 1 < 50) (fun u => tailOPt d L 0 u (outK m d)))
      ⊢ (bigSep Finset.univ (fun u : Fin 50 => tailOPt d L 0 u (outK m d)) : sProp 𝕄) := by
  rw [r3_take (tailFin (50 - 1)) (fun u => tailOPt d L 0 u (outK m d)),
    show (Finset.univ.filter fun u : Fin 50 => u.val ≠ (tailFin (50 - 1)).val) = (Finset.univ.filter fun u : Fin 50 => u.val + 1 < 50) from
      Finset.filter_congr (fun u _ => by have := u.isLt; show u.val ≠ (50 - 1) % 50 ↔ _; omega)]
  exact Entails.refl _

end Cert.Proof.K

end
-- ==== Proof.KTailR5D.lean ====
/-
  The second of the three pipelined lookups: its two-slot buffers, what is in flight on its semaphores, the facts that
  the fetched words are the index block's and stay in range, and the loop's invariant.  At trip t the fetch of index
  block t is in flight into the index slot of t's parity and the copy-out of the gathered rows of block t - 1 is in
  flight from the row slot of the other parity; the blocks before t - 1 hold the lookup's values.
-/
import proofs.«206595_g34437047779621_cont_8to1_b_428_16_alg».proof.Proof.KTailLib

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

/-! ## The buffers of the second lookup -/

/-- One slot of the two-slot buffer of index words. -/
abbrev r5iSlot (off : Fin 4 → ℕ) (h : ∀ a, off a + S1x1x1x128.size a ≤ S2x1x1x128.size a) : Memref sig .scVector .vmem S1x1x1x128 .i32 :=
  (Memref.whole cc0_scoped8).slice (Rect.unit (s := S2x1x1x128) off S1x1x1x128.size h) (fun _ => rfl)
/-- One slot of the two-slot buffer of gathered rows. -/
abbrev r5oSlot (off : Fin 5 → ℕ) (h : ∀ a, off a + S1x1x1x128x128.size a ≤ S2x1x1x128x128.size a) : Memref sig .scVector .vmem S1x1x1x128x128 .f32 :=
  (Memref.whole cc0_scoped10).slice (Rect.unit (s := S2x1x1x128x128) off S1x1x1x128x128.size h) (fun _ => rfl)
/-- The list of 128 index words of one slot, as the gather reads it. -/
abbrev r5list (off : Fin 4 → ℕ) (h : ∀ a, off a + S1x1x1x128.size a ≤ S2x1x1x128.size a) : Memref sig .scVector .vmem S128 .i32 :=
  ((((r5iSlot off h).squeeze S1x1x128 squeezes_S1x1x1x128_S1x1x128).slice (Rect.unit (s := S1x1x128) ![0, 0, 0] S1x1x128.size inb_S1x1x128_S1x1x128_0_0_0) (fun _ => rfl)).squeeze S128 squeezes_S1x1x128_S128)

/-- An index slot at contents `f`. -/
abbrev r5ISlotPt (off : Fin 4 → ℕ) (h : ∀ a, off a + S1x1x1x128.size a ≤ S2x1x1x128.size a)
    (f : Buf (Elt F) ((Memref.whole cc0_scoped8).view.loc (tailThr d L))) : sProp 𝕄 :=
  (r5iSlot off h).view.loc (tailThr d L) ↦[(r5iSlot off h).view.set]{fullShare} f
/-- A slot of gathered rows at contents `f`. -/
abbrev r5OSlotPt (off : Fin 5 → ℕ) (h : ∀ a, off a + S1x1x1x128x128.size a ≤ S2x1x1x128x128.size a)
    (f : Buf (Elt F) ((Memref.whole cc0_scoped10).view.loc (tailThr d L))) : sProp 𝕄 :=
  (r5oSlot off h).view.loc (tailThr d L) ↦[(r5oSlot off h).view.set]{fullShare} f

/-- A fetch of an index block into an index slot, in flight. -/
abbrev r5FI (offS : Fin 1 → ℕ) (hS : ∀ a, offS a + S1.size a ≤ S2.size a) (offL : Fin 4 → ℕ) (hL : ∀ a, offL a + S1x1x1x128.size a ≤ S2x1x1x128.size a)
    (offB : Fin 3 → ℕ) (hB : ∀ a, offB a + S1x1x128.size a ≤ S3x50x4096.size a) (q : PosShare TreeShare)
    (f : Buf (Elt F) ((Memref.whole cc0_scoped8).view.loc (tailThr d L))) : sProp 𝕄 :=
  Transfers.Flight countersEmb (tailThr d L) (SemLoc.dma (tailSem cc0_scoped9 offS hS)) (default : HIx 1) 4096
    iprop(((r5iSlot offL hL).view.loc (tailThr d L) ↦[(r5iSlot offL hL).view.set]{fullShare} f)
      ∗ ((tailIBlk offB hB).view.loc (tailThr d L) ↦[(tailIBlk offB hB).view.set]{q} idxT m d))
/-- A copy of a slot of gathered rows out to an output block, in flight. -/
abbrev r5FO (offS : Fin 1 → ℕ) (hS : ∀ a, offS a + S1.size a ≤ S2.size a) (offB : Fin 4 → ℕ) (hB : ∀ a, offB a + S1x1x128x128.size a ≤ S50x3x4096x128.size a)
    (fB : Buf (Elt F) (oLoc d)) (offL : Fin 5 → ℕ) (hL : ∀ a, offL a + S1x1x1x128x128.size a ≤ S2x1x1x128x128.size a)
    (fL : Buf (Elt F) ((Memref.whole cc0_scoped10).view.loc (tailThr d L))) : sProp 𝕄 :=
  Transfers.Flight countersEmb (tailThr d L) (SemLoc.dma (tailSem cc0_scoped11 offS hS)) (default : HIx 1) 524288
    iprop(((tailOBlk offB hB).view.loc (tailThr d L) ↦[(tailOBlk offB hB).view.set]{fullShare} fB)
      ∗ ((r5oSlot offL hL).view.loc (tailThr d L) ↦[(r5oSlot offL hL).view.set]{fullShare} fL))

/-- The index slot `off` holds the 128 words of the index block `boff`. -/
def r5good (off : Fin 4 → ℕ) (h : ∀ a, off a + S1x1x1x128.size a ≤ S2x1x1x128.size a)
    (boff : Fin 3 → ℕ) (hb : ∀ a, boff a + S1x1x128.size a ≤ S3x50x4096.size a)
    (f : Buf (Elt F) ((Memref.whole cc0_scoped8).view.loc (tailThr d L))) : Prop :=
  ∀ x : S128.Idx, (r5list off h).view.read (Elt F) f x = ((tailIBlk boff hb).view.reshape S128 tail_numel128).read (Elt F) (idxT m d) x

/-- The tile's first step of the 1600, as a word. -/
def r5v7 : BitVec 32 :=
  Scalar.muli (Scalar.addi (Scalar.addi (0#32) (Scalar.muli (BitVec.ofNat 32 (L 1).val) 1#32)) (Scalar.muli (BitVec.ofNat 32 (L 0).val) 16#32)) 50#32

/-- That step as the second lookup's opening spells it: zero plus it. -/
def r5v20 : BitVec 32 := Scalar.addi 0#32 (r5v7 L)

/-- The floor quotient of that step by 32, computed on words as the opening does: the truncated quotient, less one
    when the signs differ and the remainder is not zero. -/
def r5v51 : BitVec 32 :=
  let v20 : BitVec 32 := r5v20 L
  let v35 : BitVec 32 := Scalar.divsi v20 32#32
  let v36 : BitVec 1 := Scalar.cmpi .sgt v20 0#32
  let v37 : BitVec 32 := Scalar.extui v36
  let v38 : BitVec 1 := Scalar.cmpi .slt v20 0#32
  let v39 : BitVec 32 := Scalar.extui v38
  let v40 : BitVec 32 := Scalar.subi v37 v39
  let v41 : BitVec 1 := Scalar.cmpi .sgt 32#32 0#32
  let v42 : BitVec 32 := Scalar.extui v41
  let v43 : BitVec 1 := Scalar.cmpi .slt 32#32 0#32
  let v44 : BitVec 32 := Scalar.extui v43
  let v45 : BitVec 32 := Scalar.subi v42 v44
  let v46 : BitVec 1 := Scalar.cmpi .ne v40 v45
  let v47 : BitVec 32 := Scalar.remsi v20 32#32
  let v48 : BitVec 1 := Scalar.cmpi .ne v47 0#32
  let v49 : BitVec 1 := Scalar.andi v46 v48
  let v50 : BitVec 32 := Scalar.subi v35 1#32
  Scalar.select v49 v50 v35

/-- The divisor 32 as the opening spells it (one where it would be zero). -/
def r5v53 : BitVec 32 := Scalar.select (Scalar.cmpi .eq 32#32 0#32) 1#32 32#32

/-- The table of the second lookup at a share. -/
abbrev r5Tab (qs : PosShare TreeShare) : sProp 𝕄 :=
  (Memref.whole cc0_scratch1).view.loc (tailThr d L) ↦{qs} (m (w1Loc d) : Buf (Elt F) (sh1Loc d (cV L)))

theorem r5list_subset (off : Fin 4 → ℕ) (h : ∀ a, off a + S1x1x1x128.size a ≤ S2x1x1x128.size a) :
    (r5list off h).view.set ⊆ (r5iSlot off h).view.set := by
  show ((((r5iSlot off h).view.reshape S1x1x128 _).slice _).reshape S128 _).set ⊆ _
  rw [View.set_reshape]
  refine (View.set_slice_subset _ _).trans ?_
  rw [View.set_reshape]

omit [FloatOps F] in
theorem r5_unit0_emb : ∀ x : S128.Idx,
    (Rect.unit (s := S1x1x128) ![0, 0, 0] S1x1x128.size inb_S1x1x128_S1x1x128_0_0_0).emb ((Shape.reshapeEquiv squeezes_S1x1x128_S128.numel_eq) x)
      = (Shape.reshapeEquiv (s := S1x1x128) (s' := S128) (by decide)) x := by
  decide +kernel

theorem r5good_write (off : Fin 4 → ℕ) (h : ∀ a, off a + S1x1x1x128.size a ≤ S2x1x1x128.size a)
    (boff : Fin 3 → ℕ) (hb : ∀ a, boff a + S1x1x128.size a ≤ S3x50x4096.size a)
    (fa : Buf (Elt F) ((Memref.whole cc0_scoped8).view.loc (tailThr d L))) :
    r5good m d L off h boff hb
      (View.write (Elt F) ((r5iSlot off h).squeeze S1x1x128 squeezes_S1x1x1x128_S1x1x128).view fa
        (ReadAs.same.apply (View.read (Elt F) (tailIBlk boff hb).view (idxT m d))) Finset.univ) := by
  intro x
  have e : (r5list off h).view.emb x
      = ((r5iSlot off h).squeeze S1x1x128 squeezes_S1x1x1x128_S1x1x128).view.emb ((Shape.reshapeEquiv (s := S1x1x128) (s' := S128) (by decide)) x) := by
    show ((r5iSlot off h).squeeze S1x1x128 squeezes_S1x1x1x128_S1x1x128).view.emb
        ((Rect.unit (s := S1x1x128) ![0, 0, 0] S1x1x128.size inb_S1x1x128_S1x1x128_0_0_0).emb ((Shape.reshapeEquiv squeezes_S1x1x128_S128.numel_eq) x)) = _
    rw [r5_unit0_emb]
  rw [View.read_apply, e, View.write_emb_of_mem _ _ (Finset.mem_univ _)]
  simp only [cast_cast, cast_eq]
  rfl

/-- A copy-out in flight, as the run leaves it, is the copy-out in flight the invariant states: its block at the values
    the block is to hold, its slot by the slot's own elements. -/
theorem r5FO_fix (offS : Fin 1 → ℕ) (hS : ∀ a, offS a + S1.size a ≤ S2.size a) (offB : Fin 4 → ℕ) (hB : ∀ a, offB a + S1x1x128x128.size a ≤ S50x3x4096x128.size a)
    (fB fB' : Buf (Elt F) (oLoc d)) (offL offL' : Fin 5 → ℕ) (hL : ∀ a, offL a + S1x1x1x128x128.size a ≤ S2x1x1x128x128.size a)
    (hL' : ∀ a, offL' a + S1x1x1x128x128.size a ≤ S2x1x1x128x128.size a)
    (fL : Buf (Elt F) ((Memref.whole cc0_scoped10).view.loc (tailThr d L)))
    (hv : ∀ i ∈ (tailOBlk offB hB).view.set, fB i = fB' i) (hoff : offL' = offL) :
    (Transfers.Flight countersEmb (tailThr d L) (SemLoc.dma (tailSem cc0_scoped11 offS hS)) (default : HIx 1) 524288
      iprop(((tailOBlk offB hB).view.loc (tailThr d L) ↦[(tailOBlk offB hB).view.set]{fullShare} fB)
        ∗ ((r5oSlot offL hL).view.loc (tailThr d L) ↦[((r5oSlot offL' hL').squeeze S1x1x128x128 squeezes_S1x1x1x128x128_S1x1x128x128).view.set]{fullShare} fL)) : sProp 𝕄)
      ⊢ r5FO d L offS hS offB hB fB' offL hL fL := by
  subst hoff
  have hset : ((r5oSlot offL' hL').squeeze S1x1x128x128 squeezes_S1x1x1x128x128_S1x1x128x128).view.set = (r5oSlot offL' hL).view.set :=
    View.set_reshape _ _
  refine Transfers.Flight_mono countersEmb (tailThr d L) ?_
  rw [pointsTo_congr hv, hset]

variable (O : CellTallies nD τ sig (HIx 1)) (W : Waits sig (HIx 1))

/-! ## Slots and semaphores of one parity under two spellings -/

omit [FloatOps F] in
theorem r5ISlotPt_congr {off off' : Fin 4 → ℕ} (e : off = off') (h : ∀ a, off a + S1x1x1x128.size a ≤ S2x1x1x128.size a)
    (h' : ∀ a, off' a + S1x1x1x128.size a ≤ S2x1x1x128.size a) (f : Buf (Elt F) ((Memref.whole cc0_scoped8).view.loc (tailThr d L))) :
    (r5ISlotPt d L off h f : sProp 𝕄) = r5ISlotPt d L off' h' f := by subst e; rfl
omit [FloatOps F] in
theorem r5OSlotPt_congr {off off' : Fin 5 → ℕ} (e : off = off') (h : ∀ a, off a + S1x1x1x128x128.size a ≤ S2x1x1x128x128.size a)
    (h' : ∀ a, off' a + S1x1x1x128x128.size a ≤ S2x1x1x128x128.size a) (f : Buf (Elt F) ((Memref.whole cc0_scoped10).view.loc (tailThr d L))) :
    (r5OSlotPt d L off h f : sProp 𝕄) = r5OSlotPt d L off' h' f := by subst e; rfl
omit [FloatOps F] in
theorem r5par4 {a b : ℕ} (ha : a < 2 ^ 32) (hb : b < 2 ^ 32) (h : a % 2 = b % 2) : k0_off28 (tailW a) = k0_off25 (tailW b) := by
  rw [Arith.off7_eq_r5, Arith.off4_eq_r5, tailW_par ha hb h]
omit [FloatOps F] in
theorem r5par1I {a b : ℕ} (ha : a < 2 ^ 32) (hb : b < 2 ^ 32) (h : a % 2 = b % 2) : k0_off30 (tailW a) = k0_off27 (tailW b) := by
  rw [Arith.off9_eq_r5, Arith.off6_eq_r5, tailW_par ha hb h]
omit [FloatOps F] in
theorem r5par5 {a b : ℕ} (ha : a < 2 ^ 32) (hb : b < 2 ^ 32) (h : a % 2 = b % 2) : k0_off36 (tailW a) = k0_off31 (tailW b) := by
  rw [Arith.off15_eq_r5, Arith.off10_eq_r5, tailW_par ha hb h]
omit [FloatOps F] in
theorem r5par1O {a b : ℕ} (ha : a < 2 ^ 32) (hb : b < 2 ^ 32) (h : a % 2 = b % 2) : k0_off38 (tailW a) = k0_off35 (tailW b) := by
  rw [Arith.off17_eq_r5, Arith.off14_eq_r5, tailW_par ha hb h]

/-! ## The two-slot buffers as their slots -/

omit [FloatOps F] in theorem r5inbI0 : ∀ a, (![0, 0, 0, 0] : Fin 4 → ℕ) a + S1x1x1x128.size a ≤ S2x1x1x128.size a := by decide
omit [FloatOps F] in theorem r5inbI1 : ∀ a, (![1, 0, 0, 0] : Fin 4 → ℕ) a + S1x1x1x128.size a ≤ S2x1x1x128.size a := by decide
omit [FloatOps F] in theorem r5inbO0 : ∀ a, (![0, 0, 0, 0, 0] : Fin 5 → ℕ) a + S1x1x1x128x128.size a ≤ S2x1x1x128x128.size a := by decide
omit [FloatOps F] in theorem r5inbO1 : ∀ a, (![1, 0, 0, 0, 0] : Fin 5 → ℕ) a + S1x1x1x128x128.size a ≤ S2x1x1x128x128.size a := by decide

omit [FloatOps F] in
theorem r5IDisj : Disjoint (r5iSlot ![1, 0, 0, 0] r5inbI1).view.set (r5iSlot ![0, 0, 0, 0] r5inbI0).view.set := by
  have h1 : (r5iSlot ![1, 0, 0, 0] r5inbI1).view.set = (Rect.unit (s := S2x1x1x128) ![1, 0, 0, 0] S1x1x1x128.size r5inbI1).set := View.set_slice_whole _ _
  have h0 : (r5iSlot ![0, 0, 0, 0] r5inbI0).view.set = (Rect.unit (s := S2x1x1x128) ![0, 0, 0, 0] S1x1x1x128.size r5inbI0).set := View.set_slice_whole _ _
  rw [h1, h0]
  exact Rect.disjoint_of_separated _ _ 0 (.inr (.inr (by decide)))
omit [FloatOps F] in
theorem r5ISub : (r5iSlot ![1, 0, 0, 0] r5inbI1).view.set ⊆ Finset.univ \ (r5iSlot ![0, 0, 0, 0] r5inbI0).view.set :=
  Finset.subset_sdiff.mpr ⟨Finset.subset_univ _, r5IDisj⟩
omit [FloatOps F] in
theorem r5ODisj : Disjoint (r5oSlot ![1, 0, 0, 0, 0] r5inbO1).view.set (r5oSlot ![0, 0, 0, 0, 0] r5inbO0).view.set := by
  have h1 : (r5oSlot ![1, 0, 0, 0, 0] r5inbO1).view.set = (Rect.unit (s := S2x1x1x128x128) ![1, 0, 0, 0, 0] S1x1x1x128x128.size r5inbO1).set := View.set_slice_whole _ _
  have h0 : (r5oSlot ![0, 0, 0, 0, 0] r5inbO0).view.set = (Rect.unit (s := S2x1x1x128x128) ![0, 0, 0, 0, 0] S1x1x1x128x128.size r5inbO0).set := View.set_slice_whole _ _
  rw [h1, h0]
  exact Rect.disjoint_of_separated _ _ 0 (.inr (.inr (by decide)))
omit [FloatOps F] in
theorem r5OSub : (r5oSlot ![1, 0, 0, 0, 0] r5inbO1).view.set ⊆ Finset.univ \ (r5oSlot ![0, 0, 0, 0, 0] r5inbO0).view.set :=
  Finset.subset_sdiff.mpr ⟨Finset.subset_univ _, r5ODisj⟩

/-- What of the index buffer lies in neither slot (nothing; kept as a piece so that no count is needed). -/
abbrev r5IRest : Finset (Idx ((tailThr d L).loc cc0_scoped8)) :=
  (Finset.univ \ (r5iSlot ![0, 0, 0, 0] r5inbI0).view.set) \ (r5iSlot ![1, 0, 0, 0] r5inbI1).view.set
abbrev r5ORest : Finset (Idx ((tailThr d L).loc cc0_scoped10)) :=
  (Finset.univ \ (r5oSlot ![0, 0, 0, 0, 0] r5inbO0).view.set) \ (r5oSlot ![1, 0, 0, 0, 0] r5inbO1).view.set

omit [FloatOps F] in
theorem r5IBuf_split (f : Buf (Elt F) ((tailThr d L).loc cc0_scoped8)) :
    ((tailThr d L).loc cc0_scoped8 ↦{fullShare} f : sProp 𝕄)
      ⊢ iprop(r5ISlotPt d L ![0, 0, 0, 0] r5inbI0 f ∗ r5ISlotPt d L ![1, 0, 0, 0] r5inbI1 f ∗ ((tailThr d L).loc cc0_scoped8 ↦[r5IRest d L]{fullShare} f)) := by
  iintro H
  ihave H' := (pointsTo_split_subset (Finset.subset_univ (r5iSlot ![0, 0, 0, 0] r5inbI0).view.set)).1 $$ H
  icases H' with ⟨H0, Hr⟩
  ihave Hr' := (pointsTo_split_subset r5ISub).1 $$ Hr
  icases Hr' with ⟨H1, Hr⟩
  isplitl [H0]; · iexact H0
  isplitl [H1]; · iexact H1
  iexact Hr

omit [FloatOps F] in
theorem r5IBuf_join (g0 g1 g : Buf (Elt F) ((tailThr d L).loc cc0_scoped8)) :
    iprop(r5ISlotPt d L ![0, 0, 0, 0] r5inbI0 g0 ∗ r5ISlotPt d L ![1, 0, 0, 0] r5inbI1 g1 ∗ ((tailThr d L).loc cc0_scoped8 ↦[r5IRest d L]{fullShare} g))
      ⊢ (∃ f, (tailThr d L).loc cc0_scoped8 ↦{fullShare} f : sProp 𝕄) := by
  iintro ⟨H0, H1, Hr⟩
  ihave Hr' := (pointsTo_join_subset (ℓ := (tailThr d L).loc cc0_scoped8) r5ISub) $$ [H1 Hr]
  · isplitl [H1]; · iexact H1
    iexact Hr
  ihave H := (pointsTo_join_subset (ℓ := (tailThr d L).loc cc0_scoped8) (Finset.subset_univ (r5iSlot ![0, 0, 0, 0] r5inbI0).view.set)) $$ [H0 Hr']
  · isplitl [H0]; · iexact H0
    iexact Hr'
  iexists _; iexact H

omit [FloatOps F] in
theorem r5OBuf_split (f : Buf (Elt F) ((tailThr d L).loc cc0_scoped10)) :
    ((tailThr d L).loc cc0_scoped10 ↦{fullShare} f : sProp 𝕄)
      ⊢ iprop(r5OSlotPt d L ![0, 0, 0, 0, 0] r5inbO0 f ∗ r5OSlotPt d L ![1, 0, 0, 0, 0] r5inbO1 f ∗ ((tailThr d L).loc cc0_scoped10 ↦[r5ORest d L]{fullShare} f)) := by
  iintro H
  ihave H' := (pointsTo_split_subset (Finset.subset_univ (r5oSlot ![0, 0, 0, 0, 0] r5inbO0).view.set)).1 $$ H
  icases H' with ⟨H0, Hr⟩
  ihave Hr' := (pointsTo_split_subset r5OSub).1 $$ Hr
  icases Hr' with ⟨H1, Hr⟩
  isplitl [H0]; · iexact H0
  isplitl [H1]; · iexact H1
  iexact Hr

omit [FloatOps F] in
theorem r5OBuf_join (g0 g1 g : Buf (Elt F) ((tailThr d L).loc cc0_scoped10)) :
    iprop(r5OSlotPt d L ![0, 0, 0, 0, 0] r5inbO0 g0 ∗ r5OSlotPt d L ![1, 0, 0, 0, 0] r5inbO1 g1 ∗ ((tailThr d L).loc cc0_scoped10 ↦[r5ORest d L]{fullShare} g))
      ⊢ (∃ f, (tailThr d L).loc cc0_scoped10 ↦{fullShare} f : sProp 𝕄) := by
  iintro ⟨H0, H1, Hr⟩
  ihave Hr' := (pointsTo_join_subset (ℓ := (tailThr d L).loc cc0_scoped10) r5OSub) $$ [H1 Hr]
  · isplitl [H1]; · iexact H1
    iexact Hr
  ihave H := (pointsTo_join_subset (ℓ := (tailThr d L).loc cc0_scoped10) (Finset.subset_univ (r5oSlot ![0, 0, 0, 0, 0] r5inbO0).view.set)) $$ [H0 Hr']
  · isplitl [H0]; · iexact H0
    iexact Hr'
  iexists _; iexact H

/-! ## Flights under two spellings -/

theorem r5FI_congr {offS offS' : Fin 1 → ℕ} {offL offL' : Fin 4 → ℕ} {offB offB' : Fin 3 → ℕ} (eS : offS = offS') (eL : offL = offL') (eB : offB = offB')
    (hS : ∀ a, offS a + S1.size a ≤ S2.size a) (hL : ∀ a, offL a + S1x1x1x128.size a ≤ S2x1x1x128.size a) (hB : ∀ a, offB a + S1x1x128.size a ≤ S3x50x4096.size a)
    (hS' : ∀ a, offS' a + S1.size a ≤ S2.size a) (hL' : ∀ a, offL' a + S1x1x1x128.size a ≤ S2x1x1x128.size a) (hB' : ∀ a, offB' a + S1x1x128.size a ≤ S3x50x4096.size a)
    (q : PosShare TreeShare) (f : Buf (Elt F) ((Memref.whole cc0_scoped8).view.loc (tailThr d L))) :
    (r5FI m d L offS hS offL hL offB hB q f : sProp 𝕄) = r5FI m d L offS' hS' offL' hL' offB' hB' q f := by subst eS eL eB; rfl
theorem r5good_congr {offL offL' : Fin 4 → ℕ} {offB offB' : Fin 3 → ℕ} (eL : offL = offL') (eB : offB = offB')
    (hL : ∀ a, offL a + S1x1x1x128.size a ≤ S2x1x1x128.size a) (hB : ∀ a, offB a + S1x1x128.size a ≤ S3x50x4096.size a)
    (hL' : ∀ a, offL' a + S1x1x1x128.size a ≤ S2x1x1x128.size a) (hB' : ∀ a, offB' a + S1x1x128.size a ≤ S3x50x4096.size a)
    (f : Buf (Elt F) ((Memref.whole cc0_scoped8).view.loc (tailThr d L))) (h : r5good m d L offL hL offB hB f) : r5good m d L offL' hL' offB' hB' f := by
  subst eL eB; exact h
omit [FloatOps F] in
theorem r5FO_congr {offS offS' : Fin 1 → ℕ} {offB offB' : Fin 4 → ℕ} {offL offL' : Fin 5 → ℕ} (eS : offS = offS') (eB : offB = offB') (eL : offL = offL')
    (hS : ∀ a, offS a + S1.size a ≤ S2.size a) (hB : ∀ a, offB a + S1x1x128x128.size a ≤ S50x3x4096x128.size a) (hL : ∀ a, offL a + S1x1x1x128x128.size a ≤ S2x1x1x128x128.size a)
    (hS' : ∀ a, offS' a + S1.size a ≤ S2.size a) (hB' : ∀ a, offB' a + S1x1x128x128.size a ≤ S50x3x4096x128.size a) (hL' : ∀ a, offL' a + S1x1x1x128x128.size a ≤ S2x1x1x128x128.size a)
    (fB : Buf (Elt F) (oLoc d)) (fL : Buf (Elt F) ((Memref.whole cc0_scoped10).view.loc (tailThr d L))) :
    (r5FO d L offS hS offB hB fB offL hL fL : sProp 𝕄) = r5FO d L offS' hS' offB' hB' fB offL' hL' fL := by subst eS eB eL; rfl

/-! ## In-bounds facts of the program's offsets at any word, and of the canonical blocks -/

omit [FloatOps F] in theorem r5hb4 (a : BitVec 32) : ∀ j, k0_off25 a j + S1x1x1x128.size j ≤ S2x1x1x128.size j := by rw [Arith.off4_eq_r5]; exact Arith.slot4 a
omit [FloatOps F] in theorem r5hb6 (a : BitVec 32) : ∀ j, k0_off27 a j + S1.size j ≤ S2.size j := by rw [Arith.off6_eq_r5]; exact Arith.slot1 a
omit [FloatOps F] in theorem r5hb7 (a : BitVec 32) : ∀ j, k0_off28 a j + S1x1x1x128.size j ≤ S2x1x1x128.size j := by rw [Arith.off7_eq_r5]; exact Arith.slot4 a
omit [FloatOps F] in theorem r5hb9 (a : BitVec 32) : ∀ j, k0_off30 a j + S1.size j ≤ S2.size j := by rw [Arith.off9_eq_r5]; exact Arith.slot1 a
omit [FloatOps F] in theorem r5hb10 (a : BitVec 32) : ∀ j, k0_off31 a j + S1x1x1x128x128.size j ≤ S2x1x1x128x128.size j := by rw [Arith.off10_eq_r5]; exact Arith.slot5 a
omit [FloatOps F] in theorem r5hb11 (a : BitVec 32) : ∀ j, k0_off32 a j + S1x1x1x128.size j ≤ S2x1x1x128.size j := by rw [Arith.off11_eq_r5]; exact Arith.slot4 a
omit [FloatOps F] in theorem r5hb12 (a : BitVec 32) : ∀ j, k0_off33 a j + S1x1x1x128x128.size j ≤ S2x1x1x128x128.size j := by rw [Arith.off12_eq_r5]; exact Arith.slot5 a
omit [FloatOps F] in theorem r5hb14 (a : BitVec 32) : ∀ j, k0_off35 a j + S1.size j ≤ S2.size j := by rw [Arith.off14_eq_r5]; exact Arith.slot1 a
omit [FloatOps F] in theorem r5hb15 (a : BitVec 32) : ∀ j, k0_off36 a j + S1x1x1x128x128.size j ≤ S2x1x1x128x128.size j := by rw [Arith.off15_eq_r5]; exact Arith.slot5 a
omit [FloatOps F] in theorem r5hb17 (a : BitVec 32) : ∀ j, k0_off38 a j + S1.size j ≤ S2.size j := by rw [Arith.off17_eq_r5]; exact Arith.slot1 a

/-- The index block of the tile's trip `u` for this lookup's table. -/
abbrev r5bi (u : Fin 50) : Fin 3 → ℕ := Arith.blkIn 1 L u.val
omit [FloatOps F] in theorem r5bi_inb (u : Fin 50) : ∀ a, r5bi L u a + S1x1x128.size a ≤ S3x50x4096.size a := Arith.blkIn_inb 1 (by decide) L u.val u.isLt
/-- The output block of the tile's trip `u` for this lookup's table. -/
abbrev r5bo (u : Fin 50) : Fin 4 → ℕ := outOff 1 (stp (L 0).val (L 1).val u.val)
omit [FloatOps F] in theorem r5bo_inb (u : Fin 50) : ∀ a, r5bo L u a + S1x1x128x128.size a ≤ S50x3x4096x128.size a :=
  outOff_inb (by decide) (stp_lt (L 0).isLt (L 1).isLt u.isLt)

variable (qi qs : PosShare TreeShare)

/-- The words the loop carries into trip `t`. -/
def r5car (t : ℕ) : BitVec 32 × BitVec 32 × BitVec 32 × BitVec 32 × BitVec 32 :=
  (tailW (min (t + 1) 50), tailW t, tailW t, tailW (t - 1), tailW (t % 50))

/-- Before trip `t < 50`, the index side: the fetch of block `t` in flight into the slot of `t`'s parity, on trip `t`'s
    read token (the rest of that token beside it), the other slot and its semaphore free, every other token whole. -/
def r5idxMid (t : ℕ) : sProp 𝕄 :=
  iprop((∃ fcur, ⌜r5good m d L (k0_off28 (tailW t)) (r5hb7 _) (r5bi L (tailFin t)) (r5bi_inb L _) fcur⌝
        ∗ r5FI m d L (k0_off30 (tailW t)) (r5hb9 _) (k0_off28 (tailW t)) (r5hb7 _) (r5bi L (tailFin t)) (r5bi_inb L _) (shareTok qi 50 (tailFin t)) fcur)
    ∗ (iLoc d ↦[Finset.univ \ (tailIBlk (r5bi L (tailFin t)) (r5bi_inb L _)).view.set]{shareTok qi 50 (tailFin t)} idxT m d)
    ∗ (∃ f, r5ISlotPt d L (k0_off25 (tailW (t + 1))) (r5hb4 _) f)
    ∗ semVal (tailThr d L, SemLoc.dma (tailSem cc0_scoped9 (k0_off27 (tailW (t + 1))) (r5hb6 _))) 0
    ∗ bigSep (Finset.univ.filter fun u : Fin 50 => u.val ≠ t) (tailTokPt m d qi))

/-- After the last trip, the index side: both slots and semaphores free, every token whole. -/
def r5idxEnd (t : ℕ) : sProp 𝕄 :=
  iprop((∃ f, r5ISlotPt d L (k0_off25 (tailW t)) (r5hb4 _) f)
    ∗ semVal (tailThr d L, SemLoc.dma (tailSem cc0_scoped9 (k0_off27 (tailW t)) (r5hb6 _))) 0
    ∗ (∃ f, r5ISlotPt d L (k0_off28 (tailW (t - 1))) (r5hb7 _) f)
    ∗ semVal (tailThr d L, SemLoc.dma (tailSem cc0_scoped9 (k0_off30 (tailW (t - 1))) (r5hb9 _))) 0
    ∗ bigSep Finset.univ (tailTokPt m d qi))

/-- The output side before trip `t`: the copy-out of block `t - 1` in flight (none before trip 0: then the other slot is
    free), the slot of `t`'s parity and its semaphore free, the blocks before `t - 1` at the lookup's values, those from
    `t` on as the launch left them. -/
def r5out (t : ℕ) : sProp 𝕄 :=
  iprop((if t = 0 then iprop((∃ f, r5OSlotPt d L (k0_off31 (tailW (t + 1))) (r5hb10 _) f)
            ∗ semVal (tailThr d L, SemLoc.dma (tailSem cc0_scoped11 (k0_off35 (tailW (t + 1))) (r5hb14 _))) 0)
         else iprop(∃ fbp, r5FO d L (k0_off38 (tailW (t - 1))) (r5hb17 _) (r5bo L (tailFin (t - 1))) (r5bo_inb L _) (outK m d) (k0_off36 (tailW (t - 1))) (r5hb15 _) fbp))
    ∗ (∃ f, r5OSlotPt d L (k0_off31 (tailW t)) (r5hb10 _) f)
    ∗ semVal (tailThr d L, SemLoc.dma (tailSem cc0_scoped11 (k0_off35 (tailW t)) (r5hb14 _))) 0
    ∗ bigSep (Finset.univ.filter fun u : Fin 50 => u.val + 1 < t) (fun u => tailOPt d L 1 u (outK m d))
    ∗ bigSep (Finset.univ.filter fun u : Fin 50 => t ≤ u.val) (fun u => tailOPt d L 1 u (m (oLoc d))))

/-- The loop's invariant. -/
def r5inv (t : ℕ) (acc : BitVec 32 × BitVec 32 × BitVec 32 × BitVec 32 × BitVec 32) : sProp 𝕄 :=
  iprop(⌜acc = r5car t⌝ ∗ Transfers.MayWaits (tailThr d L) (default : HIx 1) O ∗ r5Tab m d L qs
    ∗ semVal (tailThr d L, SemLoc.dma cc0_scoped12.sem) 0
    ∗ (if t < 50 then r5idxMid m d L qi t else r5idxEnd m d L qi t)
    ∗ r5out m d L t
    ∗ ∃ W', ⌜∀ p ∈ W', p ∈ W ∨ p.2 = none⌝ ∗ owes (tailThr d L) O W')

end Cert.Proof.K

end
-- ==== Proof.KTailR5V.lean ====
/-
  The values one step of the second lookup leaves in its output block: the block holds the lookup's values for table 1.
  The argument is the first lookup's, over this lookup's buffers and table: an index of the block with rows y and lanes e
  sits under the same rows and lanes of the row slot, the slot there holds the gathered row named by the y-th word of
  the index slot, and that word is the index word of the block's own step.
-/
import proofs.«206595_g34437047779621_cont_8to1_b_428_16_alg».proof.Proof.KTailR5D
import proofs.«206595_g34437047779621_cont_8to1_b_428_16_alg».proof.Proof.KTailR3V

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

theorem r5out_value (o10 : Fin 5 → ℕ) (b10 : ∀ a, o10 a + S1x1x1x128x128.size a ≤ S2x1x1x128x128.size a)
    (o11 : Fin 4 → ℕ) (b11 : ∀ a, o11 a + S1x1x1x128.size a ≤ S2x1x1x128.size a)
    (o8 : Fin 3 → ℕ) (b8 : ∀ a, o8 a + S1x1x128.size a ≤ S3x50x4096.size a)
    (o13 : Fin 4 → ℕ) (b13 : ∀ a, o13 a + S1x1x128x128.size a ≤ S50x3x4096x128.size a)
    (h0 : o8 0 = 1) (h130 : o13 0 = o8 1) (h131 : o13 1 = 1) (h132 : o13 2 = o8 2) (h133 : o13 3 = 0)
    (fcur : Buf (Elt F) ((Memref.whole cc0_scoped8).view.loc (tailThr d L))) (hgood : r5good m d L o11 b11 o8 b8 fcur)
    (hx : Cert.Lookup.InRange (m (xLoc d) : IVec Cert.Lookup.SX 32))
    (fb : Buf (Elt F) ((Memref.whole cc0_scoped10).view.loc (tailThr d L))) (fo : Buf (Elt F) (oLoc d))
    (hn : S128.numel = S128x128.size gathers_S1001x128_S128x128.axis')
    (hin : ∀ x, (View.read (Elt F) (r5list o11 b11).view fcur x).toNat < S1001x128.size gathers_S1001x128_S128x128.axis) :
    ∀ i ∈ (tailOBlk o13 b13).view.set,
      (tailOBlk o13 b13).view.writes (Elt F) fo
        [⟨Rect.whole S1x1x128x128,
          ReadAs.same.apply (View.read (Elt F) ((r5oSlot o10 b10).squeeze S1x1x128x128 squeezes_S1x1x1x128x128_S1x1x128x128).view
            (View.write (Elt F)
              ((((r5oSlot o10 b10).squeeze S1x1x128x128 squeezes_S1x1x1x128x128_S1x1x128x128).slice
                  (Rect.unit (s := S1x1x128x128) ![0, 0, 0, 0] S1x1x128x128.size inb_S1x1x128x128_S1x1x128x128_0_0_0_0) (fun _ => rfl)).squeeze S128x128 squeezes_S1x1x128x128_S128x128).view
              fb
              (SparseCore.gatherPayload gathers_S1001x128_S128x128
                (View.read (Elt F) ((Memref.whole cc0_scratch1).slice (Rect.unit (s := S1001x128) ![0, 0] S1001x128.size inb_S1001x128_S1001x128_0_0) (fun _ => rfl)).view
                  (m (w1Loc d) : Buf (Elt F) (sh1Loc d (cV L))))
                (SparseCore.rows (View.read (Elt F) (r5list o11 b11).view fcur) hn hin))
              Finset.univ))⟩] i
        = outK m d i := by
  intro i hi
  obtain ⟨y, -, rfl⟩ := Finset.mem_map.mp hi
  refine (congrFun (View.write_univ_eq_writes_whole (Val := Elt F) (tailOBlk o13 b13).view fo [] _).symm _).trans ?_
  rw [View.writes_nil, View.write_emb_of_mem _ _ (Finset.mem_univ _)]
  obtain ⟨y2, rfl⟩ : ∃ y2 : S128x128.Idx, y = Shape.reshapeEquiv squeezes_S1x1x128x128_S128x128.numel_eq y2 :=
    ⟨_, (Equiv.apply_symm_apply _ _).symm⟩
  obtain ⟨q0, q1, q2, q3⟩ := resh_2to4 squeezes_S1x1x128x128_S128x128.numel_eq y2
  -- the slot's element under the block's index is the gather's destination element under the same rows and lanes
  have e : ((r5oSlot o10 b10).squeeze S1x1x128x128 squeezes_S1x1x1x128x128_S1x1x128x128).view.emb
        (Shape.reshapeEquiv squeezes_S1x1x128x128_S128x128.numel_eq y2)
      = ((((r5oSlot o10 b10).squeeze S1x1x128x128 squeezes_S1x1x1x128x128_S1x1x128x128).slice
            (Rect.unit (s := S1x1x128x128) ![0, 0, 0, 0] S1x1x128x128.size inb_S1x1x128x128_S1x1x128x128_0_0_0_0) (fun _ => rfl)).squeeze
          S128x128 squeezes_S1x1x128x128_S128x128).view.emb y2 := by
    show _ = ((r5oSlot o10 b10).squeeze S1x1x128x128 squeezes_S1x1x1x128x128_S1x1x128x128).view.emb
      ((Rect.unit (s := S1x1x128x128) ![0, 0, 0, 0] S1x1x128x128.size inb_S1x1x128x128_S1x1x128x128_0_0_0_0).emb
        (Shape.reshapeEquiv squeezes_S1x1x128x128_S128x128.numel_eq y2))
    rw [unit0_emb4]
  rw [ReadAs.apply_same, View.read_apply, e, View.write_emb_of_mem _ _ (Finset.mem_univ _)]
  simp only [cast_cast, cast_eq]
  refine val_gather m d 1 (o8 1) (o8 2) hx _ (fun j => ?_) _ (fun x j hj0 hj1 hj2 => ?_) hn hin (by decide) y2 _ ?_ ?_ ?_ ?_
  · -- the table as the gather reads it is the second table
    refine (View.read_apply _ _).trans ((cast_eq _ _).trans ?_)
    show (m (w1Loc d)) ((Rect.unit (s := S1001x128) ![0, 0] S1001x128.size inb_S1001x128_S1001x128_0_0).emb j) = (m (w1Loc d)) j
    rw [unit0_emb2]
  · -- the list's word x is the index word at (1, o8 1, o8 2 + x)
    obtain ⟨r0, r1, r2⟩ := resh_1to3 tail_numel128 x
    rw [hgood x, View.read_apply, cast_eq]
    refine congrArg _ (funext fun a => Fin.ext ?_)
    match a with
    | ⟨0, _⟩ =>
      show o8 0 + 1 * ((Shape.reshapeEquiv tail_numel128 x) 0).val = (j 0).val
      omega
    | ⟨1, _⟩ =>
      show o8 1 + 1 * ((Shape.reshapeEquiv tail_numel128 x) 1).val = (j 1).val
      omega
    | ⟨2, _⟩ =>
      show o8 2 + 1 * ((Shape.reshapeEquiv tail_numel128 x) 2).val = (j 2).val
      omega
  · show o13 0 + 1 * ((Shape.reshapeEquiv squeezes_S1x1x128x128_S128x128.numel_eq y2) 0).val = o8 1
    omega
  · show o13 1 + 1 * ((Shape.reshapeEquiv squeezes_S1x1x128x128_S128x128.numel_eq y2) 1).val = 1
    omega
  · show o13 2 + 1 * ((Shape.reshapeEquiv squeezes_S1x1x128x128_S128x128.numel_eq y2) 2).val = o8 2 + (y2 0).val
    omega
  · show o13 3 + 1 * ((Shape.reshapeEquiv squeezes_S1x1x128x128_S128x128.numel_eq y2) 3).val = (y2 1).val
    omega

end Cert.Proof.K
end
-- ==== Proof.KTailR5C.lean ====
/-
  One trip of the second lookup's loop, run from the pieces the trip touches: the middle trips, the first (no copy-out
  to wait for) and the last (no fetch to start).
-/
import proofs.«206595_g34437047779621_cont_8to1_b_428_16_alg».proof.Proof.KTailR5D
import proofs.«206595_g34437047779621_cont_8to1_b_428_16_alg».proof.Proof.KTailR5V

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

variable (O : CellTallies nD τ sig (HIx 1)) (W : Waits sig (HIx 1))

set_option maxHeartbeats 4000000 in
theorem r5coreM (t : Fin k0_t2_loop.trips) (h1t : 1 ≤ t.val) (ht : t.val < 49)
    (o4 : Fin 4 → ℕ) (e4 : k0_off25 (tailW (t.val + 1)) = o4) (b4 : ∀ a, o4 a + S1x1x1x128.size a ≤ S2x1x1x128.size a)
    (o5 : Fin 3 → ℕ) (e5 : k0_off26 L (tailW t.val) = o5) (b5 : ∀ a, o5 a + S1x1x128.size a ≤ S3x50x4096.size a)
    (o6 : Fin 1 → ℕ) (e6 : k0_off27 (tailW (t.val + 1)) = o6) (b6 : ∀ a, o6 a + S1.size a ≤ S2.size a)
    (o7 : Fin 4 → ℕ) (e7 : k0_off28 (tailW t.val) = o7) (b7 : ∀ a, o7 a + S1x1x1x128.size a ≤ S2x1x1x128.size a)
    (o8 : Fin 3 → ℕ) (e8 : k0_off29 L (tailW t.val) = o8) (b8 : ∀ a, o8 a + S1x1x128.size a ≤ S3x50x4096.size a)
    (o9 : Fin 1 → ℕ) (e9 : k0_off30 (tailW t.val) = o9) (b9 : ∀ a, o9 a + S1.size a ≤ S2.size a)
    (o10 : Fin 5 → ℕ) (e10 : k0_off31 (tailW t.val) = o10) (b10 : ∀ a, o10 a + S1x1x1x128x128.size a ≤ S2x1x1x128x128.size a)
    (o13 : Fin 4 → ℕ) (e13 : k0_off34 L (tailW t.val) = o13) (b13 : ∀ a, o13 a + S1x1x128x128.size a ≤ S50x3x4096x128.size a)
    (o14 : Fin 1 → ℕ) (e14 : k0_off35 (tailW t.val) = o14) (b14 : ∀ a, o14 a + S1.size a ≤ S2.size a)
    (o15 : Fin 5 → ℕ) (e15 : k0_off36 (tailW (t.val - 1)) = o15) (b15 : ∀ a, o15 a + S1x1x1x128x128.size a ≤ S2x1x1x128x128.size a)
    (o16 : Fin 4 → ℕ) (e16 : k0_off37 L (tailW t.val) = o16) (b16 : ∀ a, o16 a + S1x1x128x128.size a ≤ S50x3x4096x128.size a)
    (o17 : Fin 1 → ℕ) (e17 : k0_off38 (tailW (t.val - 1)) = o17) (b17 : ∀ a, o17 a + S1.size a ≤ S2.size a)
    (qn qc qs : PosShare TreeShare)
    (fcur : Buf (Elt F) ((Memref.whole cc0_scoped8).view.loc (tailThr d L)))
    (hgood : r5good m d L o7 b7 o8 b8 fcur)
    (hx : Cert.Lookup.InRange (m (xLoc d) : IVec Cert.Lookup.SX 32)) :
    (iprop(Transfers.MayWaits (tailThr d L) (default : HIx 1) O
        ∗ ((tailIBlk o5 b5).view.loc (tailThr d L) ↦[(tailIBlk o5 b5).view.set]{qn} idxT m d)
        ∗ (∃ fa, r5ISlotPt d L o4 b4 fa)
        ∗ semVal (tailThr d L, SemLoc.dma (tailSem cc0_scoped9 o6 b6)) 0
        ∗ r5FI m d L o9 b9 o7 b7 o8 b8 qc fcur
        ∗ r5Tab m d L qs
        ∗ (∃ fb, r5OSlotPt d L o10 b10 fb)
        ∗ semVal (tailThr d L, SemLoc.dma cc0_scoped12.sem) 0
        ∗ ((tailOBlk o13 b13).view.loc (tailThr d L) ↦[(tailOBlk o13 b13).view.set]{fullShare} m (oLoc d))
        ∗ semVal (tailThr d L, SemLoc.dma (tailSem cc0_scoped11 o14 b14)) 0
        ∗ (∃ fbp, r5FO d L o17 b17 o16 b16 (outK m d) o15 b15 fbp)
        ∗ owes (tailThr d L) O W) : sProp 𝕄)
      ⊢ wp frame (wpE (defs₀ (F := F)) 𝒱₀ (tailThr d L) none) Set.univ
          (k0_t2_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r5v7 L) (r5v20 L) (r5v51 L) r5v53 t (tailW (t.val + 1), tailW t.val, tailW t.val, tailW (t.val - 1), tailW t.val))
          fun acc => iprop(⌜acc = (tailW (t.val + 2), tailW (t.val + 1), tailW (t.val + 1), tailW t.val, tailW (t.val + 1))⌝
            ∗ (∃ fnew, ⌜r5good m d L o4 b4 o5 b5 fnew⌝ ∗ r5FI m d L o6 b6 o4 b4 o5 b5 qn fnew)
            ∗ ((tailIBlk o8 b8).view.loc (tailThr d L) ↦[(tailIBlk o8 b8).view.set]{qc} idxT m d)
            ∗ semVal (tailThr d L, SemLoc.dma (tailSem cc0_scoped9 o9 b9)) 0
            ∗ r5ISlotPt d L o7 b7 fcur
            ∗ r5Tab m d L qs
            ∗ semVal (tailThr d L, SemLoc.dma cc0_scoped12.sem) 0
            ∗ (∃ fg, r5FO d L o14 b14 o13 b13 (outK m d) o10 b10 fg)
            ∗ ((tailOBlk o16 b16).view.loc (tailThr d L) ↦[(tailOBlk o16 b16).view.set]{fullShare} outK m d)
            ∗ (∃ f, r5OSlotPt d L o15 b15 f)
            ∗ semVal (tailThr d L, SemLoc.dma (tailSem cc0_scoped11 o17 b17)) 0
            ∗ ∃ W', ⌜∀ p ∈ W', p ∈ W ∨ p.2 = none⌝ ∗ owes (tailThr d L) O W') := by
  subst e4 e5 e6 e7 e8 e9 e10 e13 e14 e15 e16 e17
  have hc2 : k0_cond9 L t (tailW t.val) = 1#1 := by rw [Arith.cond2_eq_r5, if_pos (by omega)]
  have hc3 : k0_cond10 L t (tailW t.val) = 1#1 := Arith.cond3_eq_r5 L t
  have hc6 : k0_cond13 L t (tailW t.val) = 1#1 := Arith.cond6_eq_r5 L t
  have hc8 : k0_cond15 L t (tailW t.val) = 1#1 := by rw [Arith.cond8_eq_r5, if_pos (by omega)]
  have h3 : k0_chk8 (tailW t.val) := Arith.chk3_all_r5 _
  have h2 : k0_chk7 (tailW t.val) := Arith.chk2_all_r5 _
  have h1 : k0_chk6 L t (tailW (t.val + 1)) (tailW t.val) (tailW t.val) (tailW (t.val - 1)) (tailW t.val) := Arith.chk1_inv_r5 L t
  have hin : ∀ x, (View.read (Elt F) (r5list (k0_off32 (tailW t.val)) (r5hb11 _)).view fcur x).toNat < 1001 := by
    intro x
    have e' : View.read (Elt F) (r5list (k0_off32 (tailW t.val)) (r5hb11 _)).view fcur x
        = ((tailIBlk (k0_off29 L (tailW t.val)) b8).view.reshape S128 tail_numel128).read (Elt F) (idxT m d) x := hgood x
    rw [e']
    have := tailI_le m d (k0_off29 L (tailW t.val)) b8 hx x
    omega
  iintro ⟨#Hmw, HIn, ⟨%fa, HSn⟩, Hsn, HFI, HT, ⟨%fb, HOS⟩, Hs7, HOB, Hso, ⟨%fbp, HFO⟩, Hw⟩
  sl_unfold [k0_t2_body]
  sl_exec
  have hret : ∀ (L : grid0.Coords) (t : Fin k0_t2_loop.trips), 1 ≤ t.val → t.val < 49 →
      (r5coreM.sl.v215_r5 L t, r5coreM.sl.v389_r5 L t, r5coreM.sl.v365_r5 L t, r5coreM.sl.v383_r5 L t, r5coreM.sl.v144_r5 t)
        = (tailW (t.val + 2), tailW (t.val + 1), tailW (t.val + 1), tailW t.val, tailW (t.val + 1)) := by
    decide +kernel
  sl_step
  isplitr
  · ipureintro; exact hret L t h1t ht
  isplitl [Hsn]
  · iexists (r5coreM.sl.HSn_w0 m d L t hc2 h1 fa)
    isplitr
    · ipureintro; exact r5good_write m d L _ _ _ _ fa
    · iexact Hsn
  isplitl [HFI_src]; · iexact HFI_src
  isplitl [HFI]; · iexact HFI
  isplitl [HFI_dst HFI_dst_win]
  · iapply (pointsTo_split_subset (r5list_subset (k0_off28 (tailW t.val)) b7)).2
    isplitl [HFI_dst_win]; · iexact HFI_dst_win
    iexact HFI_dst
  isplitl [HT]; · iexact HT
  isplitl [Hs7]; · iexact Hs7
  isplitl [Hso]
  · iexists _
    iapply (r5FO_fix d L _ _ _ _ ((tailOBlk (k0_off34 L (tailW t.val)) b13).view.writes (Elt F) (m (oLoc d)) [⟨Rect.whole S1x1x128x128, r5coreM.sl.dma0_1 m d L t fcur hc6 h3 h2 h1 hin fb⟩]) (outK m d) (k0_off31 (tailW t.val)) (k0_off33 (tailW t.val)) _ (r5hb12 _) _ (r5out_value m d L (k0_off31 (tailW t.val)) b10 (k0_off32 (tailW t.val)) (r5hb11 _) (k0_off29 L (tailW t.val)) b8 (k0_off34 L (tailW t.val)) b13 (by rw [Arith.off8_eq_r5 L t.val (by omega)]; rfl) (by rw [Arith.off8_eq_r5 L t.val (by omega), Arith.off13_eq_r5 L t.val (by omega)]; rfl) (by rw [Arith.off13_eq_r5 L t.val (by omega)]; rfl) (by rw [Arith.off8_eq_r5 L t.val (by omega), Arith.off13_eq_r5 L t.val (by omega)]; rfl) (by rw [Arith.off13_eq_r5 L t.val (by omega)]; rfl) fcur hgood hx fb (m (oLoc d)) _ hin) (show k0_off33 (tailW t.val) = k0_off31 (tailW t.val) from rfl)) $$ Hso
  isplitl [HFO_dst]; · iexact HFO_dst
  isplitl [HFO_src]; · iexists _; iexact HFO_src
  isplitl [HFO]; · iexact HFO
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

set_option maxHeartbeats 4000000 in
theorem r5core0 (t : Fin k0_t2_loop.trips) (ht0 : t.val = 0)
    (o4 : Fin 4 → ℕ) (e4 : k0_off25 (tailW (t.val + 1)) = o4) (b4 : ∀ a, o4 a + S1x1x1x128.size a ≤ S2x1x1x128.size a)
    (o5 : Fin 3 → ℕ) (e5 : k0_off26 L (tailW t.val) = o5) (b5 : ∀ a, o5 a + S1x1x128.size a ≤ S3x50x4096.size a)
    (o6 : Fin 1 → ℕ) (e6 : k0_off27 (tailW (t.val + 1)) = o6) (b6 : ∀ a, o6 a + S1.size a ≤ S2.size a)
    (o7 : Fin 4 → ℕ) (e7 : k0_off28 (tailW t.val) = o7) (b7 : ∀ a, o7 a + S1x1x1x128.size a ≤ S2x1x1x128.size a)
    (o8 : Fin 3 → ℕ) (e8 : k0_off29 L (tailW t.val) = o8) (b8 : ∀ a, o8 a + S1x1x128.size a ≤ S3x50x4096.size a)
    (o9 : Fin 1 → ℕ) (e9 : k0_off30 (tailW t.val) = o9) (b9 : ∀ a, o9 a + S1.size a ≤ S2.size a)
    (o10 : Fin 5 → ℕ) (e10 : k0_off31 (tailW t.val) = o10) (b10 : ∀ a, o10 a + S1x1x1x128x128.size a ≤ S2x1x1x128x128.size a)
    (o13 : Fin 4 → ℕ) (e13 : k0_off34 L (tailW t.val) = o13) (b13 : ∀ a, o13 a + S1x1x128x128.size a ≤ S50x3x4096x128.size a)
    (o14 : Fin 1 → ℕ) (e14 : k0_off35 (tailW t.val) = o14) (b14 : ∀ a, o14 a + S1.size a ≤ S2.size a)
    (qn qc qs : PosShare TreeShare)
    (fcur : Buf (Elt F) ((Memref.whole cc0_scoped8).view.loc (tailThr d L)))
    (hgood : r5good m d L o7 b7 o8 b8 fcur)
    (hx : Cert.Lookup.InRange (m (xLoc d) : IVec Cert.Lookup.SX 32)) :
    (iprop(Transfers.MayWaits (tailThr d L) (default : HIx 1) O
        ∗ ((tailIBlk o5 b5).view.loc (tailThr d L) ↦[(tailIBlk o5 b5).view.set]{qn} idxT m d)
        ∗ (∃ fa, r5ISlotPt d L o4 b4 fa)
        ∗ semVal (tailThr d L, SemLoc.dma (tailSem cc0_scoped9 o6 b6)) 0
        ∗ r5FI m d L o9 b9 o7 b7 o8 b8 qc fcur
        ∗ r5Tab m d L qs
        ∗ (∃ fb, r5OSlotPt d L o10 b10 fb)
        ∗ semVal (tailThr d L, SemLoc.dma cc0_scoped12.sem) 0
        ∗ ((tailOBlk o13 b13).view.loc (tailThr d L) ↦[(tailOBlk o13 b13).view.set]{fullShare} m (oLoc d))
        ∗ semVal (tailThr d L, SemLoc.dma (tailSem cc0_scoped11 o14 b14)) 0
        ∗ owes (tailThr d L) O W) : sProp 𝕄)
      ⊢ wp frame (wpE (defs₀ (F := F)) 𝒱₀ (tailThr d L) none) Set.univ
          (k0_t2_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r5v7 L) (r5v20 L) (r5v51 L) r5v53 t (tailW (t.val + 1), tailW t.val, tailW t.val, tailW (t.val - 1), tailW t.val))
          fun acc => iprop(⌜acc = (tailW (t.val + 2), tailW (t.val + 1), tailW (t.val + 1), tailW t.val, tailW (t.val + 1))⌝
            ∗ (∃ fnew, ⌜r5good m d L o4 b4 o5 b5 fnew⌝ ∗ r5FI m d L o6 b6 o4 b4 o5 b5 qn fnew)
            ∗ ((tailIBlk o8 b8).view.loc (tailThr d L) ↦[(tailIBlk o8 b8).view.set]{qc} idxT m d)
            ∗ semVal (tailThr d L, SemLoc.dma (tailSem cc0_scoped9 o9 b9)) 0
            ∗ r5ISlotPt d L o7 b7 fcur
            ∗ r5Tab m d L qs
            ∗ semVal (tailThr d L, SemLoc.dma cc0_scoped12.sem) 0
            ∗ (∃ fg, r5FO d L o14 b14 o13 b13 (outK m d) o10 b10 fg)
            ∗ ∃ W', ⌜∀ p ∈ W', p ∈ W ∨ p.2 = none⌝ ∗ owes (tailThr d L) O W') := by
  subst e4 e5 e6 e7 e8 e9 e10 e13 e14
  have hc2 : k0_cond9 L t (tailW t.val) = 1#1 := by rw [Arith.cond2_eq_r5, if_pos (by omega)]
  have hc3 : k0_cond10 L t (tailW t.val) = 1#1 := Arith.cond3_eq_r5 L t
  have hc6 : k0_cond13 L t (tailW t.val) = 1#1 := Arith.cond6_eq_r5 L t
  have hc8 : ¬ k0_cond15 L t (tailW t.val) = 1#1 := by rw [Arith.cond8_eq_r5, if_neg (by omega)]; decide
  have h3 : k0_chk8 (tailW t.val) := Arith.chk3_all_r5 _
  have h2 : k0_chk7 (tailW t.val) := Arith.chk2_all_r5 _
  have h1 : k0_chk6 L t (tailW (t.val + 1)) (tailW t.val) (tailW t.val) (tailW (t.val - 1)) (tailW t.val) := Arith.chk1_inv_r5 L t
  have hin : ∀ x, (View.read (Elt F) (r5list (k0_off32 (tailW t.val)) (r5hb11 _)).view fcur x).toNat < 1001 := by
    intro x
    have e' : View.read (Elt F) (r5list (k0_off32 (tailW t.val)) (r5hb11 _)).view fcur x
        = ((tailIBlk (k0_off29 L (tailW t.val)) b8).view.reshape S128 tail_numel128).read (Elt F) (idxT m d) x := hgood x
    rw [e']
    have := tailI_le m d (k0_off29 L (tailW t.val)) b8 hx x
    omega
  iintro ⟨#Hmw, HIn, ⟨%fa, HSn⟩, Hsn, HFI, HT, ⟨%fb, HOS⟩, Hs7, HOB, Hso, Hw⟩
  sl_unfold [k0_t2_body]
  sl_exec
  have hret : ∀ (L : grid0.Coords) (t : Fin k0_t2_loop.trips), t.val = 0 →
      (r5core0.sl.v215_r5 L t, r5core0.sl.v389_r5 L t, r5core0.sl.v365_r5 L t, r5core0.sl.v383_r5 L t, r5core0.sl.v144_r5 t)
        = (tailW (t.val + 2), tailW (t.val + 1), tailW (t.val + 1), tailW t.val, tailW (t.val + 1)) := by
    decide +kernel
  sl_step
  isplitr
  · ipureintro; exact hret L t ht0
  isplitl [Hsn]
  · iexists (r5core0.sl.HSn_w0 m d L t hc2 h1 fa)
    isplitr
    · ipureintro; exact r5good_write m d L _ _ _ _ fa
    · iexact Hsn
  isplitl [HFI_src]; · iexact HFI_src
  isplitl [HFI]; · iexact HFI
  isplitl [HFI_dst HFI_dst_win]
  · iapply (pointsTo_split_subset (r5list_subset (k0_off28 (tailW t.val)) b7)).2
    isplitl [HFI_dst_win]; · iexact HFI_dst_win
    iexact HFI_dst
  isplitl [HT]; · iexact HT
  isplitl [Hs7]; · iexact Hs7
  isplitl [Hso]
  · iexists _
    iapply (r5FO_fix d L _ _ _ _ ((tailOBlk (k0_off34 L (tailW t.val)) b13).view.writes (Elt F) (m (oLoc d)) [⟨Rect.whole S1x1x128x128, r5core0.sl.dma0_1 m d L t fcur hc6 h3 h2 h1 hin fb⟩]) (outK m d) (k0_off31 (tailW t.val)) (k0_off33 (tailW t.val)) _ (r5hb12 _) _ (r5out_value m d L (k0_off31 (tailW t.val)) b10 (k0_off32 (tailW t.val)) (r5hb11 _) (k0_off29 L (tailW t.val)) b8 (k0_off34 L (tailW t.val)) b13 (by rw [Arith.off8_eq_r5 L t.val (by omega)]; rfl) (by rw [Arith.off8_eq_r5 L t.val (by omega), Arith.off13_eq_r5 L t.val (by omega)]; rfl) (by rw [Arith.off13_eq_r5 L t.val (by omega)]; rfl) (by rw [Arith.off8_eq_r5 L t.val (by omega), Arith.off13_eq_r5 L t.val (by omega)]; rfl) (by rw [Arith.off13_eq_r5 L t.val (by omega)]; rfl) fcur hgood hx fb (m (oLoc d)) _ hin) (show k0_off33 (tailW t.val) = k0_off31 (tailW t.val) from rfl)) $$ Hso
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    · exact .inl hp

set_option maxHeartbeats 4000000 in
theorem r5coreE (t : Fin k0_t2_loop.trips) (ht49 : t.val = 49)
    (o7 : Fin 4 → ℕ) (e7 : k0_off28 (tailW t.val) = o7) (b7 : ∀ a, o7 a + S1x1x1x128.size a ≤ S2x1x1x128.size a)
    (o8 : Fin 3 → ℕ) (e8 : k0_off29 L (tailW t.val) = o8) (b8 : ∀ a, o8 a + S1x1x128.size a ≤ S3x50x4096.size a)
    (o9 : Fin 1 → ℕ) (e9 : k0_off30 (tailW t.val) = o9) (b9 : ∀ a, o9 a + S1.size a ≤ S2.size a)
    (o10 : Fin 5 → ℕ) (e10 : k0_off31 (tailW t.val) = o10) (b10 : ∀ a, o10 a + S1x1x1x128x128.size a ≤ S2x1x1x128x128.size a)
    (o13 : Fin 4 → ℕ) (e13 : k0_off34 L (tailW t.val) = o13) (b13 : ∀ a, o13 a + S1x1x128x128.size a ≤ S50x3x4096x128.size a)
    (o14 : Fin 1 → ℕ) (e14 : k0_off35 (tailW t.val) = o14) (b14 : ∀ a, o14 a + S1.size a ≤ S2.size a)
    (o15 : Fin 5 → ℕ) (e15 : k0_off36 (tailW (t.val - 1)) = o15) (b15 : ∀ a, o15 a + S1x1x1x128x128.size a ≤ S2x1x1x128x128.size a)
    (o16 : Fin 4 → ℕ) (e16 : k0_off37 L (tailW t.val) = o16) (b16 : ∀ a, o16 a + S1x1x128x128.size a ≤ S50x3x4096x128.size a)
    (o17 : Fin 1 → ℕ) (e17 : k0_off38 (tailW (t.val - 1)) = o17) (b17 : ∀ a, o17 a + S1.size a ≤ S2.size a)
    (qn qc qs : PosShare TreeShare)
    (fcur : Buf (Elt F) ((Memref.whole cc0_scoped8).view.loc (tailThr d L)))
    (hgood : r5good m d L o7 b7 o8 b8 fcur)
    (hx : Cert.Lookup.InRange (m (xLoc d) : IVec Cert.Lookup.SX 32)) :
    (iprop(Transfers.MayWaits (tailThr d L) (default : HIx 1) O
        ∗ r5FI m d L o9 b9 o7 b7 o8 b8 qc fcur
        ∗ r5Tab m d L qs
        ∗ (∃ fb, r5OSlotPt d L o10 b10 fb)
        ∗ semVal (tailThr d L, SemLoc.dma cc0_scoped12.sem) 0
        ∗ ((tailOBlk o13 b13).view.loc (tailThr d L) ↦[(tailOBlk o13 b13).view.set]{fullShare} m (oLoc d))
        ∗ semVal (tailThr d L, SemLoc.dma (tailSem cc0_scoped11 o14 b14)) 0
        ∗ (∃ fbp, r5FO d L o17 b17 o16 b16 (outK m d) o15 b15 fbp)
        ∗ owes (tailThr d L) O W) : sProp 𝕄)
      ⊢ wp frame (wpE (defs₀ (F := F)) 𝒱₀ (tailThr d L) none) Set.univ
          (k0_t2_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r5v7 L) (r5v20 L) (r5v51 L) r5v53 t (tailW (t.val + 1), tailW t.val, tailW t.val, tailW (t.val - 1), tailW t.val))
          fun acc => iprop(⌜acc = (tailW (t.val + 1), tailW (t.val + 1), tailW (t.val + 1), tailW t.val, tailW 0)⌝
            ∗ ((tailIBlk o8 b8).view.loc (tailThr d L) ↦[(tailIBlk o8 b8).view.set]{qc} idxT m d)
            ∗ semVal (tailThr d L, SemLoc.dma (tailSem cc0_scoped9 o9 b9)) 0
            ∗ r5ISlotPt d L o7 b7 fcur
            ∗ r5Tab m d L qs
            ∗ semVal (tailThr d L, SemLoc.dma cc0_scoped12.sem) 0
            ∗ (∃ fg, r5FO d L o14 b14 o13 b13 (outK m d) o10 b10 fg)
            ∗ ((tailOBlk o16 b16).view.loc (tailThr d L) ↦[(tailOBlk o16 b16).view.set]{fullShare} outK m d)
            ∗ (∃ f, r5OSlotPt d L o15 b15 f)
            ∗ semVal (tailThr d L, SemLoc.dma (tailSem cc0_scoped11 o17 b17)) 0
            ∗ ∃ W', ⌜∀ p ∈ W', p ∈ W ∨ p.2 = none⌝ ∗ owes (tailThr d L) O W') := by
  subst e7 e8 e9 e10 e13 e14 e15 e16 e17
  have hc2 : ¬ k0_cond9 L t (tailW t.val) = 1#1 := by rw [Arith.cond2_eq_r5, if_neg (by omega)]; decide
  have hc3 : k0_cond10 L t (tailW t.val) = 1#1 := Arith.cond3_eq_r5 L t
  have hc6 : k0_cond13 L t (tailW t.val) = 1#1 := Arith.cond6_eq_r5 L t
  have hc8 : k0_cond15 L t (tailW t.val) = 1#1 := by rw [Arith.cond8_eq_r5, if_pos (by omega)]
  have h3 : k0_chk8 (tailW t.val) := Arith.chk3_all_r5 _
  have h2 : k0_chk7 (tailW t.val) := Arith.chk2_all_r5 _
  have h1 : k0_chk6 L t (tailW (t.val + 1)) (tailW t.val) (tailW t.val) (tailW (t.val - 1)) (tailW t.val) := Arith.chk1_inv_r5 L t
  have hin : ∀ x, (View.read (Elt F) (r5list (k0_off32 (tailW t.val)) (r5hb11 _)).view fcur x).toNat < 1001 := by
    intro x
    have e' : View.read (Elt F) (r5list (k0_off32 (tailW t.val)) (r5hb11 _)).view fcur x
        = ((tailIBlk (k0_off29 L (tailW t.val)) b8).view.reshape S128 tail_numel128).read (Elt F) (idxT m d) x := hgood x
    rw [e']
    have := tailI_le m d (k0_off29 L (tailW t.val)) b8 hx x
    omega
  iintro ⟨#Hmw, HFI, HT, ⟨%fb, HOS⟩, Hs7, HOB, Hso, ⟨%fbp, HFO⟩, Hw⟩
  sl_unfold [k0_t2_body]
  sl_exec
  have hret : ∀ (L : grid0.Coords) (t : Fin k0_t2_loop.trips), t.val = 49 →
      (r5coreE.sl.v215_r5 L t, r5coreE.sl.v389_r5 L t, r5coreE.sl.v365_r5 L t, r5coreE.sl.v383_r5 L t, r5coreE.sl.v144_r5 t)
        = (tailW (t.val + 1), tailW (t.val + 1), tailW (t.val + 1), tailW t.val, tailW 0) := by
    decide +kernel
  sl_step
  isplitr
  · ipureintro; exact hret L t ht49
  isplitl [HFI_src]; · iexact HFI_src
  isplitl [HFI]; · iexact HFI
  isplitl [HFI_dst HFI_dst_win]
  · iapply (pointsTo_split_subset (r5list_subset (k0_off28 (tailW t.val)) b7)).2
    isplitl [HFI_dst_win]; · iexact HFI_dst_win
    iexact HFI_dst
  isplitl [HT]; · iexact HT
  isplitl [Hs7]; · iexact Hs7
  isplitl [Hso]
  · iexists _
    iapply (r5FO_fix d L _ _ _ _ ((tailOBlk (k0_off34 L (tailW t.val)) b13).view.writes (Elt F) (m (oLoc d)) [⟨Rect.whole S1x1x128x128, r5coreE.sl.dma0 m d L t fcur hc6 h3 h2 h1 hin fb⟩]) (outK m d) (k0_off31 (tailW t.val)) (k0_off33 (tailW t.val)) _ (r5hb12 _) _ (r5out_value m d L (k0_off31 (tailW t.val)) b10 (k0_off32 (tailW t.val)) (r5hb11 _) (k0_off29 L (tailW t.val)) b8 (k0_off34 L (tailW t.val)) b13 (by rw [Arith.off8_eq_r5 L t.val (by omega)]; rfl) (by rw [Arith.off8_eq_r5 L t.val (by omega), Arith.off13_eq_r5 L t.val (by omega)]; rfl) (by rw [Arith.off13_eq_r5 L t.val (by omega)]; rfl) (by rw [Arith.off8_eq_r5 L t.val (by omega), Arith.off13_eq_r5 L t.val (by omega)]; rfl) (by rw [Arith.off13_eq_r5 L t.val (by omega)]; rfl) fcur hgood hx fb (m (oLoc d)) _ hin) (show k0_off33 (tailW t.val) = k0_off31 (tailW t.val) from rfl)) $$ Hso
  isplitl [HFO_dst]; · iexact HFO_dst
  isplitl [HFO_src]; · iexists _; iexact HFO_src
  isplitl [HFO]; · iexact HFO
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Cert.Proof.K

end
-- ==== Proof.KTailR5T.lean ====
/-
  The loop of the second lookup: each trip takes the invariant at t to the invariant at t + 1.  The trip's pieces are
  taken out of the invariant's families (the read token of trip t + 1, the output block of trip t), the trip is run, and
  what it leaves is put back (trip t's token whole again, block t - 1 among the blocks done).
-/
import proofs.«206595_g34437047779621_cont_8to1_b_428_16_alg».proof.Proof.KTailR5C

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

variable (O : CellTallies nD τ sig (HIx 1)) (W : Waits sig (HIx 1)) (qi qs : PosShare TreeShare)

omit [FloatOps F] in
/-- One piece out of a family of fifty. -/
theorem r5_take (a : Fin 50) (Φ : Fin 50 → sProp 𝕄) :
    bigSep Finset.univ Φ = iprop(Φ a ∗ bigSep (Finset.univ.filter fun u : Fin 50 => u.val ≠ a.val) Φ) := by
  have h := tail_bigSep_step (fun u : Fin 50 => u.val ≠ a.val) (fun _ : Fin 50 => True) a (fun h => h rfl)
    (fun u => ⟨fun _ => by by_cases h : u = a; exact .inr h; exact .inl (fun e => h (Fin.ext e)), fun _ => trivial⟩) Φ
  rwa [Finset.filter_true_of_mem (fun _ _ => trivial)] at h

set_option maxHeartbeats 1000000 in
theorem r5tripM (t : Fin k0_t2_loop.trips) (h1t : 1 ≤ t.val) (ht : t.val < 49)
    (hx : Cert.Lookup.InRange (m (xLoc d) : IVec Cert.Lookup.SX 32))
    (acc : BitVec 32 × BitVec 32 × BitVec 32 × BitVec 32 × BitVec 32) :
    r5inv m d L O W qi qs t.val acc
      ⊢ wp frame (wpE (defs₀ (F := F)) 𝒱₀ (tailThr d L) none) Set.univ
          (k0_t2_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r5v7 L) (r5v20 L) (r5v51 L) r5v53 t acc)
          (r5inv m d L O W qi qs (t.val + 1)) := by
  have ht50 : t.val < 50 := by omega
  have e5 : k0_off26 L (tailW t.val) = r5bi L (tailFin (t.val + 1)) := by
    show _ = Arith.blkIn 1 L (tailFin (t.val + 1)).val
    rw [tailFin_val (by omega)]; exact Arith.off5_eq_r5 L t.val (by omega)
  have e8 : k0_off29 L (tailW t.val) = r5bi L (tailFin t.val) := by
    show _ = Arith.blkIn 1 L (tailFin t.val).val
    rw [tailFin_val (by omega)]; exact Arith.off8_eq_r5 L t.val (by omega)
  have e13 : k0_off34 L (tailW t.val) = r5bo L (tailFin t.val) := by
    show _ = outOff 1 (stp (L 0).val (L 1).val (tailFin t.val).val)
    rw [tailFin_val (by omega)]; exact Arith.off13_eq_r5 L t.val (by omega)
  have e16 : k0_off37 L (tailW t.val) = r5bo L (tailFin (t.val - 1)) := by
    show _ = outOff 1 (stp (L 0).val (L 1).val (tailFin (t.val - 1)).val)
    rw [tailFin_val (by omega)]; exact Arith.off16_eq_r5 L t.val (by omega) (by omega)
  unfold r5inv r5out
  simp only [Nat.add_sub_cancel]
  rw [if_pos (show t.val < 50 by omega), if_pos (show t.val + 1 < 50 by omega), if_neg (show ¬ t.val = 0 by omega),
    if_neg (show ¬ t.val + 1 = 0 by omega)]
  unfold r5idxMid
  iintro ⟨%hacc, #Hmw, HT, Hs7, ⟨⟨%fcur, %hgood, HFI⟩, Hrest, ⟨%fa, HSn⟩, Hsn, Htoks⟩, ⟨⟨%fbp, HFO⟩, ⟨%fb, HOS⟩, Hso, Hdone, Htodo⟩, ⟨%W', %hW', Hw⟩⟩
  subst hacc
  -- the read token of trip t + 1, its block apart from its rest
  ihave Htoks' := (Entails.of_eq (tail_bigSep_step (fun u : Fin 50 => u.val ≠ t.val ∧ u.val ≠ t.val + 1) (fun u : Fin 50 => u.val ≠ t.val) (tailFin (t.val + 1))
    (by rw [tailFin_val (by omega)]; omega) (fun u => by rw [Fin.ext_iff, tailFin_val (by omega)]; omega) (tailTokPt m d qi))) $$ Htoks
  icases Htoks' with ⟨Htok1, Htoks⟩
  ihave Hsp := (pointsTo_split_subset (Finset.subset_univ (tailIBlk (r5bi L (tailFin (t.val + 1))) (r5bi_inb L _)).view.set)).1 $$ Htok1
  icases Hsp with ⟨HIn, Hrest1⟩
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 1 u (m (oLoc d))))) $$ Htodo
  icases Htodo' with ⟨HOB, Htodo⟩
  iapply (wp_wand_r Idealize.ShloMosaic.frame (wpE (defs₀ (F := F)) 𝒱₀ (tailThr d L) none) Set.univ)
  isplitl [HIn HSn Hsn HFI HT HOS Hs7 HOB Hso HFO Hw]
  · have hcar : r5car t.val = (tailW (t.val + 1), tailW t.val, tailW t.val, tailW (t.val - 1), tailW t.val) := by
      unfold r5car; rw [Nat.min_eq_left (by omega), Nat.mod_eq_of_lt (by omega)]
    rw [hcar]
    iapply (r5coreM m d L O W' t h1t ht
      (k0_off28 (tailW (t.val + 1))) rfl (r5hb7 _) (r5bi L (tailFin (t.val + 1))) e5 (r5bi_inb L _) (k0_off30 (tailW (t.val + 1))) rfl (r5hb9 _)
      (k0_off28 (tailW t.val)) rfl (r5hb7 _) (r5bi L (tailFin t.val)) e8 (r5bi_inb L _) (k0_off30 (tailW t.val)) rfl (r5hb9 _)
      (k0_off36 (tailW t.val)) rfl (r5hb15 _) (r5bo L (tailFin t.val)) e13 (r5bo_inb L _) (k0_off38 (tailW t.val)) rfl (r5hb17 _)
      (k0_off36 (tailW (t.val - 1))) rfl (r5hb15 _) (r5bo L (tailFin (t.val - 1))) e16 (r5bo_inb L _) (k0_off38 (tailW (t.val - 1))) rfl (r5hb17 _)
      (shareTok qi 50 (tailFin (t.val + 1))) (shareTok qi 50 (tailFin t.val)) qs fcur hgood hx)
    isplitr; · iexact Hmw
    isplitl [HIn]; · iexact HIn
    isplitl [HSn]; · iexists fa; iexact HSn
    isplitl [Hsn]; · iexact Hsn
    isplitl [HFI]; · iexact HFI
    isplitl [HT]; · iexact HT
    isplitl [HOS]; · iexists fb; iexact HOS
    isplitl [Hs7]; · iexact Hs7
    isplitl [HOB]; · iexact HOB
    isplitl [Hso]; · iexact Hso
    isplitl [HFO]; · iexists fbp; iexact HFO
    iexact Hw
  iintro %acc' ⟨%hacc', ⟨%fnew, %hgood', HFI'⟩, HI8, Hs9, HS7, HT, Hs7, ⟨%fg, HFO'⟩, HO16, ⟨%fo15, HS15⟩, Hs17, ⟨%W'', %hW'', Hw⟩⟩
  have hp4 : k0_off28 (tailW t.val) = k0_off25 (tailW (t.val + 1 + 1)) := r5par4 (by omega) (by omega) (by omega)
  have hp1 : k0_off30 (tailW t.val) = k0_off27 (tailW (t.val + 1 + 1)) := r5par1I (by omega) (by omega) (by omega)
  have hp5 : k0_off36 (tailW (t.val - 1)) = k0_off31 (tailW (t.val + 1)) := r5par5 (by omega) (by omega) (by omega)
  have hp1O : k0_off38 (tailW (t.val - 1)) = k0_off35 (tailW (t.val + 1)) := r5par1O (by omega) (by omega) (by omega)
  have e1 : min (t.val + 1 + 1) 50 = t.val + 2 := by omega
  have e2 : (t.val + 1) % 50 = t.val + 1 := by omega
  isplitr
  · ipureintro; rw [hacc']; unfold r5car; rw [e1, e2, Nat.add_sub_cancel]
  isplitr; · iexact Hmw
  isplitl [HT]; · iexact HT
  isplitl [Hs7]; · iexact Hs7
  isplitl [HFI' Hrest1 HS7 Hs9 HI8 Hrest Htoks]
  · isplitl [HFI']
    · iexists fnew; isplitr
      · ipureintro; exact hgood'
      · iexact HFI'
    isplitl [Hrest1]; · iexact Hrest1
    isplitl [HS7]
    · iexists fcur; iapply (Entails.of_eq (r5ISlotPt_congr d L hp4 (r5hb7 _) (r5hb4 _) fcur)); iexact HS7
    isplitl [Hs9]
    · iapply (Entails.of_eq (tailCell_congr d L cc0_scoped9 hp1 (r5hb9 _) (r5hb6 _))); iexact Hs9
    -- trip t's token whole again, back among the others
    iapply (Entails.of_eq (tail_bigSep_step (fun u : Fin 50 => u.val ≠ t.val ∧ u.val ≠ t.val + 1) (fun u : Fin 50 => u.val ≠ t.val + 1) (tailFin t.val)
      (by rw [tailFin_val (by omega)]; omega) (fun u => by rw [Fin.ext_iff, tailFin_val (by omega)]; omega) (tailTokPt m d qi)).symm)
    isplitl [HI8 Hrest]
    · iapply (pointsTo_split_subset (Finset.subset_univ (tailIBlk (r5bi L (tailFin t.val)) (r5bi_inb L _)).view.set)).2
      isplitl [HI8]; · iexact HI8
      iexact Hrest
    iexact Htoks
  isplitl [HFO' HS15 Hs17 HO16 Hdone Htodo]
  · isplitl [HFO']; · iexists fg; iexact HFO'
    isplitl [HS15]
    · iexists fo15; iapply (Entails.of_eq (r5OSlotPt_congr d L hp5 (r5hb15 _) (r5hb10 _) fo15)); iexact HS15
    isplitl [Hs17]
    · iapply (Entails.of_eq (tailCell_congr d L cc0_scoped11 hp1O (r5hb17 _) (r5hb14 _))); iexact Hs17
    isplitl [HO16 Hdone]
    · iapply (Entails.of_eq (tail_bigSep_step (fun u : Fin 50 => u.val + 1 < t.val) (fun u : Fin 50 => u.val + 1 < t.val + 1) (tailFin (t.val - 1))
        (by rw [tailFin_val (by omega)]; omega) (fun u => by rw [Fin.ext_iff, tailFin_val (by omega)]; omega) (fun u => tailOPt d L 1 u (outK m d))).symm)
      isplitl [HO16]; · iexact HO16
      iexact Hdone
    iexact Htodo
  iexists W''; isplitr
  · ipureintro; intro p hp
    rcases hW'' p hp with h | h
    · exact hW' p h
    · exact .inr h
  · iexact Hw

set_option maxHeartbeats 1000000 in
theorem r5trip0 (t : Fin k0_t2_loop.trips) (ht0 : t.val = 0)
    (hx : Cert.Lookup.InRange (m (xLoc d) : IVec Cert.Lookup.SX 32))
    (acc : BitVec 32 × BitVec 32 × BitVec 32 × BitVec 32 × BitVec 32) :
    r5inv m d L O W qi qs t.val acc
      ⊢ wp frame (wpE (defs₀ (F := F)) 𝒱₀ (tailThr d L) none) Set.univ
          (k0_t2_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r5v7 L) (r5v20 L) (r5v51 L) r5v53 t acc)
          (r5inv m d L O W qi qs (t.val + 1)) := by
  have ht50 : t.val < 50 := by omega
  have e5 : k0_off26 L (tailW t.val) = r5bi L (tailFin (t.val + 1)) := by
    show _ = Arith.blkIn 1 L (tailFin (t.val + 1)).val
    rw [tailFin_val (by omega)]; exact Arith.off5_eq_r5 L t.val (by omega)
  have e8 : k0_off29 L (tailW t.val) = r5bi L (tailFin t.val) := by
    show _ = Arith.blkIn 1 L (tailFin t.val).val
    rw [tailFin_val (by omega)]; exact Arith.off8_eq_r5 L t.val (by omega)
  have e13 : k0_off34 L (tailW t.val) = r5bo L (tailFin t.val) := by
    show _ = outOff 1 (stp (L 0).val (L 1).val (tailFin t.val).val)
    rw [tailFin_val (by omega)]; exact Arith.off13_eq_r5 L t.val (by omega)
  unfold r5inv r5out
  simp only [Nat.add_sub_cancel]
  rw [if_pos (show t.val < 50 by omega), if_pos (show t.val + 1 < 50 by omega), if_pos ht0,
    if_neg (show ¬ t.val + 1 = 0 by omega)]
  unfold r5idxMid
  iintro ⟨%hacc, #Hmw, HT, Hs7, ⟨⟨%fcur, %hgood, HFI⟩, Hrest, ⟨%fa, HSn⟩, Hsn, Htoks⟩, ⟨⟨⟨%fo1, HS1⟩, Hs1⟩, ⟨%fb, HOS⟩, Hso, Hdone, Htodo⟩, ⟨%W', %hW', Hw⟩⟩
  subst hacc
  -- the read token of trip t + 1, its block apart from its rest
  ihave Htoks' := (Entails.of_eq (tail_bigSep_step (fun u : Fin 50 => u.val ≠ t.val ∧ u.val ≠ t.val + 1) (fun u : Fin 50 => u.val ≠ t.val) (tailFin (t.val + 1))
    (by rw [tailFin_val (by omega)]; omega) (fun u => by rw [Fin.ext_iff, tailFin_val (by omega)]; omega) (tailTokPt m d qi))) $$ Htoks
  icases Htoks' with ⟨Htok1, Htoks⟩
  ihave Hsp := (pointsTo_split_subset (Finset.subset_univ (tailIBlk (r5bi L (tailFin (t.val + 1))) (r5bi_inb L _)).view.set)).1 $$ Htok1
  icases Hsp with ⟨HIn, Hrest1⟩
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 1 u (m (oLoc d))))) $$ Htodo
  icases Htodo' with ⟨HOB, Htodo⟩
  iapply (wp_wand_r Idealize.ShloMosaic.frame (wpE (defs₀ (F := F)) 𝒱₀ (tailThr d L) none) Set.univ)
  isplitl [HIn HSn Hsn HFI HT HOS Hs7 HOB Hso Hw]
  · have hcar : r5car t.val = (tailW (t.val + 1), tailW t.val, tailW t.val, tailW (t.val - 1), tailW t.val) := by
      unfold r5car; rw [Nat.min_eq_left (by omega), Nat.mod_eq_of_lt (by omega)]
    rw [hcar]
    iapply (r5core0 m d L O W' t ht0
      (k0_off28 (tailW (t.val + 1))) rfl (r5hb7 _) (r5bi L (tailFin (t.val + 1))) e5 (r5bi_inb L _) (k0_off30 (tailW (t.val + 1))) rfl (r5hb9 _)
      (k0_off28 (tailW t.val)) rfl (r5hb7 _) (r5bi L (tailFin t.val)) e8 (r5bi_inb L _) (k0_off30 (tailW t.val)) rfl (r5hb9 _)
      (k0_off36 (tailW t.val)) rfl (r5hb15 _) (r5bo L (tailFin t.val)) e13 (r5bo_inb L _) (k0_off38 (tailW t.val)) rfl (r5hb17 _)
      (shareTok qi 50 (tailFin (t.val + 1))) (shareTok qi 50 (tailFin t.val)) qs fcur hgood hx)
    isplitr; · iexact Hmw
    isplitl [HIn]; · iexact HIn
    isplitl [HSn]; · iexists fa; iexact HSn
    isplitl [Hsn]; · iexact Hsn
    isplitl [HFI]; · iexact HFI
    isplitl [HT]; · iexact HT
    isplitl [HOS]; · iexists fb; iexact HOS
    isplitl [Hs7]; · iexact Hs7
    isplitl [HOB]; · iexact HOB
    isplitl [Hso]; · iexact Hso
    iexact Hw
  iintro %acc' ⟨%hacc', ⟨%fnew, %hgood', HFI'⟩, HI8, Hs9, HS7, HT, Hs7, ⟨%fg, HFO'⟩, ⟨%W'', %hW'', Hw⟩⟩
  have hp4 : k0_off28 (tailW t.val) = k0_off25 (tailW (t.val + 1 + 1)) := r5par4 (by omega) (by omega) (by omega)
  have hp1 : k0_off30 (tailW t.val) = k0_off27 (tailW (t.val + 1 + 1)) := r5par1I (by omega) (by omega) (by omega)
  have e1 : min (t.val + 1 + 1) 50 = t.val + 2 := by omega
  have e2 : (t.val + 1) % 50 = t.val + 1 := by omega
  isplitr
  · ipureintro; rw [hacc']; unfold r5car; rw [e1, e2, Nat.add_sub_cancel]
  isplitr; · iexact Hmw
  isplitl [HT]; · iexact HT
  isplitl [Hs7]; · iexact Hs7
  isplitl [HFI' Hrest1 HS7 Hs9 HI8 Hrest Htoks]
  · isplitl [HFI']
    · iexists fnew; isplitr
      · ipureintro; exact hgood'
      · iexact HFI'
    isplitl [Hrest1]; · iexact Hrest1
    isplitl [HS7]
    · iexists fcur; iapply (Entails.of_eq (r5ISlotPt_congr d L hp4 (r5hb7 _) (r5hb4 _) fcur)); iexact HS7
    isplitl [Hs9]
    · iapply (Entails.of_eq (tailCell_congr d L cc0_scoped9 hp1 (r5hb9 _) (r5hb6 _))); iexact Hs9
    -- trip t's token whole again, back among the others
    iapply (Entails.of_eq (tail_bigSep_step (fun u : Fin 50 => u.val ≠ t.val ∧ u.val ≠ t.val + 1) (fun u : Fin 50 => u.val ≠ t.val + 1) (tailFin t.val)
      (by rw [tailFin_val (by omega)]; omega) (fun u => by rw [Fin.ext_iff, tailFin_val (by omega)]; omega) (tailTokPt m d qi)).symm)
    isplitl [HI8 Hrest]
    · iapply (pointsTo_split_subset (Finset.subset_univ (tailIBlk (r5bi L (tailFin t.val)) (r5bi_inb L _)).view.set)).2
      isplitl [HI8]; · iexact HI8
      iexact Hrest
    iexact Htoks
  isplitl [HFO' HS1 Hs1 Hdone Htodo]
  · isplitl [HFO']; · iexists fg; iexact HFO'
    isplitl [HS1]; · iexists fo1; iexact HS1
    isplitl [Hs1]; · iexact Hs1
    isplitl [Hdone]
    · rw [show (Finset.univ.filter fun u : Fin 50 => u.val + 1 < t.val + 1) = (Finset.univ.filter fun u : Fin 50 => u.val + 1 < t.val) from
        Finset.filter_congr (fun u _ => by omega)]
      iexact Hdone
    iexact Htodo
  iexists W''; isplitr
  · ipureintro; intro p hp
    rcases hW'' p hp with h | h
    · exact hW' p h
    · exact .inr h
  · iexact Hw

set_option maxHeartbeats 1000000 in
theorem r5tripE (t : Fin k0_t2_loop.trips) (ht49 : t.val = 49)
    (hx : Cert.Lookup.InRange (m (xLoc d) : IVec Cert.Lookup.SX 32))
    (acc : BitVec 32 × BitVec 32 × BitVec 32 × BitVec 32 × BitVec 32) :
    r5inv m d L O W qi qs t.val acc
      ⊢ wp frame (wpE (defs₀ (F := F)) 𝒱₀ (tailThr d L) none) Set.univ
          (k0_t2_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r5v7 L) (r5v20 L) (r5v51 L) r5v53 t acc)
          (r5inv m d L O W qi qs (t.val + 1)) := by
  have ht50 : t.val < 50 := by omega
  have e8 : k0_off29 L (tailW t.val) = r5bi L (tailFin t.val) := by
    show _ = Arith.blkIn 1 L (tailFin t.val).val
    rw [tailFin_val (by omega)]; exact Arith.off8_eq_r5 L t.val (by omega)
  have e13 : k0_off34 L (tailW t.val) = r5bo L (tailFin t.val) := by
    show _ = outOff 1 (stp (L 0).val (L 1).val (tailFin t.val).val)
    rw [tailFin_val (by omega)]; exact Arith.off13_eq_r5 L t.val (by omega)
  have e16 : k0_off37 L (tailW t.val) = r5bo L (tailFin (t.val - 1)) := by
    show _ = outOff 1 (stp (L 0).val (L 1).val (tailFin (t.val - 1)).val)
    rw [tailFin_val (by omega)]; exact Arith.off16_eq_r5 L t.val (by omega) (by omega)
  unfold r5inv r5out
  simp only [Nat.add_sub_cancel]
  rw [if_pos (show t.val < 50 by omega), if_neg (show ¬ t.val + 1 < 50 by omega), if_neg (show ¬ t.val = 0 by omega),
    if_neg (show ¬ t.val + 1 = 0 by omega)]
  unfold r5idxMid r5idxEnd
  simp only [Nat.add_sub_cancel]
  iintro ⟨%hacc, #Hmw, HT, Hs7, ⟨⟨%fcur, %hgood, HFI⟩, Hrest, ⟨%fa, HSn⟩, Hsn, Htoks⟩, ⟨⟨%fbp, HFO⟩, ⟨%fb, HOS⟩, Hso, Hdone, Htodo⟩, ⟨%W', %hW', Hw⟩⟩
  subst hacc
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 1 u (m (oLoc d))))) $$ Htodo
  icases Htodo' with ⟨HOB, Htodo⟩
  iapply (wp_wand_r Idealize.ShloMosaic.frame (wpE (defs₀ (F := F)) 𝒱₀ (tailThr d L) none) Set.univ)
  isplitl [HFI HT HOS Hs7 HOB Hso HFO Hw]
  · have hcar : r5car t.val = (tailW (t.val + 1), tailW t.val, tailW t.val, tailW (t.val - 1), tailW t.val) := by
      unfold r5car; rw [Nat.min_eq_left (by omega), Nat.mod_eq_of_lt (by omega)]
    rw [hcar]
    iapply (r5coreE m d L O W' t ht49
      (k0_off28 (tailW t.val)) rfl (r5hb7 _) (r5bi L (tailFin t.val)) e8 (r5bi_inb L _) (k0_off30 (tailW t.val)) rfl (r5hb9 _)
      (k0_off36 (tailW t.val)) rfl (r5hb15 _) (r5bo L (tailFin t.val)) e13 (r5bo_inb L _) (k0_off38 (tailW t.val)) rfl (r5hb17 _)
      (k0_off36 (tailW (t.val - 1))) rfl (r5hb15 _) (r5bo L (tailFin (t.val - 1))) e16 (r5bo_inb L _) (k0_off38 (tailW (t.val - 1))) rfl (r5hb17 _)
      (shareTok qi 50 (tailFin (t.val + 1))) (shareTok qi 50 (tailFin t.val)) qs fcur hgood hx)
    isplitr; · iexact Hmw
    isplitl [HFI]; · iexact HFI
    isplitl [HT]; · iexact HT
    isplitl [HOS]; · iexists fb; iexact HOS
    isplitl [Hs7]; · iexact Hs7
    isplitl [HOB]; · iexact HOB
    isplitl [Hso]; · iexact Hso
    isplitl [HFO]; · iexists fbp; iexact HFO
    iexact Hw
  iintro %acc' ⟨%hacc', HI8, Hs9, HS7, HT, Hs7, ⟨%fg, HFO'⟩, HO16, ⟨%fo15, HS15⟩, Hs17, ⟨%W'', %hW'', Hw⟩⟩
  have hp5 : k0_off36 (tailW (t.val - 1)) = k0_off31 (tailW (t.val + 1)) := r5par5 (by omega) (by omega) (by omega)
  have hp1O : k0_off38 (tailW (t.val - 1)) = k0_off35 (tailW (t.val + 1)) := r5par1O (by omega) (by omega) (by omega)
  have e1 : min (t.val + 1 + 1) 50 = t.val + 1 := by omega
  have e2 : (t.val + 1) % 50 = 0 := by omega
  isplitr
  · ipureintro; rw [hacc']; unfold r5car; rw [e1, e2, Nat.add_sub_cancel]
  isplitr; · iexact Hmw
  isplitl [HT]; · iexact HT
  isplitl [Hs7]; · iexact Hs7
  isplitl [HSn Hsn HS7 Hs9 HI8 Hrest Htoks]
  · isplitl [HSn]; · iexists fa; iexact HSn
    isplitl [Hsn]; · iexact Hsn
    isplitl [HS7]; · iexists fcur; iexact HS7
    isplitl [Hs9]; · iexact Hs9
    -- the last trip's token whole again, back among the others: every token whole
    iapply (Entails.of_eq (r5_take (tailFin t.val) (tailTokPt m d qi)).symm)
    rw [tailFin_val (by omega)]
    isplitl [HI8 Hrest]
    · iapply (pointsTo_split_subset (Finset.subset_univ (tailIBlk (r5bi L (tailFin t.val)) (r5bi_inb L _)).view.set)).2
      isplitl [HI8]; · iexact HI8
      iexact Hrest
    iexact Htoks
  isplitl [HFO' HS15 Hs17 HO16 Hdone Htodo]
  · isplitl [HFO']; · iexists fg; iexact HFO'
    isplitl [HS15]
    · iexists fo15; iapply (Entails.of_eq (r5OSlotPt_congr d L hp5 (r5hb15 _) (r5hb10 _) fo15)); iexact HS15
    isplitl [Hs17]
    · iapply (Entails.of_eq (tailCell_congr d L cc0_scoped11 hp1O (r5hb17 _) (r5hb14 _))); iexact Hs17
    isplitl [HO16 Hdone]
    · iapply (Entails.of_eq (tail_bigSep_step (fun u : Fin 50 => u.val + 1 < t.val) (fun u : Fin 50 => u.val + 1 < t.val + 1) (tailFin (t.val - 1))
        (by rw [tailFin_val (by omega)]; omega) (fun u => by rw [Fin.ext_iff, tailFin_val (by omega)]; omega) (fun u => tailOPt d L 1 u (outK m d))).symm)
      isplitl [HO16]; · iexact HO16
      iexact Hdone
    iexact Htodo
  iexists W''; isplitr
  · ipureintro; intro p hp
    rcases hW'' p hp with h | h
    · exact hW' p h
    · exact .inr h
  · iexact Hw

/-- A trip of the loop, whichever. -/
theorem r5trip (t : Fin k0_t2_loop.trips) (hx : Cert.Lookup.InRange (m (xLoc d) : IVec Cert.Lookup.SX 32))
    (acc : BitVec 32 × BitVec 32 × BitVec 32 × BitVec 32 × BitVec 32) :
    r5inv m d L O W qi qs t.val acc
      ⊢ wp frame (wpE (defs₀ (F := F)) 𝒱₀ (tailThr d L) none) Set.univ
          (k0_t2_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r5v7 L) (r5v20 L) (r5v51 L) r5v53 t acc)
          (r5inv m d L O W qi qs (t.val + 1)) := by
  have ht : t.val < 50 := lt_of_lt_of_eq t.isLt Arith.trips2
  rcases Nat.eq_zero_or_pos t.val with h0 | h1
  · exact r5trip0 m d L O W qi qs t h0 hx acc
  · rcases Nat.lt_or_ge t.val 49 with h | h
    · exact r5tripM m d L O W qi qs t h1 h hx acc
    · exact r5tripE m d L O W qi qs t (by omega) hx acc

/-- The invariant after the last trip, spelt out. -/
theorem r5inv_end (acc : BitVec 32 × BitVec 32 × BitVec 32 × BitVec 32 × BitVec 32) :
    r5inv m d L O W qi qs 50 acc
      ⊢ iprop(⌜acc = (tailW 50, tailW 50, tailW 50, tailW 49, tailW 0)⌝ ∗ Transfers.MayWaits (tailThr d L) (default : HIx 1) O ∗ r5Tab m d L qs
          ∗ semVal (tailThr d L, SemLoc.dma cc0_scoped12.sem) 0
          ∗ ((∃ f, r5ISlotPt d L (k0_off25 (tailW 50)) (r5hb4 _) f)
            ∗ semVal (tailThr d L, SemLoc.dma (tailSem cc0_scoped9 (k0_off27 (tailW 50)) (r5hb6 _))) 0
            ∗ (∃ f, r5ISlotPt d L (k0_off28 (tailW (50 - 1))) (r5hb7 _) f)
            ∗ semVal (tailThr d L, SemLoc.dma (tailSem cc0_scoped9 (k0_off30 (tailW (50 - 1))) (r5hb9 _))) 0
            ∗ bigSep Finset.univ (tailTokPt m d qi))
          ∗ ((∃ fbp, r5FO d L (k0_off38 (tailW (50 - 1))) (r5hb17 _) (r5bo L (tailFin (50 - 1))) (r5bo_inb L _) (outK m d) (k0_off36 (tailW (50 - 1))) (r5hb15 _) fbp)
            ∗ (∃ f, r5OSlotPt d L (k0_off31 (tailW 50)) (r5hb10 _) f)
            ∗ semVal (tailThr d L, SemLoc.dma (tailSem cc0_scoped11 (k0_off35 (tailW 50)) (r5hb14 _))) 0
            ∗ bigSep (Finset.univ.filter fun u : Fin 50 => u.val + 1 < 50) (fun u => tailOPt d L 1 u (outK m d))
            ∗ bigSep (Finset.univ.filter fun u : Fin 50 => 50 ≤ u.val) (fun u => tailOPt d L 1 u (m (oLoc d))))
          ∗ ∃ W', ⌜∀ p ∈ W', p ∈ W ∨ p.2 = none⌝ ∗ owes (tailThr d L) O W') := by
  unfold r5inv r5out r5idxEnd
  rw [if_neg (show ¬ (50 : ℕ) < 50 by decide), if_neg (show ¬ (50 : ℕ) = 0 by decide)]
  iintro ⟨%hacc, H⟩
  isplitr
  · ipureintro; rw [hacc]; rfl
  · iexact H

/-! ## After the loop: the buffers whole again, every block done -/

omit [FloatOps F] in
theorem r5I_back (fa fc g : Buf (Elt F) ((tailThr d L).loc cc0_scoped8)) :
    iprop(r5ISlotPt d L (k0_off25 (tailW 50)) (r5hb4 _) fa ∗ r5ISlotPt d L (k0_off28 (tailW (50 - 1))) (r5hb7 _) fc
        ∗ ((tailThr d L).loc cc0_scoped8 ↦[r5IRest d L]{fullShare} g))
      ⊢ (∃ f, (tailThr d L).loc cc0_scoped8 ↦{fullShare} f : sProp 𝕄) := by
  have e0 : k0_off25 (tailW 50) = (![0, 0, 0, 0] : Fin 4 → ℕ) := by rw [Arith.off4_eq_r5]; rfl
  have e1 : k0_off28 (tailW (50 - 1)) = (![1, 0, 0, 0] : Fin 4 → ℕ) := by rw [Arith.off7_eq_r5]; rfl
  rw [r5ISlotPt_congr d L e0 (r5hb4 _) r5inbI0 fa, r5ISlotPt_congr d L e1 (r5hb7 _) r5inbI1 fc]
  exact r5IBuf_join d L fa fc g

omit [FloatOps F] in
theorem r5O_back (fb fbp g : Buf (Elt F) ((tailThr d L).loc cc0_scoped10)) :
    iprop(r5OSlotPt d L (k0_off31 (tailW 50)) (r5hb10 _) fb ∗ r5OSlotPt d L (k0_off36 (tailW (50 - 1))) (r5hb15 _) fbp
        ∗ ((tailThr d L).loc cc0_scoped10 ↦[r5ORest d L]{fullShare} g))
      ⊢ (∃ f, (tailThr d L).loc cc0_scoped10 ↦{fullShare} f : sProp 𝕄) := by
  have e0 : k0_off31 (tailW 50) = (![0, 0, 0, 0, 0] : Fin 5 → ℕ) := by rw [Arith.off10_eq_r5]; rfl
  have e1 : k0_off36 (tailW (50 - 1)) = (![1, 0, 0, 0, 0] : Fin 5 → ℕ) := by rw [Arith.off15_eq_r5]; rfl
  rw [r5OSlotPt_congr d L e0 (r5hb10 _) r5inbO0 fb, r5OSlotPt_congr d L e1 (r5hb15 _) r5inbO1 fbp]
  exact r5OBuf_join d L fb fbp g

/-- The last block done, beside the forty-nine before it: all fifty. -/
theorem r5_allDone :
    iprop(((tailOBlk (r5bo L (tailFin (50 - 1))) (r5bo_inb L _)).view.loc (tailThr d L) ↦[(tailOBlk (r5bo L (tailFin (50 - 1))) (r5bo_inb L _)).view.set]{fullShare} outK m d)
        ∗ bigSep (Finset.univ.filter fun u : Fin 50 => u.val + 1 < 50) (fun u => tailOPt d L 1 u (outK m d)))
      ⊢ (bigSep Finset.univ (fun u : Fin 50 => tailOPt d L 1 u (outK m d)) : sProp 𝕄) := by
  rw [r5_take (tailFin (50 - 1)) (fun u => tailOPt d L 1 u (outK m d)),
    show (Finset.univ.filter fun u : Fin 50 => u.val ≠ (tailFin (50 - 1)).val) = (Finset.univ.filter fun u : Fin 50 => u.val + 1 < 50) from
      Finset.filter_congr (fun u _ => by have := u.isLt; show u.val ≠ (50 - 1) % 50 ↔ _; omega)]
  exact Entails.refl _

end Cert.Proof.K

end
-- ==== Proof.KTailR7D.lean ====
/-
  The third of the three pipelined lookups: its two-slot buffers, what is in flight on its semaphores, the facts that
  the fetched words are the index block's and stay in range, and the loop's invariant.  At trip t the fetch of index
  block t is in flight into the index slot of t's parity and the copy-out of the gathered rows of block t - 1 is in
  flight from the row slot of the other parity; the blocks before t - 1 hold the lookup's values.
-/
import proofs.«206595_g34437047779621_cont_8to1_b_428_16_alg».proof.Proof.KTailLib

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

/-! ## The buffers of the third lookup -/

/-- One slot of the two-slot buffer of index words. -/
abbrev r7iSlot (off : Fin 4 → ℕ) (h : ∀ a, off a + S1x1x1x128.size a ≤ S2x1x1x128.size a) : Memref sig .scVector .vmem S1x1x1x128 .i32 :=
  (Memref.whole cc0_scoped13).slice (Rect.unit (s := S2x1x1x128) off S1x1x1x128.size h) (fun _ => rfl)
/-- One slot of the two-slot buffer of gathered rows. -/
abbrev r7oSlot (off : Fin 5 → ℕ) (h : ∀ a, off a + S1x1x1x128x128.size a ≤ S2x1x1x128x128.size a) : Memref sig .scVector .vmem S1x1x1x128x128 .f32 :=
  (Memref.whole cc0_scoped15).slice (Rect.unit (s := S2x1x1x128x128) off S1x1x1x128x128.size h) (fun _ => rfl)
/-- The list of 128 index words of one slot, as the gather reads it. -/
abbrev r7list (off : Fin 4 → ℕ) (h : ∀ a, off a + S1x1x1x128.size a ≤ S2x1x1x128.size a) : Memref sig .scVector .vmem S128 .i32 :=
  ((((r7iSlot off h).squeeze S1x1x128 squeezes_S1x1x1x128_S1x1x128).slice (Rect.unit (s := S1x1x128) ![0, 0, 0] S1x1x128.size inb_S1x1x128_S1x1x128_0_0_0) (fun _ => rfl)).squeeze S128 squeezes_S1x1x128_S128)

/-- An index slot at contents `f`. -/
abbrev r7ISlotPt (off : Fin 4 → ℕ) (h : ∀ a, off a + S1x1x1x128.size a ≤ S2x1x1x128.size a)
    (f : Buf (Elt F) ((Memref.whole cc0_scoped13).view.loc (tailThr d L))) : sProp 𝕄 :=
  (r7iSlot off h).view.loc (tailThr d L) ↦[(r7iSlot off h).view.set]{fullShare} f
/-- A slot of gathered rows at contents `f`. -/
abbrev r7OSlotPt (off : Fin 5 → ℕ) (h : ∀ a, off a + S1x1x1x128x128.size a ≤ S2x1x1x128x128.size a)
    (f : Buf (Elt F) ((Memref.whole cc0_scoped15).view.loc (tailThr d L))) : sProp 𝕄 :=
  (r7oSlot off h).view.loc (tailThr d L) ↦[(r7oSlot off h).view.set]{fullShare} f

/-- A fetch of an index block into an index slot, in flight. -/
abbrev r7FI (offS : Fin 1 → ℕ) (hS : ∀ a, offS a + S1.size a ≤ S2.size a) (offL : Fin 4 → ℕ) (hL : ∀ a, offL a + S1x1x1x128.size a ≤ S2x1x1x128.size a)
    (offB : Fin 3 → ℕ) (hB : ∀ a, offB a + S1x1x128.size a ≤ S3x50x4096.size a) (q : PosShare TreeShare)
    (f : Buf (Elt F) ((Memref.whole cc0_scoped13).view.loc (tailThr d L))) : sProp 𝕄 :=
  Transfers.Flight countersEmb (tailThr d L) (SemLoc.dma (tailSem cc0_scoped14 offS hS)) (default : HIx 1) 4096
    iprop(((r7iSlot offL hL).view.loc (tailThr d L) ↦[(r7iSlot offL hL).view.set]{fullShare} f)
      ∗ ((tailIBlk offB hB).view.loc (tailThr d L) ↦[(tailIBlk offB hB).view.set]{q} idxT m d))
/-- A copy of a slot of gathered rows out to an output block, in flight. -/
abbrev r7FO (offS : Fin 1 → ℕ) (hS : ∀ a, offS a + S1.size a ≤ S2.size a) (offB : Fin 4 → ℕ) (hB : ∀ a, offB a + S1x1x128x128.size a ≤ S50x3x4096x128.size a)
    (fB : Buf (Elt F) (oLoc d)) (offL : Fin 5 → ℕ) (hL : ∀ a, offL a + S1x1x1x128x128.size a ≤ S2x1x1x128x128.size a)
    (fL : Buf (Elt F) ((Memref.whole cc0_scoped15).view.loc (tailThr d L))) : sProp 𝕄 :=
  Transfers.Flight countersEmb (tailThr d L) (SemLoc.dma (tailSem cc0_scoped16 offS hS)) (default : HIx 1) 524288
    iprop(((tailOBlk offB hB).view.loc (tailThr d L) ↦[(tailOBlk offB hB).view.set]{fullShare} fB)
      ∗ ((r7oSlot offL hL).view.loc (tailThr d L) ↦[(r7oSlot offL hL).view.set]{fullShare} fL))

/-- The index slot `off` holds the 128 words of the index block `boff`. -/
def r7good (off : Fin 4 → ℕ) (h : ∀ a, off a + S1x1x1x128.size a ≤ S2x1x1x128.size a)
    (boff : Fin 3 → ℕ) (hb : ∀ a, boff a + S1x1x128.size a ≤ S3x50x4096.size a)
    (f : Buf (Elt F) ((Memref.whole cc0_scoped13).view.loc (tailThr d L))) : Prop :=
  ∀ x : S128.Idx, (r7list off h).view.read (Elt F) f x = ((tailIBlk boff hb).view.reshape S128 tail_numel128).read (Elt F) (idxT m d) x

/-- The tile's first step of the 1600, as a word. -/
def r7v7 : BitVec 32 :=
  Scalar.muli (Scalar.addi (Scalar.addi (0#32) (Scalar.muli (BitVec.ofNat 32 (L 1).val) 1#32)) (Scalar.muli (BitVec.ofNat 32 (L 0).val) 16#32)) 50#32

/-- The table of the third lookup at a share. -/
abbrev r7Tab (qs : PosShare TreeShare) : sProp 𝕄 :=
  (Memref.whole cc0_scratch2).view.loc (tailThr d L) ↦{qs} (m (w2Loc d) : Buf (Elt F) (sh2Loc d (cV L)))

theorem r7list_subset (off : Fin 4 → ℕ) (h : ∀ a, off a + S1x1x1x128.size a ≤ S2x1x1x128.size a) :
    (r7list off h).view.set ⊆ (r7iSlot off h).view.set := by
  show ((((r7iSlot off h).view.reshape S1x1x128 _).slice _).reshape S128 _).set ⊆ _
  rw [View.set_reshape]
  refine (View.set_slice_subset _ _).trans ?_
  rw [View.set_reshape]

omit [FloatOps F] in
theorem r7_unit0_emb : ∀ x : S128.Idx,
    (Rect.unit (s := S1x1x128) ![0, 0, 0] S1x1x128.size inb_S1x1x128_S1x1x128_0_0_0).emb ((Shape.reshapeEquiv squeezes_S1x1x128_S128.numel_eq) x)
      = (Shape.reshapeEquiv (s := S1x1x128) (s' := S128) (by decide)) x := by
  decide +kernel

theorem r7good_write (off : Fin 4 → ℕ) (h : ∀ a, off a + S1x1x1x128.size a ≤ S2x1x1x128.size a)
    (boff : Fin 3 → ℕ) (hb : ∀ a, boff a + S1x1x128.size a ≤ S3x50x4096.size a)
    (fa : Buf (Elt F) ((Memref.whole cc0_scoped13).view.loc (tailThr d L))) :
    r7good m d L off h boff hb
      (View.write (Elt F) ((r7iSlot off h).squeeze S1x1x128 squeezes_S1x1x1x128_S1x1x128).view fa
        (ReadAs.same.apply (View.read (Elt F) (tailIBlk boff hb).view (idxT m d))) Finset.univ) := by
  intro x
  have e : (r7list off h).view.emb x
      = ((r7iSlot off h).squeeze S1x1x128 squeezes_S1x1x1x128_S1x1x128).view.emb ((Shape.reshapeEquiv (s := S1x1x128) (s' := S128) (by decide)) x) := by
    show ((r7iSlot off h).squeeze S1x1x128 squeezes_S1x1x1x128_S1x1x128).view.emb
        ((Rect.unit (s := S1x1x128) ![0, 0, 0] S1x1x128.size inb_S1x1x128_S1x1x128_0_0_0).emb ((Shape.reshapeEquiv squeezes_S1x1x128_S128.numel_eq) x)) = _
    rw [r7_unit0_emb]
  rw [View.read_apply, e, View.write_emb_of_mem _ _ (Finset.mem_univ _)]
  simp only [cast_cast, cast_eq]
  rfl

/-- A copy-out in flight, as the run leaves it, is the copy-out in flight the invariant states: its block at the values
    the block is to hold, its slot by the slot's own elements. -/
theorem r7FO_fix (offS : Fin 1 → ℕ) (hS : ∀ a, offS a + S1.size a ≤ S2.size a) (offB : Fin 4 → ℕ) (hB : ∀ a, offB a + S1x1x128x128.size a ≤ S50x3x4096x128.size a)
    (fB fB' : Buf (Elt F) (oLoc d)) (offL offL' : Fin 5 → ℕ) (hL : ∀ a, offL a + S1x1x1x128x128.size a ≤ S2x1x1x128x128.size a)
    (hL' : ∀ a, offL' a + S1x1x1x128x128.size a ≤ S2x1x1x128x128.size a)
    (fL : Buf (Elt F) ((Memref.whole cc0_scoped15).view.loc (tailThr d L)))
    (hv : ∀ i ∈ (tailOBlk offB hB).view.set, fB i = fB' i) (hoff : offL' = offL) :
    (Transfers.Flight countersEmb (tailThr d L) (SemLoc.dma (tailSem cc0_scoped16 offS hS)) (default : HIx 1) 524288
      iprop(((tailOBlk offB hB).view.loc (tailThr d L) ↦[(tailOBlk offB hB).view.set]{fullShare} fB)
        ∗ ((r7oSlot offL hL).view.loc (tailThr d L) ↦[((r7oSlot offL' hL').squeeze S1x1x128x128 squeezes_S1x1x1x128x128_S1x1x128x128).view.set]{fullShare} fL)) : sProp 𝕄)
      ⊢ r7FO d L offS hS offB hB fB' offL hL fL := by
  subst hoff
  have hset : ((r7oSlot offL' hL').squeeze S1x1x128x128 squeezes_S1x1x1x128x128_S1x1x128x128).view.set = (r7oSlot offL' hL).view.set :=
    View.set_reshape _ _
  refine Transfers.Flight_mono countersEmb (tailThr d L) ?_
  rw [pointsTo_congr hv, hset]

variable (O : CellTallies nD τ sig (HIx 1)) (W : Waits sig (HIx 1))

/-! ## Slots and semaphores of one parity under two spellings -/

omit [FloatOps F] in
theorem r7ISlotPt_congr {off off' : Fin 4 → ℕ} (e : off = off') (h : ∀ a, off a + S1x1x1x128.size a ≤ S2x1x1x128.size a)
    (h' : ∀ a, off' a + S1x1x1x128.size a ≤ S2x1x1x128.size a) (f : Buf (Elt F) ((Memref.whole cc0_scoped13).view.loc (tailThr d L))) :
    (r7ISlotPt d L off h f : sProp 𝕄) = r7ISlotPt d L off' h' f := by subst e; rfl
omit [FloatOps F] in
theorem r7OSlotPt_congr {off off' : Fin 5 → ℕ} (e : off = off') (h : ∀ a, off a + S1x1x1x128x128.size a ≤ S2x1x1x128x128.size a)
    (h' : ∀ a, off' a + S1x1x1x128x128.size a ≤ S2x1x1x128x128.size a) (f : Buf (Elt F) ((Memref.whole cc0_scoped15).view.loc (tailThr d L))) :
    (r7OSlotPt d L off h f : sProp 𝕄) = r7OSlotPt d L off' h' f := by subst e; rfl
omit [FloatOps F] in
theorem r7par4 {a b : ℕ} (ha : a < 2 ^ 32) (hb : b < 2 ^ 32) (h : a % 2 = b % 2) : k0_off49 (tailW a) = k0_off46 (tailW b) := by
  rw [Arith.off7_eq_r7, Arith.off4_eq_r7, tailW_par ha hb h]
omit [FloatOps F] in
theorem r7par1I {a b : ℕ} (ha : a < 2 ^ 32) (hb : b < 2 ^ 32) (h : a % 2 = b % 2) : k0_off51 (tailW a) = k0_off48 (tailW b) := by
  rw [Arith.off9_eq_r7, Arith.off6_eq_r7, tailW_par ha hb h]
omit [FloatOps F] in
theorem r7par5 {a b : ℕ} (ha : a < 2 ^ 32) (hb : b < 2 ^ 32) (h : a % 2 = b % 2) : k0_off57 (tailW a) = k0_off52 (tailW b) := by
  rw [Arith.off15_eq_r7, Arith.off10_eq_r7, tailW_par ha hb h]
omit [FloatOps F] in
theorem r7par1O {a b : ℕ} (ha : a < 2 ^ 32) (hb : b < 2 ^ 32) (h : a % 2 = b % 2) : k0_off59 (tailW a) = k0_off56 (tailW b) := by
  rw [Arith.off17_eq_r7, Arith.off14_eq_r7, tailW_par ha hb h]

/-! ## The two-slot buffers as their slots -/

omit [FloatOps F] in theorem r7inbI0 : ∀ a, (![0, 0, 0, 0] : Fin 4 → ℕ) a + S1x1x1x128.size a ≤ S2x1x1x128.size a := by decide
omit [FloatOps F] in theorem r7inbI1 : ∀ a, (![1, 0, 0, 0] : Fin 4 → ℕ) a + S1x1x1x128.size a ≤ S2x1x1x128.size a := by decide
omit [FloatOps F] in theorem r7inbO0 : ∀ a, (![0, 0, 0, 0, 0] : Fin 5 → ℕ) a + S1x1x1x128x128.size a ≤ S2x1x1x128x128.size a := by decide
omit [FloatOps F] in theorem r7inbO1 : ∀ a, (![1, 0, 0, 0, 0] : Fin 5 → ℕ) a + S1x1x1x128x128.size a ≤ S2x1x1x128x128.size a := by decide

omit [FloatOps F] in
theorem r7IDisj : Disjoint (r7iSlot ![1, 0, 0, 0] r7inbI1).view.set (r7iSlot ![0, 0, 0, 0] r7inbI0).view.set := by
  have h1 : (r7iSlot ![1, 0, 0, 0] r7inbI1).view.set = (Rect.unit (s := S2x1x1x128) ![1, 0, 0, 0] S1x1x1x128.size r7inbI1).set := View.set_slice_whole _ _
  have h0 : (r7iSlot ![0, 0, 0, 0] r7inbI0).view.set = (Rect.unit (s := S2x1x1x128) ![0, 0, 0, 0] S1x1x1x128.size r7inbI0).set := View.set_slice_whole _ _
  rw [h1, h0]
  exact Rect.disjoint_of_separated _ _ 0 (.inr (.inr (by decide)))
omit [FloatOps F] in
theorem r7ISub : (r7iSlot ![1, 0, 0, 0] r7inbI1).view.set ⊆ Finset.univ \ (r7iSlot ![0, 0, 0, 0] r7inbI0).view.set :=
  Finset.subset_sdiff.mpr ⟨Finset.subset_univ _, r7IDisj⟩
omit [FloatOps F] in
theorem r7ODisj : Disjoint (r7oSlot ![1, 0, 0, 0, 0] r7inbO1).view.set (r7oSlot ![0, 0, 0, 0, 0] r7inbO0).view.set := by
  have h1 : (r7oSlot ![1, 0, 0, 0, 0] r7inbO1).view.set = (Rect.unit (s := S2x1x1x128x128) ![1, 0, 0, 0, 0] S1x1x1x128x128.size r7inbO1).set := View.set_slice_whole _ _
  have h0 : (r7oSlot ![0, 0, 0, 0, 0] r7inbO0).view.set = (Rect.unit (s := S2x1x1x128x128) ![0, 0, 0, 0, 0] S1x1x1x128x128.size r7inbO0).set := View.set_slice_whole _ _
  rw [h1, h0]
  exact Rect.disjoint_of_separated _ _ 0 (.inr (.inr (by decide)))
omit [FloatOps F] in
theorem r7OSub : (r7oSlot ![1, 0, 0, 0, 0] r7inbO1).view.set ⊆ Finset.univ \ (r7oSlot ![0, 0, 0, 0, 0] r7inbO0).view.set :=
  Finset.subset_sdiff.mpr ⟨Finset.subset_univ _, r7ODisj⟩

/-- What of the index buffer lies in neither slot (nothing; kept as a piece so that no count is needed). -/
abbrev r7IRest : Finset (Idx ((tailThr d L).loc cc0_scoped13)) :=
  (Finset.univ \ (r7iSlot ![0, 0, 0, 0] r7inbI0).view.set) \ (r7iSlot ![1, 0, 0, 0] r7inbI1).view.set
abbrev r7ORest : Finset (Idx ((tailThr d L).loc cc0_scoped15)) :=
  (Finset.univ \ (r7oSlot ![0, 0, 0, 0, 0] r7inbO0).view.set) \ (r7oSlot ![1, 0, 0, 0, 0] r7inbO1).view.set

omit [FloatOps F] in
theorem r7IBuf_split (f : Buf (Elt F) ((tailThr d L).loc cc0_scoped13)) :
    ((tailThr d L).loc cc0_scoped13 ↦{fullShare} f : sProp 𝕄)
      ⊢ iprop(r7ISlotPt d L ![0, 0, 0, 0] r7inbI0 f ∗ r7ISlotPt d L ![1, 0, 0, 0] r7inbI1 f ∗ ((tailThr d L).loc cc0_scoped13 ↦[r7IRest d L]{fullShare} f)) := by
  iintro H
  ihave H' := (pointsTo_split_subset (Finset.subset_univ (r7iSlot ![0, 0, 0, 0] r7inbI0).view.set)).1 $$ H
  icases H' with ⟨H0, Hr⟩
  ihave Hr' := (pointsTo_split_subset r7ISub).1 $$ Hr
  icases Hr' with ⟨H1, Hr⟩
  isplitl [H0]; · iexact H0
  isplitl [H1]; · iexact H1
  iexact Hr

omit [FloatOps F] in
theorem r7IBuf_join (g0 g1 g : Buf (Elt F) ((tailThr d L).loc cc0_scoped13)) :
    iprop(r7ISlotPt d L ![0, 0, 0, 0] r7inbI0 g0 ∗ r7ISlotPt d L ![1, 0, 0, 0] r7inbI1 g1 ∗ ((tailThr d L).loc cc0_scoped13 ↦[r7IRest d L]{fullShare} g))
      ⊢ (∃ f, (tailThr d L).loc cc0_scoped13 ↦{fullShare} f : sProp 𝕄) := by
  iintro ⟨H0, H1, Hr⟩
  ihave Hr' := (pointsTo_join_subset (ℓ := (tailThr d L).loc cc0_scoped13) r7ISub) $$ [H1 Hr]
  · isplitl [H1]; · iexact H1
    iexact Hr
  ihave H := (pointsTo_join_subset (ℓ := (tailThr d L).loc cc0_scoped13) (Finset.subset_univ (r7iSlot ![0, 0, 0, 0] r7inbI0).view.set)) $$ [H0 Hr']
  · isplitl [H0]; · iexact H0
    iexact Hr'
  iexists _; iexact H

omit [FloatOps F] in
theorem r7OBuf_split (f : Buf (Elt F) ((tailThr d L).loc cc0_scoped15)) :
    ((tailThr d L).loc cc0_scoped15 ↦{fullShare} f : sProp 𝕄)
      ⊢ iprop(r7OSlotPt d L ![0, 0, 0, 0, 0] r7inbO0 f ∗ r7OSlotPt d L ![1, 0, 0, 0, 0] r7inbO1 f ∗ ((tailThr d L).loc cc0_scoped15 ↦[r7ORest d L]{fullShare} f)) := by
  iintro H
  ihave H' := (pointsTo_split_subset (Finset.subset_univ (r7oSlot ![0, 0, 0, 0, 0] r7inbO0).view.set)).1 $$ H
  icases H' with ⟨H0, Hr⟩
  ihave Hr' := (pointsTo_split_subset r7OSub).1 $$ Hr
  icases Hr' with ⟨H1, Hr⟩
  isplitl [H0]; · iexact H0
  isplitl [H1]; · iexact H1
  iexact Hr

omit [FloatOps F] in
theorem r7OBuf_join (g0 g1 g : Buf (Elt F) ((tailThr d L).loc cc0_scoped15)) :
    iprop(r7OSlotPt d L ![0, 0, 0, 0, 0] r7inbO0 g0 ∗ r7OSlotPt d L ![1, 0, 0, 0, 0] r7inbO1 g1 ∗ ((tailThr d L).loc cc0_scoped15 ↦[r7ORest d L]{fullShare} g))
      ⊢ (∃ f, (tailThr d L).loc cc0_scoped15 ↦{fullShare} f : sProp 𝕄) := by
  iintro ⟨H0, H1, Hr⟩
  ihave Hr' := (pointsTo_join_subset (ℓ := (tailThr d L).loc cc0_scoped15) r7OSub) $$ [H1 Hr]
  · isplitl [H1]; · iexact H1
    iexact Hr
  ihave H := (pointsTo_join_subset (ℓ := (tailThr d L).loc cc0_scoped15) (Finset.subset_univ (r7oSlot ![0, 0, 0, 0, 0] r7inbO0).view.set)) $$ [H0 Hr']
  · isplitl [H0]; · iexact H0
    iexact Hr'
  iexists _; iexact H

/-! ## Flights under two spellings -/

theorem r7FI_congr {offS offS' : Fin 1 → ℕ} {offL offL' : Fin 4 → ℕ} {offB offB' : Fin 3 → ℕ} (eS : offS = offS') (eL : offL = offL') (eB : offB = offB')
    (hS : ∀ a, offS a + S1.size a ≤ S2.size a) (hL : ∀ a, offL a + S1x1x1x128.size a ≤ S2x1x1x128.size a) (hB : ∀ a, offB a + S1x1x128.size a ≤ S3x50x4096.size a)
    (hS' : ∀ a, offS' a + S1.size a ≤ S2.size a) (hL' : ∀ a, offL' a + S1x1x1x128.size a ≤ S2x1x1x128.size a) (hB' : ∀ a, offB' a + S1x1x128.size a ≤ S3x50x4096.size a)
    (q : PosShare TreeShare) (f : Buf (Elt F) ((Memref.whole cc0_scoped13).view.loc (tailThr d L))) :
    (r7FI m d L offS hS offL hL offB hB q f : sProp 𝕄) = r7FI m d L offS' hS' offL' hL' offB' hB' q f := by subst eS eL eB; rfl
theorem r7good_congr {offL offL' : Fin 4 → ℕ} {offB offB' : Fin 3 → ℕ} (eL : offL = offL') (eB : offB = offB')
    (hL : ∀ a, offL a + S1x1x1x128.size a ≤ S2x1x1x128.size a) (hB : ∀ a, offB a + S1x1x128.size a ≤ S3x50x4096.size a)
    (hL' : ∀ a, offL' a + S1x1x1x128.size a ≤ S2x1x1x128.size a) (hB' : ∀ a, offB' a + S1x1x128.size a ≤ S3x50x4096.size a)
    (f : Buf (Elt F) ((Memref.whole cc0_scoped13).view.loc (tailThr d L))) (h : r7good m d L offL hL offB hB f) : r7good m d L offL' hL' offB' hB' f := by
  subst eL eB; exact h
omit [FloatOps F] in
theorem r7FO_congr {offS offS' : Fin 1 → ℕ} {offB offB' : Fin 4 → ℕ} {offL offL' : Fin 5 → ℕ} (eS : offS = offS') (eB : offB = offB') (eL : offL = offL')
    (hS : ∀ a, offS a + S1.size a ≤ S2.size a) (hB : ∀ a, offB a + S1x1x128x128.size a ≤ S50x3x4096x128.size a) (hL : ∀ a, offL a + S1x1x1x128x128.size a ≤ S2x1x1x128x128.size a)
    (hS' : ∀ a, offS' a + S1.size a ≤ S2.size a) (hB' : ∀ a, offB' a + S1x1x128x128.size a ≤ S50x3x4096x128.size a) (hL' : ∀ a, offL' a + S1x1x1x128x128.size a ≤ S2x1x1x128x128.size a)
    (fB : Buf (Elt F) (oLoc d)) (fL : Buf (Elt F) ((Memref.whole cc0_scoped15).view.loc (tailThr d L))) :
    (r7FO d L offS hS offB hB fB offL hL fL : sProp 𝕄) = r7FO d L offS' hS' offB' hB' fB offL' hL' fL := by subst eS eB eL; rfl

/-! ## In-bounds facts of the program's offsets at any word, and of the canonical blocks -/

omit [FloatOps F] in theorem r7hb4 (a : BitVec 32) : ∀ j, k0_off46 a j + S1x1x1x128.size j ≤ S2x1x1x128.size j := by rw [Arith.off4_eq_r7]; exact Arith.slot4 a
omit [FloatOps F] in theorem r7hb6 (a : BitVec 32) : ∀ j, k0_off48 a j + S1.size j ≤ S2.size j := by rw [Arith.off6_eq_r7]; exact Arith.slot1 a
omit [FloatOps F] in theorem r7hb7 (a : BitVec 32) : ∀ j, k0_off49 a j + S1x1x1x128.size j ≤ S2x1x1x128.size j := by rw [Arith.off7_eq_r7]; exact Arith.slot4 a
omit [FloatOps F] in theorem r7hb9 (a : BitVec 32) : ∀ j, k0_off51 a j + S1.size j ≤ S2.size j := by rw [Arith.off9_eq_r7]; exact Arith.slot1 a
omit [FloatOps F] in theorem r7hb10 (a : BitVec 32) : ∀ j, k0_off52 a j + S1x1x1x128x128.size j ≤ S2x1x1x128x128.size j := by rw [Arith.off10_eq_r7]; exact Arith.slot5 a
omit [FloatOps F] in theorem r7hb11 (a : BitVec 32) : ∀ j, k0_off53 a j + S1x1x1x128.size j ≤ S2x1x1x128.size j := by rw [Arith.off11_eq_r7]; exact Arith.slot4 a
omit [FloatOps F] in theorem r7hb12 (a : BitVec 32) : ∀ j, k0_off54 a j + S1x1x1x128x128.size j ≤ S2x1x1x128x128.size j := by rw [Arith.off12_eq_r7]; exact Arith.slot5 a
omit [FloatOps F] in theorem r7hb14 (a : BitVec 32) : ∀ j, k0_off56 a j + S1.size j ≤ S2.size j := by rw [Arith.off14_eq_r7]; exact Arith.slot1 a
omit [FloatOps F] in theorem r7hb15 (a : BitVec 32) : ∀ j, k0_off57 a j + S1x1x1x128x128.size j ≤ S2x1x1x128x128.size j := by rw [Arith.off15_eq_r7]; exact Arith.slot5 a
omit [FloatOps F] in theorem r7hb17 (a : BitVec 32) : ∀ j, k0_off59 a j + S1.size j ≤ S2.size j := by rw [Arith.off17_eq_r7]; exact Arith.slot1 a

/-- The index block of the tile's trip `u` for this lookup's table. -/
abbrev r7bi (u : Fin 50) : Fin 3 → ℕ := Arith.blkIn 2 L u.val
omit [FloatOps F] in theorem r7bi_inb (u : Fin 50) : ∀ a, r7bi L u a + S1x1x128.size a ≤ S3x50x4096.size a := Arith.blkIn_inb 2 (by decide) L u.val u.isLt
/-- The output block of the tile's trip `u` for this lookup's table. -/
abbrev r7bo (u : Fin 50) : Fin 4 → ℕ := outOff 2 (stp (L 0).val (L 1).val u.val)
omit [FloatOps F] in theorem r7bo_inb (u : Fin 50) : ∀ a, r7bo L u a + S1x1x128x128.size a ≤ S50x3x4096x128.size a :=
  outOff_inb (by decide) (stp_lt (L 0).isLt (L 1).isLt u.isLt)

variable (qi qs : PosShare TreeShare)

/-- The words the loop carries into trip `t`. -/
def r7car (t : ℕ) : BitVec 32 × BitVec 32 × BitVec 32 × BitVec 32 × BitVec 32 :=
  (tailW (min (t + 1) 50), tailW t, tailW t, tailW (t - 1), tailW (t % 50))

/-- Before trip `t < 50`, the index side: the fetch of block `t` in flight into the slot of `t`'s parity, on trip `t`'s
    read token (the rest of that token beside it), the other slot and its semaphore free, every other token whole. -/
def r7idxMid (t : ℕ) : sProp 𝕄 :=
  iprop((∃ fcur, ⌜r7good m d L (k0_off49 (tailW t)) (r7hb7 _) (r7bi L (tailFin t)) (r7bi_inb L _) fcur⌝
        ∗ r7FI m d L (k0_off51 (tailW t)) (r7hb9 _) (k0_off49 (tailW t)) (r7hb7 _) (r7bi L (tailFin t)) (r7bi_inb L _) (shareTok qi 50 (tailFin t)) fcur)
    ∗ (iLoc d ↦[Finset.univ \ (tailIBlk (r7bi L (tailFin t)) (r7bi_inb L _)).view.set]{shareTok qi 50 (tailFin t)} idxT m d)
    ∗ (∃ f, r7ISlotPt d L (k0_off46 (tailW (t + 1))) (r7hb4 _) f)
    ∗ semVal (tailThr d L, SemLoc.dma (tailSem cc0_scoped14 (k0_off48 (tailW (t + 1))) (r7hb6 _))) 0
    ∗ bigSep (Finset.univ.filter fun u : Fin 50 => u.val ≠ t) (tailTokPt m d qi))

/-- After the last trip, the index side: both slots and semaphores free, every token whole. -/
def r7idxEnd (t : ℕ) : sProp 𝕄 :=
  iprop((∃ f, r7ISlotPt d L (k0_off46 (tailW t)) (r7hb4 _) f)
    ∗ semVal (tailThr d L, SemLoc.dma (tailSem cc0_scoped14 (k0_off48 (tailW t)) (r7hb6 _))) 0
    ∗ (∃ f, r7ISlotPt d L (k0_off49 (tailW (t - 1))) (r7hb7 _) f)
    ∗ semVal (tailThr d L, SemLoc.dma (tailSem cc0_scoped14 (k0_off51 (tailW (t - 1))) (r7hb9 _))) 0
    ∗ bigSep Finset.univ (tailTokPt m d qi))

/-- The output side before trip `t`: the copy-out of block `t - 1` in flight (none before trip 0: then the other slot is
    free), the slot of `t`'s parity and its semaphore free, the blocks before `t - 1` at the lookup's values, those from
    `t` on as the launch left them. -/
def r7out (t : ℕ) : sProp 𝕄 :=
  iprop((if t = 0 then iprop((∃ f, r7OSlotPt d L (k0_off52 (tailW (t + 1))) (r7hb10 _) f)
            ∗ semVal (tailThr d L, SemLoc.dma (tailSem cc0_scoped16 (k0_off56 (tailW (t + 1))) (r7hb14 _))) 0)
         else iprop(∃ fbp, r7FO d L (k0_off59 (tailW (t - 1))) (r7hb17 _) (r7bo L (tailFin (t - 1))) (r7bo_inb L _) (outK m d) (k0_off57 (tailW (t - 1))) (r7hb15 _) fbp))
    ∗ (∃ f, r7OSlotPt d L (k0_off52 (tailW t)) (r7hb10 _) f)
    ∗ semVal (tailThr d L, SemLoc.dma (tailSem cc0_scoped16 (k0_off56 (tailW t)) (r7hb14 _))) 0
    ∗ bigSep (Finset.univ.filter fun u : Fin 50 => u.val + 1 < t) (fun u => tailOPt d L 2 u (outK m d))
    ∗ bigSep (Finset.univ.filter fun u : Fin 50 => t ≤ u.val) (fun u => tailOPt d L 2 u (m (oLoc d))))

/-- The loop's invariant. -/
def r7inv (t : ℕ) (acc : BitVec 32 × BitVec 32 × BitVec 32 × BitVec 32 × BitVec 32) : sProp 𝕄 :=
  iprop(⌜acc = r7car t⌝ ∗ Transfers.MayWaits (tailThr d L) (default : HIx 1) O ∗ r7Tab m d L qs
    ∗ semVal (tailThr d L, SemLoc.dma cc0_scoped17.sem) 0
    ∗ (if t < 50 then r7idxMid m d L qi t else r7idxEnd m d L qi t)
    ∗ r7out m d L t
    ∗ ∃ W', ⌜∀ p ∈ W', p ∈ W ∨ p.2 = none⌝ ∗ owes (tailThr d L) O W')

end Cert.Proof.K

end
-- ==== Proof.KTailR7V.lean ====
/-
  The values one step of the third lookup leaves in its output block: the block holds the lookup's values for table 2.
  The argument is the first lookup's, over this lookup's buffers and table: an index of the block with rows y and lanes e
  sits under the same rows and lanes of the row slot, the slot there holds the gathered row named by the y-th word of
  the index slot, and that word is the index word of the block's own step.
-/
import proofs.«206595_g34437047779621_cont_8to1_b_428_16_alg».proof.Proof.KTailR7D
import proofs.«206595_g34437047779621_cont_8to1_b_428_16_alg».proof.Proof.KTailR3V

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

theorem r7out_value (o10 : Fin 5 → ℕ) (b10 : ∀ a, o10 a + S1x1x1x128x128.size a ≤ S2x1x1x128x128.size a)
    (o11 : Fin 4 → ℕ) (b11 : ∀ a, o11 a + S1x1x1x128.size a ≤ S2x1x1x128.size a)
    (o8 : Fin 3 → ℕ) (b8 : ∀ a, o8 a + S1x1x128.size a ≤ S3x50x4096.size a)
    (o13 : Fin 4 → ℕ) (b13 : ∀ a, o13 a + S1x1x128x128.size a ≤ S50x3x4096x128.size a)
    (h0 : o8 0 = 2) (h130 : o13 0 = o8 1) (h131 : o13 1 = 2) (h132 : o13 2 = o8 2) (h133 : o13 3 = 0)
    (fcur : Buf (Elt F) ((Memref.whole cc0_scoped13).view.loc (tailThr d L))) (hgood : r7good m d L o11 b11 o8 b8 fcur)
    (hx : Cert.Lookup.InRange (m (xLoc d) : IVec Cert.Lookup.SX 32))
    (fb : Buf (Elt F) ((Memref.whole cc0_scoped15).view.loc (tailThr d L))) (fo : Buf (Elt F) (oLoc d))
    (hn : S128.numel = S128x128.size gathers_S1001x128_S128x128.axis')
    (hin : ∀ x, (View.read (Elt F) (r7list o11 b11).view fcur x).toNat < S1001x128.size gathers_S1001x128_S128x128.axis) :
    ∀ i ∈ (tailOBlk o13 b13).view.set,
      (tailOBlk o13 b13).view.writes (Elt F) fo
        [⟨Rect.whole S1x1x128x128,
          ReadAs.same.apply (View.read (Elt F) ((r7oSlot o10 b10).squeeze S1x1x128x128 squeezes_S1x1x1x128x128_S1x1x128x128).view
            (View.write (Elt F)
              ((((r7oSlot o10 b10).squeeze S1x1x128x128 squeezes_S1x1x1x128x128_S1x1x128x128).slice
                  (Rect.unit (s := S1x1x128x128) ![0, 0, 0, 0] S1x1x128x128.size inb_S1x1x128x128_S1x1x128x128_0_0_0_0) (fun _ => rfl)).squeeze S128x128 squeezes_S1x1x128x128_S128x128).view
              fb
              (SparseCore.gatherPayload gathers_S1001x128_S128x128
                (View.read (Elt F) ((Memref.whole cc0_scratch2).slice (Rect.unit (s := S1001x128) ![0, 0] S1001x128.size inb_S1001x128_S1001x128_0_0) (fun _ => rfl)).view
                  (m (w2Loc d) : Buf (Elt F) (sh2Loc d (cV L))))
                (SparseCore.rows (View.read (Elt F) (r7list o11 b11).view fcur) hn hin))
              Finset.univ))⟩] i
        = outK m d i := by
  intro i hi
  obtain ⟨y, -, rfl⟩ := Finset.mem_map.mp hi
  refine (congrFun (View.write_univ_eq_writes_whole (Val := Elt F) (tailOBlk o13 b13).view fo [] _).symm _).trans ?_
  rw [View.writes_nil, View.write_emb_of_mem _ _ (Finset.mem_univ _)]
  obtain ⟨y2, rfl⟩ : ∃ y2 : S128x128.Idx, y = Shape.reshapeEquiv squeezes_S1x1x128x128_S128x128.numel_eq y2 :=
    ⟨_, (Equiv.apply_symm_apply _ _).symm⟩
  obtain ⟨q0, q1, q2, q3⟩ := resh_2to4 squeezes_S1x1x128x128_S128x128.numel_eq y2
  -- the slot's element under the block's index is the gather's destination element under the same rows and lanes
  have e : ((r7oSlot o10 b10).squeeze S1x1x128x128 squeezes_S1x1x1x128x128_S1x1x128x128).view.emb
        (Shape.reshapeEquiv squeezes_S1x1x128x128_S128x128.numel_eq y2)
      = ((((r7oSlot o10 b10).squeeze S1x1x128x128 squeezes_S1x1x1x128x128_S1x1x128x128).slice
            (Rect.unit (s := S1x1x128x128) ![0, 0, 0, 0] S1x1x128x128.size inb_S1x1x128x128_S1x1x128x128_0_0_0_0) (fun _ => rfl)).squeeze
          S128x128 squeezes_S1x1x128x128_S128x128).view.emb y2 := by
    show _ = ((r7oSlot o10 b10).squeeze S1x1x128x128 squeezes_S1x1x1x128x128_S1x1x128x128).view.emb
      ((Rect.unit (s := S1x1x128x128) ![0, 0, 0, 0] S1x1x128x128.size inb_S1x1x128x128_S1x1x128x128_0_0_0_0).emb
        (Shape.reshapeEquiv squeezes_S1x1x128x128_S128x128.numel_eq y2))
    rw [unit0_emb4]
  rw [ReadAs.apply_same, View.read_apply, e, View.write_emb_of_mem _ _ (Finset.mem_univ _)]
  simp only [cast_cast, cast_eq]
  refine val_gather m d 2 (o8 1) (o8 2) hx _ (fun j => ?_) _ (fun x j hj0 hj1 hj2 => ?_) hn hin (by decide) y2 _ ?_ ?_ ?_ ?_
  · -- the table as the gather reads it is the third table
    refine (View.read_apply _ _).trans ((cast_eq _ _).trans ?_)
    show (m (w2Loc d)) ((Rect.unit (s := S1001x128) ![0, 0] S1001x128.size inb_S1001x128_S1001x128_0_0).emb j) = (m (w2Loc d)) j
    rw [unit0_emb2]
  · -- the list's word x is the index word at (2, o8 1, o8 2 + x)
    obtain ⟨r0, r1, r2⟩ := resh_1to3 tail_numel128 x
    rw [hgood x, View.read_apply, cast_eq]
    refine congrArg _ (funext fun a => Fin.ext ?_)
    match a with
    | ⟨0, _⟩ =>
      show o8 0 + 1 * ((Shape.reshapeEquiv tail_numel128 x) 0).val = (j 0).val
      omega
    | ⟨1, _⟩ =>
      show o8 1 + 1 * ((Shape.reshapeEquiv tail_numel128 x) 1).val = (j 1).val
      omega
    | ⟨2, _⟩ =>
      show o8 2 + 1 * ((Shape.reshapeEquiv tail_numel128 x) 2).val = (j 2).val
      omega
  · show o13 0 + 1 * ((Shape.reshapeEquiv squeezes_S1x1x128x128_S128x128.numel_eq y2) 0).val = o8 1
    omega
  · show o13 1 + 1 * ((Shape.reshapeEquiv squeezes_S1x1x128x128_S128x128.numel_eq y2) 1).val = 2
    omega
  · show o13 2 + 1 * ((Shape.reshapeEquiv squeezes_S1x1x128x128_S128x128.numel_eq y2) 2).val = o8 2 + (y2 0).val
    omega
  · show o13 3 + 1 * ((Shape.reshapeEquiv squeezes_S1x1x128x128_S128x128.numel_eq y2) 3).val = (y2 1).val
    omega

end Cert.Proof.K
end
-- ==== Proof.KTailR7C.lean ====
/-
  One trip of the third lookup's loop, run from the pieces the trip touches: the middle trips, the first (no copy-out
  to wait for) and the last (no fetch to start).
-/
import proofs.«206595_g34437047779621_cont_8to1_b_428_16_alg».proof.Proof.KTailR7D
import proofs.«206595_g34437047779621_cont_8to1_b_428_16_alg».proof.Proof.KTailR7V

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

variable (O : CellTallies nD τ sig (HIx 1)) (W : Waits sig (HIx 1))

set_option maxHeartbeats 4000000 in
theorem r7coreM (t : Fin k0_t3_loop.trips) (h1t : 1 ≤ t.val) (ht : t.val < 49)
    (o4 : Fin 4 → ℕ) (e4 : k0_off46 (tailW (t.val + 1)) = o4) (b4 : ∀ a, o4 a + S1x1x1x128.size a ≤ S2x1x1x128.size a)
    (o5 : Fin 3 → ℕ) (e5 : k0_off47 L (tailW t.val) = o5) (b5 : ∀ a, o5 a + S1x1x128.size a ≤ S3x50x4096.size a)
    (o6 : Fin 1 → ℕ) (e6 : k0_off48 (tailW (t.val + 1)) = o6) (b6 : ∀ a, o6 a + S1.size a ≤ S2.size a)
    (o7 : Fin 4 → ℕ) (e7 : k0_off49 (tailW t.val) = o7) (b7 : ∀ a, o7 a + S1x1x1x128.size a ≤ S2x1x1x128.size a)
    (o8 : Fin 3 → ℕ) (e8 : k0_off50 L (tailW t.val) = o8) (b8 : ∀ a, o8 a + S1x1x128.size a ≤ S3x50x4096.size a)
    (o9 : Fin 1 → ℕ) (e9 : k0_off51 (tailW t.val) = o9) (b9 : ∀ a, o9 a + S1.size a ≤ S2.size a)
    (o10 : Fin 5 → ℕ) (e10 : k0_off52 (tailW t.val) = o10) (b10 : ∀ a, o10 a + S1x1x1x128x128.size a ≤ S2x1x1x128x128.size a)
    (o13 : Fin 4 → ℕ) (e13 : k0_off55 L (tailW t.val) = o13) (b13 : ∀ a, o13 a + S1x1x128x128.size a ≤ S50x3x4096x128.size a)
    (o14 : Fin 1 → ℕ) (e14 : k0_off56 (tailW t.val) = o14) (b14 : ∀ a, o14 a + S1.size a ≤ S2.size a)
    (o15 : Fin 5 → ℕ) (e15 : k0_off57 (tailW (t.val - 1)) = o15) (b15 : ∀ a, o15 a + S1x1x1x128x128.size a ≤ S2x1x1x128x128.size a)
    (o16 : Fin 4 → ℕ) (e16 : k0_off58 L (tailW t.val) = o16) (b16 : ∀ a, o16 a + S1x1x128x128.size a ≤ S50x3x4096x128.size a)
    (o17 : Fin 1 → ℕ) (e17 : k0_off59 (tailW (t.val - 1)) = o17) (b17 : ∀ a, o17 a + S1.size a ≤ S2.size a)
    (qn qc qs : PosShare TreeShare)
    (fcur : Buf (Elt F) ((Memref.whole cc0_scoped13).view.loc (tailThr d L)))
    (hgood : r7good m d L o7 b7 o8 b8 fcur)
    (hx : Cert.Lookup.InRange (m (xLoc d) : IVec Cert.Lookup.SX 32)) :
    (iprop(Transfers.MayWaits (tailThr d L) (default : HIx 1) O
        ∗ ((tailIBlk o5 b5).view.loc (tailThr d L) ↦[(tailIBlk o5 b5).view.set]{qn} idxT m d)
        ∗ (∃ fa, r7ISlotPt d L o4 b4 fa)
        ∗ semVal (tailThr d L, SemLoc.dma (tailSem cc0_scoped14 o6 b6)) 0
        ∗ r7FI m d L o9 b9 o7 b7 o8 b8 qc fcur
        ∗ r7Tab m d L qs
        ∗ (∃ fb, r7OSlotPt d L o10 b10 fb)
        ∗ semVal (tailThr d L, SemLoc.dma cc0_scoped17.sem) 0
        ∗ ((tailOBlk o13 b13).view.loc (tailThr d L) ↦[(tailOBlk o13 b13).view.set]{fullShare} m (oLoc d))
        ∗ semVal (tailThr d L, SemLoc.dma (tailSem cc0_scoped16 o14 b14)) 0
        ∗ (∃ fbp, r7FO d L o17 b17 o16 b16 (outK m d) o15 b15 fbp)
        ∗ owes (tailThr d L) O W) : sProp 𝕄)
      ⊢ wp frame (wpE (defs₀ (F := F)) 𝒱₀ (tailThr d L) none) Set.univ
          (k0_t3_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r7v7 L) t (tailW (t.val + 1), tailW t.val, tailW t.val, tailW (t.val - 1), tailW t.val))
          fun acc => iprop(⌜acc = (tailW (t.val + 2), tailW (t.val + 1), tailW (t.val + 1), tailW t.val, tailW (t.val + 1))⌝
            ∗ (∃ fnew, ⌜r7good m d L o4 b4 o5 b5 fnew⌝ ∗ r7FI m d L o6 b6 o4 b4 o5 b5 qn fnew)
            ∗ ((tailIBlk o8 b8).view.loc (tailThr d L) ↦[(tailIBlk o8 b8).view.set]{qc} idxT m d)
            ∗ semVal (tailThr d L, SemLoc.dma (tailSem cc0_scoped14 o9 b9)) 0
            ∗ r7ISlotPt d L o7 b7 fcur
            ∗ r7Tab m d L qs
            ∗ semVal (tailThr d L, SemLoc.dma cc0_scoped17.sem) 0
            ∗ (∃ fg, r7FO d L o14 b14 o13 b13 (outK m d) o10 b10 fg)
            ∗ ((tailOBlk o16 b16).view.loc (tailThr d L) ↦[(tailOBlk o16 b16).view.set]{fullShare} outK m d)
            ∗ (∃ f, r7OSlotPt d L o15 b15 f)
            ∗ semVal (tailThr d L, SemLoc.dma (tailSem cc0_scoped16 o17 b17)) 0
            ∗ ∃ W', ⌜∀ p ∈ W', p ∈ W ∨ p.2 = none⌝ ∗ owes (tailThr d L) O W') := by
  subst e4 e5 e6 e7 e8 e9 e10 e13 e14 e15 e16 e17
  have hc2 : k0_cond16 L t (tailW t.val) = 1#1 := by rw [Arith.cond2_eq_r7, if_pos (by omega)]
  have hc3 : k0_cond17 L t (tailW t.val) = 1#1 := Arith.cond3_eq_r7 L t
  have hc6 : k0_cond20 L t (tailW t.val) = 1#1 := Arith.cond6_eq_r7 L t
  have hc8 : k0_cond22 L t (tailW t.val) = 1#1 := by rw [Arith.cond8_eq_r7, if_pos (by omega)]
  have h3 : k0_chk13 (tailW t.val) := Arith.chk3_all_r7 _
  have h2 : k0_chk12 (tailW t.val) := Arith.chk2_all_r7 _
  have h1 : k0_chk11 L t (tailW (t.val + 1)) (tailW t.val) (tailW t.val) (tailW (t.val - 1)) (tailW t.val) := Arith.chk1_inv_r7 L t
  have hin : ∀ x, (View.read (Elt F) (r7list (k0_off53 (tailW t.val)) (r7hb11 _)).view fcur x).toNat < 1001 := by
    intro x
    have e' : View.read (Elt F) (r7list (k0_off53 (tailW t.val)) (r7hb11 _)).view fcur x
        = ((tailIBlk (k0_off50 L (tailW t.val)) b8).view.reshape S128 tail_numel128).read (Elt F) (idxT m d) x := hgood x
    rw [e']
    have := tailI_le m d (k0_off50 L (tailW t.val)) b8 hx x
    omega
  iintro ⟨#Hmw, HIn, ⟨%fa, HSn⟩, Hsn, HFI, HT, ⟨%fb, HOS⟩, Hs7, HOB, Hso, ⟨%fbp, HFO⟩, Hw⟩
  sl_unfold [k0_t3_body]
  sl_exec
  have hret : ∀ (L : grid0.Coords) (t : Fin k0_t3_loop.trips), 1 ≤ t.val → t.val < 49 →
      (r7coreM.sl.v215_r7 L t, r7coreM.sl.v389_r7 L t, r7coreM.sl.v365_r7 L t, r7coreM.sl.v383_r7 L t, r7coreM.sl.v144_r7 t)
        = (tailW (t.val + 2), tailW (t.val + 1), tailW (t.val + 1), tailW t.val, tailW (t.val + 1)) := by
    decide +kernel
  sl_step
  isplitr
  · ipureintro; exact hret L t h1t ht
  isplitl [Hsn]
  · iexists (r7coreM.sl.HSn_w0 m d L t hc2 h1 fa)
    isplitr
    · ipureintro; exact r7good_write m d L _ _ _ _ fa
    · iexact Hsn
  isplitl [HFI_src]; · iexact HFI_src
  isplitl [HFI]; · iexact HFI
  isplitl [HFI_dst HFI_dst_win]
  · iapply (pointsTo_split_subset (r7list_subset (k0_off49 (tailW t.val)) b7)).2
    isplitl [HFI_dst_win]; · iexact HFI_dst_win
    iexact HFI_dst
  isplitl [HT]; · iexact HT
  isplitl [Hs7]; · iexact Hs7
  isplitl [Hso]
  · iexists _
    iapply (r7FO_fix d L _ _ _ _ ((tailOBlk (k0_off55 L (tailW t.val)) b13).view.writes (Elt F) (m (oLoc d)) [⟨Rect.whole S1x1x128x128, r7coreM.sl.dma0_1 m d L t fcur hc6 h3 h2 h1 hin fb⟩]) (outK m d) (k0_off52 (tailW t.val)) (k0_off54 (tailW t.val)) _ (r7hb12 _) _ (r7out_value m d L (k0_off52 (tailW t.val)) b10 (k0_off53 (tailW t.val)) (r7hb11 _) (k0_off50 L (tailW t.val)) b8 (k0_off55 L (tailW t.val)) b13 (by rw [Arith.off8_eq_r7 L t.val (by omega)]; rfl) (by rw [Arith.off8_eq_r7 L t.val (by omega), Arith.off13_eq_r7 L t.val (by omega)]; rfl) (by rw [Arith.off13_eq_r7 L t.val (by omega)]; rfl) (by rw [Arith.off8_eq_r7 L t.val (by omega), Arith.off13_eq_r7 L t.val (by omega)]; rfl) (by rw [Arith.off13_eq_r7 L t.val (by omega)]; rfl) fcur hgood hx fb (m (oLoc d)) _ hin) (show k0_off54 (tailW t.val) = k0_off52 (tailW t.val) from rfl)) $$ Hso
  isplitl [HFO_dst]; · iexact HFO_dst
  isplitl [HFO_src]; · iexists _; iexact HFO_src
  isplitl [HFO]; · iexact HFO
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

set_option maxHeartbeats 4000000 in
theorem r7core0 (t : Fin k0_t3_loop.trips) (ht0 : t.val = 0)
    (o4 : Fin 4 → ℕ) (e4 : k0_off46 (tailW (t.val + 1)) = o4) (b4 : ∀ a, o4 a + S1x1x1x128.size a ≤ S2x1x1x128.size a)
    (o5 : Fin 3 → ℕ) (e5 : k0_off47 L (tailW t.val) = o5) (b5 : ∀ a, o5 a + S1x1x128.size a ≤ S3x50x4096.size a)
    (o6 : Fin 1 → ℕ) (e6 : k0_off48 (tailW (t.val + 1)) = o6) (b6 : ∀ a, o6 a + S1.size a ≤ S2.size a)
    (o7 : Fin 4 → ℕ) (e7 : k0_off49 (tailW t.val) = o7) (b7 : ∀ a, o7 a + S1x1x1x128.size a ≤ S2x1x1x128.size a)
    (o8 : Fin 3 → ℕ) (e8 : k0_off50 L (tailW t.val) = o8) (b8 : ∀ a, o8 a + S1x1x128.size a ≤ S3x50x4096.size a)
    (o9 : Fin 1 → ℕ) (e9 : k0_off51 (tailW t.val) = o9) (b9 : ∀ a, o9 a + S1.size a ≤ S2.size a)
    (o10 : Fin 5 → ℕ) (e10 : k0_off52 (tailW t.val) = o10) (b10 : ∀ a, o10 a + S1x1x1x128x128.size a ≤ S2x1x1x128x128.size a)
    (o13 : Fin 4 → ℕ) (e13 : k0_off55 L (tailW t.val) = o13) (b13 : ∀ a, o13 a + S1x1x128x128.size a ≤ S50x3x4096x128.size a)
    (o14 : Fin 1 → ℕ) (e14 : k0_off56 (tailW t.val) = o14) (b14 : ∀ a, o14 a + S1.size a ≤ S2.size a)
    (qn qc qs : PosShare TreeShare)
    (fcur : Buf (Elt F) ((Memref.whole cc0_scoped13).view.loc (tailThr d L)))
    (hgood : r7good m d L o7 b7 o8 b8 fcur)
    (hx : Cert.Lookup.InRange (m (xLoc d) : IVec Cert.Lookup.SX 32)) :
    (iprop(Transfers.MayWaits (tailThr d L) (default : HIx 1) O
        ∗ ((tailIBlk o5 b5).view.loc (tailThr d L) ↦[(tailIBlk o5 b5).view.set]{qn} idxT m d)
        ∗ (∃ fa, r7ISlotPt d L o4 b4 fa)
        ∗ semVal (tailThr d L, SemLoc.dma (tailSem cc0_scoped14 o6 b6)) 0
        ∗ r7FI m d L o9 b9 o7 b7 o8 b8 qc fcur
        ∗ r7Tab m d L qs
        ∗ (∃ fb, r7OSlotPt d L o10 b10 fb)
        ∗ semVal (tailThr d L, SemLoc.dma cc0_scoped17.sem) 0
        ∗ ((tailOBlk o13 b13).view.loc (tailThr d L) ↦[(tailOBlk o13 b13).view.set]{fullShare} m (oLoc d))
        ∗ semVal (tailThr d L, SemLoc.dma (tailSem cc0_scoped16 o14 b14)) 0
        ∗ owes (tailThr d L) O W) : sProp 𝕄)
      ⊢ wp frame (wpE (defs₀ (F := F)) 𝒱₀ (tailThr d L) none) Set.univ
          (k0_t3_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r7v7 L) t (tailW (t.val + 1), tailW t.val, tailW t.val, tailW (t.val - 1), tailW t.val))
          fun acc => iprop(⌜acc = (tailW (t.val + 2), tailW (t.val + 1), tailW (t.val + 1), tailW t.val, tailW (t.val + 1))⌝
            ∗ (∃ fnew, ⌜r7good m d L o4 b4 o5 b5 fnew⌝ ∗ r7FI m d L o6 b6 o4 b4 o5 b5 qn fnew)
            ∗ ((tailIBlk o8 b8).view.loc (tailThr d L) ↦[(tailIBlk o8 b8).view.set]{qc} idxT m d)
            ∗ semVal (tailThr d L, SemLoc.dma (tailSem cc0_scoped14 o9 b9)) 0
            ∗ r7ISlotPt d L o7 b7 fcur
            ∗ r7Tab m d L qs
            ∗ semVal (tailThr d L, SemLoc.dma cc0_scoped17.sem) 0
            ∗ (∃ fg, r7FO d L o14 b14 o13 b13 (outK m d) o10 b10 fg)
            ∗ ∃ W', ⌜∀ p ∈ W', p ∈ W ∨ p.2 = none⌝ ∗ owes (tailThr d L) O W') := by
  subst e4 e5 e6 e7 e8 e9 e10 e13 e14
  have hc2 : k0_cond16 L t (tailW t.val) = 1#1 := by rw [Arith.cond2_eq_r7, if_pos (by omega)]
  have hc3 : k0_cond17 L t (tailW t.val) = 1#1 := Arith.cond3_eq_r7 L t
  have hc6 : k0_cond20 L t (tailW t.val) = 1#1 := Arith.cond6_eq_r7 L t
  have hc8 : ¬ k0_cond22 L t (tailW t.val) = 1#1 := by rw [Arith.cond8_eq_r7, if_neg (by omega)]; decide
  have h3 : k0_chk13 (tailW t.val) := Arith.chk3_all_r7 _
  have h2 : k0_chk12 (tailW t.val) := Arith.chk2_all_r7 _
  have h1 : k0_chk11 L t (tailW (t.val + 1)) (tailW t.val) (tailW t.val) (tailW (t.val - 1)) (tailW t.val) := Arith.chk1_inv_r7 L t
  have hin : ∀ x, (View.read (Elt F) (r7list (k0_off53 (tailW t.val)) (r7hb11 _)).view fcur x).toNat < 1001 := by
    intro x
    have e' : View.read (Elt F) (r7list (k0_off53 (tailW t.val)) (r7hb11 _)).view fcur x
        = ((tailIBlk (k0_off50 L (tailW t.val)) b8).view.reshape S128 tail_numel128).read (Elt F) (idxT m d) x := hgood x
    rw [e']
    have := tailI_le m d (k0_off50 L (tailW t.val)) b8 hx x
    omega
  iintro ⟨#Hmw, HIn, ⟨%fa, HSn⟩, Hsn, HFI, HT, ⟨%fb, HOS⟩, Hs7, HOB, Hso, Hw⟩
  sl_unfold [k0_t3_body]
  sl_exec
  have hret : ∀ (L : grid0.Coords) (t : Fin k0_t3_loop.trips), t.val = 0 →
      (r7core0.sl.v215_r7 L t, r7core0.sl.v389_r7 L t, r7core0.sl.v365_r7 L t, r7core0.sl.v383_r7 L t, r7core0.sl.v144_r7 t)
        = (tailW (t.val + 2), tailW (t.val + 1), tailW (t.val + 1), tailW t.val, tailW (t.val + 1)) := by
    decide +kernel
  sl_step
  isplitr
  · ipureintro; exact hret L t ht0
  isplitl [Hsn]
  · iexists (r7core0.sl.HSn_w0 m d L t hc2 h1 fa)
    isplitr
    · ipureintro; exact r7good_write m d L _ _ _ _ fa
    · iexact Hsn
  isplitl [HFI_src]; · iexact HFI_src
  isplitl [HFI]; · iexact HFI
  isplitl [HFI_dst HFI_dst_win]
  · iapply (pointsTo_split_subset (r7list_subset (k0_off49 (tailW t.val)) b7)).2
    isplitl [HFI_dst_win]; · iexact HFI_dst_win
    iexact HFI_dst
  isplitl [HT]; · iexact HT
  isplitl [Hs7]; · iexact Hs7
  isplitl [Hso]
  · iexists _
    iapply (r7FO_fix d L _ _ _ _ ((tailOBlk (k0_off55 L (tailW t.val)) b13).view.writes (Elt F) (m (oLoc d)) [⟨Rect.whole S1x1x128x128, r7core0.sl.dma0_1 m d L t fcur hc6 h3 h2 h1 hin fb⟩]) (outK m d) (k0_off52 (tailW t.val)) (k0_off54 (tailW t.val)) _ (r7hb12 _) _ (r7out_value m d L (k0_off52 (tailW t.val)) b10 (k0_off53 (tailW t.val)) (r7hb11 _) (k0_off50 L (tailW t.val)) b8 (k0_off55 L (tailW t.val)) b13 (by rw [Arith.off8_eq_r7 L t.val (by omega)]; rfl) (by rw [Arith.off8_eq_r7 L t.val (by omega), Arith.off13_eq_r7 L t.val (by omega)]; rfl) (by rw [Arith.off13_eq_r7 L t.val (by omega)]; rfl) (by rw [Arith.off8_eq_r7 L t.val (by omega), Arith.off13_eq_r7 L t.val (by omega)]; rfl) (by rw [Arith.off13_eq_r7 L t.val (by omega)]; rfl) fcur hgood hx fb (m (oLoc d)) _ hin) (show k0_off54 (tailW t.val) = k0_off52 (tailW t.val) from rfl)) $$ Hso
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    · exact .inl hp

set_option maxHeartbeats 4000000 in
theorem r7coreE (t : Fin k0_t3_loop.trips) (ht49 : t.val = 49)
    (o7 : Fin 4 → ℕ) (e7 : k0_off49 (tailW t.val) = o7) (b7 : ∀ a, o7 a + S1x1x1x128.size a ≤ S2x1x1x128.size a)
    (o8 : Fin 3 → ℕ) (e8 : k0_off50 L (tailW t.val) = o8) (b8 : ∀ a, o8 a + S1x1x128.size a ≤ S3x50x4096.size a)
    (o9 : Fin 1 → ℕ) (e9 : k0_off51 (tailW t.val) = o9) (b9 : ∀ a, o9 a + S1.size a ≤ S2.size a)
    (o10 : Fin 5 → ℕ) (e10 : k0_off52 (tailW t.val) = o10) (b10 : ∀ a, o10 a + S1x1x1x128x128.size a ≤ S2x1x1x128x128.size a)
    (o13 : Fin 4 → ℕ) (e13 : k0_off55 L (tailW t.val) = o13) (b13 : ∀ a, o13 a + S1x1x128x128.size a ≤ S50x3x4096x128.size a)
    (o14 : Fin 1 → ℕ) (e14 : k0_off56 (tailW t.val) = o14) (b14 : ∀ a, o14 a + S1.size a ≤ S2.size a)
    (o15 : Fin 5 → ℕ) (e15 : k0_off57 (tailW (t.val - 1)) = o15) (b15 : ∀ a, o15 a + S1x1x1x128x128.size a ≤ S2x1x1x128x128.size a)
    (o16 : Fin 4 → ℕ) (e16 : k0_off58 L (tailW t.val) = o16) (b16 : ∀ a, o16 a + S1x1x128x128.size a ≤ S50x3x4096x128.size a)
    (o17 : Fin 1 → ℕ) (e17 : k0_off59 (tailW (t.val - 1)) = o17) (b17 : ∀ a, o17 a + S1.size a ≤ S2.size a)
    (qn qc qs : PosShare TreeShare)
    (fcur : Buf (Elt F) ((Memref.whole cc0_scoped13).view.loc (tailThr d L)))
    (hgood : r7good m d L o7 b7 o8 b8 fcur)
    (hx : Cert.Lookup.InRange (m (xLoc d) : IVec Cert.Lookup.SX 32)) :
    (iprop(Transfers.MayWaits (tailThr d L) (default : HIx 1) O
        ∗ r7FI m d L o9 b9 o7 b7 o8 b8 qc fcur
        ∗ r7Tab m d L qs
        ∗ (∃ fb, r7OSlotPt d L o10 b10 fb)
        ∗ semVal (tailThr d L, SemLoc.dma cc0_scoped17.sem) 0
        ∗ ((tailOBlk o13 b13).view.loc (tailThr d L) ↦[(tailOBlk o13 b13).view.set]{fullShare} m (oLoc d))
        ∗ semVal (tailThr d L, SemLoc.dma (tailSem cc0_scoped16 o14 b14)) 0
        ∗ (∃ fbp, r7FO d L o17 b17 o16 b16 (outK m d) o15 b15 fbp)
        ∗ owes (tailThr d L) O W) : sProp 𝕄)
      ⊢ wp frame (wpE (defs₀ (F := F)) 𝒱₀ (tailThr d L) none) Set.univ
          (k0_t3_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r7v7 L) t (tailW (t.val + 1), tailW t.val, tailW t.val, tailW (t.val - 1), tailW t.val))
          fun acc => iprop(⌜acc = (tailW (t.val + 1), tailW (t.val + 1), tailW (t.val + 1), tailW t.val, tailW 0)⌝
            ∗ ((tailIBlk o8 b8).view.loc (tailThr d L) ↦[(tailIBlk o8 b8).view.set]{qc} idxT m d)
            ∗ semVal (tailThr d L, SemLoc.dma (tailSem cc0_scoped14 o9 b9)) 0
            ∗ r7ISlotPt d L o7 b7 fcur
            ∗ r7Tab m d L qs
            ∗ semVal (tailThr d L, SemLoc.dma cc0_scoped17.sem) 0
            ∗ (∃ fg, r7FO d L o14 b14 o13 b13 (outK m d) o10 b10 fg)
            ∗ ((tailOBlk o16 b16).view.loc (tailThr d L) ↦[(tailOBlk o16 b16).view.set]{fullShare} outK m d)
            ∗ (∃ f, r7OSlotPt d L o15 b15 f)
            ∗ semVal (tailThr d L, SemLoc.dma (tailSem cc0_scoped16 o17 b17)) 0
            ∗ ∃ W', ⌜∀ p ∈ W', p ∈ W ∨ p.2 = none⌝ ∗ owes (tailThr d L) O W') := by
  subst e7 e8 e9 e10 e13 e14 e15 e16 e17
  have hc2 : ¬ k0_cond16 L t (tailW t.val) = 1#1 := by rw [Arith.cond2_eq_r7, if_neg (by omega)]; decide
  have hc3 : k0_cond17 L t (tailW t.val) = 1#1 := Arith.cond3_eq_r7 L t
  have hc6 : k0_cond20 L t (tailW t.val) = 1#1 := Arith.cond6_eq_r7 L t
  have hc8 : k0_cond22 L t (tailW t.val) = 1#1 := by rw [Arith.cond8_eq_r7, if_pos (by omega)]
  have h3 : k0_chk13 (tailW t.val) := Arith.chk3_all_r7 _
  have h2 : k0_chk12 (tailW t.val) := Arith.chk2_all_r7 _
  have h1 : k0_chk11 L t (tailW (t.val + 1)) (tailW t.val) (tailW t.val) (tailW (t.val - 1)) (tailW t.val) := Arith.chk1_inv_r7 L t
  have hin : ∀ x, (View.read (Elt F) (r7list (k0_off53 (tailW t.val)) (r7hb11 _)).view fcur x).toNat < 1001 := by
    intro x
    have e' : View.read (Elt F) (r7list (k0_off53 (tailW t.val)) (r7hb11 _)).view fcur x
        = ((tailIBlk (k0_off50 L (tailW t.val)) b8).view.reshape S128 tail_numel128).read (Elt F) (idxT m d) x := hgood x
    rw [e']
    have := tailI_le m d (k0_off50 L (tailW t.val)) b8 hx x
    omega
  iintro ⟨#Hmw, HFI, HT, ⟨%fb, HOS⟩, Hs7, HOB, Hso, ⟨%fbp, HFO⟩, Hw⟩
  sl_unfold [k0_t3_body]
  sl_exec
  have hret : ∀ (L : grid0.Coords) (t : Fin k0_t3_loop.trips), t.val = 49 →
      (r7coreE.sl.v215_r7 L t, r7coreE.sl.v389_r7 L t, r7coreE.sl.v365_r7 L t, r7coreE.sl.v383_r7 L t, r7coreE.sl.v144_r7 t)
        = (tailW (t.val + 1), tailW (t.val + 1), tailW (t.val + 1), tailW t.val, tailW 0) := by
    decide +kernel
  sl_step
  isplitr
  · ipureintro; exact hret L t ht49
  isplitl [HFI_src]; · iexact HFI_src
  isplitl [HFI]; · iexact HFI
  isplitl [HFI_dst HFI_dst_win]
  · iapply (pointsTo_split_subset (r7list_subset (k0_off49 (tailW t.val)) b7)).2
    isplitl [HFI_dst_win]; · iexact HFI_dst_win
    iexact HFI_dst
  isplitl [HT]; · iexact HT
  isplitl [Hs7]; · iexact Hs7
  isplitl [Hso]
  · iexists _
    iapply (r7FO_fix d L _ _ _ _ ((tailOBlk (k0_off55 L (tailW t.val)) b13).view.writes (Elt F) (m (oLoc d)) [⟨Rect.whole S1x1x128x128, r7coreE.sl.dma0 m d L t fcur hc6 h3 h2 h1 hin fb⟩]) (outK m d) (k0_off52 (tailW t.val)) (k0_off54 (tailW t.val)) _ (r7hb12 _) _ (r7out_value m d L (k0_off52 (tailW t.val)) b10 (k0_off53 (tailW t.val)) (r7hb11 _) (k0_off50 L (tailW t.val)) b8 (k0_off55 L (tailW t.val)) b13 (by rw [Arith.off8_eq_r7 L t.val (by omega)]; rfl) (by rw [Arith.off8_eq_r7 L t.val (by omega), Arith.off13_eq_r7 L t.val (by omega)]; rfl) (by rw [Arith.off13_eq_r7 L t.val (by omega)]; rfl) (by rw [Arith.off8_eq_r7 L t.val (by omega), Arith.off13_eq_r7 L t.val (by omega)]; rfl) (by rw [Arith.off13_eq_r7 L t.val (by omega)]; rfl) fcur hgood hx fb (m (oLoc d)) _ hin) (show k0_off54 (tailW t.val) = k0_off52 (tailW t.val) from rfl)) $$ Hso
  isplitl [HFO_dst]; · iexact HFO_dst
  isplitl [HFO_src]; · iexists _; iexact HFO_src
  isplitl [HFO]; · iexact HFO
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Cert.Proof.K

end
-- ==== Proof.KTailR7T.lean ====
/-
  The loop of the third lookup: each trip takes the invariant at t to the invariant at t + 1.  The trip's pieces are
  taken out of the invariant's families (the read token of trip t + 1, the output block of trip t), the trip is run, and
  what it leaves is put back (trip t's token whole again, block t - 1 among the blocks done).
-/
import proofs.«206595_g34437047779621_cont_8to1_b_428_16_alg».proof.Proof.KTailR7C

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

variable (O : CellTallies nD τ sig (HIx 1)) (W : Waits sig (HIx 1)) (qi qs : PosShare TreeShare)

omit [FloatOps F] in
/-- One piece out of a family of fifty. -/
theorem r7_take (a : Fin 50) (Φ : Fin 50 → sProp 𝕄) :
    bigSep Finset.univ Φ = iprop(Φ a ∗ bigSep (Finset.univ.filter fun u : Fin 50 => u.val ≠ a.val) Φ) := by
  have h := tail_bigSep_step (fun u : Fin 50 => u.val ≠ a.val) (fun _ : Fin 50 => True) a (fun h => h rfl)
    (fun u => ⟨fun _ => by by_cases h : u = a; exact .inr h; exact .inl (fun e => h (Fin.ext e)), fun _ => trivial⟩) Φ
  rwa [Finset.filter_true_of_mem (fun _ _ => trivial)] at h

set_option maxHeartbeats 1000000 in
theorem r7tripM (t : Fin k0_t3_loop.trips) (h1t : 1 ≤ t.val) (ht : t.val < 49)
    (hx : Cert.Lookup.InRange (m (xLoc d) : IVec Cert.Lookup.SX 32))
    (acc : BitVec 32 × BitVec 32 × BitVec 32 × BitVec 32 × BitVec 32) :
    r7inv m d L O W qi qs t.val acc
      ⊢ wp frame (wpE (defs₀ (F := F)) 𝒱₀ (tailThr d L) none) Set.univ
          (k0_t3_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r7v7 L) t acc)
          (r7inv m d L O W qi qs (t.val + 1)) := by
  have ht50 : t.val < 50 := by omega
  have e5 : k0_off47 L (tailW t.val) = r7bi L (tailFin (t.val + 1)) := by
    show _ = Arith.blkIn 2 L (tailFin (t.val + 1)).val
    rw [tailFin_val (by omega)]; exact Arith.off5_eq_r7 L t.val (by omega)
  have e8 : k0_off50 L (tailW t.val) = r7bi L (tailFin t.val) := by
    show _ = Arith.blkIn 2 L (tailFin t.val).val
    rw [tailFin_val (by omega)]; exact Arith.off8_eq_r7 L t.val (by omega)
  have e13 : k0_off55 L (tailW t.val) = r7bo L (tailFin t.val) := by
    show _ = outOff 2 (stp (L 0).val (L 1).val (tailFin t.val).val)
    rw [tailFin_val (by omega)]; exact Arith.off13_eq_r7 L t.val (by omega)
  have e16 : k0_off58 L (tailW t.val) = r7bo L (tailFin (t.val - 1)) := by
    show _ = outOff 2 (stp (L 0).val (L 1).val (tailFin (t.val - 1)).val)
    rw [tailFin_val (by omega)]; exact Arith.off16_eq_r7 L t.val (by omega) (by omega)
  unfold r7inv r7out
  simp only [Nat.add_sub_cancel]
  rw [if_pos (show t.val < 50 by omega), if_pos (show t.val + 1 < 50 by omega), if_neg (show ¬ t.val = 0 by omega),
    if_neg (show ¬ t.val + 1 = 0 by omega)]
  unfold r7idxMid
  iintro ⟨%hacc, #Hmw, HT, Hs7, ⟨⟨%fcur, %hgood, HFI⟩, Hrest, ⟨%fa, HSn⟩, Hsn, Htoks⟩, ⟨⟨%fbp, HFO⟩, ⟨%fb, HOS⟩, Hso, Hdone, Htodo⟩, ⟨%W', %hW', Hw⟩⟩
  subst hacc
  -- the read token of trip t + 1, its block apart from its rest
  ihave Htoks' := (Entails.of_eq (tail_bigSep_step (fun u : Fin 50 => u.val ≠ t.val ∧ u.val ≠ t.val + 1) (fun u : Fin 50 => u.val ≠ t.val) (tailFin (t.val + 1))
    (by rw [tailFin_val (by omega)]; omega) (fun u => by rw [Fin.ext_iff, tailFin_val (by omega)]; omega) (tailTokPt m d qi))) $$ Htoks
  icases Htoks' with ⟨Htok1, Htoks⟩
  ihave Hsp := (pointsTo_split_subset (Finset.subset_univ (tailIBlk (r7bi L (tailFin (t.val + 1))) (r7bi_inb L _)).view.set)).1 $$ Htok1
  icases Hsp with ⟨HIn, Hrest1⟩
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 2 u (m (oLoc d))))) $$ Htodo
  icases Htodo' with ⟨HOB, Htodo⟩
  iapply (wp_wand_r Idealize.ShloMosaic.frame (wpE (defs₀ (F := F)) 𝒱₀ (tailThr d L) none) Set.univ)
  isplitl [HIn HSn Hsn HFI HT HOS Hs7 HOB Hso HFO Hw]
  · have hcar : r7car t.val = (tailW (t.val + 1), tailW t.val, tailW t.val, tailW (t.val - 1), tailW t.val) := by
      unfold r7car; rw [Nat.min_eq_left (by omega), Nat.mod_eq_of_lt (by omega)]
    rw [hcar]
    iapply (r7coreM m d L O W' t h1t ht
      (k0_off49 (tailW (t.val + 1))) rfl (r7hb7 _) (r7bi L (tailFin (t.val + 1))) e5 (r7bi_inb L _) (k0_off51 (tailW (t.val + 1))) rfl (r7hb9 _)
      (k0_off49 (tailW t.val)) rfl (r7hb7 _) (r7bi L (tailFin t.val)) e8 (r7bi_inb L _) (k0_off51 (tailW t.val)) rfl (r7hb9 _)
      (k0_off57 (tailW t.val)) rfl (r7hb15 _) (r7bo L (tailFin t.val)) e13 (r7bo_inb L _) (k0_off59 (tailW t.val)) rfl (r7hb17 _)
      (k0_off57 (tailW (t.val - 1))) rfl (r7hb15 _) (r7bo L (tailFin (t.val - 1))) e16 (r7bo_inb L _) (k0_off59 (tailW (t.val - 1))) rfl (r7hb17 _)
      (shareTok qi 50 (tailFin (t.val + 1))) (shareTok qi 50 (tailFin t.val)) qs fcur hgood hx)
    isplitr; · iexact Hmw
    isplitl [HIn]; · iexact HIn
    isplitl [HSn]; · iexists fa; iexact HSn
    isplitl [Hsn]; · iexact Hsn
    isplitl [HFI]; · iexact HFI
    isplitl [HT]; · iexact HT
    isplitl [HOS]; · iexists fb; iexact HOS
    isplitl [Hs7]; · iexact Hs7
    isplitl [HOB]; · iexact HOB
    isplitl [Hso]; · iexact Hso
    isplitl [HFO]; · iexists fbp; iexact HFO
    iexact Hw
  iintro %acc' ⟨%hacc', ⟨%fnew, %hgood', HFI'⟩, HI8, Hs9, HS7, HT, Hs7, ⟨%fg, HFO'⟩, HO16, ⟨%fo15, HS15⟩, Hs17, ⟨%W'', %hW'', Hw⟩⟩
  have hp4 : k0_off49 (tailW t.val) = k0_off46 (tailW (t.val + 1 + 1)) := r7par4 (by omega) (by omega) (by omega)
  have hp1 : k0_off51 (tailW t.val) = k0_off48 (tailW (t.val + 1 + 1)) := r7par1I (by omega) (by omega) (by omega)
  have hp5 : k0_off57 (tailW (t.val - 1)) = k0_off52 (tailW (t.val + 1)) := r7par5 (by omega) (by omega) (by omega)
  have hp1O : k0_off59 (tailW (t.val - 1)) = k0_off56 (tailW (t.val + 1)) := r7par1O (by omega) (by omega) (by omega)
  have e1 : min (t.val + 1 + 1) 50 = t.val + 2 := by omega
  have e2 : (t.val + 1) % 50 = t.val + 1 := by omega
  isplitr
  · ipureintro; rw [hacc']; unfold r7car; rw [e1, e2, Nat.add_sub_cancel]
  isplitr; · iexact Hmw
  isplitl [HT]; · iexact HT
  isplitl [Hs7]; · iexact Hs7
  isplitl [HFI' Hrest1 HS7 Hs9 HI8 Hrest Htoks]
  · isplitl [HFI']
    · iexists fnew; isplitr
      · ipureintro; exact hgood'
      · iexact HFI'
    isplitl [Hrest1]; · iexact Hrest1
    isplitl [HS7]
    · iexists fcur; iapply (Entails.of_eq (r7ISlotPt_congr d L hp4 (r7hb7 _) (r7hb4 _) fcur)); iexact HS7
    isplitl [Hs9]
    · iapply (Entails.of_eq (tailCell_congr d L cc0_scoped14 hp1 (r7hb9 _) (r7hb6 _))); iexact Hs9
    -- trip t's token whole again, back among the others
    iapply (Entails.of_eq (tail_bigSep_step (fun u : Fin 50 => u.val ≠ t.val ∧ u.val ≠ t.val + 1) (fun u : Fin 50 => u.val ≠ t.val + 1) (tailFin t.val)
      (by rw [tailFin_val (by omega)]; omega) (fun u => by rw [Fin.ext_iff, tailFin_val (by omega)]; omega) (tailTokPt m d qi)).symm)
    isplitl [HI8 Hrest]
    · iapply (pointsTo_split_subset (Finset.subset_univ (tailIBlk (r7bi L (tailFin t.val)) (r7bi_inb L _)).view.set)).2
      isplitl [HI8]; · iexact HI8
      iexact Hrest
    iexact Htoks
  isplitl [HFO' HS15 Hs17 HO16 Hdone Htodo]
  · isplitl [HFO']; · iexists fg; iexact HFO'
    isplitl [HS15]
    · iexists fo15; iapply (Entails.of_eq (r7OSlotPt_congr d L hp5 (r7hb15 _) (r7hb10 _) fo15)); iexact HS15
    isplitl [Hs17]
    · iapply (Entails.of_eq (tailCell_congr d L cc0_scoped16 hp1O (r7hb17 _) (r7hb14 _))); iexact Hs17
    isplitl [HO16 Hdone]
    · iapply (Entails.of_eq (tail_bigSep_step (fun u : Fin 50 => u.val + 1 < t.val) (fun u : Fin 50 => u.val + 1 < t.val + 1) (tailFin (t.val - 1))
        (by rw [tailFin_val (by omega)]; omega) (fun u => by rw [Fin.ext_iff, tailFin_val (by omega)]; omega) (fun u => tailOPt d L 2 u (outK m d))).symm)
      isplitl [HO16]; · iexact HO16
      iexact Hdone
    iexact Htodo
  iexists W''; isplitr
  · ipureintro; intro p hp
    rcases hW'' p hp with h | h
    · exact hW' p h
    · exact .inr h
  · iexact Hw

set_option maxHeartbeats 1000000 in
theorem r7trip0 (t : Fin k0_t3_loop.trips) (ht0 : t.val = 0)
    (hx : Cert.Lookup.InRange (m (xLoc d) : IVec Cert.Lookup.SX 32))
    (acc : BitVec 32 × BitVec 32 × BitVec 32 × BitVec 32 × BitVec 32) :
    r7inv m d L O W qi qs t.val acc
      ⊢ wp frame (wpE (defs₀ (F := F)) 𝒱₀ (tailThr d L) none) Set.univ
          (k0_t3_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r7v7 L) t acc)
          (r7inv m d L O W qi qs (t.val + 1)) := by
  have ht50 : t.val < 50 := by omega
  have e5 : k0_off47 L (tailW t.val) = r7bi L (tailFin (t.val + 1)) := by
    show _ = Arith.blkIn 2 L (tailFin (t.val + 1)).val
    rw [tailFin_val (by omega)]; exact Arith.off5_eq_r7 L t.val (by omega)
  have e8 : k0_off50 L (tailW t.val) = r7bi L (tailFin t.val) := by
    show _ = Arith.blkIn 2 L (tailFin t.val).val
    rw [tailFin_val (by omega)]; exact Arith.off8_eq_r7 L t.val (by omega)
  have e13 : k0_off55 L (tailW t.val) = r7bo L (tailFin t.val) := by
    show _ = outOff 2 (stp (L 0).val (L 1).val (tailFin t.val).val)
    rw [tailFin_val (by omega)]; exact Arith.off13_eq_r7 L t.val (by omega)
  unfold r7inv r7out
  simp only [Nat.add_sub_cancel]
  rw [if_pos (show t.val < 50 by omega), if_pos (show t.val + 1 < 50 by omega), if_pos ht0,
    if_neg (show ¬ t.val + 1 = 0 by omega)]
  unfold r7idxMid
  iintro ⟨%hacc, #Hmw, HT, Hs7, ⟨⟨%fcur, %hgood, HFI⟩, Hrest, ⟨%fa, HSn⟩, Hsn, Htoks⟩, ⟨⟨⟨%fo1, HS1⟩, Hs1⟩, ⟨%fb, HOS⟩, Hso, Hdone, Htodo⟩, ⟨%W', %hW', Hw⟩⟩
  subst hacc
  -- the read token of trip t + 1, its block apart from its rest
  ihave Htoks' := (Entails.of_eq (tail_bigSep_step (fun u : Fin 50 => u.val ≠ t.val ∧ u.val ≠ t.val + 1) (fun u : Fin 50 => u.val ≠ t.val) (tailFin (t.val + 1))
    (by rw [tailFin_val (by omega)]; omega) (fun u => by rw [Fin.ext_iff, tailFin_val (by omega)]; omega) (tailTokPt m d qi))) $$ Htoks
  icases Htoks' with ⟨Htok1, Htoks⟩
  ihave Hsp := (pointsTo_split_subset (Finset.subset_univ (tailIBlk (r7bi L (tailFin (t.val + 1))) (r7bi_inb L _)).view.set)).1 $$ Htok1
  icases Hsp with ⟨HIn, Hrest1⟩
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 2 u (m (oLoc d))))) $$ Htodo
  icases Htodo' with ⟨HOB, Htodo⟩
  iapply (wp_wand_r Idealize.ShloMosaic.frame (wpE (defs₀ (F := F)) 𝒱₀ (tailThr d L) none) Set.univ)
  isplitl [HIn HSn Hsn HFI HT HOS Hs7 HOB Hso Hw]
  · have hcar : r7car t.val = (tailW (t.val + 1), tailW t.val, tailW t.val, tailW (t.val - 1), tailW t.val) := by
      unfold r7car; rw [Nat.min_eq_left (by omega), Nat.mod_eq_of_lt (by omega)]
    rw [hcar]
    iapply (r7core0 m d L O W' t ht0
      (k0_off49 (tailW (t.val + 1))) rfl (r7hb7 _) (r7bi L (tailFin (t.val + 1))) e5 (r7bi_inb L _) (k0_off51 (tailW (t.val + 1))) rfl (r7hb9 _)
      (k0_off49 (tailW t.val)) rfl (r7hb7 _) (r7bi L (tailFin t.val)) e8 (r7bi_inb L _) (k0_off51 (tailW t.val)) rfl (r7hb9 _)
      (k0_off57 (tailW t.val)) rfl (r7hb15 _) (r7bo L (tailFin t.val)) e13 (r7bo_inb L _) (k0_off59 (tailW t.val)) rfl (r7hb17 _)
      (shareTok qi 50 (tailFin (t.val + 1))) (shareTok qi 50 (tailFin t.val)) qs fcur hgood hx)
    isplitr; · iexact Hmw
    isplitl [HIn]; · iexact HIn
    isplitl [HSn]; · iexists fa; iexact HSn
    isplitl [Hsn]; · iexact Hsn
    isplitl [HFI]; · iexact HFI
    isplitl [HT]; · iexact HT
    isplitl [HOS]; · iexists fb; iexact HOS
    isplitl [Hs7]; · iexact Hs7
    isplitl [HOB]; · iexact HOB
    isplitl [Hso]; · iexact Hso
    iexact Hw
  iintro %acc' ⟨%hacc', ⟨%fnew, %hgood', HFI'⟩, HI8, Hs9, HS7, HT, Hs7, ⟨%fg, HFO'⟩, ⟨%W'', %hW'', Hw⟩⟩
  have hp4 : k0_off49 (tailW t.val) = k0_off46 (tailW (t.val + 1 + 1)) := r7par4 (by omega) (by omega) (by omega)
  have hp1 : k0_off51 (tailW t.val) = k0_off48 (tailW (t.val + 1 + 1)) := r7par1I (by omega) (by omega) (by omega)
  have e1 : min (t.val + 1 + 1) 50 = t.val + 2 := by omega
  have e2 : (t.val + 1) % 50 = t.val + 1 := by omega
  isplitr
  · ipureintro; rw [hacc']; unfold r7car; rw [e1, e2, Nat.add_sub_cancel]
  isplitr; · iexact Hmw
  isplitl [HT]; · iexact HT
  isplitl [Hs7]; · iexact Hs7
  isplitl [HFI' Hrest1 HS7 Hs9 HI8 Hrest Htoks]
  · isplitl [HFI']
    · iexists fnew; isplitr
      · ipureintro; exact hgood'
      · iexact HFI'
    isplitl [Hrest1]; · iexact Hrest1
    isplitl [HS7]
    · iexists fcur; iapply (Entails.of_eq (r7ISlotPt_congr d L hp4 (r7hb7 _) (r7hb4 _) fcur)); iexact HS7
    isplitl [Hs9]
    · iapply (Entails.of_eq (tailCell_congr d L cc0_scoped14 hp1 (r7hb9 _) (r7hb6 _))); iexact Hs9
    -- trip t's token whole again, back among the others
    iapply (Entails.of_eq (tail_bigSep_step (fun u : Fin 50 => u.val ≠ t.val ∧ u.val ≠ t.val + 1) (fun u : Fin 50 => u.val ≠ t.val + 1) (tailFin t.val)
      (by rw [tailFin_val (by omega)]; omega) (fun u => by rw [Fin.ext_iff, tailFin_val (by omega)]; omega) (tailTokPt m d qi)).symm)
    isplitl [HI8 Hrest]
    · iapply (pointsTo_split_subset (Finset.subset_univ (tailIBlk (r7bi L (tailFin t.val)) (r7bi_inb L _)).view.set)).2
      isplitl [HI8]; · iexact HI8
      iexact Hrest
    iexact Htoks
  isplitl [HFO' HS1 Hs1 Hdone Htodo]
  · isplitl [HFO']; · iexists fg; iexact HFO'
    isplitl [HS1]; · iexists fo1; iexact HS1
    isplitl [Hs1]; · iexact Hs1
    isplitl [Hdone]
    · rw [show (Finset.univ.filter fun u : Fin 50 => u.val + 1 < t.val + 1) = (Finset.univ.filter fun u : Fin 50 => u.val + 1 < t.val) from
        Finset.filter_congr (fun u _ => by omega)]
      iexact Hdone
    iexact Htodo
  iexists W''; isplitr
  · ipureintro; intro p hp
    rcases hW'' p hp with h | h
    · exact hW' p h
    · exact .inr h
  · iexact Hw

set_option maxHeartbeats 1000000 in
theorem r7tripE (t : Fin k0_t3_loop.trips) (ht49 : t.val = 49)
    (hx : Cert.Lookup.InRange (m (xLoc d) : IVec Cert.Lookup.SX 32))
    (acc : BitVec 32 × BitVec 32 × BitVec 32 × BitVec 32 × BitVec 32) :
    r7inv m d L O W qi qs t.val acc
      ⊢ wp frame (wpE (defs₀ (F := F)) 𝒱₀ (tailThr d L) none) Set.univ
          (k0_t3_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r7v7 L) t acc)
          (r7inv m d L O W qi qs (t.val + 1)) := by
  have ht50 : t.val < 50 := by omega
  have e8 : k0_off50 L (tailW t.val) = r7bi L (tailFin t.val) := by
    show _ = Arith.blkIn 2 L (tailFin t.val).val
    rw [tailFin_val (by omega)]; exact Arith.off8_eq_r7 L t.val (by omega)
  have e13 : k0_off55 L (tailW t.val) = r7bo L (tailFin t.val) := by
    show _ = outOff 2 (stp (L 0).val (L 1).val (tailFin t.val).val)
    rw [tailFin_val (by omega)]; exact Arith.off13_eq_r7 L t.val (by omega)
  have e16 : k0_off58 L (tailW t.val) = r7bo L (tailFin (t.val - 1)) := by
    show _ = outOff 2 (stp (L 0).val (L 1).val (tailFin (t.val - 1)).val)
    rw [tailFin_val (by omega)]; exact Arith.off16_eq_r7 L t.val (by omega) (by omega)
  unfold r7inv r7out
  simp only [Nat.add_sub_cancel]
  rw [if_pos (show t.val < 50 by omega), if_neg (show ¬ t.val + 1 < 50 by omega), if_neg (show ¬ t.val = 0 by omega),
    if_neg (show ¬ t.val + 1 = 0 by omega)]
  unfold r7idxMid r7idxEnd
  simp only [Nat.add_sub_cancel]
  iintro ⟨%hacc, #Hmw, HT, Hs7, ⟨⟨%fcur, %hgood, HFI⟩, Hrest, ⟨%fa, HSn⟩, Hsn, Htoks⟩, ⟨⟨%fbp, HFO⟩, ⟨%fb, HOS⟩, Hso, Hdone, Htodo⟩, ⟨%W', %hW', Hw⟩⟩
  subst hacc
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 2 u (m (oLoc d))))) $$ Htodo
  icases Htodo' with ⟨HOB, Htodo⟩
  iapply (wp_wand_r Idealize.ShloMosaic.frame (wpE (defs₀ (F := F)) 𝒱₀ (tailThr d L) none) Set.univ)
  isplitl [HFI HT HOS Hs7 HOB Hso HFO Hw]
  · have hcar : r7car t.val = (tailW (t.val + 1), tailW t.val, tailW t.val, tailW (t.val - 1), tailW t.val) := by
      unfold r7car; rw [Nat.min_eq_left (by omega), Nat.mod_eq_of_lt (by omega)]
    rw [hcar]
    iapply (r7coreE m d L O W' t ht49
      (k0_off49 (tailW t.val)) rfl (r7hb7 _) (r7bi L (tailFin t.val)) e8 (r7bi_inb L _) (k0_off51 (tailW t.val)) rfl (r7hb9 _)
      (k0_off57 (tailW t.val)) rfl (r7hb15 _) (r7bo L (tailFin t.val)) e13 (r7bo_inb L _) (k0_off59 (tailW t.val)) rfl (r7hb17 _)
      (k0_off57 (tailW (t.val - 1))) rfl (r7hb15 _) (r7bo L (tailFin (t.val - 1))) e16 (r7bo_inb L _) (k0_off59 (tailW (t.val - 1))) rfl (r7hb17 _)
      (shareTok qi 50 (tailFin (t.val + 1))) (shareTok qi 50 (tailFin t.val)) qs fcur hgood hx)
    isplitr; · iexact Hmw
    isplitl [HFI]; · iexact HFI
    isplitl [HT]; · iexact HT
    isplitl [HOS]; · iexists fb; iexact HOS
    isplitl [Hs7]; · iexact Hs7
    isplitl [HOB]; · iexact HOB
    isplitl [Hso]; · iexact Hso
    isplitl [HFO]; · iexists fbp; iexact HFO
    iexact Hw
  iintro %acc' ⟨%hacc', HI8, Hs9, HS7, HT, Hs7, ⟨%fg, HFO'⟩, HO16, ⟨%fo15, HS15⟩, Hs17, ⟨%W'', %hW'', Hw⟩⟩
  have hp5 : k0_off57 (tailW (t.val - 1)) = k0_off52 (tailW (t.val + 1)) := r7par5 (by omega) (by omega) (by omega)
  have hp1O : k0_off59 (tailW (t.val - 1)) = k0_off56 (tailW (t.val + 1)) := r7par1O (by omega) (by omega) (by omega)
  have e1 : min (t.val + 1 + 1) 50 = t.val + 1 := by omega
  have e2 : (t.val + 1) % 50 = 0 := by omega
  isplitr
  · ipureintro; rw [hacc']; unfold r7car; rw [e1, e2, Nat.add_sub_cancel]
  isplitr; · iexact Hmw
  isplitl [HT]; · iexact HT
  isplitl [Hs7]; · iexact Hs7
  isplitl [HSn Hsn HS7 Hs9 HI8 Hrest Htoks]
  · isplitl [HSn]; · iexists fa; iexact HSn
    isplitl [Hsn]; · iexact Hsn
    isplitl [HS7]; · iexists fcur; iexact HS7
    isplitl [Hs9]; · iexact Hs9
    -- the last trip's token whole again, back among the others: every token whole
    iapply (Entails.of_eq (r7_take (tailFin t.val) (tailTokPt m d qi)).symm)
    rw [tailFin_val (by omega)]
    isplitl [HI8 Hrest]
    · iapply (pointsTo_split_subset (Finset.subset_univ (tailIBlk (r7bi L (tailFin t.val)) (r7bi_inb L _)).view.set)).2
      isplitl [HI8]; · iexact HI8
      iexact Hrest
    iexact Htoks
  isplitl [HFO' HS15 Hs17 HO16 Hdone Htodo]
  · isplitl [HFO']; · iexists fg; iexact HFO'
    isplitl [HS15]
    · iexists fo15; iapply (Entails.of_eq (r7OSlotPt_congr d L hp5 (r7hb15 _) (r7hb10 _) fo15)); iexact HS15
    isplitl [Hs17]
    · iapply (Entails.of_eq (tailCell_congr d L cc0_scoped16 hp1O (r7hb17 _) (r7hb14 _))); iexact Hs17
    isplitl [HO16 Hdone]
    · iapply (Entails.of_eq (tail_bigSep_step (fun u : Fin 50 => u.val + 1 < t.val) (fun u : Fin 50 => u.val + 1 < t.val + 1) (tailFin (t.val - 1))
        (by rw [tailFin_val (by omega)]; omega) (fun u => by rw [Fin.ext_iff, tailFin_val (by omega)]; omega) (fun u => tailOPt d L 2 u (outK m d))).symm)
      isplitl [HO16]; · iexact HO16
      iexact Hdone
    iexact Htodo
  iexists W''; isplitr
  · ipureintro; intro p hp
    rcases hW'' p hp with h | h
    · exact hW' p h
    · exact .inr h
  · iexact Hw

/-- A trip of the loop, whichever. -/
theorem r7trip (t : Fin k0_t3_loop.trips) (hx : Cert.Lookup.InRange (m (xLoc d) : IVec Cert.Lookup.SX 32))
    (acc : BitVec 32 × BitVec 32 × BitVec 32 × BitVec 32 × BitVec 32) :
    r7inv m d L O W qi qs t.val acc
      ⊢ wp frame (wpE (defs₀ (F := F)) 𝒱₀ (tailThr d L) none) Set.univ
          (k0_t3_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r7v7 L) t acc)
          (r7inv m d L O W qi qs (t.val + 1)) := by
  have ht : t.val < 50 := lt_of_lt_of_eq t.isLt Arith.trips3
  rcases Nat.eq_zero_or_pos t.val with h0 | h1
  · exact r7trip0 m d L O W qi qs t h0 hx acc
  · rcases Nat.lt_or_ge t.val 49 with h | h
    · exact r7tripM m d L O W qi qs t h1 h hx acc
    · exact r7tripE m d L O W qi qs t (by omega) hx acc

/-- The invariant after the last trip, spelt out. -/
theorem r7inv_end (acc : BitVec 32 × BitVec 32 × BitVec 32 × BitVec 32 × BitVec 32) :
    r7inv m d L O W qi qs 50 acc
      ⊢ iprop(⌜acc = (tailW 50, tailW 50, tailW 50, tailW 49, tailW 0)⌝ ∗ Transfers.MayWaits (tailThr d L) (default : HIx 1) O ∗ r7Tab m d L qs
          ∗ semVal (tailThr d L, SemLoc.dma cc0_scoped17.sem) 0
          ∗ ((∃ f, r7ISlotPt d L (k0_off46 (tailW 50)) (r7hb4 _) f)
            ∗ semVal (tailThr d L, SemLoc.dma (tailSem cc0_scoped14 (k0_off48 (tailW 50)) (r7hb6 _))) 0
            ∗ (∃ f, r7ISlotPt d L (k0_off49 (tailW (50 - 1))) (r7hb7 _) f)
            ∗ semVal (tailThr d L, SemLoc.dma (tailSem cc0_scoped14 (k0_off51 (tailW (50 - 1))) (r7hb9 _))) 0
            ∗ bigSep Finset.univ (tailTokPt m d qi))
          ∗ ((∃ fbp, r7FO d L (k0_off59 (tailW (50 - 1))) (r7hb17 _) (r7bo L (tailFin (50 - 1))) (r7bo_inb L _) (outK m d) (k0_off57 (tailW (50 - 1))) (r7hb15 _) fbp)
            ∗ (∃ f, r7OSlotPt d L (k0_off52 (tailW 50)) (r7hb10 _) f)
            ∗ semVal (tailThr d L, SemLoc.dma (tailSem cc0_scoped16 (k0_off56 (tailW 50)) (r7hb14 _))) 0
            ∗ bigSep (Finset.univ.filter fun u : Fin 50 => u.val + 1 < 50) (fun u => tailOPt d L 2 u (outK m d))
            ∗ bigSep (Finset.univ.filter fun u : Fin 50 => 50 ≤ u.val) (fun u => tailOPt d L 2 u (m (oLoc d))))
          ∗ ∃ W', ⌜∀ p ∈ W', p ∈ W ∨ p.2 = none⌝ ∗ owes (tailThr d L) O W') := by
  unfold r7inv r7out r7idxEnd
  rw [if_neg (show ¬ (50 : ℕ) < 50 by decide), if_neg (show ¬ (50 : ℕ) = 0 by decide)]
  iintro ⟨%hacc, H⟩
  isplitr
  · ipureintro; rw [hacc]; rfl
  · iexact H

/-! ## After the loop: the buffers whole again, every block done -/

omit [FloatOps F] in
theorem r7I_back (fa fc g : Buf (Elt F) ((tailThr d L).loc cc0_scoped13)) :
    iprop(r7ISlotPt d L (k0_off46 (tailW 50)) (r7hb4 _) fa ∗ r7ISlotPt d L (k0_off49 (tailW (50 - 1))) (r7hb7 _) fc
        ∗ ((tailThr d L).loc cc0_scoped13 ↦[r7IRest d L]{fullShare} g))
      ⊢ (∃ f, (tailThr d L).loc cc0_scoped13 ↦{fullShare} f : sProp 𝕄) := by
  have e0 : k0_off46 (tailW 50) = (![0, 0, 0, 0] : Fin 4 → ℕ) := by rw [Arith.off4_eq_r7]; rfl
  have e1 : k0_off49 (tailW (50 - 1)) = (![1, 0, 0, 0] : Fin 4 → ℕ) := by rw [Arith.off7_eq_r7]; rfl
  rw [r7ISlotPt_congr d L e0 (r7hb4 _) r7inbI0 fa, r7ISlotPt_congr d L e1 (r7hb7 _) r7inbI1 fc]
  exact r7IBuf_join d L fa fc g

omit [FloatOps F] in
theorem r7O_back (fb fbp g : Buf (Elt F) ((tailThr d L).loc cc0_scoped15)) :
    iprop(r7OSlotPt d L (k0_off52 (tailW 50)) (r7hb10 _) fb ∗ r7OSlotPt d L (k0_off57 (tailW (50 - 1))) (r7hb15 _) fbp
        ∗ ((tailThr d L).loc cc0_scoped15 ↦[r7ORest d L]{fullShare} g))
      ⊢ (∃ f, (tailThr d L).loc cc0_scoped15 ↦{fullShare} f : sProp 𝕄) := by
  have e0 : k0_off52 (tailW 50) = (![0, 0, 0, 0, 0] : Fin 5 → ℕ) := by rw [Arith.off10_eq_r7]; rfl
  have e1 : k0_off57 (tailW (50 - 1)) = (![1, 0, 0, 0, 0] : Fin 5 → ℕ) := by rw [Arith.off15_eq_r7]; rfl
  rw [r7OSlotPt_congr d L e0 (r7hb10 _) r7inbO0 fb, r7OSlotPt_congr d L e1 (r7hb15 _) r7inbO1 fbp]
  exact r7OBuf_join d L fb fbp g

/-- The last block done, beside the forty-nine before it: all fifty. -/
theorem r7_allDone :
    iprop(((tailOBlk (r7bo L (tailFin (50 - 1))) (r7bo_inb L _)).view.loc (tailThr d L) ↦[(tailOBlk (r7bo L (tailFin (50 - 1))) (r7bo_inb L _)).view.set]{fullShare} outK m d)
        ∗ bigSep (Finset.univ.filter fun u : Fin 50 => u.val + 1 < 50) (fun u => tailOPt d L 2 u (outK m d)))
      ⊢ (bigSep Finset.univ (fun u : Fin 50 => tailOPt d L 2 u (outK m d)) : sProp 𝕄) := by
  rw [r7_take (tailFin (50 - 1)) (fun u => tailOPt d L 2 u (outK m d)),
    show (Finset.univ.filter fun u : Fin 50 => u.val ≠ (tailFin (50 - 1)).val) = (Finset.univ.filter fun u : Fin 50 => u.val + 1 < 50) from
      Finset.filter_congr (fun u _ => by have := u.isLt; show u.val ≠ (50 - 1) % 50 ↔ _; omega)]
  exact Entails.refl _

end Cert.Proof.K

end
-- ==== Proof.KTail.lean ====
/-
  A tile's task after its opening part.  The tile holds a read share of the three shared tables, a read share of the
  transposed index array and its 150 output blocks.  Its scoped buffers and semaphores are taken one by one out of what
  the launch dealt it, the index share is cut into one read token per trip, and the three lookups run one after the
  other, each by its loop's invariant; what each lookup borrowed is whole again when it ends, and its fifty output
  blocks hold the lookup's values.
-/
import proofs.«206595_g34437047779621_cont_8to1_b_428_16_alg».proof.Proof.KTailR3T
import proofs.«206595_g34437047779621_cont_8to1_b_428_16_alg».proof.Proof.KTailR5T
import proofs.«206595_g34437047779621_cont_8to1_b_428_16_alg».proof.Proof.KTailR7T

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

variable (O : CellTallies nD τ sig (HIx 1)) (W : Waits sig (HIx 1))

omit [FloatOps F] in
/-- The words the opening part hands over, spelt out. -/
theorem tail_r34 : r34 L = ⟨BitVec.ofNat 32 (L 0).val, BitVec.ofNat 32 (L 1).val, r3v7 L, Scalar.addi (0#32) (r3v7 L), 32#32, Scalar.divsi (Scalar.addi (0#32) (r3v7 L)) 32#32,
    Scalar.subi (Scalar.extui (Scalar.cmpi .sgt (Scalar.addi (0#32) (r3v7 L)) 0#32)) (Scalar.extui (Scalar.cmpi .slt (Scalar.addi (0#32) (r3v7 L)) 0#32))⟩ := rfl

omit [FloatOps F] in
/-- The tile's output blocks, table by table. -/
theorem tail_out3 (f : Buf (Elt F) (oLoc d)) :
    (tileOut d ⟨(L 0).val, (L 0).isLt⟩ ⟨(L 1).val, (L 1).isLt⟩ f : sProp 𝕄)
      = iprop(bigSep Finset.univ (fun u : Fin 50 => tailOPt d L 0 u f) ∗ bigSep Finset.univ (fun u : Fin 50 => tailOPt d L 1 u f)
          ∗ bigSep Finset.univ (fun u : Fin 50 => tailOPt d L 2 u f)) := by
  show bigSep (Finset.univ : Finset (Fin 3 × Fin 50)) _ = _
  rw [← Finset.univ_product_univ, SparseCore.bigSep_product, show (Finset.univ : Finset (Fin 3)) = {0, 1, 2} by decide,
    SparseCore.bigSep_insert' (by decide), SparseCore.bigSep_insert' (by decide), bigSep_singleton]

omit [FloatOps F] in
/-- A wait at the kernels' own index keeps the record of waits within what the launch allows. -/
theorem tail_waits_insert {Wc W : Waits sig (HIx 1)} (x : SemLoc sig) (h : ∀ p ∈ Wc, p ∈ W ∨ p.2 = none) :
    ∀ p ∈ insert (x, (default : HIx 1)) Wc, p ∈ W ∨ p.2 = none := by
  intro p hp
  rcases Finset.mem_insert.mp hp with hp | hp
  · exact .inr (hp ▸ rfl)
  · exact h p hp

set_option maxHeartbeats 16000000 in
/-- The task after its opening part: the three lookups, from the launch's pieces to the lookup's values. -/
theorem tail_spec (hO : ∀ g, O g none = 0) (hx : Cert.Lookup.InRange (m (xLoc d) : IVec Cert.Lookup.SX 32)) (qi qs : PosShare TreeShare) :
    iprop(levAts (K (F := F)).L (K (F := F)).lev ∗ (iLoc d ↦{qi} idxT m d) ∗ tabs m d (cV L) qs
          ∗ scopedBufs (V d (cV L) (jV L)) ∗ scopedSems0 (V d (cV L) (jV L))
          ∗ tileOut d ⟨(L 0).val, (L 0).isLt⟩ ⟨(L 1).val, (L 1).isLt⟩ (m (oLoc d)) ∗ owes (V d (cV L) (jV L)) O W)
      ⊢ wp frame (wpE (defs₀ (F := F)) 𝒱₀ (V d (cV L) (jV L)) none) Set.univ (tail34 L (r34 L)) fun _ =>
          iprop((iLoc d ↦{qi} idxT m d) ∗ tabs m d (cV L) qs ∗ scopedBufs (V d (cV L) (jV L)) ∗ scopedSems0 (V d (cV L) (jV L))
            ∗ tileOut d ⟨(L 0).val, (L 0).isLt⟩ ⟨(L 1).val, (L 1).isLt⟩ (outK m d) ∗ ∃ W', ⌜∀ p ∈ W', p ∈ W ∨ p.2 = none⌝ ∗ owes (V d (cV L) (jV L)) O W') := by
  have hF : (K (F := F)).Facts := facts
  rw [(K (F := F)).scopedBufs_V hF d (cV L) (jV L), SparseCore.Cfg.scopedSems0_V (Val := Elt F) d (cV L) (jV L), tail_ownSems0, tail_ownBufs, tail_r34,
    tail_out3 d L (m (oLoc d)), tail_out3 d L (outK m d)]
  unfold tabs
  iintro ⟨#Hlv, Hi, ⟨HT0, HT1, HT2⟩, ⟨⟨%f3, HB3⟩, ⟨%f5, HB5⟩, ⟨%f8, HB8⟩, ⟨%f10, HB10⟩, ⟨%f13, HB13⟩, ⟨%f15, HB15⟩, Hbufs⟩, ⟨⟨Hc0, Hc1, Hc2, Hc3, Hc4, Hc5, Hc6, Hc7, Hc8, Hc9, Hc10, Hc11, Hc12, Hc13, Hc14, Hc15, Hc16, Hc17⟩, Hsems⟩, ⟨Hout0, Hout1, Hout2⟩, HO⟩
  ihave Hmw := ((K (F := F)).mayWaits_none (thr := tailThr d L) hO) $$ Hlv
  ihave Hi' := (Transfers.pointsTo_toks_split qi 50) $$ Hi
  icases Hi' with ⟨Hidrop, Htoks⟩
  sl_unfold [tail34]
  rw [k0_part36_eq_skeleton, k0_part39_eq_skeleton, k0_part43_eq_skeleton]
  -- ===== the lookup of table 0 =====
  ihave r3HBI := (r3IBuf_split d L f3) $$ HB3
  icases r3HBI with ⟨r3I0, r3I1, r3Ir⟩
  ihave r3HBO := (r3OBuf_split d L f5) $$ HB5
  icases r3HBO with ⟨r3O0, r3O1, r3Or⟩
  ihave r3I0' := (Entails.of_eq (r3ISlotPt_congr d L (k0_off1_eq.symm) r3inbI0 k0_off1_inb f3)) $$ r3I0
  ihave r3Htk := (Entails.of_eq (r3_take (tailFin 0) (tailTokPt m d qi))) $$ Htoks
  icases r3Htk with ⟨r3tok0, Htoks⟩
  ihave r3Hsp := (pointsTo_split_subset (Finset.subset_univ (tailIBlk (k0_off2 L) (k0_off2_inb L)).view.set)).1 $$ r3tok0
  icases r3Hsp with ⟨r3In0, r3rest0⟩
  ihave r3In0' := (Entails.of_eq (show (iLoc d ↦[(tailIBlk (k0_off2 L) (k0_off2_inb L)).view.set]{shareTok qi 50 (tailFin 0)} idxT m d : sProp 𝕄)
      = ((tailIBlk (k0_off2 L) (k0_off2_inb L)).view.loc (tailThr d L) ↦[(tailIBlk (k0_off2 L) (k0_off2_inb L)).view.set]{shareTok qi 50 (tailFin 0)} idxT m d) from rfl)) $$ r3In0
  sl_exec
  have r3eS : k0_off3 = k0_off9 (tailW 0) := by rw [k0_off3_eq, Arith.off9_eq]; rfl
  have r3eL : k0_off1 = k0_off7 (tailW 0) := by rw [k0_off1_eq, Arith.off7_eq]; rfl
  have r3eB : k0_off2 L = r3bi L (tailFin 0) := Arith.off2_eq L
  have r3e41 : (![1, 0, 0, 0] : Fin 4 → ℕ) = k0_off4 (tailW (0 + 1)) := by rw [Arith.off4_eq]; rfl
  have r3e51 : (![1, 0, 0, 0, 0] : Fin 5 → ℕ) = k0_off10 (tailW (0 + 1)) := by rw [Arith.off10_eq]; rfl
  have r3e50 : (![0, 0, 0, 0, 0] : Fin 5 → ℕ) = k0_off10 (tailW 0) := by rw [Arith.off10_eq]; rfl
  sl_for (r3inv m d L O W qi qs) $$ [Hmw HT0 Hc7 Hc3 r3rest0 r3I1 Hc4 Htoks r3O1 Hc6 r3O0 Hc5 Hout0 HO]
  case region =>
    intro k acc
    exact r3trip m d L O W qi qs k hx acc
  · unfold r3inv r3out
    rw [if_pos (show (0 : ℕ) < 50 by decide), if_pos (rfl : (0 : ℕ) = 0)]
    unfold r3idxMid
    isplitr; · ipureintro; rfl
    isplitr; · iexact Hmw
    isplitl [HT0]; · iexact HT0
    isplitl [Hc7]; · iexact Hc7
    isplitl [Hc3 r3rest0 r3I1 Hc4 Htoks]
    · isplitl [Hc3]
      · iexists _
        isplitr
        · ipureintro
          exact r3good_congr m d L r3eL r3eB k0_off1_inb (k0_off2_inb L) (r3hb7 _) (r3bi_inb L _) _ (r3good_write m d L k0_off1 k0_off1_inb (k0_off2 L) (k0_off2_inb L) f3)
        · iapply (Entails.of_eq (r3FI_congr m d L r3eS r3eL r3eB k0_off3_inb k0_off1_inb (k0_off2_inb L) (r3hb9 _) (r3hb7 _) (r3bi_inb L _) _ _))
          iexact Hc3
      isplitl [r3rest0]
      · iapply (Entails.of_eq (tailIRest_congr d r3eB (k0_off2_inb L) (r3bi_inb L _) _ _)); iexact r3rest0
      isplitl [r3I1]
      · iexists f3; iapply (Entails.of_eq (r3ISlotPt_congr d L r3e41 r3inbI1 (r3hb4 _) f3)); iexact r3I1
      isplitl [Hc4]; · iexact Hc4
      iexact Htoks
    isplitl [r3O1 Hc6 r3O0 Hc5 Hout0]
    · isplitl [r3O1 Hc6]
      · isplitl [r3O1]
        · iexists f5; iapply (Entails.of_eq (r3OSlotPt_congr d L r3e51 r3inbO1 (r3hb10 _) f5)); iexact r3O1
        iexact Hc6
      isplitl [r3O0]
      · iexists f5; iapply (Entails.of_eq (r3OSlotPt_congr d L r3e50 r3inbO0 (r3hb10 _) f5)); iexact r3O0
      isplitl [Hc5]; · iexact Hc5
      isplitr
      · rw [Finset.filter_false_of_mem (fun u _ => by omega), bigSep_empty]; iempintro
      · rw [Finset.filter_true_of_mem (fun u _ => Nat.zero_le _)]; iexact Hout0
    iexists _; isplitr
    rotate_left
    · iexact HO
    · ipureintro; exact (fun p hp => .inl hp)
  iintro %r3acc r3HI
  ihave r3HI' := (Entails.of_eq (congrArg (fun n => r3inv m d L O W qi qs n r3acc) Arith.trips1)) $$ r3HI
  ihave r3HE := (r3inv_end m d L O W qi qs r3acc) $$ r3HI'
  icases r3HE with ⟨%r3hacc, -, HT0, Hc7, ⟨⟨%r3fa, r3Sa⟩, Hc3, ⟨%r3fc, r3Sc⟩, Hc4, Htoks⟩, ⟨⟨%r3fbp, r3FO⟩, ⟨%r3fb, r3OS⟩, Hc5, r3done, r3todo⟩, ⟨%W3a, %hW3a, HO⟩⟩
  subst r3hacc
  have r3hk5 : k0_chk5 L (tailW 0) := Arith.chk5_end L
  have r3hk4 : k0_chk4 (tailW 49) := Arith.chk4_all _
  sl_exec
  -- the lookup's buffers whole again, its fifty blocks done
  ihave r3BI := (r3I_back d L r3fa r3fc f3) $$ [r3Sa r3Sc r3Ir]
  · isplitl [r3Sa]; · iexact r3Sa
    isplitl [r3Sc]; · iexact r3Sc
    iexact r3Ir
  ihave r3BO := (r3O_back d L r3fb r3fbp f5) $$ [r3OS r3FO_src r3Or]
  · isplitl [r3OS]; · iexact r3OS
    isplitl [r3FO_src]; · iexact r3FO_src
    iexact r3Or
  ihave r3All := (r3_allDone m d L) $$ [r3FO_dst r3done]
  · isplitl [r3FO_dst]; · iexact r3FO_dst
    iexact r3done
  -- ===== the lookup of table 1 =====
  ihave r5HBI := (r5IBuf_split d L f8) $$ HB8
  icases r5HBI with ⟨r5I0, r5I1, r5Ir⟩
  ihave r5HBO := (r5OBuf_split d L f10) $$ HB10
  icases r5HBO with ⟨r5O0, r5O1, r5Or⟩
  ihave r5I0' := (Entails.of_eq (r5ISlotPt_congr d L (k0_off22_eq.symm) r5inbI0 k0_off22_inb f8)) $$ r5I0
  ihave r5Htk := (Entails.of_eq (r5_take (tailFin 0) (tailTokPt m d qi))) $$ Htoks
  icases r5Htk with ⟨r5tok0, Htoks⟩
  ihave r5Hsp := (pointsTo_split_subset (Finset.subset_univ (tailIBlk (k0_off23 L) (k0_off23_inb L)).view.set)).1 $$ r5tok0
  icases r5Hsp with ⟨r5In0, r5rest0⟩
  ihave r5In0' := (Entails.of_eq (show (iLoc d ↦[(tailIBlk (k0_off23 L) (k0_off23_inb L)).view.set]{shareTok qi 50 (tailFin 0)} idxT m d : sProp 𝕄)
      = ((tailIBlk (k0_off23 L) (k0_off23_inb L)).view.loc (tailThr d L) ↦[(tailIBlk (k0_off23 L) (k0_off23_inb L)).view.set]{shareTok qi 50 (tailFin 0)} idxT m d) from rfl)) $$ r5In0
  sl_exec
  have r5eS : k0_off24 = k0_off30 (tailW 0) := by rw [k0_off24_eq, Arith.off9_eq_r5]; rfl
  have r5eL : k0_off22 = k0_off28 (tailW 0) := by rw [k0_off22_eq, Arith.off7_eq_r5]; rfl
  have r5eB : k0_off23 L = r5bi L (tailFin 0) := Arith.off2_eq_r5 L
  have r5e41 : (![1, 0, 0, 0] : Fin 4 → ℕ) = k0_off25 (tailW (0 + 1)) := by rw [Arith.off4_eq_r5]; rfl
  have r5e51 : (![1, 0, 0, 0, 0] : Fin 5 → ℕ) = k0_off31 (tailW (0 + 1)) := by rw [Arith.off10_eq_r5]; rfl
  have r5e50 : (![0, 0, 0, 0, 0] : Fin 5 → ℕ) = k0_off31 (tailW 0) := by rw [Arith.off10_eq_r5]; rfl
  sl_for (r5inv m d L O W qi qs) $$ [Hmw HT1 Hc12 Hc8 r5rest0 r5I1 Hc9 Htoks r5O1 Hc11 r5O0 Hc10 Hout1 HO]
  case region =>
    intro k acc
    exact r5trip m d L O W qi qs k hx acc
  · unfold r5inv r5out
    rw [if_pos (show (0 : ℕ) < 50 by decide), if_pos (rfl : (0 : ℕ) = 0)]
    unfold r5idxMid
    isplitr; · ipureintro; rfl
    isplitr; · iexact Hmw
    isplitl [HT1]; · iexact HT1
    isplitl [Hc12]; · iexact Hc12
    isplitl [Hc8 r5rest0 r5I1 Hc9 Htoks]
    · isplitl [Hc8]
      · iexists _
        isplitr
        · ipureintro
          exact r5good_congr m d L r5eL r5eB k0_off22_inb (k0_off23_inb L) (r5hb7 _) (r5bi_inb L _) _ (r5good_write m d L k0_off22 k0_off22_inb (k0_off23 L) (k0_off23_inb L) f8)
        · iapply (Entails.of_eq (r5FI_congr m d L r5eS r5eL r5eB k0_off24_inb k0_off22_inb (k0_off23_inb L) (r5hb9 _) (r5hb7 _) (r5bi_inb L _) _ _))
          iexact Hc8
      isplitl [r5rest0]
      · iapply (Entails.of_eq (tailIRest_congr d r5eB (k0_off23_inb L) (r5bi_inb L _) _ _)); iexact r5rest0
      isplitl [r5I1]
      · iexists f8; iapply (Entails.of_eq (r5ISlotPt_congr d L r5e41 r5inbI1 (r5hb4 _) f8)); iexact r5I1
      isplitl [Hc9]; · iexact Hc9
      iexact Htoks
    isplitl [r5O1 Hc11 r5O0 Hc10 Hout1]
    · isplitl [r5O1 Hc11]
      · isplitl [r5O1]
        · iexists f10; iapply (Entails.of_eq (r5OSlotPt_congr d L r5e51 r5inbO1 (r5hb10 _) f10)); iexact r5O1
        iexact Hc11
      isplitl [r5O0]
      · iexists f10; iapply (Entails.of_eq (r5OSlotPt_congr d L r5e50 r5inbO0 (r5hb10 _) f10)); iexact r5O0
      isplitl [Hc10]; · iexact Hc10
      isplitr
      · rw [Finset.filter_false_of_mem (fun u _ => by omega), bigSep_empty]; iempintro
      · rw [Finset.filter_true_of_mem (fun u _ => Nat.zero_le _)]; iexact Hout1
    iexists _; isplitr
    rotate_left
    · iexact HO
    · ipureintro; exact (tail_waits_insert _ hW3a)
  iintro %r5acc r5HI
  ihave r5HI' := (Entails.of_eq (congrArg (fun n => r5inv m d L O W qi qs n r5acc) Arith.trips2)) $$ r5HI
  ihave r5HE := (r5inv_end m d L O W qi qs r5acc) $$ r5HI'
  icases r5HE with ⟨%r5hacc, -, HT1, Hc12, ⟨⟨%r5fa, r5Sa⟩, Hc8, ⟨%r5fc, r5Sc⟩, Hc9, Htoks⟩, ⟨⟨%r5fbp, r5FO⟩, ⟨%r5fb, r5OS⟩, Hc10, r5done, r5todo⟩, ⟨%W5a, %hW5a, HO⟩⟩
  subst r5hacc
  have r5hk5 : k0_chk10 L (tailW 0) := Arith.chk5_end_r5 L
  have r5hk4 : k0_chk9 (tailW 49) := Arith.chk4_all_r5 _
  sl_exec
  -- the lookup's buffers whole again, its fifty blocks done
  ihave r5BI := (r5I_back d L r5fa r5fc f8) $$ [r5Sa r5Sc r5Ir]
  · isplitl [r5Sa]; · iexact r5Sa
    isplitl [r5Sc]; · iexact r5Sc
    iexact r5Ir
  ihave r5BO := (r5O_back d L r5fb r5fbp f10) $$ [r5OS r5FO_src r5Or]
  · isplitl [r5OS]; · iexact r5OS
    isplitl [r5FO_src]; · iexact r5FO_src
    iexact r5Or
  ihave r5All := (r5_allDone m d L) $$ [r5FO_dst r5done]
  · isplitl [r5FO_dst]; · iexact r5FO_dst
    iexact r5done
  -- ===== the lookup of table 2 =====
  ihave r7HBI := (r7IBuf_split d L f13) $$ HB13
  icases r7HBI with ⟨r7I0, r7I1, r7Ir⟩
  ihave r7HBO := (r7OBuf_split d L f15) $$ HB15
  icases r7HBO with ⟨r7O0, r7O1, r7Or⟩
  ihave r7I0' := (Entails.of_eq (r7ISlotPt_congr d L (k0_off43_eq.symm) r7inbI0 k0_off43_inb f13)) $$ r7I0
  ihave r7Htk := (Entails.of_eq (r7_take (tailFin 0) (tailTokPt m d qi))) $$ Htoks
  icases r7Htk with ⟨r7tok0, Htoks⟩
  ihave r7Hsp := (pointsTo_split_subset (Finset.subset_univ (tailIBlk (k0_off44 L) (k0_off44_inb L)).view.set)).1 $$ r7tok0
  icases r7Hsp with ⟨r7In0, r7rest0⟩
  ihave r7In0' := (Entails.of_eq (show (iLoc d ↦[(tailIBlk (k0_off44 L) (k0_off44_inb L)).view.set]{shareTok qi 50 (tailFin 0)} idxT m d : sProp 𝕄)
      = ((tailIBlk (k0_off44 L) (k0_off44_inb L)).view.loc (tailThr d L) ↦[(tailIBlk (k0_off44 L) (k0_off44_inb L)).view.set]{shareTok qi 50 (tailFin 0)} idxT m d) from rfl)) $$ r7In0
  sl_exec
  have r7eS : k0_off45 = k0_off51 (tailW 0) := by rw [k0_off45_eq, Arith.off9_eq_r7]; rfl
  have r7eL : k0_off43 = k0_off49 (tailW 0) := by rw [k0_off43_eq, Arith.off7_eq_r7]; rfl
  have r7eB : k0_off44 L = r7bi L (tailFin 0) := Arith.off2_eq_r7 L
  have r7e41 : (![1, 0, 0, 0] : Fin 4 → ℕ) = k0_off46 (tailW (0 + 1)) := by rw [Arith.off4_eq_r7]; rfl
  have r7e51 : (![1, 0, 0, 0, 0] : Fin 5 → ℕ) = k0_off52 (tailW (0 + 1)) := by rw [Arith.off10_eq_r7]; rfl
  have r7e50 : (![0, 0, 0, 0, 0] : Fin 5 → ℕ) = k0_off52 (tailW 0) := by rw [Arith.off10_eq_r7]; rfl
  sl_for (r7inv m d L O W qi qs) $$ [Hmw HT2 Hc17 Hc13 r7rest0 r7I1 Hc14 Htoks r7O1 Hc16 r7O0 Hc15 Hout2 HO]
  case region =>
    intro k acc
    exact r7trip m d L O W qi qs k hx acc
  · unfold r7inv r7out
    rw [if_pos (show (0 : ℕ) < 50 by decide), if_pos (rfl : (0 : ℕ) = 0)]
    unfold r7idxMid
    isplitr; · ipureintro; rfl
    isplitr; · iexact Hmw
    isplitl [HT2]; · iexact HT2
    isplitl [Hc17]; · iexact Hc17
    isplitl [Hc13 r7rest0 r7I1 Hc14 Htoks]
    · isplitl [Hc13]
      · iexists _
        isplitr
        · ipureintro
          exact r7good_congr m d L r7eL r7eB k0_off43_inb (k0_off44_inb L) (r7hb7 _) (r7bi_inb L _) _ (r7good_write m d L k0_off43 k0_off43_inb (k0_off44 L) (k0_off44_inb L) f13)
        · iapply (Entails.of_eq (r7FI_congr m d L r7eS r7eL r7eB k0_off45_inb k0_off43_inb (k0_off44_inb L) (r7hb9 _) (r7hb7 _) (r7bi_inb L _) _ _))
          iexact Hc13
      isplitl [r7rest0]
      · iapply (Entails.of_eq (tailIRest_congr d r7eB (k0_off44_inb L) (r7bi_inb L _) _ _)); iexact r7rest0
      isplitl [r7I1]
      · iexists f13; iapply (Entails.of_eq (r7ISlotPt_congr d L r7e41 r7inbI1 (r7hb4 _) f13)); iexact r7I1
      isplitl [Hc14]; · iexact Hc14
      iexact Htoks
    isplitl [r7O1 Hc16 r7O0 Hc15 Hout2]
    · isplitl [r7O1 Hc16]
      · isplitl [r7O1]
        · iexists f15; iapply (Entails.of_eq (r7OSlotPt_congr d L r7e51 r7inbO1 (r7hb10 _) f15)); iexact r7O1
        iexact Hc16
      isplitl [r7O0]
      · iexists f15; iapply (Entails.of_eq (r7OSlotPt_congr d L r7e50 r7inbO0 (r7hb10 _) f15)); iexact r7O0
      isplitl [Hc15]; · iexact Hc15
      isplitr
      · rw [Finset.filter_false_of_mem (fun u _ => by omega), bigSep_empty]; iempintro
      · rw [Finset.filter_true_of_mem (fun u _ => Nat.zero_le _)]; iexact Hout2
    iexists _; isplitr
    rotate_left
    · iexact HO
    · ipureintro; exact (tail_waits_insert _ hW5a)
  iintro %r7acc r7HI
  ihave r7HI' := (Entails.of_eq (congrArg (fun n => r7inv m d L O W qi qs n r7acc) Arith.trips3)) $$ r7HI
  ihave r7HE := (r7inv_end m d L O W qi qs r7acc) $$ r7HI'
  icases r7HE with ⟨%r7hacc, -, HT2, Hc17, ⟨⟨%r7fa, r7Sa⟩, Hc13, ⟨%r7fc, r7Sc⟩, Hc14, Htoks⟩, ⟨⟨%r7fbp, r7FO⟩, ⟨%r7fb, r7OS⟩, Hc15, r7done, r7todo⟩, ⟨%W7a, %hW7a, HO⟩⟩
  subst r7hacc
  have r7hk5 : k0_chk15 L (tailW 0) := Arith.chk5_end_r7 L
  have r7hk4 : k0_chk14 (tailW 49) := Arith.chk4_all_r7 _
  sl_exec
  -- the lookup's buffers whole again, its fifty blocks done
  ihave r7BI := (r7I_back d L r7fa r7fc f13) $$ [r7Sa r7Sc r7Ir]
  · isplitl [r7Sa]; · iexact r7Sa
    isplitl [r7Sc]; · iexact r7Sc
    iexact r7Ir
  ihave r7BO := (r7O_back d L r7fb r7fbp f15) $$ [r7OS r7FO_src r7Or]
  · isplitl [r7OS]; · iexact r7OS
    isplitl [r7FO_src]; · iexact r7FO_src
    iexact r7Or
  ihave r7All := (r7_allDone m d L) $$ [r7FO_dst r7done]
  · isplitl [r7FO_dst]; · iexact r7FO_dst
    iexact r7done
  sl_step
  -- what the task hands back
  isplitl [Hidrop Htoks]
  · iapply (Transfers.pointsTo_toks_join qi 50)
    isplitl [Hidrop]; · iexact Hidrop
    iexact Htoks
  isplitl [HT0 HT1 HT2]
  · isplitl [HT0]; · iexact HT0
    isplitl [HT1]; · iexact HT1
    iexact HT2
  isplitl [r3BI r3BO r5BI r5BO r7BI r7BO Hbufs]
  · isplitl [r3BI]; · iexact r3BI
    isplitl [r3BO]; · iexact r3BO
    isplitl [r5BI]; · iexact r5BI
    isplitl [r5BO]; · iexact r5BO
    isplitl [r7BI]; · iexact r7BI
    isplitl [r7BO]; · iexact r7BO
    iexact Hbufs
  isplitl [Hc0 Hc1 Hc2 Hc3 Hc4 Hc5 r3FO Hc7 Hc8 Hc9 Hc10 r5FO Hc12 Hc13 Hc14 Hc15 r7FO Hc17 Hsems]
  · isplitl [Hc0 Hc1 Hc2 Hc3 Hc4 Hc5 r3FO Hc7 Hc8 Hc9 Hc10 r5FO Hc12 Hc13 Hc14 Hc15 r7FO Hc17]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [r3FO]; · iexact r3FO
      isplitl [Hc7]; · iexact Hc7
      isplitl [Hc8]; · iexact Hc8
      isplitl [Hc9]; · iexact Hc9
      isplitl [Hc10]; · iexact Hc10
      isplitl [r5FO]; · iexact r5FO
      isplitl [Hc12]; · iexact Hc12
      isplitl [Hc13]; · iexact Hc13
      isplitl [Hc14]; · iexact Hc14
      isplitl [Hc15]; · iexact Hc15
      isplitl [r7FO]; · iexact r7FO
      iexact Hc17
    iexact Hsems
  isplitl [r3All r5All r7All]
  · isplitl [r3All]; · iexact r3All
    isplitl [r5All]; · iexact r5All
    iexact r7All
  iexists _; isplitr
  rotate_left
  · iexact HO
  · ipureintro; exact tail_waits_insert _ hW7a

end Cert.Proof.K

end
-- ==== Proof.KITailDef.lean ====
/-
  The body of a tile's task after its opening part: the three pipelined lookups, as the printed program states them,
  and the split of the task into the opening part followed by this remainder.
-/
import proofs.«206595_g34437047779621_cont_8to1_b_428_16_alg».proof.Proof.KIR34

noncomputable section

namespace Cert.Proof.KI

open Cert.KernelIdeal Cert.KernelIdeal.Gen

open Idealize.ShloMosaic Idealize.SL.Sem

variable {F : FTy → Type} [FloatOps F]

set_option cleanup.letToHave false in set_option maxHeartbeats 40000000 in
/-- The task after its opening part, over the words that part computed. -/
def tail34 (L : grid0.Coords) (r : Σ' (arg0 : BitVec 32) (arg1 : BitVec 32) (v7 : BitVec 32) (v20_r3 : BitVec 32) (c32_i32_r3 : BitVec 32) (v35_r3 : BitVec 32), BitVec 32) :
    Prog (TpuEff nD τ sig (Elt F) Λ₀ (.scVector ((L 0).castLE hcore0) ((L 1).castLE hsub0))) PUnit :=
  match r with
  | ⟨arg0, arg1, v7, v20_r3, c32_i32_r3, v35_r3, v40_r3⟩ => do
    let ⟨v72_r3, c0_i32_47_r3, c0_i32_48_r3, c0_i32_49_r3, c0_i32_50_r3, c0_i32_51_r3⟩ : Σ' (v72_r3 : BitVec 32) (c0_i32_47_r3 : BitVec 32) (c0_i32_48_r3 : BitVec 32) (c0_i32_49_r3 : BitVec 32) (c0_i32_50_r3 : BitVec 32), BitVec 32 ← k0_part35 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v20_r3 c32_i32_r3 v35_r3 v40_r3
    let ⟨v74_3_r3, v74_4_r3, k0_hw5, k0_hw4, v79_r3, c32_i32_72_r3, v96_r3, v101_r3, v103_r3, v105_r3⟩ : Σ' (v74_3_r3 : BitVec 32) (v74_4_r3 : BitVec 32) (k0_hw5 : k0_chk5 L v74_4_r3) (k0_hw4 : k0_chk4 v74_3_r3) (v79_r3 : BitVec 32) (c32_i32_72_r3 : BitVec 32) (v96_r3 : BitVec 32) (v101_r3 : BitVec 32) (v103_r3 : BitVec 32), BitVec 32 ← k0_part36 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v7 v72_r3 c0_i32_47_r3 c0_i32_48_r3 c0_i32_49_r3 c0_i32_50_r3 c0_i32_51_r3
    let ⟨v12, c0_i32_11_r5⟩ : Σ' (v12 : BitVec 32), BitVec 32 ← k0_part37 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 arg0 arg1 v74_3_r3 v74_4_r3 k0_hw5 k0_hw4 v79_r3 c32_i32_72_r3 v96_r3 v101_r3 v103_r3 v105_r3
    let ⟨v20_r5, v51_r5, v53_r5⟩ : Σ' (v20_r5 : BitVec 32) (v51_r5 : BitVec 32), BitVec 32 ← k0_part38 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v12 c0_i32_11_r5
    let ⟨v74_3_r5, v74_4_r5, k0_hw10, k0_hw9, v78_r5, v79_r5, v81_r5⟩ : Σ' (v74_3_r5 : BitVec 32) (v74_4_r5 : BitVec 32) (k0_hw10 : k0_chk10 L v74_4_r5) (k0_hw9 : k0_chk9 v74_3_r5) (v78_r5 : BitVec 32) (v79_r5 : BitVec 32), BitVec 32 ← k0_part39 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v12 v20_r5 v51_r5 v53_r5
    let ⟨v112_r5, v114_r5, v115_r5, v116_r5, v117_r5, c0_i32_84_r5⟩ : Σ' (v112_r5 : BitVec 32) (v114_r5 : BitVec 32) (v115_r5 : BitVec 32) (v116_r5 : BitVec 1) (v117_r5 : BitVec 1), BitVec 32 ← k0_part40 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v12 v74_3_r5 v78_r5 v79_r5 v81_r5
    let ⟨v17, v20_r7, v27_r7, c1_i32_19_r7⟩ : Σ' (v17 : BitVec 32) (v20_r7 : BitVec 32) (v27_r7 : BitVec 32), BitVec 32 ← k0_part41 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 arg0 arg1 v74_3_r5 v74_4_r5 k0_hw10 k0_hw9 v112_r5 v114_r5 v115_r5 v116_r5 v117_r5 c0_i32_84_r5
    k0_part42 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v17 v20_r7 v27_r7 c1_i32_19_r7
    let ⟨v74_3_r7, v74_4_r7, k0_hw15, k0_hw14, v79_r7, v91_r7, v92_r7⟩ : Σ' (v74_3_r7 : BitVec 32) (v74_4_r7 : BitVec 32) (k0_hw15 : k0_chk15 L v74_4_r7) (k0_hw14 : k0_chk14 v74_3_r7) (v79_r7 : BitVec 32) (v91_r7 : BitVec 32), BitVec 1 ← k0_part43 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v17
    k0_part44 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 v17 v74_3_r7 v74_4_r7 k0_hw15 k0_hw14 v79_r7 v91_r7 v92_r7
    let v130_r7 : Memref sig .scVector .hbm S1x1x128x128 .f32 := (Memref.whole main_v1_scv).slice (Rect.unit (s := S50x3x4096x128) (k0_off61 L v74_4_r7) S1x1x128x128.size (k0_off61_inb L v74_4_r7 k0_hw15)) (fun _ => rfl)
    let v131_r7 : Memref sig .scVector .vmem S1x1x1x128x128 .f32 := (Memref.whole cc0_scoped15).slice (Rect.unit (s := S2x1x1x128x128) (k0_off63 v74_3_r7) S1x1x1x128x128.size (k0_off63_inb v74_3_r7 k0_hw14)) (fun _ => rfl)
    let v132_r7 : Memref sig .scVector .vmem S1x1x128x128 .f32 := v131_r7.squeeze S1x1x128x128 squeezes_S1x1x1x128x128_S1x1x128x128
    let v128_r7 : DmaSems sig S1 := cc0_scoped16.slice (Rect.unit (s := S2) (k0_off62 v74_3_r7) S1.size (k0_off62_inb v74_3_r7 k0_hw14))
    let v129_r7 : DmaSems sig S_ := v128_r7.squeeze S_ squeezes_S1_S_
    Prog.lift (.waitDma2 v129_r7.sem v132_r7 v130_r7 ((View.wordExact_bits rfl).reshape _ _) (View.wordExact_bits rfl))
    pure ⟨⟩

set_option maxRecDepth 65536 in
/-- The task is its opening part followed by the remainder. -/
theorem cc0_k_eq_head_tail (L : grid0.Coords) :
    cc0_k (F := F) L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17
      = k0_part34 L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 >>= tail34 L := rfl

end Cert.Proof.KI

end
-- ==== Proof.KIArith.lean ====
/-
  The index arithmetic of the three-table lookup kernel.  Thirty-two workers (two cores of sixteen
  subcores each) share the 1600 steps of a table, worker w taking steps 50 w to 50 w + 49; step s moves
  the 128 index words at row s / 32, columns 128 (s % 32) onwards, of table l's plane of the index
  array, and the 128 by 128 block of looked-up rows to the same place of the result.  The printed
  program computes these places by floor division and remainder on 32-bit words, chooses between two
  buffer slots by the parity of a carried counter, and guards each transfer by a comparison of
  neighbouring blocks.  Here every printed offset, branch condition and assumed bound is put in closed
  form over the worker and the trip.  The closed forms over workers and trips are checked at each of
  the 32 workers and 50 trips; the bounds follow from them by linear arithmetic.
-/
import proofs.«206595_g34437047779621_cont_8to1_b_428_16_alg».proof.Proof.Gen.KernelIdeal

set_option synthInstance.maxSize 4096
-- one evaluation at a time: each walks every worker and trip and holds its terms while it runs
set_option Elab.async false

namespace Cert.KernelIdeal.Arith

open Idealize.ShloMosaic Idealize.SL.Sem

/-- The worker number of a grid point: subcore plus sixteen times the core. -/
def w (i : grid0.Coords) : Nat := (i 1).val + 16 * (i 0).val
/-- The step a worker takes at trip t. -/
def s (i : grid0.Coords) (t : Nat) : Nat := 50 * w i + t
/-- The block of index words a step reads for table l. -/
def blkIn (l : Nat) (i : grid0.Coords) (t : Nat) : Fin 3 → Nat := ![l, s i t / 32, 128 * (s i t % 32)]
/-- The block of the result a step writes for table l. -/
def blkOut (l : Nat) (i : grid0.Coords) (t : Nat) : Fin 4 → Nat := ![s i t / 32, l, 128 * (s i t % 32), 0]

theorem w_lt : ∀ i : grid0.Coords, w i < 32 := by decide +kernel

theorem s_lt (i : grid0.Coords) (t : Nat) (ht : t < 50) : s i t < 1600 := by
  have := w_lt i; unfold s; omega

/-- A block of index words lies inside the index array. -/
theorem blkIn_inb (l : Nat) (hl : l < 3) (i : grid0.Coords) (t : Nat) (ht : t < 50) :
    ∀ a, blkIn l i t a + S1x1x128.size a ≤ S3x50x4096.size a := by
  have hs := s_lt i t ht
  intro a
  fin_cases a <;> simp [blkIn] <;> omega

/-- A block of the result lies inside the result. -/
theorem blkOut_inb (l : Nat) (hl : l < 3) (i : grid0.Coords) (t : Nat) (ht : t < 50) :
    ∀ a, blkOut l i t a + S1x1x128x128.size a ≤ S50x3x4096x128.size a := by
  have hs := s_lt i t ht
  intro a
  fin_cases a <;> simp [blkOut] <;> omega

/-- Unsigned remainder by two of a word is the remainder of its value. -/
theorem remui_two (a : BitVec 32) : (Scalar.remui a 2#32).toNat = a.toNat % 2 := by
  rw [Scalar.remui, IntOp.remui, if_neg (by decide), BitVec.toNat_umod]; rfl

/-- Either slot of a two-slot buffer or semaphore pair lies inside it. -/
theorem slot1 (a : BitVec 32) : ∀ j, (![a.toNat % 2] : Fin 1 → Nat) j + S1.size j ≤ S2.size j := by
  have h : a.toNat % 2 < 2 := Nat.mod_lt _ (by decide)
  intro j
  fin_cases j <;> simp <;> omega
theorem slot4 (a : BitVec 32) :
    ∀ j, (![a.toNat % 2, 0, 0, 0] : Fin 4 → Nat) j + S1x1x1x128.size j ≤ S2x1x1x128.size j := by
  have h : a.toNat % 2 < 2 := Nat.mod_lt _ (by decide)
  intro j
  fin_cases j <;> simp <;> omega
theorem slot5 (a : BitVec 32) :
    ∀ j, (![a.toNat % 2, 0, 0, 0, 0] : Fin 5 → Nat) j + S1x1x1x128x128.size j ≤ S2x1x1x128x128.size j := by
  have h : a.toNat % 2 < 2 := Nat.mod_lt _ (by decide)
  intro j
  fin_cases j <;> simp <;> omega

/-! ## The first loop: table 0 -/

theorem trips1 : k0_t1_loop.trips = 50 := by decide +kernel

/-! The buffer and semaphore slots: a carried word picks the slot of its parity, whatever the word. -/

theorem off4_eq (a : BitVec 32) : k0_off4 a = ![a.toNat % 2, 0, 0, 0] := by
  show ![(Scalar.remui a 2#32).toNat, 0, 0, 0] = _
  rw [remui_two]
theorem off6_eq (a : BitVec 32) : k0_off6 a = ![a.toNat % 2] := by
  show ![(Scalar.remui a 2#32).toNat] = _
  rw [remui_two]
theorem off7_eq (a : BitVec 32) : k0_off7 a = ![a.toNat % 2, 0, 0, 0] := by
  show ![(Scalar.remui a 2#32).toNat, 0, 0, 0] = _
  rw [remui_two]
theorem off9_eq (a : BitVec 32) : k0_off9 a = ![a.toNat % 2] := by
  show ![(Scalar.remui a 2#32).toNat] = _
  rw [remui_two]
theorem off10_eq (a : BitVec 32) : k0_off10 a = ![a.toNat % 2, 0, 0, 0, 0] := by
  show ![(Scalar.remui a 2#32).toNat, 0, 0, 0, 0] = _
  rw [remui_two]
theorem off11_eq (a : BitVec 32) : k0_off11 a = ![a.toNat % 2, 0, 0, 0] := by
  show ![(Scalar.remui a 2#32).toNat, 0, 0, 0] = _
  rw [remui_two]
theorem off12_eq (a : BitVec 32) : k0_off12 a = ![a.toNat % 2, 0, 0, 0, 0] := by
  show ![(Scalar.remui a 2#32).toNat, 0, 0, 0, 0] = _
  rw [remui_two]
theorem off14_eq (a : BitVec 32) : k0_off14 a = ![a.toNat % 2] := by
  show ![(Scalar.remui a 2#32).toNat] = _
  rw [remui_two]
theorem off15_eq (a : BitVec 32) : k0_off15 a = ![a.toNat % 2, 0, 0, 0, 0] := by
  show ![(Scalar.remui a 2#32).toNat, 0, 0, 0, 0] = _
  rw [remui_two]
theorem off17_eq (a : BitVec 32) : k0_off17 a = ![a.toNat % 2] := by
  show ![(Scalar.remui a 2#32).toNat] = _
  rw [remui_two]
theorem off18_eq (a : BitVec 32) : k0_off18 a = ![a.toNat % 2, 0, 0, 0, 0] := by
  show ![(Scalar.remui a 2#32).toNat, 0, 0, 0, 0] = _
  rw [remui_two]
theorem off20_eq (a : BitVec 32) : k0_off20 a = ![a.toNat % 2] := by
  show ![(Scalar.remui a 2#32).toNat] = _
  rw [remui_two]
theorem off21_eq (a : BitVec 32) : k0_off21 a = ![a.toNat % 2, 0, 0, 0, 0] := by
  show ![(Scalar.remui a 2#32).toNat, 0, 0, 0, 0] = _
  rw [remui_two]

theorem chk2_all (a : BitVec 32) : k0_chk2 a := by
  unfold k0_chk2; rw [off10_eq]; exact slot5 a
theorem chk3_all (a : BitVec 32) : k0_chk3 a := by
  unfold k0_chk3; rw [off11_eq]; exact slot4 a
theorem chk4_all (a : BitVec 32) : k0_chk4 a := by
  unfold k0_chk4; rw [off18_eq, off20_eq, off21_eq]; exact ⟨slot5 a, slot1 a, slot5 a⟩

/-! The branch conditions at trip t, the step counter carried as t: consecutive steps never share a
    block, so a fetch of the next step is issued at every trip but the last, this step's indices are always
    waited for and its rows always copied out, and the previous copy-out is waited for at every trip but
    the first. -/

theorem cond2_eq : ∀ (i : grid0.Coords) (t : Fin k0_t1_loop.trips),
    k0_cond2 i t (BitVec.ofNat 32 t.val) = if t.val < 49 then 1#1 else 0#1 := by decide +kernel
theorem cond3_eq : ∀ (i : grid0.Coords) (t : Fin k0_t1_loop.trips),
    k0_cond3 i t (BitVec.ofNat 32 t.val) = 1#1 := by decide +kernel
theorem cond6_eq : ∀ (i : grid0.Coords) (t : Fin k0_t1_loop.trips),
    k0_cond6 i t (BitVec.ofNat 32 t.val) = 1#1 := by decide +kernel
theorem cond8_eq : ∀ (i : grid0.Coords) (t : Fin k0_t1_loop.trips),
    k0_cond8 i t (BitVec.ofNat 32 t.val) = if 1 ≤ t.val then 1#1 else 0#1 := by decide +kernel

/-! The blocks: the floor quotient and remainder of the step by 32, computed on words, are the natural
    quotient and remainder. -/

theorem off2_eq : ∀ i : grid0.Coords, k0_off2 i = blkIn 0 i 0 := by decide +kernel

theorem off5_all : ∀ (i : grid0.Coords) (t : Fin 49),
    k0_off5 i (BitVec.ofNat 32 t.val) = blkIn 0 i (t.val + 1) := by decide +kernel
theorem off5_eq (i : grid0.Coords) (t : Nat) (ht : t < 49) :
    k0_off5 i (BitVec.ofNat 32 t) = blkIn 0 i (t + 1) := off5_all i ⟨t, ht⟩

theorem off8_all : ∀ (i : grid0.Coords) (t : Fin 50),
    k0_off8 i (BitVec.ofNat 32 t.val) = blkIn 0 i t.val := by decide +kernel
theorem off8_eq (i : grid0.Coords) (t : Nat) (ht : t < 50) :
    k0_off8 i (BitVec.ofNat 32 t) = blkIn 0 i t := off8_all i ⟨t, ht⟩

theorem off13_all : ∀ (i : grid0.Coords) (t : Fin 50),
    k0_off13 i (BitVec.ofNat 32 t.val) = blkOut 0 i t.val := by decide +kernel
theorem off13_eq (i : grid0.Coords) (t : Nat) (ht : t < 50) :
    k0_off13 i (BitVec.ofNat 32 t) = blkOut 0 i t := off13_all i ⟨t, ht⟩

theorem off16_all : ∀ (i : grid0.Coords) (t : Fin 49),
    k0_off16 i (BitVec.ofNat 32 (t.val + 1)) = blkOut 0 i t.val := by decide +kernel
theorem off16_eq (i : grid0.Coords) (t : Nat) (h1 : 1 ≤ t) (ht : t < 50) :
    k0_off16 i (BitVec.ofNat 32 t) = blkOut 0 i (t - 1) := by
  obtain ⟨u, rfl⟩ : ∃ u, t = u + 1 := ⟨t - 1, by omega⟩
  have h := off16_all i ⟨u, by omega⟩
  simp only [Nat.add_sub_cancel]
  exact h

theorem off19_eq : ∀ i : grid0.Coords, k0_off19 i 0#32 = blkOut 0 i 49 := by decide +kernel

/-! What the loop body assumes of its carried words holds at every trip, and what the epilogue assumes
    holds of the counter the loop ends with. -/

theorem chk1_inv (i : grid0.Coords) (t : Fin k0_t1_loop.trips) :
    k0_chk1 i t (BitVec.ofNat 32 (t.val + 1)) (BitVec.ofNat 32 t.val) (BitVec.ofNat 32 t.val)
      (BitVec.ofNat 32 (t.val - 1)) (BitVec.ofNat 32 t.val) := by
  have ht : t.val < 50 := lt_of_lt_of_eq t.isLt trips1
  refine ⟨fun _ => ?_, fun h => ?_, fun _ => ?_, fun _ => ?_, fun _ => ?_, fun _ => ?_, fun _ => ?_,
    fun _ => ?_, fun _ => ?_, fun _ => ?_, fun h => ?_, fun _ => ?_⟩
  · rw [off4_eq]; exact slot4 _
  · have h49 : t.val < 49 := by
      rw [cond2_eq] at h
      by_contra hn
      rw [if_neg hn] at h
      exact absurd h (by decide)
    rw [off5_eq i t.val h49]; exact blkIn_inb 0 (by decide) i (t.val + 1) (by omega)
  · rw [off6_eq]; exact slot1 _
  · rw [off7_eq]; exact slot4 _
  · rw [off8_eq i t.val ht]; exact blkIn_inb 0 (by decide) i t.val ht
  · rw [off9_eq]; exact slot1 _
  · rw [off12_eq]; exact slot5 _
  · rw [off13_eq i t.val ht]; exact blkOut_inb 0 (by decide) i t.val ht
  · rw [off14_eq]; exact slot1 _
  · rw [off15_eq]; exact slot5 _
  · have h1 : 1 ≤ t.val := by
      rw [cond8_eq] at h
      by_contra hn
      rw [if_neg hn] at h
      exact absurd h (by decide)
    rw [off16_eq i t.val h1 ht]; exact blkOut_inb 0 (by decide) i (t.val - 1) (by omega)
  · rw [off17_eq]; exact slot1 _

theorem chk5_end (i : grid0.Coords) : k0_chk5 i 0#32 := by
  unfold k0_chk5; rw [off19_eq]; exact blkOut_inb 0 (by decide) i 49 (by decide)

/-! ## The second loop: table 1 -/

theorem trips2 : k0_t2_loop.trips = 50 := by decide +kernel

/-! The buffer and semaphore slots: a carried word picks the slot of its parity, whatever the word. -/

theorem off4_eq_r5 (a : BitVec 32) : k0_off25 a = ![a.toNat % 2, 0, 0, 0] := by
  show ![(Scalar.remui a 2#32).toNat, 0, 0, 0] = _
  rw [remui_two]
theorem off6_eq_r5 (a : BitVec 32) : k0_off27 a = ![a.toNat % 2] := by
  show ![(Scalar.remui a 2#32).toNat] = _
  rw [remui_two]
theorem off7_eq_r5 (a : BitVec 32) : k0_off28 a = ![a.toNat % 2, 0, 0, 0] := by
  show ![(Scalar.remui a 2#32).toNat, 0, 0, 0] = _
  rw [remui_two]
theorem off9_eq_r5 (a : BitVec 32) : k0_off30 a = ![a.toNat % 2] := by
  show ![(Scalar.remui a 2#32).toNat] = _
  rw [remui_two]
theorem off10_eq_r5 (a : BitVec 32) : k0_off31 a = ![a.toNat % 2, 0, 0, 0, 0] := by
  show ![(Scalar.remui a 2#32).toNat, 0, 0, 0, 0] = _
  rw [remui_two]
theorem off11_eq_r5 (a : BitVec 32) : k0_off32 a = ![a.toNat % 2, 0, 0, 0] := by
  show ![(Scalar.remui a 2#32).toNat, 0, 0, 0] = _
  rw [remui_two]
theorem off12_eq_r5 (a : BitVec 32) : k0_off33 a = ![a.toNat % 2, 0, 0, 0, 0] := by
  show ![(Scalar.remui a 2#32).toNat, 0, 0, 0, 0] = _
  rw [remui_two]
theorem off14_eq_r5 (a : BitVec 32) : k0_off35 a = ![a.toNat % 2] := by
  show ![(Scalar.remui a 2#32).toNat] = _
  rw [remui_two]
theorem off15_eq_r5 (a : BitVec 32) : k0_off36 a = ![a.toNat % 2, 0, 0, 0, 0] := by
  show ![(Scalar.remui a 2#32).toNat, 0, 0, 0, 0] = _
  rw [remui_two]
theorem off17_eq_r5 (a : BitVec 32) : k0_off38 a = ![a.toNat % 2] := by
  show ![(Scalar.remui a 2#32).toNat] = _
  rw [remui_two]
theorem off18_eq_r5 (a : BitVec 32) : k0_off39 a = ![a.toNat % 2, 0, 0, 0, 0] := by
  show ![(Scalar.remui a 2#32).toNat, 0, 0, 0, 0] = _
  rw [remui_two]
theorem off20_eq_r5 (a : BitVec 32) : k0_off41 a = ![a.toNat % 2] := by
  show ![(Scalar.remui a 2#32).toNat] = _
  rw [remui_two]
theorem off21_eq_r5 (a : BitVec 32) : k0_off42 a = ![a.toNat % 2, 0, 0, 0, 0] := by
  show ![(Scalar.remui a 2#32).toNat, 0, 0, 0, 0] = _
  rw [remui_two]

theorem chk2_all_r5 (a : BitVec 32) : k0_chk7 a := by
  unfold k0_chk7; rw [off10_eq_r5]; exact slot5 a
theorem chk3_all_r5 (a : BitVec 32) : k0_chk8 a := by
  unfold k0_chk8; rw [off11_eq_r5]; exact slot4 a
theorem chk4_all_r5 (a : BitVec 32) : k0_chk9 a := by
  unfold k0_chk9; rw [off18_eq_r5, off20_eq_r5, off21_eq_r5]; exact ⟨slot5 a, slot1 a, slot5 a⟩

/-! The branch conditions at trip t, the step counter carried as t: consecutive steps never share a
    block, so a fetch of the next step is issued at every trip but the last, this step's indices are always
    waited for and its rows always copied out, and the previous copy-out is waited for at every trip but
    the first. -/

theorem cond2_eq_r5 : ∀ (i : grid0.Coords) (t : Fin k0_t2_loop.trips),
    k0_cond9 i t (BitVec.ofNat 32 t.val) = if t.val < 49 then 1#1 else 0#1 := by decide +kernel
theorem cond3_eq_r5 : ∀ (i : grid0.Coords) (t : Fin k0_t2_loop.trips),
    k0_cond10 i t (BitVec.ofNat 32 t.val) = 1#1 := by decide +kernel
theorem cond6_eq_r5 : ∀ (i : grid0.Coords) (t : Fin k0_t2_loop.trips),
    k0_cond13 i t (BitVec.ofNat 32 t.val) = 1#1 := by decide +kernel
theorem cond8_eq_r5 : ∀ (i : grid0.Coords) (t : Fin k0_t2_loop.trips),
    k0_cond15 i t (BitVec.ofNat 32 t.val) = if 1 ≤ t.val then 1#1 else 0#1 := by decide +kernel

/-! The blocks: the floor quotient and remainder of the step by 32, computed on words, are the natural
    quotient and remainder. -/

theorem off2_eq_r5 : ∀ i : grid0.Coords, k0_off23 i = blkIn 1 i 0 := by decide +kernel

theorem off5_all_r5 : ∀ (i : grid0.Coords) (t : Fin 49),
    k0_off26 i (BitVec.ofNat 32 t.val) = blkIn 1 i (t.val + 1) := by decide +kernel
theorem off5_eq_r5 (i : grid0.Coords) (t : Nat) (ht : t < 49) :
    k0_off26 i (BitVec.ofNat 32 t) = blkIn 1 i (t + 1) := off5_all_r5 i ⟨t, ht⟩

theorem off8_all_r5 : ∀ (i : grid0.Coords) (t : Fin 50),
    k0_off29 i (BitVec.ofNat 32 t.val) = blkIn 1 i t.val := by decide +kernel
theorem off8_eq_r5 (i : grid0.Coords) (t : Nat) (ht : t < 50) :
    k0_off29 i (BitVec.ofNat 32 t) = blkIn 1 i t := off8_all_r5 i ⟨t, ht⟩

theorem off13_all_r5 : ∀ (i : grid0.Coords) (t : Fin 50),
    k0_off34 i (BitVec.ofNat 32 t.val) = blkOut 1 i t.val := by decide +kernel
theorem off13_eq_r5 (i : grid0.Coords) (t : Nat) (ht : t < 50) :
    k0_off34 i (BitVec.ofNat 32 t) = blkOut 1 i t := off13_all_r5 i ⟨t, ht⟩

theorem off16_all_r5 : ∀ (i : grid0.Coords) (t : Fin 49),
    k0_off37 i (BitVec.ofNat 32 (t.val + 1)) = blkOut 1 i t.val := by decide +kernel
theorem off16_eq_r5 (i : grid0.Coords) (t : Nat) (h1 : 1 ≤ t) (ht : t < 50) :
    k0_off37 i (BitVec.ofNat 32 t) = blkOut 1 i (t - 1) := by
  obtain ⟨u, rfl⟩ : ∃ u, t = u + 1 := ⟨t - 1, by omega⟩
  have h := off16_all_r5 i ⟨u, by omega⟩
  simp only [Nat.add_sub_cancel]
  exact h

theorem off19_eq_r5 : ∀ i : grid0.Coords, k0_off40 i 0#32 = blkOut 1 i 49 := by decide +kernel

/-! What the loop body assumes of its carried words holds at every trip, and what the epilogue assumes
    holds of the counter the loop ends with. -/

theorem chk1_inv_r5 (i : grid0.Coords) (t : Fin k0_t2_loop.trips) :
    k0_chk6 i t (BitVec.ofNat 32 (t.val + 1)) (BitVec.ofNat 32 t.val) (BitVec.ofNat 32 t.val)
      (BitVec.ofNat 32 (t.val - 1)) (BitVec.ofNat 32 t.val) := by
  have ht : t.val < 50 := lt_of_lt_of_eq t.isLt trips2
  refine ⟨fun _ => ?_, fun h => ?_, fun _ => ?_, fun _ => ?_, fun _ => ?_, fun _ => ?_, fun _ => ?_,
    fun _ => ?_, fun _ => ?_, fun _ => ?_, fun h => ?_, fun _ => ?_⟩
  · rw [off4_eq_r5]; exact slot4 _
  · have h49 : t.val < 49 := by
      rw [cond2_eq_r5] at h
      by_contra hn
      rw [if_neg hn] at h
      exact absurd h (by decide)
    rw [off5_eq_r5 i t.val h49]; exact blkIn_inb 1 (by decide) i (t.val + 1) (by omega)
  · rw [off6_eq_r5]; exact slot1 _
  · rw [off7_eq_r5]; exact slot4 _
  · rw [off8_eq_r5 i t.val ht]; exact blkIn_inb 1 (by decide) i t.val ht
  · rw [off9_eq_r5]; exact slot1 _
  · rw [off12_eq_r5]; exact slot5 _
  · rw [off13_eq_r5 i t.val ht]; exact blkOut_inb 1 (by decide) i t.val ht
  · rw [off14_eq_r5]; exact slot1 _
  · rw [off15_eq_r5]; exact slot5 _
  · have h1 : 1 ≤ t.val := by
      rw [cond8_eq_r5] at h
      by_contra hn
      rw [if_neg hn] at h
      exact absurd h (by decide)
    rw [off16_eq_r5 i t.val h1 ht]; exact blkOut_inb 1 (by decide) i (t.val - 1) (by omega)
  · rw [off17_eq_r5]; exact slot1 _

theorem chk5_end_r5 (i : grid0.Coords) : k0_chk10 i 0#32 := by
  unfold k0_chk10; rw [off19_eq_r5]; exact blkOut_inb 1 (by decide) i 49 (by decide)

/-! ## The third loop: table 2 -/

theorem trips3 : k0_t3_loop.trips = 50 := by decide +kernel

/-! The buffer and semaphore slots: a carried word picks the slot of its parity, whatever the word. -/

theorem off4_eq_r7 (a : BitVec 32) : k0_off46 a = ![a.toNat % 2, 0, 0, 0] := by
  show ![(Scalar.remui a 2#32).toNat, 0, 0, 0] = _
  rw [remui_two]
theorem off6_eq_r7 (a : BitVec 32) : k0_off48 a = ![a.toNat % 2] := by
  show ![(Scalar.remui a 2#32).toNat] = _
  rw [remui_two]
theorem off7_eq_r7 (a : BitVec 32) : k0_off49 a = ![a.toNat % 2, 0, 0, 0] := by
  show ![(Scalar.remui a 2#32).toNat, 0, 0, 0] = _
  rw [remui_two]
theorem off9_eq_r7 (a : BitVec 32) : k0_off51 a = ![a.toNat % 2] := by
  show ![(Scalar.remui a 2#32).toNat] = _
  rw [remui_two]
theorem off10_eq_r7 (a : BitVec 32) : k0_off52 a = ![a.toNat % 2, 0, 0, 0, 0] := by
  show ![(Scalar.remui a 2#32).toNat, 0, 0, 0, 0] = _
  rw [remui_two]
theorem off11_eq_r7 (a : BitVec 32) : k0_off53 a = ![a.toNat % 2, 0, 0, 0] := by
  show ![(Scalar.remui a 2#32).toNat, 0, 0, 0] = _
  rw [remui_two]
theorem off12_eq_r7 (a : BitVec 32) : k0_off54 a = ![a.toNat % 2, 0, 0, 0, 0] := by
  show ![(Scalar.remui a 2#32).toNat, 0, 0, 0, 0] = _
  rw [remui_two]
theorem off14_eq_r7 (a : BitVec 32) : k0_off56 a = ![a.toNat % 2] := by
  show ![(Scalar.remui a 2#32).toNat] = _
  rw [remui_two]
theorem off15_eq_r7 (a : BitVec 32) : k0_off57 a = ![a.toNat % 2, 0, 0, 0, 0] := by
  show ![(Scalar.remui a 2#32).toNat, 0, 0, 0, 0] = _
  rw [remui_two]
theorem off17_eq_r7 (a : BitVec 32) : k0_off59 a = ![a.toNat % 2] := by
  show ![(Scalar.remui a 2#32).toNat] = _
  rw [remui_two]
theorem off18_eq_r7 (a : BitVec 32) : k0_off60 a = ![a.toNat % 2, 0, 0, 0, 0] := by
  show ![(Scalar.remui a 2#32).toNat, 0, 0, 0, 0] = _
  rw [remui_two]
theorem off20_eq_r7 (a : BitVec 32) : k0_off62 a = ![a.toNat % 2] := by
  show ![(Scalar.remui a 2#32).toNat] = _
  rw [remui_two]
theorem off21_eq_r7 (a : BitVec 32) : k0_off63 a = ![a.toNat % 2, 0, 0, 0, 0] := by
  show ![(Scalar.remui a 2#32).toNat, 0, 0, 0, 0] = _
  rw [remui_two]

theorem chk2_all_r7 (a : BitVec 32) : k0_chk12 a := by
  unfold k0_chk12; rw [off10_eq_r7]; exact slot5 a
theorem chk3_all_r7 (a : BitVec 32) : k0_chk13 a := by
  unfold k0_chk13; rw [off11_eq_r7]; exact slot4 a
theorem chk4_all_r7 (a : BitVec 32) : k0_chk14 a := by
  unfold k0_chk14; rw [off18_eq_r7, off20_eq_r7, off21_eq_r7]; exact ⟨slot5 a, slot1 a, slot5 a⟩

/-! The branch conditions at trip t, the step counter carried as t: consecutive steps never share a
    block, so a fetch of the next step is issued at every trip but the last, this step's indices are always
    waited for and its rows always copied out, and the previous copy-out is waited for at every trip but
    the first. -/

theorem cond2_eq_r7 : ∀ (i : grid0.Coords) (t : Fin k0_t3_loop.trips),
    k0_cond16 i t (BitVec.ofNat 32 t.val) = if t.val < 49 then 1#1 else 0#1 := by decide +kernel
theorem cond3_eq_r7 : ∀ (i : grid0.Coords) (t : Fin k0_t3_loop.trips),
    k0_cond17 i t (BitVec.ofNat 32 t.val) = 1#1 := by decide +kernel
theorem cond6_eq_r7 : ∀ (i : grid0.Coords) (t : Fin k0_t3_loop.trips),
    k0_cond20 i t (BitVec.ofNat 32 t.val) = 1#1 := by decide +kernel
theorem cond8_eq_r7 : ∀ (i : grid0.Coords) (t : Fin k0_t3_loop.trips),
    k0_cond22 i t (BitVec.ofNat 32 t.val) = if 1 ≤ t.val then 1#1 else 0#1 := by decide +kernel

/-! The blocks: the floor quotient and remainder of the step by 32, computed on words, are the natural
    quotient and remainder. -/

theorem off2_eq_r7 : ∀ i : grid0.Coords, k0_off44 i = blkIn 2 i 0 := by decide +kernel

theorem off5_all_r7 : ∀ (i : grid0.Coords) (t : Fin 49),
    k0_off47 i (BitVec.ofNat 32 t.val) = blkIn 2 i (t.val + 1) := by decide +kernel
theorem off5_eq_r7 (i : grid0.Coords) (t : Nat) (ht : t < 49) :
    k0_off47 i (BitVec.ofNat 32 t) = blkIn 2 i (t + 1) := off5_all_r7 i ⟨t, ht⟩

theorem off8_all_r7 : ∀ (i : grid0.Coords) (t : Fin 50),
    k0_off50 i (BitVec.ofNat 32 t.val) = blkIn 2 i t.val := by decide +kernel
theorem off8_eq_r7 (i : grid0.Coords) (t : Nat) (ht : t < 50) :
    k0_off50 i (BitVec.ofNat 32 t) = blkIn 2 i t := off8_all_r7 i ⟨t, ht⟩

theorem off13_all_r7 : ∀ (i : grid0.Coords) (t : Fin 50),
    k0_off55 i (BitVec.ofNat 32 t.val) = blkOut 2 i t.val := by decide +kernel
theorem off13_eq_r7 (i : grid0.Coords) (t : Nat) (ht : t < 50) :
    k0_off55 i (BitVec.ofNat 32 t) = blkOut 2 i t := off13_all_r7 i ⟨t, ht⟩

theorem off16_all_r7 : ∀ (i : grid0.Coords) (t : Fin 49),
    k0_off58 i (BitVec.ofNat 32 (t.val + 1)) = blkOut 2 i t.val := by decide +kernel
theorem off16_eq_r7 (i : grid0.Coords) (t : Nat) (h1 : 1 ≤ t) (ht : t < 50) :
    k0_off58 i (BitVec.ofNat 32 t) = blkOut 2 i (t - 1) := by
  obtain ⟨u, rfl⟩ : ∃ u, t = u + 1 := ⟨t - 1, by omega⟩
  have h := off16_all_r7 i ⟨u, by omega⟩
  simp only [Nat.add_sub_cancel]
  exact h

theorem off19_eq_r7 : ∀ i : grid0.Coords, k0_off61 i 0#32 = blkOut 2 i 49 := by decide +kernel

/-! What the loop body assumes of its carried words holds at every trip, and what the epilogue assumes
    holds of the counter the loop ends with. -/

theorem chk1_inv_r7 (i : grid0.Coords) (t : Fin k0_t3_loop.trips) :
    k0_chk11 i t (BitVec.ofNat 32 (t.val + 1)) (BitVec.ofNat 32 t.val) (BitVec.ofNat 32 t.val)
      (BitVec.ofNat 32 (t.val - 1)) (BitVec.ofNat 32 t.val) := by
  have ht : t.val < 50 := lt_of_lt_of_eq t.isLt trips3
  refine ⟨fun _ => ?_, fun h => ?_, fun _ => ?_, fun _ => ?_, fun _ => ?_, fun _ => ?_, fun _ => ?_,
    fun _ => ?_, fun _ => ?_, fun _ => ?_, fun h => ?_, fun _ => ?_⟩
  · rw [off4_eq_r7]; exact slot4 _
  · have h49 : t.val < 49 := by
      rw [cond2_eq_r7] at h
      by_contra hn
      rw [if_neg hn] at h
      exact absurd h (by decide)
    rw [off5_eq_r7 i t.val h49]; exact blkIn_inb 2 (by decide) i (t.val + 1) (by omega)
  · rw [off6_eq_r7]; exact slot1 _
  · rw [off7_eq_r7]; exact slot4 _
  · rw [off8_eq_r7 i t.val ht]; exact blkIn_inb 2 (by decide) i t.val ht
  · rw [off9_eq_r7]; exact slot1 _
  · rw [off12_eq_r7]; exact slot5 _
  · rw [off13_eq_r7 i t.val ht]; exact blkOut_inb 2 (by decide) i t.val ht
  · rw [off14_eq_r7]; exact slot1 _
  · rw [off15_eq_r7]; exact slot5 _
  · have h1 : 1 ≤ t.val := by
      rw [cond8_eq_r7] at h
      by_contra hn
      rw [if_neg hn] at h
      exact absurd h (by decide)
    rw [off16_eq_r7 i t.val h1 ht]; exact blkOut_inb 2 (by decide) i (t.val - 1) (by omega)
  · rw [off17_eq_r7]; exact slot1 _

theorem chk5_end_r7 (i : grid0.Coords) : k0_chk15 i 0#32 := by
  unfold k0_chk15; rw [off19_eq_r7]; exact blkOut_inb 2 (by decide) i 49 (by decide)

end Cert.KernelIdeal.Arith
-- ==== Proof.KITailLib.lean ====
/-
  What the three pipelined lookups of a tile's task share: the tile's thread, the blocks of the index array and of the
  output a step moves, a semaphore of a pair, the words a loop carries, and the bookkeeping of a family of pieces from
  which one is taken or to which one is added.
-/
import proofs.«206595_g34437047779621_cont_8to1_b_428_16_alg».proof.Proof.KITailDef
import proofs.«206595_g34437047779621_cont_8to1_b_428_16_alg».proof.Proof.KIArith
import Idealize.ShloMosaic.Lib.SparseCore.Stream

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

/-- The tile's thread. -/
abbrev tailThr : Thread nD τ := V d (cV L) (jV L)

/-- A block of 128 index words in HBM. -/
abbrev tailIBlk (off : Fin 3 → ℕ) (h : ∀ a, off a + S1x1x128.size a ≤ S3x50x4096.size a) : Memref sig .scVector .hbm S1x1x128 .i32 :=
  (Memref.whole main_v0_scv).slice (Rect.unit (s := S3x50x4096) off S1x1x128.size h) (fun _ => rfl)
/-- A block of 128 rows of the output in HBM. -/
abbrev tailOBlk (off : Fin 4 → ℕ) (h : ∀ a, off a + S1x1x128x128.size a ≤ S50x3x4096x128.size a) : Memref sig .scVector .hbm S1x1x128x128 .f32 :=
  (Memref.whole main_v1_scv).slice (Rect.unit (s := S50x3x4096x128) off S1x1x128x128.size h) (fun _ => rfl)
/-- One semaphore of a pair. -/
abbrev tailSem (A : DmaSems sig S2) (off : Fin 1 → ℕ) (h : ∀ a, off a + S1.size a ≤ S2.size a) : DmaSem sig :=
  ((A.slice (Rect.unit (s := S2) off S1.size h)).squeeze S_ squeezes_S1_S_).sem

/-- A carried word. -/
abbrev tailW (n : ℕ) : BitVec 32 := BitVec.ofNat 32 n

omit [FloatOps F] in
theorem tailW_toNat {n : ℕ} (h : n < 2 ^ 32) : (tailW n).toNat = n := by
  unfold tailW; rw [BitVec.toNat_ofNat]; exact Nat.mod_eq_of_lt h

/-- A trip number as one of the fifty. -/
def tailFin (n : ℕ) : Fin 50 := ⟨n % 50, Nat.mod_lt _ (by decide)⟩
omit [FloatOps F] in
theorem tailFin_val {n : ℕ} (h : n < 50) : (tailFin n).val = n := Nat.mod_eq_of_lt h

/-- The tile's coordinates as the launch names them. -/
abbrev tailC : Fin 2 := ⟨(L 0).val, (L 0).isLt⟩
abbrev tailI : Fin 16 := ⟨(L 1).val, (L 1).isLt⟩

/-- The output block of table `l` at the tile's trip `u`, at contents `f`. -/
abbrev tailOPt (l : Fin 3) (u : Fin 50) (f : Buf (Elt F) (oLoc d)) : sProp 𝕄 :=
  oLoc d ↦[oSet l (stpF (tailC L) (tailI L) u)]{fullShare} f

/-- The read token of trip `u` on the index array. -/
abbrev tailTokPt (qi : PosShare TreeShare) (u : Fin 50) : sProp 𝕄 := iLoc d ↦{shareTok qi 50 u} idxT m d

omit [FloatOps F] in
/-- A family of pieces selected by `q` is one piece `a` and the family selected by `p`, when `q` selects `a` and what `p` selects. -/
theorem tail_bigSep_step {I : Type} [Fintype I] [DecidableEq I] (p q : I → Prop) [DecidablePred p] [DecidablePred q] (a : I)
    (hpa : ¬ p a) (h : ∀ u, q u ↔ (p u ∨ u = a)) (Φ : I → sProp 𝕄) :
    bigSep (Finset.univ.filter q) Φ = iprop(Φ a ∗ bigSep (Finset.univ.filter p) Φ) := by
  have e : Finset.univ.filter q = insert a (Finset.univ.filter p) := by
    ext u
    simp only [Finset.mem_filter, Finset.mem_univ, true_and, Finset.mem_insert]
    rw [h u]; exact Or.comm
  rw [e, SparseCore.bigSep_insert' (by simp only [Finset.mem_filter, Finset.mem_univ, true_and]; exact hpa)]

omit [FloatOps F] in
theorem tail_numel128 : S128.numel = S1x1x128.numel := by decide

/-- A word of an index block is at most 999 when the index words are in range. -/
theorem tailI_le (boff : Fin 3 → ℕ) (hb : ∀ a, boff a + S1x1x128.size a ≤ S3x50x4096.size a)
    (hx : Cert.Lookup.InRange (m (xLoc d) : IVec Cert.Lookup.SX 32)) (x : S128.Idx) :
    (((tailIBlk boff hb).view.reshape S128 tail_numel128).read (Elt F) (idxT m d) x).toNat ≤ 999 := by
  have e : ((tailIBlk boff hb).view.reshape S128 tail_numel128).read (Elt F) (idxT m d) x
      = (idxT m d) (((tailIBlk boff hb).view.reshape S128 tail_numel128).emb x) := (View.read_apply _ _).trans (cast_eq _ _)
  rw [e]
  exact hx _

omit [FloatOps F] in
theorem tailCell_congr (A : DmaSems sig S2) {off off' : Fin 1 → ℕ} (e : off = off') (h : ∀ a, off a + S1.size a ≤ S2.size a)
    (h' : ∀ a, off' a + S1.size a ≤ S2.size a) :
    (semVal (tailThr d L, SemLoc.dma (tailSem A off h)) 0 : sProp 𝕄) = semVal (tailThr d L, SemLoc.dma (tailSem A off' h')) 0 := by subst e; rfl

omit [FloatOps F] in
theorem tailW_par {a b : ℕ} (ha : a < 2 ^ 32) (hb : b < 2 ^ 32) (h : a % 2 = b % 2) : (tailW a).toNat % 2 = (tailW b).toNat % 2 := by
  rw [tailW_toNat ha, tailW_toNat hb, h]

omit [FloatOps F] in
theorem tailIRest_congr {off off' : Fin 3 → ℕ} (e : off = off') (h : ∀ a, off a + S1x1x128.size a ≤ S3x50x4096.size a)
    (h' : ∀ a, off' a + S1x1x128.size a ≤ S3x50x4096.size a) (q : PosShare TreeShare) (f : Buf (Elt F) (iLoc d)) :
    (iLoc d ↦[Finset.univ \ (tailIBlk off h).view.set]{q} f : sProp 𝕄) = iLoc d ↦[Finset.univ \ (tailIBlk off' h').view.set]{q} f := by subst e; rfl
omit [FloatOps F] in
theorem tailIBlkPt_congr {off off' : Fin 3 → ℕ} (e : off = off') (h : ∀ a, off a + S1x1x128.size a ≤ S3x50x4096.size a)
    (h' : ∀ a, off' a + S1x1x128.size a ≤ S3x50x4096.size a) (q : PosShare TreeShare) (f : Buf (Elt F) (iLoc d)) :
    ((tailIBlk off h).view.loc (tailThr d L) ↦[(tailIBlk off h).view.set]{q} f : sProp 𝕄) = (tailIBlk off' h').view.loc (tailThr d L) ↦[(tailIBlk off' h').view.set]{q} f := by subst e; rfl
omit [FloatOps F] in
theorem tailOBlkPt_congr {off off' : Fin 4 → ℕ} (e : off = off') (h : ∀ a, off a + S1x1x128x128.size a ≤ S50x3x4096x128.size a)
    (h' : ∀ a, off' a + S1x1x128x128.size a ≤ S50x3x4096x128.size a) (f : Buf (Elt F) (oLoc d)) :
    ((tailOBlk off h).view.loc (tailThr d L) ↦[(tailOBlk off h).view.set]{fullShare} f : sProp 𝕄) = (tailOBlk off' h').view.loc (tailThr d L) ↦[(tailOBlk off' h').view.set]{fullShare} f := by subst e; rfl

/-! ## The tile's own semaphores and buffers, one by one -/

abbrev tailDsem (k : ℕ) (hk : k < 18 := by decide) : DmaSem sig := ⟨k, hk⟩
abbrev tailDcell (k : Fin 18) : GSem nD τ sig := (tailThr d L, .dma (tailDsem k.val k.isLt))

omit [FloatOps F] in
theorem tailDcell_mem (k : Fin 18) : tailDcell d L k ∈ ownCells (tailThr d L) :=
  mem_ownCells.mpr ⟨rfl, (show ∀ s : DmaSem sig, (SemLoc.dma s : SemLoc sig).isScoped .scVector = true by decide) _⟩

omit [FloatOps F] in
/-- The tile's own semaphores at zero: its eighteen DMA semaphores, one by one, and the rest. -/
theorem tail_ownSems0 :
    (ownSems0 (tailThr d L) : sProp 𝕄)
      = iprop((semVal (tailDcell d L 0) 0 ∗ semVal (tailDcell d L 1) 0 ∗ semVal (tailDcell d L 2) 0 ∗ semVal (tailDcell d L 3) 0
            ∗ semVal (tailDcell d L 4) 0 ∗ semVal (tailDcell d L 5) 0 ∗ semVal (tailDcell d L 6) 0 ∗ semVal (tailDcell d L 7) 0
            ∗ semVal (tailDcell d L 8) 0 ∗ semVal (tailDcell d L 9) 0 ∗ semVal (tailDcell d L 10) 0 ∗ semVal (tailDcell d L 11) 0
            ∗ semVal (tailDcell d L 12) 0 ∗ semVal (tailDcell d L 13) 0 ∗ semVal (tailDcell d L 14) 0 ∗ semVal (tailDcell d L 15) 0
            ∗ semVal (tailDcell d L 16) 0 ∗ semVal (tailDcell d L 17) 0)
          ∗ bigSep (ownCells (tailThr d L) \ Finset.univ.image (tailDcell d L)) fun g => semVal g 0) := by
  unfold SparseCore.Cfg.ownSems0
  rw [SparseCore.bigSep_sdiff_split' (t := Finset.univ.image (tailDcell d L)) (Finset.image_subset_iff.mpr fun k _ => tailDcell_mem d L k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 18)) = {0, 1, 2, 3, 4, 5, 6, 7, 8, 9, 10, 11, 12, 13, 14, 15, 16, 17} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
/-- The tile's own buffers: the six scoped buffers of the three lookups, each whole at some contents, and the rest. -/
theorem tail_ownBufs :
    (ownBufs (tailThr d L) : sProp 𝕄)
      = iprop((∃ f, (tailThr d L).loc cc0_scoped3 ↦{fullShare} f)
          ∗ (∃ f, (tailThr d L).loc cc0_scoped5 ↦{fullShare} f)
          ∗ (∃ f, (tailThr d L).loc cc0_scoped8 ↦{fullShare} f)
          ∗ (∃ f, (tailThr d L).loc cc0_scoped10 ↦{fullShare} f)
          ∗ (∃ f, (tailThr d L).loc cc0_scoped13 ↦{fullShare} f)
          ∗ (∃ f, (tailThr d L).loc cc0_scoped15 ↦{fullShare} f)
          ∗ bigSep (((((((ownRefs (τ := τ) (.scVector (cV L) (jV L))).erase ((Proc.scVector (cV L) (jV L)).devRef cc0_scoped3)).erase ((Proc.scVector (cV L) (jV L)).devRef cc0_scoped5)).erase ((Proc.scVector (cV L) (jV L)).devRef cc0_scoped8)).erase ((Proc.scVector (cV L) (jV L)).devRef cc0_scoped10)).erase ((Proc.scVector (cV L) (jV L)).devRef cc0_scoped13)).erase ((Proc.scVector (cV L) (jV L)).devRef cc0_scoped15))
              fun b => iprop(∃ f, ((d, b) : Loc nD τ sig) ↦{fullShare} f)) := by
  unfold SparseCore.Cfg.ownBufs
  rw [SparseCore.bigSep_erase' (SparseCore.Cfg.mem_ownRefs_of_owner (p := (Proc.scVector (cV L) (jV L))) (b := ((Proc.scVector (cV L) (jV L)).devRef cc0_scoped3)) rfl),
    SparseCore.bigSep_erase' (Finset.mem_erase.mpr ⟨fun e => absurd (Proc.devRef_injective _ e) (show (cc0_scoped5 : Ref sig .scVector) ≠ cc0_scoped3 by decide), SparseCore.Cfg.mem_ownRefs_of_owner (p := (Proc.scVector (cV L) (jV L))) (b := ((Proc.scVector (cV L) (jV L)).devRef cc0_scoped5)) rfl⟩),
    SparseCore.bigSep_erase' (Finset.mem_erase.mpr ⟨fun e => absurd (Proc.devRef_injective _ e) (show (cc0_scoped8 : Ref sig .scVector) ≠ cc0_scoped5 by decide), Finset.mem_erase.mpr ⟨fun e => absurd (Proc.devRef_injective _ e) (show (cc0_scoped8 : Ref sig .scVector) ≠ cc0_scoped3 by decide), SparseCore.Cfg.mem_ownRefs_of_owner (p := (Proc.scVector (cV L) (jV L))) (b := ((Proc.scVector (cV L) (jV L)).devRef cc0_scoped8)) rfl⟩⟩),
    SparseCore.bigSep_erase' (Finset.mem_erase.mpr ⟨fun e => absurd (Proc.devRef_injective _ e) (show (cc0_scoped10 : Ref sig .scVector) ≠ cc0_scoped8 by decide), Finset.mem_erase.mpr ⟨fun e => absurd (Proc.devRef_injective _ e) (show (cc0_scoped10 : Ref sig .scVector) ≠ cc0_scoped5 by decide), Finset.mem_erase.mpr ⟨fun e => absurd (Proc.devRef_injective _ e) (show (cc0_scoped10 : Ref sig .scVector) ≠ cc0_scoped3 by decide), SparseCore.Cfg.mem_ownRefs_of_owner (p := (Proc.scVector (cV L) (jV L))) (b := ((Proc.scVector (cV L) (jV L)).devRef cc0_scoped10)) rfl⟩⟩⟩),
    SparseCore.bigSep_erase' (Finset.mem_erase.mpr ⟨fun e => absurd (Proc.devRef_injective _ e) (show (cc0_scoped13 : Ref sig .scVector) ≠ cc0_scoped10 by decide), Finset.mem_erase.mpr ⟨fun e => absurd (Proc.devRef_injective _ e) (show (cc0_scoped13 : Ref sig .scVector) ≠ cc0_scoped8 by decide), Finset.mem_erase.mpr ⟨fun e => absurd (Proc.devRef_injective _ e) (show (cc0_scoped13 : Ref sig .scVector) ≠ cc0_scoped5 by decide), Finset.mem_erase.mpr ⟨fun e => absurd (Proc.devRef_injective _ e) (show (cc0_scoped13 : Ref sig .scVector) ≠ cc0_scoped3 by decide), SparseCore.Cfg.mem_ownRefs_of_owner (p := (Proc.scVector (cV L) (jV L))) (b := ((Proc.scVector (cV L) (jV L)).devRef cc0_scoped13)) rfl⟩⟩⟩⟩),
    SparseCore.bigSep_erase' (Finset.mem_erase.mpr ⟨fun e => absurd (Proc.devRef_injective _ e) (show (cc0_scoped15 : Ref sig .scVector) ≠ cc0_scoped13 by decide), Finset.mem_erase.mpr ⟨fun e => absurd (Proc.devRef_injective _ e) (show (cc0_scoped15 : Ref sig .scVector) ≠ cc0_scoped10 by decide), Finset.mem_erase.mpr ⟨fun e => absurd (Proc.devRef_injective _ e) (show (cc0_scoped15 : Ref sig .scVector) ≠ cc0_scoped8 by decide), Finset.mem_erase.mpr ⟨fun e => absurd (Proc.devRef_injective _ e) (show (cc0_scoped15 : Ref sig .scVector) ≠ cc0_scoped5 by decide), Finset.mem_erase.mpr ⟨fun e => absurd (Proc.devRef_injective _ e) (show (cc0_scoped15 : Ref sig .scVector) ≠ cc0_scoped3 by decide), SparseCore.Cfg.mem_ownRefs_of_owner (p := (Proc.scVector (cV L) (jV L))) (b := ((Proc.scVector (cV L) (jV L)).devRef cc0_scoped15)) rfl⟩⟩⟩⟩⟩)]

end Cert.Proof.KI

end
-- ==== Proof.KITailR3D.lean ====
/-
  The first of the three pipelined lookups: its two-slot buffers, what is in flight on its semaphores, the facts that
  the fetched words are the index block's and stay in range, and the loop's invariant.  At trip t the fetch of index
  block t is in flight into the index slot of t's parity and the copy-out of the gathered rows of block t - 1 is in
  flight from the row slot of the other parity; the blocks before t - 1 hold the lookup's values.
-/
import proofs.«206595_g34437047779621_cont_8to1_b_428_16_alg».proof.Proof.KITailLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

/-! ## The buffers of the first lookup -/

/-- One slot of the two-slot buffer of index words. -/
abbrev r3iSlot (off : Fin 4 → ℕ) (h : ∀ a, off a + S1x1x1x128.size a ≤ S2x1x1x128.size a) : Memref sig .scVector .vmem S1x1x1x128 .i32 :=
  (Memref.whole cc0_scoped3).slice (Rect.unit (s := S2x1x1x128) off S1x1x1x128.size h) (fun _ => rfl)
/-- One slot of the two-slot buffer of gathered rows. -/
abbrev r3oSlot (off : Fin 5 → ℕ) (h : ∀ a, off a + S1x1x1x128x128.size a ≤ S2x1x1x128x128.size a) : Memref sig .scVector .vmem S1x1x1x128x128 .f32 :=
  (Memref.whole cc0_scoped5).slice (Rect.unit (s := S2x1x1x128x128) off S1x1x1x128x128.size h) (fun _ => rfl)
/-- The list of 128 index words of one slot, as the gather reads it. -/
abbrev r3list (off : Fin 4 → ℕ) (h : ∀ a, off a + S1x1x1x128.size a ≤ S2x1x1x128.size a) : Memref sig .scVector .vmem S128 .i32 :=
  ((((r3iSlot off h).squeeze S1x1x128 squeezes_S1x1x1x128_S1x1x128).slice (Rect.unit (s := S1x1x128) ![0, 0, 0] S1x1x128.size inb_S1x1x128_S1x1x128_0_0_0) (fun _ => rfl)).squeeze S128 squeezes_S1x1x128_S128)

/-- An index slot at contents `f`. -/
abbrev r3ISlotPt (off : Fin 4 → ℕ) (h : ∀ a, off a + S1x1x1x128.size a ≤ S2x1x1x128.size a)
    (f : Buf (Elt F) ((Memref.whole cc0_scoped3).view.loc (tailThr d L))) : sProp 𝕄 :=
  (r3iSlot off h).view.loc (tailThr d L) ↦[(r3iSlot off h).view.set]{fullShare} f
/-- A slot of gathered rows at contents `f`. -/
abbrev r3OSlotPt (off : Fin 5 → ℕ) (h : ∀ a, off a + S1x1x1x128x128.size a ≤ S2x1x1x128x128.size a)
    (f : Buf (Elt F) ((Memref.whole cc0_scoped5).view.loc (tailThr d L))) : sProp 𝕄 :=
  (r3oSlot off h).view.loc (tailThr d L) ↦[(r3oSlot off h).view.set]{fullShare} f

/-- A fetch of an index block into an index slot, in flight. -/
abbrev r3FI (offS : Fin 1 → ℕ) (hS : ∀ a, offS a + S1.size a ≤ S2.size a) (offL : Fin 4 → ℕ) (hL : ∀ a, offL a + S1x1x1x128.size a ≤ S2x1x1x128.size a)
    (offB : Fin 3 → ℕ) (hB : ∀ a, offB a + S1x1x128.size a ≤ S3x50x4096.size a) (q : PosShare TreeShare)
    (f : Buf (Elt F) ((Memref.whole cc0_scoped3).view.loc (tailThr d L))) : sProp 𝕄 :=
  Transfers.Flight countersEmb (tailThr d L) (SemLoc.dma (tailSem cc0_scoped4 offS hS)) (default : HIx 1) 4096
    iprop(((r3iSlot offL hL).view.loc (tailThr d L) ↦[(r3iSlot offL hL).view.set]{fullShare} f)
      ∗ ((tailIBlk offB hB).view.loc (tailThr d L) ↦[(tailIBlk offB hB).view.set]{q} idxT m d))
/-- A copy of a slot of gathered rows out to an output block, in flight. -/
abbrev r3FO (offS : Fin 1 → ℕ) (hS : ∀ a, offS a + S1.size a ≤ S2.size a) (offB : Fin 4 → ℕ) (hB : ∀ a, offB a + S1x1x128x128.size a ≤ S50x3x4096x128.size a)
    (fB : Buf (Elt F) (oLoc d)) (offL : Fin 5 → ℕ) (hL : ∀ a, offL a + S1x1x1x128x128.size a ≤ S2x1x1x128x128.size a)
    (fL : Buf (Elt F) ((Memref.whole cc0_scoped5).view.loc (tailThr d L))) : sProp 𝕄 :=
  Transfers.Flight countersEmb (tailThr d L) (SemLoc.dma (tailSem cc0_scoped6 offS hS)) (default : HIx 1) 524288
    iprop(((tailOBlk offB hB).view.loc (tailThr d L) ↦[(tailOBlk offB hB).view.set]{fullShare} fB)
      ∗ ((r3oSlot offL hL).view.loc (tailThr d L) ↦[(r3oSlot offL hL).view.set]{fullShare} fL))

/-- The index slot `off` holds the 128 words of the index block `boff`. -/
def r3good (off : Fin 4 → ℕ) (h : ∀ a, off a + S1x1x1x128.size a ≤ S2x1x1x128.size a)
    (boff : Fin 3 → ℕ) (hb : ∀ a, boff a + S1x1x128.size a ≤ S3x50x4096.size a)
    (f : Buf (Elt F) ((Memref.whole cc0_scoped3).view.loc (tailThr d L))) : Prop :=
  ∀ x : S128.Idx, (r3list off h).view.read (Elt F) f x = ((tailIBlk boff hb).view.reshape S128 tail_numel128).read (Elt F) (idxT m d) x

/-- The tile's first step of the 1600, as a word. -/
def r3v7 : BitVec 32 :=
  Scalar.muli (Scalar.addi (Scalar.addi (0#32) (Scalar.muli (BitVec.ofNat 32 (L 1).val) 1#32)) (Scalar.muli (BitVec.ofNat 32 (L 0).val) 16#32)) 50#32

/-- The table of the first lookup at a share. -/
abbrev r3Tab (qs : PosShare TreeShare) : sProp 𝕄 :=
  (Memref.whole cc0_scratch0).view.loc (tailThr d L) ↦{qs} (m (w0Loc d) : Buf (Elt F) (sh0Loc d (cV L)))

theorem r3list_subset (off : Fin 4 → ℕ) (h : ∀ a, off a + S1x1x1x128.size a ≤ S2x1x1x128.size a) :
    (r3list off h).view.set ⊆ (r3iSlot off h).view.set := by
  show ((((r3iSlot off h).view.reshape S1x1x128 _).slice _).reshape S128 _).set ⊆ _
  rw [View.set_reshape]
  refine (View.set_slice_subset _ _).trans ?_
  rw [View.set_reshape]

omit [FloatOps F] in
theorem r3_unit0_emb : ∀ x : S128.Idx,
    (Rect.unit (s := S1x1x128) ![0, 0, 0] S1x1x128.size inb_S1x1x128_S1x1x128_0_0_0).emb ((Shape.reshapeEquiv squeezes_S1x1x128_S128.numel_eq) x)
      = (Shape.reshapeEquiv (s := S1x1x128) (s' := S128) (by decide)) x := by
  decide +kernel

theorem r3good_write (off : Fin 4 → ℕ) (h : ∀ a, off a + S1x1x1x128.size a ≤ S2x1x1x128.size a)
    (boff : Fin 3 → ℕ) (hb : ∀ a, boff a + S1x1x128.size a ≤ S3x50x4096.size a)
    (fa : Buf (Elt F) ((Memref.whole cc0_scoped3).view.loc (tailThr d L))) :
    r3good m d L off h boff hb
      (View.write (Elt F) ((r3iSlot off h).squeeze S1x1x128 squeezes_S1x1x1x128_S1x1x128).view fa
        (ReadAs.same.apply (View.read (Elt F) (tailIBlk boff hb).view (idxT m d))) Finset.univ) := by
  intro x
  have e : (r3list off h).view.emb x
      = ((r3iSlot off h).squeeze S1x1x128 squeezes_S1x1x1x128_S1x1x128).view.emb ((Shape.reshapeEquiv (s := S1x1x128) (s' := S128) (by decide)) x) := by
    show ((r3iSlot off h).squeeze S1x1x128 squeezes_S1x1x1x128_S1x1x128).view.emb
        ((Rect.unit (s := S1x1x128) ![0, 0, 0] S1x1x128.size inb_S1x1x128_S1x1x128_0_0_0).emb ((Shape.reshapeEquiv squeezes_S1x1x128_S128.numel_eq) x)) = _
    rw [r3_unit0_emb]
  rw [View.read_apply, e, View.write_emb_of_mem _ _ (Finset.mem_univ _)]
  simp only [cast_cast, cast_eq]
  rfl

/-- A copy-out in flight, as the run leaves it, is the copy-out in flight the invariant states: its block at the values
    the block is to hold, its slot by the slot's own elements. -/
theorem r3FO_fix (offS : Fin 1 → ℕ) (hS : ∀ a, offS a + S1.size a ≤ S2.size a) (offB : Fin 4 → ℕ) (hB : ∀ a, offB a + S1x1x128x128.size a ≤ S50x3x4096x128.size a)
    (fB fB' : Buf (Elt F) (oLoc d)) (offL offL' : Fin 5 → ℕ) (hL : ∀ a, offL a + S1x1x1x128x128.size a ≤ S2x1x1x128x128.size a)
    (hL' : ∀ a, offL' a + S1x1x1x128x128.size a ≤ S2x1x1x128x128.size a)
    (fL : Buf (Elt F) ((Memref.whole cc0_scoped5).view.loc (tailThr d L)))
    (hv : ∀ i ∈ (tailOBlk offB hB).view.set, fB i = fB' i) (hoff : offL' = offL) :
    (Transfers.Flight countersEmb (tailThr d L) (SemLoc.dma (tailSem cc0_scoped6 offS hS)) (default : HIx 1) 524288
      iprop(((tailOBlk offB hB).view.loc (tailThr d L) ↦[(tailOBlk offB hB).view.set]{fullShare} fB)
        ∗ ((r3oSlot offL hL).view.loc (tailThr d L) ↦[((r3oSlot offL' hL').squeeze S1x1x128x128 squeezes_S1x1x1x128x128_S1x1x128x128).view.set]{fullShare} fL)) : sProp 𝕄)
      ⊢ r3FO d L offS hS offB hB fB' offL hL fL := by
  subst hoff
  have hset : ((r3oSlot offL' hL').squeeze S1x1x128x128 squeezes_S1x1x1x128x128_S1x1x128x128).view.set = (r3oSlot offL' hL).view.set :=
    View.set_reshape _ _
  refine Transfers.Flight_mono countersEmb (tailThr d L) ?_
  rw [pointsTo_congr hv, hset]

variable (O : CellTallies nD τ sig (HIx 1)) (W : Waits sig (HIx 1))

/-! ## Slots and semaphores of one parity under two spellings -/

omit [FloatOps F] in
theorem r3ISlotPt_congr {off off' : Fin 4 → ℕ} (e : off = off') (h : ∀ a, off a + S1x1x1x128.size a ≤ S2x1x1x128.size a)
    (h' : ∀ a, off' a + S1x1x1x128.size a ≤ S2x1x1x128.size a) (f : Buf (Elt F) ((Memref.whole cc0_scoped3).view.loc (tailThr d L))) :
    (r3ISlotPt d L off h f : sProp 𝕄) = r3ISlotPt d L off' h' f := by subst e; rfl
omit [FloatOps F] in
theorem r3OSlotPt_congr {off off' : Fin 5 → ℕ} (e : off = off') (h : ∀ a, off a + S1x1x1x128x128.size a ≤ S2x1x1x128x128.size a)
    (h' : ∀ a, off' a + S1x1x1x128x128.size a ≤ S2x1x1x128x128.size a) (f : Buf (Elt F) ((Memref.whole cc0_scoped5).view.loc (tailThr d L))) :
    (r3OSlotPt d L off h f : sProp 𝕄) = r3OSlotPt d L off' h' f := by subst e; rfl
omit [FloatOps F] in
theorem r3par4 {a b : ℕ} (ha : a < 2 ^ 32) (hb : b < 2 ^ 32) (h : a % 2 = b % 2) : k0_off7 (tailW a) = k0_off4 (tailW b) := by
  rw [Arith.off7_eq, Arith.off4_eq, tailW_par ha hb h]
omit [FloatOps F] in
theorem r3par1I {a b : ℕ} (ha : a < 2 ^ 32) (hb : b < 2 ^ 32) (h : a % 2 = b % 2) : k0_off9 (tailW a) = k0_off6 (tailW b) := by
  rw [Arith.off9_eq, Arith.off6_eq, tailW_par ha hb h]
omit [FloatOps F] in
theorem r3par5 {a b : ℕ} (ha : a < 2 ^ 32) (hb : b < 2 ^ 32) (h : a % 2 = b % 2) : k0_off15 (tailW a) = k0_off10 (tailW b) := by
  rw [Arith.off15_eq, Arith.off10_eq, tailW_par ha hb h]
omit [FloatOps F] in
theorem r3par1O {a b : ℕ} (ha : a < 2 ^ 32) (hb : b < 2 ^ 32) (h : a % 2 = b % 2) : k0_off17 (tailW a) = k0_off14 (tailW b) := by
  rw [Arith.off17_eq, Arith.off14_eq, tailW_par ha hb h]

/-! ## The two-slot buffers as their slots -/

omit [FloatOps F] in theorem r3inbI0 : ∀ a, (![0, 0, 0, 0] : Fin 4 → ℕ) a + S1x1x1x128.size a ≤ S2x1x1x128.size a := by decide
omit [FloatOps F] in theorem r3inbI1 : ∀ a, (![1, 0, 0, 0] : Fin 4 → ℕ) a + S1x1x1x128.size a ≤ S2x1x1x128.size a := by decide
omit [FloatOps F] in theorem r3inbO0 : ∀ a, (![0, 0, 0, 0, 0] : Fin 5 → ℕ) a + S1x1x1x128x128.size a ≤ S2x1x1x128x128.size a := by decide
omit [FloatOps F] in theorem r3inbO1 : ∀ a, (![1, 0, 0, 0, 0] : Fin 5 → ℕ) a + S1x1x1x128x128.size a ≤ S2x1x1x128x128.size a := by decide

omit [FloatOps F] in
theorem r3IDisj : Disjoint (r3iSlot ![1, 0, 0, 0] r3inbI1).view.set (r3iSlot ![0, 0, 0, 0] r3inbI0).view.set := by
  have h1 : (r3iSlot ![1, 0, 0, 0] r3inbI1).view.set = (Rect.unit (s := S2x1x1x128) ![1, 0, 0, 0] S1x1x1x128.size r3inbI1).set := View.set_slice_whole _ _
  have h0 : (r3iSlot ![0, 0, 0, 0] r3inbI0).view.set = (Rect.unit (s := S2x1x1x128) ![0, 0, 0, 0] S1x1x1x128.size r3inbI0).set := View.set_slice_whole _ _
  rw [h1, h0]
  exact Rect.disjoint_of_separated _ _ 0 (.inr (.inr (by decide)))
omit [FloatOps F] in
theorem r3ISub : (r3iSlot ![1, 0, 0, 0] r3inbI1).view.set ⊆ Finset.univ \ (r3iSlot ![0, 0, 0, 0] r3inbI0).view.set :=
  Finset.subset_sdiff.mpr ⟨Finset.subset_univ _, r3IDisj⟩
omit [FloatOps F] in
theorem r3ODisj : Disjoint (r3oSlot ![1, 0, 0, 0, 0] r3inbO1).view.set (r3oSlot ![0, 0, 0, 0, 0] r3inbO0).view.set := by
  have h1 : (r3oSlot ![1, 0, 0, 0, 0] r3inbO1).view.set = (Rect.unit (s := S2x1x1x128x128) ![1, 0, 0, 0, 0] S1x1x1x128x128.size r3inbO1).set := View.set_slice_whole _ _
  have h0 : (r3oSlot ![0, 0, 0, 0, 0] r3inbO0).view.set = (Rect.unit (s := S2x1x1x128x128) ![0, 0, 0, 0, 0] S1x1x1x128x128.size r3inbO0).set := View.set_slice_whole _ _
  rw [h1, h0]
  exact Rect.disjoint_of_separated _ _ 0 (.inr (.inr (by decide)))
omit [FloatOps F] in
theorem r3OSub : (r3oSlot ![1, 0, 0, 0, 0] r3inbO1).view.set ⊆ Finset.univ \ (r3oSlot ![0, 0, 0, 0, 0] r3inbO0).view.set :=
  Finset.subset_sdiff.mpr ⟨Finset.subset_univ _, r3ODisj⟩

/-- What of the index buffer lies in neither slot (nothing; kept as a piece so that no count is needed). -/
abbrev r3IRest : Finset (Idx ((tailThr d L).loc cc0_scoped3)) :=
  (Finset.univ \ (r3iSlot ![0, 0, 0, 0] r3inbI0).view.set) \ (r3iSlot ![1, 0, 0, 0] r3inbI1).view.set
abbrev r3ORest : Finset (Idx ((tailThr d L).loc cc0_scoped5)) :=
  (Finset.univ \ (r3oSlot ![0, 0, 0, 0, 0] r3inbO0).view.set) \ (r3oSlot ![1, 0, 0, 0, 0] r3inbO1).view.set

omit [FloatOps F] in
theorem r3IBuf_split (f : Buf (Elt F) ((tailThr d L).loc cc0_scoped3)) :
    ((tailThr d L).loc cc0_scoped3 ↦{fullShare} f : sProp 𝕄)
      ⊢ iprop(r3ISlotPt d L ![0, 0, 0, 0] r3inbI0 f ∗ r3ISlotPt d L ![1, 0, 0, 0] r3inbI1 f ∗ ((tailThr d L).loc cc0_scoped3 ↦[r3IRest d L]{fullShare} f)) := by
  iintro H
  ihave H' := (pointsTo_split_subset (Finset.subset_univ (r3iSlot ![0, 0, 0, 0] r3inbI0).view.set)).1 $$ H
  icases H' with ⟨H0, Hr⟩
  ihave Hr' := (pointsTo_split_subset r3ISub).1 $$ Hr
  icases Hr' with ⟨H1, Hr⟩
  isplitl [H0]; · iexact H0
  isplitl [H1]; · iexact H1
  iexact Hr

omit [FloatOps F] in
theorem r3IBuf_join (g0 g1 g : Buf (Elt F) ((tailThr d L).loc cc0_scoped3)) :
    iprop(r3ISlotPt d L ![0, 0, 0, 0] r3inbI0 g0 ∗ r3ISlotPt d L ![1, 0, 0, 0] r3inbI1 g1 ∗ ((tailThr d L).loc cc0_scoped3 ↦[r3IRest d L]{fullShare} g))
      ⊢ (∃ f, (tailThr d L).loc cc0_scoped3 ↦{fullShare} f : sProp 𝕄) := by
  iintro ⟨H0, H1, Hr⟩
  ihave Hr' := (pointsTo_join_subset (ℓ := (tailThr d L).loc cc0_scoped3) r3ISub) $$ [H1 Hr]
  · isplitl [H1]; · iexact H1
    iexact Hr
  ihave H := (pointsTo_join_subset (ℓ := (tailThr d L).loc cc0_scoped3) (Finset.subset_univ (r3iSlot ![0, 0, 0, 0] r3inbI0).view.set)) $$ [H0 Hr']
  · isplitl [H0]; · iexact H0
    iexact Hr'
  iexists _; iexact H

omit [FloatOps F] in
theorem r3OBuf_split (f : Buf (Elt F) ((tailThr d L).loc cc0_scoped5)) :
    ((tailThr d L).loc cc0_scoped5 ↦{fullShare} f : sProp 𝕄)
      ⊢ iprop(r3OSlotPt d L ![0, 0, 0, 0, 0] r3inbO0 f ∗ r3OSlotPt d L ![1, 0, 0, 0, 0] r3inbO1 f ∗ ((tailThr d L).loc cc0_scoped5 ↦[r3ORest d L]{fullShare} f)) := by
  iintro H
  ihave H' := (pointsTo_split_subset (Finset.subset_univ (r3oSlot ![0, 0, 0, 0, 0] r3inbO0).view.set)).1 $$ H
  icases H' with ⟨H0, Hr⟩
  ihave Hr' := (pointsTo_split_subset r3OSub).1 $$ Hr
  icases Hr' with ⟨H1, Hr⟩
  isplitl [H0]; · iexact H0
  isplitl [H1]; · iexact H1
  iexact Hr

omit [FloatOps F] in
theorem r3OBuf_join (g0 g1 g : Buf (Elt F) ((tailThr d L).loc cc0_scoped5)) :
    iprop(r3OSlotPt d L ![0, 0, 0, 0, 0] r3inbO0 g0 ∗ r3OSlotPt d L ![1, 0, 0, 0, 0] r3inbO1 g1 ∗ ((tailThr d L).loc cc0_scoped5 ↦[r3ORest d L]{fullShare} g))
      ⊢ (∃ f, (tailThr d L).loc cc0_scoped5 ↦{fullShare} f : sProp 𝕄) := by
  iintro ⟨H0, H1, Hr⟩
  ihave Hr' := (pointsTo_join_subset (ℓ := (tailThr d L).loc cc0_scoped5) r3OSub) $$ [H1 Hr]
  · isplitl [H1]; · iexact H1
    iexact Hr
  ihave H := (pointsTo_join_subset (ℓ := (tailThr d L).loc cc0_scoped5) (Finset.subset_univ (r3oSlot ![0, 0, 0, 0, 0] r3inbO0).view.set)) $$ [H0 Hr']
  · isplitl [H0]; · iexact H0
    iexact Hr'
  iexists _; iexact H

/-! ## Flights under two spellings -/

theorem r3FI_congr {offS offS' : Fin 1 → ℕ} {offL offL' : Fin 4 → ℕ} {offB offB' : Fin 3 → ℕ} (eS : offS = offS') (eL : offL = offL') (eB : offB = offB')
    (hS : ∀ a, offS a + S1.size a ≤ S2.size a) (hL : ∀ a, offL a + S1x1x1x128.size a ≤ S2x1x1x128.size a) (hB : ∀ a, offB a + S1x1x128.size a ≤ S3x50x4096.size a)
    (hS' : ∀ a, offS' a + S1.size a ≤ S2.size a) (hL' : ∀ a, offL' a + S1x1x1x128.size a ≤ S2x1x1x128.size a) (hB' : ∀ a, offB' a + S1x1x128.size a ≤ S3x50x4096.size a)
    (q : PosShare TreeShare) (f : Buf (Elt F) ((Memref.whole cc0_scoped3).view.loc (tailThr d L))) :
    (r3FI m d L offS hS offL hL offB hB q f : sProp 𝕄) = r3FI m d L offS' hS' offL' hL' offB' hB' q f := by subst eS eL eB; rfl
theorem r3good_congr {offL offL' : Fin 4 → ℕ} {offB offB' : Fin 3 → ℕ} (eL : offL = offL') (eB : offB = offB')
    (hL : ∀ a, offL a + S1x1x1x128.size a ≤ S2x1x1x128.size a) (hB : ∀ a, offB a + S1x1x128.size a ≤ S3x50x4096.size a)
    (hL' : ∀ a, offL' a + S1x1x1x128.size a ≤ S2x1x1x128.size a) (hB' : ∀ a, offB' a + S1x1x128.size a ≤ S3x50x4096.size a)
    (f : Buf (Elt F) ((Memref.whole cc0_scoped3).view.loc (tailThr d L))) (h : r3good m d L offL hL offB hB f) : r3good m d L offL' hL' offB' hB' f := by
  subst eL eB; exact h
omit [FloatOps F] in
theorem r3FO_congr {offS offS' : Fin 1 → ℕ} {offB offB' : Fin 4 → ℕ} {offL offL' : Fin 5 → ℕ} (eS : offS = offS') (eB : offB = offB') (eL : offL = offL')
    (hS : ∀ a, offS a + S1.size a ≤ S2.size a) (hB : ∀ a, offB a + S1x1x128x128.size a ≤ S50x3x4096x128.size a) (hL : ∀ a, offL a + S1x1x1x128x128.size a ≤ S2x1x1x128x128.size a)
    (hS' : ∀ a, offS' a + S1.size a ≤ S2.size a) (hB' : ∀ a, offB' a + S1x1x128x128.size a ≤ S50x3x4096x128.size a) (hL' : ∀ a, offL' a + S1x1x1x128x128.size a ≤ S2x1x1x128x128.size a)
    (fB : Buf (Elt F) (oLoc d)) (fL : Buf (Elt F) ((Memref.whole cc0_scoped5).view.loc (tailThr d L))) :
    (r3FO d L offS hS offB hB fB offL hL fL : sProp 𝕄) = r3FO d L offS' hS' offB' hB' fB offL' hL' fL := by subst eS eB eL; rfl

/-! ## In-bounds facts of the program's offsets at any word, and of the canonical blocks -/

omit [FloatOps F] in theorem r3hb4 (a : BitVec 32) : ∀ j, k0_off4 a j + S1x1x1x128.size j ≤ S2x1x1x128.size j := by rw [Arith.off4_eq]; exact Arith.slot4 a
omit [FloatOps F] in theorem r3hb6 (a : BitVec 32) : ∀ j, k0_off6 a j + S1.size j ≤ S2.size j := by rw [Arith.off6_eq]; exact Arith.slot1 a
omit [FloatOps F] in theorem r3hb7 (a : BitVec 32) : ∀ j, k0_off7 a j + S1x1x1x128.size j ≤ S2x1x1x128.size j := by rw [Arith.off7_eq]; exact Arith.slot4 a
omit [FloatOps F] in theorem r3hb9 (a : BitVec 32) : ∀ j, k0_off9 a j + S1.size j ≤ S2.size j := by rw [Arith.off9_eq]; exact Arith.slot1 a
omit [FloatOps F] in theorem r3hb10 (a : BitVec 32) : ∀ j, k0_off10 a j + S1x1x1x128x128.size j ≤ S2x1x1x128x128.size j := by rw [Arith.off10_eq]; exact Arith.slot5 a
omit [FloatOps F] in theorem r3hb11 (a : BitVec 32) : ∀ j, k0_off11 a j + S1x1x1x128.size j ≤ S2x1x1x128.size j := by rw [Arith.off11_eq]; exact Arith.slot4 a
omit [FloatOps F] in theorem r3hb12 (a : BitVec 32) : ∀ j, k0_off12 a j + S1x1x1x128x128.size j ≤ S2x1x1x128x128.size j := by rw [Arith.off12_eq]; exact Arith.slot5 a
omit [FloatOps F] in theorem r3hb14 (a : BitVec 32) : ∀ j, k0_off14 a j + S1.size j ≤ S2.size j := by rw [Arith.off14_eq]; exact Arith.slot1 a
omit [FloatOps F] in theorem r3hb15 (a : BitVec 32) : ∀ j, k0_off15 a j + S1x1x1x128x128.size j ≤ S2x1x1x128x128.size j := by rw [Arith.off15_eq]; exact Arith.slot5 a
omit [FloatOps F] in theorem r3hb17 (a : BitVec 32) : ∀ j, k0_off17 a j + S1.size j ≤ S2.size j := by rw [Arith.off17_eq]; exact Arith.slot1 a

/-- The index block of the tile's trip `u` for this lookup's table. -/
abbrev r3bi (u : Fin 50) : Fin 3 → ℕ := Arith.blkIn 0 L u.val
omit [FloatOps F] in theorem r3bi_inb (u : Fin 50) : ∀ a, r3bi L u a + S1x1x128.size a ≤ S3x50x4096.size a := Arith.blkIn_inb 0 (by decide) L u.val u.isLt
/-- The output block of the tile's trip `u` for this lookup's table. -/
abbrev r3bo (u : Fin 50) : Fin 4 → ℕ := outOff 0 (stp (L 0).val (L 1).val u.val)
omit [FloatOps F] in theorem r3bo_inb (u : Fin 50) : ∀ a, r3bo L u a + S1x1x128x128.size a ≤ S50x3x4096x128.size a :=
  outOff_inb (by decide) (stp_lt (L 0).isLt (L 1).isLt u.isLt)

variable (qi qs : PosShare TreeShare)

/-- The words the loop carries into trip `t`. -/
def r3car (t : ℕ) : BitVec 32 × BitVec 32 × BitVec 32 × BitVec 32 × BitVec 32 :=
  (tailW (min (t + 1) 50), tailW t, tailW t, tailW (t - 1), tailW (t % 50))

/-- Before trip `t < 50`, the index side: the fetch of block `t` in flight into the slot of `t`'s parity, on trip `t`'s
    read token (the rest of that token beside it), the other slot and its semaphore free, every other token whole. -/
def r3idxMid (t : ℕ) : sProp 𝕄 :=
  iprop((∃ fcur, ⌜r3good m d L (k0_off7 (tailW t)) (r3hb7 _) (r3bi L (tailFin t)) (r3bi_inb L _) fcur⌝
        ∗ r3FI m d L (k0_off9 (tailW t)) (r3hb9 _) (k0_off7 (tailW t)) (r3hb7 _) (r3bi L (tailFin t)) (r3bi_inb L _) (shareTok qi 50 (tailFin t)) fcur)
    ∗ (iLoc d ↦[Finset.univ \ (tailIBlk (r3bi L (tailFin t)) (r3bi_inb L _)).view.set]{shareTok qi 50 (tailFin t)} idxT m d)
    ∗ (∃ f, r3ISlotPt d L (k0_off4 (tailW (t + 1))) (r3hb4 _) f)
    ∗ semVal (tailThr d L, SemLoc.dma (tailSem cc0_scoped4 (k0_off6 (tailW (t + 1))) (r3hb6 _))) 0
    ∗ bigSep (Finset.univ.filter fun u : Fin 50 => u.val ≠ t) (tailTokPt m d qi))

/-- After the last trip, the index side: both slots and semaphores free, every token whole. -/
def r3idxEnd (t : ℕ) : sProp 𝕄 :=
  iprop((∃ f, r3ISlotPt d L (k0_off4 (tailW t)) (r3hb4 _) f)
    ∗ semVal (tailThr d L, SemLoc.dma (tailSem cc0_scoped4 (k0_off6 (tailW t)) (r3hb6 _))) 0
    ∗ (∃ f, r3ISlotPt d L (k0_off7 (tailW (t - 1))) (r3hb7 _) f)
    ∗ semVal (tailThr d L, SemLoc.dma (tailSem cc0_scoped4 (k0_off9 (tailW (t - 1))) (r3hb9 _))) 0
    ∗ bigSep Finset.univ (tailTokPt m d qi))

/-- The output side before trip `t`: the copy-out of block `t - 1` in flight (none before trip 0: then the other slot is
    free), the slot of `t`'s parity and its semaphore free, the blocks before `t - 1` at the lookup's values, those from
    `t` on as the launch left them. -/
def r3out (t : ℕ) : sProp 𝕄 :=
  iprop((if t = 0 then iprop((∃ f, r3OSlotPt d L (k0_off10 (tailW (t + 1))) (r3hb10 _) f)
            ∗ semVal (tailThr d L, SemLoc.dma (tailSem cc0_scoped6 (k0_off14 (tailW (t + 1))) (r3hb14 _))) 0)
         else iprop(∃ fbp, r3FO d L (k0_off17 (tailW (t - 1))) (r3hb17 _) (r3bo L (tailFin (t - 1))) (r3bo_inb L _) (outK m d) (k0_off15 (tailW (t - 1))) (r3hb15 _) fbp))
    ∗ (∃ f, r3OSlotPt d L (k0_off10 (tailW t)) (r3hb10 _) f)
    ∗ semVal (tailThr d L, SemLoc.dma (tailSem cc0_scoped6 (k0_off14 (tailW t)) (r3hb14 _))) 0
    ∗ bigSep (Finset.univ.filter fun u : Fin 50 => u.val + 1 < t) (fun u => tailOPt d L 0 u (outK m d))
    ∗ bigSep (Finset.univ.filter fun u : Fin 50 => t ≤ u.val) (fun u => tailOPt d L 0 u (m (oLoc d))))

/-- The loop's invariant. -/
def r3inv (t : ℕ) (acc : BitVec 32 × BitVec 32 × BitVec 32 × BitVec 32 × BitVec 32) : sProp 𝕄 :=
  iprop(⌜acc = r3car t⌝ ∗ Transfers.MayWaits (tailThr d L) (default : HIx 1) O ∗ r3Tab m d L qs
    ∗ semVal (tailThr d L, SemLoc.dma cc0_scoped7.sem) 0
    ∗ (if t < 50 then r3idxMid m d L qi t else r3idxEnd m d L qi t)
    ∗ r3out m d L t
    ∗ ∃ W', ⌜∀ p ∈ W', p ∈ W ∨ p.2 = none⌝ ∗ owes (tailThr d L) O W')

end Cert.Proof.KI

end
-- ==== Proof.KITailVal.lean ====
/-
  The value of one gathered block.  A step gathers 128 rows of table l: row y of the block is the table's row named by
  the y-th word of the step's list, and that list holds the index words at positions (l, p, b0 + y) of the transposed
  index array, which are the words at (b0 + y, p, l) of the index array as given.  Every index word is at most 999, so
  the row it names is its value, and entry (y, e) of the block is entry (p, l, b0 + y, e) of the lookup laid out as
  [50, 3, 4096, 128].
-/
import proofs.«206595_g34437047779621_cont_8to1_b_428_16_alg».proof.Proof.KIPay
import Idealize.ShloMosaic.Lib.SparseCore.Stream
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

variable (m : (ℓ : Loc nD τ sig) → Buf (Elt F) ℓ) (d : Dev nD)

open Idealize.ShloMosaic.ValueIdx

/-- The index word the transposed array holds at (l, p, b) is the word the given array holds at (b, p, l). -/
theorem idxT_apply (l : Fin 3) (p : Fin 50) (b : Fin 4096) :
    (idxT m d : IVec S3x50x4096 32) (ix3 l p b) = (m (xLoc d) : IVec Cert.Lookup.SX 32) (ix3 b p l) := by
  unfold idxT
  exact transpose_apply _ _ _ _ _ fun c => match c with | ⟨0, _⟩ => rfl | ⟨1, _⟩ => rfl | ⟨2, _⟩ => rfl

/-- The position of a rank-one index in row-major order is its coordinate. -/
theorem rowMajor_symm_one (k : Fin S128.numel) : ((S128.rowMajor.symm k) 0).val = k.val := by
  have h := Shape.rowMajor_val_one (S128.rowMajor.symm k)
  rw [Equiv.apply_symm_apply] at h
  exact h.symm

theorem val_gather (l p b0 : ℕ) (hx : Cert.Lookup.InRange (m (xLoc d) : IVec Cert.Lookup.SX 32))
    (tbl : S1001x128.Idx → Elt F .f32)
    (htbl : ∀ j : S1001x128.Idx, tbl j = Cert.Lookup.table (F := F) (m (w0Loc d)) (m (w1Loc d)) (m (w2Loc d)) ⟨l % 3, Nat.mod_lt _ (by decide)⟩ j)
    (lst : S128.Idx → Elt F .i32)
    (hlst : ∀ (x : S128.Idx) (j : S3x50x4096.Idx), (j 0).val = l → (j 1).val = p → (j 2).val = b0 + (x 0).val → lst x = (idxT m d : IVec S3x50x4096 32) j)
    (hn : S128.numel = S128x128.size gathers_S1001x128_S128x128.axis')
    (hin : ∀ x, (lst x).toNat < S1001x128.size gathers_S1001x128_S128x128.axis) (hl : l < 3) :
    ∀ (y : S128x128.Idx) (j : S50x3x4096x128.Idx), (j 0).val = p → (j 1).val = l → (j 2).val = b0 + (y 0).val → (j 3).val = (y 1).val →
      SparseCore.gatherPayload gathers_S1001x128_S128x128 tbl (SparseCore.rows lst hn hin) y = (outK m d : FVec F S50x3x4096x128 .f32) j := by
  intro y j h0 h1 h2 h3
  have hp : p < 50 := h0 ▸ (j 0).isLt
  have hb : b0 + (y 0).val < 4096 := h2 ▸ (j 2).isLt
  -- the list's word for row y 0 is the index word at (b0 + y 0, p, l)
  have hw : lst (S128.rowMajor.symm ((y gathers_S1001x128_S128x128.axis').cast hn.symm))
      = (m (xLoc d) : IVec Cert.Lookup.SX 32) (ix3 (j 2) (j 0) (j 1)) := by
    rw [hlst _ (ix3 ⟨l, hl⟩ ⟨p, hp⟩ ⟨b0 + (y 0).val, hb⟩) rfl rfl (by rw [rowMajor_symm_one]; rfl), idxT_apply]
    refine congrArg _ (funext fun c => Fin.ext ?_)
    match c with
    | ⟨0, _⟩ => exact h2.symm
    | ⟨1, _⟩ => exact h0.symm
    | ⟨2, _⟩ => exact h1.symm
  show tbl (gathers_S1001x128_S128x128.idx (SparseCore.rows lst hn hin) y) = _
  rw [htbl]
  show _ = Cert.Lookup.table (F := F) (m (w0Loc d)) (m (w1Loc d)) (m (w2Loc d)) (j 1)
    (ix2 (Cert.Lookup.rowOf ((m (xLoc d) : IVec Cert.Lookup.SX 32) (ix3 (j 2) (j 0) (j 1)))) (j 3))
  have e1 : (⟨l % 3, Nat.mod_lt _ (by decide)⟩ : Fin 3) = j 1 := Fin.ext (by rw [h1]; exact Nat.mod_eq_of_lt hl)
  rw [e1]
  refine congrArg _ (funext fun c => Fin.ext ?_)
  match c with
  | ⟨0, _⟩ =>
    show (gathers_S1001x128_S128x128.idx (SparseCore.rows lst hn hin) y gathers_S1001x128_S128x128.axis).val = _
    rw [Shape.Gathers.idx_axis]
    show (lst (S128.rowMajor.symm ((y gathers_S1001x128_S128x128.axis').cast hn.symm))).toNat = (Cert.Lookup.rowOf _).val
    rw [hw, Cert.Lookup.rowOf_of_le (hx _)]
  | ⟨1, _⟩ =>
    rw [Shape.Gathers.idx_of_ne _ _ _ _ Nat.one_ne_zero]
    exact h3.symm

end Cert.Proof.KI
end
-- ==== Proof.KITailR3V.lean ====
/-
  The values one step of the first lookup leaves in its output block.  The step gathers 128 table rows into a slot of
  the row buffer, through the slot's view as 128 rows of 128 lanes, and copies the slot, read with two unit axes in
  front, onto the block.  An index of the block with rows y and lanes e sits under the same rows and lanes of the
  slot, the slot there holds the gathered row named by the y-th word of the index slot, and that word is the index
  word of the block's own step; so the block holds the lookup's values.
-/
import proofs.«206595_g34437047779621_cont_8to1_b_428_16_alg».proof.Proof.KITailR3D
import proofs.«206595_g34437047779621_cont_8to1_b_428_16_alg».proof.Proof.KITailVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

omit [FloatOps F] in
/-- A rank-two index of 128 rows of 128 lanes, placed in the shape with two unit axes in front, keeps its coordinates. -/
theorem resh_2to4 (hq : S128x128.numel = S1x1x128x128.numel) (y : S128x128.Idx) :
    ((Shape.reshapeEquiv hq y) 0).val = 0 ∧ ((Shape.reshapeEquiv hq y) 1).val = 0
      ∧ ((Shape.reshapeEquiv hq y) 2).val = (y 0).val ∧ ((Shape.reshapeEquiv hq y) 3).val = (y 1).val := by
  have h := Shape.rowMajor_reshapeEquiv hq y
  rw [Shape.rowMajor_val_four, Shape.rowMajor_val_two] at h
  have a0 : ((Shape.reshapeEquiv hq y) 0).val < 1 := ((Shape.reshapeEquiv hq y) 0).isLt
  have a1 : ((Shape.reshapeEquiv hq y) 1).val < 1 := ((Shape.reshapeEquiv hq y) 1).isLt
  have a2 : ((Shape.reshapeEquiv hq y) 2).val < 128 := ((Shape.reshapeEquiv hq y) 2).isLt
  have a3 : ((Shape.reshapeEquiv hq y) 3).val < 128 := ((Shape.reshapeEquiv hq y) 3).isLt
  have c0 : (y 0).val < 128 := (y 0).isLt
  have c1 : (y 1).val < 128 := (y 1).isLt
  change (((((Shape.reshapeEquiv hq y) 0).val * 1 + ((Shape.reshapeEquiv hq y) 1).val) * 128 + ((Shape.reshapeEquiv hq y) 2).val) * 128
    + ((Shape.reshapeEquiv hq y) 3).val = (y 0).val * 128 + (y 1).val) at h
  omega

omit [FloatOps F] in
/-- A rank-one index of 128 words, placed in the shape with two unit axes in front, keeps its coordinate. -/
theorem resh_1to3 (hq : S128.numel = S1x1x128.numel) (x : S128.Idx) :
    ((Shape.reshapeEquiv hq x) 0).val = 0 ∧ ((Shape.reshapeEquiv hq x) 1).val = 0 ∧ ((Shape.reshapeEquiv hq x) 2).val = (x 0).val := by
  have h := Shape.rowMajor_reshapeEquiv hq x
  rw [Shape.rowMajor_val_three, Shape.rowMajor_val_one] at h
  have a0 : ((Shape.reshapeEquiv hq x) 0).val < 1 := ((Shape.reshapeEquiv hq x) 0).isLt
  have a1 : ((Shape.reshapeEquiv hq x) 1).val < 1 := ((Shape.reshapeEquiv hq x) 1).isLt
  have a2 : ((Shape.reshapeEquiv hq x) 2).val < 128 := ((Shape.reshapeEquiv hq x) 2).isLt
  change ((((Shape.reshapeEquiv hq x) 0).val * 1 + ((Shape.reshapeEquiv hq x) 1).val) * 128 + ((Shape.reshapeEquiv hq x) 2).val = (x 0).val) at h
  omega

omit [FloatOps F] in
/-- The rectangle of all of a rank-four shape, written with zero offsets, places an index at itself. -/
theorem unit0_emb4 (y : S1x1x128x128.Idx) :
    (Rect.unit (s := S1x1x128x128) ![0, 0, 0, 0] S1x1x128x128.size inb_S1x1x128x128_S1x1x128x128_0_0_0_0).emb y = y := by
  funext a
  apply Fin.ext
  rw [Rect.emb_apply]
  show (![0, 0, 0, 0] : Fin 4 → ℕ) a + 1 * (y a).val = (y a).val
  fin_cases a <;> simp

omit [FloatOps F] in
/-- The rectangle of all of a table, written with zero offsets, places an index at itself. -/
theorem unit0_emb2 (y : S1001x128.Idx) :
    (Rect.unit (s := S1001x128) ![0, 0] S1001x128.size inb_S1001x128_S1001x128_0_0).emb y = y := by
  funext a
  apply Fin.ext
  rw [Rect.emb_apply]
  show (![0, 0] : Fin 2 → ℕ) a + 1 * (y a).val = (y a).val
  fin_cases a <;> simp

theorem r3out_value (o10 : Fin 5 → ℕ) (b10 : ∀ a, o10 a + S1x1x1x128x128.size a ≤ S2x1x1x128x128.size a)
    (o11 : Fin 4 → ℕ) (b11 : ∀ a, o11 a + S1x1x1x128.size a ≤ S2x1x1x128.size a)
    (o8 : Fin 3 → ℕ) (b8 : ∀ a, o8 a + S1x1x128.size a ≤ S3x50x4096.size a)
    (o13 : Fin 4 → ℕ) (b13 : ∀ a, o13 a + S1x1x128x128.size a ≤ S50x3x4096x128.size a)
    (h0 : o8 0 = 0) (h130 : o13 0 = o8 1) (h131 : o13 1 = 0) (h132 : o13 2 = o8 2) (h133 : o13 3 = 0)
    (fcur : Buf (Elt F) ((Memref.whole cc0_scoped3).view.loc (tailThr d L))) (hgood : r3good m d L o11 b11 o8 b8 fcur)
    (hx : Cert.Lookup.InRange (m (xLoc d) : IVec Cert.Lookup.SX 32))
    (fb : Buf (Elt F) ((Memref.whole cc0_scoped5).view.loc (tailThr d L))) (fo : Buf (Elt F) (oLoc d))
    (hn : S128.numel = S128x128.size gathers_S1001x128_S128x128.axis')
    (hin : ∀ x, (View.read (Elt F) (r3list o11 b11).view fcur x).toNat < S1001x128.size gathers_S1001x128_S128x128.axis) :
    ∀ i ∈ (tailOBlk o13 b13).view.set,
      (tailOBlk o13 b13).view.writes (Elt F) fo
        [⟨Rect.whole S1x1x128x128,
          ReadAs.same.apply (View.read (Elt F) ((r3oSlot o10 b10).squeeze S1x1x128x128 squeezes_S1x1x1x128x128_S1x1x128x128).view
            (View.write (Elt F)
              ((((r3oSlot o10 b10).squeeze S1x1x128x128 squeezes_S1x1x1x128x128_S1x1x128x128).slice
                  (Rect.unit (s := S1x1x128x128) ![0, 0, 0, 0] S1x1x128x128.size inb_S1x1x128x128_S1x1x128x128_0_0_0_0) (fun _ => rfl)).squeeze S128x128 squeezes_S1x1x128x128_S128x128).view
              fb
              (SparseCore.gatherPayload gathers_S1001x128_S128x128
                (View.read (Elt F) ((Memref.whole cc0_scratch0).slice (Rect.unit (s := S1001x128) ![0, 0] S1001x128.size inb_S1001x128_S1001x128_0_0) (fun _ => rfl)).view
                  (m (w0Loc d) : Buf (Elt F) (sh0Loc d (cV L))))
                (SparseCore.rows (View.read (Elt F) (r3list o11 b11).view fcur) hn hin))
              Finset.univ))⟩] i
        = outK m d i := by
  intro i hi
  obtain ⟨y, -, rfl⟩ := Finset.mem_map.mp hi
  refine (congrFun (View.write_univ_eq_writes_whole (Val := Elt F) (tailOBlk o13 b13).view fo [] _).symm _).trans ?_
  rw [View.writes_nil, View.write_emb_of_mem _ _ (Finset.mem_univ _)]
  obtain ⟨y2, rfl⟩ : ∃ y2 : S128x128.Idx, y = Shape.reshapeEquiv squeezes_S1x1x128x128_S128x128.numel_eq y2 :=
    ⟨_, (Equiv.apply_symm_apply _ _).symm⟩
  obtain ⟨q0, q1, q2, q3⟩ := resh_2to4 squeezes_S1x1x128x128_S128x128.numel_eq y2
  -- the slot's element under the block's index is the gather's destination element under the same rows and lanes
  have e : ((r3oSlot o10 b10).squeeze S1x1x128x128 squeezes_S1x1x1x128x128_S1x1x128x128).view.emb
        (Shape.reshapeEquiv squeezes_S1x1x128x128_S128x128.numel_eq y2)
      = ((((r3oSlot o10 b10).squeeze S1x1x128x128 squeezes_S1x1x1x128x128_S1x1x128x128).slice
            (Rect.unit (s := S1x1x128x128) ![0, 0, 0, 0] S1x1x128x128.size inb_S1x1x128x128_S1x1x128x128_0_0_0_0) (fun _ => rfl)).squeeze
          S128x128 squeezes_S1x1x128x128_S128x128).view.emb y2 := by
    show _ = ((r3oSlot o10 b10).squeeze S1x1x128x128 squeezes_S1x1x1x128x128_S1x1x128x128).view.emb
      ((Rect.unit (s := S1x1x128x128) ![0, 0, 0, 0] S1x1x128x128.size inb_S1x1x128x128_S1x1x128x128_0_0_0_0).emb
        (Shape.reshapeEquiv squeezes_S1x1x128x128_S128x128.numel_eq y2))
    rw [unit0_emb4]
  rw [ReadAs.apply_same, View.read_apply, e, View.write_emb_of_mem _ _ (Finset.mem_univ _)]
  simp only [cast_cast, cast_eq]
  refine val_gather m d 0 (o8 1) (o8 2) hx _ (fun j => ?_) _ (fun x j hj0 hj1 hj2 => ?_) hn hin (by decide) y2 _ ?_ ?_ ?_ ?_
  · -- the table as the gather reads it is the first table
    refine (View.read_apply _ _).trans ((cast_eq _ _).trans ?_)
    show (m (w0Loc d)) ((Rect.unit (s := S1001x128) ![0, 0] S1001x128.size inb_S1001x128_S1001x128_0_0).emb j) = (m (w0Loc d)) j
    rw [unit0_emb2]
  · -- the list's word x is the index word at (0, o8 1, o8 2 + x)
    obtain ⟨r0, r1, r2⟩ := resh_1to3 tail_numel128 x
    rw [hgood x, View.read_apply, cast_eq]
    refine congrArg _ (funext fun a => Fin.ext ?_)
    match a with
    | ⟨0, _⟩ =>
      show o8 0 + 1 * ((Shape.reshapeEquiv tail_numel128 x) 0).val = (j 0).val
      omega
    | ⟨1, _⟩ =>
      show o8 1 + 1 * ((Shape.reshapeEquiv tail_numel128 x) 1).val = (j 1).val
      omega
    | ⟨2, _⟩ =>
      show o8 2 + 1 * ((Shape.reshapeEquiv tail_numel128 x) 2).val = (j 2).val
      omega
  · show o13 0 + 1 * ((Shape.reshapeEquiv squeezes_S1x1x128x128_S128x128.numel_eq y2) 0).val = o8 1
    omega
  · show o13 1 + 1 * ((Shape.reshapeEquiv squeezes_S1x1x128x128_S128x128.numel_eq y2) 1).val = 0
    omega
  · show o13 2 + 1 * ((Shape.reshapeEquiv squeezes_S1x1x128x128_S128x128.numel_eq y2) 2).val = o8 2 + (y2 0).val
    omega
  · show o13 3 + 1 * ((Shape.reshapeEquiv squeezes_S1x1x128x128_S128x128.numel_eq y2) 3).val = (y2 1).val
    omega

end Cert.Proof.KI
end
-- ==== Proof.KITailR3C.lean ====
/-
  One trip of the first lookup's loop, run from the pieces the trip touches: the middle trips, the first (no copy-out
  to wait for) and the last (no fetch to start).
-/
import proofs.«206595_g34437047779621_cont_8to1_b_428_16_alg».proof.Proof.KITailR3D
import proofs.«206595_g34437047779621_cont_8to1_b_428_16_alg».proof.Proof.KITailR3V

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

variable (O : CellTallies nD τ sig (HIx 1)) (W : Waits sig (HIx 1))

set_option maxHeartbeats 4000000 in
theorem r3coreM (t : Fin k0_t1_loop.trips) (h1t : 1 ≤ t.val) (ht : t.val < 49)
    (o4 : Fin 4 → ℕ) (e4 : k0_off4 (tailW (t.val + 1)) = o4) (b4 : ∀ a, o4 a + S1x1x1x128.size a ≤ S2x1x1x128.size a)
    (o5 : Fin 3 → ℕ) (e5 : k0_off5 L (tailW t.val) = o5) (b5 : ∀ a, o5 a + S1x1x128.size a ≤ S3x50x4096.size a)
    (o6 : Fin 1 → ℕ) (e6 : k0_off6 (tailW (t.val + 1)) = o6) (b6 : ∀ a, o6 a + S1.size a ≤ S2.size a)
    (o7 : Fin 4 → ℕ) (e7 : k0_off7 (tailW t.val) = o7) (b7 : ∀ a, o7 a + S1x1x1x128.size a ≤ S2x1x1x128.size a)
    (o8 : Fin 3 → ℕ) (e8 : k0_off8 L (tailW t.val) = o8) (b8 : ∀ a, o8 a + S1x1x128.size a ≤ S3x50x4096.size a)
    (o9 : Fin 1 → ℕ) (e9 : k0_off9 (tailW t.val) = o9) (b9 : ∀ a, o9 a + S1.size a ≤ S2.size a)
    (o10 : Fin 5 → ℕ) (e10 : k0_off10 (tailW t.val) = o10) (b10 : ∀ a, o10 a + S1x1x1x128x128.size a ≤ S2x1x1x128x128.size a)
    (o13 : Fin 4 → ℕ) (e13 : k0_off13 L (tailW t.val) = o13) (b13 : ∀ a, o13 a + S1x1x128x128.size a ≤ S50x3x4096x128.size a)
    (o14 : Fin 1 → ℕ) (e14 : k0_off14 (tailW t.val) = o14) (b14 : ∀ a, o14 a + S1.size a ≤ S2.size a)
    (o15 : Fin 5 → ℕ) (e15 : k0_off15 (tailW (t.val - 1)) = o15) (b15 : ∀ a, o15 a + S1x1x1x128x128.size a ≤ S2x1x1x128x128.size a)
    (o16 : Fin 4 → ℕ) (e16 : k0_off16 L (tailW t.val) = o16) (b16 : ∀ a, o16 a + S1x1x128x128.size a ≤ S50x3x4096x128.size a)
    (o17 : Fin 1 → ℕ) (e17 : k0_off17 (tailW (t.val - 1)) = o17) (b17 : ∀ a, o17 a + S1.size a ≤ S2.size a)
    (qn qc qs : PosShare TreeShare)
    (fcur : Buf (Elt F) ((Memref.whole cc0_scoped3).view.loc (tailThr d L)))
    (hgood : r3good m d L o7 b7 o8 b8 fcur)
    (hx : Cert.Lookup.InRange (m (xLoc d) : IVec Cert.Lookup.SX 32)) :
    (iprop(Transfers.MayWaits (tailThr d L) (default : HIx 1) O
        ∗ ((tailIBlk o5 b5).view.loc (tailThr d L) ↦[(tailIBlk o5 b5).view.set]{qn} idxT m d)
        ∗ (∃ fa, r3ISlotPt d L o4 b4 fa)
        ∗ semVal (tailThr d L, SemLoc.dma (tailSem cc0_scoped4 o6 b6)) 0
        ∗ r3FI m d L o9 b9 o7 b7 o8 b8 qc fcur
        ∗ r3Tab m d L qs
        ∗ (∃ fb, r3OSlotPt d L o10 b10 fb)
        ∗ semVal (tailThr d L, SemLoc.dma cc0_scoped7.sem) 0
        ∗ ((tailOBlk o13 b13).view.loc (tailThr d L) ↦[(tailOBlk o13 b13).view.set]{fullShare} m (oLoc d))
        ∗ semVal (tailThr d L, SemLoc.dma (tailSem cc0_scoped6 o14 b14)) 0
        ∗ (∃ fbp, r3FO d L o17 b17 o16 b16 (outK m d) o15 b15 fbp)
        ∗ owes (tailThr d L) O W) : sProp 𝕄)
      ⊢ wp frame (wpE (defs₀ (F := F)) 𝒱₀ (tailThr d L) none) Set.univ
          (k0_t1_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r3v7 L) (Scalar.addi 0#32 1#32) 0#32 0#32 0#32 0#32 0#32 t (tailW (t.val + 1), tailW t.val, tailW t.val, tailW (t.val - 1), tailW t.val))
          fun acc => iprop(⌜acc = (tailW (t.val + 2), tailW (t.val + 1), tailW (t.val + 1), tailW t.val, tailW (t.val + 1))⌝
            ∗ (∃ fnew, ⌜r3good m d L o4 b4 o5 b5 fnew⌝ ∗ r3FI m d L o6 b6 o4 b4 o5 b5 qn fnew)
            ∗ ((tailIBlk o8 b8).view.loc (tailThr d L) ↦[(tailIBlk o8 b8).view.set]{qc} idxT m d)
            ∗ semVal (tailThr d L, SemLoc.dma (tailSem cc0_scoped4 o9 b9)) 0
            ∗ r3ISlotPt d L o7 b7 fcur
            ∗ r3Tab m d L qs
            ∗ semVal (tailThr d L, SemLoc.dma cc0_scoped7.sem) 0
            ∗ (∃ fg, r3FO d L o14 b14 o13 b13 (outK m d) o10 b10 fg)
            ∗ ((tailOBlk o16 b16).view.loc (tailThr d L) ↦[(tailOBlk o16 b16).view.set]{fullShare} outK m d)
            ∗ (∃ f, r3OSlotPt d L o15 b15 f)
            ∗ semVal (tailThr d L, SemLoc.dma (tailSem cc0_scoped6 o17 b17)) 0
            ∗ ∃ W', ⌜∀ p ∈ W', p ∈ W ∨ p.2 = none⌝ ∗ owes (tailThr d L) O W') := by
  subst e4 e5 e6 e7 e8 e9 e10 e13 e14 e15 e16 e17
  have hc2 : k0_cond2 L t (tailW t.val) = 1#1 := by rw [Arith.cond2_eq, if_pos (by omega)]
  have hc3 : k0_cond3 L t (tailW t.val) = 1#1 := Arith.cond3_eq L t
  have hc6 : k0_cond6 L t (tailW t.val) = 1#1 := Arith.cond6_eq L t
  have hc8 : k0_cond8 L t (tailW t.val) = 1#1 := by rw [Arith.cond8_eq, if_pos (by omega)]
  have h3 : k0_chk3 (tailW t.val) := Arith.chk3_all _
  have h2 : k0_chk2 (tailW t.val) := Arith.chk2_all _
  have h1 : k0_chk1 L t (tailW (t.val + 1)) (tailW t.val) (tailW t.val) (tailW (t.val - 1)) (tailW t.val) := Arith.chk1_inv L t
  have hin : ∀ x, (View.read (Elt F) (r3list (k0_off11 (tailW t.val)) (r3hb11 _)).view fcur x).toNat < 1001 := by
    intro x
    have e' : View.read (Elt F) (r3list (k0_off11 (tailW t.val)) (r3hb11 _)).view fcur x
        = ((tailIBlk (k0_off8 L (tailW t.val)) b8).view.reshape S128 tail_numel128).read (Elt F) (idxT m d) x := hgood x
    rw [e']
    have := tailI_le m d (k0_off8 L (tailW t.val)) b8 hx x
    omega
  iintro ⟨#Hmw, HIn, ⟨%fa, HSn⟩, Hsn, HFI, HT, ⟨%fb, HOS⟩, Hs7, HOB, Hso, ⟨%fbp, HFO⟩, Hw⟩
  sl_unfold [k0_t1_body]
  sl_exec
  have hret : ∀ (L : grid0.Coords) (t : Fin k0_t1_loop.trips), 1 ≤ t.val → t.val < 49 →
      (r3coreM.sl.v215_r3 L t, r3coreM.sl.v389_r3 L t, r3coreM.sl.v365_r3 L t, r3coreM.sl.v383_r3 L t, r3coreM.sl.v144_r3 t)
        = (tailW (t.val + 2), tailW (t.val + 1), tailW (t.val + 1), tailW t.val, tailW (t.val + 1)) := by
    decide +kernel
  sl_step
  isplitr
  · ipureintro; exact hret L t h1t ht
  isplitl [Hsn]
  · iexists (r3coreM.sl.HSn_w0 m d L t hc2 h1 fa)
    isplitr
    · ipureintro; exact r3good_write m d L _ _ _ _ fa
    · iexact Hsn
  isplitl [HFI_src]; · iexact HFI_src
  isplitl [HFI]; · iexact HFI
  isplitl [HFI_dst HFI_dst_win]
  · iapply (pointsTo_split_subset (r3list_subset (k0_off7 (tailW t.val)) b7)).2
    isplitl [HFI_dst_win]; · iexact HFI_dst_win
    iexact HFI_dst
  isplitl [HT]; · iexact HT
  isplitl [Hs7]; · iexact Hs7
  isplitl [Hso]
  · iexists _
    iapply (r3FO_fix d L _ _ _ _ ((tailOBlk (k0_off13 L (tailW t.val)) b13).view.writes (Elt F) (m (oLoc d)) [⟨Rect.whole S1x1x128x128, r3coreM.sl.dma0_1 m d L t fcur hc6 h3 h2 h1 hin fb⟩]) (outK m d) (k0_off10 (tailW t.val)) (k0_off12 (tailW t.val)) _ (r3hb12 _) _ (r3out_value m d L (k0_off10 (tailW t.val)) b10 (k0_off11 (tailW t.val)) (r3hb11 _) (k0_off8 L (tailW t.val)) b8 (k0_off13 L (tailW t.val)) b13 (by rw [Arith.off8_eq L t.val (by omega)]; rfl) (by rw [Arith.off8_eq L t.val (by omega), Arith.off13_eq L t.val (by omega)]; rfl) (by rw [Arith.off13_eq L t.val (by omega)]; rfl) (by rw [Arith.off8_eq L t.val (by omega), Arith.off13_eq L t.val (by omega)]; rfl) (by rw [Arith.off13_eq L t.val (by omega)]; rfl) fcur hgood hx fb (m (oLoc d)) _ hin) (show k0_off12 (tailW t.val) = k0_off10 (tailW t.val) from rfl)) $$ Hso
  isplitl [HFO_dst]; · iexact HFO_dst
  isplitl [HFO_src]; · iexists _; iexact HFO_src
  isplitl [HFO]; · iexact HFO
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

set_option maxHeartbeats 4000000 in
theorem r3core0 (t : Fin k0_t1_loop.trips) (ht0 : t.val = 0)
    (o4 : Fin 4 → ℕ) (e4 : k0_off4 (tailW (t.val + 1)) = o4) (b4 : ∀ a, o4 a + S1x1x1x128.size a ≤ S2x1x1x128.size a)
    (o5 : Fin 3 → ℕ) (e5 : k0_off5 L (tailW t.val) = o5) (b5 : ∀ a, o5 a + S1x1x128.size a ≤ S3x50x4096.size a)
    (o6 : Fin 1 → ℕ) (e6 : k0_off6 (tailW (t.val + 1)) = o6) (b6 : ∀ a, o6 a + S1.size a ≤ S2.size a)
    (o7 : Fin 4 → ℕ) (e7 : k0_off7 (tailW t.val) = o7) (b7 : ∀ a, o7 a + S1x1x1x128.size a ≤ S2x1x1x128.size a)
    (o8 : Fin 3 → ℕ) (e8 : k0_off8 L (tailW t.val) = o8) (b8 : ∀ a, o8 a + S1x1x128.size a ≤ S3x50x4096.size a)
    (o9 : Fin 1 → ℕ) (e9 : k0_off9 (tailW t.val) = o9) (b9 : ∀ a, o9 a + S1.size a ≤ S2.size a)
    (o10 : Fin 5 → ℕ) (e10 : k0_off10 (tailW t.val) = o10) (b10 : ∀ a, o10 a + S1x1x1x128x128.size a ≤ S2x1x1x128x128.size a)
    (o13 : Fin 4 → ℕ) (e13 : k0_off13 L (tailW t.val) = o13) (b13 : ∀ a, o13 a + S1x1x128x128.size a ≤ S50x3x4096x128.size a)
    (o14 : Fin 1 → ℕ) (e14 : k0_off14 (tailW t.val) = o14) (b14 : ∀ a, o14 a + S1.size a ≤ S2.size a)
    (qn qc qs : PosShare TreeShare)
    (fcur : Buf (Elt F) ((Memref.whole cc0_scoped3).view.loc (tailThr d L)))
    (hgood : r3good m d L o7 b7 o8 b8 fcur)
    (hx : Cert.Lookup.InRange (m (xLoc d) : IVec Cert.Lookup.SX 32)) :
    (iprop(Transfers.MayWaits (tailThr d L) (default : HIx 1) O
        ∗ ((tailIBlk o5 b5).view.loc (tailThr d L) ↦[(tailIBlk o5 b5).view.set]{qn} idxT m d)
        ∗ (∃ fa, r3ISlotPt d L o4 b4 fa)
        ∗ semVal (tailThr d L, SemLoc.dma (tailSem cc0_scoped4 o6 b6)) 0
        ∗ r3FI m d L o9 b9 o7 b7 o8 b8 qc fcur
        ∗ r3Tab m d L qs
        ∗ (∃ fb, r3OSlotPt d L o10 b10 fb)
        ∗ semVal (tailThr d L, SemLoc.dma cc0_scoped7.sem) 0
        ∗ ((tailOBlk o13 b13).view.loc (tailThr d L) ↦[(tailOBlk o13 b13).view.set]{fullShare} m (oLoc d))
        ∗ semVal (tailThr d L, SemLoc.dma (tailSem cc0_scoped6 o14 b14)) 0
        ∗ owes (tailThr d L) O W) : sProp 𝕄)
      ⊢ wp frame (wpE (defs₀ (F := F)) 𝒱₀ (tailThr d L) none) Set.univ
          (k0_t1_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r3v7 L) (Scalar.addi 0#32 1#32) 0#32 0#32 0#32 0#32 0#32 t (tailW (t.val + 1), tailW t.val, tailW t.val, tailW (t.val - 1), tailW t.val))
          fun acc => iprop(⌜acc = (tailW (t.val + 2), tailW (t.val + 1), tailW (t.val + 1), tailW t.val, tailW (t.val + 1))⌝
            ∗ (∃ fnew, ⌜r3good m d L o4 b4 o5 b5 fnew⌝ ∗ r3FI m d L o6 b6 o4 b4 o5 b5 qn fnew)
            ∗ ((tailIBlk o8 b8).view.loc (tailThr d L) ↦[(tailIBlk o8 b8).view.set]{qc} idxT m d)
            ∗ semVal (tailThr d L, SemLoc.dma (tailSem cc0_scoped4 o9 b9)) 0
            ∗ r3ISlotPt d L o7 b7 fcur
            ∗ r3Tab m d L qs
            ∗ semVal (tailThr d L, SemLoc.dma cc0_scoped7.sem) 0
            ∗ (∃ fg, r3FO d L o14 b14 o13 b13 (outK m d) o10 b10 fg)
            ∗ ∃ W', ⌜∀ p ∈ W', p ∈ W ∨ p.2 = none⌝ ∗ owes (tailThr d L) O W') := by
  subst e4 e5 e6 e7 e8 e9 e10 e13 e14
  have hc2 : k0_cond2 L t (tailW t.val) = 1#1 := by rw [Arith.cond2_eq, if_pos (by omega)]
  have hc3 : k0_cond3 L t (tailW t.val) = 1#1 := Arith.cond3_eq L t
  have hc6 : k0_cond6 L t (tailW t.val) = 1#1 := Arith.cond6_eq L t
  have hc8 : ¬ k0_cond8 L t (tailW t.val) = 1#1 := by rw [Arith.cond8_eq, if_neg (by omega)]; decide
  have h3 : k0_chk3 (tailW t.val) := Arith.chk3_all _
  have h2 : k0_chk2 (tailW t.val) := Arith.chk2_all _
  have h1 : k0_chk1 L t (tailW (t.val + 1)) (tailW t.val) (tailW t.val) (tailW (t.val - 1)) (tailW t.val) := Arith.chk1_inv L t
  have hin : ∀ x, (View.read (Elt F) (r3list (k0_off11 (tailW t.val)) (r3hb11 _)).view fcur x).toNat < 1001 := by
    intro x
    have e' : View.read (Elt F) (r3list (k0_off11 (tailW t.val)) (r3hb11 _)).view fcur x
        = ((tailIBlk (k0_off8 L (tailW t.val)) b8).view.reshape S128 tail_numel128).read (Elt F) (idxT m d) x := hgood x
    rw [e']
    have := tailI_le m d (k0_off8 L (tailW t.val)) b8 hx x
    omega
  iintro ⟨#Hmw, HIn, ⟨%fa, HSn⟩, Hsn, HFI, HT, ⟨%fb, HOS⟩, Hs7, HOB, Hso, Hw⟩
  sl_unfold [k0_t1_body]
  sl_exec
  have hret : ∀ (L : grid0.Coords) (t : Fin k0_t1_loop.trips), t.val = 0 →
      (r3core0.sl.v215_r3 L t, r3core0.sl.v389_r3 L t, r3core0.sl.v365_r3 L t, r3core0.sl.v383_r3 L t, r3core0.sl.v144_r3 t)
        = (tailW (t.val + 2), tailW (t.val + 1), tailW (t.val + 1), tailW t.val, tailW (t.val + 1)) := by
    decide +kernel
  sl_step
  isplitr
  · ipureintro; exact hret L t ht0
  isplitl [Hsn]
  · iexists (r3core0.sl.HSn_w0 m d L t hc2 h1 fa)
    isplitr
    · ipureintro; exact r3good_write m d L _ _ _ _ fa
    · iexact Hsn
  isplitl [HFI_src]; · iexact HFI_src
  isplitl [HFI]; · iexact HFI
  isplitl [HFI_dst HFI_dst_win]
  · iapply (pointsTo_split_subset (r3list_subset (k0_off7 (tailW t.val)) b7)).2
    isplitl [HFI_dst_win]; · iexact HFI_dst_win
    iexact HFI_dst
  isplitl [HT]; · iexact HT
  isplitl [Hs7]; · iexact Hs7
  isplitl [Hso]
  · iexists _
    iapply (r3FO_fix d L _ _ _ _ ((tailOBlk (k0_off13 L (tailW t.val)) b13).view.writes (Elt F) (m (oLoc d)) [⟨Rect.whole S1x1x128x128, r3core0.sl.dma0_1 m d L t fcur hc6 h3 h2 h1 hin fb⟩]) (outK m d) (k0_off10 (tailW t.val)) (k0_off12 (tailW t.val)) _ (r3hb12 _) _ (r3out_value m d L (k0_off10 (tailW t.val)) b10 (k0_off11 (tailW t.val)) (r3hb11 _) (k0_off8 L (tailW t.val)) b8 (k0_off13 L (tailW t.val)) b13 (by rw [Arith.off8_eq L t.val (by omega)]; rfl) (by rw [Arith.off8_eq L t.val (by omega), Arith.off13_eq L t.val (by omega)]; rfl) (by rw [Arith.off13_eq L t.val (by omega)]; rfl) (by rw [Arith.off8_eq L t.val (by omega), Arith.off13_eq L t.val (by omega)]; rfl) (by rw [Arith.off13_eq L t.val (by omega)]; rfl) fcur hgood hx fb (m (oLoc d)) _ hin) (show k0_off12 (tailW t.val) = k0_off10 (tailW t.val) from rfl)) $$ Hso
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    · exact .inl hp

set_option maxHeartbeats 4000000 in
theorem r3coreE (t : Fin k0_t1_loop.trips) (ht49 : t.val = 49)
    (o7 : Fin 4 → ℕ) (e7 : k0_off7 (tailW t.val) = o7) (b7 : ∀ a, o7 a + S1x1x1x128.size a ≤ S2x1x1x128.size a)
    (o8 : Fin 3 → ℕ) (e8 : k0_off8 L (tailW t.val) = o8) (b8 : ∀ a, o8 a + S1x1x128.size a ≤ S3x50x4096.size a)
    (o9 : Fin 1 → ℕ) (e9 : k0_off9 (tailW t.val) = o9) (b9 : ∀ a, o9 a + S1.size a ≤ S2.size a)
    (o10 : Fin 5 → ℕ) (e10 : k0_off10 (tailW t.val) = o10) (b10 : ∀ a, o10 a + S1x1x1x128x128.size a ≤ S2x1x1x128x128.size a)
    (o13 : Fin 4 → ℕ) (e13 : k0_off13 L (tailW t.val) = o13) (b13 : ∀ a, o13 a + S1x1x128x128.size a ≤ S50x3x4096x128.size a)
    (o14 : Fin 1 → ℕ) (e14 : k0_off14 (tailW t.val) = o14) (b14 : ∀ a, o14 a + S1.size a ≤ S2.size a)
    (o15 : Fin 5 → ℕ) (e15 : k0_off15 (tailW (t.val - 1)) = o15) (b15 : ∀ a, o15 a + S1x1x1x128x128.size a ≤ S2x1x1x128x128.size a)
    (o16 : Fin 4 → ℕ) (e16 : k0_off16 L (tailW t.val) = o16) (b16 : ∀ a, o16 a + S1x1x128x128.size a ≤ S50x3x4096x128.size a)
    (o17 : Fin 1 → ℕ) (e17 : k0_off17 (tailW (t.val - 1)) = o17) (b17 : ∀ a, o17 a + S1.size a ≤ S2.size a)
    (qn qc qs : PosShare TreeShare)
    (fcur : Buf (Elt F) ((Memref.whole cc0_scoped3).view.loc (tailThr d L)))
    (hgood : r3good m d L o7 b7 o8 b8 fcur)
    (hx : Cert.Lookup.InRange (m (xLoc d) : IVec Cert.Lookup.SX 32)) :
    (iprop(Transfers.MayWaits (tailThr d L) (default : HIx 1) O
        ∗ r3FI m d L o9 b9 o7 b7 o8 b8 qc fcur
        ∗ r3Tab m d L qs
        ∗ (∃ fb, r3OSlotPt d L o10 b10 fb)
        ∗ semVal (tailThr d L, SemLoc.dma cc0_scoped7.sem) 0
        ∗ ((tailOBlk o13 b13).view.loc (tailThr d L) ↦[(tailOBlk o13 b13).view.set]{fullShare} m (oLoc d))
        ∗ semVal (tailThr d L, SemLoc.dma (tailSem cc0_scoped6 o14 b14)) 0
        ∗ (∃ fbp, r3FO d L o17 b17 o16 b16 (outK m d) o15 b15 fbp)
        ∗ owes (tailThr d L) O W) : sProp 𝕄)
      ⊢ wp frame (wpE (defs₀ (F := F)) 𝒱₀ (tailThr d L) none) Set.univ
          (k0_t1_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r3v7 L) (Scalar.addi 0#32 1#32) 0#32 0#32 0#32 0#32 0#32 t (tailW (t.val + 1), tailW t.val, tailW t.val, tailW (t.val - 1), tailW t.val))
          fun acc => iprop(⌜acc = (tailW (t.val + 1), tailW (t.val + 1), tailW (t.val + 1), tailW t.val, tailW 0)⌝
            ∗ ((tailIBlk o8 b8).view.loc (tailThr d L) ↦[(tailIBlk o8 b8).view.set]{qc} idxT m d)
            ∗ semVal (tailThr d L, SemLoc.dma (tailSem cc0_scoped4 o9 b9)) 0
            ∗ r3ISlotPt d L o7 b7 fcur
            ∗ r3Tab m d L qs
            ∗ semVal (tailThr d L, SemLoc.dma cc0_scoped7.sem) 0
            ∗ (∃ fg, r3FO d L o14 b14 o13 b13 (outK m d) o10 b10 fg)
            ∗ ((tailOBlk o16 b16).view.loc (tailThr d L) ↦[(tailOBlk o16 b16).view.set]{fullShare} outK m d)
            ∗ (∃ f, r3OSlotPt d L o15 b15 f)
            ∗ semVal (tailThr d L, SemLoc.dma (tailSem cc0_scoped6 o17 b17)) 0
            ∗ ∃ W', ⌜∀ p ∈ W', p ∈ W ∨ p.2 = none⌝ ∗ owes (tailThr d L) O W') := by
  subst e7 e8 e9 e10 e13 e14 e15 e16 e17
  have hc2 : ¬ k0_cond2 L t (tailW t.val) = 1#1 := by rw [Arith.cond2_eq, if_neg (by omega)]; decide
  have hc3 : k0_cond3 L t (tailW t.val) = 1#1 := Arith.cond3_eq L t
  have hc6 : k0_cond6 L t (tailW t.val) = 1#1 := Arith.cond6_eq L t
  have hc8 : k0_cond8 L t (tailW t.val) = 1#1 := by rw [Arith.cond8_eq, if_pos (by omega)]
  have h3 : k0_chk3 (tailW t.val) := Arith.chk3_all _
  have h2 : k0_chk2 (tailW t.val) := Arith.chk2_all _
  have h1 : k0_chk1 L t (tailW (t.val + 1)) (tailW t.val) (tailW t.val) (tailW (t.val - 1)) (tailW t.val) := Arith.chk1_inv L t
  have hin : ∀ x, (View.read (Elt F) (r3list (k0_off11 (tailW t.val)) (r3hb11 _)).view fcur x).toNat < 1001 := by
    intro x
    have e' : View.read (Elt F) (r3list (k0_off11 (tailW t.val)) (r3hb11 _)).view fcur x
        = ((tailIBlk (k0_off8 L (tailW t.val)) b8).view.reshape S128 tail_numel128).read (Elt F) (idxT m d) x := hgood x
    rw [e']
    have := tailI_le m d (k0_off8 L (tailW t.val)) b8 hx x
    omega
  iintro ⟨#Hmw, HFI, HT, ⟨%fb, HOS⟩, Hs7, HOB, Hso, ⟨%fbp, HFO⟩, Hw⟩
  sl_unfold [k0_t1_body]
  sl_exec
  have hret : ∀ (L : grid0.Coords) (t : Fin k0_t1_loop.trips), t.val = 49 →
      (r3coreE.sl.v215_r3 L t, r3coreE.sl.v389_r3 L t, r3coreE.sl.v365_r3 L t, r3coreE.sl.v383_r3 L t, r3coreE.sl.v144_r3 t)
        = (tailW (t.val + 1), tailW (t.val + 1), tailW (t.val + 1), tailW t.val, tailW 0) := by
    decide +kernel
  sl_step
  isplitr
  · ipureintro; exact hret L t ht49
  isplitl [HFI_src]; · iexact HFI_src
  isplitl [HFI]; · iexact HFI
  isplitl [HFI_dst HFI_dst_win]
  · iapply (pointsTo_split_subset (r3list_subset (k0_off7 (tailW t.val)) b7)).2
    isplitl [HFI_dst_win]; · iexact HFI_dst_win
    iexact HFI_dst
  isplitl [HT]; · iexact HT
  isplitl [Hs7]; · iexact Hs7
  isplitl [Hso]
  · iexists _
    iapply (r3FO_fix d L _ _ _ _ ((tailOBlk (k0_off13 L (tailW t.val)) b13).view.writes (Elt F) (m (oLoc d)) [⟨Rect.whole S1x1x128x128, r3coreE.sl.dma0 m d L t fcur hc6 h3 h2 h1 hin fb⟩]) (outK m d) (k0_off10 (tailW t.val)) (k0_off12 (tailW t.val)) _ (r3hb12 _) _ (r3out_value m d L (k0_off10 (tailW t.val)) b10 (k0_off11 (tailW t.val)) (r3hb11 _) (k0_off8 L (tailW t.val)) b8 (k0_off13 L (tailW t.val)) b13 (by rw [Arith.off8_eq L t.val (by omega)]; rfl) (by rw [Arith.off8_eq L t.val (by omega), Arith.off13_eq L t.val (by omega)]; rfl) (by rw [Arith.off13_eq L t.val (by omega)]; rfl) (by rw [Arith.off8_eq L t.val (by omega), Arith.off13_eq L t.val (by omega)]; rfl) (by rw [Arith.off13_eq L t.val (by omega)]; rfl) fcur hgood hx fb (m (oLoc d)) _ hin) (show k0_off12 (tailW t.val) = k0_off10 (tailW t.val) from rfl)) $$ Hso
  isplitl [HFO_dst]; · iexact HFO_dst
  isplitl [HFO_src]; · iexists _; iexact HFO_src
  isplitl [HFO]; · iexact HFO
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Cert.Proof.KI

end
-- ==== Proof.KITailR3T.lean ====
/-
  The loop of the first lookup: each trip takes the invariant at t to the invariant at t + 1.  The trip's pieces are
  taken out of the invariant's families (the read token of trip t + 1, the output block of trip t), the trip is run, and
  what it leaves is put back (trip t's token whole again, block t - 1 among the blocks done).
-/
import proofs.«206595_g34437047779621_cont_8to1_b_428_16_alg».proof.Proof.KITailR3C

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

variable (O : CellTallies nD τ sig (HIx 1)) (W : Waits sig (HIx 1)) (qi qs : PosShare TreeShare)

omit [FloatOps F] in
/-- One piece out of a family of fifty. -/
theorem r3_take (a : Fin 50) (Φ : Fin 50 → sProp 𝕄) :
    bigSep Finset.univ Φ = iprop(Φ a ∗ bigSep (Finset.univ.filter fun u : Fin 50 => u.val ≠ a.val) Φ) := by
  have h := tail_bigSep_step (fun u : Fin 50 => u.val ≠ a.val) (fun _ : Fin 50 => True) a (fun h => h rfl)
    (fun u => ⟨fun _ => by by_cases h : u = a; exact .inr h; exact .inl (fun e => h (Fin.ext e)), fun _ => trivial⟩) Φ
  rwa [Finset.filter_true_of_mem (fun _ _ => trivial)] at h

set_option maxHeartbeats 1000000 in
theorem r3tripM (t : Fin k0_t1_loop.trips) (h1t : 1 ≤ t.val) (ht : t.val < 49)
    (hx : Cert.Lookup.InRange (m (xLoc d) : IVec Cert.Lookup.SX 32))
    (acc : BitVec 32 × BitVec 32 × BitVec 32 × BitVec 32 × BitVec 32) :
    r3inv m d L O W qi qs t.val acc
      ⊢ wp frame (wpE (defs₀ (F := F)) 𝒱₀ (tailThr d L) none) Set.univ
          (k0_t1_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r3v7 L) (Scalar.addi 0#32 1#32) 0#32 0#32 0#32 0#32 0#32 t acc)
          (r3inv m d L O W qi qs (t.val + 1)) := by
  have ht50 : t.val < 50 := by omega
  have e5 : k0_off5 L (tailW t.val) = r3bi L (tailFin (t.val + 1)) := by
    show _ = Arith.blkIn 0 L (tailFin (t.val + 1)).val
    rw [tailFin_val (by omega)]; exact Arith.off5_eq L t.val (by omega)
  have e8 : k0_off8 L (tailW t.val) = r3bi L (tailFin t.val) := by
    show _ = Arith.blkIn 0 L (tailFin t.val).val
    rw [tailFin_val (by omega)]; exact Arith.off8_eq L t.val (by omega)
  have e13 : k0_off13 L (tailW t.val) = r3bo L (tailFin t.val) := by
    show _ = outOff 0 (stp (L 0).val (L 1).val (tailFin t.val).val)
    rw [tailFin_val (by omega)]; exact Arith.off13_eq L t.val (by omega)
  have e16 : k0_off16 L (tailW t.val) = r3bo L (tailFin (t.val - 1)) := by
    show _ = outOff 0 (stp (L 0).val (L 1).val (tailFin (t.val - 1)).val)
    rw [tailFin_val (by omega)]; exact Arith.off16_eq L t.val (by omega) (by omega)
  unfold r3inv r3out
  simp only [Nat.add_sub_cancel]
  rw [if_pos (show t.val < 50 by omega), if_pos (show t.val + 1 < 50 by omega), if_neg (show ¬ t.val = 0 by omega),
    if_neg (show ¬ t.val + 1 = 0 by omega)]
  unfold r3idxMid
  iintro ⟨%hacc, #Hmw, HT, Hs7, ⟨⟨%fcur, %hgood, HFI⟩, Hrest, ⟨%fa, HSn⟩, Hsn, Htoks⟩, ⟨⟨%fbp, HFO⟩, ⟨%fb, HOS⟩, Hso, Hdone, Htodo⟩, ⟨%W', %hW', Hw⟩⟩
  subst hacc
  -- the read token of trip t + 1, its block apart from its rest
  ihave Htoks' := (Entails.of_eq (tail_bigSep_step (fun u : Fin 50 => u.val ≠ t.val ∧ u.val ≠ t.val + 1) (fun u : Fin 50 => u.val ≠ t.val) (tailFin (t.val + 1))
    (by rw [tailFin_val (by omega)]; omega) (fun u => by rw [Fin.ext_iff, tailFin_val (by omega)]; omega) (tailTokPt m d qi))) $$ Htoks
  icases Htoks' with ⟨Htok1, Htoks⟩
  ihave Hsp := (pointsTo_split_subset (Finset.subset_univ (tailIBlk (r3bi L (tailFin (t.val + 1))) (r3bi_inb L _)).view.set)).1 $$ Htok1
  icases Hsp with ⟨HIn, Hrest1⟩
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 0 u (m (oLoc d))))) $$ Htodo
  icases Htodo' with ⟨HOB, Htodo⟩
  iapply (wp_wand_r Idealize.ShloMosaic.frame (wpE (defs₀ (F := F)) 𝒱₀ (tailThr d L) none) Set.univ)
  isplitl [HIn HSn Hsn HFI HT HOS Hs7 HOB Hso HFO Hw]
  · have hcar : r3car t.val = (tailW (t.val + 1), tailW t.val, tailW t.val, tailW (t.val - 1), tailW t.val) := by
      unfold r3car; rw [Nat.min_eq_left (by omega), Nat.mod_eq_of_lt (by omega)]
    rw [hcar]
    iapply (r3coreM m d L O W' t h1t ht
      (k0_off7 (tailW (t.val + 1))) rfl (r3hb7 _) (r3bi L (tailFin (t.val + 1))) e5 (r3bi_inb L _) (k0_off9 (tailW (t.val + 1))) rfl (r3hb9 _)
      (k0_off7 (tailW t.val)) rfl (r3hb7 _) (r3bi L (tailFin t.val)) e8 (r3bi_inb L _) (k0_off9 (tailW t.val)) rfl (r3hb9 _)
      (k0_off15 (tailW t.val)) rfl (r3hb15 _) (r3bo L (tailFin t.val)) e13 (r3bo_inb L _) (k0_off17 (tailW t.val)) rfl (r3hb17 _)
      (k0_off15 (tailW (t.val - 1))) rfl (r3hb15 _) (r3bo L (tailFin (t.val - 1))) e16 (r3bo_inb L _) (k0_off17 (tailW (t.val - 1))) rfl (r3hb17 _)
      (shareTok qi 50 (tailFin (t.val + 1))) (shareTok qi 50 (tailFin t.val)) qs fcur hgood hx)
    isplitr; · iexact Hmw
    isplitl [HIn]; · iexact HIn
    isplitl [HSn]; · iexists fa; iexact HSn
    isplitl [Hsn]; · iexact Hsn
    isplitl [HFI]; · iexact HFI
    isplitl [HT]; · iexact HT
    isplitl [HOS]; · iexists fb; iexact HOS
    isplitl [Hs7]; · iexact Hs7
    isplitl [HOB]; · iexact HOB
    isplitl [Hso]; · iexact Hso
    isplitl [HFO]; · iexists fbp; iexact HFO
    iexact Hw
  iintro %acc' ⟨%hacc', ⟨%fnew, %hgood', HFI'⟩, HI8, Hs9, HS7, HT, Hs7, ⟨%fg, HFO'⟩, HO16, ⟨%fo15, HS15⟩, Hs17, ⟨%W'', %hW'', Hw⟩⟩
  have hp4 : k0_off7 (tailW t.val) = k0_off4 (tailW (t.val + 1 + 1)) := r3par4 (by omega) (by omega) (by omega)
  have hp1 : k0_off9 (tailW t.val) = k0_off6 (tailW (t.val + 1 + 1)) := r3par1I (by omega) (by omega) (by omega)
  have hp5 : k0_off15 (tailW (t.val - 1)) = k0_off10 (tailW (t.val + 1)) := r3par5 (by omega) (by omega) (by omega)
  have hp1O : k0_off17 (tailW (t.val - 1)) = k0_off14 (tailW (t.val + 1)) := r3par1O (by omega) (by omega) (by omega)
  have e1 : min (t.val + 1 + 1) 50 = t.val + 2 := by omega
  have e2 : (t.val + 1) % 50 = t.val + 1 := by omega
  isplitr
  · ipureintro; rw [hacc']; unfold r3car; rw [e1, e2, Nat.add_sub_cancel]
  isplitr; · iexact Hmw
  isplitl [HT]; · iexact HT
  isplitl [Hs7]; · iexact Hs7
  isplitl [HFI' Hrest1 HS7 Hs9 HI8 Hrest Htoks]
  · isplitl [HFI']
    · iexists fnew; isplitr
      · ipureintro; exact hgood'
      · iexact HFI'
    isplitl [Hrest1]; · iexact Hrest1
    isplitl [HS7]
    · iexists fcur; iapply (Entails.of_eq (r3ISlotPt_congr d L hp4 (r3hb7 _) (r3hb4 _) fcur)); iexact HS7
    isplitl [Hs9]
    · iapply (Entails.of_eq (tailCell_congr d L cc0_scoped4 hp1 (r3hb9 _) (r3hb6 _))); iexact Hs9
    -- trip t's token whole again, back among the others
    iapply (Entails.of_eq (tail_bigSep_step (fun u : Fin 50 => u.val ≠ t.val ∧ u.val ≠ t.val + 1) (fun u : Fin 50 => u.val ≠ t.val + 1) (tailFin t.val)
      (by rw [tailFin_val (by omega)]; omega) (fun u => by rw [Fin.ext_iff, tailFin_val (by omega)]; omega) (tailTokPt m d qi)).symm)
    isplitl [HI8 Hrest]
    · iapply (pointsTo_split_subset (Finset.subset_univ (tailIBlk (r3bi L (tailFin t.val)) (r3bi_inb L _)).view.set)).2
      isplitl [HI8]; · iexact HI8
      iexact Hrest
    iexact Htoks
  isplitl [HFO' HS15 Hs17 HO16 Hdone Htodo]
  · isplitl [HFO']; · iexists fg; iexact HFO'
    isplitl [HS15]
    · iexists fo15; iapply (Entails.of_eq (r3OSlotPt_congr d L hp5 (r3hb15 _) (r3hb10 _) fo15)); iexact HS15
    isplitl [Hs17]
    · iapply (Entails.of_eq (tailCell_congr d L cc0_scoped6 hp1O (r3hb17 _) (r3hb14 _))); iexact Hs17
    isplitl [HO16 Hdone]
    · iapply (Entails.of_eq (tail_bigSep_step (fun u : Fin 50 => u.val + 1 < t.val) (fun u : Fin 50 => u.val + 1 < t.val + 1) (tailFin (t.val - 1))
        (by rw [tailFin_val (by omega)]; omega) (fun u => by rw [Fin.ext_iff, tailFin_val (by omega)]; omega) (fun u => tailOPt d L 0 u (outK m d))).symm)
      isplitl [HO16]; · iexact HO16
      iexact Hdone
    iexact Htodo
  iexists W''; isplitr
  · ipureintro; intro p hp
    rcases hW'' p hp with h | h
    · exact hW' p h
    · exact .inr h
  · iexact Hw

set_option maxHeartbeats 1000000 in
theorem r3trip0 (t : Fin k0_t1_loop.trips) (ht0 : t.val = 0)
    (hx : Cert.Lookup.InRange (m (xLoc d) : IVec Cert.Lookup.SX 32))
    (acc : BitVec 32 × BitVec 32 × BitVec 32 × BitVec 32 × BitVec 32) :
    r3inv m d L O W qi qs t.val acc
      ⊢ wp frame (wpE (defs₀ (F := F)) 𝒱₀ (tailThr d L) none) Set.univ
          (k0_t1_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r3v7 L) (Scalar.addi 0#32 1#32) 0#32 0#32 0#32 0#32 0#32 t acc)
          (r3inv m d L O W qi qs (t.val + 1)) := by
  have ht50 : t.val < 50 := by omega
  have e5 : k0_off5 L (tailW t.val) = r3bi L (tailFin (t.val + 1)) := by
    show _ = Arith.blkIn 0 L (tailFin (t.val + 1)).val
    rw [tailFin_val (by omega)]; exact Arith.off5_eq L t.val (by omega)
  have e8 : k0_off8 L (tailW t.val) = r3bi L (tailFin t.val) := by
    show _ = Arith.blkIn 0 L (tailFin t.val).val
    rw [tailFin_val (by omega)]; exact Arith.off8_eq L t.val (by omega)
  have e13 : k0_off13 L (tailW t.val) = r3bo L (tailFin t.val) := by
    show _ = outOff 0 (stp (L 0).val (L 1).val (tailFin t.val).val)
    rw [tailFin_val (by omega)]; exact Arith.off13_eq L t.val (by omega)
  unfold r3inv r3out
  simp only [Nat.add_sub_cancel]
  rw [if_pos (show t.val < 50 by omega), if_pos (show t.val + 1 < 50 by omega), if_pos ht0,
    if_neg (show ¬ t.val + 1 = 0 by omega)]
  unfold r3idxMid
  iintro ⟨%hacc, #Hmw, HT, Hs7, ⟨⟨%fcur, %hgood, HFI⟩, Hrest, ⟨%fa, HSn⟩, Hsn, Htoks⟩, ⟨⟨⟨%fo1, HS1⟩, Hs1⟩, ⟨%fb, HOS⟩, Hso, Hdone, Htodo⟩, ⟨%W', %hW', Hw⟩⟩
  subst hacc
  -- the read token of trip t + 1, its block apart from its rest
  ihave Htoks' := (Entails.of_eq (tail_bigSep_step (fun u : Fin 50 => u.val ≠ t.val ∧ u.val ≠ t.val + 1) (fun u : Fin 50 => u.val ≠ t.val) (tailFin (t.val + 1))
    (by rw [tailFin_val (by omega)]; omega) (fun u => by rw [Fin.ext_iff, tailFin_val (by omega)]; omega) (tailTokPt m d qi))) $$ Htoks
  icases Htoks' with ⟨Htok1, Htoks⟩
  ihave Hsp := (pointsTo_split_subset (Finset.subset_univ (tailIBlk (r3bi L (tailFin (t.val + 1))) (r3bi_inb L _)).view.set)).1 $$ Htok1
  icases Hsp with ⟨HIn, Hrest1⟩
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 0 u (m (oLoc d))))) $$ Htodo
  icases Htodo' with ⟨HOB, Htodo⟩
  iapply (wp_wand_r Idealize.ShloMosaic.frame (wpE (defs₀ (F := F)) 𝒱₀ (tailThr d L) none) Set.univ)
  isplitl [HIn HSn Hsn HFI HT HOS Hs7 HOB Hso Hw]
  · have hcar : r3car t.val = (tailW (t.val + 1), tailW t.val, tailW t.val, tailW (t.val - 1), tailW t.val) := by
      unfold r3car; rw [Nat.min_eq_left (by omega), Nat.mod_eq_of_lt (by omega)]
    rw [hcar]
    iapply (r3core0 m d L O W' t ht0
      (k0_off7 (tailW (t.val + 1))) rfl (r3hb7 _) (r3bi L (tailFin (t.val + 1))) e5 (r3bi_inb L _) (k0_off9 (tailW (t.val + 1))) rfl (r3hb9 _)
      (k0_off7 (tailW t.val)) rfl (r3hb7 _) (r3bi L (tailFin t.val)) e8 (r3bi_inb L _) (k0_off9 (tailW t.val)) rfl (r3hb9 _)
      (k0_off15 (tailW t.val)) rfl (r3hb15 _) (r3bo L (tailFin t.val)) e13 (r3bo_inb L _) (k0_off17 (tailW t.val)) rfl (r3hb17 _)
      (shareTok qi 50 (tailFin (t.val + 1))) (shareTok qi 50 (tailFin t.val)) qs fcur hgood hx)
    isplitr; · iexact Hmw
    isplitl [HIn]; · iexact HIn
    isplitl [HSn]; · iexists fa; iexact HSn
    isplitl [Hsn]; · iexact Hsn
    isplitl [HFI]; · iexact HFI
    isplitl [HT]; · iexact HT
    isplitl [HOS]; · iexists fb; iexact HOS
    isplitl [Hs7]; · iexact Hs7
    isplitl [HOB]; · iexact HOB
    isplitl [Hso]; · iexact Hso
    iexact Hw
  iintro %acc' ⟨%hacc', ⟨%fnew, %hgood', HFI'⟩, HI8, Hs9, HS7, HT, Hs7, ⟨%fg, HFO'⟩, ⟨%W'', %hW'', Hw⟩⟩
  have hp4 : k0_off7 (tailW t.val) = k0_off4 (tailW (t.val + 1 + 1)) := r3par4 (by omega) (by omega) (by omega)
  have hp1 : k0_off9 (tailW t.val) = k0_off6 (tailW (t.val + 1 + 1)) := r3par1I (by omega) (by omega) (by omega)
  have e1 : min (t.val + 1 + 1) 50 = t.val + 2 := by omega
  have e2 : (t.val + 1) % 50 = t.val + 1 := by omega
  isplitr
  · ipureintro; rw [hacc']; unfold r3car; rw [e1, e2, Nat.add_sub_cancel]
  isplitr; · iexact Hmw
  isplitl [HT]; · iexact HT
  isplitl [Hs7]; · iexact Hs7
  isplitl [HFI' Hrest1 HS7 Hs9 HI8 Hrest Htoks]
  · isplitl [HFI']
    · iexists fnew; isplitr
      · ipureintro; exact hgood'
      · iexact HFI'
    isplitl [Hrest1]; · iexact Hrest1
    isplitl [HS7]
    · iexists fcur; iapply (Entails.of_eq (r3ISlotPt_congr d L hp4 (r3hb7 _) (r3hb4 _) fcur)); iexact HS7
    isplitl [Hs9]
    · iapply (Entails.of_eq (tailCell_congr d L cc0_scoped4 hp1 (r3hb9 _) (r3hb6 _))); iexact Hs9
    -- trip t's token whole again, back among the others
    iapply (Entails.of_eq (tail_bigSep_step (fun u : Fin 50 => u.val ≠ t.val ∧ u.val ≠ t.val + 1) (fun u : Fin 50 => u.val ≠ t.val + 1) (tailFin t.val)
      (by rw [tailFin_val (by omega)]; omega) (fun u => by rw [Fin.ext_iff, tailFin_val (by omega)]; omega) (tailTokPt m d qi)).symm)
    isplitl [HI8 Hrest]
    · iapply (pointsTo_split_subset (Finset.subset_univ (tailIBlk (r3bi L (tailFin t.val)) (r3bi_inb L _)).view.set)).2
      isplitl [HI8]; · iexact HI8
      iexact Hrest
    iexact Htoks
  isplitl [HFO' HS1 Hs1 Hdone Htodo]
  · isplitl [HFO']; · iexists fg; iexact HFO'
    isplitl [HS1]; · iexists fo1; iexact HS1
    isplitl [Hs1]; · iexact Hs1
    isplitl [Hdone]
    · rw [show (Finset.univ.filter fun u : Fin 50 => u.val + 1 < t.val + 1) = (Finset.univ.filter fun u : Fin 50 => u.val + 1 < t.val) from
        Finset.filter_congr (fun u _ => by omega)]
      iexact Hdone
    iexact Htodo
  iexists W''; isplitr
  · ipureintro; intro p hp
    rcases hW'' p hp with h | h
    · exact hW' p h
    · exact .inr h
  · iexact Hw

set_option maxHeartbeats 1000000 in
theorem r3tripE (t : Fin k0_t1_loop.trips) (ht49 : t.val = 49)
    (hx : Cert.Lookup.InRange (m (xLoc d) : IVec Cert.Lookup.SX 32))
    (acc : BitVec 32 × BitVec 32 × BitVec 32 × BitVec 32 × BitVec 32) :
    r3inv m d L O W qi qs t.val acc
      ⊢ wp frame (wpE (defs₀ (F := F)) 𝒱₀ (tailThr d L) none) Set.univ
          (k0_t1_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r3v7 L) (Scalar.addi 0#32 1#32) 0#32 0#32 0#32 0#32 0#32 t acc)
          (r3inv m d L O W qi qs (t.val + 1)) := by
  have ht50 : t.val < 50 := by omega
  have e8 : k0_off8 L (tailW t.val) = r3bi L (tailFin t.val) := by
    show _ = Arith.blkIn 0 L (tailFin t.val).val
    rw [tailFin_val (by omega)]; exact Arith.off8_eq L t.val (by omega)
  have e13 : k0_off13 L (tailW t.val) = r3bo L (tailFin t.val) := by
    show _ = outOff 0 (stp (L 0).val (L 1).val (tailFin t.val).val)
    rw [tailFin_val (by omega)]; exact Arith.off13_eq L t.val (by omega)
  have e16 : k0_off16 L (tailW t.val) = r3bo L (tailFin (t.val - 1)) := by
    show _ = outOff 0 (stp (L 0).val (L 1).val (tailFin (t.val - 1)).val)
    rw [tailFin_val (by omega)]; exact Arith.off16_eq L t.val (by omega) (by omega)
  unfold r3inv r3out
  simp only [Nat.add_sub_cancel]
  rw [if_pos (show t.val < 50 by omega), if_neg (show ¬ t.val + 1 < 50 by omega), if_neg (show ¬ t.val = 0 by omega),
    if_neg (show ¬ t.val + 1 = 0 by omega)]
  unfold r3idxMid r3idxEnd
  simp only [Nat.add_sub_cancel]
  iintro ⟨%hacc, #Hmw, HT, Hs7, ⟨⟨%fcur, %hgood, HFI⟩, Hrest, ⟨%fa, HSn⟩, Hsn, Htoks⟩, ⟨⟨%fbp, HFO⟩, ⟨%fb, HOS⟩, Hso, Hdone, Htodo⟩, ⟨%W', %hW', Hw⟩⟩
  subst hacc
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 0 u (m (oLoc d))))) $$ Htodo
  icases Htodo' with ⟨HOB, Htodo⟩
  iapply (wp_wand_r Idealize.ShloMosaic.frame (wpE (defs₀ (F := F)) 𝒱₀ (tailThr d L) none) Set.univ)
  isplitl [HFI HT HOS Hs7 HOB Hso HFO Hw]
  · have hcar : r3car t.val = (tailW (t.val + 1), tailW t.val, tailW t.val, tailW (t.val - 1), tailW t.val) := by
      unfold r3car; rw [Nat.min_eq_left (by omega), Nat.mod_eq_of_lt (by omega)]
    rw [hcar]
    iapply (r3coreE m d L O W' t ht49
      (k0_off7 (tailW t.val)) rfl (r3hb7 _) (r3bi L (tailFin t.val)) e8 (r3bi_inb L _) (k0_off9 (tailW t.val)) rfl (r3hb9 _)
      (k0_off15 (tailW t.val)) rfl (r3hb15 _) (r3bo L (tailFin t.val)) e13 (r3bo_inb L _) (k0_off17 (tailW t.val)) rfl (r3hb17 _)
      (k0_off15 (tailW (t.val - 1))) rfl (r3hb15 _) (r3bo L (tailFin (t.val - 1))) e16 (r3bo_inb L _) (k0_off17 (tailW (t.val - 1))) rfl (r3hb17 _)
      (shareTok qi 50 (tailFin (t.val + 1))) (shareTok qi 50 (tailFin t.val)) qs fcur hgood hx)
    isplitr; · iexact Hmw
    isplitl [HFI]; · iexact HFI
    isplitl [HT]; · iexact HT
    isplitl [HOS]; · iexists fb; iexact HOS
    isplitl [Hs7]; · iexact Hs7
    isplitl [HOB]; · iexact HOB
    isplitl [Hso]; · iexact Hso
    isplitl [HFO]; · iexists fbp; iexact HFO
    iexact Hw
  iintro %acc' ⟨%hacc', HI8, Hs9, HS7, HT, Hs7, ⟨%fg, HFO'⟩, HO16, ⟨%fo15, HS15⟩, Hs17, ⟨%W'', %hW'', Hw⟩⟩
  have hp5 : k0_off15 (tailW (t.val - 1)) = k0_off10 (tailW (t.val + 1)) := r3par5 (by omega) (by omega) (by omega)
  have hp1O : k0_off17 (tailW (t.val - 1)) = k0_off14 (tailW (t.val + 1)) := r3par1O (by omega) (by omega) (by omega)
  have e1 : min (t.val + 1 + 1) 50 = t.val + 1 := by omega
  have e2 : (t.val + 1) % 50 = 0 := by omega
  isplitr
  · ipureintro; rw [hacc']; unfold r3car; rw [e1, e2, Nat.add_sub_cancel]
  isplitr; · iexact Hmw
  isplitl [HT]; · iexact HT
  isplitl [Hs7]; · iexact Hs7
  isplitl [HSn Hsn HS7 Hs9 HI8 Hrest Htoks]
  · isplitl [HSn]; · iexists fa; iexact HSn
    isplitl [Hsn]; · iexact Hsn
    isplitl [HS7]; · iexists fcur; iexact HS7
    isplitl [Hs9]; · iexact Hs9
    -- the last trip's token whole again, back among the others: every token whole
    iapply (Entails.of_eq (r3_take (tailFin t.val) (tailTokPt m d qi)).symm)
    rw [tailFin_val (by omega)]
    isplitl [HI8 Hrest]
    · iapply (pointsTo_split_subset (Finset.subset_univ (tailIBlk (r3bi L (tailFin t.val)) (r3bi_inb L _)).view.set)).2
      isplitl [HI8]; · iexact HI8
      iexact Hrest
    iexact Htoks
  isplitl [HFO' HS15 Hs17 HO16 Hdone Htodo]
  · isplitl [HFO']; · iexists fg; iexact HFO'
    isplitl [HS15]
    · iexists fo15; iapply (Entails.of_eq (r3OSlotPt_congr d L hp5 (r3hb15 _) (r3hb10 _) fo15)); iexact HS15
    isplitl [Hs17]
    · iapply (Entails.of_eq (tailCell_congr d L cc0_scoped6 hp1O (r3hb17 _) (r3hb14 _))); iexact Hs17
    isplitl [HO16 Hdone]
    · iapply (Entails.of_eq (tail_bigSep_step (fun u : Fin 50 => u.val + 1 < t.val) (fun u : Fin 50 => u.val + 1 < t.val + 1) (tailFin (t.val - 1))
        (by rw [tailFin_val (by omega)]; omega) (fun u => by rw [Fin.ext_iff, tailFin_val (by omega)]; omega) (fun u => tailOPt d L 0 u (outK m d))).symm)
      isplitl [HO16]; · iexact HO16
      iexact Hdone
    iexact Htodo
  iexists W''; isplitr
  · ipureintro; intro p hp
    rcases hW'' p hp with h | h
    · exact hW' p h
    · exact .inr h
  · iexact Hw

/-- A trip of the loop, whichever. -/
theorem r3trip (t : Fin k0_t1_loop.trips) (hx : Cert.Lookup.InRange (m (xLoc d) : IVec Cert.Lookup.SX 32))
    (acc : BitVec 32 × BitVec 32 × BitVec 32 × BitVec 32 × BitVec 32) :
    r3inv m d L O W qi qs t.val acc
      ⊢ wp frame (wpE (defs₀ (F := F)) 𝒱₀ (tailThr d L) none) Set.univ
          (k0_t1_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r3v7 L) (Scalar.addi 0#32 1#32) 0#32 0#32 0#32 0#32 0#32 t acc)
          (r3inv m d L O W qi qs (t.val + 1)) := by
  have ht : t.val < 50 := lt_of_lt_of_eq t.isLt Arith.trips1
  rcases Nat.eq_zero_or_pos t.val with h0 | h1
  · exact r3trip0 m d L O W qi qs t h0 hx acc
  · rcases Nat.lt_or_ge t.val 49 with h | h
    · exact r3tripM m d L O W qi qs t h1 h hx acc
    · exact r3tripE m d L O W qi qs t (by omega) hx acc

/-- The invariant after the last trip, spelt out. -/
theorem r3inv_end (acc : BitVec 32 × BitVec 32 × BitVec 32 × BitVec 32 × BitVec 32) :
    r3inv m d L O W qi qs 50 acc
      ⊢ iprop(⌜acc = (tailW 50, tailW 50, tailW 50, tailW 49, tailW 0)⌝ ∗ Transfers.MayWaits (tailThr d L) (default : HIx 1) O ∗ r3Tab m d L qs
          ∗ semVal (tailThr d L, SemLoc.dma cc0_scoped7.sem) 0
          ∗ ((∃ f, r3ISlotPt d L (k0_off4 (tailW 50)) (r3hb4 _) f)
            ∗ semVal (tailThr d L, SemLoc.dma (tailSem cc0_scoped4 (k0_off6 (tailW 50)) (r3hb6 _))) 0
            ∗ (∃ f, r3ISlotPt d L (k0_off7 (tailW (50 - 1))) (r3hb7 _) f)
            ∗ semVal (tailThr d L, SemLoc.dma (tailSem cc0_scoped4 (k0_off9 (tailW (50 - 1))) (r3hb9 _))) 0
            ∗ bigSep Finset.univ (tailTokPt m d qi))
          ∗ ((∃ fbp, r3FO d L (k0_off17 (tailW (50 - 1))) (r3hb17 _) (r3bo L (tailFin (50 - 1))) (r3bo_inb L _) (outK m d) (k0_off15 (tailW (50 - 1))) (r3hb15 _) fbp)
            ∗ (∃ f, r3OSlotPt d L (k0_off10 (tailW 50)) (r3hb10 _) f)
            ∗ semVal (tailThr d L, SemLoc.dma (tailSem cc0_scoped6 (k0_off14 (tailW 50)) (r3hb14 _))) 0
            ∗ bigSep (Finset.univ.filter fun u : Fin 50 => u.val + 1 < 50) (fun u => tailOPt d L 0 u (outK m d))
            ∗ bigSep (Finset.univ.filter fun u : Fin 50 => 50 ≤ u.val) (fun u => tailOPt d L 0 u (m (oLoc d))))
          ∗ ∃ W', ⌜∀ p ∈ W', p ∈ W ∨ p.2 = none⌝ ∗ owes (tailThr d L) O W') := by
  unfold r3inv r3out r3idxEnd
  rw [if_neg (show ¬ (50 : ℕ) < 50 by decide), if_neg (show ¬ (50 : ℕ) = 0 by decide)]
  iintro ⟨%hacc, H⟩
  isplitr
  · ipureintro; rw [hacc]; rfl
  · iexact H

/-! ## After the loop: the buffers whole again, every block done -/

omit [FloatOps F] in
theorem r3I_back (fa fc g : Buf (Elt F) ((tailThr d L).loc cc0_scoped3)) :
    iprop(r3ISlotPt d L (k0_off4 (tailW 50)) (r3hb4 _) fa ∗ r3ISlotPt d L (k0_off7 (tailW (50 - 1))) (r3hb7 _) fc
        ∗ ((tailThr d L).loc cc0_scoped3 ↦[r3IRest d L]{fullShare} g))
      ⊢ (∃ f, (tailThr d L).loc cc0_scoped3 ↦{fullShare} f : sProp 𝕄) := by
  have e0 : k0_off4 (tailW 50) = (![0, 0, 0, 0] : Fin 4 → ℕ) := by rw [Arith.off4_eq]; rfl
  have e1 : k0_off7 (tailW (50 - 1)) = (![1, 0, 0, 0] : Fin 4 → ℕ) := by rw [Arith.off7_eq]; rfl
  rw [r3ISlotPt_congr d L e0 (r3hb4 _) r3inbI0 fa, r3ISlotPt_congr d L e1 (r3hb7 _) r3inbI1 fc]
  exact r3IBuf_join d L fa fc g

omit [FloatOps F] in
theorem r3O_back (fb fbp g : Buf (Elt F) ((tailThr d L).loc cc0_scoped5)) :
    iprop(r3OSlotPt d L (k0_off10 (tailW 50)) (r3hb10 _) fb ∗ r3OSlotPt d L (k0_off15 (tailW (50 - 1))) (r3hb15 _) fbp
        ∗ ((tailThr d L).loc cc0_scoped5 ↦[r3ORest d L]{fullShare} g))
      ⊢ (∃ f, (tailThr d L).loc cc0_scoped5 ↦{fullShare} f : sProp 𝕄) := by
  have e0 : k0_off10 (tailW 50) = (![0, 0, 0, 0, 0] : Fin 5 → ℕ) := by rw [Arith.off10_eq]; rfl
  have e1 : k0_off15 (tailW (50 - 1)) = (![1, 0, 0, 0, 0] : Fin 5 → ℕ) := by rw [Arith.off15_eq]; rfl
  rw [r3OSlotPt_congr d L e0 (r3hb10 _) r3inbO0 fb, r3OSlotPt_congr d L e1 (r3hb15 _) r3inbO1 fbp]
  exact r3OBuf_join d L fb fbp g

/-- The last block done, beside the forty-nine before it: all fifty. -/
theorem r3_allDone :
    iprop(((tailOBlk (r3bo L (tailFin (50 - 1))) (r3bo_inb L _)).view.loc (tailThr d L) ↦[(tailOBlk (r3bo L (tailFin (50 - 1))) (r3bo_inb L _)).view.set]{fullShare} outK m d)
        ∗ bigSep (Finset.univ.filter fun u : Fin 50 => u.val + 1 < 50) (fun u => tailOPt d L 0 u (outK m d)))
      ⊢ (bigSep Finset.univ (fun u : Fin 50 => tailOPt d L 0 u (outK m d)) : sProp 𝕄) := by
  rw [r3_take (tailFin (50 - 1)) (fun u => tailOPt d L 0 u (outK m d)),
    show (Finset.univ.filter fun u : Fin 50 => u.val ≠ (tailFin (50 - 1)).val) = (Finset.univ.filter fun u : Fin 50 => u.val + 1 < 50) from
      Finset.filter_congr (fun u _ => by have := u.isLt; show u.val ≠ (50 - 1) % 50 ↔ _; omega)]
  exact Entails.refl _

end Cert.Proof.KI

end
-- ==== Proof.KITailR5D.lean ====
/-
  The second of the three pipelined lookups: its two-slot buffers, what is in flight on its semaphores, the facts that
  the fetched words are the index block's and stay in range, and the loop's invariant.  At trip t the fetch of index
  block t is in flight into the index slot of t's parity and the copy-out of the gathered rows of block t - 1 is in
  flight from the row slot of the other parity; the blocks before t - 1 hold the lookup's values.
-/
import proofs.«206595_g34437047779621_cont_8to1_b_428_16_alg».proof.Proof.KITailLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

/-! ## The buffers of the second lookup -/

/-- One slot of the two-slot buffer of index words. -/
abbrev r5iSlot (off : Fin 4 → ℕ) (h : ∀ a, off a + S1x1x1x128.size a ≤ S2x1x1x128.size a) : Memref sig .scVector .vmem S1x1x1x128 .i32 :=
  (Memref.whole cc0_scoped8).slice (Rect.unit (s := S2x1x1x128) off S1x1x1x128.size h) (fun _ => rfl)
/-- One slot of the two-slot buffer of gathered rows. -/
abbrev r5oSlot (off : Fin 5 → ℕ) (h : ∀ a, off a + S1x1x1x128x128.size a ≤ S2x1x1x128x128.size a) : Memref sig .scVector .vmem S1x1x1x128x128 .f32 :=
  (Memref.whole cc0_scoped10).slice (Rect.unit (s := S2x1x1x128x128) off S1x1x1x128x128.size h) (fun _ => rfl)
/-- The list of 128 index words of one slot, as the gather reads it. -/
abbrev r5list (off : Fin 4 → ℕ) (h : ∀ a, off a + S1x1x1x128.size a ≤ S2x1x1x128.size a) : Memref sig .scVector .vmem S128 .i32 :=
  ((((r5iSlot off h).squeeze S1x1x128 squeezes_S1x1x1x128_S1x1x128).slice (Rect.unit (s := S1x1x128) ![0, 0, 0] S1x1x128.size inb_S1x1x128_S1x1x128_0_0_0) (fun _ => rfl)).squeeze S128 squeezes_S1x1x128_S128)

/-- An index slot at contents `f`. -/
abbrev r5ISlotPt (off : Fin 4 → ℕ) (h : ∀ a, off a + S1x1x1x128.size a ≤ S2x1x1x128.size a)
    (f : Buf (Elt F) ((Memref.whole cc0_scoped8).view.loc (tailThr d L))) : sProp 𝕄 :=
  (r5iSlot off h).view.loc (tailThr d L) ↦[(r5iSlot off h).view.set]{fullShare} f
/-- A slot of gathered rows at contents `f`. -/
abbrev r5OSlotPt (off : Fin 5 → ℕ) (h : ∀ a, off a + S1x1x1x128x128.size a ≤ S2x1x1x128x128.size a)
    (f : Buf (Elt F) ((Memref.whole cc0_scoped10).view.loc (tailThr d L))) : sProp 𝕄 :=
  (r5oSlot off h).view.loc (tailThr d L) ↦[(r5oSlot off h).view.set]{fullShare} f

/-- A fetch of an index block into an index slot, in flight. -/
abbrev r5FI (offS : Fin 1 → ℕ) (hS : ∀ a, offS a + S1.size a ≤ S2.size a) (offL : Fin 4 → ℕ) (hL : ∀ a, offL a + S1x1x1x128.size a ≤ S2x1x1x128.size a)
    (offB : Fin 3 → ℕ) (hB : ∀ a, offB a + S1x1x128.size a ≤ S3x50x4096.size a) (q : PosShare TreeShare)
    (f : Buf (Elt F) ((Memref.whole cc0_scoped8).view.loc (tailThr d L))) : sProp 𝕄 :=
  Transfers.Flight countersEmb (tailThr d L) (SemLoc.dma (tailSem cc0_scoped9 offS hS)) (default : HIx 1) 4096
    iprop(((r5iSlot offL hL).view.loc (tailThr d L) ↦[(r5iSlot offL hL).view.set]{fullShare} f)
      ∗ ((tailIBlk offB hB).view.loc (tailThr d L) ↦[(tailIBlk offB hB).view.set]{q} idxT m d))
/-- A copy of a slot of gathered rows out to an output block, in flight. -/
abbrev r5FO (offS : Fin 1 → ℕ) (hS : ∀ a, offS a + S1.size a ≤ S2.size a) (offB : Fin 4 → ℕ) (hB : ∀ a, offB a + S1x1x128x128.size a ≤ S50x3x4096x128.size a)
    (fB : Buf (Elt F) (oLoc d)) (offL : Fin 5 → ℕ) (hL : ∀ a, offL a + S1x1x1x128x128.size a ≤ S2x1x1x128x128.size a)
    (fL : Buf (Elt F) ((Memref.whole cc0_scoped10).view.loc (tailThr d L))) : sProp 𝕄 :=
  Transfers.Flight countersEmb (tailThr d L) (SemLoc.dma (tailSem cc0_scoped11 offS hS)) (default : HIx 1) 524288
    iprop(((tailOBlk offB hB).view.loc (tailThr d L) ↦[(tailOBlk offB hB).view.set]{fullShare} fB)
      ∗ ((r5oSlot offL hL).view.loc (tailThr d L) ↦[(r5oSlot offL hL).view.set]{fullShare} fL))

/-- The index slot `off` holds the 128 words of the index block `boff`. -/
def r5good (off : Fin 4 → ℕ) (h : ∀ a, off a + S1x1x1x128.size a ≤ S2x1x1x128.size a)
    (boff : Fin 3 → ℕ) (hb : ∀ a, boff a + S1x1x128.size a ≤ S3x50x4096.size a)
    (f : Buf (Elt F) ((Memref.whole cc0_scoped8).view.loc (tailThr d L))) : Prop :=
  ∀ x : S128.Idx, (r5list off h).view.read (Elt F) f x = ((tailIBlk boff hb).view.reshape S128 tail_numel128).read (Elt F) (idxT m d) x

/-- The tile's first step of the 1600, as a word. -/
def r5v7 : BitVec 32 :=
  Scalar.muli (Scalar.addi (Scalar.addi (0#32) (Scalar.muli (BitVec.ofNat 32 (L 1).val) 1#32)) (Scalar.muli (BitVec.ofNat 32 (L 0).val) 16#32)) 50#32

/-- That step as the second lookup's opening spells it: zero plus it. -/
def r5v20 : BitVec 32 := Scalar.addi 0#32 (r5v7 L)

/-- The floor quotient of that step by 32, computed on words as the opening does: the truncated quotient, less one
    when the signs differ and the remainder is not zero. -/
def r5v51 : BitVec 32 :=
  let v20 : BitVec 32 := r5v20 L
  let v35 : BitVec 32 := Scalar.divsi v20 32#32
  let v36 : BitVec 1 := Scalar.cmpi .sgt v20 0#32
  let v37 : BitVec 32 := Scalar.extui v36
  let v38 : BitVec 1 := Scalar.cmpi .slt v20 0#32
  let v39 : BitVec 32 := Scalar.extui v38
  let v40 : BitVec 32 := Scalar.subi v37 v39
  let v41 : BitVec 1 := Scalar.cmpi .sgt 32#32 0#32
  let v42 : BitVec 32 := Scalar.extui v41
  let v43 : BitVec 1 := Scalar.cmpi .slt 32#32 0#32
  let v44 : BitVec 32 := Scalar.extui v43
  let v45 : BitVec 32 := Scalar.subi v42 v44
  let v46 : BitVec 1 := Scalar.cmpi .ne v40 v45
  let v47 : BitVec 32 := Scalar.remsi v20 32#32
  let v48 : BitVec 1 := Scalar.cmpi .ne v47 0#32
  let v49 : BitVec 1 := Scalar.andi v46 v48
  let v50 : BitVec 32 := Scalar.subi v35 1#32
  Scalar.select v49 v50 v35

/-- The divisor 32 as the opening spells it (one where it would be zero). -/
def r5v53 : BitVec 32 := Scalar.select (Scalar.cmpi .eq 32#32 0#32) 1#32 32#32

/-- The table of the second lookup at a share. -/
abbrev r5Tab (qs : PosShare TreeShare) : sProp 𝕄 :=
  (Memref.whole cc0_scratch1).view.loc (tailThr d L) ↦{qs} (m (w1Loc d) : Buf (Elt F) (sh1Loc d (cV L)))

theorem r5list_subset (off : Fin 4 → ℕ) (h : ∀ a, off a + S1x1x1x128.size a ≤ S2x1x1x128.size a) :
    (r5list off h).view.set ⊆ (r5iSlot off h).view.set := by
  show ((((r5iSlot off h).view.reshape S1x1x128 _).slice _).reshape S128 _).set ⊆ _
  rw [View.set_reshape]
  refine (View.set_slice_subset _ _).trans ?_
  rw [View.set_reshape]

omit [FloatOps F] in
theorem r5_unit0_emb : ∀ x : S128.Idx,
    (Rect.unit (s := S1x1x128) ![0, 0, 0] S1x1x128.size inb_S1x1x128_S1x1x128_0_0_0).emb ((Shape.reshapeEquiv squeezes_S1x1x128_S128.numel_eq) x)
      = (Shape.reshapeEquiv (s := S1x1x128) (s' := S128) (by decide)) x := by
  decide +kernel

theorem r5good_write (off : Fin 4 → ℕ) (h : ∀ a, off a + S1x1x1x128.size a ≤ S2x1x1x128.size a)
    (boff : Fin 3 → ℕ) (hb : ∀ a, boff a + S1x1x128.size a ≤ S3x50x4096.size a)
    (fa : Buf (Elt F) ((Memref.whole cc0_scoped8).view.loc (tailThr d L))) :
    r5good m d L off h boff hb
      (View.write (Elt F) ((r5iSlot off h).squeeze S1x1x128 squeezes_S1x1x1x128_S1x1x128).view fa
        (ReadAs.same.apply (View.read (Elt F) (tailIBlk boff hb).view (idxT m d))) Finset.univ) := by
  intro x
  have e : (r5list off h).view.emb x
      = ((r5iSlot off h).squeeze S1x1x128 squeezes_S1x1x1x128_S1x1x128).view.emb ((Shape.reshapeEquiv (s := S1x1x128) (s' := S128) (by decide)) x) := by
    show ((r5iSlot off h).squeeze S1x1x128 squeezes_S1x1x1x128_S1x1x128).view.emb
        ((Rect.unit (s := S1x1x128) ![0, 0, 0] S1x1x128.size inb_S1x1x128_S1x1x128_0_0_0).emb ((Shape.reshapeEquiv squeezes_S1x1x128_S128.numel_eq) x)) = _
    rw [r5_unit0_emb]
  rw [View.read_apply, e, View.write_emb_of_mem _ _ (Finset.mem_univ _)]
  simp only [cast_cast, cast_eq]
  rfl

/-- A copy-out in flight, as the run leaves it, is the copy-out in flight the invariant states: its block at the values
    the block is to hold, its slot by the slot's own elements. -/
theorem r5FO_fix (offS : Fin 1 → ℕ) (hS : ∀ a, offS a + S1.size a ≤ S2.size a) (offB : Fin 4 → ℕ) (hB : ∀ a, offB a + S1x1x128x128.size a ≤ S50x3x4096x128.size a)
    (fB fB' : Buf (Elt F) (oLoc d)) (offL offL' : Fin 5 → ℕ) (hL : ∀ a, offL a + S1x1x1x128x128.size a ≤ S2x1x1x128x128.size a)
    (hL' : ∀ a, offL' a + S1x1x1x128x128.size a ≤ S2x1x1x128x128.size a)
    (fL : Buf (Elt F) ((Memref.whole cc0_scoped10).view.loc (tailThr d L)))
    (hv : ∀ i ∈ (tailOBlk offB hB).view.set, fB i = fB' i) (hoff : offL' = offL) :
    (Transfers.Flight countersEmb (tailThr d L) (SemLoc.dma (tailSem cc0_scoped11 offS hS)) (default : HIx 1) 524288
      iprop(((tailOBlk offB hB).view.loc (tailThr d L) ↦[(tailOBlk offB hB).view.set]{fullShare} fB)
        ∗ ((r5oSlot offL hL).view.loc (tailThr d L) ↦[((r5oSlot offL' hL').squeeze S1x1x128x128 squeezes_S1x1x1x128x128_S1x1x128x128).view.set]{fullShare} fL)) : sProp 𝕄)
      ⊢ r5FO d L offS hS offB hB fB' offL hL fL := by
  subst hoff
  have hset : ((r5oSlot offL' hL').squeeze S1x1x128x128 squeezes_S1x1x1x128x128_S1x1x128x128).view.set = (r5oSlot offL' hL).view.set :=
    View.set_reshape _ _
  refine Transfers.Flight_mono countersEmb (tailThr d L) ?_
  rw [pointsTo_congr hv, hset]

variable (O : CellTallies nD τ sig (HIx 1)) (W : Waits sig (HIx 1))

/-! ## Slots and semaphores of one parity under two spellings -/

omit [FloatOps F] in
theorem r5ISlotPt_congr {off off' : Fin 4 → ℕ} (e : off = off') (h : ∀ a, off a + S1x1x1x128.size a ≤ S2x1x1x128.size a)
    (h' : ∀ a, off' a + S1x1x1x128.size a ≤ S2x1x1x128.size a) (f : Buf (Elt F) ((Memref.whole cc0_scoped8).view.loc (tailThr d L))) :
    (r5ISlotPt d L off h f : sProp 𝕄) = r5ISlotPt d L off' h' f := by subst e; rfl
omit [FloatOps F] in
theorem r5OSlotPt_congr {off off' : Fin 5 → ℕ} (e : off = off') (h : ∀ a, off a + S1x1x1x128x128.size a ≤ S2x1x1x128x128.size a)
    (h' : ∀ a, off' a + S1x1x1x128x128.size a ≤ S2x1x1x128x128.size a) (f : Buf (Elt F) ((Memref.whole cc0_scoped10).view.loc (tailThr d L))) :
    (r5OSlotPt d L off h f : sProp 𝕄) = r5OSlotPt d L off' h' f := by subst e; rfl
omit [FloatOps F] in
theorem r5par4 {a b : ℕ} (ha : a < 2 ^ 32) (hb : b < 2 ^ 32) (h : a % 2 = b % 2) : k0_off28 (tailW a) = k0_off25 (tailW b) := by
  rw [Arith.off7_eq_r5, Arith.off4_eq_r5, tailW_par ha hb h]
omit [FloatOps F] in
theorem r5par1I {a b : ℕ} (ha : a < 2 ^ 32) (hb : b < 2 ^ 32) (h : a % 2 = b % 2) : k0_off30 (tailW a) = k0_off27 (tailW b) := by
  rw [Arith.off9_eq_r5, Arith.off6_eq_r5, tailW_par ha hb h]
omit [FloatOps F] in
theorem r5par5 {a b : ℕ} (ha : a < 2 ^ 32) (hb : b < 2 ^ 32) (h : a % 2 = b % 2) : k0_off36 (tailW a) = k0_off31 (tailW b) := by
  rw [Arith.off15_eq_r5, Arith.off10_eq_r5, tailW_par ha hb h]
omit [FloatOps F] in
theorem r5par1O {a b : ℕ} (ha : a < 2 ^ 32) (hb : b < 2 ^ 32) (h : a % 2 = b % 2) : k0_off38 (tailW a) = k0_off35 (tailW b) := by
  rw [Arith.off17_eq_r5, Arith.off14_eq_r5, tailW_par ha hb h]

/-! ## The two-slot buffers as their slots -/

omit [FloatOps F] in theorem r5inbI0 : ∀ a, (![0, 0, 0, 0] : Fin 4 → ℕ) a + S1x1x1x128.size a ≤ S2x1x1x128.size a := by decide
omit [FloatOps F] in theorem r5inbI1 : ∀ a, (![1, 0, 0, 0] : Fin 4 → ℕ) a + S1x1x1x128.size a ≤ S2x1x1x128.size a := by decide
omit [FloatOps F] in theorem r5inbO0 : ∀ a, (![0, 0, 0, 0, 0] : Fin 5 → ℕ) a + S1x1x1x128x128.size a ≤ S2x1x1x128x128.size a := by decide
omit [FloatOps F] in theorem r5inbO1 : ∀ a, (![1, 0, 0, 0, 0] : Fin 5 → ℕ) a + S1x1x1x128x128.size a ≤ S2x1x1x128x128.size a := by decide

omit [FloatOps F] in
theorem r5IDisj : Disjoint (r5iSlot ![1, 0, 0, 0] r5inbI1).view.set (r5iSlot ![0, 0, 0, 0] r5inbI0).view.set := by
  have h1 : (r5iSlot ![1, 0, 0, 0] r5inbI1).view.set = (Rect.unit (s := S2x1x1x128) ![1, 0, 0, 0] S1x1x1x128.size r5inbI1).set := View.set_slice_whole _ _
  have h0 : (r5iSlot ![0, 0, 0, 0] r5inbI0).view.set = (Rect.unit (s := S2x1x1x128) ![0, 0, 0, 0] S1x1x1x128.size r5inbI0).set := View.set_slice_whole _ _
  rw [h1, h0]
  exact Rect.disjoint_of_separated _ _ 0 (.inr (.inr (by decide)))
omit [FloatOps F] in
theorem r5ISub : (r5iSlot ![1, 0, 0, 0] r5inbI1).view.set ⊆ Finset.univ \ (r5iSlot ![0, 0, 0, 0] r5inbI0).view.set :=
  Finset.subset_sdiff.mpr ⟨Finset.subset_univ _, r5IDisj⟩
omit [FloatOps F] in
theorem r5ODisj : Disjoint (r5oSlot ![1, 0, 0, 0, 0] r5inbO1).view.set (r5oSlot ![0, 0, 0, 0, 0] r5inbO0).view.set := by
  have h1 : (r5oSlot ![1, 0, 0, 0, 0] r5inbO1).view.set = (Rect.unit (s := S2x1x1x128x128) ![1, 0, 0, 0, 0] S1x1x1x128x128.size r5inbO1).set := View.set_slice_whole _ _
  have h0 : (r5oSlot ![0, 0, 0, 0, 0] r5inbO0).view.set = (Rect.unit (s := S2x1x1x128x128) ![0, 0, 0, 0, 0] S1x1x1x128x128.size r5inbO0).set := View.set_slice_whole _ _
  rw [h1, h0]
  exact Rect.disjoint_of_separated _ _ 0 (.inr (.inr (by decide)))
omit [FloatOps F] in
theorem r5OSub : (r5oSlot ![1, 0, 0, 0, 0] r5inbO1).view.set ⊆ Finset.univ \ (r5oSlot ![0, 0, 0, 0, 0] r5inbO0).view.set :=
  Finset.subset_sdiff.mpr ⟨Finset.subset_univ _, r5ODisj⟩

/-- What of the index buffer lies in neither slot (nothing; kept as a piece so that no count is needed). -/
abbrev r5IRest : Finset (Idx ((tailThr d L).loc cc0_scoped8)) :=
  (Finset.univ \ (r5iSlot ![0, 0, 0, 0] r5inbI0).view.set) \ (r5iSlot ![1, 0, 0, 0] r5inbI1).view.set
abbrev r5ORest : Finset (Idx ((tailThr d L).loc cc0_scoped10)) :=
  (Finset.univ \ (r5oSlot ![0, 0, 0, 0, 0] r5inbO0).view.set) \ (r5oSlot ![1, 0, 0, 0, 0] r5inbO1).view.set

omit [FloatOps F] in
theorem r5IBuf_split (f : Buf (Elt F) ((tailThr d L).loc cc0_scoped8)) :
    ((tailThr d L).loc cc0_scoped8 ↦{fullShare} f : sProp 𝕄)
      ⊢ iprop(r5ISlotPt d L ![0, 0, 0, 0] r5inbI0 f ∗ r5ISlotPt d L ![1, 0, 0, 0] r5inbI1 f ∗ ((tailThr d L).loc cc0_scoped8 ↦[r5IRest d L]{fullShare} f)) := by
  iintro H
  ihave H' := (pointsTo_split_subset (Finset.subset_univ (r5iSlot ![0, 0, 0, 0] r5inbI0).view.set)).1 $$ H
  icases H' with ⟨H0, Hr⟩
  ihave Hr' := (pointsTo_split_subset r5ISub).1 $$ Hr
  icases Hr' with ⟨H1, Hr⟩
  isplitl [H0]; · iexact H0
  isplitl [H1]; · iexact H1
  iexact Hr

omit [FloatOps F] in
theorem r5IBuf_join (g0 g1 g : Buf (Elt F) ((tailThr d L).loc cc0_scoped8)) :
    iprop(r5ISlotPt d L ![0, 0, 0, 0] r5inbI0 g0 ∗ r5ISlotPt d L ![1, 0, 0, 0] r5inbI1 g1 ∗ ((tailThr d L).loc cc0_scoped8 ↦[r5IRest d L]{fullShare} g))
      ⊢ (∃ f, (tailThr d L).loc cc0_scoped8 ↦{fullShare} f : sProp 𝕄) := by
  iintro ⟨H0, H1, Hr⟩
  ihave Hr' := (pointsTo_join_subset (ℓ := (tailThr d L).loc cc0_scoped8) r5ISub) $$ [H1 Hr]
  · isplitl [H1]; · iexact H1
    iexact Hr
  ihave H := (pointsTo_join_subset (ℓ := (tailThr d L).loc cc0_scoped8) (Finset.subset_univ (r5iSlot ![0, 0, 0, 0] r5inbI0).view.set)) $$ [H0 Hr']
  · isplitl [H0]; · iexact H0
    iexact Hr'
  iexists _; iexact H

omit [FloatOps F] in
theorem r5OBuf_split (f : Buf (Elt F) ((tailThr d L).loc cc0_scoped10)) :
    ((tailThr d L).loc cc0_scoped10 ↦{fullShare} f : sProp 𝕄)
      ⊢ iprop(r5OSlotPt d L ![0, 0, 0, 0, 0] r5inbO0 f ∗ r5OSlotPt d L ![1, 0, 0, 0, 0] r5inbO1 f ∗ ((tailThr d L).loc cc0_scoped10 ↦[r5ORest d L]{fullShare} f)) := by
  iintro H
  ihave H' := (pointsTo_split_subset (Finset.subset_univ (r5oSlot ![0, 0, 0, 0, 0] r5inbO0).view.set)).1 $$ H
  icases H' with ⟨H0, Hr⟩
  ihave Hr' := (pointsTo_split_subset r5OSub).1 $$ Hr
  icases Hr' with ⟨H1, Hr⟩
  isplitl [H0]; · iexact H0
  isplitl [H1]; · iexact H1
  iexact Hr

omit [FloatOps F] in
theorem r5OBuf_join (g0 g1 g : Buf (Elt F) ((tailThr d L).loc cc0_scoped10)) :
    iprop(r5OSlotPt d L ![0, 0, 0, 0, 0] r5inbO0 g0 ∗ r5OSlotPt d L ![1, 0, 0, 0, 0] r5inbO1 g1 ∗ ((tailThr d L).loc cc0_scoped10 ↦[r5ORest d L]{fullShare} g))
      ⊢ (∃ f, (tailThr d L).loc cc0_scoped10 ↦{fullShare} f : sProp 𝕄) := by
  iintro ⟨H0, H1, Hr⟩
  ihave Hr' := (pointsTo_join_subset (ℓ := (tailThr d L).loc cc0_scoped10) r5OSub) $$ [H1 Hr]
  · isplitl [H1]; · iexact H1
    iexact Hr
  ihave H := (pointsTo_join_subset (ℓ := (tailThr d L).loc cc0_scoped10) (Finset.subset_univ (r5oSlot ![0, 0, 0, 0, 0] r5inbO0).view.set)) $$ [H0 Hr']
  · isplitl [H0]; · iexact H0
    iexact Hr'
  iexists _; iexact H

/-! ## Flights under two spellings -/

theorem r5FI_congr {offS offS' : Fin 1 → ℕ} {offL offL' : Fin 4 → ℕ} {offB offB' : Fin 3 → ℕ} (eS : offS = offS') (eL : offL = offL') (eB : offB = offB')
    (hS : ∀ a, offS a + S1.size a ≤ S2.size a) (hL : ∀ a, offL a + S1x1x1x128.size a ≤ S2x1x1x128.size a) (hB : ∀ a, offB a + S1x1x128.size a ≤ S3x50x4096.size a)
    (hS' : ∀ a, offS' a + S1.size a ≤ S2.size a) (hL' : ∀ a, offL' a + S1x1x1x128.size a ≤ S2x1x1x128.size a) (hB' : ∀ a, offB' a + S1x1x128.size a ≤ S3x50x4096.size a)
    (q : PosShare TreeShare) (f : Buf (Elt F) ((Memref.whole cc0_scoped8).view.loc (tailThr d L))) :
    (r5FI m d L offS hS offL hL offB hB q f : sProp 𝕄) = r5FI m d L offS' hS' offL' hL' offB' hB' q f := by subst eS eL eB; rfl
theorem r5good_congr {offL offL' : Fin 4 → ℕ} {offB offB' : Fin 3 → ℕ} (eL : offL = offL') (eB : offB = offB')
    (hL : ∀ a, offL a + S1x1x1x128.size a ≤ S2x1x1x128.size a) (hB : ∀ a, offB a + S1x1x128.size a ≤ S3x50x4096.size a)
    (hL' : ∀ a, offL' a + S1x1x1x128.size a ≤ S2x1x1x128.size a) (hB' : ∀ a, offB' a + S1x1x128.size a ≤ S3x50x4096.size a)
    (f : Buf (Elt F) ((Memref.whole cc0_scoped8).view.loc (tailThr d L))) (h : r5good m d L offL hL offB hB f) : r5good m d L offL' hL' offB' hB' f := by
  subst eL eB; exact h
omit [FloatOps F] in
theorem r5FO_congr {offS offS' : Fin 1 → ℕ} {offB offB' : Fin 4 → ℕ} {offL offL' : Fin 5 → ℕ} (eS : offS = offS') (eB : offB = offB') (eL : offL = offL')
    (hS : ∀ a, offS a + S1.size a ≤ S2.size a) (hB : ∀ a, offB a + S1x1x128x128.size a ≤ S50x3x4096x128.size a) (hL : ∀ a, offL a + S1x1x1x128x128.size a ≤ S2x1x1x128x128.size a)
    (hS' : ∀ a, offS' a + S1.size a ≤ S2.size a) (hB' : ∀ a, offB' a + S1x1x128x128.size a ≤ S50x3x4096x128.size a) (hL' : ∀ a, offL' a + S1x1x1x128x128.size a ≤ S2x1x1x128x128.size a)
    (fB : Buf (Elt F) (oLoc d)) (fL : Buf (Elt F) ((Memref.whole cc0_scoped10).view.loc (tailThr d L))) :
    (r5FO d L offS hS offB hB fB offL hL fL : sProp 𝕄) = r5FO d L offS' hS' offB' hB' fB offL' hL' fL := by subst eS eB eL; rfl

/-! ## In-bounds facts of the program's offsets at any word, and of the canonical blocks -/

omit [FloatOps F] in theorem r5hb4 (a : BitVec 32) : ∀ j, k0_off25 a j + S1x1x1x128.size j ≤ S2x1x1x128.size j := by rw [Arith.off4_eq_r5]; exact Arith.slot4 a
omit [FloatOps F] in theorem r5hb6 (a : BitVec 32) : ∀ j, k0_off27 a j + S1.size j ≤ S2.size j := by rw [Arith.off6_eq_r5]; exact Arith.slot1 a
omit [FloatOps F] in theorem r5hb7 (a : BitVec 32) : ∀ j, k0_off28 a j + S1x1x1x128.size j ≤ S2x1x1x128.size j := by rw [Arith.off7_eq_r5]; exact Arith.slot4 a
omit [FloatOps F] in theorem r5hb9 (a : BitVec 32) : ∀ j, k0_off30 a j + S1.size j ≤ S2.size j := by rw [Arith.off9_eq_r5]; exact Arith.slot1 a
omit [FloatOps F] in theorem r5hb10 (a : BitVec 32) : ∀ j, k0_off31 a j + S1x1x1x128x128.size j ≤ S2x1x1x128x128.size j := by rw [Arith.off10_eq_r5]; exact Arith.slot5 a
omit [FloatOps F] in theorem r5hb11 (a : BitVec 32) : ∀ j, k0_off32 a j + S1x1x1x128.size j ≤ S2x1x1x128.size j := by rw [Arith.off11_eq_r5]; exact Arith.slot4 a
omit [FloatOps F] in theorem r5hb12 (a : BitVec 32) : ∀ j, k0_off33 a j + S1x1x1x128x128.size j ≤ S2x1x1x128x128.size j := by rw [Arith.off12_eq_r5]; exact Arith.slot5 a
omit [FloatOps F] in theorem r5hb14 (a : BitVec 32) : ∀ j, k0_off35 a j + S1.size j ≤ S2.size j := by rw [Arith.off14_eq_r5]; exact Arith.slot1 a
omit [FloatOps F] in theorem r5hb15 (a : BitVec 32) : ∀ j, k0_off36 a j + S1x1x1x128x128.size j ≤ S2x1x1x128x128.size j := by rw [Arith.off15_eq_r5]; exact Arith.slot5 a
omit [FloatOps F] in theorem r5hb17 (a : BitVec 32) : ∀ j, k0_off38 a j + S1.size j ≤ S2.size j := by rw [Arith.off17_eq_r5]; exact Arith.slot1 a

/-- The index block of the tile's trip `u` for this lookup's table. -/
abbrev r5bi (u : Fin 50) : Fin 3 → ℕ := Arith.blkIn 1 L u.val
omit [FloatOps F] in theorem r5bi_inb (u : Fin 50) : ∀ a, r5bi L u a + S1x1x128.size a ≤ S3x50x4096.size a := Arith.blkIn_inb 1 (by decide) L u.val u.isLt
/-- The output block of the tile's trip `u` for this lookup's table. -/
abbrev r5bo (u : Fin 50) : Fin 4 → ℕ := outOff 1 (stp (L 0).val (L 1).val u.val)
omit [FloatOps F] in theorem r5bo_inb (u : Fin 50) : ∀ a, r5bo L u a + S1x1x128x128.size a ≤ S50x3x4096x128.size a :=
  outOff_inb (by decide) (stp_lt (L 0).isLt (L 1).isLt u.isLt)

variable (qi qs : PosShare TreeShare)

/-- The words the loop carries into trip `t`. -/
def r5car (t : ℕ) : BitVec 32 × BitVec 32 × BitVec 32 × BitVec 32 × BitVec 32 :=
  (tailW (min (t + 1) 50), tailW t, tailW t, tailW (t - 1), tailW (t % 50))

/-- Before trip `t < 50`, the index side: the fetch of block `t` in flight into the slot of `t`'s parity, on trip `t`'s
    read token (the rest of that token beside it), the other slot and its semaphore free, every other token whole. -/
def r5idxMid (t : ℕ) : sProp 𝕄 :=
  iprop((∃ fcur, ⌜r5good m d L (k0_off28 (tailW t)) (r5hb7 _) (r5bi L (tailFin t)) (r5bi_inb L _) fcur⌝
        ∗ r5FI m d L (k0_off30 (tailW t)) (r5hb9 _) (k0_off28 (tailW t)) (r5hb7 _) (r5bi L (tailFin t)) (r5bi_inb L _) (shareTok qi 50 (tailFin t)) fcur)
    ∗ (iLoc d ↦[Finset.univ \ (tailIBlk (r5bi L (tailFin t)) (r5bi_inb L _)).view.set]{shareTok qi 50 (tailFin t)} idxT m d)
    ∗ (∃ f, r5ISlotPt d L (k0_off25 (tailW (t + 1))) (r5hb4 _) f)
    ∗ semVal (tailThr d L, SemLoc.dma (tailSem cc0_scoped9 (k0_off27 (tailW (t + 1))) (r5hb6 _))) 0
    ∗ bigSep (Finset.univ.filter fun u : Fin 50 => u.val ≠ t) (tailTokPt m d qi))

/-- After the last trip, the index side: both slots and semaphores free, every token whole. -/
def r5idxEnd (t : ℕ) : sProp 𝕄 :=
  iprop((∃ f, r5ISlotPt d L (k0_off25 (tailW t)) (r5hb4 _) f)
    ∗ semVal (tailThr d L, SemLoc.dma (tailSem cc0_scoped9 (k0_off27 (tailW t)) (r5hb6 _))) 0
    ∗ (∃ f, r5ISlotPt d L (k0_off28 (tailW (t - 1))) (r5hb7 _) f)
    ∗ semVal (tailThr d L, SemLoc.dma (tailSem cc0_scoped9 (k0_off30 (tailW (t - 1))) (r5hb9 _))) 0
    ∗ bigSep Finset.univ (tailTokPt m d qi))

/-- The output side before trip `t`: the copy-out of block `t - 1` in flight (none before trip 0: then the other slot is
    free), the slot of `t`'s parity and its semaphore free, the blocks before `t - 1` at the lookup's values, those from
    `t` on as the launch left them. -/
def r5out (t : ℕ) : sProp 𝕄 :=
  iprop((if t = 0 then iprop((∃ f, r5OSlotPt d L (k0_off31 (tailW (t + 1))) (r5hb10 _) f)
            ∗ semVal (tailThr d L, SemLoc.dma (tailSem cc0_scoped11 (k0_off35 (tailW (t + 1))) (r5hb14 _))) 0)
         else iprop(∃ fbp, r5FO d L (k0_off38 (tailW (t - 1))) (r5hb17 _) (r5bo L (tailFin (t - 1))) (r5bo_inb L _) (outK m d) (k0_off36 (tailW (t - 1))) (r5hb15 _) fbp))
    ∗ (∃ f, r5OSlotPt d L (k0_off31 (tailW t)) (r5hb10 _) f)
    ∗ semVal (tailThr d L, SemLoc.dma (tailSem cc0_scoped11 (k0_off35 (tailW t)) (r5hb14 _))) 0
    ∗ bigSep (Finset.univ.filter fun u : Fin 50 => u.val + 1 < t) (fun u => tailOPt d L 1 u (outK m d))
    ∗ bigSep (Finset.univ.filter fun u : Fin 50 => t ≤ u.val) (fun u => tailOPt d L 1 u (m (oLoc d))))

/-- The loop's invariant. -/
def r5inv (t : ℕ) (acc : BitVec 32 × BitVec 32 × BitVec 32 × BitVec 32 × BitVec 32) : sProp 𝕄 :=
  iprop(⌜acc = r5car t⌝ ∗ Transfers.MayWaits (tailThr d L) (default : HIx 1) O ∗ r5Tab m d L qs
    ∗ semVal (tailThr d L, SemLoc.dma cc0_scoped12.sem) 0
    ∗ (if t < 50 then r5idxMid m d L qi t else r5idxEnd m d L qi t)
    ∗ r5out m d L t
    ∗ ∃ W', ⌜∀ p ∈ W', p ∈ W ∨ p.2 = none⌝ ∗ owes (tailThr d L) O W')

end Cert.Proof.KI

end
-- ==== Proof.KITailR5V.lean ====
/-
  The values one step of the second lookup leaves in its output block: the block holds the lookup's values for table 1.
  The argument is the first lookup's, over this lookup's buffers and table: an index of the block with rows y and lanes e
  sits under the same rows and lanes of the row slot, the slot there holds the gathered row named by the y-th word of
  the index slot, and that word is the index word of the block's own step.
-/
import proofs.«206595_g34437047779621_cont_8to1_b_428_16_alg».proof.Proof.KITailR5D
import proofs.«206595_g34437047779621_cont_8to1_b_428_16_alg».proof.Proof.KITailR3V

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

theorem r5out_value (o10 : Fin 5 → ℕ) (b10 : ∀ a, o10 a + S1x1x1x128x128.size a ≤ S2x1x1x128x128.size a)
    (o11 : Fin 4 → ℕ) (b11 : ∀ a, o11 a + S1x1x1x128.size a ≤ S2x1x1x128.size a)
    (o8 : Fin 3 → ℕ) (b8 : ∀ a, o8 a + S1x1x128.size a ≤ S3x50x4096.size a)
    (o13 : Fin 4 → ℕ) (b13 : ∀ a, o13 a + S1x1x128x128.size a ≤ S50x3x4096x128.size a)
    (h0 : o8 0 = 1) (h130 : o13 0 = o8 1) (h131 : o13 1 = 1) (h132 : o13 2 = o8 2) (h133 : o13 3 = 0)
    (fcur : Buf (Elt F) ((Memref.whole cc0_scoped8).view.loc (tailThr d L))) (hgood : r5good m d L o11 b11 o8 b8 fcur)
    (hx : Cert.Lookup.InRange (m (xLoc d) : IVec Cert.Lookup.SX 32))
    (fb : Buf (Elt F) ((Memref.whole cc0_scoped10).view.loc (tailThr d L))) (fo : Buf (Elt F) (oLoc d))
    (hn : S128.numel = S128x128.size gathers_S1001x128_S128x128.axis')
    (hin : ∀ x, (View.read (Elt F) (r5list o11 b11).view fcur x).toNat < S1001x128.size gathers_S1001x128_S128x128.axis) :
    ∀ i ∈ (tailOBlk o13 b13).view.set,
      (tailOBlk o13 b13).view.writes (Elt F) fo
        [⟨Rect.whole S1x1x128x128,
          ReadAs.same.apply (View.read (Elt F) ((r5oSlot o10 b10).squeeze S1x1x128x128 squeezes_S1x1x1x128x128_S1x1x128x128).view
            (View.write (Elt F)
              ((((r5oSlot o10 b10).squeeze S1x1x128x128 squeezes_S1x1x1x128x128_S1x1x128x128).slice
                  (Rect.unit (s := S1x1x128x128) ![0, 0, 0, 0] S1x1x128x128.size inb_S1x1x128x128_S1x1x128x128_0_0_0_0) (fun _ => rfl)).squeeze S128x128 squeezes_S1x1x128x128_S128x128).view
              fb
              (SparseCore.gatherPayload gathers_S1001x128_S128x128
                (View.read (Elt F) ((Memref.whole cc0_scratch1).slice (Rect.unit (s := S1001x128) ![0, 0] S1001x128.size inb_S1001x128_S1001x128_0_0) (fun _ => rfl)).view
                  (m (w1Loc d) : Buf (Elt F) (sh1Loc d (cV L))))
                (SparseCore.rows (View.read (Elt F) (r5list o11 b11).view fcur) hn hin))
              Finset.univ))⟩] i
        = outK m d i := by
  intro i hi
  obtain ⟨y, -, rfl⟩ := Finset.mem_map.mp hi
  refine (congrFun (View.write_univ_eq_writes_whole (Val := Elt F) (tailOBlk o13 b13).view fo [] _).symm _).trans ?_
  rw [View.writes_nil, View.write_emb_of_mem _ _ (Finset.mem_univ _)]
  obtain ⟨y2, rfl⟩ : ∃ y2 : S128x128.Idx, y = Shape.reshapeEquiv squeezes_S1x1x128x128_S128x128.numel_eq y2 :=
    ⟨_, (Equiv.apply_symm_apply _ _).symm⟩
  obtain ⟨q0, q1, q2, q3⟩ := resh_2to4 squeezes_S1x1x128x128_S128x128.numel_eq y2
  -- the slot's element under the block's index is the gather's destination element under the same rows and lanes
  have e : ((r5oSlot o10 b10).squeeze S1x1x128x128 squeezes_S1x1x1x128x128_S1x1x128x128).view.emb
        (Shape.reshapeEquiv squeezes_S1x1x128x128_S128x128.numel_eq y2)
      = ((((r5oSlot o10 b10).squeeze S1x1x128x128 squeezes_S1x1x1x128x128_S1x1x128x128).slice
            (Rect.unit (s := S1x1x128x128) ![0, 0, 0, 0] S1x1x128x128.size inb_S1x1x128x128_S1x1x128x128_0_0_0_0) (fun _ => rfl)).squeeze
          S128x128 squeezes_S1x1x128x128_S128x128).view.emb y2 := by
    show _ = ((r5oSlot o10 b10).squeeze S1x1x128x128 squeezes_S1x1x1x128x128_S1x1x128x128).view.emb
      ((Rect.unit (s := S1x1x128x128) ![0, 0, 0, 0] S1x1x128x128.size inb_S1x1x128x128_S1x1x128x128_0_0_0_0).emb
        (Shape.reshapeEquiv squeezes_S1x1x128x128_S128x128.numel_eq y2))
    rw [unit0_emb4]
  rw [ReadAs.apply_same, View.read_apply, e, View.write_emb_of_mem _ _ (Finset.mem_univ _)]
  simp only [cast_cast, cast_eq]
  refine val_gather m d 1 (o8 1) (o8 2) hx _ (fun j => ?_) _ (fun x j hj0 hj1 hj2 => ?_) hn hin (by decide) y2 _ ?_ ?_ ?_ ?_
  · -- the table as the gather reads it is the second table
    refine (View.read_apply _ _).trans ((cast_eq _ _).trans ?_)
    show (m (w1Loc d)) ((Rect.unit (s := S1001x128) ![0, 0] S1001x128.size inb_S1001x128_S1001x128_0_0).emb j) = (m (w1Loc d)) j
    rw [unit0_emb2]
  · -- the list's word x is the index word at (1, o8 1, o8 2 + x)
    obtain ⟨r0, r1, r2⟩ := resh_1to3 tail_numel128 x
    rw [hgood x, View.read_apply, cast_eq]
    refine congrArg _ (funext fun a => Fin.ext ?_)
    match a with
    | ⟨0, _⟩ =>
      show o8 0 + 1 * ((Shape.reshapeEquiv tail_numel128 x) 0).val = (j 0).val
      omega
    | ⟨1, _⟩ =>
      show o8 1 + 1 * ((Shape.reshapeEquiv tail_numel128 x) 1).val = (j 1).val
      omega
    | ⟨2, _⟩ =>
      show o8 2 + 1 * ((Shape.reshapeEquiv tail_numel128 x) 2).val = (j 2).val
      omega
  · show o13 0 + 1 * ((Shape.reshapeEquiv squeezes_S1x1x128x128_S128x128.numel_eq y2) 0).val = o8 1
    omega
  · show o13 1 + 1 * ((Shape.reshapeEquiv squeezes_S1x1x128x128_S128x128.numel_eq y2) 1).val = 1
    omega
  · show o13 2 + 1 * ((Shape.reshapeEquiv squeezes_S1x1x128x128_S128x128.numel_eq y2) 2).val = o8 2 + (y2 0).val
    omega
  · show o13 3 + 1 * ((Shape.reshapeEquiv squeezes_S1x1x128x128_S128x128.numel_eq y2) 3).val = (y2 1).val
    omega

end Cert.Proof.KI
end
-- ==== Proof.KITailR5C.lean ====
/-
  One trip of the second lookup's loop, run from the pieces the trip touches: the middle trips, the first (no copy-out
  to wait for) and the last (no fetch to start).
-/
import proofs.«206595_g34437047779621_cont_8to1_b_428_16_alg».proof.Proof.KITailR5D
import proofs.«206595_g34437047779621_cont_8to1_b_428_16_alg».proof.Proof.KITailR5V

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

variable (O : CellTallies nD τ sig (HIx 1)) (W : Waits sig (HIx 1))

set_option maxHeartbeats 4000000 in
theorem r5coreM (t : Fin k0_t2_loop.trips) (h1t : 1 ≤ t.val) (ht : t.val < 49)
    (o4 : Fin 4 → ℕ) (e4 : k0_off25 (tailW (t.val + 1)) = o4) (b4 : ∀ a, o4 a + S1x1x1x128.size a ≤ S2x1x1x128.size a)
    (o5 : Fin 3 → ℕ) (e5 : k0_off26 L (tailW t.val) = o5) (b5 : ∀ a, o5 a + S1x1x128.size a ≤ S3x50x4096.size a)
    (o6 : Fin 1 → ℕ) (e6 : k0_off27 (tailW (t.val + 1)) = o6) (b6 : ∀ a, o6 a + S1.size a ≤ S2.size a)
    (o7 : Fin 4 → ℕ) (e7 : k0_off28 (tailW t.val) = o7) (b7 : ∀ a, o7 a + S1x1x1x128.size a ≤ S2x1x1x128.size a)
    (o8 : Fin 3 → ℕ) (e8 : k0_off29 L (tailW t.val) = o8) (b8 : ∀ a, o8 a + S1x1x128.size a ≤ S3x50x4096.size a)
    (o9 : Fin 1 → ℕ) (e9 : k0_off30 (tailW t.val) = o9) (b9 : ∀ a, o9 a + S1.size a ≤ S2.size a)
    (o10 : Fin 5 → ℕ) (e10 : k0_off31 (tailW t.val) = o10) (b10 : ∀ a, o10 a + S1x1x1x128x128.size a ≤ S2x1x1x128x128.size a)
    (o13 : Fin 4 → ℕ) (e13 : k0_off34 L (tailW t.val) = o13) (b13 : ∀ a, o13 a + S1x1x128x128.size a ≤ S50x3x4096x128.size a)
    (o14 : Fin 1 → ℕ) (e14 : k0_off35 (tailW t.val) = o14) (b14 : ∀ a, o14 a + S1.size a ≤ S2.size a)
    (o15 : Fin 5 → ℕ) (e15 : k0_off36 (tailW (t.val - 1)) = o15) (b15 : ∀ a, o15 a + S1x1x1x128x128.size a ≤ S2x1x1x128x128.size a)
    (o16 : Fin 4 → ℕ) (e16 : k0_off37 L (tailW t.val) = o16) (b16 : ∀ a, o16 a + S1x1x128x128.size a ≤ S50x3x4096x128.size a)
    (o17 : Fin 1 → ℕ) (e17 : k0_off38 (tailW (t.val - 1)) = o17) (b17 : ∀ a, o17 a + S1.size a ≤ S2.size a)
    (qn qc qs : PosShare TreeShare)
    (fcur : Buf (Elt F) ((Memref.whole cc0_scoped8).view.loc (tailThr d L)))
    (hgood : r5good m d L o7 b7 o8 b8 fcur)
    (hx : Cert.Lookup.InRange (m (xLoc d) : IVec Cert.Lookup.SX 32)) :
    (iprop(Transfers.MayWaits (tailThr d L) (default : HIx 1) O
        ∗ ((tailIBlk o5 b5).view.loc (tailThr d L) ↦[(tailIBlk o5 b5).view.set]{qn} idxT m d)
        ∗ (∃ fa, r5ISlotPt d L o4 b4 fa)
        ∗ semVal (tailThr d L, SemLoc.dma (tailSem cc0_scoped9 o6 b6)) 0
        ∗ r5FI m d L o9 b9 o7 b7 o8 b8 qc fcur
        ∗ r5Tab m d L qs
        ∗ (∃ fb, r5OSlotPt d L o10 b10 fb)
        ∗ semVal (tailThr d L, SemLoc.dma cc0_scoped12.sem) 0
        ∗ ((tailOBlk o13 b13).view.loc (tailThr d L) ↦[(tailOBlk o13 b13).view.set]{fullShare} m (oLoc d))
        ∗ semVal (tailThr d L, SemLoc.dma (tailSem cc0_scoped11 o14 b14)) 0
        ∗ (∃ fbp, r5FO d L o17 b17 o16 b16 (outK m d) o15 b15 fbp)
        ∗ owes (tailThr d L) O W) : sProp 𝕄)
      ⊢ wp frame (wpE (defs₀ (F := F)) 𝒱₀ (tailThr d L) none) Set.univ
          (k0_t2_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r5v7 L) (r5v20 L) (r5v51 L) r5v53 t (tailW (t.val + 1), tailW t.val, tailW t.val, tailW (t.val - 1), tailW t.val))
          fun acc => iprop(⌜acc = (tailW (t.val + 2), tailW (t.val + 1), tailW (t.val + 1), tailW t.val, tailW (t.val + 1))⌝
            ∗ (∃ fnew, ⌜r5good m d L o4 b4 o5 b5 fnew⌝ ∗ r5FI m d L o6 b6 o4 b4 o5 b5 qn fnew)
            ∗ ((tailIBlk o8 b8).view.loc (tailThr d L) ↦[(tailIBlk o8 b8).view.set]{qc} idxT m d)
            ∗ semVal (tailThr d L, SemLoc.dma (tailSem cc0_scoped9 o9 b9)) 0
            ∗ r5ISlotPt d L o7 b7 fcur
            ∗ r5Tab m d L qs
            ∗ semVal (tailThr d L, SemLoc.dma cc0_scoped12.sem) 0
            ∗ (∃ fg, r5FO d L o14 b14 o13 b13 (outK m d) o10 b10 fg)
            ∗ ((tailOBlk o16 b16).view.loc (tailThr d L) ↦[(tailOBlk o16 b16).view.set]{fullShare} outK m d)
            ∗ (∃ f, r5OSlotPt d L o15 b15 f)
            ∗ semVal (tailThr d L, SemLoc.dma (tailSem cc0_scoped11 o17 b17)) 0
            ∗ ∃ W', ⌜∀ p ∈ W', p ∈ W ∨ p.2 = none⌝ ∗ owes (tailThr d L) O W') := by
  subst e4 e5 e6 e7 e8 e9 e10 e13 e14 e15 e16 e17
  have hc2 : k0_cond9 L t (tailW t.val) = 1#1 := by rw [Arith.cond2_eq_r5, if_pos (by omega)]
  have hc3 : k0_cond10 L t (tailW t.val) = 1#1 := Arith.cond3_eq_r5 L t
  have hc6 : k0_cond13 L t (tailW t.val) = 1#1 := Arith.cond6_eq_r5 L t
  have hc8 : k0_cond15 L t (tailW t.val) = 1#1 := by rw [Arith.cond8_eq_r5, if_pos (by omega)]
  have h3 : k0_chk8 (tailW t.val) := Arith.chk3_all_r5 _
  have h2 : k0_chk7 (tailW t.val) := Arith.chk2_all_r5 _
  have h1 : k0_chk6 L t (tailW (t.val + 1)) (tailW t.val) (tailW t.val) (tailW (t.val - 1)) (tailW t.val) := Arith.chk1_inv_r5 L t
  have hin : ∀ x, (View.read (Elt F) (r5list (k0_off32 (tailW t.val)) (r5hb11 _)).view fcur x).toNat < 1001 := by
    intro x
    have e' : View.read (Elt F) (r5list (k0_off32 (tailW t.val)) (r5hb11 _)).view fcur x
        = ((tailIBlk (k0_off29 L (tailW t.val)) b8).view.reshape S128 tail_numel128).read (Elt F) (idxT m d) x := hgood x
    rw [e']
    have := tailI_le m d (k0_off29 L (tailW t.val)) b8 hx x
    omega
  iintro ⟨#Hmw, HIn, ⟨%fa, HSn⟩, Hsn, HFI, HT, ⟨%fb, HOS⟩, Hs7, HOB, Hso, ⟨%fbp, HFO⟩, Hw⟩
  sl_unfold [k0_t2_body]
  sl_exec
  have hret : ∀ (L : grid0.Coords) (t : Fin k0_t2_loop.trips), 1 ≤ t.val → t.val < 49 →
      (r5coreM.sl.v215_r5 L t, r5coreM.sl.v389_r5 L t, r5coreM.sl.v365_r5 L t, r5coreM.sl.v383_r5 L t, r5coreM.sl.v144_r5 t)
        = (tailW (t.val + 2), tailW (t.val + 1), tailW (t.val + 1), tailW t.val, tailW (t.val + 1)) := by
    decide +kernel
  sl_step
  isplitr
  · ipureintro; exact hret L t h1t ht
  isplitl [Hsn]
  · iexists (r5coreM.sl.HSn_w0 m d L t hc2 h1 fa)
    isplitr
    · ipureintro; exact r5good_write m d L _ _ _ _ fa
    · iexact Hsn
  isplitl [HFI_src]; · iexact HFI_src
  isplitl [HFI]; · iexact HFI
  isplitl [HFI_dst HFI_dst_win]
  · iapply (pointsTo_split_subset (r5list_subset (k0_off28 (tailW t.val)) b7)).2
    isplitl [HFI_dst_win]; · iexact HFI_dst_win
    iexact HFI_dst
  isplitl [HT]; · iexact HT
  isplitl [Hs7]; · iexact Hs7
  isplitl [Hso]
  · iexists _
    iapply (r5FO_fix d L _ _ _ _ ((tailOBlk (k0_off34 L (tailW t.val)) b13).view.writes (Elt F) (m (oLoc d)) [⟨Rect.whole S1x1x128x128, r5coreM.sl.dma0_1 m d L t fcur hc6 h3 h2 h1 hin fb⟩]) (outK m d) (k0_off31 (tailW t.val)) (k0_off33 (tailW t.val)) _ (r5hb12 _) _ (r5out_value m d L (k0_off31 (tailW t.val)) b10 (k0_off32 (tailW t.val)) (r5hb11 _) (k0_off29 L (tailW t.val)) b8 (k0_off34 L (tailW t.val)) b13 (by rw [Arith.off8_eq_r5 L t.val (by omega)]; rfl) (by rw [Arith.off8_eq_r5 L t.val (by omega), Arith.off13_eq_r5 L t.val (by omega)]; rfl) (by rw [Arith.off13_eq_r5 L t.val (by omega)]; rfl) (by rw [Arith.off8_eq_r5 L t.val (by omega), Arith.off13_eq_r5 L t.val (by omega)]; rfl) (by rw [Arith.off13_eq_r5 L t.val (by omega)]; rfl) fcur hgood hx fb (m (oLoc d)) _ hin) (show k0_off33 (tailW t.val) = k0_off31 (tailW t.val) from rfl)) $$ Hso
  isplitl [HFO_dst]; · iexact HFO_dst
  isplitl [HFO_src]; · iexists _; iexact HFO_src
  isplitl [HFO]; · iexact HFO
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

set_option maxHeartbeats 4000000 in
theorem r5core0 (t : Fin k0_t2_loop.trips) (ht0 : t.val = 0)
    (o4 : Fin 4 → ℕ) (e4 : k0_off25 (tailW (t.val + 1)) = o4) (b4 : ∀ a, o4 a + S1x1x1x128.size a ≤ S2x1x1x128.size a)
    (o5 : Fin 3 → ℕ) (e5 : k0_off26 L (tailW t.val) = o5) (b5 : ∀ a, o5 a + S1x1x128.size a ≤ S3x50x4096.size a)
    (o6 : Fin 1 → ℕ) (e6 : k0_off27 (tailW (t.val + 1)) = o6) (b6 : ∀ a, o6 a + S1.size a ≤ S2.size a)
    (o7 : Fin 4 → ℕ) (e7 : k0_off28 (tailW t.val) = o7) (b7 : ∀ a, o7 a + S1x1x1x128.size a ≤ S2x1x1x128.size a)
    (o8 : Fin 3 → ℕ) (e8 : k0_off29 L (tailW t.val) = o8) (b8 : ∀ a, o8 a + S1x1x128.size a ≤ S3x50x4096.size a)
    (o9 : Fin 1 → ℕ) (e9 : k0_off30 (tailW t.val) = o9) (b9 : ∀ a, o9 a + S1.size a ≤ S2.size a)
    (o10 : Fin 5 → ℕ) (e10 : k0_off31 (tailW t.val) = o10) (b10 : ∀ a, o10 a + S1x1x1x128x128.size a ≤ S2x1x1x128x128.size a)
    (o13 : Fin 4 → ℕ) (e13 : k0_off34 L (tailW t.val) = o13) (b13 : ∀ a, o13 a + S1x1x128x128.size a ≤ S50x3x4096x128.size a)
    (o14 : Fin 1 → ℕ) (e14 : k0_off35 (tailW t.val) = o14) (b14 : ∀ a, o14 a + S1.size a ≤ S2.size a)
    (qn qc qs : PosShare TreeShare)
    (fcur : Buf (Elt F) ((Memref.whole cc0_scoped8).view.loc (tailThr d L)))
    (hgood : r5good m d L o7 b7 o8 b8 fcur)
    (hx : Cert.Lookup.InRange (m (xLoc d) : IVec Cert.Lookup.SX 32)) :
    (iprop(Transfers.MayWaits (tailThr d L) (default : HIx 1) O
        ∗ ((tailIBlk o5 b5).view.loc (tailThr d L) ↦[(tailIBlk o5 b5).view.set]{qn} idxT m d)
        ∗ (∃ fa, r5ISlotPt d L o4 b4 fa)
        ∗ semVal (tailThr d L, SemLoc.dma (tailSem cc0_scoped9 o6 b6)) 0
        ∗ r5FI m d L o9 b9 o7 b7 o8 b8 qc fcur
        ∗ r5Tab m d L qs
        ∗ (∃ fb, r5OSlotPt d L o10 b10 fb)
        ∗ semVal (tailThr d L, SemLoc.dma cc0_scoped12.sem) 0
        ∗ ((tailOBlk o13 b13).view.loc (tailThr d L) ↦[(tailOBlk o13 b13).view.set]{fullShare} m (oLoc d))
        ∗ semVal (tailThr d L, SemLoc.dma (tailSem cc0_scoped11 o14 b14)) 0
        ∗ owes (tailThr d L) O W) : sProp 𝕄)
      ⊢ wp frame (wpE (defs₀ (F := F)) 𝒱₀ (tailThr d L) none) Set.univ
          (k0_t2_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r5v7 L) (r5v20 L) (r5v51 L) r5v53 t (tailW (t.val + 1), tailW t.val, tailW t.val, tailW (t.val - 1), tailW t.val))
          fun acc => iprop(⌜acc = (tailW (t.val + 2), tailW (t.val + 1), tailW (t.val + 1), tailW t.val, tailW (t.val + 1))⌝
            ∗ (∃ fnew, ⌜r5good m d L o4 b4 o5 b5 fnew⌝ ∗ r5FI m d L o6 b6 o4 b4 o5 b5 qn fnew)
            ∗ ((tailIBlk o8 b8).view.loc (tailThr d L) ↦[(tailIBlk o8 b8).view.set]{qc} idxT m d)
            ∗ semVal (tailThr d L, SemLoc.dma (tailSem cc0_scoped9 o9 b9)) 0
            ∗ r5ISlotPt d L o7 b7 fcur
            ∗ r5Tab m d L qs
            ∗ semVal (tailThr d L, SemLoc.dma cc0_scoped12.sem) 0
            ∗ (∃ fg, r5FO d L o14 b14 o13 b13 (outK m d) o10 b10 fg)
            ∗ ∃ W', ⌜∀ p ∈ W', p ∈ W ∨ p.2 = none⌝ ∗ owes (tailThr d L) O W') := by
  subst e4 e5 e6 e7 e8 e9 e10 e13 e14
  have hc2 : k0_cond9 L t (tailW t.val) = 1#1 := by rw [Arith.cond2_eq_r5, if_pos (by omega)]
  have hc3 : k0_cond10 L t (tailW t.val) = 1#1 := Arith.cond3_eq_r5 L t
  have hc6 : k0_cond13 L t (tailW t.val) = 1#1 := Arith.cond6_eq_r5 L t
  have hc8 : ¬ k0_cond15 L t (tailW t.val) = 1#1 := by rw [Arith.cond8_eq_r5, if_neg (by omega)]; decide
  have h3 : k0_chk8 (tailW t.val) := Arith.chk3_all_r5 _
  have h2 : k0_chk7 (tailW t.val) := Arith.chk2_all_r5 _
  have h1 : k0_chk6 L t (tailW (t.val + 1)) (tailW t.val) (tailW t.val) (tailW (t.val - 1)) (tailW t.val) := Arith.chk1_inv_r5 L t
  have hin : ∀ x, (View.read (Elt F) (r5list (k0_off32 (tailW t.val)) (r5hb11 _)).view fcur x).toNat < 1001 := by
    intro x
    have e' : View.read (Elt F) (r5list (k0_off32 (tailW t.val)) (r5hb11 _)).view fcur x
        = ((tailIBlk (k0_off29 L (tailW t.val)) b8).view.reshape S128 tail_numel128).read (Elt F) (idxT m d) x := hgood x
    rw [e']
    have := tailI_le m d (k0_off29 L (tailW t.val)) b8 hx x
    omega
  iintro ⟨#Hmw, HIn, ⟨%fa, HSn⟩, Hsn, HFI, HT, ⟨%fb, HOS⟩, Hs7, HOB, Hso, Hw⟩
  sl_unfold [k0_t2_body]
  sl_exec
  have hret : ∀ (L : grid0.Coords) (t : Fin k0_t2_loop.trips), t.val = 0 →
      (r5core0.sl.v215_r5 L t, r5core0.sl.v389_r5 L t, r5core0.sl.v365_r5 L t, r5core0.sl.v383_r5 L t, r5core0.sl.v144_r5 t)
        = (tailW (t.val + 2), tailW (t.val + 1), tailW (t.val + 1), tailW t.val, tailW (t.val + 1)) := by
    decide +kernel
  sl_step
  isplitr
  · ipureintro; exact hret L t ht0
  isplitl [Hsn]
  · iexists (r5core0.sl.HSn_w0 m d L t hc2 h1 fa)
    isplitr
    · ipureintro; exact r5good_write m d L _ _ _ _ fa
    · iexact Hsn
  isplitl [HFI_src]; · iexact HFI_src
  isplitl [HFI]; · iexact HFI
  isplitl [HFI_dst HFI_dst_win]
  · iapply (pointsTo_split_subset (r5list_subset (k0_off28 (tailW t.val)) b7)).2
    isplitl [HFI_dst_win]; · iexact HFI_dst_win
    iexact HFI_dst
  isplitl [HT]; · iexact HT
  isplitl [Hs7]; · iexact Hs7
  isplitl [Hso]
  · iexists _
    iapply (r5FO_fix d L _ _ _ _ ((tailOBlk (k0_off34 L (tailW t.val)) b13).view.writes (Elt F) (m (oLoc d)) [⟨Rect.whole S1x1x128x128, r5core0.sl.dma0_1 m d L t fcur hc6 h3 h2 h1 hin fb⟩]) (outK m d) (k0_off31 (tailW t.val)) (k0_off33 (tailW t.val)) _ (r5hb12 _) _ (r5out_value m d L (k0_off31 (tailW t.val)) b10 (k0_off32 (tailW t.val)) (r5hb11 _) (k0_off29 L (tailW t.val)) b8 (k0_off34 L (tailW t.val)) b13 (by rw [Arith.off8_eq_r5 L t.val (by omega)]; rfl) (by rw [Arith.off8_eq_r5 L t.val (by omega), Arith.off13_eq_r5 L t.val (by omega)]; rfl) (by rw [Arith.off13_eq_r5 L t.val (by omega)]; rfl) (by rw [Arith.off8_eq_r5 L t.val (by omega), Arith.off13_eq_r5 L t.val (by omega)]; rfl) (by rw [Arith.off13_eq_r5 L t.val (by omega)]; rfl) fcur hgood hx fb (m (oLoc d)) _ hin) (show k0_off33 (tailW t.val) = k0_off31 (tailW t.val) from rfl)) $$ Hso
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    · exact .inl hp

set_option maxHeartbeats 4000000 in
theorem r5coreE (t : Fin k0_t2_loop.trips) (ht49 : t.val = 49)
    (o7 : Fin 4 → ℕ) (e7 : k0_off28 (tailW t.val) = o7) (b7 : ∀ a, o7 a + S1x1x1x128.size a ≤ S2x1x1x128.size a)
    (o8 : Fin 3 → ℕ) (e8 : k0_off29 L (tailW t.val) = o8) (b8 : ∀ a, o8 a + S1x1x128.size a ≤ S3x50x4096.size a)
    (o9 : Fin 1 → ℕ) (e9 : k0_off30 (tailW t.val) = o9) (b9 : ∀ a, o9 a + S1.size a ≤ S2.size a)
    (o10 : Fin 5 → ℕ) (e10 : k0_off31 (tailW t.val) = o10) (b10 : ∀ a, o10 a + S1x1x1x128x128.size a ≤ S2x1x1x128x128.size a)
    (o13 : Fin 4 → ℕ) (e13 : k0_off34 L (tailW t.val) = o13) (b13 : ∀ a, o13 a + S1x1x128x128.size a ≤ S50x3x4096x128.size a)
    (o14 : Fin 1 → ℕ) (e14 : k0_off35 (tailW t.val) = o14) (b14 : ∀ a, o14 a + S1.size a ≤ S2.size a)
    (o15 : Fin 5 → ℕ) (e15 : k0_off36 (tailW (t.val - 1)) = o15) (b15 : ∀ a, o15 a + S1x1x1x128x128.size a ≤ S2x1x1x128x128.size a)
    (o16 : Fin 4 → ℕ) (e16 : k0_off37 L (tailW t.val) = o16) (b16 : ∀ a, o16 a + S1x1x128x128.size a ≤ S50x3x4096x128.size a)
    (o17 : Fin 1 → ℕ) (e17 : k0_off38 (tailW (t.val - 1)) = o17) (b17 : ∀ a, o17 a + S1.size a ≤ S2.size a)
    (qn qc qs : PosShare TreeShare)
    (fcur : Buf (Elt F) ((Memref.whole cc0_scoped8).view.loc (tailThr d L)))
    (hgood : r5good m d L o7 b7 o8 b8 fcur)
    (hx : Cert.Lookup.InRange (m (xLoc d) : IVec Cert.Lookup.SX 32)) :
    (iprop(Transfers.MayWaits (tailThr d L) (default : HIx 1) O
        ∗ r5FI m d L o9 b9 o7 b7 o8 b8 qc fcur
        ∗ r5Tab m d L qs
        ∗ (∃ fb, r5OSlotPt d L o10 b10 fb)
        ∗ semVal (tailThr d L, SemLoc.dma cc0_scoped12.sem) 0
        ∗ ((tailOBlk o13 b13).view.loc (tailThr d L) ↦[(tailOBlk o13 b13).view.set]{fullShare} m (oLoc d))
        ∗ semVal (tailThr d L, SemLoc.dma (tailSem cc0_scoped11 o14 b14)) 0
        ∗ (∃ fbp, r5FO d L o17 b17 o16 b16 (outK m d) o15 b15 fbp)
        ∗ owes (tailThr d L) O W) : sProp 𝕄)
      ⊢ wp frame (wpE (defs₀ (F := F)) 𝒱₀ (tailThr d L) none) Set.univ
          (k0_t2_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r5v7 L) (r5v20 L) (r5v51 L) r5v53 t (tailW (t.val + 1), tailW t.val, tailW t.val, tailW (t.val - 1), tailW t.val))
          fun acc => iprop(⌜acc = (tailW (t.val + 1), tailW (t.val + 1), tailW (t.val + 1), tailW t.val, tailW 0)⌝
            ∗ ((tailIBlk o8 b8).view.loc (tailThr d L) ↦[(tailIBlk o8 b8).view.set]{qc} idxT m d)
            ∗ semVal (tailThr d L, SemLoc.dma (tailSem cc0_scoped9 o9 b9)) 0
            ∗ r5ISlotPt d L o7 b7 fcur
            ∗ r5Tab m d L qs
            ∗ semVal (tailThr d L, SemLoc.dma cc0_scoped12.sem) 0
            ∗ (∃ fg, r5FO d L o14 b14 o13 b13 (outK m d) o10 b10 fg)
            ∗ ((tailOBlk o16 b16).view.loc (tailThr d L) ↦[(tailOBlk o16 b16).view.set]{fullShare} outK m d)
            ∗ (∃ f, r5OSlotPt d L o15 b15 f)
            ∗ semVal (tailThr d L, SemLoc.dma (tailSem cc0_scoped11 o17 b17)) 0
            ∗ ∃ W', ⌜∀ p ∈ W', p ∈ W ∨ p.2 = none⌝ ∗ owes (tailThr d L) O W') := by
  subst e7 e8 e9 e10 e13 e14 e15 e16 e17
  have hc2 : ¬ k0_cond9 L t (tailW t.val) = 1#1 := by rw [Arith.cond2_eq_r5, if_neg (by omega)]; decide
  have hc3 : k0_cond10 L t (tailW t.val) = 1#1 := Arith.cond3_eq_r5 L t
  have hc6 : k0_cond13 L t (tailW t.val) = 1#1 := Arith.cond6_eq_r5 L t
  have hc8 : k0_cond15 L t (tailW t.val) = 1#1 := by rw [Arith.cond8_eq_r5, if_pos (by omega)]
  have h3 : k0_chk8 (tailW t.val) := Arith.chk3_all_r5 _
  have h2 : k0_chk7 (tailW t.val) := Arith.chk2_all_r5 _
  have h1 : k0_chk6 L t (tailW (t.val + 1)) (tailW t.val) (tailW t.val) (tailW (t.val - 1)) (tailW t.val) := Arith.chk1_inv_r5 L t
  have hin : ∀ x, (View.read (Elt F) (r5list (k0_off32 (tailW t.val)) (r5hb11 _)).view fcur x).toNat < 1001 := by
    intro x
    have e' : View.read (Elt F) (r5list (k0_off32 (tailW t.val)) (r5hb11 _)).view fcur x
        = ((tailIBlk (k0_off29 L (tailW t.val)) b8).view.reshape S128 tail_numel128).read (Elt F) (idxT m d) x := hgood x
    rw [e']
    have := tailI_le m d (k0_off29 L (tailW t.val)) b8 hx x
    omega
  iintro ⟨#Hmw, HFI, HT, ⟨%fb, HOS⟩, Hs7, HOB, Hso, ⟨%fbp, HFO⟩, Hw⟩
  sl_unfold [k0_t2_body]
  sl_exec
  have hret : ∀ (L : grid0.Coords) (t : Fin k0_t2_loop.trips), t.val = 49 →
      (r5coreE.sl.v215_r5 L t, r5coreE.sl.v389_r5 L t, r5coreE.sl.v365_r5 L t, r5coreE.sl.v383_r5 L t, r5coreE.sl.v144_r5 t)
        = (tailW (t.val + 1), tailW (t.val + 1), tailW (t.val + 1), tailW t.val, tailW 0) := by
    decide +kernel
  sl_step
  isplitr
  · ipureintro; exact hret L t ht49
  isplitl [HFI_src]; · iexact HFI_src
  isplitl [HFI]; · iexact HFI
  isplitl [HFI_dst HFI_dst_win]
  · iapply (pointsTo_split_subset (r5list_subset (k0_off28 (tailW t.val)) b7)).2
    isplitl [HFI_dst_win]; · iexact HFI_dst_win
    iexact HFI_dst
  isplitl [HT]; · iexact HT
  isplitl [Hs7]; · iexact Hs7
  isplitl [Hso]
  · iexists _
    iapply (r5FO_fix d L _ _ _ _ ((tailOBlk (k0_off34 L (tailW t.val)) b13).view.writes (Elt F) (m (oLoc d)) [⟨Rect.whole S1x1x128x128, r5coreE.sl.dma0 m d L t fcur hc6 h3 h2 h1 hin fb⟩]) (outK m d) (k0_off31 (tailW t.val)) (k0_off33 (tailW t.val)) _ (r5hb12 _) _ (r5out_value m d L (k0_off31 (tailW t.val)) b10 (k0_off32 (tailW t.val)) (r5hb11 _) (k0_off29 L (tailW t.val)) b8 (k0_off34 L (tailW t.val)) b13 (by rw [Arith.off8_eq_r5 L t.val (by omega)]; rfl) (by rw [Arith.off8_eq_r5 L t.val (by omega), Arith.off13_eq_r5 L t.val (by omega)]; rfl) (by rw [Arith.off13_eq_r5 L t.val (by omega)]; rfl) (by rw [Arith.off8_eq_r5 L t.val (by omega), Arith.off13_eq_r5 L t.val (by omega)]; rfl) (by rw [Arith.off13_eq_r5 L t.val (by omega)]; rfl) fcur hgood hx fb (m (oLoc d)) _ hin) (show k0_off33 (tailW t.val) = k0_off31 (tailW t.val) from rfl)) $$ Hso
  isplitl [HFO_dst]; · iexact HFO_dst
  isplitl [HFO_src]; · iexists _; iexact HFO_src
  isplitl [HFO]; · iexact HFO
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Cert.Proof.KI

end
-- ==== Proof.KITailR5T.lean ====
/-
  The loop of the second lookup: each trip takes the invariant at t to the invariant at t + 1.  The trip's pieces are
  taken out of the invariant's families (the read token of trip t + 1, the output block of trip t), the trip is run, and
  what it leaves is put back (trip t's token whole again, block t - 1 among the blocks done).
-/
import proofs.«206595_g34437047779621_cont_8to1_b_428_16_alg».proof.Proof.KITailR5C

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

variable (O : CellTallies nD τ sig (HIx 1)) (W : Waits sig (HIx 1)) (qi qs : PosShare TreeShare)

omit [FloatOps F] in
/-- One piece out of a family of fifty. -/
theorem r5_take (a : Fin 50) (Φ : Fin 50 → sProp 𝕄) :
    bigSep Finset.univ Φ = iprop(Φ a ∗ bigSep (Finset.univ.filter fun u : Fin 50 => u.val ≠ a.val) Φ) := by
  have h := tail_bigSep_step (fun u : Fin 50 => u.val ≠ a.val) (fun _ : Fin 50 => True) a (fun h => h rfl)
    (fun u => ⟨fun _ => by by_cases h : u = a; exact .inr h; exact .inl (fun e => h (Fin.ext e)), fun _ => trivial⟩) Φ
  rwa [Finset.filter_true_of_mem (fun _ _ => trivial)] at h

set_option maxHeartbeats 1000000 in
theorem r5tripM (t : Fin k0_t2_loop.trips) (h1t : 1 ≤ t.val) (ht : t.val < 49)
    (hx : Cert.Lookup.InRange (m (xLoc d) : IVec Cert.Lookup.SX 32))
    (acc : BitVec 32 × BitVec 32 × BitVec 32 × BitVec 32 × BitVec 32) :
    r5inv m d L O W qi qs t.val acc
      ⊢ wp frame (wpE (defs₀ (F := F)) 𝒱₀ (tailThr d L) none) Set.univ
          (k0_t2_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r5v7 L) (r5v20 L) (r5v51 L) r5v53 t acc)
          (r5inv m d L O W qi qs (t.val + 1)) := by
  have ht50 : t.val < 50 := by omega
  have e5 : k0_off26 L (tailW t.val) = r5bi L (tailFin (t.val + 1)) := by
    show _ = Arith.blkIn 1 L (tailFin (t.val + 1)).val
    rw [tailFin_val (by omega)]; exact Arith.off5_eq_r5 L t.val (by omega)
  have e8 : k0_off29 L (tailW t.val) = r5bi L (tailFin t.val) := by
    show _ = Arith.blkIn 1 L (tailFin t.val).val
    rw [tailFin_val (by omega)]; exact Arith.off8_eq_r5 L t.val (by omega)
  have e13 : k0_off34 L (tailW t.val) = r5bo L (tailFin t.val) := by
    show _ = outOff 1 (stp (L 0).val (L 1).val (tailFin t.val).val)
    rw [tailFin_val (by omega)]; exact Arith.off13_eq_r5 L t.val (by omega)
  have e16 : k0_off37 L (tailW t.val) = r5bo L (tailFin (t.val - 1)) := by
    show _ = outOff 1 (stp (L 0).val (L 1).val (tailFin (t.val - 1)).val)
    rw [tailFin_val (by omega)]; exact Arith.off16_eq_r5 L t.val (by omega) (by omega)
  unfold r5inv r5out
  simp only [Nat.add_sub_cancel]
  rw [if_pos (show t.val < 50 by omega), if_pos (show t.val + 1 < 50 by omega), if_neg (show ¬ t.val = 0 by omega),
    if_neg (show ¬ t.val + 1 = 0 by omega)]
  unfold r5idxMid
  iintro ⟨%hacc, #Hmw, HT, Hs7, ⟨⟨%fcur, %hgood, HFI⟩, Hrest, ⟨%fa, HSn⟩, Hsn, Htoks⟩, ⟨⟨%fbp, HFO⟩, ⟨%fb, HOS⟩, Hso, Hdone, Htodo⟩, ⟨%W', %hW', Hw⟩⟩
  subst hacc
  -- the read token of trip t + 1, its block apart from its rest
  ihave Htoks' := (Entails.of_eq (tail_bigSep_step (fun u : Fin 50 => u.val ≠ t.val ∧ u.val ≠ t.val + 1) (fun u : Fin 50 => u.val ≠ t.val) (tailFin (t.val + 1))
    (by rw [tailFin_val (by omega)]; omega) (fun u => by rw [Fin.ext_iff, tailFin_val (by omega)]; omega) (tailTokPt m d qi))) $$ Htoks
  icases Htoks' with ⟨Htok1, Htoks⟩
  ihave Hsp := (pointsTo_split_subset (Finset.subset_univ (tailIBlk (r5bi L (tailFin (t.val + 1))) (r5bi_inb L _)).view.set)).1 $$ Htok1
  icases Hsp with ⟨HIn, Hrest1⟩
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 1 u (m (oLoc d))))) $$ Htodo
  icases Htodo' with ⟨HOB, Htodo⟩
  iapply (wp_wand_r Idealize.ShloMosaic.frame (wpE (defs₀ (F := F)) 𝒱₀ (tailThr d L) none) Set.univ)
  isplitl [HIn HSn Hsn HFI HT HOS Hs7 HOB Hso HFO Hw]
  · have hcar : r5car t.val = (tailW (t.val + 1), tailW t.val, tailW t.val, tailW (t.val - 1), tailW t.val) := by
      unfold r5car; rw [Nat.min_eq_left (by omega), Nat.mod_eq_of_lt (by omega)]
    rw [hcar]
    iapply (r5coreM m d L O W' t h1t ht
      (k0_off28 (tailW (t.val + 1))) rfl (r5hb7 _) (r5bi L (tailFin (t.val + 1))) e5 (r5bi_inb L _) (k0_off30 (tailW (t.val + 1))) rfl (r5hb9 _)
      (k0_off28 (tailW t.val)) rfl (r5hb7 _) (r5bi L (tailFin t.val)) e8 (r5bi_inb L _) (k0_off30 (tailW t.val)) rfl (r5hb9 _)
      (k0_off36 (tailW t.val)) rfl (r5hb15 _) (r5bo L (tailFin t.val)) e13 (r5bo_inb L _) (k0_off38 (tailW t.val)) rfl (r5hb17 _)
      (k0_off36 (tailW (t.val - 1))) rfl (r5hb15 _) (r5bo L (tailFin (t.val - 1))) e16 (r5bo_inb L _) (k0_off38 (tailW (t.val - 1))) rfl (r5hb17 _)
      (shareTok qi 50 (tailFin (t.val + 1))) (shareTok qi 50 (tailFin t.val)) qs fcur hgood hx)
    isplitr; · iexact Hmw
    isplitl [HIn]; · iexact HIn
    isplitl [HSn]; · iexists fa; iexact HSn
    isplitl [Hsn]; · iexact Hsn
    isplitl [HFI]; · iexact HFI
    isplitl [HT]; · iexact HT
    isplitl [HOS]; · iexists fb; iexact HOS
    isplitl [Hs7]; · iexact Hs7
    isplitl [HOB]; · iexact HOB
    isplitl [Hso]; · iexact Hso
    isplitl [HFO]; · iexists fbp; iexact HFO
    iexact Hw
  iintro %acc' ⟨%hacc', ⟨%fnew, %hgood', HFI'⟩, HI8, Hs9, HS7, HT, Hs7, ⟨%fg, HFO'⟩, HO16, ⟨%fo15, HS15⟩, Hs17, ⟨%W'', %hW'', Hw⟩⟩
  have hp4 : k0_off28 (tailW t.val) = k0_off25 (tailW (t.val + 1 + 1)) := r5par4 (by omega) (by omega) (by omega)
  have hp1 : k0_off30 (tailW t.val) = k0_off27 (tailW (t.val + 1 + 1)) := r5par1I (by omega) (by omega) (by omega)
  have hp5 : k0_off36 (tailW (t.val - 1)) = k0_off31 (tailW (t.val + 1)) := r5par5 (by omega) (by omega) (by omega)
  have hp1O : k0_off38 (tailW (t.val - 1)) = k0_off35 (tailW (t.val + 1)) := r5par1O (by omega) (by omega) (by omega)
  have e1 : min (t.val + 1 + 1) 50 = t.val + 2 := by omega
  have e2 : (t.val + 1) % 50 = t.val + 1 := by omega
  isplitr
  · ipureintro; rw [hacc']; unfold r5car; rw [e1, e2, Nat.add_sub_cancel]
  isplitr; · iexact Hmw
  isplitl [HT]; · iexact HT
  isplitl [Hs7]; · iexact Hs7
  isplitl [HFI' Hrest1 HS7 Hs9 HI8 Hrest Htoks]
  · isplitl [HFI']
    · iexists fnew; isplitr
      · ipureintro; exact hgood'
      · iexact HFI'
    isplitl [Hrest1]; · iexact Hrest1
    isplitl [HS7]
    · iexists fcur; iapply (Entails.of_eq (r5ISlotPt_congr d L hp4 (r5hb7 _) (r5hb4 _) fcur)); iexact HS7
    isplitl [Hs9]
    · iapply (Entails.of_eq (tailCell_congr d L cc0_scoped9 hp1 (r5hb9 _) (r5hb6 _))); iexact Hs9
    -- trip t's token whole again, back among the others
    iapply (Entails.of_eq (tail_bigSep_step (fun u : Fin 50 => u.val ≠ t.val ∧ u.val ≠ t.val + 1) (fun u : Fin 50 => u.val ≠ t.val + 1) (tailFin t.val)
      (by rw [tailFin_val (by omega)]; omega) (fun u => by rw [Fin.ext_iff, tailFin_val (by omega)]; omega) (tailTokPt m d qi)).symm)
    isplitl [HI8 Hrest]
    · iapply (pointsTo_split_subset (Finset.subset_univ (tailIBlk (r5bi L (tailFin t.val)) (r5bi_inb L _)).view.set)).2
      isplitl [HI8]; · iexact HI8
      iexact Hrest
    iexact Htoks
  isplitl [HFO' HS15 Hs17 HO16 Hdone Htodo]
  · isplitl [HFO']; · iexists fg; iexact HFO'
    isplitl [HS15]
    · iexists fo15; iapply (Entails.of_eq (r5OSlotPt_congr d L hp5 (r5hb15 _) (r5hb10 _) fo15)); iexact HS15
    isplitl [Hs17]
    · iapply (Entails.of_eq (tailCell_congr d L cc0_scoped11 hp1O (r5hb17 _) (r5hb14 _))); iexact Hs17
    isplitl [HO16 Hdone]
    · iapply (Entails.of_eq (tail_bigSep_step (fun u : Fin 50 => u.val + 1 < t.val) (fun u : Fin 50 => u.val + 1 < t.val + 1) (tailFin (t.val - 1))
        (by rw [tailFin_val (by omega)]; omega) (fun u => by rw [Fin.ext_iff, tailFin_val (by omega)]; omega) (fun u => tailOPt d L 1 u (outK m d))).symm)
      isplitl [HO16]; · iexact HO16
      iexact Hdone
    iexact Htodo
  iexists W''; isplitr
  · ipureintro; intro p hp
    rcases hW'' p hp with h | h
    · exact hW' p h
    · exact .inr h
  · iexact Hw

set_option maxHeartbeats 1000000 in
theorem r5trip0 (t : Fin k0_t2_loop.trips) (ht0 : t.val = 0)
    (hx : Cert.Lookup.InRange (m (xLoc d) : IVec Cert.Lookup.SX 32))
    (acc : BitVec 32 × BitVec 32 × BitVec 32 × BitVec 32 × BitVec 32) :
    r5inv m d L O W qi qs t.val acc
      ⊢ wp frame (wpE (defs₀ (F := F)) 𝒱₀ (tailThr d L) none) Set.univ
          (k0_t2_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r5v7 L) (r5v20 L) (r5v51 L) r5v53 t acc)
          (r5inv m d L O W qi qs (t.val + 1)) := by
  have ht50 : t.val < 50 := by omega
  have e5 : k0_off26 L (tailW t.val) = r5bi L (tailFin (t.val + 1)) := by
    show _ = Arith.blkIn 1 L (tailFin (t.val + 1)).val
    rw [tailFin_val (by omega)]; exact Arith.off5_eq_r5 L t.val (by omega)
  have e8 : k0_off29 L (tailW t.val) = r5bi L (tailFin t.val) := by
    show _ = Arith.blkIn 1 L (tailFin t.val).val
    rw [tailFin_val (by omega)]; exact Arith.off8_eq_r5 L t.val (by omega)
  have e13 : k0_off34 L (tailW t.val) = r5bo L (tailFin t.val) := by
    show _ = outOff 1 (stp (L 0).val (L 1).val (tailFin t.val).val)
    rw [tailFin_val (by omega)]; exact Arith.off13_eq_r5 L t.val (by omega)
  unfold r5inv r5out
  simp only [Nat.add_sub_cancel]
  rw [if_pos (show t.val < 50 by omega), if_pos (show t.val + 1 < 50 by omega), if_pos ht0,
    if_neg (show ¬ t.val + 1 = 0 by omega)]
  unfold r5idxMid
  iintro ⟨%hacc, #Hmw, HT, Hs7, ⟨⟨%fcur, %hgood, HFI⟩, Hrest, ⟨%fa, HSn⟩, Hsn, Htoks⟩, ⟨⟨⟨%fo1, HS1⟩, Hs1⟩, ⟨%fb, HOS⟩, Hso, Hdone, Htodo⟩, ⟨%W', %hW', Hw⟩⟩
  subst hacc
  -- the read token of trip t + 1, its block apart from its rest
  ihave Htoks' := (Entails.of_eq (tail_bigSep_step (fun u : Fin 50 => u.val ≠ t.val ∧ u.val ≠ t.val + 1) (fun u : Fin 50 => u.val ≠ t.val) (tailFin (t.val + 1))
    (by rw [tailFin_val (by omega)]; omega) (fun u => by rw [Fin.ext_iff, tailFin_val (by omega)]; omega) (tailTokPt m d qi))) $$ Htoks
  icases Htoks' with ⟨Htok1, Htoks⟩
  ihave Hsp := (pointsTo_split_subset (Finset.subset_univ (tailIBlk (r5bi L (tailFin (t.val + 1))) (r5bi_inb L _)).view.set)).1 $$ Htok1
  icases Hsp with ⟨HIn, Hrest1⟩
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 1 u (m (oLoc d))))) $$ Htodo
  icases Htodo' with ⟨HOB, Htodo⟩
  iapply (wp_wand_r Idealize.ShloMosaic.frame (wpE (defs₀ (F := F)) 𝒱₀ (tailThr d L) none) Set.univ)
  isplitl [HIn HSn Hsn HFI HT HOS Hs7 HOB Hso Hw]
  · have hcar : r5car t.val = (tailW (t.val + 1), tailW t.val, tailW t.val, tailW (t.val - 1), tailW t.val) := by
      unfold r5car; rw [Nat.min_eq_left (by omega), Nat.mod_eq_of_lt (by omega)]
    rw [hcar]
    iapply (r5core0 m d L O W' t ht0
      (k0_off28 (tailW (t.val + 1))) rfl (r5hb7 _) (r5bi L (tailFin (t.val + 1))) e5 (r5bi_inb L _) (k0_off30 (tailW (t.val + 1))) rfl (r5hb9 _)
      (k0_off28 (tailW t.val)) rfl (r5hb7 _) (r5bi L (tailFin t.val)) e8 (r5bi_inb L _) (k0_off30 (tailW t.val)) rfl (r5hb9 _)
      (k0_off36 (tailW t.val)) rfl (r5hb15 _) (r5bo L (tailFin t.val)) e13 (r5bo_inb L _) (k0_off38 (tailW t.val)) rfl (r5hb17 _)
      (shareTok qi 50 (tailFin (t.val + 1))) (shareTok qi 50 (tailFin t.val)) qs fcur hgood hx)
    isplitr; · iexact Hmw
    isplitl [HIn]; · iexact HIn
    isplitl [HSn]; · iexists fa; iexact HSn
    isplitl [Hsn]; · iexact Hsn
    isplitl [HFI]; · iexact HFI
    isplitl [HT]; · iexact HT
    isplitl [HOS]; · iexists fb; iexact HOS
    isplitl [Hs7]; · iexact Hs7
    isplitl [HOB]; · iexact HOB
    isplitl [Hso]; · iexact Hso
    iexact Hw
  iintro %acc' ⟨%hacc', ⟨%fnew, %hgood', HFI'⟩, HI8, Hs9, HS7, HT, Hs7, ⟨%fg, HFO'⟩, ⟨%W'', %hW'', Hw⟩⟩
  have hp4 : k0_off28 (tailW t.val) = k0_off25 (tailW (t.val + 1 + 1)) := r5par4 (by omega) (by omega) (by omega)
  have hp1 : k0_off30 (tailW t.val) = k0_off27 (tailW (t.val + 1 + 1)) := r5par1I (by omega) (by omega) (by omega)
  have e1 : min (t.val + 1 + 1) 50 = t.val + 2 := by omega
  have e2 : (t.val + 1) % 50 = t.val + 1 := by omega
  isplitr
  · ipureintro; rw [hacc']; unfold r5car; rw [e1, e2, Nat.add_sub_cancel]
  isplitr; · iexact Hmw
  isplitl [HT]; · iexact HT
  isplitl [Hs7]; · iexact Hs7
  isplitl [HFI' Hrest1 HS7 Hs9 HI8 Hrest Htoks]
  · isplitl [HFI']
    · iexists fnew; isplitr
      · ipureintro; exact hgood'
      · iexact HFI'
    isplitl [Hrest1]; · iexact Hrest1
    isplitl [HS7]
    · iexists fcur; iapply (Entails.of_eq (r5ISlotPt_congr d L hp4 (r5hb7 _) (r5hb4 _) fcur)); iexact HS7
    isplitl [Hs9]
    · iapply (Entails.of_eq (tailCell_congr d L cc0_scoped9 hp1 (r5hb9 _) (r5hb6 _))); iexact Hs9
    -- trip t's token whole again, back among the others
    iapply (Entails.of_eq (tail_bigSep_step (fun u : Fin 50 => u.val ≠ t.val ∧ u.val ≠ t.val + 1) (fun u : Fin 50 => u.val ≠ t.val + 1) (tailFin t.val)
      (by rw [tailFin_val (by omega)]; omega) (fun u => by rw [Fin.ext_iff, tailFin_val (by omega)]; omega) (tailTokPt m d qi)).symm)
    isplitl [HI8 Hrest]
    · iapply (pointsTo_split_subset (Finset.subset_univ (tailIBlk (r5bi L (tailFin t.val)) (r5bi_inb L _)).view.set)).2
      isplitl [HI8]; · iexact HI8
      iexact Hrest
    iexact Htoks
  isplitl [HFO' HS1 Hs1 Hdone Htodo]
  · isplitl [HFO']; · iexists fg; iexact HFO'
    isplitl [HS1]; · iexists fo1; iexact HS1
    isplitl [Hs1]; · iexact Hs1
    isplitl [Hdone]
    · rw [show (Finset.univ.filter fun u : Fin 50 => u.val + 1 < t.val + 1) = (Finset.univ.filter fun u : Fin 50 => u.val + 1 < t.val) from
        Finset.filter_congr (fun u _ => by omega)]
      iexact Hdone
    iexact Htodo
  iexists W''; isplitr
  · ipureintro; intro p hp
    rcases hW'' p hp with h | h
    · exact hW' p h
    · exact .inr h
  · iexact Hw

set_option maxHeartbeats 1000000 in
theorem r5tripE (t : Fin k0_t2_loop.trips) (ht49 : t.val = 49)
    (hx : Cert.Lookup.InRange (m (xLoc d) : IVec Cert.Lookup.SX 32))
    (acc : BitVec 32 × BitVec 32 × BitVec 32 × BitVec 32 × BitVec 32) :
    r5inv m d L O W qi qs t.val acc
      ⊢ wp frame (wpE (defs₀ (F := F)) 𝒱₀ (tailThr d L) none) Set.univ
          (k0_t2_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r5v7 L) (r5v20 L) (r5v51 L) r5v53 t acc)
          (r5inv m d L O W qi qs (t.val + 1)) := by
  have ht50 : t.val < 50 := by omega
  have e8 : k0_off29 L (tailW t.val) = r5bi L (tailFin t.val) := by
    show _ = Arith.blkIn 1 L (tailFin t.val).val
    rw [tailFin_val (by omega)]; exact Arith.off8_eq_r5 L t.val (by omega)
  have e13 : k0_off34 L (tailW t.val) = r5bo L (tailFin t.val) := by
    show _ = outOff 1 (stp (L 0).val (L 1).val (tailFin t.val).val)
    rw [tailFin_val (by omega)]; exact Arith.off13_eq_r5 L t.val (by omega)
  have e16 : k0_off37 L (tailW t.val) = r5bo L (tailFin (t.val - 1)) := by
    show _ = outOff 1 (stp (L 0).val (L 1).val (tailFin (t.val - 1)).val)
    rw [tailFin_val (by omega)]; exact Arith.off16_eq_r5 L t.val (by omega) (by omega)
  unfold r5inv r5out
  simp only [Nat.add_sub_cancel]
  rw [if_pos (show t.val < 50 by omega), if_neg (show ¬ t.val + 1 < 50 by omega), if_neg (show ¬ t.val = 0 by omega),
    if_neg (show ¬ t.val + 1 = 0 by omega)]
  unfold r5idxMid r5idxEnd
  simp only [Nat.add_sub_cancel]
  iintro ⟨%hacc, #Hmw, HT, Hs7, ⟨⟨%fcur, %hgood, HFI⟩, Hrest, ⟨%fa, HSn⟩, Hsn, Htoks⟩, ⟨⟨%fbp, HFO⟩, ⟨%fb, HOS⟩, Hso, Hdone, Htodo⟩, ⟨%W', %hW', Hw⟩⟩
  subst hacc
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 1 u (m (oLoc d))))) $$ Htodo
  icases Htodo' with ⟨HOB, Htodo⟩
  iapply (wp_wand_r Idealize.ShloMosaic.frame (wpE (defs₀ (F := F)) 𝒱₀ (tailThr d L) none) Set.univ)
  isplitl [HFI HT HOS Hs7 HOB Hso HFO Hw]
  · have hcar : r5car t.val = (tailW (t.val + 1), tailW t.val, tailW t.val, tailW (t.val - 1), tailW t.val) := by
      unfold r5car; rw [Nat.min_eq_left (by omega), Nat.mod_eq_of_lt (by omega)]
    rw [hcar]
    iapply (r5coreE m d L O W' t ht49
      (k0_off28 (tailW t.val)) rfl (r5hb7 _) (r5bi L (tailFin t.val)) e8 (r5bi_inb L _) (k0_off30 (tailW t.val)) rfl (r5hb9 _)
      (k0_off36 (tailW t.val)) rfl (r5hb15 _) (r5bo L (tailFin t.val)) e13 (r5bo_inb L _) (k0_off38 (tailW t.val)) rfl (r5hb17 _)
      (k0_off36 (tailW (t.val - 1))) rfl (r5hb15 _) (r5bo L (tailFin (t.val - 1))) e16 (r5bo_inb L _) (k0_off38 (tailW (t.val - 1))) rfl (r5hb17 _)
      (shareTok qi 50 (tailFin (t.val + 1))) (shareTok qi 50 (tailFin t.val)) qs fcur hgood hx)
    isplitr; · iexact Hmw
    isplitl [HFI]; · iexact HFI
    isplitl [HT]; · iexact HT
    isplitl [HOS]; · iexists fb; iexact HOS
    isplitl [Hs7]; · iexact Hs7
    isplitl [HOB]; · iexact HOB
    isplitl [Hso]; · iexact Hso
    isplitl [HFO]; · iexists fbp; iexact HFO
    iexact Hw
  iintro %acc' ⟨%hacc', HI8, Hs9, HS7, HT, Hs7, ⟨%fg, HFO'⟩, HO16, ⟨%fo15, HS15⟩, Hs17, ⟨%W'', %hW'', Hw⟩⟩
  have hp5 : k0_off36 (tailW (t.val - 1)) = k0_off31 (tailW (t.val + 1)) := r5par5 (by omega) (by omega) (by omega)
  have hp1O : k0_off38 (tailW (t.val - 1)) = k0_off35 (tailW (t.val + 1)) := r5par1O (by omega) (by omega) (by omega)
  have e1 : min (t.val + 1 + 1) 50 = t.val + 1 := by omega
  have e2 : (t.val + 1) % 50 = 0 := by omega
  isplitr
  · ipureintro; rw [hacc']; unfold r5car; rw [e1, e2, Nat.add_sub_cancel]
  isplitr; · iexact Hmw
  isplitl [HT]; · iexact HT
  isplitl [Hs7]; · iexact Hs7
  isplitl [HSn Hsn HS7 Hs9 HI8 Hrest Htoks]
  · isplitl [HSn]; · iexists fa; iexact HSn
    isplitl [Hsn]; · iexact Hsn
    isplitl [HS7]; · iexists fcur; iexact HS7
    isplitl [Hs9]; · iexact Hs9
    -- the last trip's token whole again, back among the others: every token whole
    iapply (Entails.of_eq (r5_take (tailFin t.val) (tailTokPt m d qi)).symm)
    rw [tailFin_val (by omega)]
    isplitl [HI8 Hrest]
    · iapply (pointsTo_split_subset (Finset.subset_univ (tailIBlk (r5bi L (tailFin t.val)) (r5bi_inb L _)).view.set)).2
      isplitl [HI8]; · iexact HI8
      iexact Hrest
    iexact Htoks
  isplitl [HFO' HS15 Hs17 HO16 Hdone Htodo]
  · isplitl [HFO']; · iexists fg; iexact HFO'
    isplitl [HS15]
    · iexists fo15; iapply (Entails.of_eq (r5OSlotPt_congr d L hp5 (r5hb15 _) (r5hb10 _) fo15)); iexact HS15
    isplitl [Hs17]
    · iapply (Entails.of_eq (tailCell_congr d L cc0_scoped11 hp1O (r5hb17 _) (r5hb14 _))); iexact Hs17
    isplitl [HO16 Hdone]
    · iapply (Entails.of_eq (tail_bigSep_step (fun u : Fin 50 => u.val + 1 < t.val) (fun u : Fin 50 => u.val + 1 < t.val + 1) (tailFin (t.val - 1))
        (by rw [tailFin_val (by omega)]; omega) (fun u => by rw [Fin.ext_iff, tailFin_val (by omega)]; omega) (fun u => tailOPt d L 1 u (outK m d))).symm)
      isplitl [HO16]; · iexact HO16
      iexact Hdone
    iexact Htodo
  iexists W''; isplitr
  · ipureintro; intro p hp
    rcases hW'' p hp with h | h
    · exact hW' p h
    · exact .inr h
  · iexact Hw

/-- A trip of the loop, whichever. -/
theorem r5trip (t : Fin k0_t2_loop.trips) (hx : Cert.Lookup.InRange (m (xLoc d) : IVec Cert.Lookup.SX 32))
    (acc : BitVec 32 × BitVec 32 × BitVec 32 × BitVec 32 × BitVec 32) :
    r5inv m d L O W qi qs t.val acc
      ⊢ wp frame (wpE (defs₀ (F := F)) 𝒱₀ (tailThr d L) none) Set.univ
          (k0_t2_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r5v7 L) (r5v20 L) (r5v51 L) r5v53 t acc)
          (r5inv m d L O W qi qs (t.val + 1)) := by
  have ht : t.val < 50 := lt_of_lt_of_eq t.isLt Arith.trips2
  rcases Nat.eq_zero_or_pos t.val with h0 | h1
  · exact r5trip0 m d L O W qi qs t h0 hx acc
  · rcases Nat.lt_or_ge t.val 49 with h | h
    · exact r5tripM m d L O W qi qs t h1 h hx acc
    · exact r5tripE m d L O W qi qs t (by omega) hx acc

/-- The invariant after the last trip, spelt out. -/
theorem r5inv_end (acc : BitVec 32 × BitVec 32 × BitVec 32 × BitVec 32 × BitVec 32) :
    r5inv m d L O W qi qs 50 acc
      ⊢ iprop(⌜acc = (tailW 50, tailW 50, tailW 50, tailW 49, tailW 0)⌝ ∗ Transfers.MayWaits (tailThr d L) (default : HIx 1) O ∗ r5Tab m d L qs
          ∗ semVal (tailThr d L, SemLoc.dma cc0_scoped12.sem) 0
          ∗ ((∃ f, r5ISlotPt d L (k0_off25 (tailW 50)) (r5hb4 _) f)
            ∗ semVal (tailThr d L, SemLoc.dma (tailSem cc0_scoped9 (k0_off27 (tailW 50)) (r5hb6 _))) 0
            ∗ (∃ f, r5ISlotPt d L (k0_off28 (tailW (50 - 1))) (r5hb7 _) f)
            ∗ semVal (tailThr d L, SemLoc.dma (tailSem cc0_scoped9 (k0_off30 (tailW (50 - 1))) (r5hb9 _))) 0
            ∗ bigSep Finset.univ (tailTokPt m d qi))
          ∗ ((∃ fbp, r5FO d L (k0_off38 (tailW (50 - 1))) (r5hb17 _) (r5bo L (tailFin (50 - 1))) (r5bo_inb L _) (outK m d) (k0_off36 (tailW (50 - 1))) (r5hb15 _) fbp)
            ∗ (∃ f, r5OSlotPt d L (k0_off31 (tailW 50)) (r5hb10 _) f)
            ∗ semVal (tailThr d L, SemLoc.dma (tailSem cc0_scoped11 (k0_off35 (tailW 50)) (r5hb14 _))) 0
            ∗ bigSep (Finset.univ.filter fun u : Fin 50 => u.val + 1 < 50) (fun u => tailOPt d L 1 u (outK m d))
            ∗ bigSep (Finset.univ.filter fun u : Fin 50 => 50 ≤ u.val) (fun u => tailOPt d L 1 u (m (oLoc d))))
          ∗ ∃ W', ⌜∀ p ∈ W', p ∈ W ∨ p.2 = none⌝ ∗ owes (tailThr d L) O W') := by
  unfold r5inv r5out r5idxEnd
  rw [if_neg (show ¬ (50 : ℕ) < 50 by decide), if_neg (show ¬ (50 : ℕ) = 0 by decide)]
  iintro ⟨%hacc, H⟩
  isplitr
  · ipureintro; rw [hacc]; rfl
  · iexact H

/-! ## After the loop: the buffers whole again, every block done -/

omit [FloatOps F] in
theorem r5I_back (fa fc g : Buf (Elt F) ((tailThr d L).loc cc0_scoped8)) :
    iprop(r5ISlotPt d L (k0_off25 (tailW 50)) (r5hb4 _) fa ∗ r5ISlotPt d L (k0_off28 (tailW (50 - 1))) (r5hb7 _) fc
        ∗ ((tailThr d L).loc cc0_scoped8 ↦[r5IRest d L]{fullShare} g))
      ⊢ (∃ f, (tailThr d L).loc cc0_scoped8 ↦{fullShare} f : sProp 𝕄) := by
  have e0 : k0_off25 (tailW 50) = (![0, 0, 0, 0] : Fin 4 → ℕ) := by rw [Arith.off4_eq_r5]; rfl
  have e1 : k0_off28 (tailW (50 - 1)) = (![1, 0, 0, 0] : Fin 4 → ℕ) := by rw [Arith.off7_eq_r5]; rfl
  rw [r5ISlotPt_congr d L e0 (r5hb4 _) r5inbI0 fa, r5ISlotPt_congr d L e1 (r5hb7 _) r5inbI1 fc]
  exact r5IBuf_join d L fa fc g

omit [FloatOps F] in
theorem r5O_back (fb fbp g : Buf (Elt F) ((tailThr d L).loc cc0_scoped10)) :
    iprop(r5OSlotPt d L (k0_off31 (tailW 50)) (r5hb10 _) fb ∗ r5OSlotPt d L (k0_off36 (tailW (50 - 1))) (r5hb15 _) fbp
        ∗ ((tailThr d L).loc cc0_scoped10 ↦[r5ORest d L]{fullShare} g))
      ⊢ (∃ f, (tailThr d L).loc cc0_scoped10 ↦{fullShare} f : sProp 𝕄) := by
  have e0 : k0_off31 (tailW 50) = (![0, 0, 0, 0, 0] : Fin 5 → ℕ) := by rw [Arith.off10_eq_r5]; rfl
  have e1 : k0_off36 (tailW (50 - 1)) = (![1, 0, 0, 0, 0] : Fin 5 → ℕ) := by rw [Arith.off15_eq_r5]; rfl
  rw [r5OSlotPt_congr d L e0 (r5hb10 _) r5inbO0 fb, r5OSlotPt_congr d L e1 (r5hb15 _) r5inbO1 fbp]
  exact r5OBuf_join d L fb fbp g

/-- The last block done, beside the forty-nine before it: all fifty. -/
theorem r5_allDone :
    iprop(((tailOBlk (r5bo L (tailFin (50 - 1))) (r5bo_inb L _)).view.loc (tailThr d L) ↦[(tailOBlk (r5bo L (tailFin (50 - 1))) (r5bo_inb L _)).view.set]{fullShare} outK m d)
        ∗ bigSep (Finset.univ.filter fun u : Fin 50 => u.val + 1 < 50) (fun u => tailOPt d L 1 u (outK m d)))
      ⊢ (bigSep Finset.univ (fun u : Fin 50 => tailOPt d L 1 u (outK m d)) : sProp 𝕄) := by
  rw [r5_take (tailFin (50 - 1)) (fun u => tailOPt d L 1 u (outK m d)),
    show (Finset.univ.filter fun u : Fin 50 => u.val ≠ (tailFin (50 - 1)).val) = (Finset.univ.filter fun u : Fin 50 => u.val + 1 < 50) from
      Finset.filter_congr (fun u _ => by have := u.isLt; show u.val ≠ (50 - 1) % 50 ↔ _; omega)]
  exact Entails.refl _

end Cert.Proof.KI

end
-- ==== Proof.KITailR7D.lean ====
/-
  The third of the three pipelined lookups: its two-slot buffers, what is in flight on its semaphores, the facts that
  the fetched words are the index block's and stay in range, and the loop's invariant.  At trip t the fetch of index
  block t is in flight into the index slot of t's parity and the copy-out of the gathered rows of block t - 1 is in
  flight from the row slot of the other parity; the blocks before t - 1 hold the lookup's values.
-/
import proofs.«206595_g34437047779621_cont_8to1_b_428_16_alg».proof.Proof.KITailLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

/-! ## The buffers of the third lookup -/

/-- One slot of the two-slot buffer of index words. -/
abbrev r7iSlot (off : Fin 4 → ℕ) (h : ∀ a, off a + S1x1x1x128.size a ≤ S2x1x1x128.size a) : Memref sig .scVector .vmem S1x1x1x128 .i32 :=
  (Memref.whole cc0_scoped13).slice (Rect.unit (s := S2x1x1x128) off S1x1x1x128.size h) (fun _ => rfl)
/-- One slot of the two-slot buffer of gathered rows. -/
abbrev r7oSlot (off : Fin 5 → ℕ) (h : ∀ a, off a + S1x1x1x128x128.size a ≤ S2x1x1x128x128.size a) : Memref sig .scVector .vmem S1x1x1x128x128 .f32 :=
  (Memref.whole cc0_scoped15).slice (Rect.unit (s := S2x1x1x128x128) off S1x1x1x128x128.size h) (fun _ => rfl)
/-- The list of 128 index words of one slot, as the gather reads it. -/
abbrev r7list (off : Fin 4 → ℕ) (h : ∀ a, off a + S1x1x1x128.size a ≤ S2x1x1x128.size a) : Memref sig .scVector .vmem S128 .i32 :=
  ((((r7iSlot off h).squeeze S1x1x128 squeezes_S1x1x1x128_S1x1x128).slice (Rect.unit (s := S1x1x128) ![0, 0, 0] S1x1x128.size inb_S1x1x128_S1x1x128_0_0_0) (fun _ => rfl)).squeeze S128 squeezes_S1x1x128_S128)

/-- An index slot at contents `f`. -/
abbrev r7ISlotPt (off : Fin 4 → ℕ) (h : ∀ a, off a + S1x1x1x128.size a ≤ S2x1x1x128.size a)
    (f : Buf (Elt F) ((Memref.whole cc0_scoped13).view.loc (tailThr d L))) : sProp 𝕄 :=
  (r7iSlot off h).view.loc (tailThr d L) ↦[(r7iSlot off h).view.set]{fullShare} f
/-- A slot of gathered rows at contents `f`. -/
abbrev r7OSlotPt (off : Fin 5 → ℕ) (h : ∀ a, off a + S1x1x1x128x128.size a ≤ S2x1x1x128x128.size a)
    (f : Buf (Elt F) ((Memref.whole cc0_scoped15).view.loc (tailThr d L))) : sProp 𝕄 :=
  (r7oSlot off h).view.loc (tailThr d L) ↦[(r7oSlot off h).view.set]{fullShare} f

/-- A fetch of an index block into an index slot, in flight. -/
abbrev r7FI (offS : Fin 1 → ℕ) (hS : ∀ a, offS a + S1.size a ≤ S2.size a) (offL : Fin 4 → ℕ) (hL : ∀ a, offL a + S1x1x1x128.size a ≤ S2x1x1x128.size a)
    (offB : Fin 3 → ℕ) (hB : ∀ a, offB a + S1x1x128.size a ≤ S3x50x4096.size a) (q : PosShare TreeShare)
    (f : Buf (Elt F) ((Memref.whole cc0_scoped13).view.loc (tailThr d L))) : sProp 𝕄 :=
  Transfers.Flight countersEmb (tailThr d L) (SemLoc.dma (tailSem cc0_scoped14 offS hS)) (default : HIx 1) 4096
    iprop(((r7iSlot offL hL).view.loc (tailThr d L) ↦[(r7iSlot offL hL).view.set]{fullShare} f)
      ∗ ((tailIBlk offB hB).view.loc (tailThr d L) ↦[(tailIBlk offB hB).view.set]{q} idxT m d))
/-- A copy of a slot of gathered rows out to an output block, in flight. -/
abbrev r7FO (offS : Fin 1 → ℕ) (hS : ∀ a, offS a + S1.size a ≤ S2.size a) (offB : Fin 4 → ℕ) (hB : ∀ a, offB a + S1x1x128x128.size a ≤ S50x3x4096x128.size a)
    (fB : Buf (Elt F) (oLoc d)) (offL : Fin 5 → ℕ) (hL : ∀ a, offL a + S1x1x1x128x128.size a ≤ S2x1x1x128x128.size a)
    (fL : Buf (Elt F) ((Memref.whole cc0_scoped15).view.loc (tailThr d L))) : sProp 𝕄 :=
  Transfers.Flight countersEmb (tailThr d L) (SemLoc.dma (tailSem cc0_scoped16 offS hS)) (default : HIx 1) 524288
    iprop(((tailOBlk offB hB).view.loc (tailThr d L) ↦[(tailOBlk offB hB).view.set]{fullShare} fB)
      ∗ ((r7oSlot offL hL).view.loc (tailThr d L) ↦[(r7oSlot offL hL).view.set]{fullShare} fL))

/-- The index slot `off` holds the 128 words of the index block `boff`. -/
def r7good (off : Fin 4 → ℕ) (h : ∀ a, off a + S1x1x1x128.size a ≤ S2x1x1x128.size a)
    (boff : Fin 3 → ℕ) (hb : ∀ a, boff a + S1x1x128.size a ≤ S3x50x4096.size a)
    (f : Buf (Elt F) ((Memref.whole cc0_scoped13).view.loc (tailThr d L))) : Prop :=
  ∀ x : S128.Idx, (r7list off h).view.read (Elt F) f x = ((tailIBlk boff hb).view.reshape S128 tail_numel128).read (Elt F) (idxT m d) x

/-- The tile's first step of the 1600, as a word. -/
def r7v7 : BitVec 32 :=
  Scalar.muli (Scalar.addi (Scalar.addi (0#32) (Scalar.muli (BitVec.ofNat 32 (L 1).val) 1#32)) (Scalar.muli (BitVec.ofNat 32 (L 0).val) 16#32)) 50#32

/-- The table of the third lookup at a share. -/
abbrev r7Tab (qs : PosShare TreeShare) : sProp 𝕄 :=
  (Memref.whole cc0_scratch2).view.loc (tailThr d L) ↦{qs} (m (w2Loc d) : Buf (Elt F) (sh2Loc d (cV L)))

theorem r7list_subset (off : Fin 4 → ℕ) (h : ∀ a, off a + S1x1x1x128.size a ≤ S2x1x1x128.size a) :
    (r7list off h).view.set ⊆ (r7iSlot off h).view.set := by
  show ((((r7iSlot off h).view.reshape S1x1x128 _).slice _).reshape S128 _).set ⊆ _
  rw [View.set_reshape]
  refine (View.set_slice_subset _ _).trans ?_
  rw [View.set_reshape]

omit [FloatOps F] in
theorem r7_unit0_emb : ∀ x : S128.Idx,
    (Rect.unit (s := S1x1x128) ![0, 0, 0] S1x1x128.size inb_S1x1x128_S1x1x128_0_0_0).emb ((Shape.reshapeEquiv squeezes_S1x1x128_S128.numel_eq) x)
      = (Shape.reshapeEquiv (s := S1x1x128) (s' := S128) (by decide)) x := by
  decide +kernel

theorem r7good_write (off : Fin 4 → ℕ) (h : ∀ a, off a + S1x1x1x128.size a ≤ S2x1x1x128.size a)
    (boff : Fin 3 → ℕ) (hb : ∀ a, boff a + S1x1x128.size a ≤ S3x50x4096.size a)
    (fa : Buf (Elt F) ((Memref.whole cc0_scoped13).view.loc (tailThr d L))) :
    r7good m d L off h boff hb
      (View.write (Elt F) ((r7iSlot off h).squeeze S1x1x128 squeezes_S1x1x1x128_S1x1x128).view fa
        (ReadAs.same.apply (View.read (Elt F) (tailIBlk boff hb).view (idxT m d))) Finset.univ) := by
  intro x
  have e : (r7list off h).view.emb x
      = ((r7iSlot off h).squeeze S1x1x128 squeezes_S1x1x1x128_S1x1x128).view.emb ((Shape.reshapeEquiv (s := S1x1x128) (s' := S128) (by decide)) x) := by
    show ((r7iSlot off h).squeeze S1x1x128 squeezes_S1x1x1x128_S1x1x128).view.emb
        ((Rect.unit (s := S1x1x128) ![0, 0, 0] S1x1x128.size inb_S1x1x128_S1x1x128_0_0_0).emb ((Shape.reshapeEquiv squeezes_S1x1x128_S128.numel_eq) x)) = _
    rw [r7_unit0_emb]
  rw [View.read_apply, e, View.write_emb_of_mem _ _ (Finset.mem_univ _)]
  simp only [cast_cast, cast_eq]
  rfl

/-- A copy-out in flight, as the run leaves it, is the copy-out in flight the invariant states: its block at the values
    the block is to hold, its slot by the slot's own elements. -/
theorem r7FO_fix (offS : Fin 1 → ℕ) (hS : ∀ a, offS a + S1.size a ≤ S2.size a) (offB : Fin 4 → ℕ) (hB : ∀ a, offB a + S1x1x128x128.size a ≤ S50x3x4096x128.size a)
    (fB fB' : Buf (Elt F) (oLoc d)) (offL offL' : Fin 5 → ℕ) (hL : ∀ a, offL a + S1x1x1x128x128.size a ≤ S2x1x1x128x128.size a)
    (hL' : ∀ a, offL' a + S1x1x1x128x128.size a ≤ S2x1x1x128x128.size a)
    (fL : Buf (Elt F) ((Memref.whole cc0_scoped15).view.loc (tailThr d L)))
    (hv : ∀ i ∈ (tailOBlk offB hB).view.set, fB i = fB' i) (hoff : offL' = offL) :
    (Transfers.Flight countersEmb (tailThr d L) (SemLoc.dma (tailSem cc0_scoped16 offS hS)) (default : HIx 1) 524288
      iprop(((tailOBlk offB hB).view.loc (tailThr d L) ↦[(tailOBlk offB hB).view.set]{fullShare} fB)
        ∗ ((r7oSlot offL hL).view.loc (tailThr d L) ↦[((r7oSlot offL' hL').squeeze S1x1x128x128 squeezes_S1x1x1x128x128_S1x1x128x128).view.set]{fullShare} fL)) : sProp 𝕄)
      ⊢ r7FO d L offS hS offB hB fB' offL hL fL := by
  subst hoff
  have hset : ((r7oSlot offL' hL').squeeze S1x1x128x128 squeezes_S1x1x1x128x128_S1x1x128x128).view.set = (r7oSlot offL' hL).view.set :=
    View.set_reshape _ _
  refine Transfers.Flight_mono countersEmb (tailThr d L) ?_
  rw [pointsTo_congr hv, hset]

variable (O : CellTallies nD τ sig (HIx 1)) (W : Waits sig (HIx 1))

/-! ## Slots and semaphores of one parity under two spellings -/

omit [FloatOps F] in
theorem r7ISlotPt_congr {off off' : Fin 4 → ℕ} (e : off = off') (h : ∀ a, off a + S1x1x1x128.size a ≤ S2x1x1x128.size a)
    (h' : ∀ a, off' a + S1x1x1x128.size a ≤ S2x1x1x128.size a) (f : Buf (Elt F) ((Memref.whole cc0_scoped13).view.loc (tailThr d L))) :
    (r7ISlotPt d L off h f : sProp 𝕄) = r7ISlotPt d L off' h' f := by subst e; rfl
omit [FloatOps F] in
theorem r7OSlotPt_congr {off off' : Fin 5 → ℕ} (e : off = off') (h : ∀ a, off a + S1x1x1x128x128.size a ≤ S2x1x1x128x128.size a)
    (h' : ∀ a, off' a + S1x1x1x128x128.size a ≤ S2x1x1x128x128.size a) (f : Buf (Elt F) ((Memref.whole cc0_scoped15).view.loc (tailThr d L))) :
    (r7OSlotPt d L off h f : sProp 𝕄) = r7OSlotPt d L off' h' f := by subst e; rfl
omit [FloatOps F] in
theorem r7par4 {a b : ℕ} (ha : a < 2 ^ 32) (hb : b < 2 ^ 32) (h : a % 2 = b % 2) : k0_off49 (tailW a) = k0_off46 (tailW b) := by
  rw [Arith.off7_eq_r7, Arith.off4_eq_r7, tailW_par ha hb h]
omit [FloatOps F] in
theorem r7par1I {a b : ℕ} (ha : a < 2 ^ 32) (hb : b < 2 ^ 32) (h : a % 2 = b % 2) : k0_off51 (tailW a) = k0_off48 (tailW b) := by
  rw [Arith.off9_eq_r7, Arith.off6_eq_r7, tailW_par ha hb h]
omit [FloatOps F] in
theorem r7par5 {a b : ℕ} (ha : a < 2 ^ 32) (hb : b < 2 ^ 32) (h : a % 2 = b % 2) : k0_off57 (tailW a) = k0_off52 (tailW b) := by
  rw [Arith.off15_eq_r7, Arith.off10_eq_r7, tailW_par ha hb h]
omit [FloatOps F] in
theorem r7par1O {a b : ℕ} (ha : a < 2 ^ 32) (hb : b < 2 ^ 32) (h : a % 2 = b % 2) : k0_off59 (tailW a) = k0_off56 (tailW b) := by
  rw [Arith.off17_eq_r7, Arith.off14_eq_r7, tailW_par ha hb h]

/-! ## The two-slot buffers as their slots -/

omit [FloatOps F] in theorem r7inbI0 : ∀ a, (![0, 0, 0, 0] : Fin 4 → ℕ) a + S1x1x1x128.size a ≤ S2x1x1x128.size a := by decide
omit [FloatOps F] in theorem r7inbI1 : ∀ a, (![1, 0, 0, 0] : Fin 4 → ℕ) a + S1x1x1x128.size a ≤ S2x1x1x128.size a := by decide
omit [FloatOps F] in theorem r7inbO0 : ∀ a, (![0, 0, 0, 0, 0] : Fin 5 → ℕ) a + S1x1x1x128x128.size a ≤ S2x1x1x128x128.size a := by decide
omit [FloatOps F] in theorem r7inbO1 : ∀ a, (![1, 0, 0, 0, 0] : Fin 5 → ℕ) a + S1x1x1x128x128.size a ≤ S2x1x1x128x128.size a := by decide

omit [FloatOps F] in
theorem r7IDisj : Disjoint (r7iSlot ![1, 0, 0, 0] r7inbI1).view.set (r7iSlot ![0, 0, 0, 0] r7inbI0).view.set := by
  have h1 : (r7iSlot ![1, 0, 0, 0] r7inbI1).view.set = (Rect.unit (s := S2x1x1x128) ![1, 0, 0, 0] S1x1x1x128.size r7inbI1).set := View.set_slice_whole _ _
  have h0 : (r7iSlot ![0, 0, 0, 0] r7inbI0).view.set = (Rect.unit (s := S2x1x1x128) ![0, 0, 0, 0] S1x1x1x128.size r7inbI0).set := View.set_slice_whole _ _
  rw [h1, h0]
  exact Rect.disjoint_of_separated _ _ 0 (.inr (.inr (by decide)))
omit [FloatOps F] in
theorem r7ISub : (r7iSlot ![1, 0, 0, 0] r7inbI1).view.set ⊆ Finset.univ \ (r7iSlot ![0, 0, 0, 0] r7inbI0).view.set :=
  Finset.subset_sdiff.mpr ⟨Finset.subset_univ _, r7IDisj⟩
omit [FloatOps F] in
theorem r7ODisj : Disjoint (r7oSlot ![1, 0, 0, 0, 0] r7inbO1).view.set (r7oSlot ![0, 0, 0, 0, 0] r7inbO0).view.set := by
  have h1 : (r7oSlot ![1, 0, 0, 0, 0] r7inbO1).view.set = (Rect.unit (s := S2x1x1x128x128) ![1, 0, 0, 0, 0] S1x1x1x128x128.size r7inbO1).set := View.set_slice_whole _ _
  have h0 : (r7oSlot ![0, 0, 0, 0, 0] r7inbO0).view.set = (Rect.unit (s := S2x1x1x128x128) ![0, 0, 0, 0, 0] S1x1x1x128x128.size r7inbO0).set := View.set_slice_whole _ _
  rw [h1, h0]
  exact Rect.disjoint_of_separated _ _ 0 (.inr (.inr (by decide)))
omit [FloatOps F] in
theorem r7OSub : (r7oSlot ![1, 0, 0, 0, 0] r7inbO1).view.set ⊆ Finset.univ \ (r7oSlot ![0, 0, 0, 0, 0] r7inbO0).view.set :=
  Finset.subset_sdiff.mpr ⟨Finset.subset_univ _, r7ODisj⟩

/-- What of the index buffer lies in neither slot (nothing; kept as a piece so that no count is needed). -/
abbrev r7IRest : Finset (Idx ((tailThr d L).loc cc0_scoped13)) :=
  (Finset.univ \ (r7iSlot ![0, 0, 0, 0] r7inbI0).view.set) \ (r7iSlot ![1, 0, 0, 0] r7inbI1).view.set
abbrev r7ORest : Finset (Idx ((tailThr d L).loc cc0_scoped15)) :=
  (Finset.univ \ (r7oSlot ![0, 0, 0, 0, 0] r7inbO0).view.set) \ (r7oSlot ![1, 0, 0, 0, 0] r7inbO1).view.set

omit [FloatOps F] in
theorem r7IBuf_split (f : Buf (Elt F) ((tailThr d L).loc cc0_scoped13)) :
    ((tailThr d L).loc cc0_scoped13 ↦{fullShare} f : sProp 𝕄)
      ⊢ iprop(r7ISlotPt d L ![0, 0, 0, 0] r7inbI0 f ∗ r7ISlotPt d L ![1, 0, 0, 0] r7inbI1 f ∗ ((tailThr d L).loc cc0_scoped13 ↦[r7IRest d L]{fullShare} f)) := by
  iintro H
  ihave H' := (pointsTo_split_subset (Finset.subset_univ (r7iSlot ![0, 0, 0, 0] r7inbI0).view.set)).1 $$ H
  icases H' with ⟨H0, Hr⟩
  ihave Hr' := (pointsTo_split_subset r7ISub).1 $$ Hr
  icases Hr' with ⟨H1, Hr⟩
  isplitl [H0]; · iexact H0
  isplitl [H1]; · iexact H1
  iexact Hr

omit [FloatOps F] in
theorem r7IBuf_join (g0 g1 g : Buf (Elt F) ((tailThr d L).loc cc0_scoped13)) :
    iprop(r7ISlotPt d L ![0, 0, 0, 0] r7inbI0 g0 ∗ r7ISlotPt d L ![1, 0, 0, 0] r7inbI1 g1 ∗ ((tailThr d L).loc cc0_scoped13 ↦[r7IRest d L]{fullShare} g))
      ⊢ (∃ f, (tailThr d L).loc cc0_scoped13 ↦{fullShare} f : sProp 𝕄) := by
  iintro ⟨H0, H1, Hr⟩
  ihave Hr' := (pointsTo_join_subset (ℓ := (tailThr d L).loc cc0_scoped13) r7ISub) $$ [H1 Hr]
  · isplitl [H1]; · iexact H1
    iexact Hr
  ihave H := (pointsTo_join_subset (ℓ := (tailThr d L).loc cc0_scoped13) (Finset.subset_univ (r7iSlot ![0, 0, 0, 0] r7inbI0).view.set)) $$ [H0 Hr']
  · isplitl [H0]; · iexact H0
    iexact Hr'
  iexists _; iexact H

omit [FloatOps F] in
theorem r7OBuf_split (f : Buf (Elt F) ((tailThr d L).loc cc0_scoped15)) :
    ((tailThr d L).loc cc0_scoped15 ↦{fullShare} f : sProp 𝕄)
      ⊢ iprop(r7OSlotPt d L ![0, 0, 0, 0, 0] r7inbO0 f ∗ r7OSlotPt d L ![1, 0, 0, 0, 0] r7inbO1 f ∗ ((tailThr d L).loc cc0_scoped15 ↦[r7ORest d L]{fullShare} f)) := by
  iintro H
  ihave H' := (pointsTo_split_subset (Finset.subset_univ (r7oSlot ![0, 0, 0, 0, 0] r7inbO0).view.set)).1 $$ H
  icases H' with ⟨H0, Hr⟩
  ihave Hr' := (pointsTo_split_subset r7OSub).1 $$ Hr
  icases Hr' with ⟨H1, Hr⟩
  isplitl [H0]; · iexact H0
  isplitl [H1]; · iexact H1
  iexact Hr

omit [FloatOps F] in
theorem r7OBuf_join (g0 g1 g : Buf (Elt F) ((tailThr d L).loc cc0_scoped15)) :
    iprop(r7OSlotPt d L ![0, 0, 0, 0, 0] r7inbO0 g0 ∗ r7OSlotPt d L ![1, 0, 0, 0, 0] r7inbO1 g1 ∗ ((tailThr d L).loc cc0_scoped15 ↦[r7ORest d L]{fullShare} g))
      ⊢ (∃ f, (tailThr d L).loc cc0_scoped15 ↦{fullShare} f : sProp 𝕄) := by
  iintro ⟨H0, H1, Hr⟩
  ihave Hr' := (pointsTo_join_subset (ℓ := (tailThr d L).loc cc0_scoped15) r7OSub) $$ [H1 Hr]
  · isplitl [H1]; · iexact H1
    iexact Hr
  ihave H := (pointsTo_join_subset (ℓ := (tailThr d L).loc cc0_scoped15) (Finset.subset_univ (r7oSlot ![0, 0, 0, 0, 0] r7inbO0).view.set)) $$ [H0 Hr']
  · isplitl [H0]; · iexact H0
    iexact Hr'
  iexists _; iexact H

/-! ## Flights under two spellings -/

theorem r7FI_congr {offS offS' : Fin 1 → ℕ} {offL offL' : Fin 4 → ℕ} {offB offB' : Fin 3 → ℕ} (eS : offS = offS') (eL : offL = offL') (eB : offB = offB')
    (hS : ∀ a, offS a + S1.size a ≤ S2.size a) (hL : ∀ a, offL a + S1x1x1x128.size a ≤ S2x1x1x128.size a) (hB : ∀ a, offB a + S1x1x128.size a ≤ S3x50x4096.size a)
    (hS' : ∀ a, offS' a + S1.size a ≤ S2.size a) (hL' : ∀ a, offL' a + S1x1x1x128.size a ≤ S2x1x1x128.size a) (hB' : ∀ a, offB' a + S1x1x128.size a ≤ S3x50x4096.size a)
    (q : PosShare TreeShare) (f : Buf (Elt F) ((Memref.whole cc0_scoped13).view.loc (tailThr d L))) :
    (r7FI m d L offS hS offL hL offB hB q f : sProp 𝕄) = r7FI m d L offS' hS' offL' hL' offB' hB' q f := by subst eS eL eB; rfl
theorem r7good_congr {offL offL' : Fin 4 → ℕ} {offB offB' : Fin 3 → ℕ} (eL : offL = offL') (eB : offB = offB')
    (hL : ∀ a, offL a + S1x1x1x128.size a ≤ S2x1x1x128.size a) (hB : ∀ a, offB a + S1x1x128.size a ≤ S3x50x4096.size a)
    (hL' : ∀ a, offL' a + S1x1x1x128.size a ≤ S2x1x1x128.size a) (hB' : ∀ a, offB' a + S1x1x128.size a ≤ S3x50x4096.size a)
    (f : Buf (Elt F) ((Memref.whole cc0_scoped13).view.loc (tailThr d L))) (h : r7good m d L offL hL offB hB f) : r7good m d L offL' hL' offB' hB' f := by
  subst eL eB; exact h
omit [FloatOps F] in
theorem r7FO_congr {offS offS' : Fin 1 → ℕ} {offB offB' : Fin 4 → ℕ} {offL offL' : Fin 5 → ℕ} (eS : offS = offS') (eB : offB = offB') (eL : offL = offL')
    (hS : ∀ a, offS a + S1.size a ≤ S2.size a) (hB : ∀ a, offB a + S1x1x128x128.size a ≤ S50x3x4096x128.size a) (hL : ∀ a, offL a + S1x1x1x128x128.size a ≤ S2x1x1x128x128.size a)
    (hS' : ∀ a, offS' a + S1.size a ≤ S2.size a) (hB' : ∀ a, offB' a + S1x1x128x128.size a ≤ S50x3x4096x128.size a) (hL' : ∀ a, offL' a + S1x1x1x128x128.size a ≤ S2x1x1x128x128.size a)
    (fB : Buf (Elt F) (oLoc d)) (fL : Buf (Elt F) ((Memref.whole cc0_scoped15).view.loc (tailThr d L))) :
    (r7FO d L offS hS offB hB fB offL hL fL : sProp 𝕄) = r7FO d L offS' hS' offB' hB' fB offL' hL' fL := by subst eS eB eL; rfl

/-! ## In-bounds facts of the program's offsets at any word, and of the canonical blocks -/

omit [FloatOps F] in theorem r7hb4 (a : BitVec 32) : ∀ j, k0_off46 a j + S1x1x1x128.size j ≤ S2x1x1x128.size j := by rw [Arith.off4_eq_r7]; exact Arith.slot4 a
omit [FloatOps F] in theorem r7hb6 (a : BitVec 32) : ∀ j, k0_off48 a j + S1.size j ≤ S2.size j := by rw [Arith.off6_eq_r7]; exact Arith.slot1 a
omit [FloatOps F] in theorem r7hb7 (a : BitVec 32) : ∀ j, k0_off49 a j + S1x1x1x128.size j ≤ S2x1x1x128.size j := by rw [Arith.off7_eq_r7]; exact Arith.slot4 a
omit [FloatOps F] in theorem r7hb9 (a : BitVec 32) : ∀ j, k0_off51 a j + S1.size j ≤ S2.size j := by rw [Arith.off9_eq_r7]; exact Arith.slot1 a
omit [FloatOps F] in theorem r7hb10 (a : BitVec 32) : ∀ j, k0_off52 a j + S1x1x1x128x128.size j ≤ S2x1x1x128x128.size j := by rw [Arith.off10_eq_r7]; exact Arith.slot5 a
omit [FloatOps F] in theorem r7hb11 (a : BitVec 32) : ∀ j, k0_off53 a j + S1x1x1x128.size j ≤ S2x1x1x128.size j := by rw [Arith.off11_eq_r7]; exact Arith.slot4 a
omit [FloatOps F] in theorem r7hb12 (a : BitVec 32) : ∀ j, k0_off54 a j + S1x1x1x128x128.size j ≤ S2x1x1x128x128.size j := by rw [Arith.off12_eq_r7]; exact Arith.slot5 a
omit [FloatOps F] in theorem r7hb14 (a : BitVec 32) : ∀ j, k0_off56 a j + S1.size j ≤ S2.size j := by rw [Arith.off14_eq_r7]; exact Arith.slot1 a
omit [FloatOps F] in theorem r7hb15 (a : BitVec 32) : ∀ j, k0_off57 a j + S1x1x1x128x128.size j ≤ S2x1x1x128x128.size j := by rw [Arith.off15_eq_r7]; exact Arith.slot5 a
omit [FloatOps F] in theorem r7hb17 (a : BitVec 32) : ∀ j, k0_off59 a j + S1.size j ≤ S2.size j := by rw [Arith.off17_eq_r7]; exact Arith.slot1 a

/-- The index block of the tile's trip `u` for this lookup's table. -/
abbrev r7bi (u : Fin 50) : Fin 3 → ℕ := Arith.blkIn 2 L u.val
omit [FloatOps F] in theorem r7bi_inb (u : Fin 50) : ∀ a, r7bi L u a + S1x1x128.size a ≤ S3x50x4096.size a := Arith.blkIn_inb 2 (by decide) L u.val u.isLt
/-- The output block of the tile's trip `u` for this lookup's table. -/
abbrev r7bo (u : Fin 50) : Fin 4 → ℕ := outOff 2 (stp (L 0).val (L 1).val u.val)
omit [FloatOps F] in theorem r7bo_inb (u : Fin 50) : ∀ a, r7bo L u a + S1x1x128x128.size a ≤ S50x3x4096x128.size a :=
  outOff_inb (by decide) (stp_lt (L 0).isLt (L 1).isLt u.isLt)

variable (qi qs : PosShare TreeShare)

/-- The words the loop carries into trip `t`. -/
def r7car (t : ℕ) : BitVec 32 × BitVec 32 × BitVec 32 × BitVec 32 × BitVec 32 :=
  (tailW (min (t + 1) 50), tailW t, tailW t, tailW (t - 1), tailW (t % 50))

/-- Before trip `t < 50`, the index side: the fetch of block `t` in flight into the slot of `t`'s parity, on trip `t`'s
    read token (the rest of that token beside it), the other slot and its semaphore free, every other token whole. -/
def r7idxMid (t : ℕ) : sProp 𝕄 :=
  iprop((∃ fcur, ⌜r7good m d L (k0_off49 (tailW t)) (r7hb7 _) (r7bi L (tailFin t)) (r7bi_inb L _) fcur⌝
        ∗ r7FI m d L (k0_off51 (tailW t)) (r7hb9 _) (k0_off49 (tailW t)) (r7hb7 _) (r7bi L (tailFin t)) (r7bi_inb L _) (shareTok qi 50 (tailFin t)) fcur)
    ∗ (iLoc d ↦[Finset.univ \ (tailIBlk (r7bi L (tailFin t)) (r7bi_inb L _)).view.set]{shareTok qi 50 (tailFin t)} idxT m d)
    ∗ (∃ f, r7ISlotPt d L (k0_off46 (tailW (t + 1))) (r7hb4 _) f)
    ∗ semVal (tailThr d L, SemLoc.dma (tailSem cc0_scoped14 (k0_off48 (tailW (t + 1))) (r7hb6 _))) 0
    ∗ bigSep (Finset.univ.filter fun u : Fin 50 => u.val ≠ t) (tailTokPt m d qi))

/-- After the last trip, the index side: both slots and semaphores free, every token whole. -/
def r7idxEnd (t : ℕ) : sProp 𝕄 :=
  iprop((∃ f, r7ISlotPt d L (k0_off46 (tailW t)) (r7hb4 _) f)
    ∗ semVal (tailThr d L, SemLoc.dma (tailSem cc0_scoped14 (k0_off48 (tailW t)) (r7hb6 _))) 0
    ∗ (∃ f, r7ISlotPt d L (k0_off49 (tailW (t - 1))) (r7hb7 _) f)
    ∗ semVal (tailThr d L, SemLoc.dma (tailSem cc0_scoped14 (k0_off51 (tailW (t - 1))) (r7hb9 _))) 0
    ∗ bigSep Finset.univ (tailTokPt m d qi))

/-- The output side before trip `t`: the copy-out of block `t - 1` in flight (none before trip 0: then the other slot is
    free), the slot of `t`'s parity and its semaphore free, the blocks before `t - 1` at the lookup's values, those from
    `t` on as the launch left them. -/
def r7out (t : ℕ) : sProp 𝕄 :=
  iprop((if t = 0 then iprop((∃ f, r7OSlotPt d L (k0_off52 (tailW (t + 1))) (r7hb10 _) f)
            ∗ semVal (tailThr d L, SemLoc.dma (tailSem cc0_scoped16 (k0_off56 (tailW (t + 1))) (r7hb14 _))) 0)
         else iprop(∃ fbp, r7FO d L (k0_off59 (tailW (t - 1))) (r7hb17 _) (r7bo L (tailFin (t - 1))) (r7bo_inb L _) (outK m d) (k0_off57 (tailW (t - 1))) (r7hb15 _) fbp))
    ∗ (∃ f, r7OSlotPt d L (k0_off52 (tailW t)) (r7hb10 _) f)
    ∗ semVal (tailThr d L, SemLoc.dma (tailSem cc0_scoped16 (k0_off56 (tailW t)) (r7hb14 _))) 0
    ∗ bigSep (Finset.univ.filter fun u : Fin 50 => u.val + 1 < t) (fun u => tailOPt d L 2 u (outK m d))
    ∗ bigSep (Finset.univ.filter fun u : Fin 50 => t ≤ u.val) (fun u => tailOPt d L 2 u (m (oLoc d))))

/-- The loop's invariant. -/
def r7inv (t : ℕ) (acc : BitVec 32 × BitVec 32 × BitVec 32 × BitVec 32 × BitVec 32) : sProp 𝕄 :=
  iprop(⌜acc = r7car t⌝ ∗ Transfers.MayWaits (tailThr d L) (default : HIx 1) O ∗ r7Tab m d L qs
    ∗ semVal (tailThr d L, SemLoc.dma cc0_scoped17.sem) 0
    ∗ (if t < 50 then r7idxMid m d L qi t else r7idxEnd m d L qi t)
    ∗ r7out m d L t
    ∗ ∃ W', ⌜∀ p ∈ W', p ∈ W ∨ p.2 = none⌝ ∗ owes (tailThr d L) O W')

end Cert.Proof.KI

end
-- ==== Proof.KITailR7V.lean ====
/-
  The values one step of the third lookup leaves in its output block: the block holds the lookup's values for table 2.
  The argument is the first lookup's, over this lookup's buffers and table: an index of the block with rows y and lanes e
  sits under the same rows and lanes of the row slot, the slot there holds the gathered row named by the y-th word of
  the index slot, and that word is the index word of the block's own step.
-/
import proofs.«206595_g34437047779621_cont_8to1_b_428_16_alg».proof.Proof.KITailR7D
import proofs.«206595_g34437047779621_cont_8to1_b_428_16_alg».proof.Proof.KITailR3V

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

theorem r7out_value (o10 : Fin 5 → ℕ) (b10 : ∀ a, o10 a + S1x1x1x128x128.size a ≤ S2x1x1x128x128.size a)
    (o11 : Fin 4 → ℕ) (b11 : ∀ a, o11 a + S1x1x1x128.size a ≤ S2x1x1x128.size a)
    (o8 : Fin 3 → ℕ) (b8 : ∀ a, o8 a + S1x1x128.size a ≤ S3x50x4096.size a)
    (o13 : Fin 4 → ℕ) (b13 : ∀ a, o13 a + S1x1x128x128.size a ≤ S50x3x4096x128.size a)
    (h0 : o8 0 = 2) (h130 : o13 0 = o8 1) (h131 : o13 1 = 2) (h132 : o13 2 = o8 2) (h133 : o13 3 = 0)
    (fcur : Buf (Elt F) ((Memref.whole cc0_scoped13).view.loc (tailThr d L))) (hgood : r7good m d L o11 b11 o8 b8 fcur)
    (hx : Cert.Lookup.InRange (m (xLoc d) : IVec Cert.Lookup.SX 32))
    (fb : Buf (Elt F) ((Memref.whole cc0_scoped15).view.loc (tailThr d L))) (fo : Buf (Elt F) (oLoc d))
    (hn : S128.numel = S128x128.size gathers_S1001x128_S128x128.axis')
    (hin : ∀ x, (View.read (Elt F) (r7list o11 b11).view fcur x).toNat < S1001x128.size gathers_S1001x128_S128x128.axis) :
    ∀ i ∈ (tailOBlk o13 b13).view.set,
      (tailOBlk o13 b13).view.writes (Elt F) fo
        [⟨Rect.whole S1x1x128x128,
          ReadAs.same.apply (View.read (Elt F) ((r7oSlot o10 b10).squeeze S1x1x128x128 squeezes_S1x1x1x128x128_S1x1x128x128).view
            (View.write (Elt F)
              ((((r7oSlot o10 b10).squeeze S1x1x128x128 squeezes_S1x1x1x128x128_S1x1x128x128).slice
                  (Rect.unit (s := S1x1x128x128) ![0, 0, 0, 0] S1x1x128x128.size inb_S1x1x128x128_S1x1x128x128_0_0_0_0) (fun _ => rfl)).squeeze S128x128 squeezes_S1x1x128x128_S128x128).view
              fb
              (SparseCore.gatherPayload gathers_S1001x128_S128x128
                (View.read (Elt F) ((Memref.whole cc0_scratch2).slice (Rect.unit (s := S1001x128) ![0, 0] S1001x128.size inb_S1001x128_S1001x128_0_0) (fun _ => rfl)).view
                  (m (w2Loc d) : Buf (Elt F) (sh2Loc d (cV L))))
                (SparseCore.rows (View.read (Elt F) (r7list o11 b11).view fcur) hn hin))
              Finset.univ))⟩] i
        = outK m d i := by
  intro i hi
  obtain ⟨y, -, rfl⟩ := Finset.mem_map.mp hi
  refine (congrFun (View.write_univ_eq_writes_whole (Val := Elt F) (tailOBlk o13 b13).view fo [] _).symm _).trans ?_
  rw [View.writes_nil, View.write_emb_of_mem _ _ (Finset.mem_univ _)]
  obtain ⟨y2, rfl⟩ : ∃ y2 : S128x128.Idx, y = Shape.reshapeEquiv squeezes_S1x1x128x128_S128x128.numel_eq y2 :=
    ⟨_, (Equiv.apply_symm_apply _ _).symm⟩
  obtain ⟨q0, q1, q2, q3⟩ := resh_2to4 squeezes_S1x1x128x128_S128x128.numel_eq y2
  -- the slot's element under the block's index is the gather's destination element under the same rows and lanes
  have e : ((r7oSlot o10 b10).squeeze S1x1x128x128 squeezes_S1x1x1x128x128_S1x1x128x128).view.emb
        (Shape.reshapeEquiv squeezes_S1x1x128x128_S128x128.numel_eq y2)
      = ((((r7oSlot o10 b10).squeeze S1x1x128x128 squeezes_S1x1x1x128x128_S1x1x128x128).slice
            (Rect.unit (s := S1x1x128x128) ![0, 0, 0, 0] S1x1x128x128.size inb_S1x1x128x128_S1x1x128x128_0_0_0_0) (fun _ => rfl)).squeeze
          S128x128 squeezes_S1x1x128x128_S128x128).view.emb y2 := by
    show _ = ((r7oSlot o10 b10).squeeze S1x1x128x128 squeezes_S1x1x1x128x128_S1x1x128x128).view.emb
      ((Rect.unit (s := S1x1x128x128) ![0, 0, 0, 0] S1x1x128x128.size inb_S1x1x128x128_S1x1x128x128_0_0_0_0).emb
        (Shape.reshapeEquiv squeezes_S1x1x128x128_S128x128.numel_eq y2))
    rw [unit0_emb4]
  rw [ReadAs.apply_same, View.read_apply, e, View.write_emb_of_mem _ _ (Finset.mem_univ _)]
  simp only [cast_cast, cast_eq]
  refine val_gather m d 2 (o8 1) (o8 2) hx _ (fun j => ?_) _ (fun x j hj0 hj1 hj2 => ?_) hn hin (by decide) y2 _ ?_ ?_ ?_ ?_
  · -- the table as the gather reads it is the third table
    refine (View.read_apply _ _).trans ((cast_eq _ _).trans ?_)
    show (m (w2Loc d)) ((Rect.unit (s := S1001x128) ![0, 0] S1001x128.size inb_S1001x128_S1001x128_0_0).emb j) = (m (w2Loc d)) j
    rw [unit0_emb2]
  · -- the list's word x is the index word at (2, o8 1, o8 2 + x)
    obtain ⟨r0, r1, r2⟩ := resh_1to3 tail_numel128 x
    rw [hgood x, View.read_apply, cast_eq]
    refine congrArg _ (funext fun a => Fin.ext ?_)
    match a with
    | ⟨0, _⟩ =>
      show o8 0 + 1 * ((Shape.reshapeEquiv tail_numel128 x) 0).val = (j 0).val
      omega
    | ⟨1, _⟩ =>
      show o8 1 + 1 * ((Shape.reshapeEquiv tail_numel128 x) 1).val = (j 1).val
      omega
    | ⟨2, _⟩ =>
      show o8 2 + 1 * ((Shape.reshapeEquiv tail_numel128 x) 2).val = (j 2).val
      omega
  · show o13 0 + 1 * ((Shape.reshapeEquiv squeezes_S1x1x128x128_S128x128.numel_eq y2) 0).val = o8 1
    omega
  · show o13 1 + 1 * ((Shape.reshapeEquiv squeezes_S1x1x128x128_S128x128.numel_eq y2) 1).val = 2
    omega
  · show o13 2 + 1 * ((Shape.reshapeEquiv squeezes_S1x1x128x128_S128x128.numel_eq y2) 2).val = o8 2 + (y2 0).val
    omega
  · show o13 3 + 1 * ((Shape.reshapeEquiv squeezes_S1x1x128x128_S128x128.numel_eq y2) 3).val = (y2 1).val
    omega

end Cert.Proof.KI
end
-- ==== Proof.KITailR7C.lean ====
/-
  One trip of the third lookup's loop, run from the pieces the trip touches: the middle trips, the first (no copy-out
  to wait for) and the last (no fetch to start).
-/
import proofs.«206595_g34437047779621_cont_8to1_b_428_16_alg».proof.Proof.KITailR7D
import proofs.«206595_g34437047779621_cont_8to1_b_428_16_alg».proof.Proof.KITailR7V

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

variable (O : CellTallies nD τ sig (HIx 1)) (W : Waits sig (HIx 1))

set_option maxHeartbeats 4000000 in
theorem r7coreM (t : Fin k0_t3_loop.trips) (h1t : 1 ≤ t.val) (ht : t.val < 49)
    (o4 : Fin 4 → ℕ) (e4 : k0_off46 (tailW (t.val + 1)) = o4) (b4 : ∀ a, o4 a + S1x1x1x128.size a ≤ S2x1x1x128.size a)
    (o5 : Fin 3 → ℕ) (e5 : k0_off47 L (tailW t.val) = o5) (b5 : ∀ a, o5 a + S1x1x128.size a ≤ S3x50x4096.size a)
    (o6 : Fin 1 → ℕ) (e6 : k0_off48 (tailW (t.val + 1)) = o6) (b6 : ∀ a, o6 a + S1.size a ≤ S2.size a)
    (o7 : Fin 4 → ℕ) (e7 : k0_off49 (tailW t.val) = o7) (b7 : ∀ a, o7 a + S1x1x1x128.size a ≤ S2x1x1x128.size a)
    (o8 : Fin 3 → ℕ) (e8 : k0_off50 L (tailW t.val) = o8) (b8 : ∀ a, o8 a + S1x1x128.size a ≤ S3x50x4096.size a)
    (o9 : Fin 1 → ℕ) (e9 : k0_off51 (tailW t.val) = o9) (b9 : ∀ a, o9 a + S1.size a ≤ S2.size a)
    (o10 : Fin 5 → ℕ) (e10 : k0_off52 (tailW t.val) = o10) (b10 : ∀ a, o10 a + S1x1x1x128x128.size a ≤ S2x1x1x128x128.size a)
    (o13 : Fin 4 → ℕ) (e13 : k0_off55 L (tailW t.val) = o13) (b13 : ∀ a, o13 a + S1x1x128x128.size a ≤ S50x3x4096x128.size a)
    (o14 : Fin 1 → ℕ) (e14 : k0_off56 (tailW t.val) = o14) (b14 : ∀ a, o14 a + S1.size a ≤ S2.size a)
    (o15 : Fin 5 → ℕ) (e15 : k0_off57 (tailW (t.val - 1)) = o15) (b15 : ∀ a, o15 a + S1x1x1x128x128.size a ≤ S2x1x1x128x128.size a)
    (o16 : Fin 4 → ℕ) (e16 : k0_off58 L (tailW t.val) = o16) (b16 : ∀ a, o16 a + S1x1x128x128.size a ≤ S50x3x4096x128.size a)
    (o17 : Fin 1 → ℕ) (e17 : k0_off59 (tailW (t.val - 1)) = o17) (b17 : ∀ a, o17 a + S1.size a ≤ S2.size a)
    (qn qc qs : PosShare TreeShare)
    (fcur : Buf (Elt F) ((Memref.whole cc0_scoped13).view.loc (tailThr d L)))
    (hgood : r7good m d L o7 b7 o8 b8 fcur)
    (hx : Cert.Lookup.InRange (m (xLoc d) : IVec Cert.Lookup.SX 32)) :
    (iprop(Transfers.MayWaits (tailThr d L) (default : HIx 1) O
        ∗ ((tailIBlk o5 b5).view.loc (tailThr d L) ↦[(tailIBlk o5 b5).view.set]{qn} idxT m d)
        ∗ (∃ fa, r7ISlotPt d L o4 b4 fa)
        ∗ semVal (tailThr d L, SemLoc.dma (tailSem cc0_scoped14 o6 b6)) 0
        ∗ r7FI m d L o9 b9 o7 b7 o8 b8 qc fcur
        ∗ r7Tab m d L qs
        ∗ (∃ fb, r7OSlotPt d L o10 b10 fb)
        ∗ semVal (tailThr d L, SemLoc.dma cc0_scoped17.sem) 0
        ∗ ((tailOBlk o13 b13).view.loc (tailThr d L) ↦[(tailOBlk o13 b13).view.set]{fullShare} m (oLoc d))
        ∗ semVal (tailThr d L, SemLoc.dma (tailSem cc0_scoped16 o14 b14)) 0
        ∗ (∃ fbp, r7FO d L o17 b17 o16 b16 (outK m d) o15 b15 fbp)
        ∗ owes (tailThr d L) O W) : sProp 𝕄)
      ⊢ wp frame (wpE (defs₀ (F := F)) 𝒱₀ (tailThr d L) none) Set.univ
          (k0_t3_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r7v7 L) t (tailW (t.val + 1), tailW t.val, tailW t.val, tailW (t.val - 1), tailW t.val))
          fun acc => iprop(⌜acc = (tailW (t.val + 2), tailW (t.val + 1), tailW (t.val + 1), tailW t.val, tailW (t.val + 1))⌝
            ∗ (∃ fnew, ⌜r7good m d L o4 b4 o5 b5 fnew⌝ ∗ r7FI m d L o6 b6 o4 b4 o5 b5 qn fnew)
            ∗ ((tailIBlk o8 b8).view.loc (tailThr d L) ↦[(tailIBlk o8 b8).view.set]{qc} idxT m d)
            ∗ semVal (tailThr d L, SemLoc.dma (tailSem cc0_scoped14 o9 b9)) 0
            ∗ r7ISlotPt d L o7 b7 fcur
            ∗ r7Tab m d L qs
            ∗ semVal (tailThr d L, SemLoc.dma cc0_scoped17.sem) 0
            ∗ (∃ fg, r7FO d L o14 b14 o13 b13 (outK m d) o10 b10 fg)
            ∗ ((tailOBlk o16 b16).view.loc (tailThr d L) ↦[(tailOBlk o16 b16).view.set]{fullShare} outK m d)
            ∗ (∃ f, r7OSlotPt d L o15 b15 f)
            ∗ semVal (tailThr d L, SemLoc.dma (tailSem cc0_scoped16 o17 b17)) 0
            ∗ ∃ W', ⌜∀ p ∈ W', p ∈ W ∨ p.2 = none⌝ ∗ owes (tailThr d L) O W') := by
  subst e4 e5 e6 e7 e8 e9 e10 e13 e14 e15 e16 e17
  have hc2 : k0_cond16 L t (tailW t.val) = 1#1 := by rw [Arith.cond2_eq_r7, if_pos (by omega)]
  have hc3 : k0_cond17 L t (tailW t.val) = 1#1 := Arith.cond3_eq_r7 L t
  have hc6 : k0_cond20 L t (tailW t.val) = 1#1 := Arith.cond6_eq_r7 L t
  have hc8 : k0_cond22 L t (tailW t.val) = 1#1 := by rw [Arith.cond8_eq_r7, if_pos (by omega)]
  have h3 : k0_chk13 (tailW t.val) := Arith.chk3_all_r7 _
  have h2 : k0_chk12 (tailW t.val) := Arith.chk2_all_r7 _
  have h1 : k0_chk11 L t (tailW (t.val + 1)) (tailW t.val) (tailW t.val) (tailW (t.val - 1)) (tailW t.val) := Arith.chk1_inv_r7 L t
  have hin : ∀ x, (View.read (Elt F) (r7list (k0_off53 (tailW t.val)) (r7hb11 _)).view fcur x).toNat < 1001 := by
    intro x
    have e' : View.read (Elt F) (r7list (k0_off53 (tailW t.val)) (r7hb11 _)).view fcur x
        = ((tailIBlk (k0_off50 L (tailW t.val)) b8).view.reshape S128 tail_numel128).read (Elt F) (idxT m d) x := hgood x
    rw [e']
    have := tailI_le m d (k0_off50 L (tailW t.val)) b8 hx x
    omega
  iintro ⟨#Hmw, HIn, ⟨%fa, HSn⟩, Hsn, HFI, HT, ⟨%fb, HOS⟩, Hs7, HOB, Hso, ⟨%fbp, HFO⟩, Hw⟩
  sl_unfold [k0_t3_body]
  sl_exec
  have hret : ∀ (L : grid0.Coords) (t : Fin k0_t3_loop.trips), 1 ≤ t.val → t.val < 49 →
      (r7coreM.sl.v215_r7 L t, r7coreM.sl.v389_r7 L t, r7coreM.sl.v365_r7 L t, r7coreM.sl.v383_r7 L t, r7coreM.sl.v144_r7 t)
        = (tailW (t.val + 2), tailW (t.val + 1), tailW (t.val + 1), tailW t.val, tailW (t.val + 1)) := by
    decide +kernel
  sl_step
  isplitr
  · ipureintro; exact hret L t h1t ht
  isplitl [Hsn]
  · iexists (r7coreM.sl.HSn_w0 m d L t hc2 h1 fa)
    isplitr
    · ipureintro; exact r7good_write m d L _ _ _ _ fa
    · iexact Hsn
  isplitl [HFI_src]; · iexact HFI_src
  isplitl [HFI]; · iexact HFI
  isplitl [HFI_dst HFI_dst_win]
  · iapply (pointsTo_split_subset (r7list_subset (k0_off49 (tailW t.val)) b7)).2
    isplitl [HFI_dst_win]; · iexact HFI_dst_win
    iexact HFI_dst
  isplitl [HT]; · iexact HT
  isplitl [Hs7]; · iexact Hs7
  isplitl [Hso]
  · iexists _
    iapply (r7FO_fix d L _ _ _ _ ((tailOBlk (k0_off55 L (tailW t.val)) b13).view.writes (Elt F) (m (oLoc d)) [⟨Rect.whole S1x1x128x128, r7coreM.sl.dma0_1 m d L t fcur hc6 h3 h2 h1 hin fb⟩]) (outK m d) (k0_off52 (tailW t.val)) (k0_off54 (tailW t.val)) _ (r7hb12 _) _ (r7out_value m d L (k0_off52 (tailW t.val)) b10 (k0_off53 (tailW t.val)) (r7hb11 _) (k0_off50 L (tailW t.val)) b8 (k0_off55 L (tailW t.val)) b13 (by rw [Arith.off8_eq_r7 L t.val (by omega)]; rfl) (by rw [Arith.off8_eq_r7 L t.val (by omega), Arith.off13_eq_r7 L t.val (by omega)]; rfl) (by rw [Arith.off13_eq_r7 L t.val (by omega)]; rfl) (by rw [Arith.off8_eq_r7 L t.val (by omega), Arith.off13_eq_r7 L t.val (by omega)]; rfl) (by rw [Arith.off13_eq_r7 L t.val (by omega)]; rfl) fcur hgood hx fb (m (oLoc d)) _ hin) (show k0_off54 (tailW t.val) = k0_off52 (tailW t.val) from rfl)) $$ Hso
  isplitl [HFO_dst]; · iexact HFO_dst
  isplitl [HFO_src]; · iexists _; iexact HFO_src
  isplitl [HFO]; · iexact HFO
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

set_option maxHeartbeats 4000000 in
theorem r7core0 (t : Fin k0_t3_loop.trips) (ht0 : t.val = 0)
    (o4 : Fin 4 → ℕ) (e4 : k0_off46 (tailW (t.val + 1)) = o4) (b4 : ∀ a, o4 a + S1x1x1x128.size a ≤ S2x1x1x128.size a)
    (o5 : Fin 3 → ℕ) (e5 : k0_off47 L (tailW t.val) = o5) (b5 : ∀ a, o5 a + S1x1x128.size a ≤ S3x50x4096.size a)
    (o6 : Fin 1 → ℕ) (e6 : k0_off48 (tailW (t.val + 1)) = o6) (b6 : ∀ a, o6 a + S1.size a ≤ S2.size a)
    (o7 : Fin 4 → ℕ) (e7 : k0_off49 (tailW t.val) = o7) (b7 : ∀ a, o7 a + S1x1x1x128.size a ≤ S2x1x1x128.size a)
    (o8 : Fin 3 → ℕ) (e8 : k0_off50 L (tailW t.val) = o8) (b8 : ∀ a, o8 a + S1x1x128.size a ≤ S3x50x4096.size a)
    (o9 : Fin 1 → ℕ) (e9 : k0_off51 (tailW t.val) = o9) (b9 : ∀ a, o9 a + S1.size a ≤ S2.size a)
    (o10 : Fin 5 → ℕ) (e10 : k0_off52 (tailW t.val) = o10) (b10 : ∀ a, o10 a + S1x1x1x128x128.size a ≤ S2x1x1x128x128.size a)
    (o13 : Fin 4 → ℕ) (e13 : k0_off55 L (tailW t.val) = o13) (b13 : ∀ a, o13 a + S1x1x128x128.size a ≤ S50x3x4096x128.size a)
    (o14 : Fin 1 → ℕ) (e14 : k0_off56 (tailW t.val) = o14) (b14 : ∀ a, o14 a + S1.size a ≤ S2.size a)
    (qn qc qs : PosShare TreeShare)
    (fcur : Buf (Elt F) ((Memref.whole cc0_scoped13).view.loc (tailThr d L)))
    (hgood : r7good m d L o7 b7 o8 b8 fcur)
    (hx : Cert.Lookup.InRange (m (xLoc d) : IVec Cert.Lookup.SX 32)) :
    (iprop(Transfers.MayWaits (tailThr d L) (default : HIx 1) O
        ∗ ((tailIBlk o5 b5).view.loc (tailThr d L) ↦[(tailIBlk o5 b5).view.set]{qn} idxT m d)
        ∗ (∃ fa, r7ISlotPt d L o4 b4 fa)
        ∗ semVal (tailThr d L, SemLoc.dma (tailSem cc0_scoped14 o6 b6)) 0
        ∗ r7FI m d L o9 b9 o7 b7 o8 b8 qc fcur
        ∗ r7Tab m d L qs
        ∗ (∃ fb, r7OSlotPt d L o10 b10 fb)
        ∗ semVal (tailThr d L, SemLoc.dma cc0_scoped17.sem) 0
        ∗ ((tailOBlk o13 b13).view.loc (tailThr d L) ↦[(tailOBlk o13 b13).view.set]{fullShare} m (oLoc d))
        ∗ semVal (tailThr d L, SemLoc.dma (tailSem cc0_scoped16 o14 b14)) 0
        ∗ owes (tailThr d L) O W) : sProp 𝕄)
      ⊢ wp frame (wpE (defs₀ (F := F)) 𝒱₀ (tailThr d L) none) Set.univ
          (k0_t3_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r7v7 L) t (tailW (t.val + 1), tailW t.val, tailW t.val, tailW (t.val - 1), tailW t.val))
          fun acc => iprop(⌜acc = (tailW (t.val + 2), tailW (t.val + 1), tailW (t.val + 1), tailW t.val, tailW (t.val + 1))⌝
            ∗ (∃ fnew, ⌜r7good m d L o4 b4 o5 b5 fnew⌝ ∗ r7FI m d L o6 b6 o4 b4 o5 b5 qn fnew)
            ∗ ((tailIBlk o8 b8).view.loc (tailThr d L) ↦[(tailIBlk o8 b8).view.set]{qc} idxT m d)
            ∗ semVal (tailThr d L, SemLoc.dma (tailSem cc0_scoped14 o9 b9)) 0
            ∗ r7ISlotPt d L o7 b7 fcur
            ∗ r7Tab m d L qs
            ∗ semVal (tailThr d L, SemLoc.dma cc0_scoped17.sem) 0
            ∗ (∃ fg, r7FO d L o14 b14 o13 b13 (outK m d) o10 b10 fg)
            ∗ ∃ W', ⌜∀ p ∈ W', p ∈ W ∨ p.2 = none⌝ ∗ owes (tailThr d L) O W') := by
  subst e4 e5 e6 e7 e8 e9 e10 e13 e14
  have hc2 : k0_cond16 L t (tailW t.val) = 1#1 := by rw [Arith.cond2_eq_r7, if_pos (by omega)]
  have hc3 : k0_cond17 L t (tailW t.val) = 1#1 := Arith.cond3_eq_r7 L t
  have hc6 : k0_cond20 L t (tailW t.val) = 1#1 := Arith.cond6_eq_r7 L t
  have hc8 : ¬ k0_cond22 L t (tailW t.val) = 1#1 := by rw [Arith.cond8_eq_r7, if_neg (by omega)]; decide
  have h3 : k0_chk13 (tailW t.val) := Arith.chk3_all_r7 _
  have h2 : k0_chk12 (tailW t.val) := Arith.chk2_all_r7 _
  have h1 : k0_chk11 L t (tailW (t.val + 1)) (tailW t.val) (tailW t.val) (tailW (t.val - 1)) (tailW t.val) := Arith.chk1_inv_r7 L t
  have hin : ∀ x, (View.read (Elt F) (r7list (k0_off53 (tailW t.val)) (r7hb11 _)).view fcur x).toNat < 1001 := by
    intro x
    have e' : View.read (Elt F) (r7list (k0_off53 (tailW t.val)) (r7hb11 _)).view fcur x
        = ((tailIBlk (k0_off50 L (tailW t.val)) b8).view.reshape S128 tail_numel128).read (Elt F) (idxT m d) x := hgood x
    rw [e']
    have := tailI_le m d (k0_off50 L (tailW t.val)) b8 hx x
    omega
  iintro ⟨#Hmw, HIn, ⟨%fa, HSn⟩, Hsn, HFI, HT, ⟨%fb, HOS⟩, Hs7, HOB, Hso, Hw⟩
  sl_unfold [k0_t3_body]
  sl_exec
  have hret : ∀ (L : grid0.Coords) (t : Fin k0_t3_loop.trips), t.val = 0 →
      (r7core0.sl.v215_r7 L t, r7core0.sl.v389_r7 L t, r7core0.sl.v365_r7 L t, r7core0.sl.v383_r7 L t, r7core0.sl.v144_r7 t)
        = (tailW (t.val + 2), tailW (t.val + 1), tailW (t.val + 1), tailW t.val, tailW (t.val + 1)) := by
    decide +kernel
  sl_step
  isplitr
  · ipureintro; exact hret L t ht0
  isplitl [Hsn]
  · iexists (r7core0.sl.HSn_w0 m d L t hc2 h1 fa)
    isplitr
    · ipureintro; exact r7good_write m d L _ _ _ _ fa
    · iexact Hsn
  isplitl [HFI_src]; · iexact HFI_src
  isplitl [HFI]; · iexact HFI
  isplitl [HFI_dst HFI_dst_win]
  · iapply (pointsTo_split_subset (r7list_subset (k0_off49 (tailW t.val)) b7)).2
    isplitl [HFI_dst_win]; · iexact HFI_dst_win
    iexact HFI_dst
  isplitl [HT]; · iexact HT
  isplitl [Hs7]; · iexact Hs7
  isplitl [Hso]
  · iexists _
    iapply (r7FO_fix d L _ _ _ _ ((tailOBlk (k0_off55 L (tailW t.val)) b13).view.writes (Elt F) (m (oLoc d)) [⟨Rect.whole S1x1x128x128, r7core0.sl.dma0_1 m d L t fcur hc6 h3 h2 h1 hin fb⟩]) (outK m d) (k0_off52 (tailW t.val)) (k0_off54 (tailW t.val)) _ (r7hb12 _) _ (r7out_value m d L (k0_off52 (tailW t.val)) b10 (k0_off53 (tailW t.val)) (r7hb11 _) (k0_off50 L (tailW t.val)) b8 (k0_off55 L (tailW t.val)) b13 (by rw [Arith.off8_eq_r7 L t.val (by omega)]; rfl) (by rw [Arith.off8_eq_r7 L t.val (by omega), Arith.off13_eq_r7 L t.val (by omega)]; rfl) (by rw [Arith.off13_eq_r7 L t.val (by omega)]; rfl) (by rw [Arith.off8_eq_r7 L t.val (by omega), Arith.off13_eq_r7 L t.val (by omega)]; rfl) (by rw [Arith.off13_eq_r7 L t.val (by omega)]; rfl) fcur hgood hx fb (m (oLoc d)) _ hin) (show k0_off54 (tailW t.val) = k0_off52 (tailW t.val) from rfl)) $$ Hso
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    · exact .inl hp

set_option maxHeartbeats 4000000 in
theorem r7coreE (t : Fin k0_t3_loop.trips) (ht49 : t.val = 49)
    (o7 : Fin 4 → ℕ) (e7 : k0_off49 (tailW t.val) = o7) (b7 : ∀ a, o7 a + S1x1x1x128.size a ≤ S2x1x1x128.size a)
    (o8 : Fin 3 → ℕ) (e8 : k0_off50 L (tailW t.val) = o8) (b8 : ∀ a, o8 a + S1x1x128.size a ≤ S3x50x4096.size a)
    (o9 : Fin 1 → ℕ) (e9 : k0_off51 (tailW t.val) = o9) (b9 : ∀ a, o9 a + S1.size a ≤ S2.size a)
    (o10 : Fin 5 → ℕ) (e10 : k0_off52 (tailW t.val) = o10) (b10 : ∀ a, o10 a + S1x1x1x128x128.size a ≤ S2x1x1x128x128.size a)
    (o13 : Fin 4 → ℕ) (e13 : k0_off55 L (tailW t.val) = o13) (b13 : ∀ a, o13 a + S1x1x128x128.size a ≤ S50x3x4096x128.size a)
    (o14 : Fin 1 → ℕ) (e14 : k0_off56 (tailW t.val) = o14) (b14 : ∀ a, o14 a + S1.size a ≤ S2.size a)
    (o15 : Fin 5 → ℕ) (e15 : k0_off57 (tailW (t.val - 1)) = o15) (b15 : ∀ a, o15 a + S1x1x1x128x128.size a ≤ S2x1x1x128x128.size a)
    (o16 : Fin 4 → ℕ) (e16 : k0_off58 L (tailW t.val) = o16) (b16 : ∀ a, o16 a + S1x1x128x128.size a ≤ S50x3x4096x128.size a)
    (o17 : Fin 1 → ℕ) (e17 : k0_off59 (tailW (t.val - 1)) = o17) (b17 : ∀ a, o17 a + S1.size a ≤ S2.size a)
    (qn qc qs : PosShare TreeShare)
    (fcur : Buf (Elt F) ((Memref.whole cc0_scoped13).view.loc (tailThr d L)))
    (hgood : r7good m d L o7 b7 o8 b8 fcur)
    (hx : Cert.Lookup.InRange (m (xLoc d) : IVec Cert.Lookup.SX 32)) :
    (iprop(Transfers.MayWaits (tailThr d L) (default : HIx 1) O
        ∗ r7FI m d L o9 b9 o7 b7 o8 b8 qc fcur
        ∗ r7Tab m d L qs
        ∗ (∃ fb, r7OSlotPt d L o10 b10 fb)
        ∗ semVal (tailThr d L, SemLoc.dma cc0_scoped17.sem) 0
        ∗ ((tailOBlk o13 b13).view.loc (tailThr d L) ↦[(tailOBlk o13 b13).view.set]{fullShare} m (oLoc d))
        ∗ semVal (tailThr d L, SemLoc.dma (tailSem cc0_scoped16 o14 b14)) 0
        ∗ (∃ fbp, r7FO d L o17 b17 o16 b16 (outK m d) o15 b15 fbp)
        ∗ owes (tailThr d L) O W) : sProp 𝕄)
      ⊢ wp frame (wpE (defs₀ (F := F)) 𝒱₀ (tailThr d L) none) Set.univ
          (k0_t3_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r7v7 L) t (tailW (t.val + 1), tailW t.val, tailW t.val, tailW (t.val - 1), tailW t.val))
          fun acc => iprop(⌜acc = (tailW (t.val + 1), tailW (t.val + 1), tailW (t.val + 1), tailW t.val, tailW 0)⌝
            ∗ ((tailIBlk o8 b8).view.loc (tailThr d L) ↦[(tailIBlk o8 b8).view.set]{qc} idxT m d)
            ∗ semVal (tailThr d L, SemLoc.dma (tailSem cc0_scoped14 o9 b9)) 0
            ∗ r7ISlotPt d L o7 b7 fcur
            ∗ r7Tab m d L qs
            ∗ semVal (tailThr d L, SemLoc.dma cc0_scoped17.sem) 0
            ∗ (∃ fg, r7FO d L o14 b14 o13 b13 (outK m d) o10 b10 fg)
            ∗ ((tailOBlk o16 b16).view.loc (tailThr d L) ↦[(tailOBlk o16 b16).view.set]{fullShare} outK m d)
            ∗ (∃ f, r7OSlotPt d L o15 b15 f)
            ∗ semVal (tailThr d L, SemLoc.dma (tailSem cc0_scoped16 o17 b17)) 0
            ∗ ∃ W', ⌜∀ p ∈ W', p ∈ W ∨ p.2 = none⌝ ∗ owes (tailThr d L) O W') := by
  subst e7 e8 e9 e10 e13 e14 e15 e16 e17
  have hc2 : ¬ k0_cond16 L t (tailW t.val) = 1#1 := by rw [Arith.cond2_eq_r7, if_neg (by omega)]; decide
  have hc3 : k0_cond17 L t (tailW t.val) = 1#1 := Arith.cond3_eq_r7 L t
  have hc6 : k0_cond20 L t (tailW t.val) = 1#1 := Arith.cond6_eq_r7 L t
  have hc8 : k0_cond22 L t (tailW t.val) = 1#1 := by rw [Arith.cond8_eq_r7, if_pos (by omega)]
  have h3 : k0_chk13 (tailW t.val) := Arith.chk3_all_r7 _
  have h2 : k0_chk12 (tailW t.val) := Arith.chk2_all_r7 _
  have h1 : k0_chk11 L t (tailW (t.val + 1)) (tailW t.val) (tailW t.val) (tailW (t.val - 1)) (tailW t.val) := Arith.chk1_inv_r7 L t
  have hin : ∀ x, (View.read (Elt F) (r7list (k0_off53 (tailW t.val)) (r7hb11 _)).view fcur x).toNat < 1001 := by
    intro x
    have e' : View.read (Elt F) (r7list (k0_off53 (tailW t.val)) (r7hb11 _)).view fcur x
        = ((tailIBlk (k0_off50 L (tailW t.val)) b8).view.reshape S128 tail_numel128).read (Elt F) (idxT m d) x := hgood x
    rw [e']
    have := tailI_le m d (k0_off50 L (tailW t.val)) b8 hx x
    omega
  iintro ⟨#Hmw, HFI, HT, ⟨%fb, HOS⟩, Hs7, HOB, Hso, ⟨%fbp, HFO⟩, Hw⟩
  sl_unfold [k0_t3_body]
  sl_exec
  have hret : ∀ (L : grid0.Coords) (t : Fin k0_t3_loop.trips), t.val = 49 →
      (r7coreE.sl.v215_r7 L t, r7coreE.sl.v389_r7 L t, r7coreE.sl.v365_r7 L t, r7coreE.sl.v383_r7 L t, r7coreE.sl.v144_r7 t)
        = (tailW (t.val + 1), tailW (t.val + 1), tailW (t.val + 1), tailW t.val, tailW 0) := by
    decide +kernel
  sl_step
  isplitr
  · ipureintro; exact hret L t ht49
  isplitl [HFI_src]; · iexact HFI_src
  isplitl [HFI]; · iexact HFI
  isplitl [HFI_dst HFI_dst_win]
  · iapply (pointsTo_split_subset (r7list_subset (k0_off49 (tailW t.val)) b7)).2
    isplitl [HFI_dst_win]; · iexact HFI_dst_win
    iexact HFI_dst
  isplitl [HT]; · iexact HT
  isplitl [Hs7]; · iexact Hs7
  isplitl [Hso]
  · iexists _
    iapply (r7FO_fix d L _ _ _ _ ((tailOBlk (k0_off55 L (tailW t.val)) b13).view.writes (Elt F) (m (oLoc d)) [⟨Rect.whole S1x1x128x128, r7coreE.sl.dma0 m d L t fcur hc6 h3 h2 h1 hin fb⟩]) (outK m d) (k0_off52 (tailW t.val)) (k0_off54 (tailW t.val)) _ (r7hb12 _) _ (r7out_value m d L (k0_off52 (tailW t.val)) b10 (k0_off53 (tailW t.val)) (r7hb11 _) (k0_off50 L (tailW t.val)) b8 (k0_off55 L (tailW t.val)) b13 (by rw [Arith.off8_eq_r7 L t.val (by omega)]; rfl) (by rw [Arith.off8_eq_r7 L t.val (by omega), Arith.off13_eq_r7 L t.val (by omega)]; rfl) (by rw [Arith.off13_eq_r7 L t.val (by omega)]; rfl) (by rw [Arith.off8_eq_r7 L t.val (by omega), Arith.off13_eq_r7 L t.val (by omega)]; rfl) (by rw [Arith.off13_eq_r7 L t.val (by omega)]; rfl) fcur hgood hx fb (m (oLoc d)) _ hin) (show k0_off54 (tailW t.val) = k0_off52 (tailW t.val) from rfl)) $$ Hso
  isplitl [HFO_dst]; · iexact HFO_dst
  isplitl [HFO_src]; · iexists _; iexact HFO_src
  isplitl [HFO]; · iexact HFO
  iexists _; isplitr
  rotate_left
  · iexact Hw
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Cert.Proof.KI

end
-- ==== Proof.KITailR7T.lean ====
/-
  The loop of the third lookup: each trip takes the invariant at t to the invariant at t + 1.  The trip's pieces are
  taken out of the invariant's families (the read token of trip t + 1, the output block of trip t), the trip is run, and
  what it leaves is put back (trip t's token whole again, block t - 1 among the blocks done).
-/
import proofs.«206595_g34437047779621_cont_8to1_b_428_16_alg».proof.Proof.KITailR7C

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

variable (O : CellTallies nD τ sig (HIx 1)) (W : Waits sig (HIx 1)) (qi qs : PosShare TreeShare)

omit [FloatOps F] in
/-- One piece out of a family of fifty. -/
theorem r7_take (a : Fin 50) (Φ : Fin 50 → sProp 𝕄) :
    bigSep Finset.univ Φ = iprop(Φ a ∗ bigSep (Finset.univ.filter fun u : Fin 50 => u.val ≠ a.val) Φ) := by
  have h := tail_bigSep_step (fun u : Fin 50 => u.val ≠ a.val) (fun _ : Fin 50 => True) a (fun h => h rfl)
    (fun u => ⟨fun _ => by by_cases h : u = a; exact .inr h; exact .inl (fun e => h (Fin.ext e)), fun _ => trivial⟩) Φ
  rwa [Finset.filter_true_of_mem (fun _ _ => trivial)] at h

set_option maxHeartbeats 1000000 in
theorem r7tripM (t : Fin k0_t3_loop.trips) (h1t : 1 ≤ t.val) (ht : t.val < 49)
    (hx : Cert.Lookup.InRange (m (xLoc d) : IVec Cert.Lookup.SX 32))
    (acc : BitVec 32 × BitVec 32 × BitVec 32 × BitVec 32 × BitVec 32) :
    r7inv m d L O W qi qs t.val acc
      ⊢ wp frame (wpE (defs₀ (F := F)) 𝒱₀ (tailThr d L) none) Set.univ
          (k0_t3_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r7v7 L) t acc)
          (r7inv m d L O W qi qs (t.val + 1)) := by
  have ht50 : t.val < 50 := by omega
  have e5 : k0_off47 L (tailW t.val) = r7bi L (tailFin (t.val + 1)) := by
    show _ = Arith.blkIn 2 L (tailFin (t.val + 1)).val
    rw [tailFin_val (by omega)]; exact Arith.off5_eq_r7 L t.val (by omega)
  have e8 : k0_off50 L (tailW t.val) = r7bi L (tailFin t.val) := by
    show _ = Arith.blkIn 2 L (tailFin t.val).val
    rw [tailFin_val (by omega)]; exact Arith.off8_eq_r7 L t.val (by omega)
  have e13 : k0_off55 L (tailW t.val) = r7bo L (tailFin t.val) := by
    show _ = outOff 2 (stp (L 0).val (L 1).val (tailFin t.val).val)
    rw [tailFin_val (by omega)]; exact Arith.off13_eq_r7 L t.val (by omega)
  have e16 : k0_off58 L (tailW t.val) = r7bo L (tailFin (t.val - 1)) := by
    show _ = outOff 2 (stp (L 0).val (L 1).val (tailFin (t.val - 1)).val)
    rw [tailFin_val (by omega)]; exact Arith.off16_eq_r7 L t.val (by omega) (by omega)
  unfold r7inv r7out
  simp only [Nat.add_sub_cancel]
  rw [if_pos (show t.val < 50 by omega), if_pos (show t.val + 1 < 50 by omega), if_neg (show ¬ t.val = 0 by omega),
    if_neg (show ¬ t.val + 1 = 0 by omega)]
  unfold r7idxMid
  iintro ⟨%hacc, #Hmw, HT, Hs7, ⟨⟨%fcur, %hgood, HFI⟩, Hrest, ⟨%fa, HSn⟩, Hsn, Htoks⟩, ⟨⟨%fbp, HFO⟩, ⟨%fb, HOS⟩, Hso, Hdone, Htodo⟩, ⟨%W', %hW', Hw⟩⟩
  subst hacc
  -- the read token of trip t + 1, its block apart from its rest
  ihave Htoks' := (Entails.of_eq (tail_bigSep_step (fun u : Fin 50 => u.val ≠ t.val ∧ u.val ≠ t.val + 1) (fun u : Fin 50 => u.val ≠ t.val) (tailFin (t.val + 1))
    (by rw [tailFin_val (by omega)]; omega) (fun u => by rw [Fin.ext_iff, tailFin_val (by omega)]; omega) (tailTokPt m d qi))) $$ Htoks
  icases Htoks' with ⟨Htok1, Htoks⟩
  ihave Hsp := (pointsTo_split_subset (Finset.subset_univ (tailIBlk (r7bi L (tailFin (t.val + 1))) (r7bi_inb L _)).view.set)).1 $$ Htok1
  icases Hsp with ⟨HIn, Hrest1⟩
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 2 u (m (oLoc d))))) $$ Htodo
  icases Htodo' with ⟨HOB, Htodo⟩
  iapply (wp_wand_r Idealize.ShloMosaic.frame (wpE (defs₀ (F := F)) 𝒱₀ (tailThr d L) none) Set.univ)
  isplitl [HIn HSn Hsn HFI HT HOS Hs7 HOB Hso HFO Hw]
  · have hcar : r7car t.val = (tailW (t.val + 1), tailW t.val, tailW t.val, tailW (t.val - 1), tailW t.val) := by
      unfold r7car; rw [Nat.min_eq_left (by omega), Nat.mod_eq_of_lt (by omega)]
    rw [hcar]
    iapply (r7coreM m d L O W' t h1t ht
      (k0_off49 (tailW (t.val + 1))) rfl (r7hb7 _) (r7bi L (tailFin (t.val + 1))) e5 (r7bi_inb L _) (k0_off51 (tailW (t.val + 1))) rfl (r7hb9 _)
      (k0_off49 (tailW t.val)) rfl (r7hb7 _) (r7bi L (tailFin t.val)) e8 (r7bi_inb L _) (k0_off51 (tailW t.val)) rfl (r7hb9 _)
      (k0_off57 (tailW t.val)) rfl (r7hb15 _) (r7bo L (tailFin t.val)) e13 (r7bo_inb L _) (k0_off59 (tailW t.val)) rfl (r7hb17 _)
      (k0_off57 (tailW (t.val - 1))) rfl (r7hb15 _) (r7bo L (tailFin (t.val - 1))) e16 (r7bo_inb L _) (k0_off59 (tailW (t.val - 1))) rfl (r7hb17 _)
      (shareTok qi 50 (tailFin (t.val + 1))) (shareTok qi 50 (tailFin t.val)) qs fcur hgood hx)
    isplitr; · iexact Hmw
    isplitl [HIn]; · iexact HIn
    isplitl [HSn]; · iexists fa; iexact HSn
    isplitl [Hsn]; · iexact Hsn
    isplitl [HFI]; · iexact HFI
    isplitl [HT]; · iexact HT
    isplitl [HOS]; · iexists fb; iexact HOS
    isplitl [Hs7]; · iexact Hs7
    isplitl [HOB]; · iexact HOB
    isplitl [Hso]; · iexact Hso
    isplitl [HFO]; · iexists fbp; iexact HFO
    iexact Hw
  iintro %acc' ⟨%hacc', ⟨%fnew, %hgood', HFI'⟩, HI8, Hs9, HS7, HT, Hs7, ⟨%fg, HFO'⟩, HO16, ⟨%fo15, HS15⟩, Hs17, ⟨%W'', %hW'', Hw⟩⟩
  have hp4 : k0_off49 (tailW t.val) = k0_off46 (tailW (t.val + 1 + 1)) := r7par4 (by omega) (by omega) (by omega)
  have hp1 : k0_off51 (tailW t.val) = k0_off48 (tailW (t.val + 1 + 1)) := r7par1I (by omega) (by omega) (by omega)
  have hp5 : k0_off57 (tailW (t.val - 1)) = k0_off52 (tailW (t.val + 1)) := r7par5 (by omega) (by omega) (by omega)
  have hp1O : k0_off59 (tailW (t.val - 1)) = k0_off56 (tailW (t.val + 1)) := r7par1O (by omega) (by omega) (by omega)
  have e1 : min (t.val + 1 + 1) 50 = t.val + 2 := by omega
  have e2 : (t.val + 1) % 50 = t.val + 1 := by omega
  isplitr
  · ipureintro; rw [hacc']; unfold r7car; rw [e1, e2, Nat.add_sub_cancel]
  isplitr; · iexact Hmw
  isplitl [HT]; · iexact HT
  isplitl [Hs7]; · iexact Hs7
  isplitl [HFI' Hrest1 HS7 Hs9 HI8 Hrest Htoks]
  · isplitl [HFI']
    · iexists fnew; isplitr
      · ipureintro; exact hgood'
      · iexact HFI'
    isplitl [Hrest1]; · iexact Hrest1
    isplitl [HS7]
    · iexists fcur; iapply (Entails.of_eq (r7ISlotPt_congr d L hp4 (r7hb7 _) (r7hb4 _) fcur)); iexact HS7
    isplitl [Hs9]
    · iapply (Entails.of_eq (tailCell_congr d L cc0_scoped14 hp1 (r7hb9 _) (r7hb6 _))); iexact Hs9
    -- trip t's token whole again, back among the others
    iapply (Entails.of_eq (tail_bigSep_step (fun u : Fin 50 => u.val ≠ t.val ∧ u.val ≠ t.val + 1) (fun u : Fin 50 => u.val ≠ t.val + 1) (tailFin t.val)
      (by rw [tailFin_val (by omega)]; omega) (fun u => by rw [Fin.ext_iff, tailFin_val (by omega)]; omega) (tailTokPt m d qi)).symm)
    isplitl [HI8 Hrest]
    · iapply (pointsTo_split_subset (Finset.subset_univ (tailIBlk (r7bi L (tailFin t.val)) (r7bi_inb L _)).view.set)).2
      isplitl [HI8]; · iexact HI8
      iexact Hrest
    iexact Htoks
  isplitl [HFO' HS15 Hs17 HO16 Hdone Htodo]
  · isplitl [HFO']; · iexists fg; iexact HFO'
    isplitl [HS15]
    · iexists fo15; iapply (Entails.of_eq (r7OSlotPt_congr d L hp5 (r7hb15 _) (r7hb10 _) fo15)); iexact HS15
    isplitl [Hs17]
    · iapply (Entails.of_eq (tailCell_congr d L cc0_scoped16 hp1O (r7hb17 _) (r7hb14 _))); iexact Hs17
    isplitl [HO16 Hdone]
    · iapply (Entails.of_eq (tail_bigSep_step (fun u : Fin 50 => u.val + 1 < t.val) (fun u : Fin 50 => u.val + 1 < t.val + 1) (tailFin (t.val - 1))
        (by rw [tailFin_val (by omega)]; omega) (fun u => by rw [Fin.ext_iff, tailFin_val (by omega)]; omega) (fun u => tailOPt d L 2 u (outK m d))).symm)
      isplitl [HO16]; · iexact HO16
      iexact Hdone
    iexact Htodo
  iexists W''; isplitr
  · ipureintro; intro p hp
    rcases hW'' p hp with h | h
    · exact hW' p h
    · exact .inr h
  · iexact Hw

set_option maxHeartbeats 1000000 in
theorem r7trip0 (t : Fin k0_t3_loop.trips) (ht0 : t.val = 0)
    (hx : Cert.Lookup.InRange (m (xLoc d) : IVec Cert.Lookup.SX 32))
    (acc : BitVec 32 × BitVec 32 × BitVec 32 × BitVec 32 × BitVec 32) :
    r7inv m d L O W qi qs t.val acc
      ⊢ wp frame (wpE (defs₀ (F := F)) 𝒱₀ (tailThr d L) none) Set.univ
          (k0_t3_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r7v7 L) t acc)
          (r7inv m d L O W qi qs (t.val + 1)) := by
  have ht50 : t.val < 50 := by omega
  have e5 : k0_off47 L (tailW t.val) = r7bi L (tailFin (t.val + 1)) := by
    show _ = Arith.blkIn 2 L (tailFin (t.val + 1)).val
    rw [tailFin_val (by omega)]; exact Arith.off5_eq_r7 L t.val (by omega)
  have e8 : k0_off50 L (tailW t.val) = r7bi L (tailFin t.val) := by
    show _ = Arith.blkIn 2 L (tailFin t.val).val
    rw [tailFin_val (by omega)]; exact Arith.off8_eq_r7 L t.val (by omega)
  have e13 : k0_off55 L (tailW t.val) = r7bo L (tailFin t.val) := by
    show _ = outOff 2 (stp (L 0).val (L 1).val (tailFin t.val).val)
    rw [tailFin_val (by omega)]; exact Arith.off13_eq_r7 L t.val (by omega)
  unfold r7inv r7out
  simp only [Nat.add_sub_cancel]
  rw [if_pos (show t.val < 50 by omega), if_pos (show t.val + 1 < 50 by omega), if_pos ht0,
    if_neg (show ¬ t.val + 1 = 0 by omega)]
  unfold r7idxMid
  iintro ⟨%hacc, #Hmw, HT, Hs7, ⟨⟨%fcur, %hgood, HFI⟩, Hrest, ⟨%fa, HSn⟩, Hsn, Htoks⟩, ⟨⟨⟨%fo1, HS1⟩, Hs1⟩, ⟨%fb, HOS⟩, Hso, Hdone, Htodo⟩, ⟨%W', %hW', Hw⟩⟩
  subst hacc
  -- the read token of trip t + 1, its block apart from its rest
  ihave Htoks' := (Entails.of_eq (tail_bigSep_step (fun u : Fin 50 => u.val ≠ t.val ∧ u.val ≠ t.val + 1) (fun u : Fin 50 => u.val ≠ t.val) (tailFin (t.val + 1))
    (by rw [tailFin_val (by omega)]; omega) (fun u => by rw [Fin.ext_iff, tailFin_val (by omega)]; omega) (tailTokPt m d qi))) $$ Htoks
  icases Htoks' with ⟨Htok1, Htoks⟩
  ihave Hsp := (pointsTo_split_subset (Finset.subset_univ (tailIBlk (r7bi L (tailFin (t.val + 1))) (r7bi_inb L _)).view.set)).1 $$ Htok1
  icases Hsp with ⟨HIn, Hrest1⟩
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 2 u (m (oLoc d))))) $$ Htodo
  icases Htodo' with ⟨HOB, Htodo⟩
  iapply (wp_wand_r Idealize.ShloMosaic.frame (wpE (defs₀ (F := F)) 𝒱₀ (tailThr d L) none) Set.univ)
  isplitl [HIn HSn Hsn HFI HT HOS Hs7 HOB Hso Hw]
  · have hcar : r7car t.val = (tailW (t.val + 1), tailW t.val, tailW t.val, tailW (t.val - 1), tailW t.val) := by
      unfold r7car; rw [Nat.min_eq_left (by omega), Nat.mod_eq_of_lt (by omega)]
    rw [hcar]
    iapply (r7core0 m d L O W' t ht0
      (k0_off49 (tailW (t.val + 1))) rfl (r7hb7 _) (r7bi L (tailFin (t.val + 1))) e5 (r7bi_inb L _) (k0_off51 (tailW (t.val + 1))) rfl (r7hb9 _)
      (k0_off49 (tailW t.val)) rfl (r7hb7 _) (r7bi L (tailFin t.val)) e8 (r7bi_inb L _) (k0_off51 (tailW t.val)) rfl (r7hb9 _)
      (k0_off57 (tailW t.val)) rfl (r7hb15 _) (r7bo L (tailFin t.val)) e13 (r7bo_inb L _) (k0_off59 (tailW t.val)) rfl (r7hb17 _)
      (shareTok qi 50 (tailFin (t.val + 1))) (shareTok qi 50 (tailFin t.val)) qs fcur hgood hx)
    isplitr; · iexact Hmw
    isplitl [HIn]; · iexact HIn
    isplitl [HSn]; · iexists fa; iexact HSn
    isplitl [Hsn]; · iexact Hsn
    isplitl [HFI]; · iexact HFI
    isplitl [HT]; · iexact HT
    isplitl [HOS]; · iexists fb; iexact HOS
    isplitl [Hs7]; · iexact Hs7
    isplitl [HOB]; · iexact HOB
    isplitl [Hso]; · iexact Hso
    iexact Hw
  iintro %acc' ⟨%hacc', ⟨%fnew, %hgood', HFI'⟩, HI8, Hs9, HS7, HT, Hs7, ⟨%fg, HFO'⟩, ⟨%W'', %hW'', Hw⟩⟩
  have hp4 : k0_off49 (tailW t.val) = k0_off46 (tailW (t.val + 1 + 1)) := r7par4 (by omega) (by omega) (by omega)
  have hp1 : k0_off51 (tailW t.val) = k0_off48 (tailW (t.val + 1 + 1)) := r7par1I (by omega) (by omega) (by omega)
  have e1 : min (t.val + 1 + 1) 50 = t.val + 2 := by omega
  have e2 : (t.val + 1) % 50 = t.val + 1 := by omega
  isplitr
  · ipureintro; rw [hacc']; unfold r7car; rw [e1, e2, Nat.add_sub_cancel]
  isplitr; · iexact Hmw
  isplitl [HT]; · iexact HT
  isplitl [Hs7]; · iexact Hs7
  isplitl [HFI' Hrest1 HS7 Hs9 HI8 Hrest Htoks]
  · isplitl [HFI']
    · iexists fnew; isplitr
      · ipureintro; exact hgood'
      · iexact HFI'
    isplitl [Hrest1]; · iexact Hrest1
    isplitl [HS7]
    · iexists fcur; iapply (Entails.of_eq (r7ISlotPt_congr d L hp4 (r7hb7 _) (r7hb4 _) fcur)); iexact HS7
    isplitl [Hs9]
    · iapply (Entails.of_eq (tailCell_congr d L cc0_scoped14 hp1 (r7hb9 _) (r7hb6 _))); iexact Hs9
    -- trip t's token whole again, back among the others
    iapply (Entails.of_eq (tail_bigSep_step (fun u : Fin 50 => u.val ≠ t.val ∧ u.val ≠ t.val + 1) (fun u : Fin 50 => u.val ≠ t.val + 1) (tailFin t.val)
      (by rw [tailFin_val (by omega)]; omega) (fun u => by rw [Fin.ext_iff, tailFin_val (by omega)]; omega) (tailTokPt m d qi)).symm)
    isplitl [HI8 Hrest]
    · iapply (pointsTo_split_subset (Finset.subset_univ (tailIBlk (r7bi L (tailFin t.val)) (r7bi_inb L _)).view.set)).2
      isplitl [HI8]; · iexact HI8
      iexact Hrest
    iexact Htoks
  isplitl [HFO' HS1 Hs1 Hdone Htodo]
  · isplitl [HFO']; · iexists fg; iexact HFO'
    isplitl [HS1]; · iexists fo1; iexact HS1
    isplitl [Hs1]; · iexact Hs1
    isplitl [Hdone]
    · rw [show (Finset.univ.filter fun u : Fin 50 => u.val + 1 < t.val + 1) = (Finset.univ.filter fun u : Fin 50 => u.val + 1 < t.val) from
        Finset.filter_congr (fun u _ => by omega)]
      iexact Hdone
    iexact Htodo
  iexists W''; isplitr
  · ipureintro; intro p hp
    rcases hW'' p hp with h | h
    · exact hW' p h
    · exact .inr h
  · iexact Hw

set_option maxHeartbeats 1000000 in
theorem r7tripE (t : Fin k0_t3_loop.trips) (ht49 : t.val = 49)
    (hx : Cert.Lookup.InRange (m (xLoc d) : IVec Cert.Lookup.SX 32))
    (acc : BitVec 32 × BitVec 32 × BitVec 32 × BitVec 32 × BitVec 32) :
    r7inv m d L O W qi qs t.val acc
      ⊢ wp frame (wpE (defs₀ (F := F)) 𝒱₀ (tailThr d L) none) Set.univ
          (k0_t3_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r7v7 L) t acc)
          (r7inv m d L O W qi qs (t.val + 1)) := by
  have ht50 : t.val < 50 := by omega
  have e8 : k0_off50 L (tailW t.val) = r7bi L (tailFin t.val) := by
    show _ = Arith.blkIn 2 L (tailFin t.val).val
    rw [tailFin_val (by omega)]; exact Arith.off8_eq_r7 L t.val (by omega)
  have e13 : k0_off55 L (tailW t.val) = r7bo L (tailFin t.val) := by
    show _ = outOff 2 (stp (L 0).val (L 1).val (tailFin t.val).val)
    rw [tailFin_val (by omega)]; exact Arith.off13_eq_r7 L t.val (by omega)
  have e16 : k0_off58 L (tailW t.val) = r7bo L (tailFin (t.val - 1)) := by
    show _ = outOff 2 (stp (L 0).val (L 1).val (tailFin (t.val - 1)).val)
    rw [tailFin_val (by omega)]; exact Arith.off16_eq_r7 L t.val (by omega) (by omega)
  unfold r7inv r7out
  simp only [Nat.add_sub_cancel]
  rw [if_pos (show t.val < 50 by omega), if_neg (show ¬ t.val + 1 < 50 by omega), if_neg (show ¬ t.val = 0 by omega),
    if_neg (show ¬ t.val + 1 = 0 by omega)]
  unfold r7idxMid r7idxEnd
  simp only [Nat.add_sub_cancel]
  iintro ⟨%hacc, #Hmw, HT, Hs7, ⟨⟨%fcur, %hgood, HFI⟩, Hrest, ⟨%fa, HSn⟩, Hsn, Htoks⟩, ⟨⟨%fbp, HFO⟩, ⟨%fb, HOS⟩, Hso, Hdone, Htodo⟩, ⟨%W', %hW', Hw⟩⟩
  subst hacc
  -- the block of trip t still to write
  ihave Htodo' := (Entails.of_eq (tail_bigSep_step (fun u : Fin 50 => t.val + 1 ≤ u.val) (fun u : Fin 50 => t.val ≤ u.val) (tailFin t.val)
    (by rw [tailFin_val (by omega)]; omega) (fun u => by rw [Fin.ext_iff, tailFin_val (by omega)]; omega) (fun u => tailOPt d L 2 u (m (oLoc d))))) $$ Htodo
  icases Htodo' with ⟨HOB, Htodo⟩
  iapply (wp_wand_r Idealize.ShloMosaic.frame (wpE (defs₀ (F := F)) 𝒱₀ (tailThr d L) none) Set.univ)
  isplitl [HFI HT HOS Hs7 HOB Hso HFO Hw]
  · have hcar : r7car t.val = (tailW (t.val + 1), tailW t.val, tailW t.val, tailW (t.val - 1), tailW t.val) := by
      unfold r7car; rw [Nat.min_eq_left (by omega), Nat.mod_eq_of_lt (by omega)]
    rw [hcar]
    iapply (r7coreE m d L O W' t ht49
      (k0_off49 (tailW t.val)) rfl (r7hb7 _) (r7bi L (tailFin t.val)) e8 (r7bi_inb L _) (k0_off51 (tailW t.val)) rfl (r7hb9 _)
      (k0_off57 (tailW t.val)) rfl (r7hb15 _) (r7bo L (tailFin t.val)) e13 (r7bo_inb L _) (k0_off59 (tailW t.val)) rfl (r7hb17 _)
      (k0_off57 (tailW (t.val - 1))) rfl (r7hb15 _) (r7bo L (tailFin (t.val - 1))) e16 (r7bo_inb L _) (k0_off59 (tailW (t.val - 1))) rfl (r7hb17 _)
      (shareTok qi 50 (tailFin (t.val + 1))) (shareTok qi 50 (tailFin t.val)) qs fcur hgood hx)
    isplitr; · iexact Hmw
    isplitl [HFI]; · iexact HFI
    isplitl [HT]; · iexact HT
    isplitl [HOS]; · iexists fb; iexact HOS
    isplitl [Hs7]; · iexact Hs7
    isplitl [HOB]; · iexact HOB
    isplitl [Hso]; · iexact Hso
    isplitl [HFO]; · iexists fbp; iexact HFO
    iexact Hw
  iintro %acc' ⟨%hacc', HI8, Hs9, HS7, HT, Hs7, ⟨%fg, HFO'⟩, HO16, ⟨%fo15, HS15⟩, Hs17, ⟨%W'', %hW'', Hw⟩⟩
  have hp5 : k0_off57 (tailW (t.val - 1)) = k0_off52 (tailW (t.val + 1)) := r7par5 (by omega) (by omega) (by omega)
  have hp1O : k0_off59 (tailW (t.val - 1)) = k0_off56 (tailW (t.val + 1)) := r7par1O (by omega) (by omega) (by omega)
  have e1 : min (t.val + 1 + 1) 50 = t.val + 1 := by omega
  have e2 : (t.val + 1) % 50 = 0 := by omega
  isplitr
  · ipureintro; rw [hacc']; unfold r7car; rw [e1, e2, Nat.add_sub_cancel]
  isplitr; · iexact Hmw
  isplitl [HT]; · iexact HT
  isplitl [Hs7]; · iexact Hs7
  isplitl [HSn Hsn HS7 Hs9 HI8 Hrest Htoks]
  · isplitl [HSn]; · iexists fa; iexact HSn
    isplitl [Hsn]; · iexact Hsn
    isplitl [HS7]; · iexists fcur; iexact HS7
    isplitl [Hs9]; · iexact Hs9
    -- the last trip's token whole again, back among the others: every token whole
    iapply (Entails.of_eq (r7_take (tailFin t.val) (tailTokPt m d qi)).symm)
    rw [tailFin_val (by omega)]
    isplitl [HI8 Hrest]
    · iapply (pointsTo_split_subset (Finset.subset_univ (tailIBlk (r7bi L (tailFin t.val)) (r7bi_inb L _)).view.set)).2
      isplitl [HI8]; · iexact HI8
      iexact Hrest
    iexact Htoks
  isplitl [HFO' HS15 Hs17 HO16 Hdone Htodo]
  · isplitl [HFO']; · iexists fg; iexact HFO'
    isplitl [HS15]
    · iexists fo15; iapply (Entails.of_eq (r7OSlotPt_congr d L hp5 (r7hb15 _) (r7hb10 _) fo15)); iexact HS15
    isplitl [Hs17]
    · iapply (Entails.of_eq (tailCell_congr d L cc0_scoped16 hp1O (r7hb17 _) (r7hb14 _))); iexact Hs17
    isplitl [HO16 Hdone]
    · iapply (Entails.of_eq (tail_bigSep_step (fun u : Fin 50 => u.val + 1 < t.val) (fun u : Fin 50 => u.val + 1 < t.val + 1) (tailFin (t.val - 1))
        (by rw [tailFin_val (by omega)]; omega) (fun u => by rw [Fin.ext_iff, tailFin_val (by omega)]; omega) (fun u => tailOPt d L 2 u (outK m d))).symm)
      isplitl [HO16]; · iexact HO16
      iexact Hdone
    iexact Htodo
  iexists W''; isplitr
  · ipureintro; intro p hp
    rcases hW'' p hp with h | h
    · exact hW' p h
    · exact .inr h
  · iexact Hw

/-- A trip of the loop, whichever. -/
theorem r7trip (t : Fin k0_t3_loop.trips) (hx : Cert.Lookup.InRange (m (xLoc d) : IVec Cert.Lookup.SX 32))
    (acc : BitVec 32 × BitVec 32 × BitVec 32 × BitVec 32 × BitVec 32) :
    r7inv m d L O W qi qs t.val acc
      ⊢ wp frame (wpE (defs₀ (F := F)) 𝒱₀ (tailThr d L) none) Set.univ
          (k0_t3_body L (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scoped0 cc0_scoped1 cc0_scoped2 (Memref.whole cc0_scoped3) (Memref.isWhole_whole _) cc0_scoped4 (Memref.whole cc0_scoped5) (Memref.isWhole_whole _) cc0_scoped6 cc0_scoped7 (Memref.whole cc0_scoped8) (Memref.isWhole_whole _) cc0_scoped9 (Memref.whole cc0_scoped10) (Memref.isWhole_whole _) cc0_scoped11 cc0_scoped12 (Memref.whole cc0_scoped13) (Memref.isWhole_whole _) cc0_scoped14 (Memref.whole cc0_scoped15) (Memref.isWhole_whole _) cc0_scoped16 cc0_scoped17 (r7v7 L) t acc)
          (r7inv m d L O W qi qs (t.val + 1)) := by
  have ht : t.val < 50 := lt_of_lt_of_eq t.isLt Arith.trips3
  rcases Nat.eq_zero_or_pos t.val with h0 | h1
  · exact r7trip0 m d L O W qi qs t h0 hx acc
  · rcases Nat.lt_or_ge t.val 49 with h | h
    · exact r7tripM m d L O W qi qs t h1 h hx acc
    · exact r7tripE m d L O W qi qs t (by omega) hx acc

/-- The invariant after the last trip, spelt out. -/
theorem r7inv_end (acc : BitVec 32 × BitVec 32 × BitVec 32 × BitVec 32 × BitVec 32) :
    r7inv m d L O W qi qs 50 acc
      ⊢ iprop(⌜acc = (tailW 50, tailW 50, tailW 50, tailW 49, tailW 0)⌝ ∗ Transfers.MayWaits (tailThr d L) (default : HIx 1) O ∗ r7Tab m d L qs
          ∗ semVal (tailThr d L, SemLoc.dma cc0_scoped17.sem) 0
          ∗ ((∃ f, r7ISlotPt d L (k0_off46 (tailW 50)) (r7hb4 _) f)
            ∗ semVal (tailThr d L, SemLoc.dma (tailSem cc0_scoped14 (k0_off48 (tailW 50)) (r7hb6 _))) 0
            ∗ (∃ f, r7ISlotPt d L (k0_off49 (tailW (50 - 1))) (r7hb7 _) f)
            ∗ semVal (tailThr d L, SemLoc.dma (tailSem cc0_scoped14 (k0_off51 (tailW (50 - 1))) (r7hb9 _))) 0
            ∗ bigSep Finset.univ (tailTokPt m d qi))
          ∗ ((∃ fbp, r7FO d L (k0_off59 (tailW (50 - 1))) (r7hb17 _) (r7bo L (tailFin (50 - 1))) (r7bo_inb L _) (outK m d) (k0_off57 (tailW (50 - 1))) (r7hb15 _) fbp)
            ∗ (∃ f, r7OSlotPt d L (k0_off52 (tailW 50)) (r7hb10 _) f)
            ∗ semVal (tailThr d L, SemLoc.dma (tailSem cc0_scoped16 (k0_off56 (tailW 50)) (r7hb14 _))) 0
            ∗ bigSep (Finset.univ.filter fun u : Fin 50 => u.val + 1 < 50) (fun u => tailOPt d L 2 u (outK m d))
            ∗ bigSep (Finset.univ.filter fun u : Fin 50 => 50 ≤ u.val) (fun u => tailOPt d L 2 u (m (oLoc d))))
          ∗ ∃ W', ⌜∀ p ∈ W', p ∈ W ∨ p.2 = none⌝ ∗ owes (tailThr d L) O W') := by
  unfold r7inv r7out r7idxEnd
  rw [if_neg (show ¬ (50 : ℕ) < 50 by decide), if_neg (show ¬ (50 : ℕ) = 0 by decide)]
  iintro ⟨%hacc, H⟩
  isplitr
  · ipureintro; rw [hacc]; rfl
  · iexact H

/-! ## After the loop: the buffers whole again, every block done -/

omit [FloatOps F] in
theorem r7I_back (fa fc g : Buf (Elt F) ((tailThr d L).loc cc0_scoped13)) :
    iprop(r7ISlotPt d L (k0_off46 (tailW 50)) (r7hb4 _) fa ∗ r7ISlotPt d L (k0_off49 (tailW (50 - 1))) (r7hb7 _) fc
        ∗ ((tailThr d L).loc cc0_scoped13 ↦[r7IRest d L]{fullShare} g))
      ⊢ (∃ f, (tailThr d L).loc cc0_scoped13 ↦{fullShare} f : sProp 𝕄) := by
  have e0 : k0_off46 (tailW 50) = (![0, 0, 0, 0] : Fin 4 → ℕ) := by rw [Arith.off4_eq_r7]; rfl
  have e1 : k0_off49 (tailW (50 - 1)) = (![1, 0, 0, 0] : Fin 4 → ℕ) := by rw [Arith.off7_eq_r7]; rfl
  rw [r7ISlotPt_congr d L e0 (r7hb4 _) r7inbI0 fa, r7ISlotPt_congr d L e1 (r7hb7 _) r7inbI1 fc]
  exact r7IBuf_join d L fa fc g

omit [FloatOps F] in
theorem r7O_back (fb fbp g : Buf (Elt F) ((tailThr d L).loc cc0_scoped15)) :
    iprop(r7OSlotPt d L (k0_off52 (tailW 50)) (r7hb10 _) fb ∗ r7OSlotPt d L (k0_off57 (tailW (50 - 1))) (r7hb15 _) fbp
        ∗ ((tailThr d L).loc cc0_scoped15 ↦[r7ORest d L]{fullShare} g))
      ⊢ (∃ f, (tailThr d L).loc cc0_scoped15 ↦{fullShare} f : sProp 𝕄) := by
  have e0 : k0_off52 (tailW 50) = (![0, 0, 0, 0, 0] : Fin 5 → ℕ) := by rw [Arith.off10_eq_r7]; rfl
  have e1 : k0_off57 (tailW (50 - 1)) = (![1, 0, 0, 0, 0] : Fin 5 → ℕ) := by rw [Arith.off15_eq_r7]; rfl
  rw [r7OSlotPt_congr d L e0 (r7hb10 _) r7inbO0 fb, r7OSlotPt_congr d L e1 (r7hb15 _) r7inbO1 fbp]
  exact r7OBuf_join d L fb fbp g

/-- The last block done, beside the forty-nine before it: all fifty. -/
theorem r7_allDone :
    iprop(((tailOBlk (r7bo L (tailFin (50 - 1))) (r7bo_inb L _)).view.loc (tailThr d L) ↦[(tailOBlk (r7bo L (tailFin (50 - 1))) (r7bo_inb L _)).view.set]{fullShare} outK m d)
        ∗ bigSep (Finset.univ.filter fun u : Fin 50 => u.val + 1 < 50) (fun u => tailOPt d L 2 u (outK m d)))
      ⊢ (bigSep Finset.univ (fun u : Fin 50 => tailOPt d L 2 u (outK m d)) : sProp 𝕄) := by
  rw [r7_take (tailFin (50 - 1)) (fun u => tailOPt d L 2 u (outK m d)),
    show (Finset.univ.filter fun u : Fin 50 => u.val ≠ (tailFin (50 - 1)).val) = (Finset.univ.filter fun u : Fin 50 => u.val + 1 < 50) from
      Finset.filter_congr (fun u _ => by have := u.isLt; show u.val ≠ (50 - 1) % 50 ↔ _; omega)]
  exact Entails.refl _

end Cert.Proof.KI

end
-- ==== Proof.KITail.lean ====
/-
  A tile's task after its opening part.  The tile holds a read share of the three shared tables, a read share of the
  transposed index array and its 150 output blocks.  Its scoped buffers and semaphores are taken one by one out of what
  the launch dealt it, the index share is cut into one read token per trip, and the three lookups run one after the
  other, each by its loop's invariant; what each lookup borrowed is whole again when it ends, and its fifty output
  blocks hold the lookup's values.
-/
import proofs.«206595_g34437047779621_cont_8to1_b_428_16_alg».proof.Proof.KITailR3T
import proofs.«206595_g34437047779621_cont_8to1_b_428_16_alg».proof.Proof.KITailR5T
import proofs.«206595_g34437047779621_cont_8to1_b_428_16_alg».proof.Proof.KITailR7T

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type} [FloatOps F]

local notation "𝕄" => MT nD τ sig (HIx 1) (Elt F) ℕ UU ℕ

variable (m : (ℓ : Loc nD τ sig) → Buf (Elt F) ℓ) (ρ : Dev nD → PrngReg)

variable (d : Dev nD) (L : grid0.Coords)

variable (O : CellTallies nD τ sig (HIx 1)) (W : Waits sig (HIx 1))

omit [FloatOps F] in
/-- The words the opening part hands over, spelt out. -/
theorem tail_r34 : r34 L = ⟨BitVec.ofNat 32 (L 0).val, BitVec.ofNat 32 (L 1).val, r3v7 L, Scalar.addi (0#32) (r3v7 L), 32#32, Scalar.divsi (Scalar.addi (0#32) (r3v7 L)) 32#32,
    Scalar.subi (Scalar.extui (Scalar.cmpi .sgt (Scalar.addi (0#32) (r3v7 L)) 0#32)) (Scalar.extui (Scalar.cmpi .slt (Scalar.addi (0#32) (r3v7 L)) 0#32))⟩ := rfl

omit [FloatOps F] in
/-- The tile's output blocks, table by table. -/
theorem tail_out3 (f : Buf (Elt F) (oLoc d)) :
    (tileOut d ⟨(L 0).val, (L 0).isLt⟩ ⟨(L 1).val, (L 1).isLt⟩ f : sProp 𝕄)
      = iprop(bigSep Finset.univ (fun u : Fin 50 => tailOPt d L 0 u f) ∗ bigSep Finset.univ (fun u : Fin 50 => tailOPt d L 1 u f)
          ∗ bigSep Finset.univ (fun u : Fin 50 => tailOPt d L 2 u f)) := by
  show bigSep (Finset.univ : Finset (Fin 3 × Fin 50)) _ = _
  rw [← Finset.univ_product_univ, SparseCore.bigSep_product, show (Finset.univ : Finset (Fin 3)) = {0, 1, 2} by decide,
    SparseCore.bigSep_insert' (by decide), SparseCore.bigSep_insert' (by decide), bigSep_singleton]

omit [FloatOps F] in
/-- A wait at the kernels' own index keeps the record of waits within what the launch allows. -/
theorem tail_waits_insert {Wc W : Waits sig (HIx 1)} (x : SemLoc sig) (h : ∀ p ∈ Wc, p ∈ W ∨ p.2 = none) :
    ∀ p ∈ insert (x, (default : HIx 1)) Wc, p ∈ W ∨ p.2 = none := by
  intro p hp
  rcases Finset.mem_insert.mp hp with hp | hp
  · exact .inr (hp ▸ rfl)
  · exact h p hp

set_option maxHeartbeats 16000000 in
/-- The task after its opening part: the three lookups, from the launch's pieces to the lookup's values. -/
theorem tail_spec (hO : ∀ g, O g none = 0) (hx : Cert.Lookup.InRange (m (xLoc d) : IVec Cert.Lookup.SX 32)) (qi qs : PosShare TreeShare) :
    iprop(levAts (K (F := F)).L (K (F := F)).lev ∗ (iLoc d ↦{qi} idxT m d) ∗ tabs m d (cV L) qs
          ∗ scopedBufs (V d (cV L) (jV L)) ∗ scopedSems0 (V d (cV L) (jV L))
          ∗ tileOut d ⟨(L 0).val, (L 0).isLt⟩ ⟨(L 1).val, (L 1).isLt⟩ (m (oLoc d)) ∗ owes (V d (cV L) (jV L)) O W)
      ⊢ wp frame (wpE (defs₀ (F := F)) 𝒱₀ (V d (cV L) (jV L)) none) Set.univ (tail34 L (r34 L)) fun _ =>
          iprop((iLoc d ↦{qi} idxT m d) ∗ tabs m d (cV L) qs ∗ scopedBufs (V d (cV L) (jV L)) ∗ scopedSems0 (V d (cV L) (jV L))
            ∗ tileOut d ⟨(L 0).val, (L 0).isLt⟩ ⟨(L 1).val, (L 1).isLt⟩ (outK m d) ∗ ∃ W', ⌜∀ p ∈ W', p ∈ W ∨ p.2 = none⌝ ∗ owes (V d (cV L) (jV L)) O W') := by
  have hF : (K (F := F)).Facts := facts
  rw [(K (F := F)).scopedBufs_V hF d (cV L) (jV L), SparseCore.Cfg.scopedSems0_V (Val := Elt F) d (cV L) (jV L), tail_ownSems0, tail_ownBufs, tail_r34,
    tail_out3 d L (m (oLoc d)), tail_out3 d L (outK m d)]
  unfold tabs
  iintro ⟨#Hlv, Hi, ⟨HT0, HT1, HT2⟩, ⟨⟨%f3, HB3⟩, ⟨%f5, HB5⟩, ⟨%f8, HB8⟩, ⟨%f10, HB10⟩, ⟨%f13, HB13⟩, ⟨%f15, HB15⟩, Hbufs⟩, ⟨⟨Hc0, Hc1, Hc2, Hc3, Hc4, Hc5, Hc6, Hc7, Hc8, Hc9, Hc10, Hc11, Hc12, Hc13, Hc14, Hc15, Hc16, Hc17⟩, Hsems⟩, ⟨Hout0, Hout1, Hout2⟩, HO⟩
  ihave Hmw := ((K (F := F)).mayWaits_none (thr := tailThr d L) hO) $$ Hlv
  ihave Hi' := (Transfers.pointsTo_toks_split qi 50) $$ Hi
  icases Hi' with ⟨Hidrop, Htoks⟩
  sl_unfold [tail34]
  rw [k0_part36_eq_skeleton, k0_part39_eq_skeleton, k0_part43_eq_skeleton]
  -- ===== the lookup of table 0 =====
  ihave r3HBI := (r3IBuf_split d L f3) $$ HB3
  icases r3HBI with ⟨r3I0, r3I1, r3Ir⟩
  ihave r3HBO := (r3OBuf_split d L f5) $$ HB5
  icases r3HBO with ⟨r3O0, r3O1, r3Or⟩
  ihave r3I0' := (Entails.of_eq (r3ISlotPt_congr d L (k0_off1_eq.symm) r3inbI0 k0_off1_inb f3)) $$ r3I0
  ihave r3Htk := (Entails.of_eq (r3_take (tailFin 0) (tailTokPt m d qi))) $$ Htoks
  icases r3Htk with ⟨r3tok0, Htoks⟩
  ihave r3Hsp := (pointsTo_split_subset (Finset.subset_univ (tailIBlk (k0_off2 L) (k0_off2_inb L)).view.set)).1 $$ r3tok0
  icases r3Hsp with ⟨r3In0, r3rest0⟩
  ihave r3In0' := (Entails.of_eq (show (iLoc d ↦[(tailIBlk (k0_off2 L) (k0_off2_inb L)).view.set]{shareTok qi 50 (tailFin 0)} idxT m d : sProp 𝕄)
      = ((tailIBlk (k0_off2 L) (k0_off2_inb L)).view.loc (tailThr d L) ↦[(tailIBlk (k0_off2 L) (k0_off2_inb L)).view.set]{shareTok qi 50 (tailFin 0)} idxT m d) from rfl)) $$ r3In0
  sl_exec
  have r3eS : k0_off3 = k0_off9 (tailW 0) := by rw [k0_off3_eq, Arith.off9_eq]; rfl
  have r3eL : k0_off1 = k0_off7 (tailW 0) := by rw [k0_off1_eq, Arith.off7_eq]; rfl
  have r3eB : k0_off2 L = r3bi L (tailFin 0) := Arith.off2_eq L
  have r3e41 : (![1, 0, 0, 0] : Fin 4 → ℕ) = k0_off4 (tailW (0 + 1)) := by rw [Arith.off4_eq]; rfl
  have r3e51 : (![1, 0, 0, 0, 0] : Fin 5 → ℕ) = k0_off10 (tailW (0 + 1)) := by rw [Arith.off10_eq]; rfl
  have r3e50 : (![0, 0, 0, 0, 0] : Fin 5 → ℕ) = k0_off10 (tailW 0) := by rw [Arith.off10_eq]; rfl
  sl_for (r3inv m d L O W qi qs) $$ [Hmw HT0 Hc7 Hc3 r3rest0 r3I1 Hc4 Htoks r3O1 Hc6 r3O0 Hc5 Hout0 HO]
  case region =>
    intro k acc
    exact r3trip m d L O W qi qs k hx acc
  · unfold r3inv r3out
    rw [if_pos (show (0 : ℕ) < 50 by decide), if_pos (rfl : (0 : ℕ) = 0)]
    unfold r3idxMid
    isplitr; · ipureintro; rfl
    isplitr; · iexact Hmw
    isplitl [HT0]; · iexact HT0
    isplitl [Hc7]; · iexact Hc7
    isplitl [Hc3 r3rest0 r3I1 Hc4 Htoks]
    · isplitl [Hc3]
      · iexists _
        isplitr
        · ipureintro
          exact r3good_congr m d L r3eL r3eB k0_off1_inb (k0_off2_inb L) (r3hb7 _) (r3bi_inb L _) _ (r3good_write m d L k0_off1 k0_off1_inb (k0_off2 L) (k0_off2_inb L) f3)
        · iapply (Entails.of_eq (r3FI_congr m d L r3eS r3eL r3eB k0_off3_inb k0_off1_inb (k0_off2_inb L) (r3hb9 _) (r3hb7 _) (r3bi_inb L _) _ _))
          iexact Hc3
      isplitl [r3rest0]
      · iapply (Entails.of_eq (tailIRest_congr d r3eB (k0_off2_inb L) (r3bi_inb L _) _ _)); iexact r3rest0
      isplitl [r3I1]
      · iexists f3; iapply (Entails.of_eq (r3ISlotPt_congr d L r3e41 r3inbI1 (r3hb4 _) f3)); iexact r3I1
      isplitl [Hc4]; · iexact Hc4
      iexact Htoks
    isplitl [r3O1 Hc6 r3O0 Hc5 Hout0]
    · isplitl [r3O1 Hc6]
      · isplitl [r3O1]
        · iexists f5; iapply (Entails.of_eq (r3OSlotPt_congr d L r3e51 r3inbO1 (r3hb10 _) f5)); iexact r3O1
        iexact Hc6
      isplitl [r3O0]
      · iexists f5; iapply (Entails.of_eq (r3OSlotPt_congr d L r3e50 r3inbO0 (r3hb10 _) f5)); iexact r3O0
      isplitl [Hc5]; · iexact Hc5
      isplitr
      · rw [Finset.filter_false_of_mem (fun u _ => by omega), bigSep_empty]; iempintro
      · rw [Finset.filter_true_of_mem (fun u _ => Nat.zero_le _)]; iexact Hout0
    iexists _; isplitr
    rotate_left
    · iexact HO
    · ipureintro; exact (fun p hp => .inl hp)
  iintro %r3acc r3HI
  ihave r3HI' := (Entails.of_eq (congrArg (fun n => r3inv m d L O W qi qs n r3acc) Arith.trips1)) $$ r3HI
  ihave r3HE := (r3inv_end m d L O W qi qs r3acc) $$ r3HI'
  icases r3HE with ⟨%r3hacc, -, HT0, Hc7, ⟨⟨%r3fa, r3Sa⟩, Hc3, ⟨%r3fc, r3Sc⟩, Hc4, Htoks⟩, ⟨⟨%r3fbp, r3FO⟩, ⟨%r3fb, r3OS⟩, Hc5, r3done, r3todo⟩, ⟨%W3a, %hW3a, HO⟩⟩
  subst r3hacc
  have r3hk5 : k0_chk5 L (tailW 0) := Arith.chk5_end L
  have r3hk4 : k0_chk4 (tailW 49) := Arith.chk4_all _
  sl_exec
  -- the lookup's buffers whole again, its fifty blocks done
  ihave r3BI := (r3I_back d L r3fa r3fc f3) $$ [r3Sa r3Sc r3Ir]
  · isplitl [r3Sa]; · iexact r3Sa
    isplitl [r3Sc]; · iexact r3Sc
    iexact r3Ir
  ihave r3BO := (r3O_back d L r3fb r3fbp f5) $$ [r3OS r3FO_src r3Or]
  · isplitl [r3OS]; · iexact r3OS
    isplitl [r3FO_src]; · iexact r3FO_src
    iexact r3Or
  ihave r3All := (r3_allDone m d L) $$ [r3FO_dst r3done]
  · isplitl [r3FO_dst]; · iexact r3FO_dst
    iexact r3done
  -- ===== the lookup of table 1 =====
  ihave r5HBI := (r5IBuf_split d L f8) $$ HB8
  icases r5HBI with ⟨r5I0, r5I1, r5Ir⟩
  ihave r5HBO := (r5OBuf_split d L f10) $$ HB10
  icases r5HBO with ⟨r5O0, r5O1, r5Or⟩
  ihave r5I0' := (Entails.of_eq (r5ISlotPt_congr d L (k0_off22_eq.symm) r5inbI0 k0_off22_inb f8)) $$ r5I0
  ihave r5Htk := (Entails.of_eq (r5_take (tailFin 0) (tailTokPt m d qi))) $$ Htoks
  icases r5Htk with ⟨r5tok0, Htoks⟩
  ihave r5Hsp := (pointsTo_split_subset (Finset.subset_univ (tailIBlk (k0_off23 L) (k0_off23_inb L)).view.set)).1 $$ r5tok0
  icases r5Hsp with ⟨r5In0, r5rest0⟩
  ihave r5In0' := (Entails.of_eq (show (iLoc d ↦[(tailIBlk (k0_off23 L) (k0_off23_inb L)).view.set]{shareTok qi 50 (tailFin 0)} idxT m d : sProp 𝕄)
      = ((tailIBlk (k0_off23 L) (k0_off23_inb L)).view.loc (tailThr d L) ↦[(tailIBlk (k0_off23 L) (k0_off23_inb L)).view.set]{shareTok qi 50 (tailFin 0)} idxT m d) from rfl)) $$ r5In0
  sl_exec
  have r5eS : k0_off24 = k0_off30 (tailW 0) := by rw [k0_off24_eq, Arith.off9_eq_r5]; rfl
  have r5eL : k0_off22 = k0_off28 (tailW 0) := by rw [k0_off22_eq, Arith.off7_eq_r5]; rfl
  have r5eB : k0_off23 L = r5bi L (tailFin 0) := Arith.off2_eq_r5 L
  have r5e41 : (![1, 0, 0, 0] : Fin 4 → ℕ) = k0_off25 (tailW (0 + 1)) := by rw [Arith.off4_eq_r5]; rfl
  have r5e51 : (![1, 0, 0, 0, 0] : Fin 5 → ℕ) = k0_off31 (tailW (0 + 1)) := by rw [Arith.off10_eq_r5]; rfl
  have r5e50 : (![0, 0, 0, 0, 0] : Fin 5 → ℕ) = k0_off31 (tailW 0) := by rw [Arith.off10_eq_r5]; rfl
  sl_for (r5inv m d L O W qi qs) $$ [Hmw HT1 Hc12 Hc8 r5rest0 r5I1 Hc9 Htoks r5O1 Hc11 r5O0 Hc10 Hout1 HO]
  case region =>
    intro k acc
    exact r5trip m d L O W qi qs k hx acc
  · unfold r5inv r5out
    rw [if_pos (show (0 : ℕ) < 50 by decide), if_pos (rfl : (0 : ℕ) = 0)]
    unfold r5idxMid
    isplitr; · ipureintro; rfl
    isplitr; · iexact Hmw
    isplitl [HT1]; · iexact HT1
    isplitl [Hc12]; · iexact Hc12
    isplitl [Hc8 r5rest0 r5I1 Hc9 Htoks]
    · isplitl [Hc8]
      · iexists _
        isplitr
        · ipureintro
          exact r5good_congr m d L r5eL r5eB k0_off22_inb (k0_off23_inb L) (r5hb7 _) (r5bi_inb L _) _ (r5good_write m d L k0_off22 k0_off22_inb (k0_off23 L) (k0_off23_inb L) f8)
        · iapply (Entails.of_eq (r5FI_congr m d L r5eS r5eL r5eB k0_off24_inb k0_off22_inb (k0_off23_inb L) (r5hb9 _) (r5hb7 _) (r5bi_inb L _) _ _))
          iexact Hc8
      isplitl [r5rest0]
      · iapply (Entails.of_eq (tailIRest_congr d r5eB (k0_off23_inb L) (r5bi_inb L _) _ _)); iexact r5rest0
      isplitl [r5I1]
      · iexists f8; iapply (Entails.of_eq (r5ISlotPt_congr d L r5e41 r5inbI1 (r5hb4 _) f8)); iexact r5I1
      isplitl [Hc9]; · iexact Hc9
      iexact Htoks
    isplitl [r5O1 Hc11 r5O0 Hc10 Hout1]
    · isplitl [r5O1 Hc11]
      · isplitl [r5O1]
        · iexists f10; iapply (Entails.of_eq (r5OSlotPt_congr d L r5e51 r5inbO1 (r5hb10 _) f10)); iexact r5O1
        iexact Hc11
      isplitl [r5O0]
      · iexists f10; iapply (Entails.of_eq (r5OSlotPt_congr d L r5e50 r5inbO0 (r5hb10 _) f10)); iexact r5O0
      isplitl [Hc10]; · iexact Hc10
      isplitr
      · rw [Finset.filter_false_of_mem (fun u _ => by omega), bigSep_empty]; iempintro
      · rw [Finset.filter_true_of_mem (fun u _ => Nat.zero_le _)]; iexact Hout1
    iexists _; isplitr
    rotate_left
    · iexact HO
    · ipureintro; exact (tail_waits_insert _ hW3a)
  iintro %r5acc r5HI
  ihave r5HI' := (Entails.of_eq (congrArg (fun n => r5inv m d L O W qi qs n r5acc) Arith.trips2)) $$ r5HI
  ihave r5HE := (r5inv_end m d L O W qi qs r5acc) $$ r5HI'
  icases r5HE with ⟨%r5hacc, -, HT1, Hc12, ⟨⟨%r5fa, r5Sa⟩, Hc8, ⟨%r5fc, r5Sc⟩, Hc9, Htoks⟩, ⟨⟨%r5fbp, r5FO⟩, ⟨%r5fb, r5OS⟩, Hc10, r5done, r5todo⟩, ⟨%W5a, %hW5a, HO⟩⟩
  subst r5hacc
  have r5hk5 : k0_chk10 L (tailW 0) := Arith.chk5_end_r5 L
  have r5hk4 : k0_chk9 (tailW 49) := Arith.chk4_all_r5 _
  sl_exec
  -- the lookup's buffers whole again, its fifty blocks done
  ihave r5BI := (r5I_back d L r5fa r5fc f8) $$ [r5Sa r5Sc r5Ir]
  · isplitl [r5Sa]; · iexact r5Sa
    isplitl [r5Sc]; · iexact r5Sc
    iexact r5Ir
  ihave r5BO := (r5O_back d L r5fb r5fbp f10) $$ [r5OS r5FO_src r5Or]
  · isplitl [r5OS]; · iexact r5OS
    isplitl [r5FO_src]; · iexact r5FO_src
    iexact r5Or
  ihave r5All := (r5_allDone m d L) $$ [r5FO_dst r5done]
  · isplitl [r5FO_dst]; · iexact r5FO_dst
    iexact r5done
  -- ===== the lookup of table 2 =====
  ihave r7HBI := (r7IBuf_split d L f13) $$ HB13
  icases r7HBI with ⟨r7I0, r7I1, r7Ir⟩
  ihave r7HBO := (r7OBuf_split d L f15) $$ HB15
  icases r7HBO with ⟨r7O0, r7O1, r7Or⟩
  ihave r7I0' := (Entails.of_eq (r7ISlotPt_congr d L (k0_off43_eq.symm) r7inbI0 k0_off43_inb f13)) $$ r7I0
  ihave r7Htk := (Entails.of_eq (r7_take (tailFin 0) (tailTokPt m d qi))) $$ Htoks
  icases r7Htk with ⟨r7tok0, Htoks⟩
  ihave r7Hsp := (pointsTo_split_subset (Finset.subset_univ (tailIBlk (k0_off44 L) (k0_off44_inb L)).view.set)).1 $$ r7tok0
  icases r7Hsp with ⟨r7In0, r7rest0⟩
  ihave r7In0' := (Entails.of_eq (show (iLoc d ↦[(tailIBlk (k0_off44 L) (k0_off44_inb L)).view.set]{shareTok qi 50 (tailFin 0)} idxT m d : sProp 𝕄)
      = ((tailIBlk (k0_off44 L) (k0_off44_inb L)).view.loc (tailThr d L) ↦[(tailIBlk (k0_off44 L) (k0_off44_inb L)).view.set]{shareTok qi 50 (tailFin 0)} idxT m d) from rfl)) $$ r7In0
  sl_exec
  have r7eS : k0_off45 = k0_off51 (tailW 0) := by rw [k0_off45_eq, Arith.off9_eq_r7]; rfl
  have r7eL : k0_off43 = k0_off49 (tailW 0) := by rw [k0_off43_eq, Arith.off7_eq_r7]; rfl
  have r7eB : k0_off44 L = r7bi L (tailFin 0) := Arith.off2_eq_r7 L
  have r7e41 : (![1, 0, 0, 0] : Fin 4 → ℕ) = k0_off46 (tailW (0 + 1)) := by rw [Arith.off4_eq_r7]; rfl
  have r7e51 : (![1, 0, 0, 0, 0] : Fin 5 → ℕ) = k0_off52 (tailW (0 + 1)) := by rw [Arith.off10_eq_r7]; rfl
  have r7e50 : (![0, 0, 0, 0, 0] : Fin 5 → ℕ) = k0_off52 (tailW 0) := by rw [Arith.off10_eq_r7]; rfl
  sl_for (r7inv m d L O W qi qs) $$ [Hmw HT2 Hc17 Hc13 r7rest0 r7I1 Hc14 Htoks r7O1 Hc16 r7O0 Hc15 Hout2 HO]
  case region =>
    intro k acc
    exact r7trip m d L O W qi qs k hx acc
  · unfold r7inv r7out
    rw [if_pos (show (0 : ℕ) < 50 by decide), if_pos (rfl : (0 : ℕ) = 0)]
    unfold r7idxMid
    isplitr; · ipureintro; rfl
    isplitr; · iexact Hmw
    isplitl [HT2]; · iexact HT2
    isplitl [Hc17]; · iexact Hc17
    isplitl [Hc13 r7rest0 r7I1 Hc14 Htoks]
    · isplitl [Hc13]
      · iexists _
        isplitr
        · ipureintro
          exact r7good_congr m d L r7eL r7eB k0_off43_inb (k0_off44_inb L) (r7hb7 _) (r7bi_inb L _) _ (r7good_write m d L k0_off43 k0_off43_inb (k0_off44 L) (k0_off44_inb L) f13)
        · iapply (Entails.of_eq (r7FI_congr m d L r7eS r7eL r7eB k0_off45_inb k0_off43_inb (k0_off44_inb L) (r7hb9 _) (r7hb7 _) (r7bi_inb L _) _ _))
          iexact Hc13
      isplitl [r7rest0]
      · iapply (Entails.of_eq (tailIRest_congr d r7eB (k0_off44_inb L) (r7bi_inb L _) _ _)); iexact r7rest0
      isplitl [r7I1]
      · iexists f13; iapply (Entails.of_eq (r7ISlotPt_congr d L r7e41 r7inbI1 (r7hb4 _) f13)); iexact r7I1
      isplitl [Hc14]; · iexact Hc14
      iexact Htoks
    isplitl [r7O1 Hc16 r7O0 Hc15 Hout2]
    · isplitl [r7O1 Hc16]
      · isplitl [r7O1]
        · iexists f15; iapply (Entails.of_eq (r7OSlotPt_congr d L r7e51 r7inbO1 (r7hb10 _) f15)); iexact r7O1
        iexact Hc16
      isplitl [r7O0]
      · iexists f15; iapply (Entails.of_eq (r7OSlotPt_congr d L r7e50 r7inbO0 (r7hb10 _) f15)); iexact r7O0
      isplitl [Hc15]; · iexact Hc15
      isplitr
      · rw [Finset.filter_false_of_mem (fun u _ => by omega), bigSep_empty]; iempintro
      · rw [Finset.filter_true_of_mem (fun u _ => Nat.zero_le _)]; iexact Hout2
    iexists _; isplitr
    rotate_left
    · iexact HO
    · ipureintro; exact (tail_waits_insert _ hW5a)
  iintro %r7acc r7HI
  ihave r7HI' := (Entails.of_eq (congrArg (fun n => r7inv m d L O W qi qs n r7acc) Arith.trips3)) $$ r7HI
  ihave r7HE := (r7inv_end m d L O W qi qs r7acc) $$ r7HI'
  icases r7HE with ⟨%r7hacc, -, HT2, Hc17, ⟨⟨%r7fa, r7Sa⟩, Hc13, ⟨%r7fc, r7Sc⟩, Hc14, Htoks⟩, ⟨⟨%r7fbp, r7FO⟩, ⟨%r7fb, r7OS⟩, Hc15, r7done, r7todo⟩, ⟨%W7a, %hW7a, HO⟩⟩
  subst r7hacc
  have r7hk5 : k0_chk15 L (tailW 0) := Arith.chk5_end_r7 L
  have r7hk4 : k0_chk14 (tailW 49) := Arith.chk4_all_r7 _
  sl_exec
  -- the lookup's buffers whole again, its fifty blocks done
  ihave r7BI := (r7I_back d L r7fa r7fc f13) $$ [r7Sa r7Sc r7Ir]
  · isplitl [r7Sa]; · iexact r7Sa
    isplitl [r7Sc]; · iexact r7Sc
    iexact r7Ir
  ihave r7BO := (r7O_back d L r7fb r7fbp f15) $$ [r7OS r7FO_src r7Or]
  · isplitl [r7OS]; · iexact r7OS
    isplitl [r7FO_src]; · iexact r7FO_src
    iexact r7Or
  ihave r7All := (r7_allDone m d L) $$ [r7FO_dst r7done]
  · isplitl [r7FO_dst]; · iexact r7FO_dst
    iexact r7done
  sl_step
  -- what the task hands back
  isplitl [Hidrop Htoks]
  · iapply (Transfers.pointsTo_toks_join qi 50)
    isplitl [Hidrop]; · iexact Hidrop
    iexact Htoks
  isplitl [HT0 HT1 HT2]
  · isplitl [HT0]; · iexact HT0
    isplitl [HT1]; · iexact HT1
    iexact HT2
  isplitl [r3BI r3BO r5BI r5BO r7BI r7BO Hbufs]
  · isplitl [r3BI]; · iexact r3BI
    isplitl [r3BO]; · iexact r3BO
    isplitl [r5BI]; · iexact r5BI
    isplitl [r5BO]; · iexact r5BO
    isplitl [r7BI]; · iexact r7BI
    isplitl [r7BO]; · iexact r7BO
    iexact Hbufs
  isplitl [Hc0 Hc1 Hc2 Hc3 Hc4 Hc5 r3FO Hc7 Hc8 Hc9 Hc10 r5FO Hc12 Hc13 Hc14 Hc15 r7FO Hc17 Hsems]
  · isplitl [Hc0 Hc1 Hc2 Hc3 Hc4 Hc5 r3FO Hc7 Hc8 Hc9 Hc10 r5FO Hc12 Hc13 Hc14 Hc15 r7FO Hc17]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [r3FO]; · iexact r3FO
      isplitl [Hc7]; · iexact Hc7
      isplitl [Hc8]; · iexact Hc8
      isplitl [Hc9]; · iexact Hc9
      isplitl [Hc10]; · iexact Hc10
      isplitl [r5FO]; · iexact r5FO
      isplitl [Hc12]; · iexact Hc12
      isplitl [Hc13]; · iexact Hc13
      isplitl [Hc14]; · iexact Hc14
      isplitl [Hc15]; · iexact Hc15
      isplitl [r7FO]; · iexact r7FO
      iexact Hc17
    iexact Hsems
  isplitl [r3All r5All r7All]
  · isplitl [r3All]; · iexact r3All
    isplitl [r5All]; · iexact r5All
    iexact r7All
  iexists _; isplitr
  rotate_left
  · iexact HO
  · ipureintro; exact tail_waits_insert _ hW7a

end Cert.Proof.KI

end
-- ==== Proof.Domain.lean ====
/-
  The printed input-domain predicate, read back: when it evaluates to true, every index word lies between 0 and 999.
  The predicate is a conjunction whose last conjunct is the "all" of (0 ≤ x) ∧ (x ≤ 999), both compared signed; a word
  that is nonnegative and at most 999 when read signed has unsigned value at most 999.
-/
import proofs.«206595_g34437047779621_cont_8to1_b_428_16_alg».proof.Proof.Spec
import proofs.«206595_g34437047779621_cont_8to1_b_428_16_alg».proof.Pre_input_domain
import Idealize.ShloMosaic.Lib.ReduceAll

namespace Cert.Lookup

open Idealize.ShloMosaic Idealize.ShloMosaic.ValueIdx

/-- The rank-0 shape has one index. -/
instance subsingleton_scalar_idx : Subsingleton Cert.Pre_input_domain.S_.Idx :=
  ⟨fun a b => funext fun d => d.elim0⟩

/-- A word that reads signed between 0 and 999 has unsigned value at most 999. -/
theorem toNat_le_of_signed {v : BitVec 32} (h0 : (0#32 : BitVec 32).toInt ≤ v.toInt)
    (h1 : v.toInt ≤ (999#32 : BitVec 32).toInt) : v.toNat ≤ 999 := by
  have e0 : (0#32 : BitVec 32).toInt = 0 := by decide
  have e1 : (999#32 : BitVec 32).toInt = 999 := by decide
  rw [e0] at h0
  rw [e1] at h1
  have hm : 2 * v.toNat < 2 ^ 32 := BitVec.toInt_pos_iff.1 h0
  rw [BitVec.toInt_eq_toNat_of_lt hm] at h1
  omega

/-- The input-domain predicate holding gives the index range. -/
theorem inRange_of_pre {F : FTy → Type} [FloatOps F] [Cert.Pre_input_domain.Facts]
    (x : IVec Cert.Pre_input_domain.S4096x50x3 32) (W0 W1 W2 : FVec F Cert.Pre_input_domain.S1001x128 .f32)
    (h : Cert.Pre_input_domain.fn (F := F) x W0 W1 W2 = (fun _ => 1#1)) : Cert.Lookup.InRange x := by
  intro j
  have h0 := congrFun h ValueIdx.ix0
  dsimp only [Cert.Pre_input_domain.fn, Cert.Pre_input_domain.fn_part1, andi] at h0
  obtain ⟨-, hall⟩ := IntOp.andi_eq_one.1 h0
  have hj := Host.reduce_andi_all _ _ _ _ _ hall j
  dsimp only [andi, cmpi, broadcastInDim, constantI] at hj
  obtain ⟨hge, hle⟩ := IntOp.andi_eq_one.1 hj
  exact toNat_le_of_signed (IntOp.cmpi_sge.1 hge) (IntOp.cmpi_sle.1 hle)

end Cert.Lookup
-- ==== Proof.RefOps.lean ====
/-
  The reference program as a list of operations, and its result as a term.  The reference is a straight line of host operations: for each of the three
  tables, the unit-width slice of the index words for that table, reshaped to a [4096, 50] array (minus a zero), then one
  "take" of the table's rows at those words; the three [4096, 50, 128] results are given a unit axis and concatenated
  along it.  One take wraps a negative word by the table's 1001 rows, gathers the rows (the gather clamps its start
  index into the table), and replaces by a fill constant every row whose wrapped word is not between 0 and 1000.
  `refTerm` is that composed term of the argument contents; `ops` is the program's line of operations, to which
  the printed program is equal once its two functions are unfolded at their calls.
-/
import proofs.«206595_g34437047779621_cont_8to1_b_428_16_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The index words of one table as a [4096, 50] array, as the program forms them: the unit-width slice at `off`,
    reshaped, minus zero. -/
def idxCol (x : IVec S4096x50x3 32) (off : Fin S4096x50x3.rank → Nat) (h : S4096x50x3.Slices off S4096x50x1) : IVec S4096x50 32 :=
  subi (shapeCast S4096x50 (extractStridedSlice S4096x50x1 off x h) shapeCasts_S4096x50x1_S4096x50)
    (broadcastInDim S4096x50 ![] bcast_S_S4096x50 (constantI S_ 32 0#32))

/-- A negative word moved up by the table's 1001 rows, any other word left as it is. -/
def wrapIdx (idx : IVec S4096x50 32) : IVec S4096x50 32 :=
  select (cmpi .slt idx (broadcastInDim S4096x50 ![] bcast_S_S4096x50 (constantI S_ 32 0#32)))
    (addi idx (broadcastInDim S4096x50 ![] bcast_S_S4096x50 (constantI S_ 32 1001#32))) idx

/-- The wrapped words as a [4096, 50, 1] column of start indices. -/
def idxColumn (idx : IVec S4096x50 32) : IVec S4096x50x1 32 :=
  broadcastInDim S4096x50x1 ![0, 1] bcast_S4096x50_S4096x50x1_0_1 (wrapIdx idx)

/-- Which wrapped words lie between 0 and 1000, reduced over the unit axis. -/
def inBounds (idx : IVec S4096x50 32) : IVec S4096x50 1 :=
  Host.reduce IntOp.andi
    (andi (cmpi .sge (idxColumn idx) (broadcastInDim S4096x50x1 ![] bcast_S_S4096x50x1 (constantI S_ 32 0#32)))
      (cmpi .sle (idxColumn idx) (broadcastInDim S4096x50x1 ![0, 1, 2] bcast_S1x1x1_S4096x50x1_0_1_2
        (broadcastInDim S1x1x1 ![2] bcast_S1_S1x1x1_2 (constantI S1 32 1000#32)))))
    (constantI S_ 1 1#1) reducesTo_S4096x50x1_S4096x50_d2 h_S_

/-- One take: the rows of `W` at the wrapped words, the fill constant where a wrapped word is out of bounds. -/
def takeTerm (W : FVec F S1001x128 .f32) (idx : IVec S4096x50 32) : FVec F S4096x50x128 .f32 :=
  select (broadcastInDim S4096x50x128 ![0, 1] bcast_S4096x50_S4096x50x128_0_1 (inBounds idx))
    (Host.gather gather_S1001x128_S4096x50x1_S4096x50x128_2_0_n_n_0_2_1128 W (idxColumn idx))
    (broadcastInDim S4096x50x128 ![] bcast_S_S4096x50x128 (constant S_ .f32 0x7FC00000#32))

/-- One table's piece of the result: its take with a unit axis put in at position 2. -/
def piece (W : FVec F S1001x128 .f32) (idx : IVec S4096x50 32) : FVec F S4096x50x1x128 .f32 :=
  broadcastInDim S4096x50x1x128 ![0, 1, 3] bcast_S4096x50x128_S4096x50x1x128_0_1_3 (takeTerm W idx)

/-- The reference's result as a term of its arguments: the three pieces concatenated along the unit axis. -/
def refTerm (x : IVec S4096x50x3 32) (W0 W1 W2 : FVec F S1001x128 .f32) : FVec F S4096x50x3x128 .f32 :=
  concatenate S4096x50x3x128 2
    [⟨S4096x50x1x128, piece W0 (idxCol x ![0, 0, 0] slices_S4096x50x3_S4096x50x1_0_0_0)⟩,
     ⟨S4096x50x1x128, piece W1 (idxCol x ![0, 0, 1] slices_S4096x50x3_S4096x50x1_0_0_1)⟩,
     ⟨S4096x50x1x128, piece W2 (idxCol x ![0, 0, 2] slices_S4096x50x3_S4096x50x1_0_0_2)⟩]
    concatenates_S4096x50x1x128_S4096x50x1x128_S4096x50x1x128_S4096x50x3x128_d2

/-! ## The operations -/

/-- The program's 88 operations in order, the three takes unfolded at their calls (each: the 23 operations of one
    take, the wrap's select among them, over that call's buffers). -/
abbrev ops : List (HloOp τ sig (Elt F)) :=
  [ unary main_arg0 main_v0 (extractStridedSlice S4096x50x1 ![0, 0, 0] · slices_S4096x50x3_S4096x50x1_0_0_0),
    reshape main_v0 main_v1 rfl shapeCasts_S4096x50x1_S4096x50,
    nullary main_c (constantI S_ 32 0#32),
    unary main_c main_v2 (broadcastInDim S4096x50 ![] bcast_S_S4096x50),
    binary main_v1 main_v2 main_v3 subi,
    TRef.nullary main_call0.c (constantI S_ 32 0#32),
    TRef.unary main_call0.c main_call0.v0 (broadcastInDim S4096x50 ![] bcast_S_S4096x50),
    TRef.binary (.of main_v3) main_call0.v0 main_call0.v1 (cmpi .slt),
    TRef.nullary main_call0.c_0 (constantI S_ 32 1001#32),
    TRef.unary main_call0.c_0 main_call0.v2 (broadcastInDim S4096x50 ![] bcast_S_S4096x50),
    TRef.binary (.of main_v3) main_call0.v2 main_call0.v3 addi,
    TRef.ternary main_call0.v1 main_call0.v3 (.of main_v3) main_call0.call0.v0 select,
    TRef.unary main_call0.call0.v0 main_call0.v5 (broadcastInDim S4096x50x1 ![0, 1] bcast_S4096x50_S4096x50x1_0_1),
    TRef.nullary main_call0.c_1 (constantI S1 32 1000#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1) main_call0.v5 main_call0.v13 (fun x i => Host.gather gather_S1001x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    unary main_arg0 main_v5 (extractStridedSlice S4096x50x1 ![0, 0, 1] · slices_S4096x50x3_S4096x50x1_0_0_1),
    reshape main_v5 main_v6 rfl shapeCasts_S4096x50x1_S4096x50,
    nullary main_c_0 (constantI S_ 32 0#32),
    unary main_c_0 main_v7 (broadcastInDim S4096x50 ![] bcast_S_S4096x50),
    binary main_v6 main_v7 main_v8 subi,
    TRef.nullary main_call1.c (constantI S_ 32 0#32),
    TRef.unary main_call1.c main_call1.v0 (broadcastInDim S4096x50 ![] bcast_S_S4096x50),
    TRef.binary (.of main_v8) main_call1.v0 main_call1.v1 (cmpi .slt),
    TRef.nullary main_call1.c_0 (constantI S_ 32 1001#32),
    TRef.unary main_call1.c_0 main_call1.v2 (broadcastInDim S4096x50 ![] bcast_S_S4096x50),
    TRef.binary (.of main_v8) main_call1.v2 main_call1.v3 addi,
    TRef.ternary main_call1.v1 main_call1.v3 (.of main_v8) main_call1.call0.v0 select,
    TRef.unary main_call1.call0.v0 main_call1.v5 (broadcastInDim S4096x50x1 ![0, 1] bcast_S4096x50_S4096x50x1_0_1),
    TRef.nullary main_call1.c_1 (constantI S1 32 1000#32),
    TRef.nullary main_call1.c_2 (constantI S_ 32 0#32),
    TRef.unary main_call1.c_2 main_call1.v6 (broadcastInDim S4096x50x1 ![] bcast_S_S4096x50x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x50x1 ![0, 1, 2] bcast_S1x1x1_S4096x50x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x50x1_S4096x50_d2 h_S_),
    TRef.binary (.of main_arg2) main_call1.v5 main_call1.v13 (fun x i => Host.gather gather_S1001x128_S4096x50x1_S4096x50x128_2_0_n_n_0_2_1128 x i),
    TRef.unary main_call1.v12 main_call1.v14 (broadcastInDim S4096x50x128 ![0, 1] bcast_S4096x50_S4096x50x128_0_1),
    TRef.nullary main_call1.cst (constant S_ .f32 0x7FC00000#32),
    TRef.unary main_call1.cst main_call1.v15 (broadcastInDim S4096x50x128 ![] bcast_S_S4096x50x128),
    TRef.ternary main_call1.v14 main_call1.v13 main_call1.v15 main_call1.v16 select,
    unary main_arg0 main_v10 (extractStridedSlice S4096x50x1 ![0, 0, 2] · slices_S4096x50x3_S4096x50x1_0_0_2),
    reshape main_v10 main_v11 rfl shapeCasts_S4096x50x1_S4096x50,
    nullary main_c_1 (constantI S_ 32 0#32),
    unary main_c_1 main_v12 (broadcastInDim S4096x50 ![] bcast_S_S4096x50),
    binary main_v11 main_v12 main_v13 subi,
    TRef.nullary main_call2.c (constantI S_ 32 0#32),
    TRef.unary main_call2.c main_call2.v0 (broadcastInDim S4096x50 ![] bcast_S_S4096x50),
    TRef.binary (.of main_v13) main_call2.v0 main_call2.v1 (cmpi .slt),
    TRef.nullary main_call2.c_0 (constantI S_ 32 1001#32),
    TRef.unary main_call2.c_0 main_call2.v2 (broadcastInDim S4096x50 ![] bcast_S_S4096x50),
    TRef.binary (.of main_v13) main_call2.v2 main_call2.v3 addi,
    TRef.ternary main_call2.v1 main_call2.v3 (.of main_v13) main_call2.call0.v0 select,
    TRef.unary main_call2.call0.v0 main_call2.v5 (broadcastInDim S4096x50x1 ![0, 1] bcast_S4096x50_S4096x50x1_0_1),
    TRef.nullary main_call2.c_1 (constantI S1 32 1000#32),
    TRef.nullary main_call2.c_2 (constantI S_ 32 0#32),
    TRef.unary main_call2.c_2 main_call2.v6 (broadcastInDim S4096x50x1 ![] bcast_S_S4096x50x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S4096x50x1 ![0, 1, 2] bcast_S1x1x1_S4096x50x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4096x50x1_S4096x50_d2 h_S_),
    TRef.binary (.of main_arg3) main_call2.v5 main_call2.v13 (fun x i => Host.gather gather_S1001x128_S4096x50x1_S4096x50x128_2_0_n_n_0_2_1128 x i),
    TRef.unary main_call2.v12 main_call2.v14 (broadcastInDim S4096x50x128 ![0, 1] bcast_S4096x50_S4096x50x128_0_1),
    TRef.nullary main_call2.cst (constant S_ .f32 0x7FC00000#32),
    TRef.unary main_call2.cst main_call2.v15 (broadcastInDim S4096x50x128 ![] bcast_S_S4096x50x128),
    TRef.ternary main_call2.v14 main_call2.v13 main_call2.v15 main_call2.v16 select,
    unary main_v4 main_v15 (broadcastInDim S4096x50x1x128 ![0, 1, 3] bcast_S4096x50x128_S4096x50x1x128_0_1_3),
    unary main_v9 main_v16 (broadcastInDim S4096x50x1x128 ![0, 1, 3] bcast_S4096x50x128_S4096x50x1x128_0_1_3),
    unary main_v14 main_v17 (broadcastInDim S4096x50x1x128 ![0, 1, 3] bcast_S4096x50x128_S4096x50x1x128_0_1_3),
    nary ![main_v15, main_v16, main_v17] main_v18 (fun u => concatenate S4096x50x3x128 2 [⟨S4096x50x1x128, u 0⟩, ⟨S4096x50x1x128, u 1⟩, ⟨S4096x50x1x128, u 2⟩] concatenates_S4096x50x1x128_S4096x50x1x128_S4096x50x1x128_S4096x50x3x128_d2) ]

-- eighty-eight sequencing steps: the two sides are one chain once the calls' bodies are unfolded, which the check does
set_option maxRecDepth 8192 in
/-- The program is that straight line: the two functions' bodies unfolded at their calls. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., nary_bufs_sub ..⟩

end Cert.ReferenceIdeal.RefValue

end
-- ==== Proof.RefRun.lean ====
/-
  The reference program's run, read back.  The program is a straight line of host operations (`ops`), so every weakly
  fair execution terminates with each buffer at the fold of the operations' results over the launch contents; at the
  result buffer that fold is the composed term `refTerm` of the argument contents, and at an argument buffer, which no
  operation writes, it is what was there.
-/
import proofs.«206595_g34437047779621_cont_8to1_b_428_16_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## What each buffer holds after the line -/

/-- The fold of two lines run one after the other is the second's over the first's. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => after_append l l₂ (op.result V)

/-- The 84 operations of the three takes (each with the five that form its index words). -/
abbrev bodyOps : List (HloOp τ sig (Elt F)) :=
  [ unary main_arg0 main_v0 (extractStridedSlice S4096x50x1 ![0, 0, 0] · slices_S4096x50x3_S4096x50x1_0_0_0),
    reshape main_v0 main_v1 rfl shapeCasts_S4096x50x1_S4096x50,
    nullary main_c (constantI S_ 32 0#32),
    unary main_c main_v2 (broadcastInDim S4096x50 ![] bcast_S_S4096x50),
    binary main_v1 main_v2 main_v3 subi,
    TRef.nullary main_call0.c (constantI S_ 32 0#32),
    TRef.unary main_call0.c main_call0.v0 (broadcastInDim S4096x50 ![] bcast_S_S4096x50),
    TRef.binary (.of main_v3) main_call0.v0 main_call0.v1 (cmpi .slt),
    TRef.nullary main_call0.c_0 (constantI S_ 32 1001#32),
    TRef.unary main_call0.c_0 main_call0.v2 (broadcastInDim S4096x50 ![] bcast_S_S4096x50),
    TRef.binary (.of main_v3) main_call0.v2 main_call0.v3 addi,
    TRef.ternary main_call0.v1 main_call0.v3 (.of main_v3) main_call0.call0.v0 select,
    TRef.unary main_call0.call0.v0 main_call0.v5 (broadcastInDim S4096x50x1 ![0, 1] bcast_S4096x50_S4096x50x1_0_1),
    TRef.nullary main_call0.c_1 (constantI S1 32 1000#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1) main_call0.v5 main_call0.v13 (fun x i => Host.gather gather_S1001x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    unary main_arg0 main_v5 (extractStridedSlice S4096x50x1 ![0, 0, 1] · slices_S4096x50x3_S4096x50x1_0_0_1),
    reshape main_v5 main_v6 rfl shapeCasts_S4096x50x1_S4096x50,
    nullary main_c_0 (constantI S_ 32 0#32),
    unary main_c_0 main_v7 (broadcastInDim S4096x50 ![] bcast_S_S4096x50),
    binary main_v6 main_v7 main_v8 subi,
    TRef.nullary main_call1.c (constantI S_ 32 0#32),
    TRef.unary main_call1.c main_call1.v0 (broadcastInDim S4096x50 ![] bcast_S_S4096x50),
    TRef.binary (.of main_v8) main_call1.v0 main_call1.v1 (cmpi .slt),
    TRef.nullary main_call1.c_0 (constantI S_ 32 1001#32),
    TRef.unary main_call1.c_0 main_call1.v2 (broadcastInDim S4096x50 ![] bcast_S_S4096x50),
    TRef.binary (.of main_v8) main_call1.v2 main_call1.v3 addi,
    TRef.ternary main_call1.v1 main_call1.v3 (.of main_v8) main_call1.call0.v0 select,
    TRef.unary main_call1.call0.v0 main_call1.v5 (broadcastInDim S4096x50x1 ![0, 1] bcast_S4096x50_S4096x50x1_0_1),
    TRef.nullary main_call1.c_1 (constantI S1 32 1000#32),
    TRef.nullary main_call1.c_2 (constantI S_ 32 0#32),
    TRef.unary main_call1.c_2 main_call1.v6 (broadcastInDim S4096x50x1 ![] bcast_S_S4096x50x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x50x1 ![0, 1, 2] bcast_S1x1x1_S4096x50x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x50x1_S4096x50_d2 h_S_),
    TRef.binary (.of main_arg2) main_call1.v5 main_call1.v13 (fun x i => Host.gather gather_S1001x128_S4096x50x1_S4096x50x128_2_0_n_n_0_2_1128 x i),
    TRef.unary main_call1.v12 main_call1.v14 (broadcastInDim S4096x50x128 ![0, 1] bcast_S4096x50_S4096x50x128_0_1),
    TRef.nullary main_call1.cst (constant S_ .f32 0x7FC00000#32),
    TRef.unary main_call1.cst main_call1.v15 (broadcastInDim S4096x50x128 ![] bcast_S_S4096x50x128),
    TRef.ternary main_call1.v14 main_call1.v13 main_call1.v15 main_call1.v16 select,
    unary main_arg0 main_v10 (extractStridedSlice S4096x50x1 ![0, 0, 2] · slices_S4096x50x3_S4096x50x1_0_0_2),
    reshape main_v10 main_v11 rfl shapeCasts_S4096x50x1_S4096x50,
    nullary main_c_1 (constantI S_ 32 0#32),
    unary main_c_1 main_v12 (broadcastInDim S4096x50 ![] bcast_S_S4096x50),
    binary main_v11 main_v12 main_v13 subi,
    TRef.nullary main_call2.c (constantI S_ 32 0#32),
    TRef.unary main_call2.c main_call2.v0 (broadcastInDim S4096x50 ![] bcast_S_S4096x50),
    TRef.binary (.of main_v13) main_call2.v0 main_call2.v1 (cmpi .slt),
    TRef.nullary main_call2.c_0 (constantI S_ 32 1001#32),
    TRef.unary main_call2.c_0 main_call2.v2 (broadcastInDim S4096x50 ![] bcast_S_S4096x50),
    TRef.binary (.of main_v13) main_call2.v2 main_call2.v3 addi,
    TRef.ternary main_call2.v1 main_call2.v3 (.of main_v13) main_call2.call0.v0 select,
    TRef.unary main_call2.call0.v0 main_call2.v5 (broadcastInDim S4096x50x1 ![0, 1] bcast_S4096x50_S4096x50x1_0_1),
    TRef.nullary main_call2.c_1 (constantI S1 32 1000#32),
    TRef.nullary main_call2.c_2 (constantI S_ 32 0#32),
    TRef.unary main_call2.c_2 main_call2.v6 (broadcastInDim S4096x50x1 ![] bcast_S_S4096x50x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S4096x50x1 ![0, 1, 2] bcast_S1x1x1_S4096x50x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4096x50x1_S4096x50_d2 h_S_),
    TRef.binary (.of main_arg3) main_call2.v5 main_call2.v13 (fun x i => Host.gather gather_S1001x128_S4096x50x1_S4096x50x128_2_0_n_n_0_2_1128 x i),
    TRef.unary main_call2.v12 main_call2.v14 (broadcastInDim S4096x50x128 ![0, 1] bcast_S4096x50_S4096x50x128_0_1),
    TRef.nullary main_call2.cst (constant S_ .f32 0x7FC00000#32),
    TRef.unary main_call2.cst main_call2.v15 (broadcastInDim S4096x50x128 ![] bcast_S_S4096x50x128),
    TRef.ternary main_call2.v14 main_call2.v13 main_call2.v15 main_call2.v16 select ]

/-- The last four operations: the unit axis put into each take, and the concatenation. -/
abbrev tailOps : List (HloOp τ sig (Elt F)) :=
  [ unary main_v4 main_v15 (broadcastInDim S4096x50x1x128 ![0, 1, 3] bcast_S4096x50x128_S4096x50x1x128_0_1_3),
    unary main_v9 main_v16 (broadcastInDim S4096x50x1x128 ![0, 1, 3] bcast_S4096x50x128_S4096x50x1x128_0_1_3),
    unary main_v14 main_v17 (broadcastInDim S4096x50x1x128 ![0, 1, 3] bcast_S4096x50x128_S4096x50x1x128_0_1_3),
    nary ![main_v15, main_v16, main_v17] main_v18 (fun u => concatenate S4096x50x3x128 2 [⟨S4096x50x1x128, u 0⟩, ⟨S4096x50x1x128, u 1⟩, ⟨S4096x50x1x128, u 2⟩] concatenates_S4096x50x1x128_S4096x50x1x128_S4096x50x1x128_S4096x50x3x128_d2) ]

theorem ops_eq : (ops : List (HloOp τ sig (Elt F))) = bodyOps ++ tailOps := rfl

/-- After the last four, the result buffer holds the concatenation of the three takes' buffers with a unit axis put in. -/
theorem tail_main_v18 (W : Valuation τ sig (Elt F)) :
    after tailOps W (main_v18 : DevRef τ sig)
      = concatenate S4096x50x3x128 2
          [⟨S4096x50x1x128, broadcastInDim S4096x50x1x128 ![0, 1, 3] bcast_S4096x50x128_S4096x50x1x128_0_1_3 (W (main_v4 : DevRef τ sig))⟩,
           ⟨S4096x50x1x128, broadcastInDim S4096x50x1x128 ![0, 1, 3] bcast_S4096x50x128_S4096x50x1x128_0_1_3 (W (main_v9 : DevRef τ sig))⟩,
           ⟨S4096x50x1x128, broadcastInDim S4096x50x1x128 ![0, 1, 3] bcast_S4096x50x128_S4096x50x1x128_0_1_3 (W (main_v14 : DevRef τ sig))⟩]
          concatenates_S4096x50x1x128_S4096x50x1x128_S4096x50x1x128_S4096x50x3x128_d2 := by
  simp only [after_cons, after_nil]
  rfl

/-- Contents moved to a typed reference's buffer type and back are the contents. -/
theorem ofBuf_toBuf {sig : RefSig} {Val : EltTy → Type} {T : BufTy} (x : TRef sig T) (v : T.Contents Val) :
    x.ofBuf (x.toBuf v) = v := by
  unfold TRef.ofBuf TRef.toBuf
  rw [cast_cast, cast_eq]

/-! Each take's buffer after the 84: the take of its table at its index words.  One pass: each operation's result
    read at the buffer it writes, any other buffer left as it was; the typed references' transports are the identity
    at these literal references (a transport to a buffer's type and back cancels; the rest are between equal types). -/

set_option maxRecDepth 8192 in
set_option maxHeartbeats 2000000 in
theorem body_main_v4 (V : Valuation τ sig (Elt F)) :
    after bodyOps V (main_v4 : DevRef τ sig)
      = takeTerm (V (main_arg1 : DevRef τ sig)) (idxCol (V (main_arg0 : DevRef τ sig)) ![0, 0, 0] slices_S4096x50x3_S4096x50x1_0_0_0) := by
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', ofBuf_toBuf]
  simp only [TRef.toBuf, TRef.ofBuf, cast_eq]
  rfl

set_option maxRecDepth 8192 in
set_option maxHeartbeats 2000000 in
theorem body_main_v9 (V : Valuation τ sig (Elt F)) :
    after bodyOps V (main_v9 : DevRef τ sig)
      = takeTerm (V (main_arg2 : DevRef τ sig)) (idxCol (V (main_arg0 : DevRef τ sig)) ![0, 0, 1] slices_S4096x50x3_S4096x50x1_0_0_1) := by
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', ofBuf_toBuf]
  simp only [TRef.toBuf, TRef.ofBuf, cast_eq]
  rfl

set_option maxRecDepth 8192 in
set_option maxHeartbeats 2000000 in
theorem body_main_v14 (V : Valuation τ sig (Elt F)) :
    after bodyOps V (main_v14 : DevRef τ sig)
      = takeTerm (V (main_arg3 : DevRef τ sig)) (idxCol (V (main_arg0 : DevRef τ sig)) ![0, 0, 2] slices_S4096x50x3_S4096x50x1_0_0_2) := by
  simp (disch := decide) only [after_cons, after_nil, TRef.nullary, TRef.unary, TRef.binary, TRef.ternary,
    nullary_result', unary_result', binary_result', ternary_result', reshape_result',
    nullary_result_ne', unary_result_ne', binary_result_ne', ternary_result_ne', reshape_result_ne', ofBuf_toBuf]
  simp only [TRef.toBuf, TRef.ofBuf, cast_eq]
  rfl

/-- The fold at the result buffer is the composed term. -/
theorem out_eq (V : Valuation τ sig (Elt F)) :
    after ops V (main_v18 : DevRef τ sig)
      = refTerm (V (main_arg0 : DevRef τ sig)) (V (main_arg1 : DevRef τ sig)) (V (main_arg2 : DevRef τ sig))
          (V (main_arg3 : DevRef τ sig)) := by
  rw [ops_eq, after_append, tail_main_v18, body_main_v4, body_main_v9, body_main_v14]
  rfl

set_option maxRecDepth 8192 in
theorem arg0_eq (V : Valuation τ sig (Elt F)) :
    after ops V (main_arg0 : DevRef τ sig) = V (main_arg0 : DevRef τ sig) := by
  simp only [after_cons, after_nil]
  rfl

set_option maxRecDepth 8192 in
theorem arg1_eq (V : Valuation τ sig (Elt F)) :
    after ops V (main_arg1 : DevRef τ sig) = V (main_arg1 : DevRef τ sig) := by
  simp only [after_cons, after_nil]
  rfl

set_option maxRecDepth 8192 in
theorem arg2_eq (V : Valuation τ sig (Elt F)) :
    after ops V (main_arg2 : DevRef τ sig) = V (main_arg2 : DevRef τ sig) := by
  simp only [after_cons, after_nil]
  rfl

set_option maxRecDepth 8192 in
theorem arg3_eq (V : Valuation τ sig (Elt F)) :
    after ops V (main_arg3 : DevRef τ sig) = V (main_arg3 : DevRef τ sig) := by
  simp only [after_cons, after_nil]
  rfl

/-! ## The run -/

/-- On every device, for any float values, from any memory with zero counters: every weakly fair execution of the
    reference terminates with the result buffer at `refTerm` of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v18)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v18).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefValue

end
-- ==== Proof.LibGatherRows.lean ====
/-
  A row gather read at an index.  What `W[idx]` of a table `W : [N, D]` at an integer array `idx : [R, C]` lowers to
  is a gather with offset axis [2], collapsed slice axis [0], start index map [0], slice sizes [1, D] and the index
  vector on axis 2, over the indices as `[R, C, 1]`.  Result element (r, c, e) is entry e of the table's row at the
  start index `idx[r, c, 0]`, read as a signed integer and clamped into [0, N − 1].
-/
import Idealize.ShloMosaic.Lib.ValueIdx

namespace Cert.GatherRows

open Idealize.ShloMosaic Idealize.ShloMosaic.ValueIdx

variable {α : Type}

/-- Those dimension numbers for a table `[N, D]`, start indices `[R, C, 1]` and result `[R, C, D]`. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- A rank-3 index's coordinates are below the literal extents, written as the extents themselves. -/
theorem idx3_lt0 {R C D : Nat} (y : (⟨3, ![R, C, D]⟩ : Shape).Idx) : (y 0).val < R := (y 0).isLt
theorem idx3_lt1 {R C D : Nat} (y : (⟨3, ![R, C, D]⟩ : Shape).Idx) : (y 1).val < C := (y 1).isLt
theorem idx3_lt2 {R C D : Nat} (y : (⟨3, ![R, C, D]⟩ : Shape).Idx) : (y 2).val < D := (y 2).isLt

/-- The start-indices index `[r, c, 0]` of result index `(r, c, e)`. -/
abbrev rowIdx {R C D : Nat} (y : (⟨3, ![R, C, D]⟩ : Shape).Idx) : (⟨3, ![R, C, 1]⟩ : Shape).Idx :=
  fun a => match a with
    | ⟨0, _⟩ => ⟨(y 0).val, idx3_lt0 y⟩
    | ⟨1, _⟩ => ⟨(y 1).val, idx3_lt1 y⟩
    | ⟨2, _⟩ => ⟨0, Nat.one_pos⟩

/-- The row gather read at `(r, c, e)`: entry `e` of the table's row at the start index `idx[r, c, 0]`, read signed
    and clamped into `[0, N − 1]`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowDims N D R C wf) x idx y
      = x (ix2 (n0 := N) (n1 := D) ⟨min (idx (rowIdx y)).toInt.toNat (N - 1), by omega⟩ ⟨(y 2).val, idx3_lt2 y⟩) := by
  unfold Host.gather
  congr 1
  funext a
  refine Fin.ext ?_
  match a with
  | ⟨0, _⟩ =>
    show (rowDims N D R C wf).start y idx 0 + (rowDims N D R C wf).batchCoord y 0 + (rowDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx y ⟨List.idxOf (0 : Fin 2) (rowDims N D R C wf).startIndexMap,
        List.idxOf_lt_length_iff.2 (List.mem_singleton.mpr rfl)⟩ = rowIdx y := by
      funext b; refine Fin.ext ?_
      match b with
      | ⟨0, _⟩ => rfl
      | ⟨1, _⟩ => rfl
      | ⟨2, _⟩ => rfl
    rw [hsi]
    rfl
  | ⟨1, _⟩ =>
    show (rowDims N D R C wf).start y idx 1 + (rowDims N D R C wf).batchCoord y 1 + (rowDims N D R C wf).offCoord y 1 = _
    rw [GatherDims.batchCoord_eq_zero _ _ _ List.not_mem_nil]
    have hs : (rowDims N D R C wf).start y idx 1 = 0 := by
      unfold GatherDims.start
      rw [dif_neg (show ¬ ((1 : Fin 2) ∈ ([0] : List (Fin 2))) from by decide)]
    have hk : (1 : Fin 2) ∈ (rowDims N D R C wf).sKept :=
      (GatherDims.mem_sKept _ _).mpr ⟨(show ¬ ((1 : Fin 2) ∈ ([0] : List (Fin 2))) from by decide), List.not_mem_nil⟩
    rw [hs]
    simp only [Nat.zero_add]
    unfold GatherDims.offCoord
    rw [dif_pos hk]
    rfl

end Cert.GatherRows
-- ==== Proof.LibReduceOnes.lean ====
/-
  An "all" that comes out true.  A reduction by `and` over one-bit words, started from 1, is 1 when every element it
  meets is 1: the converse of reading a true "all" back into its elements.
-/
import Idealize.ShloMosaic.Lib.ReduceAll

namespace Cert.ReduceOnes

open Idealize.ShloMosaic

/-- A left fold by `and` from 1 over one-bit words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi (1#1 : BitVec 1) 1#1 = 1#1 := by decide
    rw [List.foldl_cons, hf a, h11]
    exact foldl_andi_ones f hf l

/-- A reduce by `and` whose initial value is 1 and whose operand is 1 everywhere is 1 at every result index. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x hx _

end Cert.ReduceOnes
-- ==== Proof.RefValue.lean ====
/-
  The reference's result is the lookup.  Read at entry (b, t, l, e), the concatenation picks table l's piece; the piece is
  one take read at (b, t, e); the take's index word there is x(b, t, l), which lies between 0 and 999, so the wrap of a
  negative word leaves it, the in-bounds test 0 ≤ word ≤ 1000 holds and the select takes the gathered row; the gather
  clamps the word into [0, 1000], which leaves it too, and reads entry e of that row of the table.  Nothing here looks at
  the tables' entries.
-/
import proofs.«206595_g34437047779621_cont_8to1_b_428_16_alg».proof.Proof.Spec
import proofs.«206595_g34437047779621_cont_8to1_b_428_16_alg».proof.Proof.RefOps
import proofs.«206595_g34437047779621_cont_8to1_b_428_16_alg».proof.Proof.LibGatherRows
import proofs.«206595_g34437047779621_cont_8to1_b_428_16_alg».proof.Proof.LibReduceOnes
import Idealize.ShloMosaic.Lib.Pipeline.Value

noncomputable section

namespace Cert.ReferenceIdeal.RefValue

open Cert.ReferenceIdeal Cert.ReferenceIdeal.Gen Idealize.ShloMosaic Idealize.ShloMosaic.ValueIdx

variable {F : FTy → Type} [FloatOps F]

/-! ## A word between 0 and 999 -/

/-- Such a word reads the same signed and unsigned. -/
theorem toInt_of_le {v : BitVec 32} (h : v.toNat ≤ 999) : v.toInt = (v.toNat : Int) :=
  BitVec.toInt_eq_toNat_of_lt (by omega)

/-- The wrap of a negative word leaves it. -/
theorem wrap_word {v : BitVec 32} (h : v.toNat ≤ 999) :
    Scalar.select (IntOp.cmpi .slt v 0#32) (IntOp.addi v 1001#32) v = v := by
  have e0 : (0#32 : BitVec 32).toInt = 0 := by decide
  have hc : ¬ IntOp.cmpi .slt v 0#32 = 1#1 := by
    rw [IntOp.cmpi_slt, toInt_of_le h, e0]; omega
  rw [eq_zero_of_ne_one hc, select_zero]

/-- The in-bounds test holds of it. -/
theorem mask_word {v : BitVec 32} (h : v.toNat ≤ 999) :
    IntOp.andi (IntOp.cmpi .sge v 0#32) (IntOp.cmpi .sle v 1000#32) = 1#1 := by
  have e0 : (0#32 : BitVec 32).toInt = 0 := by decide
  have e1 : (1000#32 : BitVec 32).toInt = 1000 := by decide
  rw [IntOp.andi_eq_one, IntOp.cmpi_sge, IntOp.cmpi_sle, toInt_of_le h, e0, e1]
  omega

/-! ## The pieces read at an index -/

/-- The index words of table `l` at (b, t): the word x(b, t, l). -/
theorem idxCol_apply (x : IVec S4096x50x3 32) (off : Fin S4096x50x3.rank → Nat) (h : S4096x50x3.Slices off S4096x50x1)
    (l : Fin 3) (h0 : off 0 = 0) (h1 : off 1 = 0) (h2 : off 2 = l.val) (b : Fin 4096) (t : Fin 50) :
    idxCol x off h (ix2 b t) = x (ix3 b t l) := by
  unfold idxCol
  show IntOp.subi (shapeCast S4096x50 (extractStridedSlice S4096x50x1 off x h) shapeCasts_S4096x50x1_S4096x50 (ix2 b t)) 0#32 = _
  rw [shapeCast_apply _ _ (ix2 b t) (ix3 b t (⟨0, Nat.one_pos⟩ : Fin 1))
    (by rw [Shape.rowMajor_val_three, Shape.rowMajor_val_two]
        show ((b : ℕ) * 50 + (t : ℕ)) * 1 + 0 = (b : ℕ) * 50 + (t : ℕ)
        omega)]
  rw [extractStridedSlice_apply off x h _ (ix3 b t l)
    (by intro a
        match a with
        | ⟨0, _⟩ => show (b : ℕ) = off 0 + (b : ℕ); rw [h0]; omega
        | ⟨1, _⟩ => show (t : ℕ) = off 1 + (t : ℕ); rw [h1]; omega
        | ⟨2, _⟩ => show (l : ℕ) = off 2 + 0; rw [h2]; omega)]
  show x (ix3 b t l) - 0#32 = _
  exact BitVec.sub_zero _

/-- The wrapped words at an index of the [4096, 50, 1] column, when every word is between 0 and 999: the word. -/
theorem idxColumn_apply (idx : IVec S4096x50 32) (hall : ∀ k, (idx k).toNat ≤ 999) (i : S4096x50x1.Idx) :
    idxColumn idx i = idx (ix2 (n0 := 4096) (n1 := 50) (i 0) (i 1)) := by
  unfold idxColumn
  rw [broadcastInDim_apply _ _ _ i (ix2 (n0 := 4096) (n1 := 50) (i 0) (i 1))
    (by intro a
        match a with
        | ⟨0, _⟩ => rfl
        | ⟨1, _⟩ => rfl)]
  exact wrap_word (hall _)

/-- Every wrapped word is in bounds. -/
theorem inBounds_apply (idx : IVec S4096x50 32) (hall : ∀ k, (idx k).toNat ≤ 999) (j : S4096x50.Idx) :
    inBounds idx j = 1#1 := by
  unfold inBounds
  refine Cert.ReduceOnes.reduce_andi_ones _ _ _ _ j rfl (fun i => ?_)
  show IntOp.andi (IntOp.cmpi .sge (idxColumn idx i) 0#32) (IntOp.cmpi .sle (idxColumn idx i) 1000#32) = 1#1
  rw [idxColumn_apply idx hall i]
  exact mask_word (hall _)

/-- One take read at (b, t, e), when every word is between 0 and 999: entry e of the table's row at the word. -/
theorem takeTerm_apply (W : FVec F S1001x128 .f32) (idx : IVec S4096x50 32) (b : Fin 4096) (t : Fin 50) (e : Fin 128)
    (hall : ∀ k, (idx k).toNat ≤ 999) :
    takeTerm W idx (ix3 b t e) = W (ix2 (Cert.Lookup.rowOf (idx (ix2 b t))) e) := by
  unfold takeTerm
  rw [select_apply]
  have hc : broadcastInDim S4096x50x128 ![0, 1] bcast_S4096x50_S4096x50x128_0_1 (inBounds idx) (ix3 b t e) = 1#1 := by
    rw [broadcastInDim_apply _ _ _ (ix3 b t e) (ix2 b t)
      (by intro a
          match a with
          | ⟨0, _⟩ => rfl
          | ⟨1, _⟩ => rfl)]
    exact inBounds_apply idx hall _
  rw [hc, select_one]
  have hG : gather_S1001x128_S4096x50x1_S4096x50x128_2_0_n_n_0_2_1128 = Cert.GatherRows.rowDims 1001 128 4096 50 gather_S1001x128_S4096x50x1_S4096x50x128_2_0_n_n_0_2_1128_wf := rfl
  rw [hG, Cert.GatherRows.gather_rows_apply (by decide)]
  have hcol : idxColumn idx (Cert.GatherRows.rowIdx (ix3 b t e)) = idx (ix2 b t) := idxColumn_apply idx hall _
  have hv := hall (ix2 b t)
  refine congrArg W (funext fun a => ?_)
  match a with
  | ⟨0, _⟩ =>
    refine Fin.ext ?_
    show min (idxColumn idx (Cert.GatherRows.rowIdx (ix3 b t e))).toInt.toNat (1001 - 1)
      = (Cert.Lookup.rowOf (idx (ix2 b t))).val
    rw [hcol, Cert.Lookup.rowOf_of_le hv, toInt_of_le hv, Int.toNat_natCast]
    omega
  | ⟨1, _⟩ => rfl

/-- One table's piece read at (b, t, 0, e): its take at (b, t, e). -/
theorem piece_apply (W : FVec F S1001x128 .f32) (idx : IVec S4096x50 32) (b : Fin 4096) (t : Fin 50) (e : Fin 128) :
    piece W idx (ix4 b t (⟨0, Nat.one_pos⟩ : Fin 1) e) = takeTerm W idx (ix3 b t e) := by
  unfold piece
  exact broadcastInDim_apply _ _ _ _ (ix3 b t e)
    (by intro a
        match a with
        | ⟨0, _⟩ => rfl
        | ⟨1, _⟩ => rfl
        | ⟨2, _⟩ => rfl)

/-! ## The result -/

/-- On index words between 0 and 999 the reference's result is the lookup. -/
theorem refTerm_eq (x : IVec S4096x50x3 32) (W0 W1 W2 : FVec F S1001x128 .f32) (hx : Cert.Lookup.InRange x) :
    refTerm x W0 W1 W2 = Cert.Lookup.lookup x W0 W1 W2 := by
  funext j
  obtain ⟨b, t, l, e, rfl⟩ : ∃ (b : Fin 4096) (t : Fin 50) (l : Fin 3) (e : Fin 128), j = ix4 b t l e :=
    ⟨j 0, j 1, j 2, j 3, eq_ix4 j⟩
  rw [Cert.Lookup.lookup_apply]
  match l with
  | ⟨0, hl⟩ =>
    unfold refTerm
    rw [concatenate_apply_piece (2 : Fin S4096x50x3x128.rank) _ _ (ix4 b t ⟨0, hl⟩ e) 0 (by exact (by omega : (0 : ℕ) < 3)) S4096x50x1x128
      (piece W0 (idxCol x ![0, 0, 0] slices_S4096x50x3_S4096x50x1_0_0_0)) rfl rfl 0 (by rfl)
      (ix4 b t (⟨0, Nat.one_pos⟩ : Fin 1) e)
      (by intro a ha
          match a, ha with
          | ⟨0, _⟩, _ => rfl
          | ⟨1, _⟩, _ => rfl
          | ⟨2, _⟩, ha => exact absurd rfl ha
          | ⟨3, _⟩, _ => rfl)
      (by rfl)]
    rw [piece_apply, takeTerm_apply W0 _ b t e (fun k => by
        obtain ⟨b', t', rfl⟩ : ∃ (b' : Fin 4096) (t' : Fin 50), k = ix2 b' t' := ⟨k 0, k 1, eq_ix2 k⟩
        rw [idxCol_apply x ![0, 0, 0] slices_S4096x50x3_S4096x50x1_0_0_0 ⟨0, hl⟩ rfl rfl rfl]
        exact hx _),
      idxCol_apply x ![0, 0, 0] slices_S4096x50x3_S4096x50x1_0_0_0 ⟨0, hl⟩ rfl rfl rfl]
    rfl
  | ⟨1, hl⟩ =>
    unfold refTerm
    rw [concatenate_apply_piece (2 : Fin S4096x50x3x128.rank) _ _ (ix4 b t ⟨1, hl⟩ e) 1 (by exact (by omega : (1 : ℕ) < 3)) S4096x50x1x128
      (piece W1 (idxCol x ![0, 0, 1] slices_S4096x50x3_S4096x50x1_0_0_1)) rfl rfl 1 (by rfl)
      (ix4 b t (⟨0, Nat.one_pos⟩ : Fin 1) e)
      (by intro a ha
          match a, ha with
          | ⟨0, _⟩, _ => rfl
          | ⟨1, _⟩, _ => rfl
          | ⟨2, _⟩, ha => exact absurd rfl ha
          | ⟨3, _⟩, _ => rfl)
      (by rfl)]
    rw [piece_apply, takeTerm_apply W1 _ b t e (fun k => by
        obtain ⟨b', t', rfl⟩ : ∃ (b' : Fin 4096) (t' : Fin 50), k = ix2 b' t' := ⟨k 0, k 1, eq_ix2 k⟩
        rw [idxCol_apply x ![0, 0, 1] slices_S4096x50x3_S4096x50x1_0_0_1 ⟨1, hl⟩ rfl rfl rfl]
        exact hx _),
      idxCol_apply x ![0, 0, 1] slices_S4096x50x3_S4096x50x1_0_0_1 ⟨1, hl⟩ rfl rfl rfl]
    rfl
  | ⟨2, hl⟩ =>
    unfold refTerm
    rw [concatenate_apply_piece (2 : Fin S4096x50x3x128.rank) _ _ (ix4 b t ⟨2, hl⟩ e) 2 (by exact (by omega : (2 : ℕ) < 3)) S4096x50x1x128
      (piece W2 (idxCol x ![0, 0, 2] slices_S4096x50x3_S4096x50x1_0_0_2)) rfl rfl 2 (by rfl)
      (ix4 b t (⟨0, Nat.one_pos⟩ : Fin 1) e)
      (by intro a ha
          match a, ha with
          | ⟨0, _⟩, _ => rfl
          | ⟨1, _⟩, _ => rfl
          | ⟨2, _⟩, ha => exact absurd rfl ha
          | ⟨3, _⟩, _ => rfl)
      (by rfl)]
    rw [piece_apply, takeTerm_apply W2 _ b t e (fun k => by
        obtain ⟨b', t', rfl⟩ : ∃ (b' : Fin 4096) (t' : Fin 50), k = ix2 b' t' := ⟨k 0, k 1, eq_ix2 k⟩
        rw [idxCol_apply x ![0, 0, 2] slices_S4096x50x3_S4096x50x1_0_0_2 ⟨2, hl⟩ rfl rfl rfl]
        exact hx _),
      idxCol_apply x ![0, 0, 2] slices_S4096x50x3_S4096x50x1_0_0_2 ⟨2, hl⟩ rfl rfl rfl]
    rfl

end Cert.ReferenceIdeal.RefValue

end
-- ==== Proof.Claims.lean ====
/-
  The five claims.  Each kernel frame is the kernel's run with the result dropped, the index range read off the input
  precondition; the reference's frame is its run with the result dropped; the idealization rewrote nothing; and at the
  ideal instance both programs end with the lookup of the launch index words in the launch tables: the kernel's run
  says so of the kernel, and the reference's result term is the lookup on index words between 0 and 999.
-/
import proofs.«206595_g34437047779621_cont_8to1_b_428_16_alg».proof.Proof.KLaunch
import proofs.«206595_g34437047779621_cont_8to1_b_428_16_alg».proof.Proof.KILaunch
import proofs.«206595_g34437047779621_cont_8to1_b_428_16_alg».proof.Proof.KBody
import proofs.«206595_g34437047779621_cont_8to1_b_428_16_alg».proof.Proof.KIBody
import proofs.«206595_g34437047779621_cont_8to1_b_428_16_alg».proof.Proof.KTail
import proofs.«206595_g34437047779621_cont_8to1_b_428_16_alg».proof.Proof.KITail
import proofs.«206595_g34437047779621_cont_8to1_b_428_16_alg».proof.Proof.Domain
import proofs.«206595_g34437047779621_cont_8to1_b_428_16_alg».proof.Proof.RefRun
import proofs.«206595_g34437047779621_cont_8to1_b_428_16_alg».proof.Proof.RefValue
import proofs.«206595_g34437047779621_cont_8to1_b_428_16_alg».proof.Proof.Gen.Pre_input_domain

noncomputable section

namespace Cert.Proof.Claims

open Idealize.ShloMosaic Idealize.SL.Sem

/-- A tile's task after its opening part is the three pipelined loops, with their specification: for the kernel as
    printed, -/
theorem tailK {F : FTy → Type} [FloatOps F] (m : (ℓ : Loc Cert.Kernel.nD Cert.Kernel.τ Cert.Kernel.sig) → Buf (Elt F) ℓ) :
    Cert.Proof.K.TailSpec m (Cert.Proof.K.tail34 (F := F)) :=
  ⟨Cert.Proof.K.cc0_k_eq_head_tail, fun d L O W hO hx qi qs => Cert.Proof.K.tail_spec m d L O W hO hx qi qs⟩
/-- and for the idealized kernel. -/
theorem tailKI {F : FTy → Type} [FloatOps F] (m : (ℓ : Loc Cert.KernelIdeal.nD Cert.KernelIdeal.τ Cert.KernelIdeal.sig) → Buf (Elt F) ℓ) :
    Cert.Proof.KI.TailSpec m (Cert.Proof.KI.tail34 (F := F)) :=
  ⟨Cert.Proof.KI.cc0_k_eq_head_tail, fun d L O W hO hx qi qs => Cert.Proof.KI.tail_spec m d L O W hO hx qi qs⟩

/-- The kernel as printed: its run, the result dropped.  The index words' range comes from the input precondition. -/
theorem frame_K : Cert.frame_Kernel := by
  intro m ρ hpre
  have hx : ∀ d : Dev Cert.Kernel.nD, Cert.Lookup.InRange (m (Cert.Proof.K.xLoc d) : IVec Cert.Lookup.SX 32) := fun d =>
    Cert.Lookup.inRange_of_pre (F := Bits) _ _ _ _ (hpre d)
  exact (θ_run Cert.Kernel.defs _ _).mono (fun _ h c => (h c).2)
    (Cert.Proof.K.run_main (F := Bits) m ρ (Cert.Proof.K.tileObl m (tailK m) Cert.Proof.K.facts hx))

/-- The idealized kernel: the same at the ideal instance. -/
theorem frame_KI : Cert.frame_KernelIdeal := by
  intro m ρ hpre
  have hx : ∀ d : Dev Cert.KernelIdeal.nD, Cert.Lookup.InRange (m (Cert.Proof.KI.xLoc d) : IVec Cert.Lookup.SX 32) := fun d =>
    Cert.Lookup.inRange_of_pre (F := Ideal) _ _ _ _ (hpre d)
  exact (θ_run Cert.KernelIdeal.defs _ _).mono (fun _ h c => (h c).2)
    (Cert.Proof.KI.run_main (F := Ideal) m ρ (Cert.Proof.KI.tileObl m (tailKI m) Cert.Proof.KI.facts hx))

/-- The reference: its run, the result dropped. -/
theorem frame_R : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- At the ideal instance, from memories agreeing on the arguments: the kernel ends with the lookup of its launch index
    words in its launch tables; the reference ends with its result term of the same arguments, which on index words
    between 0 and 999 is that lookup. -/
theorem algebraic : Cert.algebraic_KernelIdeal_ReferenceIdeal := by
  intro m ρ m' ρ' hpre hagree
  have hx : ∀ d : Dev Cert.KernelIdeal.nD, Cert.Lookup.InRange (m (Cert.Proof.KI.xLoc d) : IVec Cert.Lookup.SX 32) := fun d =>
    Cert.Lookup.inRange_of_pre (F := Ideal) _ _ _ _ (hpre d)
  refine ⟨fun c => Cert.Proof.KI.resultR m c,
    Cert.Proof.KI.run_main (F := Ideal) m ρ (Cert.Proof.KI.tileObl m (tailKI m) Cert.Proof.KI.facts hx), ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2]
  exact Cert.ReferenceIdeal.RefValue.refTerm_eq _ _ _ _ (hx c)

end Cert.Proof.Claims

end
-- ==== Proof.lean ====
/-
  The claim: a three-table embedding lookup on the SparseCores against its jnp reference.

  Both programs compute result(b, t, l, e) = W_l (x(b, t, l), e) for index words 0 ≤ x ≤ 999 into tables of 1001 rows
  (Proof/Spec.lean's `Cert.Lookup.lookup`; the range is what the precondition says of `x`, Proof/Domain.lean).

  The kernel: @main transposes the index words to [3, 50, 4096], starts the two SparseCores, and transposes their
  output [50, 3, 4096, 128] back.  On each SparseCore tile 0 copies the three tables from HBM into the SparseCore's
  shared vector memory; the sixteen tiles meet at the subcore barrier, through which tile 0 hands each tile a read
  share of the shared tables (Proof/KSetup.lean, KHead.lean); then every tile runs, per table, a two-slot software
  pipeline over its fifty steps: fetch the next 128 index words while the current 128 rows are gathered from the
  shared table and the previous 128 rows are written to the output block of their step (Proof/KTail*.lean; the
  offsets in closed form: KArith.lean).  Slot and semaphore always carry the same subscript, so every semaphore has
  at most one transfer outstanding and no slot is touched between a transfer's start and its wait.  The thirty-two
  tiles' 2 × 16 × 3 × 50 blocks tile the output exactly (KLaunch.lean), each block holding the lookup's values
  (KTailVal.lean), and the last transpose of the kernel's layout is the lookup (KLaunch.lean).

  The reference: three row gathers with jnp's index wrap, clamp and out-of-range mask, which on the precondition's
  range leave the word, the row and the gathered value as they are, stacked along the table axis (Proof/Ref*.lean).

  The frames of the two kernel programs are their runs with the result dropped; the idealization rewrote no
  operation, so `preserves` is trivial; `algebraic` pairs the idealized kernel's run with the reference's at the one
  function (Proof/Claims.lean).  The modules named KI… are the K… modules over the idealized kernel's printed text.
-/
import proofs.«206595_g34437047779621_cont_8to1_b_428_16_alg».proof.Defs
import proofs.«206595_g34437047779621_cont_8to1_b_428_16_alg».proof.Proof.Claims

noncomputable section

namespace Cert.Proof

theorem claim : Cert.Claim :=
  ⟨Cert.Kernel.Gen.facts, Cert.KernelIdeal.Gen.facts, Cert.ReferenceIdeal.Gen.facts, Cert.Pre_input_domain.Gen.facts,
    Cert.Proof.Claims.frame_K, Cert.Proof.Claims.frame_KI, Cert.Proof.Claims.frame_R, Cert.Proof.Claims.preserves,
    Cert.Proof.Claims.algebraic⟩

end Cert.Proof

end
